-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 8192, 8, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 8192, 8, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x32x8x128 : Shape := ⟨4, ![4, 32, 8, 128]⟩
abbrev S4x4096x8x128 : Shape := ⟨4, ![4, 4096, 8, 128]⟩
abbrev S_ : Shape := ⟨0, ![]⟩

class Facts : Prop where
  bcast_S_S4x32x8x128 : S_.BroadcastsInDim S4x32x8x128 (![] : Fin 0 → Fin S4x32x8x128.rank)
  reducesTo_S4x32x8x128_S_d0_1_2_3 : S4x32x8x128.ReducesTo [0, 1, 2, 3] S_
  h_S_ : 0 < S_.numel
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_

variable [Facts]

def fn {F : FTy → Type} [FloatOps F] (main_arg0 : FVec F S4x32x8x128 .f32) (main_arg1 : FVec F S4x4096x8x128 .f32) (main_arg2 : FVec F S4x4096x8x128 .f32) : IVec S_ 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_c : IVec S_ 1 := constantI S_ 1 1#1
  let main_v3 : IVec S_ 1 := (fun x v => Host.reduce IntOp.andi x v reducesTo_S4x32x8x128_S_d0_1_2_3 h_S_) main_v2 main_c
  let main_v4 : FVec F S4x4096x8x128 .f32 := Host.absf main_arg1
  let main_cst_0 : FVec F S_ .f32 := constant S_ .f32 0x7F800000#32
  let main_v5 : FVec F S4x4096x8x128 .f32 := broadcastInDim S4x4096x8x128 ![] bcast_S_S4x4096x8x128 main_cst_0
  let main_v6 : IVec S4x4096x8x128 1 := cmpf .olt main_v4 main_v5
  let main_c_1 : IVec S_ 1 := constantI S_ 1 1#1
  let main_v7 : IVec S_ 1 := (fun x v => Host.reduce IntOp.andi x v reducesTo_S4x4096x8x128_S_d0_1_2_3 h_S_) main_v6 main_c_1
  let main_v8 : IVec S_ 1 := andi main_v3 main_v7
  let main_v9 : FVec F S4x4096x8x128 .f32 := Host.absf main_arg2
  let main_cst_2 : FVec F S_ .f32 := constant S_ .f32 0x7F800000#32
  let main_v10 : FVec F S4x4096x8x128 .f32 := broadcastInDim S4x4096x8x128 ![] bcast_S_S4x4096x8x128 main_cst_2
  let main_v11 : IVec S4x4096x8x128 1 := cmpf .olt main_v9 main_v10
  let main_c_3 : IVec S_ 1 := constantI S_ 1 1#1
  let main_v12 : IVec S_ 1 := (fun x v => Host.reduce IntOp.andi x v reducesTo_S4x4096x8x128_S_d0_1_2_3 h_S_) main_v11 main_c_3
  let main_v13 : IVec S_ 1 := andi main_v8 main_v12
  main_v13
-- ==== Pre_finite_inputs_ReferenceIdeal.lean ====
abbrev S4x32x8x128 : Shape := ⟨4, ![4, 32, 8, 128]⟩
abbrev S4x8192x8x128 : Shape := ⟨4, ![4, 8192, 8, 128]⟩
abbrev S_ : Shape := ⟨0, ![]⟩

class Facts : Prop where
  bcast_S_S4x32x8x128 : S_.BroadcastsInDim S4x32x8x128 (![] : Fin 0 → Fin S4x32x8x128.rank)
  reducesTo_S4x32x8x128_S_d0_1_2_3 : S4x32x8x128.ReducesTo [0, 1, 2, 3] S_
  h_S_ : 0 < S_.numel
  bcast_S_S4x8192x8x128 : S_.BroadcastsInDim S4x8192x8x128 (![] : Fin 0 → Fin S4x8192x8x128.rank)
  reducesTo_S4x8192x8x128_S_d0_1_2_3 : S4x8192x8x128.ReducesTo [0, 1, 2, 3] S_

variable [Facts]

def fn {F : FTy → Type} [FloatOps F] (main_arg0 : FVec F S4x32x8x128 .f32) (main_arg1 : FVec F S4x8192x8x128 .f32) (main_arg2 : FVec F S4x8192x8x128 .f32) : IVec S_ 1 :=
  let main_v0 : FVec F S4x32x8x128 .f32 := Host.absf main_arg0
  let main_cst : FVec F S_ .f32 := constant S_ .f32 0x7F800000#32
  let main_v1 : FVec F S4x32x8x128 .f32 := broadcastInDim S4x32x8x128 ![] bcast_S_S4x32x8x128 main_cst
  let main_v2 : IVec S4x32x8x128 1 := cmpf .olt main_v0 main_v1
  let main_c : IVec S_ 1 := constantI S_ 1 1#1
  let main_v3 : IVec S_ 1 := (fun x v => Host.reduce IntOp.andi x v reducesTo_S4x32x8x128_S_d0_1_2_3 h_S_) main_v2 main_c
  let main_v4 : FVec F S4x8192x8x128 .f32 := Host.absf main_arg1
  let main_cst_0 : FVec F S_ .f32 := constant S_ .f32 0x7F800000#32
  let main_v5 : FVec F S4x8192x8x128 .f32 := broadcastInDim S4x8192x8x128 ![] bcast_S_S4x8192x8x128 main_cst_0
  let main_v6 : IVec S4x8192x8x128 1 := cmpf .olt main_v4 main_v5
  let main_c_1 : IVec S_ 1 := constantI S_ 1 1#1
  let main_v7 : IVec S_ 1 := (fun x v => Host.reduce IntOp.andi x v reducesTo_S4x8192x8x128_S_d0_1_2_3 h_S_) main_v6 main_c_1
  let main_v8 : IVec S_ 1 := andi main_v3 main_v7
  let main_v9 : FVec F S4x8192x8x128 .f32 := Host.absf main_arg2
  let main_cst_2 : FVec F S_ .f32 := constant S_ .f32 0x7F800000#32
  let main_v10 : FVec F S4x8192x8x128 .f32 := broadcastInDim S4x8192x8x128 ![] bcast_S_S4x8192x8x128 main_cst_2
  let main_v11 : IVec S4x8192x8x128 1 := cmpf .olt main_v9 main_v10
  let main_c_3 : IVec S_ 1 := constantI S_ 1 1#1
  let main_v12 : IVec S_ 1 := (fun x v => Host.reduce IntOp.andi x v reducesTo_S4x8192x8x128_S_d0_1_2_3 h_S_) main_v11 main_c_3
  let main_v13 : IVec S_ 1 := andi main_v8 main_v12
  main_v13
-- ==== Kernel.lean ====
abbrev S4x32x8x128 : Shape := ⟨4, ![4, 32, 8, 128]⟩
abbrev S4x4096x8x128 : Shape := ⟨4, ![4, 4096, 8, 128]⟩
abbrev S1x32x8x128 : Shape := ⟨4, ![1, 32, 8, 128]⟩
abbrev S1x1024x8x128 : Shape := ⟨4, ![1, 1024, 8, 128]⟩
abbrev S8x32x128 : Shape := ⟨3, ![8, 32, 128]⟩
abbrev S8x32 : Shape := ⟨2, ![8, 32]⟩
abbrev S4x2x8x32 : Shape := ⟨4, ![4, 2, 8, 32]⟩
abbrev S4 : Shape := ⟨1, ![4]⟩
abbrev S32x8x128 : Shape := ⟨3, ![32, 8, 128]⟩
abbrev S1024x8x128 : Shape := ⟨3, ![1024, 8, 128]⟩
abbrev S8x1024x32 : Shape := ⟨3, ![8, 1024, 32]⟩
abbrev S8x1x32 : Shape := ⟨3, ![8, 1, 32]⟩
abbrev S8x32x1 : Shape := ⟨3, ![8, 32, 1]⟩
abbrev S1x1x8x32 : Shape := ⟨4, ![1, 1, 8, 32]⟩
abbrev S_ : Shape := ⟨0, ![]⟩
abbrev S1 : Shape := ⟨1, ![1]⟩
abbrev S1x2x8x32 : Shape := ⟨4, ![1, 2, 8, 32]⟩
abbrev S2x8x32 : Shape := ⟨3, ![2, 8, 32]⟩
abbrev S4x1x8x32 : Shape := ⟨4, ![4, 1, 8, 32]⟩
abbrev S4x8x32 : Shape := ⟨3, ![4, 8, 32]⟩
abbrev S4x32x8 : Shape := ⟨3, ![4, 32, 8]⟩
abbrev S4x32x8x1 : Shape := ⟨4, ![4, 32, 8, 1]⟩

abbrev nBuf : Space → Nat
  | .hbm => 4
  | .vmem => 14
  | .smem => 0
  | _ => 0

abbrev bufTy : (tb : Table) → Fin (tcTables nBuf tb) → BufTy
  | .hbm, ⟨0, _⟩ => ⟨S4x32x8x128, .f32⟩
  | .hbm, ⟨1, _⟩ => ⟨S4x4096x8x128, .f32⟩
  | .hbm, ⟨2, _⟩ => ⟨S4x4096x8x128, .f32⟩
  | .hbm, ⟨3, _⟩ => ⟨S4x32x8x128, .f32⟩
  | .local _ .vmem, ⟨0, _⟩ => ⟨S1x32x8x128, .f32⟩
  | .local _ .vmem, ⟨1, _⟩ => ⟨S1x32x8x128, .f32⟩
  | .local _ .vmem, ⟨2, _⟩ => ⟨S1x1024x8x128, .f32⟩
  | .local _ .vmem, ⟨3, _⟩ => ⟨S1x1024x8x128, .f32⟩
  | .local _ .vmem, ⟨4, _⟩ => ⟨S1x1024x8x128, .f32⟩
  | .local _ .vmem, ⟨5, _⟩ => ⟨S1x1024x8x128, .f32⟩
  | .local _ .vmem, ⟨6, _⟩ => ⟨S4x32x8x128, .f32⟩
  | .local _ .vmem, ⟨7, _⟩ => ⟨S8x32x128, .f32⟩
  | .local _ .vmem, ⟨8, _⟩ => ⟨S8x32, .f32⟩
  | .local _ .vmem, ⟨9, _⟩ => ⟨S8x32, .f32⟩
  | .local _ .vmem, ⟨10, _⟩ => ⟨S4x32x8x128, .f32⟩
  | .local _ .vmem, ⟨11, _⟩ => ⟨S4x2x8x32, .f32⟩
  | .local _ .vmem, ⟨12, _⟩ => ⟨S4x32x8x128, .f32⟩
  | .local _ .vmem, ⟨13, _⟩ => ⟨S4x2x8x32, .f32⟩
  | _, _ => ⟨S4x32x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  { ofTc nBuf bufTy 1 23 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev barrier0 : Sem sig := 0

abbrev nD : Nat := 16
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v54 : BitVec 1 := Scalar.cmpi .eq arg1 c3_i32
  let v55 : BitVec 32 := Scalar.extui v54
  let c0_i32_33 : BitVec 32 := 0#32
  let v56 : BitVec 1 := Scalar.cmpi .ne v55 c0_i32_33
  v56

def k0_off1 (i : grid0.Coords) : Fin 4 → Nat :=
  let arg0 : BitVec 32 := BitVec.ofNat 32 (i 0).val
  let v64 : Index := Scalar.indexCast arg0
  let c0_40 : Index := 0#32
  let c0_41 : Index := 0#32
  let c0_42 : Index := 0#32
  ![v64.toNat, 0, 0, 0]
def k0_off2 (i : grid0.Coords) : Fin 4 → Nat :=
  let arg0 : BitVec 32 := BitVec.ofNat 32 (i 0).val
  let v69 : Index := Scalar.indexCast arg0
  let c0_45 : Index := 0#32
  let c0_46 : Index := 0#32
  let c0_47 : Index := 0#32
  ![v69.toNat, 0, 0, 0]
def k0_off3 (i : grid0.Coords) : Fin 4 → Nat :=
  let arg0 : BitVec 32 := BitVec.ofNat 32 (i 0).val
  let v74 : Index := Scalar.indexCast arg0
  let c1 : Index := 1#32
  let c0_50 : Index := 0#32
  let c0_51 : Index := 0#32
  ![v74.toNat, 1, 0, 0]
def k0_cond3 (i : grid0.Coords) : BitVec 1 :=
  let arg0 : BitVec 32 := BitVec.ofNat 32 (i 0).val
  let c0_i32_52 : BitVec 32 := 0#32
  let v78 : BitVec 1 := Scalar.cmpi .eq arg0 c0_i32_52
  let v79 : BitVec 32 := Scalar.extui v78
  let c0_i32_53 : BitVec 32 := 0#32
  let v80 : BitVec 1 := Scalar.cmpi .ne v79 c0_i32_53
  v80

def k0_dev1 (d0 : Dev nD) : Nat :=
  let c0_i32_64 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_63 : BitVec 32 := 8#32
  let v94 : BitVec 32 := Scalar.muli v2 c8_i32_63
  let v95 : BitVec 32 := Scalar.addi c0_i32_64 v94
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_65 : BitVec 32 := 4#32
  let v96 : BitVec 32 := Scalar.muli v9 c4_i32_65
  let v97 : BitVec 32 := Scalar.addi v95 v96
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v98 : BitVec 32 := Scalar.muli v8 c1_i32_66
  let v99 : BitVec 32 := Scalar.addi v97 v98
  v99.toNat
def k0_cond4 (i : grid0.Coords) : BitVec 1 :=
  let arg0 : BitVec 32 := BitVec.ofNat 32 (i 0).val
  let c0_i32_54 : BitVec 32 := 0#32
  let v81 : BitVec 1 := Scalar.cmpi .eq arg0 c0_i32_54
  let v82 : BitVec 32 := Scalar.extui v81
  let c0_i32_55 : BitVec 32 := 0#32
  let v83 : BitVec 1 := Scalar.cmpi .ne v82 c0_i32_55
  v83

def k0_dev2 (d0 : Dev nD) : Nat :=
  let c0_i32_67 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_66 : BitVec 32 := 8#32
  let v93 : BitVec 32 := Scalar.muli v2 c8_i32_66
  let v94 : BitVec 32 := Scalar.addi c0_i32_67 v93
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_68 : BitVec 32 := 4#32
  let v95 : BitVec 32 := Scalar.muli v9 c4_i32_68
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v97 : BitVec 32 := Scalar.muli v8 c1_i32_69
  let v98 : BitVec 32 := Scalar.addi v96 v97
  v98.toNat
def k0_dev3 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v107 : BitVec 32 := Scalar.muli v2 c8_i32_80
  let v108 : BitVec 32 := Scalar.addi c0_i32_81 v107
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_82 : BitVec 32 := 4#32
  let v109 : BitVec 32 := Scalar.muli v9 c4_i32_82
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v111 : BitVec 32 := Scalar.muli v8 c1_i32_83
  let v112 : BitVec 32 := Scalar.addi v110 v111
  v112.toNat
def k0_cond5 (i : grid0.Coords) : BitVec 1 :=
  let arg0 : BitVec 32 := BitVec.ofNat 32 (i 0).val
  let c1_i32_56 : BitVec 32 := 1#32
  let v84 : BitVec 1 := Scalar.cmpi .eq arg0 c1_i32_56
  let v85 : BitVec 32 := Scalar.extui v84
  let c0_i32_57 : BitVec 32 := 0#32
  let v86 : BitVec 1 := Scalar.cmpi .ne v85 c0_i32_57
  v86

def k0_dev4 (d0 : Dev nD) : Nat :=
  let c0_i32_67 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_66 : BitVec 32 := 8#32
  let v93 : BitVec 32 := Scalar.muli v2 c8_i32_66
  let v94 : BitVec 32 := Scalar.addi c0_i32_67 v93
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_68 : BitVec 32 := 4#32
  let v95 : BitVec 32 := Scalar.muli v9 c4_i32_68
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v97 : BitVec 32 := Scalar.muli v8 c1_i32_69
  let v98 : BitVec 32 := Scalar.addi v96 v97
  v98.toNat
def k0_dev5 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v107 : BitVec 32 := Scalar.muli v2 c8_i32_80
  let v108 : BitVec 32 := Scalar.addi c0_i32_81 v107
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_82 : BitVec 32 := 4#32
  let v109 : BitVec 32 := Scalar.muli v9 c4_i32_82
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v111 : BitVec 32 := Scalar.muli v8 c1_i32_83
  let v112 : BitVec 32 := Scalar.addi v110 v111
  v112.toNat
def k0_cond6 (i : grid0.Coords) : BitVec 1 :=
  let arg0 : BitVec 32 := BitVec.ofNat 32 (i 0).val
  let c2_i32_58 : BitVec 32 := 2#32
  let v87 : BitVec 1 := Scalar.cmpi .eq arg0 c2_i32_58
  let v88 : BitVec 32 := Scalar.extui v87
  let c0_i32_59 : BitVec 32 := 0#32
  let v89 : BitVec 1 := Scalar.cmpi .ne v88 c0_i32_59
  v89

def k0_dev6 (d0 : Dev nD) : Nat :=
  let c0_i32_67 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_66 : BitVec 32 := 8#32
  let v93 : BitVec 32 := Scalar.muli v2 c8_i32_66
  let v94 : BitVec 32 := Scalar.addi c0_i32_67 v93
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_68 : BitVec 32 := 4#32
  let v95 : BitVec 32 := Scalar.muli v9 c4_i32_68
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v97 : BitVec 32 := Scalar.muli v8 c1_i32_69
  let v98 : BitVec 32 := Scalar.addi v96 v97
  v98.toNat
def k0_dev7 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v107 : BitVec 32 := Scalar.muli v2 c8_i32_80
  let v108 : BitVec 32 := Scalar.addi c0_i32_81 v107
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_82 : BitVec 32 := 4#32
  let v109 : BitVec 32 := Scalar.muli v9 c4_i32_82
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v111 : BitVec 32 := Scalar.muli v8 c1_i32_83
  let v112 : BitVec 32 := Scalar.addi v110 v111
  v112.toNat
def k0_cond7 (i : grid0.Coords) : BitVec 1 :=
  let arg0 : BitVec 32 := BitVec.ofNat 32 (i 0).val
  let c3_i32_60 : BitVec 32 := 3#32
  let v90 : BitVec 1 := Scalar.cmpi .eq arg0 c3_i32_60
  let v91 : BitVec 32 := Scalar.extui v90
  let c0_i32_61 : BitVec 32 := 0#32
  let v92 : BitVec 1 := Scalar.cmpi .ne v91 c0_i32_61
  v92

def k0_dev8 (d0 : Dev nD) : Nat :=
  let c0_i32_67 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_66 : BitVec 32 := 8#32
  let v93 : BitVec 32 := Scalar.muli v2 c8_i32_66
  let v94 : BitVec 32 := Scalar.addi c0_i32_67 v93
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_68 : BitVec 32 := 4#32
  let v95 : BitVec 32 := Scalar.muli v9 c4_i32_68
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v97 : BitVec 32 := Scalar.muli v8 c1_i32_69
  let v98 : BitVec 32 := Scalar.addi v96 v97
  v98.toNat
def k0_dev9 (d0 : Dev nD) : Nat :=
  let c0_i32_81 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_80 : BitVec 32 := 8#32
  let v107 : BitVec 32 := Scalar.muli v2 c8_i32_80
  let v108 : BitVec 32 := Scalar.addi c0_i32_81 v107
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_82 : BitVec 32 := 4#32
  let v109 : BitVec 32 := Scalar.muli v9 c4_i32_82
  let v110 : BitVec 32 := Scalar.addi v108 v109
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_83 : BitVec 32 := 1#32
  let v111 : BitVec 32 := Scalar.muli v8 c1_i32_83
  let v112 : BitVec 32 := Scalar.addi v110 v111
  v112.toNat
def k0_cond8 (i : grid0.Coords) : BitVec 1 :=
  let arg0 : BitVec 32 := BitVec.ofNat 32 (i 0).val
  let c3_i32_34 : BitVec 32 := 3#32
  let v57 : BitVec 1 := Scalar.cmpi .eq arg0 c3_i32_34
  let arg1 : BitVec 32 := BitVec.ofNat 32 (i 1).val
  let c3_i32_35 : BitVec 32 := 3#32
  let v58 : BitVec 1 := Scalar.cmpi .eq arg1 c3_i32_35
  let v59 : BitVec 1 := Scalar.andi v57 v58
  let v60 : BitVec 32 := Scalar.extui v59
  let c0_i32_36 : BitVec 32 := 0#32
  let v61 : BitVec 1 := Scalar.cmpi .ne v60 c0_i32_36
  v61

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x32x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x32x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

class Facts₀ : Prop where
  inb_S8x32_S8x32_0_0 : ∀ a, (![0, 0] : Fin 2 → Nat) a + S8x32.size a ≤ S8x32.size a
  h_S8x32 : 0 < S8x32.numel
  shapeCasts_S8x32_S8x32 : S8x32.ShapeCasts S8x32
  inb_S8x32x128_S8x32x128_0_0_0 : ∀ a, (![0, 0, 0] : Fin 3 → Nat) a + S8x32x128.size a ≤ S8x32x128.size a
  h_S8x32x128 : 0 < S8x32x128.numel
  shapeCasts_S8x32x128_S8x32x128 : S8x32x128.ShapeCasts S8x32x128
  inb_S1x32x8x128_S1x32x8x128_0_0_0_0 : ∀ a, (![0, 0, 0, 0] : Fin 4 → Nat) a + S1x32x8x128.size a ≤ S1x32x8x128.size a
  h_S1x32x8x128 : 0 < S1x32x8x128.numel
  shapeCasts_S1x32x8x128_S32x8x128 : S1x32x8x128.ShapeCasts S32x8x128
  bitsLt_bf16_f32 : FTy.bits .bf16 < FTy.bits .f32
  inb_S1x1024x8x128_S1x1024x8x128_0_0_0_0 : ∀ a, (![0, 0, 0, 0] : Fin 4 → Nat) a + S1x1024x8x128.size a ≤ S1x1024x8x128.size a
  h_S1x1024x8x128 : 0 < S1x1024x8x128.numel
  shapeCasts_S1x1024x8x128_S1024x8x128 : S1x1024x8x128.ShapeCasts S1024x8x128
  reduces_S8x1024x32_S8x32 : S8x1024x32.Reduces [1] S8x32
  shapeCasts_S8x32_S8x1x32 : S8x32.ShapeCasts S8x1x32
  broadcasts_S8x1x32_S8x1024x32 : S8x1x32.Broadcasts S8x1024x32
  shapeCasts_S8x32_S8x32x1 : S8x32.ShapeCasts S8x32x1
  broadcasts_S8x32x1_S8x32x128 : S8x32x1.Broadcasts S8x32x128
  transposes_S8x32x128_p1_0_2_S32x8x128 : S8x32x128.Transposes [1, 0, 2] S32x8x128
  shapeCasts_S32x8x128_S1x32x8x128 : S32x8x128.ShapeCasts S1x32x8x128
  h_S1x1x8x32 : 0 < S1x1x8x32.numel
  shapeCasts_S1x1x8x32_S8x32 : S1x1x8x32.ShapeCasts S8x32
  shapeCasts_S8x32_S1x1x8x32 : S8x32.ShapeCasts S1x1x8x32
  hamt_1 : (1#32 : BitVec 32).msb = false
  inb_S4_S1_0 : ∀ a, (![0] : Fin 1 → Nat) a + S1.size a ≤ S4.size a
  squeezes_S1_S_ : S1.Squeezes S_
  inb_S4x32x8x128_S1x32x8x128_0_0_0_0 : ∀ a, (![0, 0, 0, 0] : Fin 4 → Nat) a + S1x32x8x128.size a ≤ S4x32x8x128.size a
  squeezes_S1x32x8x128_S32x8x128 : S1x32x8x128.Squeezes S32x8x128
  inb_S4x2x8x32_S1x2x8x32_0_0_0_0 : ∀ a, (![0, 0, 0, 0] : Fin 4 → Nat) a + S1x2x8x32.size a ≤ S4x2x8x32.size a
  squeezes_S1x2x8x32_S2x8x32 : S1x2x8x32.Squeezes S2x8x32
  inb_S4_S1_1 : ∀ a, (![1] : Fin 1 → Nat) a + S1.size a ≤ S4.size a
  inb_S4x32x8x128_S1x32x8x128_1_0_0_0 : ∀ a, (![1, 0, 0, 0] : Fin 4 → Nat) a + S1x32x8x128.size a ≤ S4x32x8x128.size a
  inb_S4x2x8x32_S1x2x8x32_1_0_0_0 : ∀ a, (![1, 0, 0, 0] : Fin 4 → Nat) a + S1x2x8x32.size a ≤ S4x2x8x32.size a
  inb_S4_S1_2 : ∀ a, (![2] : Fin 1 → Nat) a + S1.size a ≤ S4.size a
  inb_S4x32x8x128_S1x32x8x128_2_0_0_0 : ∀ a, (![2, 0, 0, 0] : Fin 4 → Nat) a + S1x32x8x128.size a ≤ S4x32x8x128.size a
  inb_S4x2x8x32_S1x2x8x32_2_0_0_0 : ∀ a, (![2, 0, 0, 0] : Fin 4 → Nat) a + S1x2x8x32.size a ≤ S4x2x8x32.size a
  inb_S4_S1_3 : ∀ a, (![3] : Fin 1 → Nat) a + S1.size a ≤ S4.size a
  inb_S4x32x8x128_S1x32x8x128_3_0_0_0 : ∀ a, (![3, 0, 0, 0] : Fin 4 → Nat) a + S1x32x8x128.size a ≤ S4x32x8x128.size a
  inb_S4x2x8x32_S1x2x8x32_3_0_0_0 : ∀ a, (![3, 0, 0, 0] : Fin 4 → Nat) a + S1x2x8x32.size a ≤ S4x2x8x32.size a
  inb_S4x2x8x32_S4x1x8x32_0_0_0_0 : ∀ a, (![0, 0, 0, 0] : Fin 4 → Nat) a + S4x1x8x32.size a ≤ S4x2x8x32.size a
  h_S4x1x8x32 : 0 < S4x1x8x32.numel
  shapeCasts_S4x1x8x32_S4x8x32 : S4x1x8x32.ShapeCasts S4x8x32
  inb_S4x2x8x32_S4x1x8x32_0_1_0_0 : ∀ a, (![0, 1, 0, 0] : Fin 4 → Nat) a + S4x1x8x32.size a ≤ S4x2x8x32.size a
  transposes_S4x8x32_p0_2_1_S4x32x8 : S4x8x32.Transposes [0, 2, 1] S4x32x8
  shapeCasts_S4x32x8_S4x32x8x1 : S4x32x8.ShapeCasts S4x32x8x1
  inb_S4x32x8x128_S4x32x8x128_0_0_0_0 : ∀ a, (![0, 0, 0, 0] : Fin 4 → Nat) a + S4x32x8x128.size a ≤ S4x32x8x128.size a
  h_S4x32x8x128 : 0 < S4x32x8x128.numel
  broadcasts_S4x32x8x1_S4x32x8x128 : S4x32x8x1.Broadcasts S4x32x8x128
  dot_S1024x8x128_S32x8x128_S8x1024x32_2_2_0_0_1_1_wf : DotDims.WF S1024x8x128 S32x8x128 S8x1024x32 [2] [2] [0] [0] [1] [1]
  dot_S8x1024x32_S1024x8x128_S8x32x128_1_0_2_2_0_1_wf : DotDims.WF S8x1024x32 S1024x8x128 S8x32x128 [1] [0] [2] [2] [0] [1]
  hcc0_scratch7 : 7 + S4.numel ≤ 23
  hcc0_scratch8 : 11 + S4.numel ≤ 23
  hcc0_scratch9 : 15 + S4.numel ≤ 23
  hcc0_scratch10 : 19 + S4.numel ≤ 23
  hrank0 : 0 < grid0.rank
  k0_off1_inb : ∀ i : grid0.Coords, ∀ (k0_h2 : k0_cond2 i = 1#1), ∀ a, (k0_off1 i) a + S1x32x8x128.size a ≤ S4x32x8x128.size a
  k0_off2_inb : ∀ i : grid0.Coords, ∀ (k0_h2 : k0_cond2 i = 1#1), ∀ a, (k0_off2 i) a + S1x1x8x32.size a ≤ S4x2x8x32.size a
  k0_off3_inb : ∀ i : grid0.Coords, ∀ (k0_h2 : k0_cond2 i = 1#1), ∀ a, (k0_off3 i) a + S1x1x8x32.size a ≤ S4x2x8x32.size a
  k0_dev1_lt : ∀ (i : grid0.Coords) (d0 : Dev nD), ∀ (k0_h2 : k0_cond2 i = 1#1), ∀ (k0_h3 : k0_cond3 i = 1#1), (k0_dev1 d0) < nD
  k0_dev2_lt : ∀ (i : grid0.Coords) (d0 : Dev nD), ∀ (k0_h2 : k0_cond2 i = 1#1), ∀ (k0_h4 : k0_cond4 i = 1#1), (k0_dev2 d0) < nD
  k0_dev3_lt : ∀ (i : grid0.Coords) (d0 : Dev nD), ∀ (k0_h2 : k0_cond2 i = 1#1), ∀ (k0_h4 : k0_cond4 i = 1#1), (k0_dev3 d0) < nD
  k0_dev4_lt : ∀ (i : grid0.Coords) (d0 : Dev nD), ∀ (k0_h2 : k0_cond2 i = 1#1), ∀ (k0_h5 : k0_cond5 i = 1#1), (k0_dev4 d0) < nD
  k0_dev5_lt : ∀ (i : grid0.Coords) (d0 : Dev nD), ∀ (k0_h2 : k0_cond2 i = 1#1), ∀ (k0_h5 : k0_cond5 i = 1#1), (k0_dev5 d0) < nD
  k0_dev6_lt : ∀ (i : grid0.Coords) (d0 : Dev nD), ∀ (k0_h2 : k0_cond2 i = 1#1), ∀ (k0_h6 : k0_cond6 i = 1#1), (k0_dev6 d0) < nD
  k0_dev7_lt : ∀ (i : grid0.Coords) (d0 : Dev nD), ∀ (k0_h2 : k0_cond2 i = 1#1), ∀ (k0_h6 : k0_cond6 i = 1#1), (k0_dev7 d0) < nD
  k0_dev8_lt : ∀ (i : grid0.Coords) (d0 : Dev nD), ∀ (k0_h2 : k0_cond2 i = 1#1), ∀ (k0_h7 : k0_cond7 i = 1#1), (k0_dev8 d0) < nD
  k0_dev9_lt : ∀ (i : grid0.Coords) (d0 : Dev nD), ∀ (k0_h2 : k0_cond2 i = 1#1), ∀ (k0_h7 : k0_cond7 i = 1#1), (k0_dev9 d0) < nD
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x8x128.size a ≤ S4x32x8x128.size a
  hwx0_0 : ∀ i : grid0.Coords, EltTy.bits .f32 = 32 ∨ (Rect.block (s := S4x32x8x128) S1x32x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x8x128.size a ≤ S4x4096x8x128.size a
  hwx0_1 : ∀ i : grid0.Coords, EltTy.bits .f32 = 32 ∨ (Rect.block (s := S4x4096x8x128) S1x1024x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x8x128.size a ≤ S4x4096x8x128.size a
  hwx0_2 : ∀ i : grid0.Coords, EltTy.bits .f32 = 32 ∨ (Rect.block (s := S4x4096x8x128) S1x1024x8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x32x8x128.size a ≤ S4x32x8x128.size a
  hwx0_3 : ∀ i : grid0.Coords, EltTy.bits .f32 = 32 ∨ (Rect.block (s := S4x32x8x128) S4x32x8x128.size (cc0_transform_3 i) (hinb0_3 i)).WholeWords (EltTy.packing .f32)

variable [Facts₀]

abbrev cc0_scratch7 : DmaSems sig S4 := SemArray.consecutive 7 S4 hcc0_scratch7
abbrev cc0_scratch8 : DmaSems sig S4 := SemArray.consecutive 11 S4 hcc0_scratch8
abbrev cc0_scratch9 : DmaSems sig S4 := SemArray.consecutive 15 S4 hcc0_scratch9
abbrev cc0_scratch10 : DmaSems sig S4 := SemArray.consecutive 19 S4 hcc0_scratch10
def dot_S1024x8x128_S32x8x128_S8x1024x32_2_2_0_0_1_1 : DotDims S1024x8x128 S32x8x128 S8x1024x32 where
  lhsContracting := [2]
  rhsContracting := [2]
  lhsNonContracting := [0]
  rhsNonContracting := [0]
  lhsBatch := [1]
  rhsBatch := [1]
  wf := dot_S1024x8x128_S32x8x128_S8x1024x32_2_2_0_0_1_1_wf
def dot_S8x1024x32_S1024x8x128_S8x32x128_1_0_2_2_0_1 : DotDims S8x1024x32 S1024x8x128 S8x32x128 where
  lhsContracting := [1]
  rhsContracting := [0]
  lhsNonContracting := [2]
  rhsNonContracting := [2]
  lhsBatch := [0]
  rhsBatch := [1]
  wf := dot_S8x1024x32_S1024x8x128_S8x32x128_1_0_2_2_0_1_wf

abbrev win0_0 : Pipeline.Window sig grid0 :=
  Pipeline.Window.ofSpec (Memref.whole main_arg0) S1x32x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x32x8x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond8 i == 1#1) | ⟨_ + 4, h⟩ => absurd h (Nat.not_lt.2 (Nat.le_add_left _ _))

class Facts : Prop extends Facts₀ where

variable [Facts]
-- ==== ReferenceIdeal.lean ====
abbrev S4x32x8x128 : Shape := ⟨4, ![4, 32, 8, 128]⟩
abbrev S4x8192x8x128 : Shape := ⟨4, ![4, 8192, 8, 128]⟩
abbrev S4x8x32x8192 : Shape := ⟨4, ![4, 8, 32, 8192]⟩
abbrev S_ : Shape := ⟨0, ![]⟩
abbrev S4x8x32 : Shape := ⟨3, ![4, 8, 32]⟩
abbrev S4x8x32x1 : Shape := ⟨4, ![4, 8, 32, 1]⟩
abbrev S4x8x128x32 : Shape := ⟨4, ![4, 8, 128, 32]⟩

abbrev nBuf : Space → Nat
  | .hbm => 20
  | .vmem => 0
  | .smem => 0
  | _ => 0

abbrev bufTy : (tb : Table) → Fin (tcTables nBuf tb) → BufTy
  | .hbm, ⟨0, _⟩ => ⟨S4x32x8x128, .f32⟩
  | .hbm, ⟨1, _⟩ => ⟨S4x8192x8x128, .f32⟩
  | .hbm, ⟨2, _⟩ => ⟨S4x8192x8x128, .f32⟩
  | .hbm, ⟨3, _⟩ => ⟨S4x8x32x8192, .f32⟩
  | .hbm, ⟨4, _⟩ => ⟨S_, .f32⟩
  | .hbm, ⟨5, _⟩ => ⟨S4x8x32x8192, .f32⟩
  | .hbm, ⟨6, _⟩ => ⟨S4x8x32x8192, .f32⟩
  | .hbm, ⟨7, _⟩ => ⟨S_, .f32⟩
  | .hbm, ⟨8, _⟩ => ⟨S4x8x32, .f32⟩
  | .hbm, ⟨9, _⟩ => ⟨S4x8x32x1, .f32⟩
  | .hbm, ⟨10, _⟩ => ⟨S4x8x32x8192, .f32⟩
  | .hbm, ⟨11, _⟩ => ⟨S4x8x32x8192, .f32⟩
  | .hbm, ⟨12, _⟩ => ⟨S4x8x32x8192, .f32⟩
  | .hbm, ⟨13, _⟩ => ⟨S_, .f32⟩
  | .hbm, ⟨14, _⟩ => ⟨S4x8x32, .f32⟩
  | .hbm, ⟨15, _⟩ => ⟨S4x8x32x1, .f32⟩
  | .hbm, ⟨16, _⟩ => ⟨S4x8x32x8192, .f32⟩
  | .hbm, ⟨17, _⟩ => ⟨S4x8x32x8192, .f32⟩
  | .hbm, ⟨18, _⟩ => ⟨S4x8x128x32, .f32⟩
  | .hbm, ⟨19, _⟩ => ⟨S4x32x8x128, .f32⟩
  | _, _ => ⟨S4x32x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S4x8x32x8192 : S_.BroadcastsInDim S4x8x32x8192 (![] : Fin 0 → Fin S4x8x32x8192.rank)
  reducesTo_S4x8x32x8192_S4x8x32_d3 : S4x8x32x8192.ReducesTo [3] S4x8x32
  h_S_ : 0 < S_.numel
  bcast_S4x8x32_S4x8x32x1_0_1_2 : S4x8x32.BroadcastsInDim S4x8x32x1 (![0, 1, 2] : Fin 3 → Fin S4x8x32x1.rank)
  bcast_S4x8x32x1_S4x8x32x8192_0_1_2_3 : S4x8x32x1.BroadcastsInDim S4x8x32x8192 (![0, 1, 2, 3] : Fin 4 → Fin S4x8x32x8192.rank)
  transposes_S4x8x128x32_S4x32x8x128_0_3_1_2 : S4x8x128x32.Transposes [0, 3, 1, 2] S4x32x8x128
  dot_S4x32x8x128_S4x8192x8x128_S4x8x32x8192_3_3_1_1_02_02_wf : DotDims.WF S4x32x8x128 S4x8192x8x128 S4x8x32x8192 [3] [3] [1] [1] [0, 2] [0, 2]
  dot_S4x8192x8x128_S4x8x32x8192_S4x8x128x32_1_3_3_2_02_01_wf : DotDims.WF S4x8192x8x128 S4x8x32x8192 S4x8x128x32 [1] [3] [3] [2] [0, 2] [0, 1]

variable [Facts₀]

def dot_S4x32x8x128_S4x8192x8x128_S4x8x32x8192_3_3_1_1_02_02 : DotDims S4x32x8x128 S4x8192x8x128 S4x8x32x8192 where
  lhsContracting := [3]
  rhsContracting := [3]
  lhsNonContracting := [1]
  rhsNonContracting := [1]
  lhsBatch := [0, 2]
  rhsBatch := [0, 2]
  wf := dot_S4x32x8x128_S4x8192x8x128_S4x8x32x8192_3_3_1_1_02_02_wf
def dot_S4x8192x8x128_S4x8x32x8192_S4x8x128x32_1_3_3_2_02_01 : DotDims S4x8192x8x128 S4x8x32x8192 S4x8x128x32 where
  lhsContracting := [1]
  rhsContracting := [3]
  lhsNonContracting := [3]
  rhsNonContracting := [2]
  lhsBatch := [0, 2]
  rhsBatch := [0, 1]
  wf := dot_S4x8192x8x128_S4x8x32x8192_S4x8x128x32_1_3_3_2_02_01_wf

class Facts : Prop extends Facts₀ where

variable [Facts]
-- ==== Proof.Protocol.lean ====
/-
  The cross-device protocol of the attention kernel, on the mesh of sixteen devices.

  Every device has exactly one partner: the device whose position differs in the second mesh coordinate only
  (`nbr`, an involution). A device meets its partner three ways: one unit on the partner's barrier semaphore
  when the first batch entry is finished; for each of the four batch entries one copy of its unnormalised output
  rows into the partner's receive buffer and one copy of its two statistics rows into the partner's statistics
  receive buffer. Each copy credits a send cell on the sender and a receive cell on the partner, so a device has
  seventeen cells: its barrier cell and, per batch entry, output-send, output-receive, statistics-send and
  statistics-receive.
-/
import proofs.«900428_g7700000000000429_dist_flashdec_v7x_xyz2x2x4_y_b4_sq32_skv4096_h8_d128_f32_1_alg».proof.Proof.Gen.KernelIdeal
import proofs.«900428_g7700000000000429_dist_flashdec_v7x_xyz2x2x4_y_b4_sq32_skv4096_h8_d128_f32_1_alg».proof.Proof.Gen.KernelIdeal.Skeleton
import proofs.«900428_g7700000000000429_dist_flashdec_v7x_xyz2x2x4_y_b4_sq32_skv4096_h8_d128_f32_1_alg».proof.Proof.Gen.KernelIdeal.Launch
import proofs.«900428_g7700000000000429_dist_flashdec_v7x_xyz2x2x4_y_b4_sq32_skv4096_h8_d128_f32_1_alg».proof.Proof.Gen.KernelIdeal.Points
import proofs.«900428_g7700000000000429_dist_flashdec_v7x_xyz2x2x4_y_b4_sq32_skv4096_h8_d128_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy and the protocol's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partner -/

/-- The device whose second mesh coordinate is the other one: the id with bit 2 flipped. -/
def nbr (c : Dev nD) : Dev nD := ⟨(8 * (c.val / 8) + c.val % 4 + 4) - 4 * ((c.val / 4) % 2), by have h : c.val < 16 := c.isLt; show _ < 16; omega⟩

theorem nbr_nbr (c : Dev nD) : nbr (nbr c) = c := by revert c; decide
theorem nbr_ne (c : Dev nD) : nbr c ≠ c := by revert c; decide

def pair : Dev nD ≃ Dev nD := ⟨nbr, nbr, nbr_nbr, nbr_nbr⟩

/-! ## Buffers, their per-batch slices, semaphores -/

abbrev accO : Memref sig .tc .vmem S8x32x128 .f32 := Memref.whole cc0_scratch0
abbrev accM : Memref sig .tc .vmem S8x32 .f32 := Memref.whole cc0_scratch1
abbrev accL : Memref sig .tc .vmem S8x32 .f32 := Memref.whole cc0_scratch2
abbrev oB : Memref sig .tc .vmem S4x32x8x128 .f32 := Memref.whole cc0_scratch3
abbrev sB : Memref sig .tc .vmem S4x2x8x32 .f32 := Memref.whole cc0_scratch4
abbrev roB : Memref sig .tc .vmem S4x32x8x128 .f32 := Memref.whole cc0_scratch5
abbrev rsB : Memref sig .tc .vmem S4x2x8x32 .f32 := Memref.whole cc0_scratch6

/-- Batch entry `b`'s rows of an output-shaped buffer. -/
abbrev oSl (M : Memref sig .tc .vmem S4x32x8x128 .f32) : Fin 4 → Memref sig .tc .vmem S32x8x128 .f32 := fun
  | 0 => (M.slice (Rect.unit (s := S4x32x8x128) ![0, 0, 0, 0] S1x32x8x128.size inb_S4x32x8x128_S1x32x8x128_0_0_0_0) (fun _ => rfl)).squeeze S32x8x128 squeezes_S1x32x8x128_S32x8x128
  | 1 => (M.slice (Rect.unit (s := S4x32x8x128) ![1, 0, 0, 0] S1x32x8x128.size inb_S4x32x8x128_S1x32x8x128_1_0_0_0) (fun _ => rfl)).squeeze S32x8x128 squeezes_S1x32x8x128_S32x8x128
  | 2 => (M.slice (Rect.unit (s := S4x32x8x128) ![2, 0, 0, 0] S1x32x8x128.size inb_S4x32x8x128_S1x32x8x128_2_0_0_0) (fun _ => rfl)).squeeze S32x8x128 squeezes_S1x32x8x128_S32x8x128
  | 3 => (M.slice (Rect.unit (s := S4x32x8x128) ![3, 0, 0, 0] S1x32x8x128.size inb_S4x32x8x128_S1x32x8x128_3_0_0_0) (fun _ => rfl)).squeeze S32x8x128 squeezes_S1x32x8x128_S32x8x128

/-- Batch entry `b`'s two rows of a statistics-shaped buffer. -/
abbrev sSl (M : Memref sig .tc .vmem S4x2x8x32 .f32) : Fin 4 → Memref sig .tc .vmem S2x8x32 .f32 := fun
  | 0 => (M.slice (Rect.unit (s := S4x2x8x32) ![0, 0, 0, 0] S1x2x8x32.size inb_S4x2x8x32_S1x2x8x32_0_0_0_0) (fun _ => rfl)).squeeze S2x8x32 squeezes_S1x2x8x32_S2x8x32
  | 1 => (M.slice (Rect.unit (s := S4x2x8x32) ![1, 0, 0, 0] S1x2x8x32.size inb_S4x2x8x32_S1x2x8x32_1_0_0_0) (fun _ => rfl)).squeeze S2x8x32 squeezes_S1x2x8x32_S2x8x32
  | 2 => (M.slice (Rect.unit (s := S4x2x8x32) ![2, 0, 0, 0] S1x2x8x32.size inb_S4x2x8x32_S1x2x8x32_2_0_0_0) (fun _ => rfl)).squeeze S2x8x32 squeezes_S1x2x8x32_S2x8x32
  | 3 => (M.slice (Rect.unit (s := S4x2x8x32) ![3, 0, 0, 0] S1x2x8x32.size inb_S4x2x8x32_S1x2x8x32_3_0_0_0) (fun _ => rfl)).squeeze S2x8x32 squeezes_S1x2x8x32_S2x8x32

/-- Entry `b` of a four-element DMA-semaphore array. -/
abbrev semAt (A : DmaSems sig S4) : Fin 4 → DmaSem sig := fun
  | 0 => ((A.slice (Rect.unit (s := S4) ![0] S1.size inb_S4_S1_0)).squeeze S_ squeezes_S1_S_).sem
  | 1 => ((A.slice (Rect.unit (s := S4) ![1] S1.size inb_S4_S1_1)).squeeze S_ squeezes_S1_S_).sem
  | 2 => ((A.slice (Rect.unit (s := S4) ![2] S1.size inb_S4_S1_2)).squeeze S_ squeezes_S1_S_).sem
  | 3 => ((A.slice (Rect.unit (s := S4) ![3] S1.size inb_S4_S1_3)).squeeze S_ squeezes_S1_S_).sem

/-- The runtime's barrier semaphore of collective id 0. -/
abbrev barS : Sem sig := (SemArray.scalar (sig.barrier 0 rfl) : Sems sig S_).sem

/-- The four families of the kernel's own semaphores: 0 output-send, 1 output-receive, 2 statistics-send, 3 statistics-receive. -/
abbrev famSem : Fin 4 → Fin 4 → DmaSem sig := fun
  | 0 => semAt cc0_scratch7
  | 1 => semAt cc0_scratch8
  | 2 => semAt cc0_scratch9
  | 3 => semAt cc0_scratch10

theorem famSem_val (k b : Fin 4) : (famSem k b).val = 7 + 4 * k.val + b.val := by revert k b; decide

abbrev barCell (c : Dev nD) : GSem nD τ sig := ((c : Thread nD τ), .reg barS)
abbrev famCell (c : Dev nD) (k b : Fin 4) : GSem nD τ sig := ((c : Thread nD τ), .dma (famSem k b))

/-! ## The partner in the printed device chains -/

theorem dev_eq {n : ℕ} (c : Dev nD) (h : n = (8 * (c.val / 8) + (c.val % 4) + 4) - 4 * ((c.val / 4) % 2)) (hn : n < nD) :
    (⟨n, hn⟩ : Dev nD) = nbr c := Fin.ext h

/-! ## Amounts -/

abbrev No : ℕ := (oSl roB 0).view.dmaCredit
abbrev Ns : ℕ := (sSl rsB 0).view.dmaCredit
theorem No_pos : 0 < No := View.dmaCredit_pos _ (by decide)
theorem Ns_pos : 0 < Ns := View.dmaCredit_pos _ (by decide)

/-! ## Contents: what each device's output and statistics buffers hold when handed over

The protocol is stated over two families the value side defines: `OV c`, the contents of device `c`'s output buffer
(all four batch entries' rows) and `SV c`, of its statistics buffer, as they stand after the last hand-over. -/

abbrev OTy (F : FTy → Type) : Type := (⟨S4x32x8x128, .f32⟩ : BufTy).Contents (Elt F)
abbrev STy (F : FTy → Type) : Type := (⟨S4x2x8x32, .f32⟩ : BufTy).Contents (Elt F)

/-- The elements a memref's view addresses on device `c`, held outright at the contents `f`. -/
abbrev slPts {s : Shape} {e : EltTy} (c : Dev nD) (S : Memref sig .tc .vmem s e) (f : Buf (Elt F) (S.view.loc (c : Thread nD τ))) : sProp 𝕄 :=
  S.view.loc (c : Thread nD τ) ↦[S.view.set]{fullShare} f

/-- Batch entry `b`'s rows of device `c`'s output buffer, held outright at the contents `f`. -/
def obPts (c : Dev nD) (b : Fin 4) (f : OTy F) : sProp 𝕄 :=
  match b with
  | 0 => slPts c (oSl oB 0) f | 1 => slPts c (oSl oB 1) f | 2 => slPts c (oSl oB 2) f | 3 => slPts c (oSl oB 3) f
/-- Batch entry `b`'s rows of device `c`'s output receive buffer. -/
def robPts (c : Dev nD) (b : Fin 4) (f : OTy F) : sProp 𝕄 :=
  match b with
  | 0 => slPts c (oSl roB 0) f | 1 => slPts c (oSl roB 1) f | 2 => slPts c (oSl roB 2) f | 3 => slPts c (oSl roB 3) f
/-- Batch entry `b`'s two rows of device `c`'s statistics buffer. -/
def sbPts (c : Dev nD) (b : Fin 4) (f : STy F) : sProp 𝕄 :=
  match b with
  | 0 => slPts c (sSl sB 0) f | 1 => slPts c (sSl sB 1) f | 2 => slPts c (sSl sB 2) f | 3 => slPts c (sSl sB 3) f
/-- Batch entry `b`'s two rows of device `c`'s statistics receive buffer. -/
def rsbPts (c : Dev nD) (b : Fin 4) (f : STy F) : sProp 𝕄 :=
  match b with
  | 0 => slPts c (sSl rsB 0) f | 1 => slPts c (sSl rsB 1) f | 2 => slPts c (sSl rsB 2) f | 3 => slPts c (sSl rsB 3) f

omit [FloatOps F] in
instance obPts_storable (c : Dev nD) (b) (f) : BI.Storable (upEmb : UEmb _ 𝕄) (obPts (F := F) c b f) := by unfold obPts; split <;> infer_instance
omit [FloatOps F] in
instance robPts_storable (c : Dev nD) (b) (f) : BI.Storable (upEmb : UEmb _ 𝕄) (robPts (F := F) c b f) := by unfold robPts; split <;> infer_instance
omit [FloatOps F] in
instance sbPts_storable (c : Dev nD) (b) (f) : BI.Storable (upEmb : UEmb _ 𝕄) (sbPts (F := F) c b f) := by unfold sbPts; split <;> infer_instance
omit [FloatOps F] in
instance rsbPts_storable (c : Dev nD) (b) (f) : BI.Storable (upEmb : UEmb _ 𝕄) (rsbPts (F := F) c b f) := by unfold rsbPts; split <;> infer_instance

/-! ## The schedule -/

/-- Which family (0 output-send, 1 output-receive, 2 statistics-send, 3 statistics-receive) and which batch entry a
    DMA semaphore of the kernel's own is. -/
def famOf (q : DmaSem sig) : Fin 4 := ⟨(q.val - 7) / 4 % 4, Nat.mod_lt _ (by decide)⟩
def entOf (q : DmaSem sig) : Fin 4 := ⟨(q.val - 7) % 4, Nat.mod_lt _ (by decide)⟩
theorem famOf_fam (k b : Fin 4) : famOf (famSem k b) = k := by revert k b; decide
theorem entOf_fam (k b : Fin 4) : entOf (famSem k b) = b := by revert k b; decide

/-- The protocol's cells among all semaphores: the barrier semaphore and the DMA semaphores from 7 on. -/
def isProto : SemLoc sig → Bool
  | .reg s => s = barS
  | .dma q => 7 ≤ q.val

variable (OV : Dev nD → OTy F) (SV : Dev nD → STy F)

/-- What a landing on the cell of family `k`, batch entry `b`, of device `c` hands its owner: a send cell the rows
    sent, back; a receive cell the rows received, holding the partner's. -/
def famPay (c : Dev nD) (k b : Fin 4) : sProp 𝕄 :=
  match k with
  | 0 => obPts c b (OV c)
  | 1 => robPts c b (OV (nbr c))
  | 2 => sbPts c b (SV c)
  | 3 => rsbPts c b (SV (nbr c))

/-- What the partner's barrier signal hands device `c`: the partner's two receive buffers, every batch entry's rows,
    at whatever they hold (the partner is inside the kernel and will not touch them before its final waits). -/
def barPay (c : Dev nD) : sProp 𝕄 :=
  iprop((∃ f, robPts (nbr c) 0 f) ∗ (∃ f, robPts (nbr c) 1 f) ∗ (∃ f, robPts (nbr c) 2 f) ∗ (∃ f, robPts (nbr c) 3 f)
    ∗ (∃ f, rsbPts (nbr c) 0 f) ∗ (∃ f, rsbPts (nbr c) 1 f) ∗ (∃ f, rsbPts (nbr c) 2 f) ∗ (∃ f, rsbPts (nbr c) 3 f))

/-- One round, round 0, one duty on every cell of the protocol. -/
def sched : Rounds.Schedule (GSem nD τ sig) Unit 𝕄 where
  duties g r := if r = 0 ∧ g.1.2 = .tc ∧ isProto g.2 = true then {()} else ∅
  amount g _ _ := match g.2 with
    | .reg _ => 1
    | .dma q => if (famOf q).val < 2 then No else Ns
  payload g _ _ := match g.2 with
    | .reg _ => barPay g.1.1
    | .dma q => famPay OV SV g.1.1 (famOf q) (entOf q)
  amount_pos g _ _ _ := by
    rcases g with ⟨g1, sm⟩
    cases sm with
    | reg s => exact Nat.one_pos
    | dma q => dsimp only; split; exact No_pos; exact Ns_pos

instance sched_payload_storable (g : GSem nD τ sig) (r : ℕ) (d : Unit) :
    BI.Storable (upEmb : UEmb _ 𝕄) ((sched (F := F) OV SV).payload g r d) := by
  rcases g with ⟨g1, sm⟩
  cases sm with
  | reg s => show BI.Storable upEmb (barPay g1.1); unfold barPay; infer_instance
  | dma q =>
    show BI.Storable upEmb (famPay OV SV g1.1 (famOf q) (entOf q))
    unfold famPay; split <;> infer_instance

section Sched
variable (c : Dev nD)

omit [FloatOps F] in
theorem duties_bar : (sched (F := F) OV SV).duties (barCell c) 0 = {()} := by dsimp only [sched]; exact if_pos ⟨rfl, rfl, by simp [isProto]⟩
omit [FloatOps F] in
theorem duties_fam (k b : Fin 4) : (sched (F := F) OV SV).duties (famCell c k b) 0 = {()} := by
  dsimp only [sched]; exact if_pos ⟨rfl, rfl, by simp only [isProto, famSem_val, decide_eq_true_eq]; omega⟩
omit [FloatOps F] in
theorem duties_later (g : GSem nD τ sig) : ∀ r, 1 ≤ r → (sched (F := F) OV SV).duties g r = ∅ :=
  fun r hr => by dsimp only [sched]; rw [if_neg fun h => by omega]

omit [FloatOps F] in
theorem amount_bar (d : Unit) : (sched (F := F) OV SV).amount (barCell c) 0 d = 1 := rfl
omit [FloatOps F] in
theorem amount_fam (k b : Fin 4) (d : Unit) : (sched (F := F) OV SV).amount (famCell c k b) 0 d = if k.val < 2 then No else Ns := by
  show (if (famOf (famSem k b)).val < 2 then No else Ns) = _; rw [famOf_fam]

omit [FloatOps F] in
theorem expect_bar : (sched (F := F) OV SV).expect (barCell c) 0 = 1 := by
  unfold Schedule.expect Schedule.amountOf; rw [duties_bar, Finset.sum_singleton, amount_bar]
omit [FloatOps F] in
theorem expect_fam (k b : Fin 4) : (sched (F := F) OV SV).expect (famCell c k b) 0 = if k.val < 2 then No else Ns := by
  unfold Schedule.expect Schedule.amountOf; rw [duties_fam, Finset.sum_singleton, amount_fam]

omit [FloatOps F] in
theorem payload_bar (d : Unit) : (sched (F := F) OV SV).payload (barCell c) 0 d = barPay c := rfl
omit [FloatOps F] in
theorem payload_fam (k b : Fin 4) (d : Unit) : (sched (F := F) OV SV).payload (famCell c k b) 0 d = famPay OV SV c k b := by
  show famPay OV SV c (famOf (famSem k b)) (entOf (famSem k b)) = _; rw [famOf_fam, entOf_fam]

omit [FloatOps F] in
theorem rest_bar : bigSep ((sched (F := F) OV SV).duties (barCell c) 0 \ ∅) (fun d => (sched (F := F) OV SV).payload (barCell c) 0 d) = barPay c := by
  rw [Finset.sdiff_empty, duties_bar, bigSep_singleton, payload_bar]
omit [FloatOps F] in
theorem rest_fam (k b : Fin 4) : bigSep ((sched (F := F) OV SV).duties (famCell c k b) 0 \ ∅) (fun d => (sched (F := F) OV SV).payload (famCell c k b) 0 d) = famPay OV SV c k b := by
  rw [Finset.sdiff_empty, duties_fam, bigSep_singleton, payload_fam]

end Sched

/-! ## What a device owes; the levels

A device's remote events, in program order: event 0 the barrier signal; events 1 + 2b and 2 + 2b the output copy and
the statistics copy of batch entry `b`. `owedFrom c j` is what it owes before event `j`; each event pays the last
summand. -/

def evTally (c : Dev nD) : ℕ → CellTallies nD τ sig Unit
  | 0 => tallyAt (barCell (nbr c)) () 1
  | 1 => tallyAt (famCell (nbr c) 1 0) () No
  | 2 => tallyAt (famCell (nbr c) 3 0) () Ns
  | 3 => tallyAt (famCell (nbr c) 1 1) () No
  | 4 => tallyAt (famCell (nbr c) 3 1) () Ns
  | 5 => tallyAt (famCell (nbr c) 1 2) () No
  | 6 => tallyAt (famCell (nbr c) 3 2) () Ns
  | 7 => tallyAt (famCell (nbr c) 1 3) () No
  | 8 => tallyAt (famCell (nbr c) 3 3) () Ns
  | _ => 0

/-- What the last `n` events pay, the latest event innermost. -/
def owedLast (c : Dev nD) : ℕ → CellTallies nD τ sig Unit
  | 0 => 0
  | n + 1 => owedLast c n + evTally c (8 - n)

/-- What the device owes before event `j`. -/
def owedFrom (c : Dev nD) (j : ℕ) : CellTallies nD τ sig Unit := owedLast c (9 - j)

theorem owedFrom_succ (c : Dev nD) (j : ℕ) (hj : j ≤ 8) : owedFrom c j = owedFrom c (j + 1) + evTally c j := by
  unfold owedFrom
  obtain ⟨n, hn⟩ : ∃ n, 9 - j = n + 1 := ⟨8 - j, by omega⟩
  rw [hn, show 9 - (j + 1) = n by omega, owedLast, show 8 - n = j by omega]

theorem owedFrom_nine (c : Dev nD) : owedFrom c 9 = 0 := rfl

/-- The events finished before grid point `t` (points 4b+3 hand batch entry `b` over; point 3 also holds the barrier). -/
def evDone (t : ℕ) : ℕ := if t < 4 then 0 else 1 + 2 * (t / 4)

def L (g : GSem nD τ sig) : Finset Unit := if g.1.2 = .tc then {()} else ∅
/-- The barrier cells at level 1, the receive cells at 2, everything else (staging, send cells) at 0. -/
def lv (g : GSem nD τ sig) (_ : Unit) : ℕ :=
  match g.2 with
  | .reg _ => 1
  | .dma q => if 7 ≤ q.val ∧ (famOf q).val % 2 = 1 then 2 else 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdealProof

end
-- ==== Proof.Trace.lean ====
/-
  What one device computes, as pure terms over the kernel's own payloads.

  For a batch entry `b` the device walks its four chunks of keys; `XQ b` is the entry's block of queries and
  `XK b k`, `XV b k` the `k`-th chunk's blocks of keys and values, as the pipeline stages them. The three
  accumulators start at the kernel's initial values and take one `chunk` step per grid point. After the fourth chunk
  the accumulators are handed over: the numerator rows into the device's output buffer (rows of batch entry `b`), the
  running maximum and the normaliser into the two statistics rows of `b`. The device's result is the merge payload of
  its own and its partner's statistics rows and output buffers.
-/
import proofs.«900428_g7700000000000429_dist_flashdec_v7x_xyz2x2x4_y_b4_sq32_skv4096_h8_d128_f32_1_alg».proof.Proof.Gen.KernelIdeal.Skeleton
import Idealize.ShloMosaic.Lib.ValueIdx

noncomputable section

namespace Cert.KernelIdeal.Trace

open Cert.KernelIdeal Cert.KernelIdeal.Gen
open Idealize.ShloMosaic

variable {F : FTy → Type} [FloatOps F]

/-- The three accumulators: numerator rows, running maximum, normaliser. -/
structure Acc (F : FTy → Type) where
  o : Vec F S8x32x128 .f32
  m : Vec F S8x32 .f32
  l : Vec F S8x32 .f32

/-- The accumulators as the first chunk of a batch entry resets them. -/
def acc0 : Acc F := ⟨k0_pay11, k0_pay9, k0_pay10⟩

/-- One grid point's update of the accumulators from the query block and one chunk's key and value blocks. -/
def chunk (xq : Vec F S1x32x8x128 .f32) (xk xv : Vec F S1x1024x8x128 .f32) (a : Acc F) : Acc F :=
  ⟨k0_pay2 (k0_pay12 xv) (k0_pay13 xq xk) (k0_pay14 xq xk a.m) (k0_pay15 xq xk a.m) a.o,
   k0_pay3 (k0_pay14 xq xk a.m),
   k0_pay4 (k0_pay13 xq xk) (k0_pay14 xq xk a.m) (k0_pay15 xq xk a.m) a.l⟩

variable (XQ : Fin 4 → Vec F S1x32x8x128 .f32) (XK XV : Fin 4 → Fin 4 → Vec F S1x1024x8x128 .f32)

/-- The accumulators of batch entry `b` after its first `k` chunks. -/
def accAt (b : Fin 4) : ℕ → Acc F
  | 0 => acc0
  | k + 1 => chunk (XQ b) (XK b ⟨k % 4, Nat.mod_lt _ (by decide)⟩) (XV b ⟨k % 4, Nat.mod_lt _ (by decide)⟩) (accAt b k)

/-- The output buffer once every batch entry is handed over: entry `b`'s rows are its numerator rows, re-laid. -/
def outBuf : (⟨S4x32x8x128, .f32⟩ : BufTy).Contents (Elt F) :=
  fun i => k0_pay5 (accAt XQ XK XV (i 0) 4).o (ValueIdx.ix4 (0 : Fin 1) (i 1) (i 2) (i 3))

/-- The statistics buffer once every batch entry is handed over: row 0 of entry `b` its running maximum, row 1 its
    normaliser. -/
def statBuf : (⟨S4x2x8x32, .f32⟩ : BufTy).Contents (Elt F) :=
  fun i => if (i 1).val = 0 then k0_pay6 (accAt XQ XK XV (i 0) 4).m (ValueIdx.ix4 (0 : Fin 1) (0 : Fin 1) (i 2) (i 3))
    else k0_pay7 (accAt XQ XK XV (i 0) 4).l (ValueIdx.ix4 (0 : Fin 1) (0 : Fin 1) (i 2) (i 3))

/-- Row `r` (0 the maxima, 1 the normalisers) of every batch entry of a statistics buffer. -/
def statRow (S : (⟨S4x2x8x32, .f32⟩ : BufTy).Contents (Elt F)) (r : Fin 2) : Vec F S4x1x8x32 .f32 :=
  fun j => S (ValueIdx.ix4 (j 0) r (j 2) (j 3))

/-- The device's result from its own and its partner's buffers. -/
def merged (So Sp : (⟨S4x2x8x32, .f32⟩ : BufTy).Contents (Elt F)) (Oo Op : (⟨S4x32x8x128, .f32⟩ : BufTy).Contents (Elt F)) :
    FVec F S4x32x8x128 .f32 :=
  k0_pay8 (statRow So 0) (statRow So 1) (statRow Sp 0) (statRow Sp 1) Oo Op

end Cert.KernelIdeal.Trace

end
-- ==== Proof.Data.lean ====
/-
  The proof data of the pipelined region, per device: what each staging buffer holds after each grid point, what the
  device still owes between points, and the invariant between points — the accumulators, the four slices of each
  hand-over buffer (held, or lent to a copy in flight), the receive buffers (the device's own before the barrier,
  its partner's after), the duty tokens of the events to come and the credits of the landings to wait for.
-/
import proofs.«900428_g7700000000000429_dist_flashdec_v7x_xyz2x2x4_y_b4_sq32_skv4096_h8_d128_f32_1_alg».proof.Proof.Protocol
import proofs.«900428_g7700000000000429_dist_flashdec_v7x_xyz2x2x4_y_b4_sq32_skv4096_h8_d128_f32_1_alg».proof.Proof.Trace

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The values -/

/-- Grid point `(b, k)`: batch entry `b`, chunk `k`. -/
def pt (b k : Fin 4) : Fin cfg0.N := ⟨4 * b.val + k.val, by rw [show cfg0.N = 16 from N_0]; omega⟩

/-- The query block of batch entry `b` and the key and value blocks of its chunk `k`, on device `c`. -/
def XQ (c : Dev nD) (b : Fin 4) : Vec F S1x32x8x128 .f32 := iblk m c 0 (pt b 0)
def XK (c : Dev nD) (b k : Fin 4) : Vec F S1x1024x8x128 .f32 := iblk m c 1 (pt b k)
def XV (c : Dev nD) (b k : Fin 4) : Vec F S1x1024x8x128 .f32 := iblk m c 2 (pt b k)

/-- Device `c`'s output buffer and statistics buffer once every batch entry is handed over; its result. -/
def OV (c : Dev nD) : OTy F := Trace.outBuf (XQ m c) (XK m c) (XV m c)
def SV (c : Dev nD) : STy F := Trace.statBuf (XQ m c) (XK m c) (XV m c)
def OUT (c : Dev nD) : OTy F := Trace.merged (SV m c) (SV m (nbr c)) (OV m c) (OV m (nbr c))

/-- The schedule at these values. -/
abbrev Rd : Rounds.Schedule (GSem nD τ sig) Unit 𝕄 := sched (OV m) (SV m)

/-! ## The cells as the launch indexes them -/

/-- A device's seventeen semaphores: 0 the barrier, `1 + 4k + b` family `k`, batch entry `b`. -/
abbrev csem : Fin 17 → SemLoc sig := fun j => if h : j.val = 0 then .reg barS else .dma ⟨6 + j.val, by have := j.isLt; show _ < 23; omega⟩
abbrev kcell (ck : Dev nD × Fin 17) : GSem nD τ sig := ((ck.1 : Thread nD τ), csem ck.2)
/-- The sixteen of its own (scoped). -/
abbrev osem : Fin 16 → SemLoc sig := fun j => .dma ⟨7 + j.val, by have := j.isLt; show _ < 23; omega⟩

def fidx (k b : Fin 4) : Fin 17 := ⟨1 + 4 * k.val + b.val, by have := k.isLt; have := b.isLt; omega⟩
theorem csem_fidx (k b : Fin 4) : csem (fidx k b) = .dma (famSem k b) := by revert k b; decide
theorem kcell_fidx (c : Dev nD) (k b : Fin 4) : kcell (c, fidx k b) = famCell c k b := by
  show ((c : Thread nD τ), csem (fidx k b)) = _; rw [csem_fidx]
theorem kcell_zero (c : Dev nD) : kcell (c, 0) = barCell c := rfl

/-- Every cell's invariant, at the names the launch allocated them, and that every cell has reached round 0. -/
def records (K : Dev nD × Fin 17 → ℕ) : sProp 𝕄 :=
  iprop((bigSep Finset.univ fun ck : Dev nD × Fin 17 => cellInv ER (Rd m) (K ck) (kcell ck))
    ∗ bigSep Finset.univ fun ck : Dev nD × Fin 17 => reached ER (kcell ck) 0)

instance records_persistent (K : Dev nD × Fin 17 → ℕ) : BI.Persistent (records m K) := by unfold records; infer_instance

/-! ## The invariant between grid points -/

/-- The whole buffer `b` on device `c` held outright at `f`. -/
abbrev whole (c : Dev nD) (b : Ref sig .tc) (f : Buf (Elt F) ((c : Thread nD τ).loc b)) : sProp 𝕄 :=
  ((c : Thread nD τ).loc b) ↦{fullShare} f

/-- The barrier's part before point `t`: until the barrier is passed (point 3) the token of the unit owed to the partner,
    the credit of the unit the partner owes and the position at round 0; afterwards the position at round 1. -/
def barPart (c : Dev nD) (t : ℕ) : sProp 𝕄 :=
  if t < 4 then iprop(dutyTok ER (barCell (nbr c)) 0 () ∗ cred (tallyAt (barCell c) () 1) ∗ atPos ER (barCell c) 0 ∅ 0)
  else atPos ER (barCell c) 1 ∅ 0

/-- Batch entry `b`'s part before point `t`. The four cells' positions and the two receive credits always. Until `b`
    is handed over (point 4b+3): its rows of the output and statistics buffers, the four duty tokens of its two copies,
    and its rows of the receive buffers the copies will land in — the device's own before the barrier (to give the
    partner), the partner's after. Once handed over: the two send credits. -/
def entPart (c : Dev nD) (t : ℕ) (b : Fin 4) : sProp 𝕄 :=
  iprop(atPos ER (famCell c 0 b) 0 ∅ 0 ∗ atPos ER (famCell c 1 b) 0 ∅ 0 ∗ atPos ER (famCell c 2 b) 0 ∅ 0 ∗ atPos ER (famCell c 3 b) 0 ∅ 0
    ∗ cred (tallyAt (famCell c 1 b) () No) ∗ cred (tallyAt (famCell c 3 b) () Ns)
    ∗ (if b.val < t / 4 then iprop(cred (tallyAt (famCell c 0 b) () No) ∗ cred (tallyAt (famCell c 2 b) () Ns))
       else iprop((∃ f, obPts c b f) ∗ (∃ f, sbPts c b f)
          ∗ dutyTok ER (famCell c 0 b) 0 () ∗ dutyTok ER (famCell (nbr c) 1 b) 0 () ∗ dutyTok ER (famCell c 2 b) 0 () ∗ dutyTok ER (famCell (nbr c) 3 b) 0 ()
          ∗ (if 4 ≤ t then iprop((∃ f, robPts (nbr c) b f) ∗ (∃ f, rsbPts (nbr c) b f))
             else iprop((∃ f, robPts c b f) ∗ (∃ f, rsbPts c b f))))))

/-- The accumulators before point `t = 4b + k`: after `k ≥ 1` chunks of batch entry `b` they hold the trace's; before
    the first chunk, anything (it resets them). -/
def accPart (c : Dev nD) (t : ℕ) : sProp 𝕄 :=
  iprop(∃ (fo : Buf (Elt F) ((c : Thread nD τ).loc cc0_scratch0)) (fm : Buf (Elt F) ((c : Thread nD τ).loc cc0_scratch1))
      (fl : Buf (Elt F) ((c : Thread nD τ).loc cc0_scratch2)),
    ⌜t % 4 ≠ 0 → fo = (Trace.accAt (XQ m c) (XK m c) (XV m c) ⟨t / 4 % 4, Nat.mod_lt _ (by decide)⟩ (t % 4)).o
        ∧ fm = (Trace.accAt (XQ m c) (XK m c) (XV m c) ⟨t / 4 % 4, Nat.mod_lt _ (by decide)⟩ (t % 4)).m
        ∧ fl = (Trace.accAt (XQ m c) (XK m c) (XV m c) ⟨t / 4 % 4, Nat.mod_lt _ (by decide)⟩ (t % 4)).l⌝
    ∗ whole c cc0_scratch0 fo ∗ whole c cc0_scratch1 fm ∗ whole c cc0_scratch2 fl)

/-- Between points. -/
def PhiMid (c : Dev nD) (t : ℕ) : sProp 𝕄 :=
  iprop(∃ K, records m K ∗ levAts L lv ∗ barPart c t ∗ entPart c t 0 ∗ entPart c t 1 ∗ entPart c t 2 ∗ entPart c t 3 ∗ accPart m c t)

/-- After the last point: every scratch buffer whole — the four hand-over buffers at the trace's values, the device's
    own and its partner's — and the sixteen own cells closed, their counters at zero. -/
def PhiEnd (c : Dev nD) : sProp 𝕄 :=
  iprop((∃ f, whole c cc0_scratch0 f) ∗ (∃ f, whole c cc0_scratch1 f) ∗ (∃ f, whole c cc0_scratch2 f)
    ∗ whole c cc0_scratch3 (OV m c) ∗ whole c cc0_scratch4 (SV m c) ∗ whole c cc0_scratch5 (OV m (nbr c)) ∗ whole c cc0_scratch6 (SV m (nbr c))
    ∗ bigSep Finset.univ fun j : Fin 16 => semVal ((c : Thread nD τ), osem j) 0)

/-! ## The proof data -/

def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => OUT m c
  Φ t := if t.val < 16 then PhiMid m c t.val else PhiEnd m c
  q _ := fullShare
  owed t := owedFrom c (evDone t.val)

abbrev 𝒱₀ : Variants := Variants.none

end Cert.KernelIdealProof

end
-- ==== Proof.Launch.lean ====
/-
  The launch of the attention kernel on the mesh of sixteen devices.

  Every device starts from the launch's holdings: its seventeen cells' ghost state (their round state, positions and duty
  tokens), its semaphores at zero, its scratch buffers at arbitrary contents, and the credit of what the other devices owe
  its cells. The duty tokens of a device's barrier cell and of its receive cells go to its partner, who pays them; the
  tokens of its send cells stay. What all devices owe a cell at launch sums to the one unit (barrier) or the one copy's
  credit (receive) the partner owes it. At every boundary a device owes only its partner's barrier and receive cells, all
  above the staging cells' level, so the staging waits are allowed.
-/
import proofs.«900428_g7700000000000429_dist_flashdec_v7x_xyz2x2x4_y_b4_sq32_skv4096_h8_d128_f32_1_alg».proof.Proof.Data

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells, tokens, the launch element -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The protocol's cells: every device's seventeen. -/
def protoCells : Finset (GSem nD τ sig) := Finset.univ.map ⟨kcell, kcell_injective⟩

/-- Each cell's one duty token, as minted. -/
abbrev tokOf (ck : Dev nD × Fin 17) : GSem nD τ sig × ℕ × Unit := (kcell ck, 0, ())
theorem tokOf_injective : Function.Injective (tokOf : Dev nD × Fin 17 → GSem nD τ sig × ℕ × Unit) :=
  fun a b h => kcell_injective (congrArg Prod.fst h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-! ## What a device owes, where -/

omit [FloatOps F] in
theorem evTally_pos {c : Dev nD} {i : ℕ} {g : GSem nD τ sig} {u : Unit} (h : 0 < evTally c i g u) :
    g = barCell (nbr c) ∨ ∃ b : Fin 4, g = famCell (nbr c) 1 b ∨ g = famCell (nbr c) 3 b := by
  match i, h with
  | 0, h => exact Or.inl (Pipeline.tallyAt_pos h).1
  | 1, h => exact Or.inr ⟨0, Or.inl (Pipeline.tallyAt_pos h).1⟩
  | 2, h => exact Or.inr ⟨0, Or.inr (Pipeline.tallyAt_pos h).1⟩
  | 3, h => exact Or.inr ⟨1, Or.inl (Pipeline.tallyAt_pos h).1⟩
  | 4, h => exact Or.inr ⟨1, Or.inr (Pipeline.tallyAt_pos h).1⟩
  | 5, h => exact Or.inr ⟨2, Or.inl (Pipeline.tallyAt_pos h).1⟩
  | 6, h => exact Or.inr ⟨2, Or.inr (Pipeline.tallyAt_pos h).1⟩
  | 7, h => exact Or.inr ⟨3, Or.inl (Pipeline.tallyAt_pos h).1⟩
  | 8, h => exact Or.inr ⟨3, Or.inr (Pipeline.tallyAt_pos h).1⟩
  | n + 9, h => exact absurd h (Nat.lt_irrefl 0)

omit [FloatOps F] in
theorem owedLast_pos {c : Dev nD} {n : ℕ} {g : GSem nD τ sig} {u : Unit} (h : 0 < owedLast c n g u) :
    g = barCell (nbr c) ∨ ∃ b : Fin 4, g = famCell (nbr c) 1 b ∨ g = famCell (nbr c) 3 b := by
  induction n with
  | zero => exact absurd h (Nat.lt_irrefl 0)
  | succ n ih =>
    rcases Pipeline.add_pos_cases (show 0 < (owedLast c n + evTally c (8 - n)) g u from h) with h' | h'
    · exact ih h'
    · exact evTally_pos h'

omit [FloatOps F] in
/-- Whatever a device owes, it owes its partner's barrier cell or one of its partner's receive cells. -/
theorem owedFrom_pos {c : Dev nD} {j : ℕ} {g : GSem nD τ sig} {u : Unit} (h : 0 < owedFrom c j g u) :
    g = barCell (nbr c) ∨ ∃ b : Fin 4, g = famCell (nbr c) 1 b ∨ g = famCell (nbr c) 3 b := owedLast_pos h

omit [FloatOps F] in
theorem lv_recv (c' : Dev nD) (b : Fin 4) : lv (famCell c' 1 b) () = 2 ∧ lv (famCell c' 3 b) () = 2 := by
  constructor
  · show (if 7 ≤ (famSem 1 b).val ∧ (famOf (famSem 1 b)).val % 2 = 1 then 2 else 0) = 2
    revert b; decide
  · show (if 7 ≤ (famSem 3 b).val ∧ (famOf (famSem 3 b)).val % 2 = 1 then 2 else 0) = 2
    revert b; decide

omit [FloatOps F] in
theorem stage_sem_lt : ∀ (w : Fin cfg0.W) (s : Fin (cfg0.win w).nbuf), ((cfg0.win w).sem s).val < 7 := by decide

omit [FloatOps F] in
/-- A wait on a staging cell is allowed whatever the device still owes. -/
theorem mayWait_stage (c : Dev nD) (q : DmaSem sig) (hq : q.val < 7) (j : ℕ) :
    (levAts L lv : sProp 𝕄) ⊢ MayWait (c : Thread nD τ) (.dma q) () (owedFrom c j) :=
  MayOwe.of_cut (L := L) (lev := lv) 0 (fun p hp => by rw [Finset.mem_singleton.mp hp, L_tc]; exact Finset.mem_singleton_self _)
    (fun g u hg => by
      rcases owedFrom_pos hg with rfl | ⟨b, rfl | rfl⟩ <;> (rw [L_tc]; exact Finset.mem_singleton_self _))
    (fun p hp => by
      rw [Finset.mem_singleton.mp hp]
      show (if 7 ≤ q.val ∧ (famOf q).val % 2 = 1 then 2 else 0) ≤ 0
      rw [if_neg (fun h => by omega)])
    (fun g u hg => by
      rcases owedFrom_pos hg with rfl | ⟨b, rfl | rfl⟩
      · show 0 < 1; decide
      · cases u; rw [(lv_recv (nbr c) b).1]; decide
      · cases u; rw [(lv_recv (nbr c) b).2]; decide)

theorem waits (c : Dev nD) : (levAts L lv : sProp 𝕄) ⊢ Pipeline.cellsWaits cfgs (dats m) () 0 c :=
  Pipeline.cellsWaits_intro cfgs (dats m) () 0 c fun w s t => mayWait_stage c _ (stage_sem_lt w s) _

/-! ## The launch credit -/

/-- The credits of the two copies that land batch entry `b` on device `c`. -/
def credE (c : Dev nD) (b : Fin 4) : sProp 𝕄 :=
  iprop(cred (tallyAt (famCell c 1 b) () No) ∗ cred (tallyAt (famCell c 3 b) () Ns))

omit [FloatOps F] in
/-- What every device owes at launch, event by event, the first event last. -/
theorem owed_zero_eq : (fun d : Dev nD => owedFrom d 0) = fun d =>
    (0 : CellTallies nD τ sig Unit) + tallyAt (famCell (nbr d) 3 3) () Ns + tallyAt (famCell (nbr d) 1 3) () No
      + tallyAt (famCell (nbr d) 3 2) () Ns + tallyAt (famCell (nbr d) 1 2) () No
      + tallyAt (famCell (nbr d) 3 1) () Ns + tallyAt (famCell (nbr d) 1 1) () No
      + tallyAt (famCell (nbr d) 3 0) () Ns + tallyAt (famCell (nbr d) 1 0) () No
      + tallyAt (barCell (nbr d)) () 1 := funext fun d => rfl

omit [FloatOps F] in
/-- What all devices owe a device's cells at launch is what its partner owes them: one unit on its barrier cell, one
    copy's credit on each receive cell. -/
theorem creds (c : Dev nD) :
    (Pipeline.launchCred (fun d => owedFrom d 0) c : sProp 𝕄)
      ⊢ iprop(cred (tallyAt (barCell c) () 1) ∗ credE c 0 ∗ credE c 1 ∗ credE c 2 ∗ credE c 3) := by
  rw [owed_zero_eq]
  simp only [Pipeline.launchCred_add]
  unfold credE
  iintro ⟨⟨⟨⟨⟨⟨⟨⟨⟨-, H33⟩, H13⟩, H32⟩, H12⟩, H31⟩, H11⟩, H30⟩, H10⟩, HB⟩
  ihave GB := (Pipeline.launchCred_tallyAt (.reg barS) nbr nbr nbr_nbr nbr_nbr () 1 c) $$ HB
  ihave G10 := (Pipeline.launchCred_tallyAt (.dma (famSem 1 0)) nbr nbr nbr_nbr nbr_nbr () No c) $$ H10
  ihave G30 := (Pipeline.launchCred_tallyAt (.dma (famSem 3 0)) nbr nbr nbr_nbr nbr_nbr () Ns c) $$ H30
  ihave G11 := (Pipeline.launchCred_tallyAt (.dma (famSem 1 1)) nbr nbr nbr_nbr nbr_nbr () No c) $$ H11
  ihave G31 := (Pipeline.launchCred_tallyAt (.dma (famSem 3 1)) nbr nbr nbr_nbr nbr_nbr () Ns c) $$ H31
  ihave G12 := (Pipeline.launchCred_tallyAt (.dma (famSem 1 2)) nbr nbr nbr_nbr nbr_nbr () No c) $$ H12
  ihave G32 := (Pipeline.launchCred_tallyAt (.dma (famSem 3 2)) nbr nbr nbr_nbr nbr_nbr () Ns c) $$ H32
  ihave G13 := (Pipeline.launchCred_tallyAt (.dma (famSem 1 3)) nbr nbr nbr_nbr nbr_nbr () No c) $$ H13
  ihave G33 := (Pipeline.launchCred_tallyAt (.dma (famSem 3 3)) nbr nbr nbr_nbr nbr_nbr () Ns c) $$ H33
  isplitl [GB]; · iexact GB
  isplitl [G10 G30]
  · isplitl [G10] <;> iassumption
  isplitl [G11 G31]
  · isplitl [G11] <;> iassumption
  isplitl [G12 G32]
  · isplitl [G12] <;> iassumption
  isplitl [G13] <;> iassumption

/-! ## Funding the protocol's ghost state -/

/-- The duty tokens of device `c`'s own seventeen cells. -/
def toks (c : Dev nD) : sProp 𝕄 := bigSep Finset.univ fun k : Fin 17 => dutyTok ER (kcell (c, k)) 0 ()

/-- What the launch element deals device `c`. -/
def G (c : Dev nD) : sProp 𝕄 :=
  iprop((bigSep Finset.univ fun k : Fin 17 => roundState ER (Rd m) (kcell (c, k)) 0)
    ∗ (bigSep Finset.univ fun k : Fin 17 => iprop(atPos ER (kcell (c, k)) 0 ∅ 0 ∗ reached ER (kcell (c, k)) 0)) ∗ toks c)

omit [FloatOps F] in
theorem bigSep_fin17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ
omit [FloatOps F] in
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 17 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]; rfl
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [unscopedSems0_eq, bigSep_fin17]
  unfold Pipeline.ownSems0
  rw [bigSep_fin16]
  exact sep_comm.1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 17 => iprop(∃ κ : ℕ, cellInv ER (Rd m) κ (kcell (c, k))))
          ∗ (bigSep Finset.univ fun k : Fin 17 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (Rd m) (kcell (c, k)) 0)
      ⊢ (|={Set.univ}=> bigSep Finset.univ fun k : Fin 17 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem inv_at (K : Dev nD × Fin 17 → ℕ) (ck : Dev nD × Fin 17) :
    (bigSep Finset.univ fun ck : Dev nD × Fin 17 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 17) :
    (bigSep Finset.univ fun ck : Dev nD × Fin 17 => (reached ER (kcell ck) 0 : sProp 𝕄)) ⊢ reached ER (kcell ck) 0 :=
  bigSep_elim (Finset.mem_univ ck)

/-! ## Dealing the tokens to their payers -/

/-- Who pays the duty of cell `k` of device `c`: the partner for the barrier cell and the receive cells, the device
    itself for its send cells. -/
def tgt (c : Dev nD) (k : Fin 17) : Dev nD := if k.val = 0 ∨ (k.val - 1) / 4 % 2 = 1 then nbr c else c

omit [FloatOps F] in
theorem tgt_tgt (c : Dev nD) (k : Fin 17) : tgt (tgt c k) k = c := by
  unfold tgt; split
  · exact nbr_nbr c
  · rfl

def dealE : Dev nD × Fin 17 ≃ Dev nD × Fin 17 :=
  ⟨fun ck => (tgt ck.1 ck.2, ck.2), fun ck => (tgt ck.1 ck.2, ck.2), fun ck => Prod.ext (tgt_tgt ck.1 ck.2) rfl, fun ck => Prod.ext (tgt_tgt ck.1 ck.2) rfl⟩

/-- The tokens device `c` pays with. -/
def payToks (c : Dev nD) : sProp 𝕄 := bigSep Finset.univ fun k : Fin 17 => dutyTok ER (kcell (tgt c k, k)) 0 ()

omit [FloatOps F] in
theorem toks_around : (bigSep Finset.univ fun c : Dev nD => (toks c : sProp 𝕄)) ⊢ bigSep Finset.univ fun c : Dev nD => payToks c := by
  unfold toks payToks
  rw [← bigSep_univ_prod (fun ck : Dev nD × Fin 17 => (dutyTok ER (kcell ck) 0 () : sProp 𝕄)),
    ← bigSep_univ_prod (fun ck : Dev nD × Fin 17 => (dutyTok ER (kcell (tgt ck.1 ck.2, ck.2)) 0 () : sProp 𝕄)),
    bigSep_univ_equiv dealE (fun ck : Dev nD × Fin 17 => (dutyTok ER (kcell ck) 0 () : sProp 𝕄))]
  exact Entails.of_eq rfl

/-- Batch entry `b`'s positions and tokens on device `c`. -/
def entGhost (c : Dev nD) (b : Fin 4) : sProp 𝕄 :=
  iprop(atPos ER (famCell c 0 b) 0 ∅ 0 ∗ atPos ER (famCell c 1 b) 0 ∅ 0 ∗ atPos ER (famCell c 2 b) 0 ∅ 0 ∗ atPos ER (famCell c 3 b) 0 ∅ 0
    ∗ dutyTok ER (famCell c 0 b) 0 () ∗ dutyTok ER (famCell (nbr c) 1 b) 0 () ∗ dutyTok ER (famCell c 2 b) 0 () ∗ dutyTok ER (famCell (nbr c) 3 b) 0 ())

/-- What stays with device `c`: its positions and the tokens of the duties it pays. -/
def linear (c : Dev nD) : sProp 𝕄 :=
  iprop(atPos ER (barCell c) 0 ∅ 0 ∗ dutyTok ER (barCell (nbr c)) 0 () ∗ entGhost c 0 ∗ entGhost c 1 ∗ entGhost c 2 ∗ entGhost c 3)

/-- What the global step makes of the launch element. -/
def G' (c : Dev nD) : sProp 𝕄 := iprop(∃ K, records m K ∗ linear c)

omit [FloatOps F] in
theorem linear_intro (c : Dev nD) :
    iprop((bigSep Finset.univ fun k : Fin 17 => (atPos ER (kcell (c, k)) 0 ∅ 0 : sProp 𝕄)) ∗ payToks c) ⊢ linear c := by
  unfold payToks linear entGhost
  rw [bigSep_fin17, bigSep_fin17]
  iintro ⟨⟨A0, A1, A2, A3, A4, A5, A6, A7, A8, A9, A10, A11, A12, A13, A14, A15, A16⟩, T0, T1, T2, T3, T4, T5, T6, T7, T8, T9, T10, T11, T12, T13, T14, T15, T16⟩
  isplitl [A0]; · iexact A0
  isplitl [T0]; · iexact T0
  isplitl [A1 A5 A9 A13 T1 T5 T9 T13]
  ·
    isplitl [A1]; · iexact A1
    isplitl [A5]; · iexact A5
    isplitl [A9]; · iexact A9
    isplitl [A13]; · iexact A13
    isplitl [T1]; · iexact T1
    isplitl [T5]; · iexact T5
    isplitl [T9]; · iexact T9
    iexact T13
  isplitl [A2 A6 A10 A14 T2 T6 T10 T14]
  ·
    isplitl [A2]; · iexact A2
    isplitl [A6]; · iexact A6
    isplitl [A10]; · iexact A10
    isplitl [A14]; · iexact A14
    isplitl [T2]; · iexact T2
    isplitl [T6]; · iexact T6
    isplitl [T10]; · iexact T10
    iexact T14
  isplitl [A3 A7 A11 A15 T3 T7 T11 T15]
  ·
    isplitl [A3]; · iexact A3
    isplitl [A7]; · iexact A7
    isplitl [A11]; · iexact A11
    isplitl [A15]; · iexact A15
    isplitl [T3]; · iexact T3
    isplitl [T7]; · iexact T7
    isplitl [T11]; · iexact T11
    iexact T15
  isplitl [A4]; · iexact A4
  isplitl [A8]; · iexact A8
  isplitl [A12]; · iexact A12
  isplitl [A16]; · iexact A16
  isplitl [T4]; · iexact T4
  isplitl [T8]; · iexact T8
  isplitl [T12]; · iexact T12
  iexact T16

theorem ghost_intro (K : Dev nD × Fin 17 → ℕ) (c : Dev nD) : iprop(records m K ∗ linear c) ⊢ G' m c := by
  unfold G'
  iintro ⟨HR, HL⟩
  iexists K
  isplitl [HR] <;> iassumption

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 17 => iprop(∃ κ : ℕ, cellInv ER (Rd m) κ (kcell (c, k))))
          ∗ (bigSep Finset.univ fun k : Fin 17 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 17 => iprop(∃ κ : ℕ, cellInv ER (Rd m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 17 => (atPos ER (kcell (c, k)) 0 ∅ 0 : sProp 𝕄)) payToks).symm).trans
      (bigSep_mono fun c _ => linear_intro c))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

/-- What device `c`'s region starts from, besides its scratch buffers: the ghost state at some names, the level facts
    and the credits of the nine landings it will wait for. -/
def start (c : Dev nD) : sProp 𝕄 :=
  iprop(G' m c ∗ levAts L lv ∗ cred (tallyAt (barCell c) () 1) ∗ credE c 0 ∗ credE c 1 ∗ credE c 2 ∗ credE c 3)

theorem start_intro (c : Dev nD) :
    iprop(Pipeline.unscopedRestP Pipeline.Prefetch.none cfg0.spec c (fun b => m ((c : Thread nD τ).loc b)) ∗ levAts L lv
        ∗ Pipeline.launchCred (fun d => owedFrom d 0) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hlev]; · iexact Hlev
    iexact Hc
  · iempintro

omit [FloatOps F] in
/-- Batch entry `b`'s part of the invariant before the first point. -/
theorem entPart_zero (c : Dev nD) (b : Fin 4) :
    iprop(entGhost c b ∗ credE c b ∗ (∃ f, obPts c b f) ∗ (∃ f, sbPts c b f) ∗ (∃ f, robPts c b f) ∗ (∃ f, rsbPts c b f))
      ⊢ (entPart c 0 b : sProp 𝕄) := by
  unfold entPart entGhost credE
  rw [if_neg (by omega), if_neg (by omega)]
  iintro ⟨⟨A0, A1, A2, A3, T0, T1, T2, T3⟩, ⟨C1, C3⟩, HO, HS, HRO, HRS⟩
  isplitl [A0]; · iexact A0
  isplitl [A1]; · iexact A1
  isplitl [A2]; · iexact A2
  isplitl [A3]; · iexact A3
  isplitl [C1]; · iexact C1
  isplitl [C3]; · iexact C3
  isplitl [HO]; · iexact HO
  isplitl [HS]; · iexact HS
  isplitl [T0]; · iexact T0
  isplitl [T1]; · iexact T1
  isplitl [T2]; · iexact T2
  isplitl [T3]; · iexact T3
  isplitl [HRO]; · iexact HRO
  iexact HRS

theorem Phi_zero (c : Dev nD) : (dats m 0 c).Φ 0 = PhiMid m c 0 := by
  show (if (0 : Fin (cfg0.N + 1)).val < 16 then PhiMid m c (0 : Fin (cfg0.N + 1)).val else PhiEnd m c) = _
  exact if_pos (by decide)

theorem Phi_last (c : Dev nD) : (dats m 0 c).Φ (Fin.last cfg0.N) = PhiEnd m c := by
  show (if (Fin.last cfg0.N).val < 16 then PhiMid m c (Fin.last cfg0.N).val else PhiEnd m c) = _
  exact if_neg (by decide)

omit [FloatOps F] in
theorem evDone_last : evDone (Fin.last cfg0.N).val = 9 := by decide

theorem owed_last (c : Dev nD) : (dats m 0 c).owed (Fin.last cfg0.N) = 0 := by
  show owedFrom c (evDone (Fin.last cfg0.N).val) = 0
  rw [evDone_last]; exact owedFrom_nine c

theorem phi0_intro
    (ob_split : ∀ (c : Dev nD) (f : OTy F), (whole c cc0_scratch3 f : sProp 𝕄) ⊣⊢ iprop(obPts c 0 f ∗ obPts c 1 f ∗ obPts c 2 f ∗ obPts c 3 f))
    (sb_split : ∀ (c : Dev nD) (f : STy F), (whole c cc0_scratch4 f : sProp 𝕄) ⊣⊢ iprop(sbPts c 0 f ∗ sbPts c 1 f ∗ sbPts c 2 f ∗ sbPts c 3 f))
    (rob_split : ∀ (c : Dev nD) (f : OTy F), (whole c cc0_scratch5 f : sProp 𝕄) ⊣⊢ iprop(robPts c 0 f ∗ robPts c 1 f ∗ robPts c 2 f ∗ robPts c 3 f))
    (rsb_split : ∀ (c : Dev nD) (f : STy F), (whole c cc0_scratch6 f : sProp 𝕄) ⊣⊢ iprop(rsbPts c 0 f ∗ rsbPts c 1 f ∗ rsbPts c 2 f ∗ rsbPts c 3 f))
    (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [Phi_zero, scopedRest0_eq]
  unfold start G' linear PhiMid barPart accPart
  rw [if_pos (by decide)]
  iintro ⟨⟨⟨%K, HR, HaB, HtB, HE0, HE1, HE2, HE3⟩, Hlev, HcB, HC0, HC1, HC2, HC3⟩, -, ⟨%f0, H0⟩, ⟨%f1, H1⟩, ⟨%f2, H2⟩, ⟨%f3, H3⟩, ⟨%f4, H4⟩, ⟨%f5, H5⟩, ⟨%f6, H6⟩⟩
  ihave H3' := (ob_split c f3).1 $$ H3
  icases H3' with ⟨O0, O1, O2, O3⟩
  ihave H4' := (sb_split c f4).1 $$ H4
  icases H4' with ⟨S0, S1, S2, S3⟩
  ihave H5' := (rob_split c f5).1 $$ H5
  icases H5' with ⟨R0, R1, R2, R3⟩
  ihave H6' := (rsb_split c f6).1 $$ H6
  icases H6' with ⟨Q0, Q1, Q2, Q3⟩
  iexists K
  isplitl [HR]; · iexact HR
  isplitl [Hlev]; · iexact Hlev
  isplitl [HtB HcB HaB]
  · isplitl [HtB]; · iexact HtB
    isplitl [HcB]; · iexact HcB
    iexact HaB
  isplitl [HE0 HC0 O0 S0 R0 Q0]
  · iapply (entPart_zero c 0)
    isplitl [HE0]; · iexact HE0
    isplitl [HC0]; · iexact HC0
    isplitl [O0]; · iexists f3; iexact O0
    isplitl [S0]; · iexists f4; iexact S0
    isplitl [R0]; · iexists f5; iexact R0
    iexists f6; iexact Q0
  isplitl [HE1 HC1 O1 S1 R1 Q1]
  · iapply (entPart_zero c 1)
    isplitl [HE1]; · iexact HE1
    isplitl [HC1]; · iexact HC1
    isplitl [O1]; · iexists f3; iexact O1
    isplitl [S1]; · iexists f4; iexact S1
    isplitl [R1]; · iexists f5; iexact R1
    iexists f6; iexact Q1
  isplitl [HE2 HC2 O2 S2 R2 Q2]
  · iapply (entPart_zero c 2)
    isplitl [HE2]; · iexact HE2
    isplitl [HC2]; · iexact HC2
    isplitl [O2]; · iexists f3; iexact O2
    isplitl [S2]; · iexists f4; iexact S2
    isplitl [R2]; · iexists f5; iexact R2
    iexists f6; iexact Q2
  isplitl [HE3 HC3 O3 S3 R3 Q3]
  · iapply (entPart_zero c 3)
    isplitl [HE3]; · iexact HE3
    isplitl [HC3]; · iexact HC3
    isplitl [O3]; · iexists f3; iexact O3
    isplitl [S3]; · iexists f4; iexact S3
    isplitl [R3]; · iexists f5; iexact R3
    iexists f6; iexact Q3
  iexists f0, f1, f2
  isplitr
  · ipureintro; intro h; exact absurd (Nat.zero_mod 4) h
  isplitl [H0]; · iexact H0
  isplitl [H1]; · iexact H1
  iexact H2

theorem phi1_exit (c : Dev nD) :
    (dats m 0 c).Φ (Fin.last cfg0.N) ⊢ iprop(emp ∗ Pipeline.ownSems0 osem c ∗ Pipeline.scopedRest cfg0.spec c) := by
  rw [Phi_last, scopedRest0_eq]
  unfold PhiEnd Pipeline.ownSems0
  iintro ⟨H0, H1, H2, H3, H4, H5, H6, HS⟩
  isplitr; · iempintro
  isplitl [HS]; · iexact HS
  isplitl [H0]; · iexact H0
  isplitl [H1]; · iexact H1
  isplitl [H2]; · iexact H2
  isplitl [H3]; · iexists (OV m c); iexact H3
  isplitl [H4]; · iexists (SV m c); iexact H4
  isplitl [H5]; · iexists (OV m (nbr c)); iexact H5
  iexists (SV m (nbr c)); iexact H6

/-! ## The run -/

set_option maxRecDepth 8000 in
/-- At the compiled mesh of sixteen devices, for any float values, from any memory with zero counters: given each device's
    body obligation, every weakly fair execution of the program terminates, and every final state has each device's
    arrays at the contents the proof data computes. -/
theorem run_main
    (ob_split : ∀ (c : Dev nD) (f : OTy F), (whole c cc0_scratch3 f : sProp 𝕄) ⊣⊢ iprop(obPts c 0 f ∗ obPts c 1 f ∗ obPts c 2 f ∗ obPts c 3 f))
    (sb_split : ∀ (c : Dev nD) (f : STy F), (whole c cc0_scratch4 f : sProp 𝕄) ⊣⊢ iprop(sbPts c 0 f ∗ sbPts c 1 f ∗ sbPts c 2 f ∗ sbPts c 3 f))
    (rob_split : ∀ (c : Dev nD) (f : OTy F), (whole c cc0_scratch5 f : sProp 𝕄) ⊣⊢ iprop(robPts c 0 f ∗ robPts c 1 f ∗ robPts c 2 f ∗ robPts c 3 f))
    (rsb_split : ∀ (c : Dev nD) (f : STy F), (whole c cc0_scratch6 f : sProp 𝕄) ⊣⊢ iprop(rsbPts c 0 f ∗ rsbPts c 1 f ∗ rsbPts c 2 f ∗ rsbPts c 3 f))
    (hbody : ∀ c : Dev nD, Pipeline.BodyObligationLoose (dats (F := F) m 0 c) (defs₀ (F := F)) 𝒱₀ () Set.univ) :
    θ_run defs (onTc (τ := τ) (main (F := F))) (s₀ m ρ)
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := fun d => owedFrom d 0) (howed₀ := fun _ => rfl) (howedN := owed_last m)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ob_split sb_split rob_split rsb_split) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

end Cert.KernelIdealProof

end
-- ==== Proof.Slices.lean ====
/-
  The four scratch buffers of the cross-device exchange, cut into their per-batch-entry slices.

  A buffer of shape [4, …] is held as four pieces, piece b the elements whose leading coordinate is b. This module
  shows: the whole buffer is the four pieces together; a copy of piece b of one buffer over piece b of another
  same-shaped buffer leaves, on that piece, the source's contents; a store of a [1, …] block at leading offset b
  through the whole buffer rewrites exactly piece b.
-/
import proofs.«900428_g7700000000000429_dist_flashdec_v7x_xyz2x2x4_y_b4_sq32_skv4096_h8_d128_f32_1_alg».proof.Proof.Protocol
import Idealize.ShloMosaic.Lib.Pipeline.Value
import Idealize.ShloMosaic.Lib.ValueIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Unit rectangles of a rank-four shape, by the leading coordinates -/

/-- A block of one leading coordinate and the whole of the other three axes holds the indices whose leading
    coordinate is the block's offset. -/
theorem mem_unit_lead {n0 n1 n2 n3 o : ℕ}
    (inb : ∀ a, (![o, 0, 0, 0] : Fin 4 → ℕ) a + (![1, n1, n2, n3] : Fin 4 → ℕ) a ≤ (⟨4, ![n0, n1, n2, n3]⟩ : Shape).size a)
    (i : (⟨4, ![n0, n1, n2, n3]⟩ : Shape).Idx) :
    i ∈ (Rect.unit (s := ⟨4, ![n0, n1, n2, n3]⟩) ![o, 0, 0, 0] ![1, n1, n2, n3] inb).set ↔ (i 0).val = o := by
  rw [Rect.mem_set_unit]
  constructor
  · intro h
    have h0 : o ≤ (i 0).val ∧ (i 0).val < o + 1 := h 0
    omega
  · intro h a
    match a with
    | ⟨0, _⟩ =>
      show o ≤ (i 0).val ∧ (i 0).val < o + 1
      omega
    | ⟨1, _⟩ =>
      have h1 : (i 1).val < n1 := (i 1).isLt
      show 0 ≤ (i 1).val ∧ (i 1).val < 0 + n1
      omega
    | ⟨2, _⟩ =>
      have h2 : (i 2).val < n2 := (i 2).isLt
      show 0 ≤ (i 2).val ∧ (i 2).val < 0 + n2
      omega
    | ⟨3, _⟩ =>
      have h3 : (i 3).val < n3 := (i 3).isLt
      show 0 ≤ (i 3).val ∧ (i 3).val < 0 + n3
      omega

/-- A block of one leading coordinate, one second coordinate and the whole of the last two axes holds the indices
    with those two coordinates. -/
theorem mem_unit_lead2 {n0 n1 n2 n3 o0 o1 : ℕ}
    (inb : ∀ a, (![o0, o1, 0, 0] : Fin 4 → ℕ) a + (![1, 1, n2, n3] : Fin 4 → ℕ) a ≤ (⟨4, ![n0, n1, n2, n3]⟩ : Shape).size a)
    (i : (⟨4, ![n0, n1, n2, n3]⟩ : Shape).Idx) :
    i ∈ (Rect.unit (s := ⟨4, ![n0, n1, n2, n3]⟩) ![o0, o1, 0, 0] ![1, 1, n2, n3] inb).set
      ↔ (i 0).val = o0 ∧ (i 1).val = o1 := by
  rw [Rect.mem_set_unit]
  constructor
  · intro h
    have h0 : o0 ≤ (i 0).val ∧ (i 0).val < o0 + 1 := h 0
    have h1 : o1 ≤ (i 1).val ∧ (i 1).val < o1 + 1 := h 1
    omega
  · intro h a
    match a with
    | ⟨0, _⟩ =>
      show o0 ≤ (i 0).val ∧ (i 0).val < o0 + 1
      omega
    | ⟨1, _⟩ =>
      show o1 ≤ (i 1).val ∧ (i 1).val < o1 + 1
      omega
    | ⟨2, _⟩ =>
      have h2 : (i 2).val < n2 := (i 2).isLt
      show 0 ≤ (i 2).val ∧ (i 2).val < 0 + n2
      omega
    | ⟨3, _⟩ =>
      have h3 : (i 3).val < n3 := (i 3).isLt
      show 0 ≤ (i 3).val ∧ (i 3).val < 0 + n3
      omega

/-! ## Four pieces by the leading coordinate -/

section Lead
variable {n1 n2 n3 : ℕ}

/-- Four sets that hold the indices of leading coordinate 0, 1, 2, 3 of a `[4, …]` shape hold every index. -/
theorem lead_cover {S0 S1 S2 S3 : Finset (⟨4, ![4, n1, n2, n3]⟩ : Shape).Idx}
    (h0 : ∀ i, Iff (i ∈ S0) ((i 0).val = 0)) (h1 : ∀ i, Iff (i ∈ S1) ((i 0).val = 1))
    (h2 : ∀ i, Iff (i ∈ S2) ((i 0).val = 2)) (h3 : ∀ i, Iff (i ∈ S3) ((i 0).val = 3)) :
    Finset.univ = S0 ∪ (S1 ∪ (S2 ∪ S3)) := by
  ext i
  have h4 : (i 0).val < 4 := (i 0).isLt
  simp only [Finset.mem_univ, Finset.mem_union, h0 i, h1 i, h2 i, h3 i, true_iff]
  omega

/-- Sets that hold the indices of two different leading coordinates share none. -/
theorem lead_disjoint {S T : Finset (⟨4, ![4, n1, n2, n3]⟩ : Shape).Idx} {a b : ℕ}
    (hS : ∀ i, Iff (i ∈ S) ((i 0).val = a)) (hT : ∀ i, Iff (i ∈ T) ((i 0).val = b)) (h : a ≠ b) : Disjoint S T :=
  Finset.disjoint_left.mpr fun i ha hb => h (((hS i).mp ha).symm.trans ((hT i).mp hb))

end Lead

/-- A buffer held whole is held as four pieces that are pairwise disjoint and together everything. -/
theorem pointsTo_split4 (ℓ : Loc nD τ sig) (f : Buf (Elt F) ℓ) {S0 S1 S2 S3 : Finset (Idx ℓ)}
    (hU : Finset.univ = S0 ∪ (S1 ∪ (S2 ∪ S3)))
    (d01 : Disjoint S0 S1) (d02 : Disjoint S0 S2) (d03 : Disjoint S0 S3)
    (d12 : Disjoint S1 S2) (d13 : Disjoint S1 S3) (d23 : Disjoint S2 S3) :
    ((ℓ ↦{fullShare} f : sProp 𝕄))
      ⊣⊢ iprop((ℓ ↦[S0]{fullShare} f) ∗ (ℓ ↦[S1]{fullShare} f) ∗ (ℓ ↦[S2]{fullShare} f) ∗ (ℓ ↦[S3]{fullShare} f)) := by
  have e : ((ℓ ↦{fullShare} f : sProp 𝕄)) = (ℓ ↦[S0 ∪ (S1 ∪ (S2 ∪ S3))]{fullShare} f) :=
    congrArg (fun I => (ℓ ↦[I]{fullShare} f : sProp 𝕄)) hU
  refine (BiEntails.of_eq e).trans ?_
  refine (Region.is_union (Finset.disjoint_union_right.mpr ⟨d01, Finset.disjoint_union_right.mpr ⟨d02, d03⟩⟩)).trans ?_
  refine sep_congr_right ?_
  refine (Region.is_union (Finset.disjoint_union_right.mpr ⟨d12, d13⟩)).trans ?_
  refine sep_congr_right ?_
  exact Region.is_union d23

/-! ## The output buffer as its four slices -/

/-- Slice 0 holds the elements whose leading coordinate is 0. -/
theorem mem_oB0 (i : S4x32x8x128.Idx) : Iff (i ∈ (oSl oB 0).view.set) ((i 0).val = 0) := by
  rw [View.set_reshape, View.set_slice_whole]; exact mem_unit_lead _ i
/-- Slice 1 holds the elements whose leading coordinate is 1. -/
theorem mem_oB1 (i : S4x32x8x128.Idx) : Iff (i ∈ (oSl oB 1).view.set) ((i 0).val = 1) := by
  rw [View.set_reshape, View.set_slice_whole]; exact mem_unit_lead _ i
/-- Slice 2 holds the elements whose leading coordinate is 2. -/
theorem mem_oB2 (i : S4x32x8x128.Idx) : Iff (i ∈ (oSl oB 2).view.set) ((i 0).val = 2) := by
  rw [View.set_reshape, View.set_slice_whole]; exact mem_unit_lead _ i
/-- Slice 3 holds the elements whose leading coordinate is 3. -/
theorem mem_oB3 (i : S4x32x8x128.Idx) : Iff (i ∈ (oSl oB 3).view.set) ((i 0).val = 3) := by
  rw [View.set_reshape, View.set_slice_whole]; exact mem_unit_lead _ i

/-- The four slices' elements are all the elements. -/
theorem oB_cover : (Finset.univ : Finset S4x32x8x128.Idx) = (oSl oB 0).view.set ∪ ((oSl oB 1).view.set ∪ ((oSl oB 2).view.set ∪ (oSl oB 3).view.set)) :=
  lead_cover mem_oB0 mem_oB1 mem_oB2 mem_oB3

theorem oB_disj01 : Disjoint (oSl oB 0).view.set (oSl oB 1).view.set := lead_disjoint mem_oB0 mem_oB1 (by decide)
theorem oB_disj02 : Disjoint (oSl oB 0).view.set (oSl oB 2).view.set := lead_disjoint mem_oB0 mem_oB2 (by decide)
theorem oB_disj03 : Disjoint (oSl oB 0).view.set (oSl oB 3).view.set := lead_disjoint mem_oB0 mem_oB3 (by decide)
theorem oB_disj12 : Disjoint (oSl oB 1).view.set (oSl oB 2).view.set := lead_disjoint mem_oB1 mem_oB2 (by decide)
theorem oB_disj13 : Disjoint (oSl oB 1).view.set (oSl oB 3).view.set := lead_disjoint mem_oB1 mem_oB3 (by decide)
theorem oB_disj23 : Disjoint (oSl oB 2).view.set (oSl oB 3).view.set := lead_disjoint mem_oB2 mem_oB3 (by decide)

/-- The whole output buffer is its four slices. -/
theorem ob_split (c : Dev nD) (f : OTy F) :
    ((((c : Thread nD τ).loc cc0_scratch3) ↦{fullShare} f : sProp 𝕄))
      ⊣⊢ iprop(obPts c 0 f ∗ obPts c 1 f ∗ obPts c 2 f ∗ obPts c 3 f) := by
  show _ ⊣⊢ iprop(slPts c (oSl oB 0) f ∗ slPts c (oSl oB 1) f ∗ slPts c (oSl oB 2) f ∗ slPts c (oSl oB 3) f)
  exact pointsTo_split4 (F := F) ((c : Thread nD τ).loc cc0_scratch3) f
    (S0 := (oSl oB 0).view.set) (S1 := (oSl oB 1).view.set) (S2 := (oSl oB 2).view.set) (S3 := (oSl oB 3).view.set)
    oB_cover oB_disj01 oB_disj02 oB_disj03 oB_disj12 oB_disj13 oB_disj23

/-! ## The output receive buffer as its four slices -/

/-- Slice 0 holds the elements whose leading coordinate is 0. -/
theorem mem_roB0 (i : S4x32x8x128.Idx) : Iff (i ∈ (oSl roB 0).view.set) ((i 0).val = 0) := by
  rw [View.set_reshape, View.set_slice_whole]; exact mem_unit_lead _ i
/-- Slice 1 holds the elements whose leading coordinate is 1. -/
theorem mem_roB1 (i : S4x32x8x128.Idx) : Iff (i ∈ (oSl roB 1).view.set) ((i 0).val = 1) := by
  rw [View.set_reshape, View.set_slice_whole]; exact mem_unit_lead _ i
/-- Slice 2 holds the elements whose leading coordinate is 2. -/
theorem mem_roB2 (i : S4x32x8x128.Idx) : Iff (i ∈ (oSl roB 2).view.set) ((i 0).val = 2) := by
  rw [View.set_reshape, View.set_slice_whole]; exact mem_unit_lead _ i
/-- Slice 3 holds the elements whose leading coordinate is 3. -/
theorem mem_roB3 (i : S4x32x8x128.Idx) : Iff (i ∈ (oSl roB 3).view.set) ((i 0).val = 3) := by
  rw [View.set_reshape, View.set_slice_whole]; exact mem_unit_lead _ i

/-- The four slices' elements are all the elements. -/
theorem roB_cover : (Finset.univ : Finset S4x32x8x128.Idx) = (oSl roB 0).view.set ∪ ((oSl roB 1).view.set ∪ ((oSl roB 2).view.set ∪ (oSl roB 3).view.set)) :=
  lead_cover mem_roB0 mem_roB1 mem_roB2 mem_roB3

theorem roB_disj01 : Disjoint (oSl roB 0).view.set (oSl roB 1).view.set := lead_disjoint mem_roB0 mem_roB1 (by decide)
theorem roB_disj02 : Disjoint (oSl roB 0).view.set (oSl roB 2).view.set := lead_disjoint mem_roB0 mem_roB2 (by decide)
theorem roB_disj03 : Disjoint (oSl roB 0).view.set (oSl roB 3).view.set := lead_disjoint mem_roB0 mem_roB3 (by decide)
theorem roB_disj12 : Disjoint (oSl roB 1).view.set (oSl roB 2).view.set := lead_disjoint mem_roB1 mem_roB2 (by decide)
theorem roB_disj13 : Disjoint (oSl roB 1).view.set (oSl roB 3).view.set := lead_disjoint mem_roB1 mem_roB3 (by decide)
theorem roB_disj23 : Disjoint (oSl roB 2).view.set (oSl roB 3).view.set := lead_disjoint mem_roB2 mem_roB3 (by decide)

/-- The whole output receive buffer is its four slices. -/
theorem rob_split (c : Dev nD) (f : OTy F) :
    ((((c : Thread nD τ).loc cc0_scratch5) ↦{fullShare} f : sProp 𝕄))
      ⊣⊢ iprop(robPts c 0 f ∗ robPts c 1 f ∗ robPts c 2 f ∗ robPts c 3 f) := by
  show _ ⊣⊢ iprop(slPts c (oSl roB 0) f ∗ slPts c (oSl roB 1) f ∗ slPts c (oSl roB 2) f ∗ slPts c (oSl roB 3) f)
  exact pointsTo_split4 (F := F) ((c : Thread nD τ).loc cc0_scratch5) f
    (S0 := (oSl roB 0).view.set) (S1 := (oSl roB 1).view.set) (S2 := (oSl roB 2).view.set) (S3 := (oSl roB 3).view.set)
    roB_cover roB_disj01 roB_disj02 roB_disj03 roB_disj12 roB_disj13 roB_disj23

/-! ## The statistics buffer as its four slices -/

/-- Slice 0 holds the elements whose leading coordinate is 0. -/
theorem mem_sB0 (i : S4x2x8x32.Idx) : Iff (i ∈ (sSl sB 0).view.set) ((i 0).val = 0) := by
  rw [View.set_reshape, View.set_slice_whole]; exact mem_unit_lead _ i
/-- Slice 1 holds the elements whose leading coordinate is 1. -/
theorem mem_sB1 (i : S4x2x8x32.Idx) : Iff (i ∈ (sSl sB 1).view.set) ((i 0).val = 1) := by
  rw [View.set_reshape, View.set_slice_whole]; exact mem_unit_lead _ i
/-- Slice 2 holds the elements whose leading coordinate is 2. -/
theorem mem_sB2 (i : S4x2x8x32.Idx) : Iff (i ∈ (sSl sB 2).view.set) ((i 0).val = 2) := by
  rw [View.set_reshape, View.set_slice_whole]; exact mem_unit_lead _ i
/-- Slice 3 holds the elements whose leading coordinate is 3. -/
theorem mem_sB3 (i : S4x2x8x32.Idx) : Iff (i ∈ (sSl sB 3).view.set) ((i 0).val = 3) := by
  rw [View.set_reshape, View.set_slice_whole]; exact mem_unit_lead _ i

/-- The four slices' elements are all the elements. -/
theorem sB_cover : (Finset.univ : Finset S4x2x8x32.Idx) = (sSl sB 0).view.set ∪ ((sSl sB 1).view.set ∪ ((sSl sB 2).view.set ∪ (sSl sB 3).view.set)) :=
  lead_cover mem_sB0 mem_sB1 mem_sB2 mem_sB3

theorem sB_disj01 : Disjoint (sSl sB 0).view.set (sSl sB 1).view.set := lead_disjoint mem_sB0 mem_sB1 (by decide)
theorem sB_disj02 : Disjoint (sSl sB 0).view.set (sSl sB 2).view.set := lead_disjoint mem_sB0 mem_sB2 (by decide)
theorem sB_disj03 : Disjoint (sSl sB 0).view.set (sSl sB 3).view.set := lead_disjoint mem_sB0 mem_sB3 (by decide)
theorem sB_disj12 : Disjoint (sSl sB 1).view.set (sSl sB 2).view.set := lead_disjoint mem_sB1 mem_sB2 (by decide)
theorem sB_disj13 : Disjoint (sSl sB 1).view.set (sSl sB 3).view.set := lead_disjoint mem_sB1 mem_sB3 (by decide)
theorem sB_disj23 : Disjoint (sSl sB 2).view.set (sSl sB 3).view.set := lead_disjoint mem_sB2 mem_sB3 (by decide)

/-- The whole statistics buffer is its four slices. -/
theorem sb_split (c : Dev nD) (f : STy F) :
    ((((c : Thread nD τ).loc cc0_scratch4) ↦{fullShare} f : sProp 𝕄))
      ⊣⊢ iprop(sbPts c 0 f ∗ sbPts c 1 f ∗ sbPts c 2 f ∗ sbPts c 3 f) := by
  show _ ⊣⊢ iprop(slPts c (sSl sB 0) f ∗ slPts c (sSl sB 1) f ∗ slPts c (sSl sB 2) f ∗ slPts c (sSl sB 3) f)
  exact pointsTo_split4 (F := F) ((c : Thread nD τ).loc cc0_scratch4) f
    (S0 := (sSl sB 0).view.set) (S1 := (sSl sB 1).view.set) (S2 := (sSl sB 2).view.set) (S3 := (sSl sB 3).view.set)
    sB_cover sB_disj01 sB_disj02 sB_disj03 sB_disj12 sB_disj13 sB_disj23

/-! ## The statistics receive buffer as its four slices -/

/-- Slice 0 holds the elements whose leading coordinate is 0. -/
theorem mem_rsB0 (i : S4x2x8x32.Idx) : Iff (i ∈ (sSl rsB 0).view.set) ((i 0).val = 0) := by
  rw [View.set_reshape, View.set_slice_whole]; exact mem_unit_lead _ i
/-- Slice 1 holds the elements whose leading coordinate is 1. -/
theorem mem_rsB1 (i : S4x2x8x32.Idx) : Iff (i ∈ (sSl rsB 1).view.set) ((i 0).val = 1) := by
  rw [View.set_reshape, View.set_slice_whole]; exact mem_unit_lead _ i
/-- Slice 2 holds the elements whose leading coordinate is 2. -/
theorem mem_rsB2 (i : S4x2x8x32.Idx) : Iff (i ∈ (sSl rsB 2).view.set) ((i 0).val = 2) := by
  rw [View.set_reshape, View.set_slice_whole]; exact mem_unit_lead _ i
/-- Slice 3 holds the elements whose leading coordinate is 3. -/
theorem mem_rsB3 (i : S4x2x8x32.Idx) : Iff (i ∈ (sSl rsB 3).view.set) ((i 0).val = 3) := by
  rw [View.set_reshape, View.set_slice_whole]; exact mem_unit_lead _ i

/-- The four slices' elements are all the elements. -/
theorem rsB_cover : (Finset.univ : Finset S4x2x8x32.Idx) = (sSl rsB 0).view.set ∪ ((sSl rsB 1).view.set ∪ ((sSl rsB 2).view.set ∪ (sSl rsB 3).view.set)) :=
  lead_cover mem_rsB0 mem_rsB1 mem_rsB2 mem_rsB3

theorem rsB_disj01 : Disjoint (sSl rsB 0).view.set (sSl rsB 1).view.set := lead_disjoint mem_rsB0 mem_rsB1 (by decide)
theorem rsB_disj02 : Disjoint (sSl rsB 0).view.set (sSl rsB 2).view.set := lead_disjoint mem_rsB0 mem_rsB2 (by decide)
theorem rsB_disj03 : Disjoint (sSl rsB 0).view.set (sSl rsB 3).view.set := lead_disjoint mem_rsB0 mem_rsB3 (by decide)
theorem rsB_disj12 : Disjoint (sSl rsB 1).view.set (sSl rsB 2).view.set := lead_disjoint mem_rsB1 mem_rsB2 (by decide)
theorem rsB_disj13 : Disjoint (sSl rsB 1).view.set (sSl rsB 3).view.set := lead_disjoint mem_rsB1 mem_rsB3 (by decide)
theorem rsB_disj23 : Disjoint (sSl rsB 2).view.set (sSl rsB 3).view.set := lead_disjoint mem_rsB2 mem_rsB3 (by decide)

/-- The whole statistics receive buffer is its four slices. -/
theorem rsb_split (c : Dev nD) (f : STy F) :
    ((((c : Thread nD τ).loc cc0_scratch6) ↦{fullShare} f : sProp 𝕄))
      ⊣⊢ iprop(rsbPts c 0 f ∗ rsbPts c 1 f ∗ rsbPts c 2 f ∗ rsbPts c 3 f) := by
  show _ ⊣⊢ iprop(slPts c (sSl rsB 0) f ∗ slPts c (sSl rsB 1) f ∗ slPts c (sSl rsB 2) f ∗ slPts c (sSl rsB 3) f)
  exact pointsTo_split4 (F := F) ((c : Thread nD τ).loc cc0_scratch6) f
    (S0 := (sSl rsB 0).view.set) (S1 := (sSl rsB 1).view.set) (S2 := (sSl rsB 2).view.set) (S3 := (sSl rsB 3).view.set)
    rsB_cover rsB_disj01 rsB_disj02 rsB_disj03 rsB_disj12 rsB_disj13 rsB_disj23

/-! ## A copy of slice `b` of one buffer over slice `b` of a same-shaped buffer

The two slices place an index of the slice shape at the same index of the two buffers, so on the destination slice the
landed contents are the source's. -/

/-- Output rows landed in the receive buffer are, on that slice, the source buffer's contents. -/
theorem land_o0 (c : Dev nD) (fd fs : OTy F) :
    slPts c (oSl roB 0) ((oSl roB 0).view.write (Elt F) fd ((oSl oB 0).view.read (Elt F) fs) Finset.univ)
      = slPts c (oSl roB 0) fs := by
  refine Region.is_congr fun i hi => ?_
  obtain ⟨x, hx⟩ := View.exists_emb_of_mem_set _ hi
  rw [← hx, View.write_emb_of_mem _ _ (Finset.mem_univ x), View.read_apply, cast_cast, cast_eq]
  rfl

/-- Output rows landed in the receive buffer are, on that slice, the source buffer's contents. -/
theorem land_o1 (c : Dev nD) (fd fs : OTy F) :
    slPts c (oSl roB 1) ((oSl roB 1).view.write (Elt F) fd ((oSl oB 1).view.read (Elt F) fs) Finset.univ)
      = slPts c (oSl roB 1) fs := by
  refine Region.is_congr fun i hi => ?_
  obtain ⟨x, hx⟩ := View.exists_emb_of_mem_set _ hi
  rw [← hx, View.write_emb_of_mem _ _ (Finset.mem_univ x), View.read_apply, cast_cast, cast_eq]
  rfl

/-- Output rows landed in the receive buffer are, on that slice, the source buffer's contents. -/
theorem land_o2 (c : Dev nD) (fd fs : OTy F) :
    slPts c (oSl roB 2) ((oSl roB 2).view.write (Elt F) fd ((oSl oB 2).view.read (Elt F) fs) Finset.univ)
      = slPts c (oSl roB 2) fs := by
  refine Region.is_congr fun i hi => ?_
  obtain ⟨x, hx⟩ := View.exists_emb_of_mem_set _ hi
  rw [← hx, View.write_emb_of_mem _ _ (Finset.mem_univ x), View.read_apply, cast_cast, cast_eq]
  rfl

/-- Output rows landed in the receive buffer are, on that slice, the source buffer's contents. -/
theorem land_o3 (c : Dev nD) (fd fs : OTy F) :
    slPts c (oSl roB 3) ((oSl roB 3).view.write (Elt F) fd ((oSl oB 3).view.read (Elt F) fs) Finset.univ)
      = slPts c (oSl roB 3) fs := by
  refine Region.is_congr fun i hi => ?_
  obtain ⟨x, hx⟩ := View.exists_emb_of_mem_set _ hi
  rw [← hx, View.write_emb_of_mem _ _ (Finset.mem_univ x), View.read_apply, cast_cast, cast_eq]
  rfl

/-- Statistics rows landed in the receive buffer are, on that slice, the source buffer's contents. -/
theorem land_s0 (c : Dev nD) (fd fs : STy F) :
    slPts c (sSl rsB 0) ((sSl rsB 0).view.write (Elt F) fd ((sSl sB 0).view.read (Elt F) fs) Finset.univ)
      = slPts c (sSl rsB 0) fs := by
  refine Region.is_congr fun i hi => ?_
  obtain ⟨x, hx⟩ := View.exists_emb_of_mem_set _ hi
  rw [← hx, View.write_emb_of_mem _ _ (Finset.mem_univ x), View.read_apply, cast_cast, cast_eq]
  rfl

/-- Statistics rows landed in the receive buffer are, on that slice, the source buffer's contents. -/
theorem land_s1 (c : Dev nD) (fd fs : STy F) :
    slPts c (sSl rsB 1) ((sSl rsB 1).view.write (Elt F) fd ((sSl sB 1).view.read (Elt F) fs) Finset.univ)
      = slPts c (sSl rsB 1) fs := by
  refine Region.is_congr fun i hi => ?_
  obtain ⟨x, hx⟩ := View.exists_emb_of_mem_set _ hi
  rw [← hx, View.write_emb_of_mem _ _ (Finset.mem_univ x), View.read_apply, cast_cast, cast_eq]
  rfl

/-- Statistics rows landed in the receive buffer are, on that slice, the source buffer's contents. -/
theorem land_s2 (c : Dev nD) (fd fs : STy F) :
    slPts c (sSl rsB 2) ((sSl rsB 2).view.write (Elt F) fd ((sSl sB 2).view.read (Elt F) fs) Finset.univ)
      = slPts c (sSl rsB 2) fs := by
  refine Region.is_congr fun i hi => ?_
  obtain ⟨x, hx⟩ := View.exists_emb_of_mem_set _ hi
  rw [← hx, View.write_emb_of_mem _ _ (Finset.mem_univ x), View.read_apply, cast_cast, cast_eq]
  rfl

/-- Statistics rows landed in the receive buffer are, on that slice, the source buffer's contents. -/
theorem land_s3 (c : Dev nD) (fd fs : STy F) :
    slPts c (sSl rsB 3) ((sSl rsB 3).view.write (Elt F) fd ((sSl sB 3).view.read (Elt F) fs) Finset.univ)
      = slPts c (sSl rsB 3) fs := by
  refine Region.is_congr fun i hi => ?_
  obtain ⟨x, hx⟩ := View.exists_emb_of_mem_set _ hi
  rw [← hx, View.write_emb_of_mem _ _ (Finset.mem_univ x), View.read_apply, cast_cast, cast_eq]
  rfl

/-! ## A store of one batch entry's block through the whole output buffer -/

/-- After a `[1, 32, 8, 128]` block is stored at leading offset `i 0`, an element of leading coordinate `i 0` holds
    the block's value at its other three coordinates. -/
theorem oB_store_apply (i : grid0.Coords) (h2 : k0_cond2 i = 1#1) (f : OTy F) (w : Vec F S1x32x8x128 .f32)
    (j : S4x32x8x128.Idx) (hj : (j 0).val = (i 0).val) :
    ((oB : Memref sig .tc .vmem S4x32x8x128 .f32).access (Rect.unit (s := S4x32x8x128) (k0_off1 i) S1x32x8x128.size (k0_off1_inb i h2)) : View sig .tc _ _ _).write (Elt F) f w Finset.univ j
      = w (ValueIdx.ix4 (0 : Fin 1) (j 1) (j 2) (j 3)) := by
  have hoff : k0_off1 i = ![(i 0).val, 0, 0, 0] := k0_off1_eq i
  have hx : ((oB : Memref sig .tc .vmem S4x32x8x128 .f32).access (Rect.unit (s := S4x32x8x128) (k0_off1 i) S1x32x8x128.size (k0_off1_inb i h2)) : View sig .tc _ _ _).emb (ValueIdx.ix4 (0 : Fin 1) (j 1) (j 2) (j 3)) = j := by
    funext a
    refine Fin.ext ?_
    match a with
    | ⟨0, _⟩ =>
      show k0_off1 i 0 + 1 * 0 = (j 0).val
      rw [hoff]
      show (i 0).val + 1 * 0 = (j 0).val
      omega
    | ⟨1, _⟩ =>
      show k0_off1 i 1 + 1 * (j 1).val = (j 1).val
      rw [hoff]
      show 0 + 1 * (j 1).val = (j 1).val
      omega
    | ⟨2, _⟩ =>
      show k0_off1 i 2 + 1 * (j 2).val = (j 2).val
      rw [hoff]
      show 0 + 1 * (j 2).val = (j 2).val
      omega
    | ⟨3, _⟩ =>
      show k0_off1 i 3 + 1 * (j 3).val = (j 3).val
      rw [hoff]
      show 0 + 1 * (j 3).val = (j 3).val
      omega
  have hw := View.write_emb_of_mem (v := ((oB : Memref sig .tc .vmem S4x32x8x128 .f32).access (Rect.unit (s := S4x32x8x128) (k0_off1 i) S1x32x8x128.size (k0_off1_inb i h2)) : View sig .tc _ _ _)) (Val := Elt F) f w
    (M := Finset.univ) (x := ValueIdx.ix4 (0 : Fin 1) (j 1) (j 2) (j 3)) (Finset.mem_univ _)
  rw [hx] at hw
  exact hw.trans (cast_eq _ _)

/-- The stored block's elements all have leading coordinate `i 0`. -/
theorem oB_store_mem (i : grid0.Coords) (h2 : k0_cond2 i = 1#1) (j : S4x32x8x128.Idx)
    (hj : j ∈ ((oB : Memref sig .tc .vmem S4x32x8x128 .f32).access (Rect.unit (s := S4x32x8x128) (k0_off1 i) S1x32x8x128.size (k0_off1_inb i h2)) : View sig .tc _ _ _).setOn Finset.univ) : (j 0).val = (i 0).val := by
  have hoff : k0_off1 i = ![(i 0).val, 0, 0, 0] := k0_off1_eq i
  have hj' : j ∈ (Rect.unit (s := S4x32x8x128) (k0_off1 i) S1x32x8x128.size (k0_off1_inb i h2)).set := by
    have h := hj
    rwa [View.setOn_univ, View.set_slice_whole] at h
  have h0 : k0_off1 i 0 ≤ (j 0).val ∧ (j 0).val < k0_off1 i 0 + 1 := (Rect.mem_set_unit.mp hj') 0
  rw [hoff] at h0
  have h0' : (i 0).val ≤ (j 0).val ∧ (j 0).val < (i 0).val + 1 := h0
  omega

/-- On any set of elements of leading coordinate `b = i 0`, the buffer after the store is any contents that agree with
    the block there. -/
theorem oB_store_congr (c : Dev nD) (i : grid0.Coords) (h2 : k0_cond2 i = 1#1) (b : Fin 4) (hb : (i 0).val = b.val)
    (f g : OTy F) (w : Vec F S1x32x8x128 .f32)
    (hg : ∀ x : S1x32x8x128.Idx, g (ValueIdx.ix4 b (x 1) (x 2) (x 3)) = w x)
    (S : Finset S4x32x8x128.Idx) (hS : ∀ j ∈ S, (j 0).val = b.val) :
    ((((c : Thread nD τ).loc cc0_scratch3) ↦[S]{fullShare} (((oB : Memref sig .tc .vmem S4x32x8x128 .f32).access (Rect.unit (s := S4x32x8x128) (k0_off1 i) S1x32x8x128.size (k0_off1_inb i h2)) : View sig .tc _ _ _).write (Elt F) f w Finset.univ) : sProp 𝕄))
      = (((c : Thread nD τ).loc cc0_scratch3) ↦[S]{fullShare} g) := by
  refine Region.is_congr fun j hj => ?_
  have hj0 : (j 0).val = b.val := hS j hj
  refine (oB_store_apply i h2 f w j (hj0.trans hb.symm)).trans ?_
  refine (hg _).symm.trans (congrArg g (funext fun a => Fin.ext ?_))
  match a with
  | ⟨0, _⟩ => exact hj0.symm
  | ⟨1, _⟩ => rfl
  | ⟨2, _⟩ => rfl
  | ⟨3, _⟩ => rfl

/-- The store into batch entry `b = i 0` of the output buffer rewrites slice `b` to any contents that agree with the
    stored block there. -/
theorem store_o (c : Dev nD) (i : grid0.Coords) (h2 : k0_cond2 i = 1#1) :
    (b : Fin 4) → (hb : (i 0).val = b.val) → (f g : OTy F) → (w : Vec F S1x32x8x128 .f32) →
    (hg : ∀ x : S1x32x8x128.Idx, g (ValueIdx.ix4 b (x 1) (x 2) (x 3)) = w x) →
    obPts c b (((oB : Memref sig .tc .vmem S4x32x8x128 .f32).access (Rect.unit (s := S4x32x8x128) (k0_off1 i) S1x32x8x128.size (k0_off1_inb i h2)) : View sig .tc _ _ _).write (Elt F) f w Finset.univ) = obPts c b g
  | 0, hb, f, g, w, hg => oB_store_congr c i h2 0 hb f g w hg _ fun j hj => (mem_oB0 j).mp hj
  | 1, hb, f, g, w, hg => oB_store_congr c i h2 1 hb f g w hg _ fun j hj => (mem_oB1 j).mp hj
  | 2, hb, f, g, w, hg => oB_store_congr c i h2 2 hb f g w hg _ fun j hj => (mem_oB2 j).mp hj
  | 3, hb, f, g, w, hg => oB_store_congr c i h2 3 hb f g w hg _ fun j hj => (mem_oB3 j).mp hj

/-- The store's footprint lies in slice 0 when `i 0 = 0`. -/
theorem store_o_sub0 (i : grid0.Coords) (h2 : k0_cond2 i = 1#1) (hb : (i 0).val = 0) :
    ((oB : Memref sig .tc .vmem S4x32x8x128 .f32).access (Rect.unit (s := S4x32x8x128) (k0_off1 i) S1x32x8x128.size (k0_off1_inb i h2)) : View sig .tc _ _ _).setOn Finset.univ ⊆ (oSl oB 0).view.set :=
  fun j hj => (mem_oB0 j).mpr ((oB_store_mem i h2 j hj).trans hb)
/-- The store's footprint lies in slice 1 when `i 0 = 1`. -/
theorem store_o_sub1 (i : grid0.Coords) (h2 : k0_cond2 i = 1#1) (hb : (i 0).val = 1) :
    ((oB : Memref sig .tc .vmem S4x32x8x128 .f32).access (Rect.unit (s := S4x32x8x128) (k0_off1 i) S1x32x8x128.size (k0_off1_inb i h2)) : View sig .tc _ _ _).setOn Finset.univ ⊆ (oSl oB 1).view.set :=
  fun j hj => (mem_oB1 j).mpr ((oB_store_mem i h2 j hj).trans hb)
/-- The store's footprint lies in slice 2 when `i 0 = 2`. -/
theorem store_o_sub2 (i : grid0.Coords) (h2 : k0_cond2 i = 1#1) (hb : (i 0).val = 2) :
    ((oB : Memref sig .tc .vmem S4x32x8x128 .f32).access (Rect.unit (s := S4x32x8x128) (k0_off1 i) S1x32x8x128.size (k0_off1_inb i h2)) : View sig .tc _ _ _).setOn Finset.univ ⊆ (oSl oB 2).view.set :=
  fun j hj => (mem_oB2 j).mpr ((oB_store_mem i h2 j hj).trans hb)
/-- The store's footprint lies in slice 3 when `i 0 = 3`. -/
theorem store_o_sub3 (i : grid0.Coords) (h2 : k0_cond2 i = 1#1) (hb : (i 0).val = 3) :
    ((oB : Memref sig .tc .vmem S4x32x8x128 .f32).access (Rect.unit (s := S4x32x8x128) (k0_off1 i) S1x32x8x128.size (k0_off1_inb i h2)) : View sig .tc _ _ _).setOn Finset.univ ⊆ (oSl oB 3).view.set :=
  fun j hj => (mem_oB3 j).mpr ((oB_store_mem i h2 j hj).trans hb)

/-! ## The two stores of one batch entry's statistics rows through the whole statistics buffer -/

/-- After a `[1, 1, 8, 32]` block is stored at offsets `(i 0, 0)`, an element of leading coordinates `(i 0, 0)` holds the
    block's value at its last two coordinates. -/
theorem sB_store2_apply (i : grid0.Coords) (h2 : k0_cond2 i = 1#1) (f : STy F) (w : Vec F S1x1x8x32 .f32)
    (j : S4x2x8x32.Idx) (hj0 : (j 0).val = (i 0).val) (hj1 : (j 1).val = 0) :
    ((sB : Memref sig .tc .vmem S4x2x8x32 .f32).access (Rect.unit (s := S4x2x8x32) (k0_off2 i) S1x1x8x32.size (k0_off2_inb i h2)) : View sig .tc _ _ _).write (Elt F) f w Finset.univ j
      = w (ValueIdx.ix4 (0 : Fin 1) (0 : Fin 1) (j 2) (j 3)) := by
  have hoff : k0_off2 i = ![(i 0).val, 0, 0, 0] := k0_off2_eq i
  have hx : ((sB : Memref sig .tc .vmem S4x2x8x32 .f32).access (Rect.unit (s := S4x2x8x32) (k0_off2 i) S1x1x8x32.size (k0_off2_inb i h2)) : View sig .tc _ _ _).emb (ValueIdx.ix4 (0 : Fin 1) (0 : Fin 1) (j 2) (j 3)) = j := by
    funext a
    refine Fin.ext ?_
    match a with
    | ⟨0, _⟩ =>
      show k0_off2 i 0 + 1 * 0 = (j 0).val
      rw [hoff]
      show (i 0).val + 1 * 0 = (j 0).val
      omega
    | ⟨1, _⟩ =>
      show k0_off2 i 1 + 1 * 0 = (j 1).val
      rw [hoff]
      show 0 + 1 * 0 = (j 1).val
      omega
    | ⟨2, _⟩ =>
      show k0_off2 i 2 + 1 * (j 2).val = (j 2).val
      rw [hoff]
      show 0 + 1 * (j 2).val = (j 2).val
      omega
    | ⟨3, _⟩ =>
      show k0_off2 i 3 + 1 * (j 3).val = (j 3).val
      rw [hoff]
      show 0 + 1 * (j 3).val = (j 3).val
      omega
  have hw := View.write_emb_of_mem (v := ((sB : Memref sig .tc .vmem S4x2x8x32 .f32).access (Rect.unit (s := S4x2x8x32) (k0_off2 i) S1x1x8x32.size (k0_off2_inb i h2)) : View sig .tc _ _ _)) (Val := Elt F) f w
    (M := Finset.univ) (x := ValueIdx.ix4 (0 : Fin 1) (0 : Fin 1) (j 2) (j 3)) (Finset.mem_univ _)
  rw [hx] at hw
  exact hw.trans (cast_eq _ _)

/-- The stored block's elements all have leading coordinates `(i 0, 0)`. -/
theorem sB_store2_mem (i : grid0.Coords) (h2 : k0_cond2 i = 1#1) (j : S4x2x8x32.Idx)
    (hj : j ∈ ((sB : Memref sig .tc .vmem S4x2x8x32 .f32).access (Rect.unit (s := S4x2x8x32) (k0_off2 i) S1x1x8x32.size (k0_off2_inb i h2)) : View sig .tc _ _ _).setOn Finset.univ) : (j 0).val = (i 0).val ∧ (j 1).val = 0 := by
  have hoff : k0_off2 i = ![(i 0).val, 0, 0, 0] := k0_off2_eq i
  have hj' : j ∈ (Rect.unit (s := S4x2x8x32) (k0_off2 i) S1x1x8x32.size (k0_off2_inb i h2)).set := by
    have h := hj
    rwa [View.setOn_univ, View.set_slice_whole] at h
  have h0 : k0_off2 i 0 ≤ (j 0).val ∧ (j 0).val < k0_off2 i 0 + 1 := (Rect.mem_set_unit.mp hj') 0
  have h1 : k0_off2 i 1 ≤ (j 1).val ∧ (j 1).val < k0_off2 i 1 + 1 := (Rect.mem_set_unit.mp hj') 1
  rw [hoff] at h0 h1
  have h0' : (i 0).val ≤ (j 0).val ∧ (j 0).val < (i 0).val + 1 := h0
  have h1' : 0 ≤ (j 1).val ∧ (j 1).val < 0 + 1 := h1
  omega

/-- An element off row 0 keeps its contents. -/
theorem sB_store2_off (i : grid0.Coords) (h2 : k0_cond2 i = 1#1) (f : STy F) (w : Vec F S1x1x8x32 .f32)
    (j : S4x2x8x32.Idx) (hj1 : (j 1).val ≠ 0) :
    ((sB : Memref sig .tc .vmem S4x2x8x32 .f32).access (Rect.unit (s := S4x2x8x32) (k0_off2 i) S1x1x8x32.size (k0_off2_inb i h2)) : View sig .tc _ _ _).write (Elt F) f w Finset.univ j = f j :=
  View.write_of_not_mem _ _ _ fun h => hj1 (sB_store2_mem i h2 j h).2

/-- After a `[1, 1, 8, 32]` block is stored at offsets `(i 0, 1)`, an element of leading coordinates `(i 0, 1)` holds the
    block's value at its last two coordinates. -/
theorem sB_store3_apply (i : grid0.Coords) (h2 : k0_cond2 i = 1#1) (f : STy F) (w : Vec F S1x1x8x32 .f32)
    (j : S4x2x8x32.Idx) (hj0 : (j 0).val = (i 0).val) (hj1 : (j 1).val = 1) :
    ((sB : Memref sig .tc .vmem S4x2x8x32 .f32).access (Rect.unit (s := S4x2x8x32) (k0_off3 i) S1x1x8x32.size (k0_off3_inb i h2)) : View sig .tc _ _ _).write (Elt F) f w Finset.univ j
      = w (ValueIdx.ix4 (0 : Fin 1) (0 : Fin 1) (j 2) (j 3)) := by
  have hoff : k0_off3 i = ![(i 0).val, 1, 0, 0] := k0_off3_eq i
  have hx : ((sB : Memref sig .tc .vmem S4x2x8x32 .f32).access (Rect.unit (s := S4x2x8x32) (k0_off3 i) S1x1x8x32.size (k0_off3_inb i h2)) : View sig .tc _ _ _).emb (ValueIdx.ix4 (0 : Fin 1) (0 : Fin 1) (j 2) (j 3)) = j := by
    funext a
    refine Fin.ext ?_
    match a with
    | ⟨0, _⟩ =>
      show k0_off3 i 0 + 1 * 0 = (j 0).val
      rw [hoff]
      show (i 0).val + 1 * 0 = (j 0).val
      omega
    | ⟨1, _⟩ =>
      show k0_off3 i 1 + 1 * 0 = (j 1).val
      rw [hoff]
      show 1 + 1 * 0 = (j 1).val
      omega
    | ⟨2, _⟩ =>
      show k0_off3 i 2 + 1 * (j 2).val = (j 2).val
      rw [hoff]
      show 0 + 1 * (j 2).val = (j 2).val
      omega
    | ⟨3, _⟩ =>
      show k0_off3 i 3 + 1 * (j 3).val = (j 3).val
      rw [hoff]
      show 0 + 1 * (j 3).val = (j 3).val
      omega
  have hw := View.write_emb_of_mem (v := ((sB : Memref sig .tc .vmem S4x2x8x32 .f32).access (Rect.unit (s := S4x2x8x32) (k0_off3 i) S1x1x8x32.size (k0_off3_inb i h2)) : View sig .tc _ _ _)) (Val := Elt F) f w
    (M := Finset.univ) (x := ValueIdx.ix4 (0 : Fin 1) (0 : Fin 1) (j 2) (j 3)) (Finset.mem_univ _)
  rw [hx] at hw
  exact hw.trans (cast_eq _ _)

/-- The stored block's elements all have leading coordinates `(i 0, 1)`. -/
theorem sB_store3_mem (i : grid0.Coords) (h2 : k0_cond2 i = 1#1) (j : S4x2x8x32.Idx)
    (hj : j ∈ ((sB : Memref sig .tc .vmem S4x2x8x32 .f32).access (Rect.unit (s := S4x2x8x32) (k0_off3 i) S1x1x8x32.size (k0_off3_inb i h2)) : View sig .tc _ _ _).setOn Finset.univ) : (j 0).val = (i 0).val ∧ (j 1).val = 1 := by
  have hoff : k0_off3 i = ![(i 0).val, 1, 0, 0] := k0_off3_eq i
  have hj' : j ∈ (Rect.unit (s := S4x2x8x32) (k0_off3 i) S1x1x8x32.size (k0_off3_inb i h2)).set := by
    have h := hj
    rwa [View.setOn_univ, View.set_slice_whole] at h
  have h0 : k0_off3 i 0 ≤ (j 0).val ∧ (j 0).val < k0_off3 i 0 + 1 := (Rect.mem_set_unit.mp hj') 0
  have h1 : k0_off3 i 1 ≤ (j 1).val ∧ (j 1).val < k0_off3 i 1 + 1 := (Rect.mem_set_unit.mp hj') 1
  rw [hoff] at h0 h1
  have h0' : (i 0).val ≤ (j 0).val ∧ (j 0).val < (i 0).val + 1 := h0
  have h1' : 1 ≤ (j 1).val ∧ (j 1).val < 1 + 1 := h1
  omega

/-- An element off row 1 keeps its contents. -/
theorem sB_store3_off (i : grid0.Coords) (h2 : k0_cond2 i = 1#1) (f : STy F) (w : Vec F S1x1x8x32 .f32)
    (j : S4x2x8x32.Idx) (hj1 : (j 1).val ≠ 1) :
    ((sB : Memref sig .tc .vmem S4x2x8x32 .f32).access (Rect.unit (s := S4x2x8x32) (k0_off3 i) S1x1x8x32.size (k0_off3_inb i h2)) : View sig .tc _ _ _).write (Elt F) f w Finset.univ j = f j :=
  View.write_of_not_mem _ _ _ fun h => hj1 (sB_store3_mem i h2 j h).2

/-- On any set of elements of leading coordinate `b = i 0`, the buffer after the store of row 0 is any contents that
    agree with the stored block on row 0 and with the old contents on row 1. -/
theorem sB_store2_congr (c : Dev nD) (i : grid0.Coords) (h2 : k0_cond2 i = 1#1) (b : Fin 4) (hb : (i 0).val = b.val)
    (f g : STy F) (w : Vec F S1x1x8x32 .f32)
    (hg : ∀ x : S1x1x8x32.Idx, g (ValueIdx.ix4 b (0 : Fin 2) (x 2) (x 3)) = w x)
    (hf : ∀ j : S4x2x8x32.Idx, (j 0).val = b.val → (j 1).val = 1 → g j = f j)
    (S : Finset S4x2x8x32.Idx) (hS : ∀ j ∈ S, (j 0).val = b.val) :
    ((((c : Thread nD τ).loc cc0_scratch4) ↦[S]{fullShare} (((sB : Memref sig .tc .vmem S4x2x8x32 .f32).access (Rect.unit (s := S4x2x8x32) (k0_off2 i) S1x1x8x32.size (k0_off2_inb i h2)) : View sig .tc _ _ _).write (Elt F) f w Finset.univ) : sProp 𝕄))
      = (((c : Thread nD τ).loc cc0_scratch4) ↦[S]{fullShare} g) := by
  refine Region.is_congr fun j hj => ?_
  have hj0 : (j 0).val = b.val := hS j hj
  have hlt : (j 1).val < 2 := (j 1).isLt
  by_cases hj1 : (j 1).val = 0
  · refine (sB_store2_apply i h2 f w j (hj0.trans hb.symm) hj1).trans ?_
    refine (hg _).symm.trans (congrArg g (funext fun a => Fin.ext ?_))
    match a with
    | ⟨0, _⟩ => exact hj0.symm
    | ⟨1, _⟩ => exact hj1.symm
    | ⟨2, _⟩ => rfl
    | ⟨3, _⟩ => rfl
  · exact (sB_store2_off i h2 f w j hj1).trans (hf j hj0 (by omega)).symm

/-- On any set of elements of leading coordinate `b = i 0`, the buffer after the store of row 1 is any contents that
    agree with the stored block on row 1 and with the old contents on row 0. -/
theorem sB_store3_congr (c : Dev nD) (i : grid0.Coords) (h2 : k0_cond2 i = 1#1) (b : Fin 4) (hb : (i 0).val = b.val)
    (f g : STy F) (w : Vec F S1x1x8x32 .f32)
    (hg : ∀ x : S1x1x8x32.Idx, g (ValueIdx.ix4 b (1 : Fin 2) (x 2) (x 3)) = w x)
    (hf : ∀ j : S4x2x8x32.Idx, (j 0).val = b.val → (j 1).val = 0 → g j = f j)
    (S : Finset S4x2x8x32.Idx) (hS : ∀ j ∈ S, (j 0).val = b.val) :
    ((((c : Thread nD τ).loc cc0_scratch4) ↦[S]{fullShare} (((sB : Memref sig .tc .vmem S4x2x8x32 .f32).access (Rect.unit (s := S4x2x8x32) (k0_off3 i) S1x1x8x32.size (k0_off3_inb i h2)) : View sig .tc _ _ _).write (Elt F) f w Finset.univ) : sProp 𝕄))
      = (((c : Thread nD τ).loc cc0_scratch4) ↦[S]{fullShare} g) := by
  refine Region.is_congr fun j hj => ?_
  have hj0 : (j 0).val = b.val := hS j hj
  have hlt : (j 1).val < 2 := (j 1).isLt
  by_cases hj1 : (j 1).val = 1
  · refine (sB_store3_apply i h2 f w j (hj0.trans hb.symm) hj1).trans ?_
    refine (hg _).symm.trans (congrArg g (funext fun a => Fin.ext ?_))
    match a with
    | ⟨0, _⟩ => exact hj0.symm
    | ⟨1, _⟩ => exact hj1.symm
    | ⟨2, _⟩ => rfl
    | ⟨3, _⟩ => rfl
  · exact (sB_store3_off i h2 f w j hj1).trans (hf j hj0 (by omega)).symm

/-- The store of row 0 of batch entry `b = i 0` rewrites slice `b` of the statistics buffer to any contents that agree
    with the stored block on row 0 and with the old contents on row 1. -/
theorem store_s0 (c : Dev nD) (i : grid0.Coords) (h2 : k0_cond2 i = 1#1) :
    (b : Fin 4) → (hb : (i 0).val = b.val) → (f g : STy F) → (w : Vec F S1x1x8x32 .f32) →
    (hg : ∀ x : S1x1x8x32.Idx, g (ValueIdx.ix4 b (0 : Fin 2) (x 2) (x 3)) = w x) →
    (hf : ∀ j : S4x2x8x32.Idx, (j 0).val = b.val → (j 1).val = 1 → g j = f j) →
    sbPts c b (((sB : Memref sig .tc .vmem S4x2x8x32 .f32).access (Rect.unit (s := S4x2x8x32) (k0_off2 i) S1x1x8x32.size (k0_off2_inb i h2)) : View sig .tc _ _ _).write (Elt F) f w Finset.univ) = sbPts c b g
  | 0, hb, f, g, w, hg, hf => sB_store2_congr c i h2 0 hb f g w hg hf _ fun j hj => (mem_sB0 j).mp hj
  | 1, hb, f, g, w, hg, hf => sB_store2_congr c i h2 1 hb f g w hg hf _ fun j hj => (mem_sB1 j).mp hj
  | 2, hb, f, g, w, hg, hf => sB_store2_congr c i h2 2 hb f g w hg hf _ fun j hj => (mem_sB2 j).mp hj
  | 3, hb, f, g, w, hg, hf => sB_store2_congr c i h2 3 hb f g w hg hf _ fun j hj => (mem_sB3 j).mp hj

/-- The store of row 1 of batch entry `b = i 0` rewrites slice `b` of the statistics buffer to any contents that agree
    with the stored block on row 1 and with the old contents on row 0. -/
theorem store_s1 (c : Dev nD) (i : grid0.Coords) (h2 : k0_cond2 i = 1#1) :
    (b : Fin 4) → (hb : (i 0).val = b.val) → (f g : STy F) → (w : Vec F S1x1x8x32 .f32) →
    (hg : ∀ x : S1x1x8x32.Idx, g (ValueIdx.ix4 b (1 : Fin 2) (x 2) (x 3)) = w x) →
    (hf : ∀ j : S4x2x8x32.Idx, (j 0).val = b.val → (j 1).val = 0 → g j = f j) →
    sbPts c b (((sB : Memref sig .tc .vmem S4x2x8x32 .f32).access (Rect.unit (s := S4x2x8x32) (k0_off3 i) S1x1x8x32.size (k0_off3_inb i h2)) : View sig .tc _ _ _).write (Elt F) f w Finset.univ) = sbPts c b g
  | 0, hb, f, g, w, hg, hf => sB_store3_congr c i h2 0 hb f g w hg hf _ fun j hj => (mem_sB0 j).mp hj
  | 1, hb, f, g, w, hg, hf => sB_store3_congr c i h2 1 hb f g w hg hf _ fun j hj => (mem_sB1 j).mp hj
  | 2, hb, f, g, w, hg, hf => sB_store3_congr c i h2 2 hb f g w hg hf _ fun j hj => (mem_sB2 j).mp hj
  | 3, hb, f, g, w, hg, hf => sB_store3_congr c i h2 3 hb f g w hg hf _ fun j hj => (mem_sB3 j).mp hj

/-- After both stores, slice `b = i 0` of the statistics buffer is any contents that agree with the first block on row 0
    and with the second on row 1. -/
theorem store_s (c : Dev nD) (i : grid0.Coords) (h2 : k0_cond2 i = 1#1) (b : Fin 4) (hb : (i 0).val = b.val)
    (f g : STy F) (w6 w7 : Vec F S1x1x8x32 .f32)
    (hg6 : ∀ x : S1x1x8x32.Idx, g (ValueIdx.ix4 b (0 : Fin 2) (x 2) (x 3)) = w6 x)
    (hg7 : ∀ x : S1x1x8x32.Idx, g (ValueIdx.ix4 b (1 : Fin 2) (x 2) (x 3)) = w7 x) :
    sbPts c b (((sB : Memref sig .tc .vmem S4x2x8x32 .f32).access (Rect.unit (s := S4x2x8x32) (k0_off3 i) S1x1x8x32.size (k0_off3_inb i h2)) : View sig .tc _ _ _).write (Elt F) (((sB : Memref sig .tc .vmem S4x2x8x32 .f32).access (Rect.unit (s := S4x2x8x32) (k0_off2 i) S1x1x8x32.size (k0_off2_inb i h2)) : View sig .tc _ _ _).write (Elt F) f w6 Finset.univ) w7 Finset.univ) = sbPts c b g := by
  refine store_s1 c i h2 b hb _ g w7 hg7 fun j hj0 hj1 => ?_
  refine ((sB_store2_apply i h2 f w6 j (hj0.trans hb.symm) hj1).trans ?_).symm
  refine (hg6 _).symm.trans (congrArg g (funext fun a => Fin.ext ?_))
  match a with
  | ⟨0, _⟩ => exact hj0.symm
  | ⟨1, _⟩ => exact hj1.symm
  | ⟨2, _⟩ => rfl
  | ⟨3, _⟩ => rfl

/-- The footprint of the store of row 0 lies in slice 0 when `i 0 = 0`. -/
theorem store_s0_sub0 (i : grid0.Coords) (h2 : k0_cond2 i = 1#1) (hb : (i 0).val = 0) :
    ((sB : Memref sig .tc .vmem S4x2x8x32 .f32).access (Rect.unit (s := S4x2x8x32) (k0_off2 i) S1x1x8x32.size (k0_off2_inb i h2)) : View sig .tc _ _ _).setOn Finset.univ ⊆ (sSl sB 0).view.set :=
  fun j hj => (mem_sB0 j).mpr ((sB_store2_mem i h2 j hj).1.trans hb)
/-- The footprint of the store of row 1 lies in slice 0 when `i 0 = 0`. -/
theorem store_s1_sub0 (i : grid0.Coords) (h2 : k0_cond2 i = 1#1) (hb : (i 0).val = 0) :
    ((sB : Memref sig .tc .vmem S4x2x8x32 .f32).access (Rect.unit (s := S4x2x8x32) (k0_off3 i) S1x1x8x32.size (k0_off3_inb i h2)) : View sig .tc _ _ _).setOn Finset.univ ⊆ (sSl sB 0).view.set :=
  fun j hj => (mem_sB0 j).mpr ((sB_store3_mem i h2 j hj).1.trans hb)
/-- The footprint of the store of row 0 lies in slice 1 when `i 0 = 1`. -/
theorem store_s0_sub1 (i : grid0.Coords) (h2 : k0_cond2 i = 1#1) (hb : (i 0).val = 1) :
    ((sB : Memref sig .tc .vmem S4x2x8x32 .f32).access (Rect.unit (s := S4x2x8x32) (k0_off2 i) S1x1x8x32.size (k0_off2_inb i h2)) : View sig .tc _ _ _).setOn Finset.univ ⊆ (sSl sB 1).view.set :=
  fun j hj => (mem_sB1 j).mpr ((sB_store2_mem i h2 j hj).1.trans hb)
/-- The footprint of the store of row 1 lies in slice 1 when `i 0 = 1`. -/
theorem store_s1_sub1 (i : grid0.Coords) (h2 : k0_cond2 i = 1#1) (hb : (i 0).val = 1) :
    ((sB : Memref sig .tc .vmem S4x2x8x32 .f32).access (Rect.unit (s := S4x2x8x32) (k0_off3 i) S1x1x8x32.size (k0_off3_inb i h2)) : View sig .tc _ _ _).setOn Finset.univ ⊆ (sSl sB 1).view.set :=
  fun j hj => (mem_sB1 j).mpr ((sB_store3_mem i h2 j hj).1.trans hb)
/-- The footprint of the store of row 0 lies in slice 2 when `i 0 = 2`. -/
theorem store_s0_sub2 (i : grid0.Coords) (h2 : k0_cond2 i = 1#1) (hb : (i 0).val = 2) :
    ((sB : Memref sig .tc .vmem S4x2x8x32 .f32).access (Rect.unit (s := S4x2x8x32) (k0_off2 i) S1x1x8x32.size (k0_off2_inb i h2)) : View sig .tc _ _ _).setOn Finset.univ ⊆ (sSl sB 2).view.set :=
  fun j hj => (mem_sB2 j).mpr ((sB_store2_mem i h2 j hj).1.trans hb)
/-- The footprint of the store of row 1 lies in slice 2 when `i 0 = 2`. -/
theorem store_s1_sub2 (i : grid0.Coords) (h2 : k0_cond2 i = 1#1) (hb : (i 0).val = 2) :
    ((sB : Memref sig .tc .vmem S4x2x8x32 .f32).access (Rect.unit (s := S4x2x8x32) (k0_off3 i) S1x1x8x32.size (k0_off3_inb i h2)) : View sig .tc _ _ _).setOn Finset.univ ⊆ (sSl sB 2).view.set :=
  fun j hj => (mem_sB2 j).mpr ((sB_store3_mem i h2 j hj).1.trans hb)
/-- The footprint of the store of row 0 lies in slice 3 when `i 0 = 3`. -/
theorem store_s0_sub3 (i : grid0.Coords) (h2 : k0_cond2 i = 1#1) (hb : (i 0).val = 3) :
    ((sB : Memref sig .tc .vmem S4x2x8x32 .f32).access (Rect.unit (s := S4x2x8x32) (k0_off2 i) S1x1x8x32.size (k0_off2_inb i h2)) : View sig .tc _ _ _).setOn Finset.univ ⊆ (sSl sB 3).view.set :=
  fun j hj => (mem_sB3 j).mpr ((sB_store2_mem i h2 j hj).1.trans hb)
/-- The footprint of the store of row 1 lies in slice 3 when `i 0 = 3`. -/
theorem store_s1_sub3 (i : grid0.Coords) (h2 : k0_cond2 i = 1#1) (hb : (i 0).val = 3) :
    ((sB : Memref sig .tc .vmem S4x2x8x32 .f32).access (Rect.unit (s := S4x2x8x32) (k0_off3 i) S1x1x8x32.size (k0_off3_inb i h2)) : View sig .tc _ _ _).setOn Finset.univ ⊆ (sSl sB 3).view.set :=
  fun j hj => (mem_sB3 j).mpr ((sB_store3_mem i h2 j hj).1.trans hb)

/-! ## Axioms -/

/-- info: 'Cert.KernelIdealProof.ob_split' depends on axioms: [propext, Classical.choice, Quot.sound] -/
#guard_msgs in #print axioms ob_split
/-- info: 'Cert.KernelIdealProof.rob_split' depends on axioms: [propext, Classical.choice, Quot.sound] -/
#guard_msgs in #print axioms rob_split
/-- info: 'Cert.KernelIdealProof.sb_split' depends on axioms: [propext, Classical.choice, Quot.sound] -/
#guard_msgs in #print axioms sb_split
/-- info: 'Cert.KernelIdealProof.rsb_split' depends on axioms: [propext, Classical.choice, Quot.sound] -/
#guard_msgs in #print axioms rsb_split
/-- info: 'Cert.KernelIdealProof.land_o0' depends on axioms: [propext, Classical.choice, Quot.sound] -/
#guard_msgs in #print axioms land_o0
/-- info: 'Cert.KernelIdealProof.land_o1' depends on axioms: [propext, Classical.choice, Quot.sound] -/
#guard_msgs in #print axioms land_o1
/-- info: 'Cert.KernelIdealProof.land_o2' depends on axioms: [propext, Classical.choice, Quot.sound] -/
#guard_msgs in #print axioms land_o2
/-- info: 'Cert.KernelIdealProof.land_o3' depends on axioms: [propext, Classical.choice, Quot.sound] -/
#guard_msgs in #print axioms land_o3
/-- info: 'Cert.KernelIdealProof.land_s0' depends on axioms: [propext, Classical.choice, Quot.sound] -/
#guard_msgs in #print axioms land_s0
/-- info: 'Cert.KernelIdealProof.land_s1' depends on axioms: [propext, Classical.choice, Quot.sound] -/
#guard_msgs in #print axioms land_s1
/-- info: 'Cert.KernelIdealProof.land_s2' depends on axioms: [propext, Classical.choice, Quot.sound] -/
#guard_msgs in #print axioms land_s2
/-- info: 'Cert.KernelIdealProof.land_s3' depends on axioms: [propext, Classical.choice, Quot.sound] -/
#guard_msgs in #print axioms land_s3
/-- info: 'Cert.KernelIdealProof.store_o' depends on axioms: [propext, Classical.choice, Quot.sound] -/
#guard_msgs in #print axioms store_o
/-- info: 'Cert.KernelIdealProof.store_o_sub0' depends on axioms: [propext, Classical.choice, Quot.sound] -/
#guard_msgs in #print axioms store_o_sub0
/-- info: 'Cert.KernelIdealProof.store_o_sub1' depends on axioms: [propext, Classical.choice, Quot.sound] -/
#guard_msgs in #print axioms store_o_sub1
/-- info: 'Cert.KernelIdealProof.store_o_sub2' depends on axioms: [propext, Classical.choice, Quot.sound] -/
#guard_msgs in #print axioms store_o_sub2
/-- info: 'Cert.KernelIdealProof.store_o_sub3' depends on axioms: [propext, Classical.choice, Quot.sound] -/
#guard_msgs in #print axioms store_o_sub3
/-- info: 'Cert.KernelIdealProof.store_s0' depends on axioms: [propext, Classical.choice, Quot.sound] -/
#guard_msgs in #print axioms store_s0
/-- info: 'Cert.KernelIdealProof.store_s1' depends on axioms: [propext, Classical.choice, Quot.sound] -/
#guard_msgs in #print axioms store_s1
/-- info: 'Cert.KernelIdealProof.store_s' depends on axioms: [propext, Classical.choice, Quot.sound] -/
#guard_msgs in #print axioms store_s
/-- info: 'Cert.KernelIdealProof.store_s0_sub0' depends on axioms: [propext, Classical.choice, Quot.sound] -/
#guard_msgs in #print axioms store_s0_sub0
/-- info: 'Cert.KernelIdealProof.store_s0_sub1' depends on axioms: [propext, Classical.choice, Quot.sound] -/
#guard_msgs in #print axioms store_s0_sub1
/-- info: 'Cert.KernelIdealProof.store_s0_sub2' depends on axioms: [propext, Classical.choice, Quot.sound] -/
#guard_msgs in #print axioms store_s0_sub2
/-- info: 'Cert.KernelIdealProof.store_s0_sub3' depends on axioms: [propext, Classical.choice, Quot.sound] -/
#guard_msgs in #print axioms store_s0_sub3
/-- info: 'Cert.KernelIdealProof.store_s1_sub0' depends on axioms: [propext, Classical.choice, Quot.sound] -/
#guard_msgs in #print axioms store_s1_sub0
/-- info: 'Cert.KernelIdealProof.store_s1_sub1' depends on axioms: [propext, Classical.choice, Quot.sound] -/
#guard_msgs in #print axioms store_s1_sub1
/-- info: 'Cert.KernelIdealProof.store_s1_sub2' depends on axioms: [propext, Classical.choice, Quot.sound] -/
#guard_msgs in #print axioms store_s1_sub2
/-- info: 'Cert.KernelIdealProof.store_s1_sub3' depends on axioms: [propext, Classical.choice, Quot.sound] -/
#guard_msgs in #print axioms store_s1_sub3

end Cert.KernelIdealProof

end
-- ==== Proof.FinalArrays.lean ====
/-
  The arrays after the run, read: an input array is never written back, so it ends as it started; the output array's
  one block is the whole array at block index zero, written back at the last grid point only, so it ends holding
  what that point leaves — the merged result. From these, the run's post at the windows' arrays gives the posts stated
  at the argument and result arrays.
-/
import proofs.«900428_g7700000000000429_dist_flashdec_v7x_xyz2x2x4_y_b4_sq32_skv4096_h8_d128_f32_1_alg».proof.Proof.Data
import Idealize.ShloMosaic.Lib.Pipeline.Value
import Idealize.ShloMosaic.Lib.Pipeline.Cells
import Idealize.ShloMosaic.Lib.Pipeline.Frame

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The input arrays -/

/-- Input array 0 after the run holds what it held. -/
theorem final_arg0 (c : Dev nD) : (dats m 0 c).arrAt (0 : Fin 4) cfg0.N = m ((c : Thread nD τ).loc main_arg0) :=
  (dats (F := F) m 0 c).arrAt_in (0 : Fin 4) rfl _

/-- Input array 1 after the run holds what it held. -/
theorem final_arg1 (c : Dev nD) : (dats m 0 c).arrAt (1 : Fin 4) cfg0.N = m ((c : Thread nD τ).loc main_arg1) :=
  (dats (F := F) m 0 c).arrAt_in (1 : Fin 4) rfl _

/-- Input array 2 after the run holds what it held. -/
theorem final_arg2 (c : Dev nD) : (dats m 0 c).arrAt (2 : Fin 4) cfg0.N = m ((c : Thread nD τ).loc main_arg2) :=
  (dats (F := F) m 0 c).arrAt_in (2 : Fin 4) rfl _

/-! ## The output array -/

/-- The output window's block index is zero on every axis at every grid point: its block is the whole array. -/
theorem idx_facts3 : ∀ t : Fin cfg0.N, ∀ a : Fin 4, win0_3.index t a = 0 :=
  (by decide +kernel : ∀ t : Fin grid0.N, ∀ a : Fin 4, win0_3.index t a = 0)

/-- What a point that writes the output back writes is the merged result, read through the whole-array block. -/
theorem flushed3_eq (c : Dev nD) (t : Fin cfg0.N) (hf : (cfg0.win 3).flush t = true) :
    (dats m 0 c).flushed 3 t = ((cfg0.win 3).blk t).view.read (Elt F) (OUT m c) := by
  show (cfg0.win 3).cut (grid0.coords t) (OUT m c) = _
  have hz' : (fun a => win0_3.index t a * main_v1.ty.shape.size a) = fun _ => 0 :=
    funext fun a => by rw [idx_facts3 t a, Nat.zero_mul]
  exact (Memref.read_access_unit_zero (Elt F) main_v1 hz' (fun a => by rw [congrFun hz' a]; simp) (OUT m c)).symm

/-- The output array after the run holds the merged result: the last grid point writes the whole array. -/
theorem final_out (c : Dev nD) : (dats m 0 c).arrAt (3 : Fin 4) cfg0.N = OUT m c :=
  (dats m 0 c).arrAt_eq_of_cover 3 (OUT m c) (flushed3_eq m c) fun i =>
    ⟨t0_15, (flush0_3 t0_15).mpr rfl, by
      show i ∈ ((View.whole main_v1).slice (win0_3.rect t0_15)).set
      rw [View.set_slice_whole, Rect.mem_set_unit]
      intro a
      match a with
      | ⟨0, _⟩ =>
        show win0_3.index t0_15 0 * 4 ≤ (i 0 : Nat) ∧ (i 0 : Nat) < win0_3.index t0_15 0 * 4 + 4
        rw [idx_facts3 t0_15 0]; have : (i 0 : Nat) < 4 := (i 0).isLt; omega
      | ⟨1, _⟩ =>
        show win0_3.index t0_15 1 * 32 ≤ (i 1 : Nat) ∧ (i 1 : Nat) < win0_3.index t0_15 1 * 32 + 32
        rw [idx_facts3 t0_15 1]; have : (i 1 : Nat) < 32 := (i 1).isLt; omega
      | ⟨2, _⟩ =>
        show win0_3.index t0_15 2 * 8 ≤ (i 2 : Nat) ∧ (i 2 : Nat) < win0_3.index t0_15 2 * 8 + 8
        rw [idx_facts3 t0_15 2]; have : (i 2 : Nat) < 8 := (i 2).isLt; omega
      | ⟨3, _⟩ =>
        show win0_3.index t0_15 3 * 128 ≤ (i 3 : Nat) ∧ (i 3 : Nat) < win0_3.index t0_15 3 * 128 + 128
        rw [idx_facts3 t0_15 3]; have : (i 3 : Nat) < 128 := (i 3).isLt; omega⟩

/-! ## The posts at the argument and result arrays -/

/-- From the windows' arrays at their final contents: the three argument arrays unchanged. -/
theorem post_frame (r : PUnit × MemSt nD τ sig (Elt F))
    (h : ∀ c : Dev nD, ∀ w : Fin cfg0.W, r.2.mem ((cfg0.win w).arr.view.loc (c : Thread nD τ)) = (dats m 0 c).arrAt w cfg0.N)
    (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨(h c 0).trans (final_arg0 m c), (h c 1).trans (final_arg1 m c), (h c 2).trans (final_arg2 m c)⟩

/-- From the windows' arrays at their final contents: the result array at the merged result, the arguments unchanged. -/
theorem post_value (r : PUnit × MemSt nD τ sig (Elt F))
    (h : ∀ c : Dev nD, ∀ w : Fin cfg0.W, r.2.mem ((cfg0.win w).arr.view.loc (c : Thread nD τ)) = (dats m 0 c).arrAt w cfg0.N)
    (c : Dev nD) :
    r.2.mem ((c : Thread nD τ).loc main_v1) = OUT m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨(h c 3).trans (final_out m c), post_frame m r h c⟩

end Cert.KernelIdealProof

end

/-- info: 'Cert.KernelIdealProof.final_arg0' depends on axioms: [propext, Classical.choice, Quot.sound] -/
#guard_msgs in #print axioms Cert.KernelIdealProof.final_arg0

/-- info: 'Cert.KernelIdealProof.final_arg1' depends on axioms: [propext, Classical.choice, Quot.sound] -/
#guard_msgs in #print axioms Cert.KernelIdealProof.final_arg1

/-- info: 'Cert.KernelIdealProof.final_arg2' depends on axioms: [propext, Classical.choice, Quot.sound] -/
#guard_msgs in #print axioms Cert.KernelIdealProof.final_arg2

/-- info: 'Cert.KernelIdealProof.final_out' depends on axioms: [propext, Classical.choice, Quot.sound] -/
#guard_msgs in #print axioms Cert.KernelIdealProof.final_out

/-- info: 'Cert.KernelIdealProof.post_frame' depends on axioms: [propext, Classical.choice, Quot.sound] -/
#guard_msgs in #print axioms Cert.KernelIdealProof.post_frame

/-- info: 'Cert.KernelIdealProof.post_value' depends on axioms: [propext, Classical.choice, Quot.sound] -/
#guard_msgs in #print axioms Cert.KernelIdealProof.post_value
-- ==== Proof.FlashDefs.lean ====
/-
  The mathematics of one attention row, as definitions over the extended reals.

  A row is fixed by a batch entry, a head and a query position. Its keys are spread over two shards (the two
  halves of the key axis); each shard walks its keys in consecutive chunks and carries a running maximum `m`,
  a running normaliser `l` and, for each output coordinate, a running numerator `o`, all three relative to the
  current maximum. After the last chunk the two shards' triples are merged.

  * `mAfter s t`, `lAfter s t`, `oAfter s v t`: the carried triple after the first `t` chunks, where `s c j` is the
    score of key `j` of chunk `c` and `v c j` the value coordinate of that key.
  * `combine`: the merge of two shards' triples into the normalised output coordinate.
  * `softmaxRow`: the same output coordinate computed in one pass over all keys (maximum, exponentials,
    normaliser, weighted sum), which is what a plain softmax-attention computes.
-/
import Idealize.ShloMosaic.PureOps.Ideal

noncomputable section

namespace Cert.Flash

open Idealize.ShloMosaic

/-- The running maximum after one more chunk of scores. -/
def mStep {nj : ℕ} (sc : Fin nj → EReal) (m : EReal) : EReal :=
  max m ((Finset.univ : Finset (Fin nj)).fold max ⊥ sc)

/-- The running maximum after the first `t` chunks; before any chunk it is `-∞`. -/
def mAfter {nj : ℕ} (s : ℕ → Fin nj → EReal) : ℕ → EReal
  | 0 => ⊥
  | t + 1 => mStep (s t) (mAfter s t)

/-- The running normaliser after the first `t` chunks: the old one rescaled to the new maximum, plus the new
    chunk's exponentials. -/
def lAfter {nj : ℕ} (s : ℕ → Fin nj → EReal) : ℕ → EReal
  | 0 => 0
  | t + 1 => lAfter s t * Ideal.exp (mAfter s t - mAfter s (t + 1))
      + ∑ j : Fin nj, Ideal.exp (s t j - mAfter s (t + 1))

/-- The running numerator of one output coordinate after the first `t` chunks. -/
def oAfter {nj : ℕ} (s v : ℕ → Fin nj → EReal) : ℕ → EReal
  | 0 => 0
  | t + 1 => oAfter s v t * Ideal.exp (mAfter s t - mAfter s (t + 1))
      + ∑ j : Fin nj, Ideal.exp (s t j - mAfter s (t + 1)) * v t j

/-- The merge of two shards' triples `(m₁, l₁, o₁)` and `(m₂, l₂, o₂)`. -/
def combine (m₁ l₁ o₁ m₂ l₂ o₂ : EReal) : EReal :=
  Ideal.div (Ideal.exp (m₁ - max m₁ m₂)) (Ideal.exp (m₁ - max m₁ m₂) * l₁ + Ideal.exp (m₂ - max m₁ m₂) * l₂) * o₁
    + Ideal.div (Ideal.exp (m₂ - max m₁ m₂)) (Ideal.exp (m₁ - max m₁ m₂) * l₁ + Ideal.exp (m₂ - max m₁ m₂) * l₂) * o₂

/-- One output coordinate of a softmax-weighted sum computed in one pass over a finite family of keys:
    `S` the scores, `V` the value coordinate. -/
def softmaxRow {κ : Type} [Fintype κ] (S V : κ → EReal) : EReal :=
  ∑ k : κ, V k * Ideal.div (Ideal.exp (S k - (Finset.univ : Finset κ).fold max ⊥ S))
    (0 + ∑ k' : κ, Ideal.exp (S k' - (Finset.univ : Finset κ).fold max ⊥ S))

end Cert.Flash

end
-- ==== Proof.MergePayload.lean ====
/-
  The small payloads of the kernel read at an index over the extended reals: the initial running maximum,
  normaliser and numerator; the carried maximum kept; a shard's triple handed over with unit axes added; the
  merge of two shards' triples as `Cert.Flash.combine`; and a device's block of a whole array cut in two
  along its key axis, read by coordinates.
-/
import proofs.«900428_g7700000000000429_dist_flashdec_v7x_xyz2x2x4_y_b4_sq32_skv4096_h8_d128_f32_1_alg».proof.Proof.Gen.KernelIdeal.Skeleton
import proofs.«900428_g7700000000000429_dist_flashdec_v7x_xyz2x2x4_y_b4_sq32_skv4096_h8_d128_f32_1_alg».proof.Proof.FlashDefs
import Idealize.ShloMosaic.Lib.ValueIdx
import Idealize.ShloMosaic.Lib.ValueLayout
import Idealize.ShloMosaic.Lib.Pipeline.Value
import Idealize.ShloMosaic.Lib.Layout
import Idealize.ShloMosaic.PureOps.Ideal.Laws

noncomputable section

namespace Cert.KernelIdeal.MergePayload

open Idealize.ShloMosaic Idealize.ShloMosaic.ValueIdx Cert.KernelIdeal.Gen

/-! ## The initial triple -/

/-- The running maximum starts at `-∞`. -/
theorem init_m (h : Fin 8) (q : Fin 32) : k0_pay9 (F := Ideal) (ix2 h q) = ⊥ := by
  unfold k0_pay9
  rw [shapeCast_self]
  show Ideal.ofBits .f32 0xFF800000#32 = ⊥
  simp [Ideal.ofBits, Ideal.ieee]

/-- The running normaliser starts at `0`. -/
theorem init_l (h : Fin 8) (q : Fin 32) : k0_pay10 (F := Ideal) (ix2 h q) = 0 := by
  unfold k0_pay10
  rw [shapeCast_self]
  exact Ideal.ofBits_zero_f32

/-- The running numerator starts at `0`. -/
theorem init_o (h : Fin 8) (q : Fin 32) (d : Fin 128) : k0_pay11 (F := Ideal) (ix3 h q d) = 0 := by
  unfold k0_pay11
  rw [shapeCast_self]
  exact Ideal.ofBits_zero_f32

/-! ## The carried maximum kept -/

/-- A cast to the same shape keeps the maximum. -/
theorem keep_m (m : FVec Ideal S8x32 .f32) : k0_pay3 m = m := by
  unfold k0_pay3
  exact shapeCast_self _ _

/-! ## Unit axes added and dropped, by coordinates -/

section Layout
variable {α : Type}

/-- An `[a, b]` array cast to `[1, 1, a, b]` reads, at `(u, w, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u w : Fin 1) (i : Fin a) (j : Fin b) :
    shapeCast ⟨4, ![1, 1, a, b]⟩ x h (ix4 u w i j) = x (ix2 i j) :=
  shapeCast_apply x h _ _ (by
    have hu : u.val = 0 := by omega
    have hw : w.val = 0 := by omega
    rw [Shape.rowMajor_val_four, Shape.rowMajor_val_two]
    show i.val * b + j.val = ((u.val * 1 + w.val) * a + i.val) * b + j.val
    simp only [hu, hw, Nat.zero_mul, Nat.zero_add])

/-- An `[m, 1, a, b]` array cast to `[m, a, b]` reads, at `(k, i, j)`, the operand at `(k, 0, i, j)`. -/
theorem shapeCast_m1ab_mab_apply {m a b : ℕ} (x : (⟨4, ![m, 1, a, b]⟩ : Shape).Idx → α)
    (h : (⟨4, ![m, 1, a, b]⟩ : Shape).ShapeCasts ⟨3, ![m, a, b]⟩) (k : Fin m) (i : Fin a) (j : Fin b) :
    shapeCast ⟨3, ![m, a, b]⟩ x h (ix3 k i j) = x (ix4 k (0 : Fin 1) i j) :=
  shapeCast_apply x h _ _ (by
    rw [Shape.rowMajor_val_four, Shape.rowMajor_val_three]
    show ((k.val * 1 + 0) * a + i.val) * b + j.val = (k.val * a + i.val) * b + j.val
    rw [Nat.mul_one, Nat.add_zero])

/-- An `[m, a, b]` array cast to `[m, a, b, 1]` reads, at `(k, i, j, u)`, the operand at `(k, i, j)`. -/
theorem shapeCast_mab_mab1_apply {m a b : ℕ} (x : (⟨3, ![m, a, b]⟩ : Shape).Idx → α)
    (h : (⟨3, ![m, a, b]⟩ : Shape).ShapeCasts ⟨4, ![m, a, b, 1]⟩) (k : Fin m) (i : Fin a) (j : Fin b) (u : Fin 1) :
    shapeCast ⟨4, ![m, a, b, 1]⟩ x h (ix4 k i j u) = x (ix3 k i j) :=
  shapeCast_apply x h _ _ (by
    have hu : u.val = 0 := by omega
    rw [Shape.rowMajor_val_four, Shape.rowMajor_val_three]
    show (k.val * a + i.val) * b + j.val = ((k.val * a + i.val) * b + j.val) * 1 + u.val
    rw [hu, Nat.mul_one, Nat.add_zero])

/-- An `[m, a, b, 1]` array broadcast to `[m, a, b, n]` reads, at `(k, i, j, e)`, the operand at `(k, i, j, 0)`. -/
theorem broadcastTo_mab1_mabn_apply {m a b n : ℕ} (x : (⟨4, ![m, a, b, 1]⟩ : Shape).Idx → α)
    (h : (⟨4, ![m, a, b, 1]⟩ : Shape).Broadcasts ⟨4, ![m, a, b, n]⟩) (k : Fin m) (i : Fin a) (j : Fin b) (e : Fin n) :
    broadcastTo ⟨4, ![m, a, b, n]⟩ x h (ix4 k i j e) = x (ix4 k i j (0 : Fin 1)) := by
  refine broadcastTo_apply x h (ix4 k i j e) (ix4 k i j (0 : Fin 1)) fun ax => ?_
  match ax with
  | ⟨0, _⟩ =>
    show k.val = if m = 1 then 0 else k.val
    split
    · have := k.isLt; omega
    · rfl
  | ⟨1, _⟩ =>
    show i.val = if a = 1 then 0 else i.val
    split
    · have := i.isLt; omega
    · rfl
  | ⟨2, _⟩ =>
    show j.val = if b = 1 then 0 else j.val
    split
    · have := j.isLt; omega
    · rfl
  | ⟨3, _⟩ => rfl

/-- A rank-3 array with its first two axes swapped (permutation `[1, 0, 2]`) reads, at `(j, i, e)`, the operand at
    `(i, j, e)`. -/
theorem transpose_ix3_102_apply {a b n : ℕ} (x : (⟨3, ![a, b, n]⟩ : Shape).Idx → α)
    (h : (⟨3, ![a, b, n]⟩ : Shape).Transposes [1, 0, 2] ⟨3, ![b, a, n]⟩) (j : Fin b) (i : Fin a) (e : Fin n) :
    transpose ⟨3, ![b, a, n]⟩ [1, 0, 2] x h (ix3 j i e) = x (ix3 i j e) :=
  transpose_apply _ x h _ _ fun c => match c with | ⟨0, _⟩ => rfl | ⟨1, _⟩ => rfl | ⟨2, _⟩ => rfl

end Layout

/-! ## A shard's triple handed over -/

/-- The numerator handed over: heads and queries swapped, a unit axis in front. -/
theorem hand_o (o : Vec Ideal S8x32x128 .f32) (h : Fin 8) (q : Fin 32) (d : Fin 128) :
    k0_pay5 o (ix4 (0 : Fin 1) q h d) = o (ix3 h q d) := by
  unfold k0_pay5
  refine (shapeCast_abc_1abc_apply _ _ _ _ _ _).trans ?_
  exact transpose_ix3_102_apply _ _ _ _ _

/-- The maximum handed over: two unit axes in front. -/
theorem hand_m (m : Vec Ideal S8x32 .f32) (h : Fin 8) (q : Fin 32) :
    k0_pay6 m (ix4 (0 : Fin 1) (0 : Fin 1) h q) = m (ix2 h q) := by
  unfold k0_pay6
  exact shapeCast_ab_11ab_apply _ _ _ _ _ _

/-- The normaliser handed over: two unit axes in front. -/
theorem hand_l (l : Vec Ideal S8x32 .f32) (h : Fin 8) (q : Fin 32) :
    k0_pay7 l (ix4 (0 : Fin 1) (0 : Fin 1) h q) = l (ix2 h q) := by
  unfold k0_pay7
  exact shapeCast_ab_11ab_apply _ _ _ _ _ _

/-! ## A device's block of an array cut in two along its key axis -/

/-- On the mesh `[2, 2, 4]`, device `c`'s coordinate on the middle axis is `c / 4 % 2`; the block it holds of an array
    cut in two along dimension 1 by that axis reads, at `(b, k, h, e)`, the whole array at
    `(b, (c / 4 % 2) · 4096 + k, h, e)`. -/
theorem block_apply {α : Type} (c : Fin 16) (X : (⟨4, ![4, 8192, 8, 128]⟩ : Shape).Idx → α)
    (b : Fin 4) (k : Fin 4096) (h : Fin 8) (e : Fin 128) :
    (Layout.blockN ⟨4, ![4, 4096, 8, 128]⟩ ⟨4, ![4, 8192, 8, 128]⟩ (Layout.meshBlock [2, 2, 4] ![[], [1], [], []] c) X)
        (ix4 b k h e)
      = X (ix4 b (⟨(c.val / 4 % 2) * 4096 + k.val, by have := k.isLt; omega⟩ : Fin 8192) h e) := by
  rw [Layout.blockN_apply]
  refine congrArg X (funext fun ax => Fin.ext ?_)
  rw [Layout.TilesN.idx_val]
  match ax with
  | ⟨0, _⟩ =>
    show 0 * 4 + b.val = b.val
    rw [Nat.zero_mul, Nat.zero_add]
  | ⟨1, _⟩ =>
    show (c.val / 4 % 2 * 1 + 0) * 4096 + k.val = c.val / 4 % 2 * 4096 + k.val
    rw [Nat.mul_one, Nat.add_zero]
  | ⟨2, _⟩ =>
    show 0 * 8 + h.val = h.val
    rw [Nat.zero_mul, Nat.zero_add]
  | ⟨3, _⟩ =>
    show 0 * 128 + e.val = e.val
    rw [Nat.zero_mul, Nat.zero_add]

/-! ## The merge of two shards' triples -/

/-- An exponential at an index is the exponential of the element. -/
theorem exp_apply {s : Shape} {φ : FTy} (a : FVec Ideal s φ) (i : s.Idx) : exp a i = Ideal.exp (a i) := rfl

/-- The merged output at `(b, q, h, d)` is `combine` of the two shards' maxima and normalisers at `(b, 0, h, q)` and
    their numerators at `(b, q, h, d)`. -/
theorem merge_apply (m1 l1 m2 l2 : Vec Ideal S4x1x8x32 .f32) (ob rb : Vec Ideal S4x32x8x128 .f32)
    (b : Fin 4) (q : Fin 32) (h : Fin 8) (d : Fin 128) :
    k0_pay8 m1 l1 m2 l2 ob rb (ix4 b q h d)
      = Cert.Flash.combine (m1 (ix4 b (0 : Fin 1) h q)) (l1 (ix4 b (0 : Fin 1) h q)) (ob (ix4 b q h d))
          (m2 (ix4 b (0 : Fin 1) h q)) (l2 (ix4 b (0 : Fin 1) h q)) (rb (ix4 b q h d)) := by
  unfold k0_pay8 Cert.Flash.combine
  simp only [addf_apply, mulf_apply, broadcastTo_mab1_mabn_apply, shapeCast_mab_mab1_apply]
  rw [transpose_ix3_021_apply, transpose_ix3_021_apply]
  simp only [divf_apply, exp_apply, addf_apply, mulf_apply, subf_apply, maximumf_apply, shapeCast_m1ab_mab_apply]

/-- info: 'Cert.KernelIdeal.MergePayload.init_m' depends on axioms: [propext, Classical.choice, Quot.sound] -/
#guard_msgs in #print axioms init_m
/-- info: 'Cert.KernelIdeal.MergePayload.init_l' depends on axioms: [propext, Classical.choice, Quot.sound] -/
#guard_msgs in #print axioms init_l
/-- info: 'Cert.KernelIdeal.MergePayload.init_o' depends on axioms: [propext, Classical.choice, Quot.sound] -/
#guard_msgs in #print axioms init_o
/-- info: 'Cert.KernelIdeal.MergePayload.keep_m' depends on axioms: [propext, Classical.choice, Quot.sound] -/
#guard_msgs in #print axioms keep_m
/-- info: 'Cert.KernelIdeal.MergePayload.hand_o' depends on axioms: [propext, Classical.choice, Quot.sound] -/
#guard_msgs in #print axioms hand_o
/-- info: 'Cert.KernelIdeal.MergePayload.hand_m' depends on axioms: [propext, Classical.choice, Quot.sound] -/
#guard_msgs in #print axioms hand_m
/-- info: 'Cert.KernelIdeal.MergePayload.hand_l' depends on axioms: [propext, Classical.choice, Quot.sound] -/
#guard_msgs in #print axioms hand_l
/-- info: 'Cert.KernelIdeal.MergePayload.block_apply' depends on axioms: [propext, Quot.sound] -/
#guard_msgs in #print axioms block_apply
/-- info: 'Cert.KernelIdeal.MergePayload.merge_apply' depends on axioms: [propext, Classical.choice, Quot.sound] -/
#guard_msgs in #print axioms merge_apply

end Cert.KernelIdeal.MergePayload

end
-- ==== Proof.InputFacts.lean ====
/-
  Two groups of facts about the input arrays.

  Finiteness: where the printed predicate "every entry of each input has absolute value below `+∞`" is all ones,
  every entry of each device's three input arrays is a real number (neither `-∞` nor `+∞`); and since the sixteen
  devices' blocks cover the whole key axis, so is every entry of the three whole arrays.

  Blocks: the block of an input array staged at a grid point, read at coordinates inside the block, is the array
  at block index times block extent plus the coordinate inside the block.
-/
import proofs.«900428_g7700000000000429_dist_flashdec_v7x_xyz2x2x4_y_b4_sq32_skv4096_h8_d128_f32_1_alg».proof.Defs
import proofs.«900428_g7700000000000429_dist_flashdec_v7x_xyz2x2x4_y_b4_sq32_skv4096_h8_d128_f32_1_alg».proof.Proof.Gen.KernelIdeal.Frame
import proofs.«900428_g7700000000000429_dist_flashdec_v7x_xyz2x2x4_y_b4_sq32_skv4096_h8_d128_f32_1_alg».proof.Proof.Gen.Pre_finite_inputs_Kernel
import proofs.«900428_g7700000000000429_dist_flashdec_v7x_xyz2x2x4_y_b4_sq32_skv4096_h8_d128_f32_1_alg».proof.Proof.MergePayload
import Idealize.ShloMosaic.Lib.ValueIdx
import Idealize.ShloMosaic.Lib.ReduceAll
import Idealize.ShloMosaic.Lib.Pipeline.Value

noncomputable section

namespace Cert.KernelIdeal.InputFacts

open Idealize.ShloMosaic Idealize.ShloMosaic.ValueIdx Idealize.SL.Sem

/-! ## Finiteness -/

/-- The scalar shape has one index. -/
local instance : Subsingleton (⟨0, ![]⟩ : Shape).Idx := ⟨fun a b => funext fun d => d.elim0⟩

/-- An extended real whose absolute value `max x (-x)` is below `+∞` is neither `-∞` nor `+∞`. -/
theorem finite_of_abs_lt_top (x : EReal)
    (h : FloatOps.cmpf (F := Ideal) (φ := .f32) .olt (FloatOps.hostAbsf (F := Ideal) (φ := .f32) x)
      (FloatOps.ofBits (F := Ideal) .f32 0x7F800000#32) = 1#1) : x ≠ ⊥ ∧ x ≠ ⊤ := by
  have htop : Ideal.ofBits .f32 0x7F800000#32 = (⊤ : EReal) := by simp [Ideal.ofBits, Ideal.ieee]
  change Ideal.cmp .olt (max x (-x)) (Ideal.ofBits .f32 0x7F800000#32) = 1#1 at h
  rw [htop] at h
  induction x using EReal.rec with
  | bot => simp [Ideal.cmp] at h
  | top => simp [Ideal.cmp] at h
  | coe r => exact ⟨EReal.coe_ne_bot r, EReal.coe_ne_top r⟩

/-- Where the printed predicate of three arrays is all ones, every entry of each of them is a real number. -/
theorem fn_finite [Cert.Pre_finite_inputs_Kernel.Facts]
    (a0 : FVec Ideal Cert.Pre_finite_inputs_Kernel.S4x32x8x128 .f32)
    (a1 a2 : FVec Ideal Cert.Pre_finite_inputs_Kernel.S4x4096x8x128 .f32)
    (h : Cert.Pre_finite_inputs_Kernel.fn (F := Ideal) a0 a1 a2 = fun _ => 1#1) :
    (∀ i, a0 i ≠ ⊥ ∧ a0 i ≠ ⊤) ∧ (∀ i, a1 i ≠ ⊥ ∧ a1 i ≠ ⊤) ∧ (∀ i, a2 i ≠ ⊥ ∧ a2 i ≠ ⊤) := by
  have h' := congrFun h ix0
  unfold Cert.Pre_finite_inputs_Kernel.fn at h'
  dsimp only at h'
  obtain ⟨h01, h2⟩ := IntOp.andi_eq_one.1 h'
  obtain ⟨h0, h1⟩ := IntOp.andi_eq_one.1 h01
  exact ⟨fun i => finite_of_abs_lt_top _ (Host.reduce_andi_all _ _ _ _ _ h0 i),
    fun i => finite_of_abs_lt_top _ (Host.reduce_andi_all _ _ _ _ _ h1 i),
    fun i => finite_of_abs_lt_top _ (Host.reduce_andi_all _ _ _ _ _ h2 i)⟩

/-- Every entry of each device's three input arrays is a real number. -/
theorem finite_blocks [Cert.Pre_finite_inputs_Kernel.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, @Ne EReal (m ((c.tc : Thread Cert.KernelIdeal.nD Cert.KernelIdeal.τ).loc Cert.KernelIdeal.main_arg0) i) ⊥ ∧ @Ne EReal (m ((c.tc : Thread Cert.KernelIdeal.nD Cert.KernelIdeal.τ).loc Cert.KernelIdeal.main_arg0) i) ⊤)
    ∧ (∀ i, @Ne EReal (m ((c.tc : Thread Cert.KernelIdeal.nD Cert.KernelIdeal.τ).loc Cert.KernelIdeal.main_arg1) i) ⊥ ∧ @Ne EReal (m ((c.tc : Thread Cert.KernelIdeal.nD Cert.KernelIdeal.τ).loc Cert.KernelIdeal.main_arg1) i) ⊤)
    ∧ (∀ i, @Ne EReal (m ((c.tc : Thread Cert.KernelIdeal.nD Cert.KernelIdeal.τ).loc Cert.KernelIdeal.main_arg2) i) ⊥ ∧ @Ne EReal (m ((c.tc : Thread Cert.KernelIdeal.nD Cert.KernelIdeal.τ).loc Cert.KernelIdeal.main_arg2) i) ⊤) :=
  fn_finite _ _ _ (hpre c)

/-- Block `0` of the two along the key axis holds the keys below `4096` … -/
theorem block_lo {α : Type} (X : (⟨4, ![4, 8192, 8, 128]⟩ : Shape).Idx → α) (b : Fin 4) (k : Fin 8192) (hk : k.val < 4096)
    (h : Fin 8) (e : Fin 128) :
    (Layout.blockN ⟨4, ![4, 4096, 8, 128]⟩ ⟨4, ![4, 8192, 8, 128]⟩ (Layout.meshBlock [2, 2, 4] ![[], [1], [], []] (0 : Fin 16)) X)
        (ix4 b (⟨k.val, hk⟩ : Fin 4096) h e) = X (ix4 b k h e) :=
  (Cert.KernelIdeal.MergePayload.block_apply 0 X b ⟨k.val, hk⟩ h e).trans
    (congrArg X (congrArg (fun k' : Fin 8192 => ix4 b k' h e) (Fin.ext (by
      show 0 / 4 % 2 * 4096 + k.val = k.val
      omega))))

/-- … and block `1`, which device `4` holds, the keys from `4096` on. -/
theorem block_hi {α : Type} (X : (⟨4, ![4, 8192, 8, 128]⟩ : Shape).Idx → α) (b : Fin 4) (k : Fin 8192) (hk : ¬ k.val < 4096)
    (h : Fin 8) (e : Fin 128) :
    (Layout.blockN ⟨4, ![4, 4096, 8, 128]⟩ ⟨4, ![4, 8192, 8, 128]⟩ (Layout.meshBlock [2, 2, 4] ![[], [1], [], []] (4 : Fin 16)) X)
        (ix4 b (⟨k.val - 4096, by have := k.isLt; omega⟩ : Fin 4096) h e) = X (ix4 b k h e) :=
  (Cert.KernelIdeal.MergePayload.block_apply 4 X b ⟨k.val - 4096, by have := k.isLt; omega⟩ h e).trans
    (congrArg X (congrArg (fun k' : Fin 8192 => ix4 b k' h e) (Fin.ext (by
      show 4 / 4 % 2 * 4096 + (k.val - 4096) = k.val
      omega))))

/-- A property of every entry of every device's block holds of every entry of the whole array. -/
theorem whole_of_blocks {α : Type} (X : (⟨4, ![4, 8192, 8, 128]⟩ : Shape).Idx → α) (P : α → Prop)
    (hb : ∀ (c : Fin 16) (j : (⟨4, ![4, 4096, 8, 128]⟩ : Shape).Idx),
      P ((Layout.blockN ⟨4, ![4, 4096, 8, 128]⟩ ⟨4, ![4, 8192, 8, 128]⟩ (Layout.meshBlock [2, 2, 4] ![[], [1], [], []] c) X) j)) :
    ∀ i, P (X i) := by
  intro i
  obtain ⟨b, k, h, e, rfl⟩ : ∃ (b : Fin 4) (k : Fin 8192) (h : Fin 8) (e : Fin 128), i = ix4 b k h e :=
    ⟨i 0, i 1, i 2, i 3, eq_ix4 i⟩
  by_cases hk : k.val < 4096
  · have := hb 0 (ix4 b (⟨k.val, hk⟩ : Fin 4096) h e)
    rw [block_lo X b k hk h e] at this
    exact this
  · have := hb 4 (ix4 b (⟨k.val - 4096, by have := k.isLt; omega⟩ : Fin 4096) h e)
    rw [block_hi X b k hk h e] at this
    exact this

/-- Every entry of the three whole input arrays is a real number. -/
theorem finite_whole [Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 8192, 8, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 8192, 8, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg2))) :
    (∀ i, @Ne EReal (m' (((0 : Dev Cert.ReferenceIdeal.nD).tc : Thread Cert.ReferenceIdeal.nD Cert.ReferenceIdeal.τ).loc Cert.ReferenceIdeal.main_arg0) i) ⊥ ∧ @Ne EReal (m' (((0 : Dev Cert.ReferenceIdeal.nD).tc : Thread Cert.ReferenceIdeal.nD Cert.ReferenceIdeal.τ).loc Cert.ReferenceIdeal.main_arg0) i) ⊤)
    ∧ (∀ i, @Ne EReal (m' (((0 : Dev Cert.ReferenceIdeal.nD).tc : Thread Cert.ReferenceIdeal.nD Cert.ReferenceIdeal.τ).loc Cert.ReferenceIdeal.main_arg1) i) ⊥ ∧ @Ne EReal (m' (((0 : Dev Cert.ReferenceIdeal.nD).tc : Thread Cert.ReferenceIdeal.nD Cert.ReferenceIdeal.τ).loc Cert.ReferenceIdeal.main_arg1) i) ⊤)
    ∧ (∀ i, @Ne EReal (m' (((0 : Dev Cert.ReferenceIdeal.nD).tc : Thread Cert.ReferenceIdeal.nD Cert.ReferenceIdeal.τ).loc Cert.ReferenceIdeal.main_arg2) i) ⊥ ∧ @Ne EReal (m' (((0 : Dev Cert.ReferenceIdeal.nD).tc : Thread Cert.ReferenceIdeal.nD Cert.ReferenceIdeal.τ).loc Cert.ReferenceIdeal.main_arg2) i) ⊤) := by
  refine ⟨fun i => ?_, ?_, ?_⟩
  · have h0 := (finite_blocks m hpre 0).1 i
    rw [(hagree 0).1] at h0
    exact h0
  · refine whole_of_blocks (α := EReal) _ (fun x => x ≠ ⊥ ∧ x ≠ ⊤) fun c j => ?_
    have h1 := (finite_blocks m hpre c).2.1 j
    rw [(hagree c).2.1] at h1
    exact h1
  · refine whole_of_blocks (α := EReal) _ (fun x => x ≠ ⊥ ∧ x ≠ ⊤) fun c j => ?_
    have h2 := (finite_blocks m hpre c).2.2 j
    rw [(hagree c).2.2] at h2
    exact h2

/-! ## Blocks -/

section Blocks

open Cert.KernelIdeal Cert.KernelIdeal.Gen

variable {F : FTy → Type} [FloatOps F]
variable (m : (ℓ : Loc nD τ sig) → Buf (Elt F) ℓ)

/-- Window 0's block index at grid point `t`: `(t / 4, 0, 0, 0)`. -/
theorem idx_facts0 : ∀ t : Fin cfg0.N, win0_0.index t (0 : Fin 4) = t.val / 4 ∧ win0_0.index t (1 : Fin 4) = 0
    ∧ win0_0.index t (2 : Fin 4) = 0 ∧ win0_0.index t (3 : Fin 4) = 0 :=
  (by decide +kernel : ∀ t : Fin grid0.N, _)

/-- Window 1's block index at grid point `t`: `(t / 4, t % 4, 0, 0)`. -/
theorem idx_facts1 : ∀ t : Fin cfg0.N, win0_1.index t (0 : Fin 4) = t.val / 4 ∧ win0_1.index t (1 : Fin 4) = t.val % 4
    ∧ win0_1.index t (2 : Fin 4) = 0 ∧ win0_1.index t (3 : Fin 4) = 0 :=
  (by decide +kernel : ∀ t : Fin grid0.N, _)

/-- Window 2's block index at grid point `t`: `(t / 4, t % 4, 0, 0)`. -/
theorem idx_facts2 : ∀ t : Fin cfg0.N, win0_2.index t (0 : Fin 4) = t.val / 4 ∧ win0_2.index t (1 : Fin 4) = t.val % 4
    ∧ win0_2.index t (2 : Fin 4) = 0 ∧ win0_2.index t (3 : Fin 4) = 0 :=
  (by decide +kernel : ∀ t : Fin grid0.N, _)

/-- A grid point `t` of the sixteen (four chunks of keys for each of four batch entries) has batch entry `t / 4` below `4`. -/
theorem div4_lt (t : Fin cfg0.N) : t.val / 4 < 4 := by
  have h : t.val < grid0.N := t.isLt
  rw [N_0] at h
  omega

/-- Key `j` of chunk `t % 4` is key `(t % 4) · 1024 + j` of the device's `4096`. -/
theorem chunk_lt (t : Fin cfg0.N) (j : Fin 1024) : (t.val % 4) * 1024 + j.val < 4096 := by
  have := j.isLt
  omega

/-- The block of input 0 staged at grid point `t`, at `(0, q, h, e)`: the array at `(t / 4, q, h, e)`. -/
theorem iblk0_apply (c : Dev nD) (t : Fin cfg0.N) (q : Fin 32) (h : Fin 8) (e : Fin 128) :
    iblk m c 0 t (ix4 (0 : Fin 1) q h e) = V m c main_arg0 (ix4 (⟨t.val / 4, div4_lt t⟩ : Fin 4) q h e) := by
  obtain ⟨e0, e1, e2, e3⟩ := idx_facts0 t
  show V m c main_arg0 (((cfg0.win 0).blk t).view.emb (ix4 (0 : Fin 1) q h e)) = _
  refine congrArg (V m c main_arg0) (funext fun a => Fin.ext ?_)
  match a with
  | ⟨0, _⟩ =>
    show win0_0.index t (0 : Fin 4) * 1 + 1 * (0 : Fin 1).val = t.val / 4
    rw [e0]; simp
  | ⟨1, _⟩ =>
    show win0_0.index t (1 : Fin 4) * 32 + 1 * q.val = q.val
    rw [e1]; omega
  | ⟨2, _⟩ =>
    show win0_0.index t (2 : Fin 4) * 8 + 1 * h.val = h.val
    rw [e2]; omega
  | ⟨3, _⟩ =>
    show win0_0.index t (3 : Fin 4) * 128 + 1 * e.val = e.val
    rw [e3]; omega

/-- The block of input 1 staged at grid point `t`, at `(0, j, h, e)`: the array at `(t / 4, (t % 4) · 1024 + j, h, e)`. -/
theorem iblk1_apply (c : Dev nD) (t : Fin cfg0.N) (j : Fin 1024) (h : Fin 8) (e : Fin 128) :
    iblk m c 1 t (ix4 (0 : Fin 1) j h e)
      = V m c main_arg1 (ix4 (⟨t.val / 4, div4_lt t⟩ : Fin 4) (⟨(t.val % 4) * 1024 + j.val, chunk_lt t j⟩ : Fin 4096) h e) := by
  obtain ⟨e0, e1, e2, e3⟩ := idx_facts1 t
  show V m c main_arg1 (((cfg0.win 1).blk t).view.emb (ix4 (0 : Fin 1) j h e)) = _
  refine congrArg (V m c main_arg1) (funext fun a => Fin.ext ?_)
  match a with
  | ⟨0, _⟩ =>
    show win0_1.index t (0 : Fin 4) * 1 + 1 * (0 : Fin 1).val = t.val / 4
    rw [e0]; simp
  | ⟨1, _⟩ =>
    show win0_1.index t (1 : Fin 4) * 1024 + 1 * j.val = t.val % 4 * 1024 + j.val
    rw [e1]; omega
  | ⟨2, _⟩ =>
    show win0_1.index t (2 : Fin 4) * 8 + 1 * h.val = h.val
    rw [e2]; omega
  | ⟨3, _⟩ =>
    show win0_1.index t (3 : Fin 4) * 128 + 1 * e.val = e.val
    rw [e3]; omega

/-- The block of input 2 staged at grid point `t`, at `(0, j, h, e)`: the array at `(t / 4, (t % 4) · 1024 + j, h, e)`. -/
theorem iblk2_apply (c : Dev nD) (t : Fin cfg0.N) (j : Fin 1024) (h : Fin 8) (e : Fin 128) :
    iblk m c 2 t (ix4 (0 : Fin 1) j h e)
      = V m c main_arg2 (ix4 (⟨t.val / 4, div4_lt t⟩ : Fin 4) (⟨(t.val % 4) * 1024 + j.val, chunk_lt t j⟩ : Fin 4096) h e) := by
  obtain ⟨e0, e1, e2, e3⟩ := idx_facts2 t
  show V m c main_arg2 (((cfg0.win 2).blk t).view.emb (ix4 (0 : Fin 1) j h e)) = _
  refine congrArg (V m c main_arg2) (funext fun a => Fin.ext ?_)
  match a with
  | ⟨0, _⟩ =>
    show win0_2.index t (0 : Fin 4) * 1 + 1 * (0 : Fin 1).val = t.val / 4
    rw [e0]; simp
  | ⟨1, _⟩ =>
    show win0_2.index t (1 : Fin 4) * 1024 + 1 * j.val = t.val % 4 * 1024 + j.val
    rw [e1]; omega
  | ⟨2, _⟩ =>
    show win0_2.index t (2 : Fin 4) * 8 + 1 * h.val = h.val
    rw [e2]; omega
  | ⟨3, _⟩ =>
    show win0_2.index t (3 : Fin 4) * 128 + 1 * e.val = e.val
    rw [e3]; omega

end Blocks

end Cert.KernelIdeal.InputFacts

end

/-- info: 'Cert.KernelIdeal.InputFacts.finite_blocks' depends on axioms: [propext, Classical.choice, Quot.sound] -/
#guard_msgs in #print axioms Cert.KernelIdeal.InputFacts.finite_blocks

/-- info: 'Cert.KernelIdeal.InputFacts.finite_whole' depends on axioms: [propext, Classical.choice, Quot.sound] -/
#guard_msgs in #print axioms Cert.KernelIdeal.InputFacts.finite_whole

/-- info: 'Cert.KernelIdeal.InputFacts.iblk0_apply' depends on axioms: [propext, Classical.choice, Quot.sound] -/
#guard_msgs in #print axioms Cert.KernelIdeal.InputFacts.iblk0_apply

/-- info: 'Cert.KernelIdeal.InputFacts.iblk1_apply' depends on axioms: [propext, Classical.choice, Quot.sound] -/
#guard_msgs in #print axioms Cert.KernelIdeal.InputFacts.iblk1_apply

/-- info: 'Cert.KernelIdeal.InputFacts.iblk2_apply' depends on axioms: [propext, Classical.choice, Quot.sound] -/
#guard_msgs in #print axioms Cert.KernelIdeal.InputFacts.iblk2_apply
-- ==== Proof.FlashAlgebra.lean ====
/-
  The algebra of one attention row over the extended reals: the chunked recurrence with a running maximum,
  followed by the merge of two shards, equals the one-pass softmax-weighted sum over all keys, provided every
  score and value is a finite real.

  The proof never identifies the maxima. Both sides have the shape
      (∑ₖ exp (σₖ - M) · νₖ) / (∑ₖ exp (σₖ - M))
  for some real shift M, and that quotient does not depend on M; the only facts used about a maximum are that it
  is a finite real (the key set is non-empty and the scores are finite).
-/
import proofs.«900428_g7700000000000429_dist_flashdec_v7x_xyz2x2x4_y_b4_sq32_skv4096_h8_d128_f32_1_alg».proof.Proof.FlashDefs
import Mathlib.Data.EReal.Operations
import Mathlib.Data.EReal.Inv
import Mathlib.Analysis.SpecialFunctions.Exp
import Mathlib.Algebra.BigOperators.Fin
import Mathlib.Data.Finset.Fold
import Idealize.ShloMosaic.PureOps.Ideal
import Idealize.ShloMosaic.PureOps.Ideal.Laws

noncomputable section

namespace Cert.Flash

open Idealize.ShloMosaic

/-! ### Coercion of finite sums, exponentials of real differences, finiteness of a maximum -/

/-- The coercion from the reals to the extended reals commutes with finite sums. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The exponential of a difference of two reals, taken in the extended reals. -/
theorem exp_coe_sub (a b : ℝ) : Ideal.exp ((a : EReal) - (b : EReal)) = ((Real.exp (a - b) : ℝ) : EReal) := by
  rw [← EReal.coe_sub, Ideal.exp_coe]

/-- The maximum of a non-empty finite family of finite extended reals is a real. -/
theorem fold_max_finite {κ : Type*} (t : Finset κ) (ht : t.Nonempty) (S : κ → EReal)
    (hS : ∀ k ∈ t, S k ≠ ⊥ ∧ S k ≠ ⊤) : ∃ M : ℝ, t.fold max ⊥ S = (M : EReal) := by
  have h1 : t.fold max ⊥ S ≠ ⊤ := by
    rw [← lt_top_iff_ne_top, Finset.fold_max_lt]
    exact ⟨bot_lt_top, fun x hx => lt_top_iff_ne_top.2 (hS x hx).2⟩
  have h2 : t.fold max ⊥ S ≠ ⊥ := by
    rw [← bot_lt_iff_ne_bot, Finset.lt_fold_max]
    obtain ⟨a, ha⟩ := ht
    exact Or.inr ⟨a, ha, bot_lt_iff_ne_bot.2 (hS a ha).1⟩
  exact ⟨(t.fold max ⊥ S).toReal, (EReal.coe_toReal h1 h2).symm⟩

/-! ### Real-valued partial sums of one shard, relative to a shift M -/

/-- The normaliser of the first t chunks relative to the shift M. -/
def denR {nj : ℕ} (σ : ℕ → Fin nj → ℝ) (t : ℕ) (M : ℝ) : ℝ :=
  ∑ c ∈ Finset.range t, ∑ j : Fin nj, Real.exp (σ c j - M)

/-- The numerator of the first t chunks relative to the shift M. -/
def numR {nj : ℕ} (σ ν : ℕ → Fin nj → ℝ) (t : ℕ) (M : ℝ) : ℝ :=
  ∑ c ∈ Finset.range t, ∑ j : Fin nj, Real.exp (σ c j - M) * ν c j

/-- Changing the shift rescales the normaliser: exp (a - M) · exp (M - M') = exp (a - M'). -/
theorem denR_shift {nj : ℕ} (σ : ℕ → Fin nj → ℝ) (t : ℕ) (M M' : ℝ) :
    denR σ t M * Real.exp (M - M') = denR σ t M' := by
  unfold denR
  rw [Finset.sum_mul]
  refine Finset.sum_congr rfl fun c _ => ?_
  rw [Finset.sum_mul]
  refine Finset.sum_congr rfl fun j _ => ?_
  rw [← Real.exp_add]; congr 1; ring

/-- Changing the shift rescales the numerator. -/
theorem numR_shift {nj : ℕ} (σ ν : ℕ → Fin nj → ℝ) (t : ℕ) (M M' : ℝ) :
    numR σ ν t M * Real.exp (M - M') = numR σ ν t M' := by
  unfold numR
  rw [Finset.sum_mul]
  refine Finset.sum_congr rfl fun c _ => ?_
  rw [Finset.sum_mul]
  refine Finset.sum_congr rfl fun j _ => ?_
  rw [mul_right_comm, ← Real.exp_add]; congr 2; ring

/-- The normaliser of a non-empty set of keys is positive. -/
theorem denR_pos {nj : ℕ} (hnj : 0 < nj) (σ : ℕ → Fin nj → ℝ) {t : ℕ} (ht : 0 < t) (M : ℝ) :
    0 < denR σ t M := by
  haveI : Nonempty (Fin nj) := ⟨⟨0, hnj⟩⟩
  exact Finset.sum_pos (fun c _ => Finset.sum_pos (fun j _ => Real.exp_pos _) Finset.univ_nonempty)
    (Finset.nonempty_range_iff.2 ht.ne')

theorem denR_succ {nj : ℕ} (σ : ℕ → Fin nj → ℝ) (t : ℕ) (M : ℝ) :
    denR σ (t + 1) M = denR σ t M + ∑ j : Fin nj, Real.exp (σ t j - M) := by
  unfold denR; rw [Finset.sum_range_succ]

theorem numR_succ {nj : ℕ} (σ ν : ℕ → Fin nj → ℝ) (t : ℕ) (M : ℝ) :
    numR σ ν (t + 1) M = numR σ ν t M + ∑ j : Fin nj, Real.exp (σ t j - M) * ν t j := by
  unfold numR; rw [Finset.sum_range_succ]

/-- The coercion from the reals to the extended reals commutes with the binary maximum. -/
theorem coe_max' (a b : ℝ) : ((max a b : ℝ) : EReal) = max (a : EReal) (b : EReal) :=
  EReal.coe_strictMono.monotone.map_max

theorem denR_zero {nj : ℕ} (σ : ℕ → Fin nj → ℝ) (M : ℝ) : denR σ 0 M = 0 := by simp [denR]

theorem numR_zero {nj : ℕ} (σ ν : ℕ → Fin nj → ℝ) (M : ℝ) : numR σ ν 0 M = 0 := by simp [numR]

/-! ### The recurrence, unfolded one step -/

theorem mAfter_zero {nj : ℕ} (s : ℕ → Fin nj → EReal) : mAfter s 0 = ⊥ := rfl

theorem mAfter_succ {nj : ℕ} (s : ℕ → Fin nj → EReal) (t : ℕ) :
    mAfter s (t + 1) = max (mAfter s t) ((Finset.univ : Finset (Fin nj)).fold max ⊥ (s t)) := rfl

theorem lAfter_zero {nj : ℕ} (s : ℕ → Fin nj → EReal) : lAfter s 0 = 0 := rfl

theorem lAfter_succ {nj : ℕ} (s : ℕ → Fin nj → EReal) (t : ℕ) :
    lAfter s (t + 1) = lAfter s t * Ideal.exp (mAfter s t - mAfter s (t + 1))
      + ∑ j : Fin nj, Ideal.exp (s t j - mAfter s (t + 1)) := rfl

theorem oAfter_zero {nj : ℕ} (s v : ℕ → Fin nj → EReal) : oAfter s v 0 = 0 := rfl

theorem oAfter_succ {nj : ℕ} (s v : ℕ → Fin nj → EReal) (t : ℕ) :
    oAfter s v (t + 1) = oAfter s v t * Ideal.exp (mAfter s t - mAfter s (t + 1))
      + ∑ j : Fin nj, Ideal.exp (s t j - mAfter s (t + 1)) * v t j := rfl

/-! ### Closed forms of the recurrence -/

/-- After at least one chunk of finite scores and values, the running maximum is a real M and the carried
    normaliser and numerator are the partial sums over the chunks seen so far, relative to M. -/
theorem closed_form {nj : ℕ} (hnj : 0 < nj) (s v : ℕ → Fin nj → EReal) (σ ν : ℕ → Fin nj → ℝ) (t : ℕ)
    (hs : ∀ c j, c < t → s c j = (σ c j : EReal)) (hv : ∀ c j, c < t → v c j = (ν c j : EReal)) :
    t = 0 ∨ ∃ M : ℝ, mAfter s t = (M : EReal) ∧ lAfter s t = ((denR σ t M : ℝ) : EReal)
      ∧ oAfter s v t = ((numR σ ν t M : ℝ) : EReal) := by
  induction t with
  | zero => exact Or.inl rfl
  | succ t ih =>
    right
    haveI : Nonempty (Fin nj) := ⟨⟨0, hnj⟩⟩
    have hsum : ∀ M' : ℝ, ∑ j : Fin nj, Ideal.exp (s t j - (M' : EReal))
        = ((∑ j : Fin nj, Real.exp (σ t j - M') : ℝ) : EReal) := by
      intro M'
      rw [coe_finset_sum]
      exact Finset.sum_congr rfl fun j _ => by rw [hs t j (Nat.lt_succ_self t), exp_coe_sub]
    have hsumv : ∀ M' : ℝ, ∑ j : Fin nj, Ideal.exp (s t j - (M' : EReal)) * v t j
        = ((∑ j : Fin nj, Real.exp (σ t j - M') * ν t j : ℝ) : EReal) := by
      intro M'
      rw [coe_finset_sum]
      exact Finset.sum_congr rfl fun j _ => by
        rw [hs t j (Nat.lt_succ_self t), hv t j (Nat.lt_succ_self t), exp_coe_sub, EReal.coe_mul]
    obtain ⟨C, hC⟩ := fold_max_finite (Finset.univ : Finset (Fin nj)) Finset.univ_nonempty (s t)
      (fun j _ => by rw [hs t j (Nat.lt_succ_self t)]; exact ⟨EReal.coe_ne_bot _, EReal.coe_ne_top _⟩)
    rcases ih (fun c j hc => hs c j (Nat.lt_succ_of_lt hc)) (fun c j hc => hv c j (Nat.lt_succ_of_lt hc))
      with h0 | ⟨M, hm, hl, ho⟩
    · subst h0
      have hm' : mAfter s (0 + 1) = (C : EReal) := by
        rw [mAfter_succ, mAfter_zero, hC]; exact max_eq_right bot_le
      refine ⟨C, hm', ?_, ?_⟩
      · rw [lAfter_succ, hm', lAfter_zero, zero_mul, zero_add, hsum, denR_succ, denR_zero, zero_add]
      · rw [oAfter_succ, hm', oAfter_zero, zero_mul, zero_add, hsumv, numR_succ, numR_zero, zero_add]
    · have hm' : mAfter s (t + 1) = ((max M C : ℝ) : EReal) := by
        rw [mAfter_succ, hm, hC, coe_max']
      refine ⟨max M C, hm', ?_, ?_⟩
      · rw [lAfter_succ, hm', hm, hl, exp_coe_sub, hsum, ← EReal.coe_mul, ← EReal.coe_add, denR_shift,
          denR_succ]
      · rw [oAfter_succ, hm', hm, ho, exp_coe_sub, hsumv, ← EReal.coe_mul, ← EReal.coe_add, numR_shift,
          numR_succ]

/-! ### The one-pass side -/

/-- The quotient of the weighted sum by the normaliser does not depend on the shift. -/
theorem ratio_shift {κ : Type*} [Fintype κ] (σ ν : κ → ℝ) (M M' : ℝ) :
    (∑ k, Real.exp (σ k - M) * ν k) / (∑ k, Real.exp (σ k - M))
      = (∑ k, Real.exp (σ k - M') * ν k) / (∑ k, Real.exp (σ k - M')) := by
  have h : ∀ k, Real.exp (σ k - M) = Real.exp (M' - M) * Real.exp (σ k - M') := fun k => by
    rw [← Real.exp_add]; congr 1; ring
  simp_rw [h, mul_assoc, ← Finset.mul_sum]
  exact mul_div_mul_left _ _ (Real.exp_pos _).ne'

/-- The one-pass softmax-weighted sum of finite scores and values over a non-empty key set is the real quotient,
    for some real shift (the maximum). -/
theorem softmaxRow_coe {κ : Type} [Fintype κ] [Nonempty κ] (σ ν : κ → ℝ) :
    ∃ M : ℝ, softmaxRow (fun k => (σ k : EReal)) (fun k => (ν k : EReal))
      = (((∑ k, Real.exp (σ k - M) * ν k) / (∑ k, Real.exp (σ k - M)) : ℝ) : EReal) := by
  obtain ⟨M, hM⟩ := fold_max_finite (Finset.univ : Finset κ) Finset.univ_nonempty (fun k => (σ k : EReal))
    (fun k _ => ⟨EReal.coe_ne_bot _, EReal.coe_ne_top _⟩)
  refine ⟨M, ?_⟩
  have hpos : 0 < ∑ k, Real.exp (σ k - M) := Finset.sum_pos (fun k _ => Real.exp_pos _) Finset.univ_nonempty
  have hden : (0 : EReal) + ∑ k' : κ, Ideal.exp ((σ k' : EReal) - (M : EReal))
      = ((∑ k, Real.exp (σ k - M) : ℝ) : EReal) := by
    rw [zero_add, coe_finset_sum]; exact Finset.sum_congr rfl fun k _ => exp_coe_sub _ _
  simp only [softmaxRow]
  rw [Finset.sum_div, coe_finset_sum]
  refine Finset.sum_congr rfl fun k _ => ?_
  rw [hM, hden, exp_coe_sub, Ideal.div_coe hpos.ne', ← EReal.coe_mul, ← EReal.coe_mul]
  congr 1; ring

/-! ### The merge of two shards -/

/-- The merge of two triples of reals, as a real quotient. -/
theorem combine_coe (M₁ L₁ O₁ M₂ L₂ O₂ : ℝ)
    (hpos : 0 < L₁ * Real.exp (M₁ - max M₁ M₂) + L₂ * Real.exp (M₂ - max M₁ M₂)) :
    combine (M₁ : EReal) (L₁ : EReal) (O₁ : EReal) (M₂ : EReal) (L₂ : EReal) (O₂ : EReal)
      = (((O₁ * Real.exp (M₁ - max M₁ M₂) + O₂ * Real.exp (M₂ - max M₁ M₂))
          / (L₁ * Real.exp (M₁ - max M₁ M₂) + L₂ * Real.exp (M₂ - max M₁ M₂)) : ℝ) : EReal) := by
  have hne : Real.exp (M₁ - max M₁ M₂) * L₁ + Real.exp (M₂ - max M₁ M₂) * L₂ ≠ 0 := by
    have := hpos.ne'; rwa [mul_comm L₁, mul_comm L₂] at this
  unfold combine
  rw [← coe_max']
  simp only [exp_coe_sub, ← EReal.coe_mul, ← EReal.coe_add]
  rw [Ideal.div_coe hne, Ideal.div_coe hne]
  simp only [← EReal.coe_mul, ← EReal.coe_add]
  congr 1; ring

/-- A sum over shard × chunk × key splits into the two shards' sums. -/
theorem sum_two_shards {nc nj : ℕ} (f : Fin 2 → ℕ → Fin nj → ℝ) (y y' : Fin 2) (hy : y' ≠ y) :
    ∑ x : Fin 2 × Fin nc × Fin nj, f x.1 x.2.1 x.2.2
      = (∑ c ∈ Finset.range nc, ∑ j : Fin nj, f y c j) + ∑ c ∈ Finset.range nc, ∑ j : Fin nj, f y' c j := by
  rw [Finset.sum_range, Finset.sum_range, Fintype.sum_prod_type, Fin.sum_univ_two]
  simp only [Fintype.sum_prod_type]
  have h : (y = 0 ∧ y' = 1) ∨ (y = 1 ∧ y' = 0) := by
    fin_cases y <;> fin_cases y' <;> simp at hy ⊢
  rcases h with ⟨rfl, rfl⟩ | ⟨rfl, rfl⟩
  · rfl
  · exact add_comm _ _

/-! ### The identity -/

/-- The chunked recurrence on each of two shards followed by the merge equals the one-pass softmax-weighted sum
    over all keys of both shards, when every score and value is a finite real. -/
theorem combine_eq_softmaxRow {nc nj : ℕ} (hnc : 0 < nc) (hnj : 0 < nj) (s v : Fin 2 → ℕ → Fin nj → EReal)
    (hs : ∀ y c j, c < nc → s y c j ≠ ⊥ ∧ s y c j ≠ ⊤) (hv : ∀ y c j, c < nc → v y c j ≠ ⊥ ∧ v y c j ≠ ⊤)
    (y y' : Fin 2) (hy : y' ≠ y) :
    combine (mAfter (s y) nc) (lAfter (s y) nc) (oAfter (s y) (v y) nc) (mAfter (s y') nc) (lAfter (s y') nc) (oAfter (s y') (v y') nc)
      = softmaxRow (κ := Fin 2 × Fin nc × Fin nj) (fun x => s x.1 x.2.1 x.2.2) (fun x => v x.1 x.2.1 x.2.2) := by
  obtain ⟨σ, hsσ⟩ : ∃ σ : Fin 2 → ℕ → Fin nj → ℝ, ∀ y c j, c < nc → s y c j = (σ y c j : EReal) :=
    ⟨fun y c j => (s y c j).toReal, fun y c j hc => (EReal.coe_toReal (hs y c j hc).2 (hs y c j hc).1).symm⟩
  obtain ⟨ν, hvν⟩ : ∃ ν : Fin 2 → ℕ → Fin nj → ℝ, ∀ y c j, c < nc → v y c j = (ν y c j : EReal) :=
    ⟨fun y c j => (v y c j).toReal, fun y c j hc => (EReal.coe_toReal (hv y c j hc).2 (hv y c j hc).1).symm⟩
  haveI : Nonempty (Fin 2 × Fin nc × Fin nj) := ⟨(0, ⟨0, hnc⟩, ⟨0, hnj⟩)⟩
  obtain ⟨M₁, hm₁, hl₁, ho₁⟩ :=
    (closed_form hnj (s y) (v y) (σ y) (ν y) nc (hsσ y) (hvν y)).resolve_left hnc.ne'
  obtain ⟨M₂, hm₂, hl₂, ho₂⟩ :=
    (closed_form hnj (s y') (v y') (σ y') (ν y') nc (hsσ y') (hvν y')).resolve_left hnc.ne'
  have hS : (fun x : Fin 2 × Fin nc × Fin nj => s x.1 x.2.1 x.2.2)
      = fun x => ((σ x.1 x.2.1 x.2.2 : ℝ) : EReal) := funext fun x => hsσ x.1 x.2.1 x.2.2 x.2.1.isLt
  have hV : (fun x : Fin 2 × Fin nc × Fin nj => v x.1 x.2.1 x.2.2)
      = fun x => ((ν x.1 x.2.1 x.2.2 : ℝ) : EReal) := funext fun x => hvν x.1 x.2.1 x.2.2 x.2.1.isLt
  obtain ⟨M₀, hM₀⟩ := softmaxRow_coe (κ := Fin 2 × Fin nc × Fin nj)
    (fun x => σ x.1 x.2.1 x.2.2) (fun x => ν x.1 x.2.1 x.2.2)
  have hpos : 0 < denR (σ y) nc M₁ * Real.exp (M₁ - max M₁ M₂)
      + denR (σ y') nc M₂ * Real.exp (M₂ - max M₁ M₂) := by
    rw [denR_shift, denR_shift]; exact add_pos (denR_pos hnj _ hnc _) (denR_pos hnj _ hnc _)
  have hN := sum_two_shards (nc := nc) (fun y c j => Real.exp (σ y c j - max M₁ M₂) * ν y c j) y y' hy
  have hD := sum_two_shards (nc := nc) (fun y c j => Real.exp (σ y c j - max M₁ M₂)) y y' hy
  rw [hm₁, hl₁, ho₁, hm₂, hl₂, ho₂, combine_coe _ _ _ _ _ _ hpos, denR_shift, denR_shift, numR_shift,
    numR_shift, hS, hV, hM₀,
    ratio_shift (fun x : Fin 2 × Fin nc × Fin nj => σ x.1 x.2.1 x.2.2) (fun x => ν x.1 x.2.1 x.2.2) M₀
      (max M₁ M₂), hN, hD]
  rfl

/-- info: 'Cert.Flash.combine_eq_softmaxRow' depends on axioms: [propext, Classical.choice, Quot.sound] -/
#guard_msgs in #print axioms combine_eq_softmaxRow

/-! ### Finite sums of products, and two float words -/

/-- A common finite factor moves out of a finite sum of products of finite extended reals. -/
theorem sum_mul_scale {n : ℕ} (a b : Fin n → EReal) (c : EReal) (ha : ∀ e, a e ≠ ⊥ ∧ a e ≠ ⊤)
    (hb : ∀ e, b e ≠ ⊥ ∧ b e ≠ ⊤) (hc : c ≠ ⊥ ∧ c ≠ ⊤) :
    ∑ e, b e * (a e * c) = (∑ e, a e * b e) * c := by
  obtain ⟨α, rfl⟩ : ∃ α : Fin n → ℝ, a = fun e => (α e : EReal) :=
    ⟨fun e => (a e).toReal, funext fun e => (EReal.coe_toReal (ha e).2 (ha e).1).symm⟩
  obtain ⟨β, rfl⟩ : ∃ β : Fin n → ℝ, b = fun e => (β e : EReal) :=
    ⟨fun e => (b e).toReal, funext fun e => (EReal.coe_toReal (hb e).2 (hb e).1).symm⟩
  obtain ⟨γ, rfl⟩ : ∃ γ : ℝ, c = (γ : EReal) := ⟨c.toReal, (EReal.coe_toReal hc.2 hc.1).symm⟩
  have h1 : ∀ e, (β e : EReal) * ((α e : EReal) * (γ : EReal)) = ((β e * (α e * γ) : ℝ) : EReal) := fun e => by
    rw [EReal.coe_mul, EReal.coe_mul]
  have h2 : ∀ e, (α e : EReal) * (β e : EReal) = ((α e * β e : ℝ) : EReal) := fun e => by rw [EReal.coe_mul]
  simp only [h1, h2]
  rw [← coe_finset_sum, ← coe_finset_sum, ← EReal.coe_mul, Finset.sum_mul]
  congr 1
  exact Finset.sum_congr rfl fun e _ => by ring

/-- A finite sum of products of finite extended reals is finite. -/
theorem sum_mul_finite {n : ℕ} (a b : Fin n → EReal) (ha : ∀ e, a e ≠ ⊥ ∧ a e ≠ ⊤) (hb : ∀ e, b e ≠ ⊥ ∧ b e ≠ ⊤) :
    (∑ e, a e * b e) ≠ ⊥ ∧ (∑ e, a e * b e) ≠ ⊤ := by
  obtain ⟨α, rfl⟩ : ∃ α : Fin n → ℝ, a = fun e => (α e : EReal) :=
    ⟨fun e => (a e).toReal, funext fun e => (EReal.coe_toReal (ha e).2 (ha e).1).symm⟩
  obtain ⟨β, rfl⟩ : ∃ β : Fin n → ℝ, b = fun e => (β e : EReal) :=
    ⟨fun e => (b e).toReal, funext fun e => (EReal.coe_toReal (hb e).2 (hb e).1).symm⟩
  have h2 : ∀ e, (α e : EReal) * (β e : EReal) = ((α e * β e : ℝ) : EReal) := fun e => by rw [EReal.coe_mul]
  simp only [h2]
  rw [← coe_finset_sum]
  exact ⟨EReal.coe_ne_bot _, EReal.coe_ne_top _⟩

/-- The single-precision word 0x3DB504F3 (sign 0, exponent field 123, a non-zero fraction) denotes a real. -/
theorem scale_finite : Ideal.ofBits .f32 0x3DB504F3#32 ≠ ⊥ ∧ Ideal.ofBits .f32 0x3DB504F3#32 ≠ ⊤ := by
  have h : ∃ r : ℝ, Ideal.ofBits .f32 0x3DB504F3#32 = (r : EReal) := by
    simp [Ideal.ofBits, Ideal.ieee, -EReal.coe_mul]
  obtain ⟨r, hr⟩ := h
  rw [hr]; exact ⟨EReal.coe_ne_bot _, EReal.coe_ne_top _⟩

/-- The single-precision word 0xFF800000 (sign 1, exponent field all ones, fraction 0) denotes -∞. -/
theorem neg_inf_word : Ideal.ofBits .f32 0xFF800000#32 = ⊥ := by simp [Ideal.ofBits, Ideal.ieee]

/-- info: 'Cert.Flash.sum_mul_scale' depends on axioms: [propext, Classical.choice, Quot.sound] -/
#guard_msgs in #print axioms sum_mul_scale

/-- info: 'Cert.Flash.sum_mul_finite' depends on axioms: [propext, Classical.choice, Quot.sound] -/
#guard_msgs in #print axioms sum_mul_finite

/-- info: 'Cert.Flash.scale_finite' depends on axioms: [propext, Classical.choice, Quot.sound] -/
#guard_msgs in #print axioms scale_finite

/-- info: 'Cert.Flash.neg_inf_word' depends on axioms: [propext, Classical.choice, Quot.sound] -/
#guard_msgs in #print axioms neg_inf_word

end Cert.Flash

end
-- ==== Proof.RefValue.lean ====
/-
  The reference's result, read at one index, is the one-pass softmax row.

  The reference computes, for a batch entry `b`, a head `h` and a query position `q`, the scores
  `S k = (∑ e, Q[b,q,h,e] * K[b,k,h,e]) * scale` of the 8192 keys, their maximum `M`, the exponentials
  `exp (S k - M)`, their sum `l`, and the output coordinate `∑ k, V[b,k,h,d] * (exp (S k - M) / l)`.
  Each stage is read at explicit coordinates; the last theorem re-indexes the key axis as
  (shard, chunk, key in chunk).
-/
import proofs.«900428_g7700000000000429_dist_flashdec_v7x_xyz2x2x4_y_b4_sq32_skv4096_h8_d128_f32_1_alg».proof.Proof.Gen.ReferenceIdeal.Read
import proofs.«900428_g7700000000000429_dist_flashdec_v7x_xyz2x2x4_y_b4_sq32_skv4096_h8_d128_f32_1_alg».proof.Proof.FlashDefs
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx

/-- The score of key `k` for the row (b, h, q). -/
abbrev score (Q : (⟨S4x32x8x128, .f32⟩ : BufTy).Contents (Elt Ideal)) (K : (⟨S4x8192x8x128, .f32⟩ : BufTy).Contents (Elt Ideal))
    (b : Fin 4) (h : Fin 8) (q : Fin 32) (k : Fin 8192) : EReal :=
  (∑ e : Fin 128, Q (ix4 b q h e) * K (ix4 b k h e)) * Ideal.ofBits .f32 0x3DB504F3#32

/-- The bit pattern of the maximum's initial value is `-∞`. -/
theorem ofBits_neg_inf : Ideal.ofBits .f32 0xFF800000#32 = (⊥ : EReal) := by
  simp [Ideal.ofBits, Ideal.ieee]

/-- The scaled scores at (b, h, q, k). -/
theorem v2_ix (Q : (⟨S4x32x8x128, .f32⟩ : BufTy).Contents (Elt Ideal)) (K : (⟨S4x8192x8x128, .f32⟩ : BufTy).Contents (Elt Ideal))
    (b : Fin 4) (h : Fin 8) (q : Fin 32) (k : Fin 8192) :
    val_main_v2 (F := Ideal) Q K (ix4 b h q k) = score Q K b h q k := by
  rw [val_main_v2_apply, val_main_v0_apply, val_main_v1_apply, val_main_cst_apply]
  have el : ∀ e : Fin 128, lidx_main_v0 (ix4 b h q k) e = ix4 b q h e := fun e => funext fun a => by
    match a with | ⟨0, _⟩ => rfl | ⟨1, _⟩ => rfl | ⟨2, _⟩ => rfl | ⟨3, _⟩ => rfl
  have er : ∀ e : Fin 128, ridx_main_v0 (ix4 b h q k) e = ix4 b k h e := fun e => funext fun a => by
    match a with | ⟨0, _⟩ => rfl | ⟨1, _⟩ => rfl | ⟨2, _⟩ => rfl | ⟨3, _⟩ => rfl
  simp only [el, er, Ideal.mulf_def, Ideal.ofBits_def]

/-- The reduced index (b, h, q) with key `k` put back on the last axis. -/
theorem lift_ix3 (hr : S4x8x32x8192.Reduces [3] S4x8x32) (b : Fin 4) (h : Fin 8) (q : Fin 32)
    (k : Fin (S4x8x32x8192.size 3)) : hr.lift (ix3 b h q) k = ix4 b h q (⟨k.val, k.isLt⟩ : Fin 8192) := by
  funext c; apply Fin.ext
  match c with | ⟨0, _⟩ => rfl | ⟨1, _⟩ => rfl | ⟨2, _⟩ => rfl | ⟨3, _⟩ => rfl

/-- The row's maximum: the fold of `max` from `-∞` over the scores. -/
theorem v3_ix (Q : (⟨S4x32x8x128, .f32⟩ : BufTy).Contents (Elt Ideal)) (K : (⟨S4x8192x8x128, .f32⟩ : BufTy).Contents (Elt Ideal))
    (b : Fin 4) (h : Fin 8) (q : Fin 32) :
    val_main_v3 (F := Ideal) Q K (ix3 b h q) = (Finset.univ : Finset (Fin 8192)).fold max ⊥ (score Q K b h q) := by
  have hr : S4x8x32x8192.Reduces [3] S4x8x32 := by decide
  unfold val_main_v3
  refine (Host.reduce_eq_fold_single (FloatOps.maximumf (F := Ideal) (φ := .f32)) (val_main_v2 (F := Ideal) Q K)
    (val_main_cst_0 (F := Ideal)) Facts₀.reducesTo_S4x8x32x8192_S4x8x32_d3 hr Facts₀.h_S_ (ix3 b h q)).trans ?_
  rw [val_main_cst_0_apply, Ideal.ofBits_def, ofBits_neg_inf]
  have hf : (val_main_v2 (F := Ideal) Q K ∘ hr.lift (ix3 b h q)) = fun k : Fin 8192 => score Q K b h q k :=
    funext fun k => (congrArg (val_main_v2 (F := Ideal) Q K) (lift_ix3 hr b h q k)).trans (v2_ix Q K b h q _)
  exact congrArg (fun f => Finset.fold max (⊥ : EReal) f (Finset.univ : Finset (Fin 8192))) hf

/-- The maximum broadcast back over the keys. -/
theorem v5_ix (Q : (⟨S4x32x8x128, .f32⟩ : BufTy).Contents (Elt Ideal)) (K : (⟨S4x8192x8x128, .f32⟩ : BufTy).Contents (Elt Ideal))
    (b : Fin 4) (h : Fin 8) (q : Fin 32) (k : Fin 8192) :
    val_main_v5 (F := Ideal) Q K (ix4 b h q k) = (Finset.univ : Finset (Fin 8192)).fold max ⊥ (score Q K b h q) := by
  rw [val_main_v5_apply, val_main_v4_apply]
  have e : idx_main_v4 (idx_main_v5 (ix4 b h q k)) = ix3 b h q := funext fun a => by
    match a with | ⟨0, _⟩ => rfl | ⟨1, _⟩ => rfl | ⟨2, _⟩ => rfl
  rw [e, v3_ix]

/-- The exponentials of the scores relative to the maximum. -/
theorem v7_ix (Q : (⟨S4x32x8x128, .f32⟩ : BufTy).Contents (Elt Ideal)) (K : (⟨S4x8192x8x128, .f32⟩ : BufTy).Contents (Elt Ideal))
    (b : Fin 4) (h : Fin 8) (q : Fin 32) (k : Fin 8192) :
    val_main_v7 (F := Ideal) Q K (ix4 b h q k)
      = Ideal.exp (score Q K b h q k - (Finset.univ : Finset (Fin 8192)).fold max ⊥ (score Q K b h q)) := by
  rw [val_main_v7_apply, val_main_v6_apply, v2_ix, v5_ix, Ideal.subf_def, Ideal.hostUnary_exp_def]

/-- The normaliser: zero plus the sum of the exponentials. -/
theorem v8_ix (Q : (⟨S4x32x8x128, .f32⟩ : BufTy).Contents (Elt Ideal)) (K : (⟨S4x8192x8x128, .f32⟩ : BufTy).Contents (Elt Ideal))
    (b : Fin 4) (h : Fin 8) (q : Fin 32) :
    val_main_v8 (F := Ideal) Q K (ix3 b h q)
      = 0 + ∑ k : Fin 8192, Ideal.exp (score Q K b h q k - (Finset.univ : Finset (Fin 8192)).fold max ⊥ (score Q K b h q)) := by
  rw [val_main_v8_apply, val_main_cst_1_apply, Ideal.ofBits_def, Ideal.ofBits_zero_f32]
  refine congrArg (0 + ·) (Finset.sum_congr rfl fun k _ => ?_)
  have e : idx_main_v8 (ix3 b h q) k = ix4 b h q k := funext fun a => by
    match a with | ⟨0, _⟩ => rfl | ⟨1, _⟩ => rfl | ⟨2, _⟩ => rfl | ⟨3, _⟩ => rfl
  rw [e, v7_ix]

/-- The normaliser broadcast back over the keys. -/
theorem v10_ix (Q : (⟨S4x32x8x128, .f32⟩ : BufTy).Contents (Elt Ideal)) (K : (⟨S4x8192x8x128, .f32⟩ : BufTy).Contents (Elt Ideal))
    (b : Fin 4) (h : Fin 8) (q : Fin 32) (k : Fin 8192) :
    val_main_v10 (F := Ideal) Q K (ix4 b h q k)
      = 0 + ∑ k' : Fin 8192, Ideal.exp (score Q K b h q k' - (Finset.univ : Finset (Fin 8192)).fold max ⊥ (score Q K b h q)) := by
  rw [val_main_v10_apply, val_main_v9_apply]
  have e : idx_main_v9 (idx_main_v10 (ix4 b h q k)) = ix3 b h q := funext fun a => by
    match a with | ⟨0, _⟩ => rfl | ⟨1, _⟩ => rfl | ⟨2, _⟩ => rfl
  rw [e, v8_ix]

/-- The softmax weight of key `k`. -/
theorem v11_ix (Q : (⟨S4x32x8x128, .f32⟩ : BufTy).Contents (Elt Ideal)) (K : (⟨S4x8192x8x128, .f32⟩ : BufTy).Contents (Elt Ideal))
    (b : Fin 4) (h : Fin 8) (q : Fin 32) (k : Fin 8192) :
    val_main_v11 (F := Ideal) Q K (ix4 b h q k)
      = Ideal.div (Ideal.exp (score Q K b h q k - (Finset.univ : Finset (Fin 8192)).fold max ⊥ (score Q K b h q)))
          (0 + ∑ k' : Fin 8192, Ideal.exp (score Q K b h q k' - (Finset.univ : Finset (Fin 8192)).fold max ⊥ (score Q K b h q))) := by
  rw [val_main_v11_apply, v7_ix, v10_ix, Ideal.hostDivf_def]

/-- The reference's result at (b, q, h, d) is the one-pass softmax row over the 8192 keys. -/
theorem ref_apply (Q : (⟨S4x32x8x128, .f32⟩ : BufTy).Contents (Elt Ideal)) (K V : (⟨S4x8192x8x128, .f32⟩ : BufTy).Contents (Elt Ideal))
    (b : Fin 4) (q : Fin 32) (h : Fin 8) (d : Fin 128) :
    Cert.ReferenceIdeal.Read.val_main_v13 (F := Ideal) Q K V (ValueIdx.ix4 b q h d)
      = Cert.Flash.softmaxRow (κ := Fin 8192)
          (fun k => (∑ e : Fin 128, Q (ValueIdx.ix4 b q h e) * K (ValueIdx.ix4 b k h e)) * Ideal.ofBits .f32 0x3DB504F3#32)
          (fun k => V (ValueIdx.ix4 b k h d)) := by
  rw [val_main_v13_apply, val_main_v12_apply]
  unfold Cert.Flash.softmaxRow
  refine Finset.sum_congr rfl fun k _ => ?_
  have el : lidx_main_v12 (idx_main_v13 (ix4 b q h d)) k = ix4 b k h d := funext fun a => by
    match a with | ⟨0, _⟩ => rfl | ⟨1, _⟩ => rfl | ⟨2, _⟩ => rfl | ⟨3, _⟩ => rfl
  have er : ridx_main_v12 (idx_main_v13 (ix4 b q h d)) k = ix4 b h q k := funext fun a => by
    match a with | ⟨0, _⟩ => rfl | ⟨1, _⟩ => rfl | ⟨2, _⟩ => rfl | ⟨3, _⟩ => rfl
  rw [el, er, v11_ix]

/-- info: 'Cert.RefValue.ref_apply' depends on axioms: [propext, Classical.choice, Quot.sound] -/
#guard_msgs in #print axioms Cert.RefValue.ref_apply

/-- The keys as (shard, chunk, key in chunk): key `s * 4096 + c * 1024 + j`. -/
def keyEquiv : Fin 2 × Fin 4 × Fin 1024 ≃ Fin 8192 where
  toFun x := ⟨x.1.val * 4096 + x.2.1.val * 1024 + x.2.2.val, by
    have := x.1.isLt; have := x.2.1.isLt; have := x.2.2.isLt; omega⟩
  invFun k := (⟨k.val / 4096, by have := k.isLt; omega⟩, ⟨k.val % 4096 / 1024, by have := k.isLt; omega⟩,
    ⟨k.val % 1024, Nat.mod_lt _ (by decide)⟩)
  left_inv x := by
    obtain ⟨s, c, j⟩ := x
    have := s.isLt; have := c.isLt; have := j.isLt
    refine Prod.ext (Fin.ext ?_) (Prod.ext (Fin.ext ?_) (Fin.ext ?_))
    · show (s.val * 4096 + c.val * 1024 + j.val) / 4096 = s.val; omega
    · show (s.val * 4096 + c.val * 1024 + j.val) % 4096 / 1024 = c.val; omega
    · show (s.val * 4096 + c.val * 1024 + j.val) % 1024 = j.val; omega
  right_inv k := by
    apply Fin.ext
    show k.val / 4096 * 4096 + k.val % 4096 / 1024 * 1024 + k.val % 1024 = k.val
    omega

/-- The one-pass softmax row does not depend on how the keys are indexed. -/
theorem softmaxRow_equiv {ι κ : Type} [Fintype ι] [Fintype κ] (e : ι ≃ κ) (S V : κ → EReal) :
    Cert.Flash.softmaxRow S V = Cert.Flash.softmaxRow (fun x => S (e x)) (fun x => V (e x)) := by
  unfold Cert.Flash.softmaxRow
  have hM : (Finset.univ : Finset κ).fold max ⊥ S = (Finset.univ : Finset ι).fold max ⊥ (fun x => S (e x)) := by
    rw [← Finset.map_univ_equiv e, Finset.fold_map]
    rfl
  rw [hM]
  generalize (Finset.univ : Finset ι).fold max ⊥ (fun x => S (e x)) = M
  have hL : ∑ k' : κ, Ideal.exp (S k' - M) = ∑ x : ι, Ideal.exp (S (e x) - M) :=
    (Equiv.sum_comp e fun k' => Ideal.exp (S k' - M)).symm
  rw [hL]
  generalize (0 + ∑ x : ι, Ideal.exp (S (e x) - M)) = L
  exact (Equiv.sum_comp e fun k => V k * Ideal.div (Ideal.exp (S k - M)) L).symm

/-- The one-pass softmax row over the 8192 keys, with the key axis re-indexed as (shard, chunk, key in chunk). -/
theorem softmaxRow_split (S V : Fin 8192 → EReal) :
    Cert.Flash.softmaxRow (κ := Fin 8192) S V
      = Cert.Flash.softmaxRow (κ := Fin 2 × Fin 4 × Fin 1024)
          (fun x => S ⟨x.1.val * 4096 + x.2.1.val * 1024 + x.2.2.val, by have := x.1.isLt; have := x.2.1.isLt; have := x.2.2.isLt; omega⟩)
          (fun x => V ⟨x.1.val * 4096 + x.2.1.val * 1024 + x.2.2.val, by have := x.1.isLt; have := x.2.1.isLt; have := x.2.2.isLt; omega⟩) :=
  softmaxRow_equiv keyEquiv S V

/-- info: 'Cert.RefValue.softmaxRow_split' depends on axioms: [propext, Classical.choice, Quot.sound] -/
#guard_msgs in #print axioms Cert.RefValue.softmaxRow_split

end Cert.RefValue

end
-- ==== Proof.ChunkPayload.lean ====
/-
  One chunk of keys of one attention row, read off the kernel body's arithmetic at an index, over the extended reals.

  The body's values are arrays indexed by head `h`, key position `j` inside the chunk, query position `q` and
  feature or output coordinate `e`, `d`. Read at one index, each of them is a term of the online-softmax step:
  * the score of key `j` for the row `(h, q)` is the sum over the features of key times scaled query;
  * the new running maximum is the old one joined with the maximum of the chunk's scores;
  * the rescaling factor is the exponential of old maximum minus new maximum;
  * a key's weight is the exponential of its score minus the new maximum;
  * the new normaliser is the old one rescaled plus the sum of the chunk's weights;
  * the new numerator at `d` is the old one rescaled plus the sum of weight times value coordinate.
-/
import proofs.«900428_g7700000000000429_dist_flashdec_v7x_xyz2x2x4_y_b4_sq32_skv4096_h8_d128_f32_1_alg».proof.Proof.Gen.KernelIdeal.Skeleton
import proofs.«900428_g7700000000000429_dist_flashdec_v7x_xyz2x2x4_y_b4_sq32_skv4096_h8_d128_f32_1_alg».proof.Proof.FlashDefs
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ChunkPayload

open Cert.KernelIdeal Cert.KernelIdeal.Gen Idealize.ShloMosaic Idealize.ShloMosaic.ValueIdx Idealize.SL.Sem

/-! ## Layout operations that keep a reduced axis as a unit axis, read at an index -/

section Layout
variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1, b]` array broadcast to `[a, n, b]` reads, at `(i, p, c)`, the operand at `(i, 0, c)`. -/
theorem broadcastTo_a1b_anb_apply {a n b : ℕ} (v : (⟨3, ![a, 1, b]⟩ : Shape).Idx → α)
    (h : (⟨3, ![a, 1, b]⟩ : Shape).Broadcasts ⟨3, ![a, n, b]⟩) (i : Fin a) (p : Fin n) (c : Fin b) :
    broadcastTo ⟨3, ![a, n, b]⟩ v h (ix3 i p c) = v (ix3 i (0 : Fin 1) c) := by
  refine broadcastTo_apply v h (ix3 i p c) (ix3 i (0 : Fin 1) c) fun ax => ?_
  match ax with
  | ⟨0, _⟩ =>
    show i.val = if a = 1 then 0 else i.val
    split
    · have := i.isLt; omega
    · rfl
  | ⟨1, _⟩ => rfl
  | ⟨2, _⟩ =>
    show c.val = if b = 1 then 0 else c.val
    split
    · have := c.isLt; omega
    · rfl

/-- An `[a, b, 1]` array broadcast to `[a, b, n]` reads, at `(i, c, p)`, the operand at `(i, c, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (i : Fin a) (c : Fin b) (p : Fin n) :
    broadcastTo ⟨3, ![a, b, n]⟩ v h (ix3 i c p) = v (ix3 i c (0 : Fin 1)) := by
  refine broadcastTo_apply v h (ix3 i c p) (ix3 i c (0 : Fin 1)) fun ax => ?_
  match ax with
  | ⟨0, _⟩ =>
    show i.val = if a = 1 then 0 else i.val
    split
    · have := i.isLt; omega
    · rfl
  | ⟨1, _⟩ =>
    show c.val = if b = 1 then 0 else c.val
    split
    · have := c.isLt; omega
    · rfl
  | ⟨2, _⟩ => rfl

end Layout

/-- An exponential at an index is the exponential of the element. -/
theorem exp_apply {s : Shape} {φ : FTy} (a : FVec Ideal s φ) (i : s.Idx) : exp a i = Ideal.exp (a i) := rfl

/-! ## The two reductions over the chunk's keys, read at a row -/

/-- The index `(h, q)` with the key position `j` put back is `(h, j, q)`. -/
theorem lift_row (h : Fin 8) (q : Fin 32) (j : Fin 1024) :
    reduces_S8x1024x32_S8x32.lift (ix2 h q) j = ix3 h j q :=
  funext fun a => Fin.ext (by
    match a with
    | ⟨0, _⟩ => rfl
    | ⟨1, _⟩ => rfl
    | ⟨2, _⟩ => rfl)

/-- The maximum over the chunk's keys, at the row `(h, q)`: the fold of `max` from `-∞`. -/
theorem chunkMax_apply (x : FVec Ideal S8x1024x32 .f32) (h : Fin 8) (q : Fin 32) :
    multiReduction (F := Ideal) .maximumf [1] S8x32 x 0xFF800000#32 reduces_S8x1024x32_S8x32 (.inl rfl) rfl (ix2 h q)
      = (Finset.univ : Finset (Fin 1024)).fold max ⊥ (fun j => x (ix3 h j q)) := by
  refine (Ideal.multiReduction_maximumf_single x 0xFF800000#32 reduces_S8x1024x32_S8x32 (.inl rfl) rfl (ix2 h q)).trans ?_
  have hb : FloatOps.ofBits (F := Ideal) .f32 0xFF800000#32 = (⊥ : EReal) := by simp [Ideal.ofBits, Ideal.ieee]
  rw [hb]
  exact congrArg ((Finset.univ : Finset (Fin 1024)).fold max ⊥) (funext fun j => congrArg x (lift_row h q j))

/-- The sum over the chunk's keys, at the row `(h, q)`. -/
theorem chunkSum_apply (x : FVec Ideal S8x1024x32 .f32) (h : Fin 8) (q : Fin 32) :
    multiReduction (F := Ideal) .add [1] S8x32 x 0x00000000#32 reduces_S8x1024x32_S8x32 (.inl rfl) rfl (ix2 h q)
      = ∑ j : Fin 1024, x (ix3 h j q) :=
  (Ideal.multiReduction_add_single x 0x00000000#32 reduces_S8x1024x32_S8x32 (.inl rfl) rfl (ix2 h q)).trans
    (Finset.sum_congr rfl fun j _ => congrArg x (lift_row h q j))

/-! ## The first product's operand indices: keys `(j, h, e)` times scaled queries `(q, h, e)` into `(h, j, q)` -/

theorem score_lhs_0 (i : S8x1024x32.Idx) (k : dot_S1024x8x128_S32x8x128_S8x1024x32_2_2_0_0_1_1.contr.Idx) :
    (dot_S1024x8x128_S32x8x128_S8x1024x32_2_2_0_0_1_1.lhsIdx i k 0).val = (i 1).val := by
  unfold DotDims.lhsIdx
  rw [dif_neg (show ¬(0 : Fin S1024x8x128.rank) ∈ dot_S1024x8x128_S32x8x128_S8x1024x32_2_2_0_0_1_1.lhsBatch by decide), dif_pos (show (0 : Fin S1024x8x128.rank) ∈ dot_S1024x8x128_S32x8x128_S8x1024x32_2_2_0_0_1_1.lhsNonContracting by decide)]
  rfl
theorem score_lhs_1 (i : S8x1024x32.Idx) (k : dot_S1024x8x128_S32x8x128_S8x1024x32_2_2_0_0_1_1.contr.Idx) :
    (dot_S1024x8x128_S32x8x128_S8x1024x32_2_2_0_0_1_1.lhsIdx i k 1).val = (i 0).val := by
  unfold DotDims.lhsIdx
  rw [dif_pos (show (1 : Fin S1024x8x128.rank) ∈ dot_S1024x8x128_S32x8x128_S8x1024x32_2_2_0_0_1_1.lhsBatch by decide)]
  rfl
theorem score_lhs_2 (i : S8x1024x32.Idx) (k : dot_S1024x8x128_S32x8x128_S8x1024x32_2_2_0_0_1_1.contr.Idx) :
    (dot_S1024x8x128_S32x8x128_S8x1024x32_2_2_0_0_1_1.lhsIdx i k 2).val = (k ⟨0, by decide⟩).val :=
  dot_S1024x8x128_S32x8x128_S8x1024x32_2_2_0_0_1_1.lhsIdx_val_of_single rfl i k
theorem score_rhs_0 (i : S8x1024x32.Idx) (k : dot_S1024x8x128_S32x8x128_S8x1024x32_2_2_0_0_1_1.contr.Idx) :
    (dot_S1024x8x128_S32x8x128_S8x1024x32_2_2_0_0_1_1.rhsIdx i k 0).val = (i 2).val := by
  unfold DotDims.rhsIdx
  rw [dif_neg (show ¬(0 : Fin S32x8x128.rank) ∈ dot_S1024x8x128_S32x8x128_S8x1024x32_2_2_0_0_1_1.rhsBatch by decide), dif_pos (show (0 : Fin S32x8x128.rank) ∈ dot_S1024x8x128_S32x8x128_S8x1024x32_2_2_0_0_1_1.rhsNonContracting by decide)]
  rfl
theorem score_rhs_1 (i : S8x1024x32.Idx) (k : dot_S1024x8x128_S32x8x128_S8x1024x32_2_2_0_0_1_1.contr.Idx) :
    (dot_S1024x8x128_S32x8x128_S8x1024x32_2_2_0_0_1_1.rhsIdx i k 1).val = (i 0).val := by
  unfold DotDims.rhsIdx
  rw [dif_pos (show (1 : Fin S32x8x128.rank) ∈ dot_S1024x8x128_S32x8x128_S8x1024x32_2_2_0_0_1_1.rhsBatch by decide)]
  rfl
theorem score_rhs_2 (i : S8x1024x32.Idx) (k : dot_S1024x8x128_S32x8x128_S8x1024x32_2_2_0_0_1_1.contr.Idx) :
    (dot_S1024x8x128_S32x8x128_S8x1024x32_2_2_0_0_1_1.rhsIdx i k 2).val = (k ⟨0, by decide⟩).val :=
  dot_S1024x8x128_S32x8x128_S8x1024x32_2_2_0_0_1_1.rhsIdx_val_of_single rfl i k

/-- The score of key `j` for the row `(h, q)`: the sum over the features of key times scaled query. -/
theorem score_apply (xq : Vec Ideal S1x32x8x128 .f32) (xk : Vec Ideal S1x1024x8x128 .f32) (h : Fin 8) (q : Fin 32) (j : Fin 1024) :
    k0_pay13 (F := Ideal) xq xk (ix3 h j q)
      = ∑ e : Fin 128, xk (ix4 (0 : Fin 1) j h e) * (xq (ix4 (0 : Fin 1) q h e) * Ideal.ofBits .f32 0x3DB504F3#32) := by
  unfold k0_pay13
  simp only [matmul]
  rw [Ideal.matmul_constant_zero_apply, ← Equiv.sum_comp (contrEquiv1 dot_S1024x8x128_S32x8x128_S8x1024x32_2_2_0_0_1_1 128 rfl rfl).symm]
  refine Finset.sum_congr rfl fun e _ => ?_
  have hk := contrEquiv1_symm_val dot_S1024x8x128_S32x8x128_S8x1024x32_2_2_0_0_1_1 128 rfl rfl e
  have el : dot_S1024x8x128_S32x8x128_S8x1024x32_2_2_0_0_1_1.lhsIdx (ix3 h j q) ((contrEquiv1 dot_S1024x8x128_S32x8x128_S8x1024x32_2_2_0_0_1_1 128 rfl rfl).symm e) = ix3 j h e := funext fun a => Fin.ext (by
    match a with
    | ⟨0, _⟩ => exact score_lhs_0 _ _
    | ⟨1, _⟩ => exact score_lhs_1 _ _
    | ⟨2, _⟩ => exact (score_lhs_2 _ _).trans hk)
  have er : dot_S1024x8x128_S32x8x128_S8x1024x32_2_2_0_0_1_1.rhsIdx (ix3 h j q) ((contrEquiv1 dot_S1024x8x128_S32x8x128_S8x1024x32_2_2_0_0_1_1 128 rfl rfl).symm e) = ix3 q h e := funext fun a => Fin.ext (by
    match a with
    | ⟨0, _⟩ => exact score_rhs_0 _ _
    | ⟨1, _⟩ => exact score_rhs_1 _ _
    | ⟨2, _⟩ => exact (score_rhs_2 _ _).trans hk)
  rw [el, er, truncf_apply, truncf_apply, mulf_apply, broadcast_apply, shapeCast_1abc_abc_apply, shapeCast_1abc_abc_apply]
  rfl

/-- The weight of key `j` in the row `(h, q)`: the exponential of its score minus the row's maximum. -/
theorem prob_apply (st : FVec Ideal S8x1024x32 .f32) (m : FVec Ideal S8x32 .f32) (h : Fin 8) (q : Fin 32) (j : Fin 1024) :
    k0_pay1 (F := Ideal) st m (ix3 h j q) = Ideal.exp (st (ix3 h j q) - m (ix2 h q)) := by
  unfold k0_pay1
  rw [exp_apply, subf_apply, broadcastTo_a1b_anb_apply, shapeCast_ab_a1b_apply]

/-- The new running maximum of the row `(h, q)`: the old one joined with the maximum of the chunk's scores. -/
theorem max_apply (xq : Vec Ideal S1x32x8x128 .f32) (xk : Vec Ideal S1x1024x8x128 .f32) (m : Vec Ideal S8x32 .f32)
    (h : Fin 8) (q : Fin 32) :
    k0_pay14 (F := Ideal) xq xk m (ix2 h q)
      = Cert.Flash.mStep (fun j => k0_pay13 (F := Ideal) xq xk (ix3 h j q)) (m (ix2 h q)) := by
  unfold k0_pay14 Cert.Flash.mStep
  exact congrArg (max (m (ix2 h q))) (chunkMax_apply (k0_pay13 (F := Ideal) xq xk) h q)

/-- The rescaling factor of the row `(h, q)`: the exponential of the old maximum minus the new one. -/
theorem alpha_apply (xq : Vec Ideal S1x32x8x128 .f32) (xk : Vec Ideal S1x1024x8x128 .f32) (m : Vec Ideal S8x32 .f32)
    (h : Fin 8) (q : Fin 32) :
    k0_pay15 (F := Ideal) xq xk m (ix2 h q) = Ideal.exp (m (ix2 h q) - k0_pay14 (F := Ideal) xq xk m (ix2 h q)) := by
  unfold k0_pay15
  rfl

/-- The new normaliser of the row `(h, q)`: the old one rescaled plus the sum of the chunk's weights. -/
theorem norm_apply (st : FVec Ideal S8x1024x32 .f32) (m a : FVec Ideal S8x32 .f32) (l : Vec Ideal S8x32 .f32)
    (h : Fin 8) (q : Fin 32) :
    k0_pay4 (F := Ideal) st m a l (ix2 h q)
      = l (ix2 h q) * a (ix2 h q) + ∑ j : Fin 1024, Ideal.exp (st (ix3 h j q) - m (ix2 h q)) := by
  unfold k0_pay4
  rw [shapeCast_self, addf_apply, mulf_apply]
  refine congrArg (l (ix2 h q) * a (ix2 h q) + ·) ?_
  refine (chunkSum_apply (k0_pay1 (F := Ideal) st m) h q).trans ?_
  exact Finset.sum_congr rfl fun j _ => prob_apply st m h q j

/-! ## The second product's operand indices: weights `(h, j, q)` times values `(j, h, d)` into `(h, q, d)` -/

theorem num_lhs_0 (i : S8x32x128.Idx) (k : dot_S8x1024x32_S1024x8x128_S8x32x128_1_0_2_2_0_1.contr.Idx) :
    (dot_S8x1024x32_S1024x8x128_S8x32x128_1_0_2_2_0_1.lhsIdx i k 0).val = (i 0).val := by
  unfold DotDims.lhsIdx
  rw [dif_pos (show (0 : Fin S8x1024x32.rank) ∈ dot_S8x1024x32_S1024x8x128_S8x32x128_1_0_2_2_0_1.lhsBatch by decide)]
  rfl
theorem num_lhs_1 (i : S8x32x128.Idx) (k : dot_S8x1024x32_S1024x8x128_S8x32x128_1_0_2_2_0_1.contr.Idx) :
    (dot_S8x1024x32_S1024x8x128_S8x32x128_1_0_2_2_0_1.lhsIdx i k 1).val = (k ⟨0, by decide⟩).val :=
  dot_S8x1024x32_S1024x8x128_S8x32x128_1_0_2_2_0_1.lhsIdx_val_of_single rfl i k
theorem num_lhs_2 (i : S8x32x128.Idx) (k : dot_S8x1024x32_S1024x8x128_S8x32x128_1_0_2_2_0_1.contr.Idx) :
    (dot_S8x1024x32_S1024x8x128_S8x32x128_1_0_2_2_0_1.lhsIdx i k 2).val = (i 1).val := by
  unfold DotDims.lhsIdx
  rw [dif_neg (show ¬(2 : Fin S8x1024x32.rank) ∈ dot_S8x1024x32_S1024x8x128_S8x32x128_1_0_2_2_0_1.lhsBatch by decide), dif_pos (show (2 : Fin S8x1024x32.rank) ∈ dot_S8x1024x32_S1024x8x128_S8x32x128_1_0_2_2_0_1.lhsNonContracting by decide)]
  rfl
theorem num_rhs_0 (i : S8x32x128.Idx) (k : dot_S8x1024x32_S1024x8x128_S8x32x128_1_0_2_2_0_1.contr.Idx) :
    (dot_S8x1024x32_S1024x8x128_S8x32x128_1_0_2_2_0_1.rhsIdx i k 0).val = (k ⟨0, by decide⟩).val :=
  dot_S8x1024x32_S1024x8x128_S8x32x128_1_0_2_2_0_1.rhsIdx_val_of_single rfl i k
theorem num_rhs_1 (i : S8x32x128.Idx) (k : dot_S8x1024x32_S1024x8x128_S8x32x128_1_0_2_2_0_1.contr.Idx) :
    (dot_S8x1024x32_S1024x8x128_S8x32x128_1_0_2_2_0_1.rhsIdx i k 1).val = (i 0).val := by
  unfold DotDims.rhsIdx
  rw [dif_pos (show (1 : Fin S1024x8x128.rank) ∈ dot_S8x1024x32_S1024x8x128_S8x32x128_1_0_2_2_0_1.rhsBatch by decide)]
  rfl
theorem num_rhs_2 (i : S8x32x128.Idx) (k : dot_S8x1024x32_S1024x8x128_S8x32x128_1_0_2_2_0_1.contr.Idx) :
    (dot_S8x1024x32_S1024x8x128_S8x32x128_1_0_2_2_0_1.rhsIdx i k 2).val = (i 2).val := by
  unfold DotDims.rhsIdx
  rw [dif_neg (show ¬(2 : Fin S1024x8x128.rank) ∈ dot_S8x1024x32_S1024x8x128_S8x32x128_1_0_2_2_0_1.rhsBatch by decide), dif_pos (show (2 : Fin S1024x8x128.rank) ∈ dot_S8x1024x32_S1024x8x128_S8x32x128_1_0_2_2_0_1.rhsNonContracting by decide)]
  rfl

/-- The value block with its leading unit axis dropped, at `(j, h, d)`. -/
theorem value_apply (xv : Vec Ideal S1x1024x8x128 .f32) (j : Fin 1024) (h : Fin 8) (d : Fin 128) :
    k0_pay12 (F := Ideal) xv (ix3 j h d) = xv (ix4 (0 : Fin 1) j h d) := by
  unfold k0_pay12
  rw [truncf_apply, shapeCast_1abc_abc_apply]

/-- The new numerator of the row `(h, q)` at the output coordinate `d`: the old one rescaled plus the sum over the
    chunk's keys of weight times value coordinate. -/
theorem num_apply (xv : Vec Ideal S1x1024x8x128 .f32) (st : FVec Ideal S8x1024x32 .f32) (m a : FVec Ideal S8x32 .f32)
    (o : Vec Ideal S8x32x128 .f32) (h : Fin 8) (q : Fin 32) (d : Fin 128) :
    k0_pay2 (F := Ideal) (k0_pay12 (F := Ideal) xv) st m a o (ix3 h q d)
      = o (ix3 h q d) * a (ix2 h q)
        + ∑ j : Fin 1024, Ideal.exp (st (ix3 h j q) - m (ix2 h q)) * xv (ix4 (0 : Fin 1) j h d) := by
  unfold k0_pay2
  rw [shapeCast_self, addf_apply, mulf_apply, broadcastTo_ab1_abn_apply, shapeCast_ab_ab1_apply]
  refine congrArg (o (ix3 h q d) * a (ix2 h q) + ·) ?_
  simp only [matmul]
  rw [Ideal.matmul_constant_zero_apply, ← Equiv.sum_comp (contrEquiv1 dot_S8x1024x32_S1024x8x128_S8x32x128_1_0_2_2_0_1 1024 rfl rfl).symm]
  refine Finset.sum_congr rfl fun j _ => ?_
  have hk := contrEquiv1_symm_val dot_S8x1024x32_S1024x8x128_S8x32x128_1_0_2_2_0_1 1024 rfl rfl j
  have el : dot_S8x1024x32_S1024x8x128_S8x32x128_1_0_2_2_0_1.lhsIdx (ix3 h q d) ((contrEquiv1 dot_S8x1024x32_S1024x8x128_S8x32x128_1_0_2_2_0_1 1024 rfl rfl).symm j) = ix3 h j q := funext fun b => Fin.ext (by
    match b with
    | ⟨0, _⟩ => exact num_lhs_0 _ _
    | ⟨1, _⟩ => exact (num_lhs_1 _ _).trans hk
    | ⟨2, _⟩ => exact num_lhs_2 _ _)
  have er : dot_S8x1024x32_S1024x8x128_S8x32x128_1_0_2_2_0_1.rhsIdx (ix3 h q d) ((contrEquiv1 dot_S8x1024x32_S1024x8x128_S8x32x128_1_0_2_2_0_1 1024 rfl rfl).symm j) = ix3 j h d := funext fun b => Fin.ext (by
    match b with
    | ⟨0, _⟩ => exact (num_rhs_0 _ _).trans hk
    | ⟨1, _⟩ => exact num_rhs_1 _ _
    | ⟨2, _⟩ => exact num_rhs_2 _ _)
  rw [el, er, truncf_apply, prob_apply, value_apply]

end Cert.KernelIdeal.ChunkPayload

end

/-- info: 'Cert.KernelIdeal.ChunkPayload.score_apply' depends on axioms: [propext, Classical.choice, Quot.sound] -/
#guard_msgs in #print axioms Cert.KernelIdeal.ChunkPayload.score_apply

/-- info: 'Cert.KernelIdeal.ChunkPayload.max_apply' depends on axioms: [propext, Classical.choice, Quot.sound] -/
#guard_msgs in #print axioms Cert.KernelIdeal.ChunkPayload.max_apply

/-- info: 'Cert.KernelIdeal.ChunkPayload.alpha_apply' depends on axioms: [propext, Classical.choice, Quot.sound] -/
#guard_msgs in #print axioms Cert.KernelIdeal.ChunkPayload.alpha_apply

/-- info: 'Cert.KernelIdeal.ChunkPayload.prob_apply' depends on axioms: [propext, Classical.choice, Quot.sound] -/
#guard_msgs in #print axioms Cert.KernelIdeal.ChunkPayload.prob_apply

/-- info: 'Cert.KernelIdeal.ChunkPayload.norm_apply' depends on axioms: [propext, Classical.choice, Quot.sound] -/
#guard_msgs in #print axioms Cert.KernelIdeal.ChunkPayload.norm_apply

/-- info: 'Cert.KernelIdeal.ChunkPayload.num_apply' depends on axioms: [propext, Classical.choice, Quot.sound] -/
#guard_msgs in #print axioms Cert.KernelIdeal.ChunkPayload.num_apply
-- ==== Proof.ValueGlue.lean ====
/-
  The value bridge: the device's result, as a term over the kernel's payloads, equals the reference's result at
  every index (b, q, h, d), over the extended reals, when every input element is a finite real.

  For a row (b, h, q) and a shard z of the key axis, the score of key j of chunk c is
      (∑ e, Q[b,q,h,e] · K[b, z·4096 + c·1024 + j, h, e]) · scale
  and the value coordinate V[b, z·4096 + c·1024 + j, h, d]. The carried accumulators of a shard follow the chunked
  recurrence on these; the merge of the two shards is then the one-pass softmax row over the 8192 keys.
-/
import proofs.«900428_g7700000000000429_dist_flashdec_v7x_xyz2x2x4_y_b4_sq32_skv4096_h8_d128_f32_1_alg».proof.Proof.Trace
import proofs.«900428_g7700000000000429_dist_flashdec_v7x_xyz2x2x4_y_b4_sq32_skv4096_h8_d128_f32_1_alg».proof.Proof.FlashAlgebra
import proofs.«900428_g7700000000000429_dist_flashdec_v7x_xyz2x2x4_y_b4_sq32_skv4096_h8_d128_f32_1_alg».proof.Proof.RefValue
import proofs.«900428_g7700000000000429_dist_flashdec_v7x_xyz2x2x4_y_b4_sq32_skv4096_h8_d128_f32_1_alg».proof.Proof.ChunkPayload
import proofs.«900428_g7700000000000429_dist_flashdec_v7x_xyz2x2x4_y_b4_sq32_skv4096_h8_d128_f32_1_alg».proof.Proof.MergePayload
import Idealize.ShloMosaic.Lib.ValueIdx

noncomputable section

namespace Cert.KernelIdeal.ValueGlue

open Idealize.ShloMosaic Idealize.ShloMosaic.ValueIdx
open Cert.KernelIdeal Cert.KernelIdeal.Gen Cert.Flash
open Cert.KernelIdeal.ChunkPayload (score_apply max_apply alpha_apply norm_apply num_apply)
open Cert.KernelIdeal.MergePayload (init_m init_l init_o keep_m hand_o hand_m hand_l merge_apply)

/-- The scale word, as an extended real. -/
abbrev scale : EReal := Ideal.ofBits .f32 0x3DB504F3#32

/-- Key j of chunk c (taken mod 4) of shard z, on the whole key axis. -/
def key (z : Fin 2) (c : ℕ) (j : Fin 1024) : Fin 8192 :=
  ⟨z.val * 4096 + (c % 4) * 1024 + j.val, by
    have := z.isLt; have := Nat.mod_lt c (show 0 < 4 by decide); have := j.isLt; omega⟩

/-- For a chunk index below 4 the key is z·4096 + c·1024 + j. -/
theorem key_eq (z : Fin 2) (c : Fin 4) (j : Fin 1024) :
    key z c.val j = (⟨z.val * 4096 + c.val * 1024 + j.val, by
      have := z.isLt; have := c.isLt; have := j.isLt; omega⟩ : Fin 8192) :=
  Fin.ext (by show z.val * 4096 + c.val % 4 * 1024 + j.val = _; rw [Nat.mod_eq_of_lt c.isLt])

/-- The score of key j of chunk c of shard z for the row (b, h, q). -/
def sK (Q : (⟨S4x32x8x128, .f32⟩ : BufTy).Contents (Elt Ideal))
    (K : (⟨Cert.ReferenceIdeal.S4x8192x8x128, .f32⟩ : BufTy).Contents (Elt Ideal))
    (b : Fin 4) (h : Fin 8) (q : Fin 32) (z : Fin 2) (c : ℕ) (j : Fin 1024) : EReal :=
  (∑ e : Fin 128, Q (ix4 b q h e) * K (ix4 b (key z c j) h e)) * scale

/-- The value coordinate d of key j of chunk c of shard z for the batch entry b and head h. -/
def vK (V : (⟨Cert.ReferenceIdeal.S4x8192x8x128, .f32⟩ : BufTy).Contents (Elt Ideal))
    (b : Fin 4) (h : Fin 8) (d : Fin 128) (z : Fin 2) (c : ℕ) (j : Fin 1024) : EReal :=
  V (ix4 b (key z c j) h d)

/-- A product of two finite extended reals is finite. -/
theorem mul_finite {a b : EReal} (ha : a ≠ ⊥ ∧ a ≠ ⊤) (hb : b ≠ ⊥ ∧ b ≠ ⊤) : a * b ≠ ⊥ ∧ a * b ≠ ⊤ := by
  obtain ⟨α, rfl⟩ : ∃ α : ℝ, a = (α : EReal) := ⟨a.toReal, (EReal.coe_toReal ha.2 ha.1).symm⟩
  obtain ⟨β, rfl⟩ : ∃ β : ℝ, b = (β : EReal) := ⟨b.toReal, (EReal.coe_toReal hb.2 hb.1).symm⟩
  rw [← EReal.coe_mul]; exact ⟨EReal.coe_ne_bot _, EReal.coe_ne_top _⟩

/-- Every score is finite when the queries and keys are. -/
theorem sK_finite (Q : (⟨S4x32x8x128, .f32⟩ : BufTy).Contents (Elt Ideal))
    (K : (⟨Cert.ReferenceIdeal.S4x8192x8x128, .f32⟩ : BufTy).Contents (Elt Ideal))
    (hQ : ∀ i, Q i ≠ ⊥ ∧ Q i ≠ ⊤) (hK : ∀ i, K i ≠ ⊥ ∧ K i ≠ ⊤)
    (b : Fin 4) (h : Fin 8) (q : Fin 32) (z : Fin 2) (c : ℕ) (j : Fin 1024) :
    sK Q K b h q z c j ≠ ⊥ ∧ sK Q K b h q z c j ≠ ⊤ :=
  mul_finite (sum_mul_finite (fun e => Q (ix4 b q h e)) (fun e => K (ix4 b (key z c j) h e))
    (fun e => hQ _) (fun e => hK _)) scale_finite

/-! ### One chunk's score, by key -/

/-- The chunk's score payload at (h, j, q), with the staged blocks read back through the whole arrays. -/
theorem score_eq (Q : (⟨S4x32x8x128, .f32⟩ : BufTy).Contents (Elt Ideal))
    (K : (⟨Cert.ReferenceIdeal.S4x8192x8x128, .f32⟩ : BufTy).Contents (Elt Ideal))
    (hQ : ∀ i, Q i ≠ ⊥ ∧ Q i ≠ ⊤) (hK : ∀ i, K i ≠ ⊥ ∧ K i ≠ ⊤) (z : Fin 2)
    (XQ : Fin 4 → Vec Ideal S1x32x8x128 .f32) (XKz : Fin 4 → Fin 4 → Vec Ideal S1x1024x8x128 .f32)
    (hXQ : ∀ (b : Fin 4) (q : Fin 32) (h : Fin 8) (e : Fin 128), XQ b (ix4 (0 : Fin 1) q h e) = Q (ix4 b q h e))
    (hXKz : ∀ (b k : Fin 4) (j : Fin 1024) (h : Fin 8) (e : Fin 128), XKz b k (ix4 (0 : Fin 1) j h e)
      = K (ix4 b (⟨z.val * 4096 + k.val * 1024 + j.val, by have := z.isLt; have := k.isLt; have := j.isLt; omega⟩ : Fin 8192) h e))
    (b : Fin 4) (h : Fin 8) (q : Fin 32) (c : ℕ) (j : Fin 1024) :
    k0_pay13 (F := Ideal) (XQ b) (XKz b ⟨c % 4, Nat.mod_lt _ (by decide)⟩) (ix3 h j q) = sK Q K b h q z c j := by
  rw [score_apply]
  have h1 : ∀ e : Fin 128, XKz b ⟨c % 4, Nat.mod_lt _ (by decide)⟩ (ix4 (0 : Fin 1) j h e)
      * (XQ b (ix4 (0 : Fin 1) q h e) * Ideal.ofBits .f32 0x3DB504F3#32)
      = K (ix4 b (key z c j) h e) * (Q (ix4 b q h e) * scale) := fun e => by
    rw [hXQ, hXKz]; rfl
  rw [Finset.sum_congr rfl (fun e _ => h1 e)]
  exact sum_mul_scale (fun e => Q (ix4 b q h e)) (fun e => K (ix4 b (key z c j) h e)) scale
    (fun e => hQ _) (fun e => hK _) scale_finite

/-! ### One chunk step of the accumulators, read at a row -/

/-- One chunk step at the row (h, q) and coordinate d, from the carried triple (m, l, o) at that row. -/
theorem chunk_step (xq : Vec Ideal S1x32x8x128 .f32) (xk xv : Vec Ideal S1x1024x8x128 .f32) (a : Trace.Acc Ideal)
    (h : Fin 8) (q : Fin 32) (d : Fin 128) (sc vc : Fin 1024 → EReal) (m l o : EReal)
    (hsc : ∀ j, k0_pay13 (F := Ideal) xq xk (ix3 h j q) = sc j) (hvc : ∀ j, xv (ix4 (0 : Fin 1) j h d) = vc j)
    (hm : a.m (ix2 h q) = m) (hl : a.l (ix2 h q) = l) (ho : a.o (ix3 h q d) = o) :
    (Trace.chunk xq xk xv a).m (ix2 h q) = mStep sc m
      ∧ (Trace.chunk xq xk xv a).l (ix2 h q)
          = l * Ideal.exp (m - mStep sc m) + ∑ j : Fin 1024, Ideal.exp (sc j - mStep sc m)
      ∧ (Trace.chunk xq xk xv a).o (ix3 h q d)
          = o * Ideal.exp (m - mStep sc m) + ∑ j : Fin 1024, Ideal.exp (sc j - mStep sc m) * vc j := by
  have hmax : k0_pay14 (F := Ideal) xq xk a.m (ix2 h q) = mStep sc m := by
    rw [max_apply, hm, funext hsc]
  refine ⟨?_, ?_, ?_⟩
  · show k0_pay3 (F := Ideal) (k0_pay14 xq xk a.m) (ix2 h q) = _
    rw [keep_m]; exact hmax
  · show k0_pay4 (F := Ideal) (k0_pay13 xq xk) (k0_pay14 xq xk a.m) (k0_pay15 xq xk a.m) a.l (ix2 h q) = _
    rw [norm_apply, alpha_apply, hmax, hm, hl]
    simp only [hsc]
  · show k0_pay2 (F := Ideal) (k0_pay12 xv) (k0_pay13 xq xk) (k0_pay14 xq xk a.m) (k0_pay15 xq xk a.m) a.o
      (ix3 h q d) = _
    rw [num_apply, alpha_apply, hmax, hm, ho]
    simp only [hsc, hvc]

/-- The accumulators of batch entry b after k chunks, at the row (h, q) and coordinate d, follow the chunked
    recurrence on the chunks' scores and values. -/
theorem acc_eq (XQ : Fin 4 → Vec Ideal S1x32x8x128 .f32) (XK XV : Fin 4 → Fin 4 → Vec Ideal S1x1024x8x128 .f32)
    (b : Fin 4) (h : Fin 8) (q : Fin 32) (d : Fin 128) (s v : ℕ → Fin 1024 → EReal)
    (hs : ∀ (c : ℕ) (j : Fin 1024),
      k0_pay13 (F := Ideal) (XQ b) (XK b ⟨c % 4, Nat.mod_lt _ (by decide)⟩) (ix3 h j q) = s c j)
    (hv : ∀ (c : ℕ) (j : Fin 1024), XV b ⟨c % 4, Nat.mod_lt _ (by decide)⟩ (ix4 (0 : Fin 1) j h d) = v c j)
    (k : ℕ) :
    (Trace.accAt XQ XK XV b k).m (ix2 h q) = mAfter s k ∧ (Trace.accAt XQ XK XV b k).l (ix2 h q) = lAfter s k
      ∧ (Trace.accAt XQ XK XV b k).o (ix3 h q d) = oAfter s v k := by
  induction k with
  | zero => exact ⟨init_m h q, init_l h q, init_o h q d⟩
  | succ k ih =>
    obtain ⟨hm, hl, ho⟩ := ih
    exact chunk_step (XQ b) (XK b ⟨k % 4, Nat.mod_lt _ (by decide)⟩) (XV b ⟨k % 4, Nat.mod_lt _ (by decide)⟩)
      (Trace.accAt XQ XK XV b k) h q d (s k) (v k) _ _ _ (hs k) (hv k) hm hl ho

/-! ### The handed-over buffers, read at a row -/

theorem stat_m (XQ : Fin 4 → Vec Ideal S1x32x8x128 .f32) (XK XV : Fin 4 → Fin 4 → Vec Ideal S1x1024x8x128 .f32)
    (b : Fin 4) (h : Fin 8) (q : Fin 32) :
    Trace.statRow (Trace.statBuf XQ XK XV) 0 (ix4 b (0 : Fin 1) h q) = (Trace.accAt XQ XK XV b 4).m (ix2 h q) := by
  show (if ((0 : Fin 2)).val = 0
    then k0_pay6 (F := Ideal) (Trace.accAt XQ XK XV b 4).m (ix4 (0 : Fin 1) (0 : Fin 1) h q)
    else k0_pay7 (F := Ideal) (Trace.accAt XQ XK XV b 4).l (ix4 (0 : Fin 1) (0 : Fin 1) h q)) = _
  rw [if_pos (show ((0 : Fin 2)).val = 0 from rfl)]; exact hand_m _ h q

theorem stat_l (XQ : Fin 4 → Vec Ideal S1x32x8x128 .f32) (XK XV : Fin 4 → Fin 4 → Vec Ideal S1x1024x8x128 .f32)
    (b : Fin 4) (h : Fin 8) (q : Fin 32) :
    Trace.statRow (Trace.statBuf XQ XK XV) 1 (ix4 b (0 : Fin 1) h q) = (Trace.accAt XQ XK XV b 4).l (ix2 h q) := by
  show (if ((1 : Fin 2)).val = 0
    then k0_pay6 (F := Ideal) (Trace.accAt XQ XK XV b 4).m (ix4 (0 : Fin 1) (0 : Fin 1) h q)
    else k0_pay7 (F := Ideal) (Trace.accAt XQ XK XV b 4).l (ix4 (0 : Fin 1) (0 : Fin 1) h q)) = _
  rw [if_neg (by decide)]; exact hand_l _ h q

theorem out_o (XQ : Fin 4 → Vec Ideal S1x32x8x128 .f32) (XK XV : Fin 4 → Fin 4 → Vec Ideal S1x1024x8x128 .f32)
    (b : Fin 4) (q : Fin 32) (h : Fin 8) (d : Fin 128) :
    Trace.outBuf XQ XK XV (ix4 b q h d) = (Trace.accAt XQ XK XV b 4).o (ix3 h q d) := by
  show k0_pay5 (F := Ideal) (Trace.accAt XQ XK XV b 4).o (ix4 (0 : Fin 1) q h d) = _
  exact hand_o _ h q d

/-! ### The identity -/

/-- The device's merged result at (b, q, h, d) equals the reference's result there. -/
theorem merged_eq_ref
    (Q : (⟨S4x32x8x128, .f32⟩ : BufTy).Contents (Elt Ideal))
    (K V : (⟨Cert.ReferenceIdeal.S4x8192x8x128, .f32⟩ : BufTy).Contents (Elt Ideal))
    (hQ : ∀ i, Q i ≠ ⊥ ∧ Q i ≠ ⊤) (hK : ∀ i, K i ≠ ⊥ ∧ K i ≠ ⊤) (hV : ∀ i, V i ≠ ⊥ ∧ V i ≠ ⊤)
    (y y' : Fin 2) (hy : y' ≠ y)
    (XQ : Fin 4 → Vec Ideal S1x32x8x128 .f32) (XK XV XK' XV' : Fin 4 → Fin 4 → Vec Ideal S1x1024x8x128 .f32)
    (hXQ : ∀ (b : Fin 4) (q : Fin 32) (h : Fin 8) (e : Fin 128), XQ b (ix4 (0 : Fin 1) q h e) = Q (ix4 b q h e))
    (hXK : ∀ (b k : Fin 4) (j : Fin 1024) (h : Fin 8) (e : Fin 128), XK b k (ix4 (0 : Fin 1) j h e)
      = K (ix4 b ⟨y.val * 4096 + k.val * 1024 + j.val, by have := y.isLt; have := k.isLt; have := j.isLt; omega⟩ h e))
    (hXV : ∀ (b k : Fin 4) (j : Fin 1024) (h : Fin 8) (e : Fin 128), XV b k (ix4 (0 : Fin 1) j h e)
      = V (ix4 b ⟨y.val * 4096 + k.val * 1024 + j.val, by have := y.isLt; have := k.isLt; have := j.isLt; omega⟩ h e))
    (hXK' : ∀ (b k : Fin 4) (j : Fin 1024) (h : Fin 8) (e : Fin 128), XK' b k (ix4 (0 : Fin 1) j h e)
      = K (ix4 b ⟨y'.val * 4096 + k.val * 1024 + j.val, by have := y'.isLt; have := k.isLt; have := j.isLt; omega⟩ h e))
    (hXV' : ∀ (b k : Fin 4) (j : Fin 1024) (h : Fin 8) (e : Fin 128), XV' b k (ix4 (0 : Fin 1) j h e)
      = V (ix4 b ⟨y'.val * 4096 + k.val * 1024 + j.val, by have := y'.isLt; have := k.isLt; have := j.isLt; omega⟩ h e))
    (b : Fin 4) (q : Fin 32) (h : Fin 8) (d : Fin 128) :
    Cert.KernelIdeal.Trace.merged (Cert.KernelIdeal.Trace.statBuf XQ XK XV) (Cert.KernelIdeal.Trace.statBuf XQ XK' XV')
        (Cert.KernelIdeal.Trace.outBuf XQ XK XV) (Cert.KernelIdeal.Trace.outBuf XQ XK' XV') (ix4 b q h d)
      = Cert.ReferenceIdeal.Read.val_main_v13 (F := Ideal) Q K V (ix4 b q h d) := by
  -- the two shards' accumulators after their four chunks
  obtain ⟨hm, hl, ho⟩ := acc_eq XQ XK XV b h q d (sK Q K b h q y) (vK V b h d y)
    (fun c j => score_eq Q K hQ hK y XQ XK hXQ hXK b h q c j) (fun c j => hXV b ⟨c % 4, Nat.mod_lt _ (by decide)⟩ j h d) 4
  obtain ⟨hm', hl', ho'⟩ := acc_eq XQ XK' XV' b h q d (sK Q K b h q y') (vK V b h d y')
    (fun c j => score_eq Q K hQ hK y' XQ XK' hXQ hXK' b h q c j)
    (fun c j => hXV' b ⟨c % 4, Nat.mod_lt _ (by decide)⟩ j h d) 4
  -- the merge, as the two-shard identity
  have hL : Cert.KernelIdeal.Trace.merged (Cert.KernelIdeal.Trace.statBuf XQ XK XV)
        (Cert.KernelIdeal.Trace.statBuf XQ XK' XV') (Cert.KernelIdeal.Trace.outBuf XQ XK XV)
        (Cert.KernelIdeal.Trace.outBuf XQ XK' XV') (ix4 b q h d)
      = softmaxRow (κ := Fin 2 × Fin 4 × Fin 1024) (fun x => sK Q K b h q x.1 x.2.1 x.2.2)
          (fun x => vK V b h d x.1 x.2.1 x.2.2) := by
    unfold Trace.merged
    rw [merge_apply, stat_m XQ XK XV, stat_l XQ XK XV, stat_m XQ XK' XV', stat_l XQ XK' XV', out_o XQ XK XV,
      out_o XQ XK' XV', hm, hl, ho, hm', hl', ho']
    exact combine_eq_softmaxRow (nc := 4) (nj := 1024) (by decide) (by decide) (fun z => sK Q K b h q z)
      (fun z => vK V b h d z) (fun z c j _ => sK_finite Q K hQ hK b h q z c j) (fun z c j _ => hV _) y y' hy
  rw [hL, Cert.RefValue.ref_apply, Cert.RefValue.softmaxRow_split]
  refine congrArg₂ (softmaxRow (κ := Fin 2 × Fin 4 × Fin 1024)) (funext fun x => ?_) (funext fun x => ?_)
  · show (∑ e : Fin 128, Q (ix4 b q h e) * K (ix4 b (key x.1 x.2.1.val x.2.2) h e)) * scale = _
    rw [key_eq]
  · show V (ix4 b (key x.1 x.2.1.val x.2.2) h d) = _
    rw [key_eq]

/-- info: 'Cert.KernelIdeal.ValueGlue.merged_eq_ref' depends on axioms: [propext, Classical.choice, Quot.sound] -/
#guard_msgs in #print axioms merged_eq_ref

end Cert.KernelIdeal.ValueGlue

end
-- ==== Proof.ResultValue.lean ====
/-
  The device's result at the certificate's own data equals the reference's result.

  On device c the staged query block of batch entry b is the replicated query array's rows of b; the staged key and
  value blocks of chunk k of b are the rows (c / 4 % 2) · 4096 + k · 1024 + j of the whole key and value arrays, the
  device holding the half of the key axis its second mesh coordinate c / 4 % 2 names; its partner holds the other half.
  So the merge of the two devices' accumulators is the one-pass softmax row over all 8192 keys.
-/
import proofs.«900428_g7700000000000429_dist_flashdec_v7x_xyz2x2x4_y_b4_sq32_skv4096_h8_d128_f32_1_alg».proof.Proof.Data
import proofs.«900428_g7700000000000429_dist_flashdec_v7x_xyz2x2x4_y_b4_sq32_skv4096_h8_d128_f32_1_alg».proof.Proof.InputFacts
import proofs.«900428_g7700000000000429_dist_flashdec_v7x_xyz2x2x4_y_b4_sq32_skv4096_h8_d128_f32_1_alg».proof.Proof.ValueGlue

noncomputable section

namespace Cert.KernelIdealProof

open Cert.KernelIdeal Cert.KernelIdeal.Gen
open Idealize.ShloMosaic Idealize.ShloMosaic.ValueIdx Idealize.SL.Sem
open Cert.KernelIdeal.InputFacts (iblk0_apply iblk1_apply iblk2_apply finite_whole)
open Cert.KernelIdeal.MergePayload (block_apply)

/-- The half of the key axis device c holds: its second mesh coordinate. -/
def shard (c : Dev nD) : Fin 2 := ⟨c.val / 4 % 2, Nat.mod_lt _ (by decide)⟩

/-- The partner holds the other half. -/
theorem shard_nbr (c : Dev nD) : shard (nbr c) ≠ shard c := by revert c; decide

theorem pt_div (b k : Fin 4) : (pt b k).val / 4 = b.val := by
  have := k.isLt
  show (4 * b.val + k.val) / 4 = b.val
  omega

theorem pt_mod (b k : Fin 4) : (pt b k).val % 4 = k.val := by
  have := k.isLt
  show (4 * b.val + k.val) % 4 = k.val
  omega

/-- Two rank-4 indices with equal first two coordinates and the same last two are equal. -/
theorem ix4_congr {n0 n1 n2 n3 : ℕ} {a a' : Fin n0} {b b' : Fin n1} (ha : a = a') (hb : b = b') (c : Fin n2)
    (d : Fin n3) : ix4 a b c d = ix4 a' b' c d := by subst ha; subst hb; rfl

section Arrays

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The reference's whole query, key and value arrays. -/
abbrev refQ := m' (((0 : Dev Cert.ReferenceIdeal.nD).tc : Thread Cert.ReferenceIdeal.nD Cert.ReferenceIdeal.τ).loc Cert.ReferenceIdeal.main_arg0)
abbrev refK := m' (((0 : Dev Cert.ReferenceIdeal.nD).tc : Thread Cert.ReferenceIdeal.nD Cert.ReferenceIdeal.τ).loc Cert.ReferenceIdeal.main_arg1)
abbrev refV := m' (((0 : Dev Cert.ReferenceIdeal.nD).tc : Thread Cert.ReferenceIdeal.nD Cert.ReferenceIdeal.τ).loc Cert.ReferenceIdeal.main_arg2)

/-- Every device's query array is the whole one; its key and value arrays are its half of the whole ones. -/
def Agree : Prop :=
  ∀ c : Dev Cert.KernelIdeal.nD,
    m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
    ∧ m ((c.tc : Thread Cert.KernelIdeal.nD Cert.KernelIdeal.τ).loc Cert.KernelIdeal.main_arg1) = Layout.blockN ⟨4, ![4, 4096, 8, 128]⟩ ⟨4, ![4, 8192, 8, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg1))
    ∧ m ((c.tc : Thread Cert.KernelIdeal.nD Cert.KernelIdeal.τ).loc Cert.KernelIdeal.main_arg2) = Layout.blockN ⟨4, ![4, 4096, 8, 128]⟩ ⟨4, ![4, 8192, 8, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg2))

/-- The staged query block of batch entry b, by coordinates. -/
theorem XQ_apply (hagree : Agree m m') (c : Dev nD) (b : Fin 4) (q : Fin 32) (h : Fin 8) (e : Fin 128) :
    XQ m c b (ix4 (0 : Fin 1) q h e) = refQ m' (ix4 b q h e) :=
  (iblk0_apply m c (pt b 0) q h e).trans <|
    (congrFun (hagree c).1 _).trans <|
      congrArg (refQ m') (ix4_congr (Fin.ext (pt_div b 0)) rfl h e)

/-- The staged key block of chunk k of batch entry b, by coordinates. -/
theorem XK_apply (hagree : Agree m m') (c : Dev nD) (b k : Fin 4) (j : Fin 1024) (h : Fin 8) (e : Fin 128) :
    XK m c b k (ix4 (0 : Fin 1) j h e)
      = refK m' (ix4 b (⟨(shard c).val * 4096 + k.val * 1024 + j.val, by
          have := (shard c).isLt; have := k.isLt; have := j.isLt; omega⟩ : Fin 8192) h e) :=
  (iblk1_apply m c (pt b k) j h e).trans <|
    (congrFun (hagree c).2.1 _).trans <|
      (block_apply c (refK m') _ _ h e).trans <|
        congrArg (refK m') (ix4_congr (Fin.ext (pt_div b k)) (Fin.ext (by
          show c.val / 4 % 2 * 4096 + ((pt b k).val % 4 * 1024 + j.val) = c.val / 4 % 2 * 4096 + k.val * 1024 + j.val
          rw [pt_mod]; omega)) h e)

/-- The staged value block of chunk k of batch entry b, by coordinates. -/
theorem XV_apply (hagree : Agree m m') (c : Dev nD) (b k : Fin 4) (j : Fin 1024) (h : Fin 8) (e : Fin 128) :
    XV m c b k (ix4 (0 : Fin 1) j h e)
      = refV m' (ix4 b (⟨(shard c).val * 4096 + k.val * 1024 + j.val, by
          have := (shard c).isLt; have := k.isLt; have := j.isLt; omega⟩ : Fin 8192) h e) :=
  (iblk2_apply m c (pt b k) j h e).trans <|
    (congrFun (hagree c).2.2 _).trans <|
      (block_apply c (refV m') _ _ h e).trans <|
        congrArg (refV m') (ix4_congr (Fin.ext (pt_div b k)) (Fin.ext (by
          show c.val / 4 % 2 * 4096 + ((pt b k).val % 4 * 1024 + j.val) = c.val / 4 % 2 * 4096 + k.val * 1024 + j.val
          rw [pt_mod]; omega)) h e)

/-- The query array is replicated: the partner stages the same query blocks. -/
theorem XQ_nbr (hagree : Agree m m') (c : Dev nD) : XQ m (nbr c) = XQ m c :=
  funext fun b => funext fun i => by
    obtain ⟨u, q, h, e, rfl⟩ : ∃ (u : Fin 1) (q : Fin 32) (h : Fin 8) (e : Fin 128), i = ix4 u q h e :=
      ⟨i 0, i 1, i 2, i 3, eq_ix4 i⟩
    obtain rfl : u = 0 := Subsingleton.elim _ _
    rw [XQ_apply m m' hagree, XQ_apply m m' hagree]

end Arrays

/-! ### The identity -/

/-- On every device the merged result equals the reference's result, when the inputs are finite and the devices'
    arrays are the whole query array and their halves of the whole key and value arrays. -/
theorem OUT_eq_ref [Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![4, 4096, 8, 128]⟩ ⟨4, ![4, 8192, 8, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![4, 4096, 8, 128]⟩ ⟨4, ![4, 8192, 8, 128]⟩ (Layout.meshBlock [2, 2, 4] ![[], [1], [], []] c) (m' (((0 : Dev Cert.ReferenceIdeal.nD).tc : Thread Cert.ReferenceIdeal.nD Cert.ReferenceIdeal.τ).loc Cert.ReferenceIdeal.main_arg2)))
    (c : Dev Cert.KernelIdeal.nD) :
    OUT (F := Ideal) m c
      = Cert.ReferenceIdeal.Read.val_main_v13 (F := Ideal)
          (m' (((0 : Dev Cert.ReferenceIdeal.nD).tc : Thread Cert.ReferenceIdeal.nD Cert.ReferenceIdeal.τ).loc Cert.ReferenceIdeal.main_arg0))
          (m' (((0 : Dev Cert.ReferenceIdeal.nD).tc : Thread Cert.ReferenceIdeal.nD Cert.ReferenceIdeal.τ).loc Cert.ReferenceIdeal.main_arg1))
          (m' (((0 : Dev Cert.ReferenceIdeal.nD).tc : Thread Cert.ReferenceIdeal.nD Cert.ReferenceIdeal.τ).loc Cert.ReferenceIdeal.main_arg2)) := by
  obtain ⟨hQ, hK, hV⟩ := finite_whole m m' hpre hagree
  funext i
  obtain ⟨b, q, h, d, rfl⟩ : ∃ (b : Fin 4) (q : Fin 32) (h : Fin 8) (d : Fin 128), i = ix4 b q h d :=
    ⟨i 0, i 1, i 2, i 3, eq_ix4 i⟩
  unfold OUT SV OV
  rw [XQ_nbr m m' hagree c]
  exact Cert.KernelIdeal.ValueGlue.merged_eq_ref (refQ m') (refK m') (refV m') hQ hK hV (shard c) (shard (nbr c))
    (shard_nbr c) (XQ m c) (XK m c) (XV m c) (XK m (nbr c)) (XV m (nbr c)) (XQ_apply m m' hagree c)
    (XK_apply m m' hagree c) (XV_apply m m' hagree c) (XK_apply m m' hagree (nbr c)) (XV_apply m m' hagree (nbr c))
    b q h d

/-- The same against any term equal to the reference's last stage (the reference run states its result as such a
    term). -/
theorem OUT_eq_of_ref_eq [Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (hagree : Agree m m') (c : Dev Cert.KernelIdeal.nD)
    (T : (⟨Cert.ReferenceIdeal.S4x32x8x128, .f32⟩ : BufTy).Contents (Elt Ideal))
    (hT : T = Cert.ReferenceIdeal.Read.val_main_v13 (F := Ideal) (refQ m') (refK m') (refV m')) :
    OUT (F := Ideal) m c = T :=
  (OUT_eq_ref m m' hpre hagree c).trans hT.symm

/-- info: 'Cert.KernelIdealProof.OUT_eq_ref' depends on axioms: [propext, Classical.choice, Quot.sound] -/
#guard_msgs in #print axioms OUT_eq_ref

/-- info: 'Cert.KernelIdealProof.OUT_eq_of_ref_eq' depends on axioms: [propext, Classical.choice, Quot.sound] -/
#guard_msgs in #print axioms OUT_eq_of_ref_eq

end Cert.KernelIdealProof

end
-- ==== Proof.Claims.lean ====
/-
  The certificate's claims about the two ideal programs, assembled from the kernel's run, the reading of its final
  arrays, the value of its result and the reference's run. The kernel's body obligation at every device is taken as
  a hypothesis.
-/
import proofs.«900428_g7700000000000429_dist_flashdec_v7x_xyz2x2x4_y_b4_sq32_skv4096_h8_d128_f32_1_alg».proof.Defs
import proofs.«900428_g7700000000000429_dist_flashdec_v7x_xyz2x2x4_y_b4_sq32_skv4096_h8_d128_f32_1_alg».proof.Proof.Launch
import proofs.«900428_g7700000000000429_dist_flashdec_v7x_xyz2x2x4_y_b4_sq32_skv4096_h8_d128_f32_1_alg».proof.Proof.Slices
import proofs.«900428_g7700000000000429_dist_flashdec_v7x_xyz2x2x4_y_b4_sq32_skv4096_h8_d128_f32_1_alg».proof.Proof.FinalArrays
import proofs.«900428_g7700000000000429_dist_flashdec_v7x_xyz2x2x4_y_b4_sq32_skv4096_h8_d128_f32_1_alg».proof.Proof.ResultValue
import proofs.«900428_g7700000000000429_dist_flashdec_v7x_xyz2x2x4_y_b4_sq32_skv4096_h8_d128_f32_1_alg».proof.Proof.Gen.KernelIdeal
import proofs.«900428_g7700000000000429_dist_flashdec_v7x_xyz2x2x4_y_b4_sq32_skv4096_h8_d128_f32_1_alg».proof.Proof.Gen.ReferenceIdeal
import proofs.«900428_g7700000000000429_dist_flashdec_v7x_xyz2x2x4_y_b4_sq32_skv4096_h8_d128_f32_1_alg».proof.Proof.Gen.ReferenceIdeal.Run
import proofs.«900428_g7700000000000429_dist_flashdec_v7x_xyz2x2x4_y_b4_sq32_skv4096_h8_d128_f32_1_alg».proof.Proof.Gen.ReferenceIdeal.Read
import proofs.«900428_g7700000000000429_dist_flashdec_v7x_xyz2x2x4_y_b4_sq32_skv4096_h8_d128_f32_1_alg».proof.Proof.Gen.Pre_finite_inputs_Kernel
import proofs.«900428_g7700000000000429_dist_flashdec_v7x_xyz2x2x4_y_b4_sq32_skv4096_h8_d128_f32_1_alg».proof.Proof.Gen.Pre_finite_inputs_ReferenceIdeal

noncomputable section

open Idealize.ShloMosaic Idealize.ShloMosaic.TcCoe Idealize.SL.Sem

namespace Cert.Proof.Claims

/-- The reference runs and leaves its arguments unchanged: its run, with the result's value dropped. -/
theorem frame_ri : Cert.frame_ReferenceIdeal (hReferenceIdeal := Cert.ReferenceIdeal.Gen.facts)
    (hPre_finite_inputs_ReferenceIdeal := Cert.Pre_finite_inputs_ReferenceIdeal.Gen.facts) := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The ideal kernel runs and leaves its arguments unchanged, given every device's body obligation. -/
theorem frame_pi
    (hbody : ∀ (m : (ℓ : Loc Cert.KernelIdeal.nD Cert.KernelIdeal.τ Cert.KernelIdeal.sig) → Buf (Elt Ideal) ℓ) (c : Dev Cert.KernelIdeal.nD),
      Pipeline.BodyObligationLoose (Cert.KernelIdealProof.dats (F := Ideal) m 0 c) (Cert.KernelIdeal.defs₀ (F := Ideal)) Cert.KernelIdealProof.𝒱₀ () Set.univ) :
    Cert.frame_KernelIdeal (hKernelIdeal := Cert.KernelIdeal.Gen.facts)
      (hPre_finite_inputs_Kernel := Cert.Pre_finite_inputs_Kernel.Gen.facts) := fun m ρ _ =>
  (θ_run Cert.KernelIdeal.defs _ _).mono (fun r h c => Cert.KernelIdealProof.post_frame m r h c)
    (Cert.KernelIdealProof.run_main m ρ Cert.KernelIdealProof.ob_split Cert.KernelIdealProof.sb_split
      Cert.KernelIdealProof.rob_split Cert.KernelIdealProof.rsb_split (hbody m))

/-- Over the extended reals, from finite inputs of which each device holds the whole query array and its half of the
    key and value arrays: both programs run, every device's result array ends at the reference's result, and all
    arguments end unchanged — given every device's body obligation. -/
theorem algebraic
    (hbody : ∀ (m : (ℓ : Loc Cert.KernelIdeal.nD Cert.KernelIdeal.τ Cert.KernelIdeal.sig) → Buf (Elt Ideal) ℓ) (c : Dev Cert.KernelIdeal.nD),
      Pipeline.BodyObligationLoose (Cert.KernelIdealProof.dats (F := Ideal) m 0 c) (Cert.KernelIdeal.defs₀ (F := Ideal)) Cert.KernelIdealProof.𝒱₀ () Set.univ) :
    Cert.algebraic_KernelIdeal_ReferenceIdeal (hKernelIdeal := Cert.KernelIdeal.Gen.facts)
      (hReferenceIdeal := Cert.ReferenceIdeal.Gen.facts)
      (hPre_finite_inputs_Kernel := Cert.Pre_finite_inputs_Kernel.Gen.facts) := by
  intro m ρ m' ρ' hpre hagree
  refine ⟨Cert.ReferenceIdeal.Read.val_main_v13 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    ?_, ?_⟩
  · refine (θ_run Cert.KernelIdeal.defs _ _).mono (fun r h c => ?_)
      (Cert.KernelIdealProof.run_main m ρ Cert.KernelIdealProof.ob_split Cert.KernelIdealProof.sb_split
        Cert.KernelIdealProof.rob_split Cert.KernelIdealProof.rsb_split (hbody m))
    have hv := Cert.KernelIdealProof.post_value m r h c
    exact ⟨hv.1.trans (Cert.KernelIdealProof.OUT_eq_ref m m' hpre hagree c), hv.2⟩
  · refine (θ_run Cert.ReferenceIdeal.defs _ _).mono (fun _ h => ⟨(h 0).1.trans ?_, (h 0).2⟩)
      (Cert.ReferenceIdeal.Value.run (F := Ideal) m' ρ')
    exact Cert.ReferenceIdeal.Read.val_main_v13_eq _ _ _

end Cert.Proof.Claims

end

/-- info: 'Cert.Proof.Claims.frame_ri' depends on axioms: [propext, Classical.choice, Quot.sound] -/
#guard_msgs in #print axioms Cert.Proof.Claims.frame_ri
/-- info: 'Cert.Proof.Claims.preserves' does not depend on any axioms -/
#guard_msgs in #print axioms Cert.Proof.Claims.preserves
/-- info: 'Cert.Proof.Claims.frame_pi' depends on axioms: [propext, Classical.choice, Quot.sound] -/
#guard_msgs in #print axioms Cert.Proof.Claims.frame_pi
/-- info: 'Cert.Proof.Claims.algebraic' depends on axioms: [propext, Classical.choice, Quot.sound] -/
#guard_msgs in #print axioms Cert.Proof.Claims.algebraic
-- ==== Proof.KProtocol.lean ====
/-
  The cross-device protocol of the attention kernel, on the mesh of sixteen devices.

  Every device has exactly one partner: the device whose position differs in the second mesh coordinate only
  (`nbr`, an involution). A device meets its partner three ways: one unit on the partner's barrier semaphore
  when the first batch entry is finished; for each of the four batch entries one copy of its unnormalised output
  rows into the partner's receive buffer and one copy of its two statistics rows into the partner's statistics
  receive buffer. Each copy credits a send cell on the sender and a receive cell on the partner, so a device has
  seventeen cells: its barrier cell and, per batch entry, output-send, output-receive, statistics-send and
  statistics-receive.
-/
import proofs.«900428_g7700000000000429_dist_flashdec_v7x_xyz2x2x4_y_b4_sq32_skv4096_h8_d128_f32_1_alg».proof.Proof.Gen.Kernel
import proofs.«900428_g7700000000000429_dist_flashdec_v7x_xyz2x2x4_y_b4_sq32_skv4096_h8_d128_f32_1_alg».proof.Proof.Gen.Kernel.Skeleton
import proofs.«900428_g7700000000000429_dist_flashdec_v7x_xyz2x2x4_y_b4_sq32_skv4096_h8_d128_f32_1_alg».proof.Proof.Gen.Kernel.Launch
import proofs.«900428_g7700000000000429_dist_flashdec_v7x_xyz2x2x4_y_b4_sq32_skv4096_h8_d128_f32_1_alg».proof.Proof.Gen.Kernel.Points
import proofs.«900428_g7700000000000429_dist_flashdec_v7x_xyz2x2x4_y_b4_sq32_skv4096_h8_d128_f32_1_alg».proof.Proof.Gen.Kernel.Frame
import Idealize.ShloMosaic.Lib.Pipeline.Launch
import Idealize.ShloMosaic.Lib.Pipeline.Kit
import Idealize.ShloMosaic.Lib.Tactic

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy and the protocol's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partner -/

/-- The device whose second mesh coordinate is the other one: the id with bit 2 flipped. -/
def nbr (c : Dev nD) : Dev nD := ⟨(8 * (c.val / 8) + c.val % 4 + 4) - 4 * ((c.val / 4) % 2), by have h : c.val < 16 := c.isLt; show _ < 16; omega⟩

theorem nbr_nbr (c : Dev nD) : nbr (nbr c) = c := by revert c; decide
theorem nbr_ne (c : Dev nD) : nbr c ≠ c := by revert c; decide

def pair : Dev nD ≃ Dev nD := ⟨nbr, nbr, nbr_nbr, nbr_nbr⟩

/-! ## Buffers, their per-batch slices, semaphores -/

abbrev accO : Memref sig .tc .vmem S8x32x128 .f32 := Memref.whole cc0_scratch0
abbrev accM : Memref sig .tc .vmem S8x32 .f32 := Memref.whole cc0_scratch1
abbrev accL : Memref sig .tc .vmem S8x32 .f32 := Memref.whole cc0_scratch2
abbrev oB : Memref sig .tc .vmem S4x32x8x128 .f32 := Memref.whole cc0_scratch3
abbrev sB : Memref sig .tc .vmem S4x2x8x32 .f32 := Memref.whole cc0_scratch4
abbrev roB : Memref sig .tc .vmem S4x32x8x128 .f32 := Memref.whole cc0_scratch5
abbrev rsB : Memref sig .tc .vmem S4x2x8x32 .f32 := Memref.whole cc0_scratch6

/-- Batch entry `b`'s rows of an output-shaped buffer. -/
abbrev oSl (M : Memref sig .tc .vmem S4x32x8x128 .f32) : Fin 4 → Memref sig .tc .vmem S32x8x128 .f32 := fun
  | 0 => (M.slice (Rect.unit (s := S4x32x8x128) ![0, 0, 0, 0] S1x32x8x128.size inb_S4x32x8x128_S1x32x8x128_0_0_0_0) (fun _ => rfl)).squeeze S32x8x128 squeezes_S1x32x8x128_S32x8x128
  | 1 => (M.slice (Rect.unit (s := S4x32x8x128) ![1, 0, 0, 0] S1x32x8x128.size inb_S4x32x8x128_S1x32x8x128_1_0_0_0) (fun _ => rfl)).squeeze S32x8x128 squeezes_S1x32x8x128_S32x8x128
  | 2 => (M.slice (Rect.unit (s := S4x32x8x128) ![2, 0, 0, 0] S1x32x8x128.size inb_S4x32x8x128_S1x32x8x128_2_0_0_0) (fun _ => rfl)).squeeze S32x8x128 squeezes_S1x32x8x128_S32x8x128
  | 3 => (M.slice (Rect.unit (s := S4x32x8x128) ![3, 0, 0, 0] S1x32x8x128.size inb_S4x32x8x128_S1x32x8x128_3_0_0_0) (fun _ => rfl)).squeeze S32x8x128 squeezes_S1x32x8x128_S32x8x128

/-- Batch entry `b`'s two rows of a statistics-shaped buffer. -/
abbrev sSl (M : Memref sig .tc .vmem S4x2x8x32 .f32) : Fin 4 → Memref sig .tc .vmem S2x8x32 .f32 := fun
  | 0 => (M.slice (Rect.unit (s := S4x2x8x32) ![0, 0, 0, 0] S1x2x8x32.size inb_S4x2x8x32_S1x2x8x32_0_0_0_0) (fun _ => rfl)).squeeze S2x8x32 squeezes_S1x2x8x32_S2x8x32
  | 1 => (M.slice (Rect.unit (s := S4x2x8x32) ![1, 0, 0, 0] S1x2x8x32.size inb_S4x2x8x32_S1x2x8x32_1_0_0_0) (fun _ => rfl)).squeeze S2x8x32 squeezes_S1x2x8x32_S2x8x32
  | 2 => (M.slice (Rect.unit (s := S4x2x8x32) ![2, 0, 0, 0] S1x2x8x32.size inb_S4x2x8x32_S1x2x8x32_2_0_0_0) (fun _ => rfl)).squeeze S2x8x32 squeezes_S1x2x8x32_S2x8x32
  | 3 => (M.slice (Rect.unit (s := S4x2x8x32) ![3, 0, 0, 0] S1x2x8x32.size inb_S4x2x8x32_S1x2x8x32_3_0_0_0) (fun _ => rfl)).squeeze S2x8x32 squeezes_S1x2x8x32_S2x8x32

/-- Entry `b` of a four-element DMA-semaphore array. -/
abbrev semAt (A : DmaSems sig S4) : Fin 4 → DmaSem sig := fun
  | 0 => ((A.slice (Rect.unit (s := S4) ![0] S1.size inb_S4_S1_0)).squeeze S_ squeezes_S1_S_).sem
  | 1 => ((A.slice (Rect.unit (s := S4) ![1] S1.size inb_S4_S1_1)).squeeze S_ squeezes_S1_S_).sem
  | 2 => ((A.slice (Rect.unit (s := S4) ![2] S1.size inb_S4_S1_2)).squeeze S_ squeezes_S1_S_).sem
  | 3 => ((A.slice (Rect.unit (s := S4) ![3] S1.size inb_S4_S1_3)).squeeze S_ squeezes_S1_S_).sem

/-- The runtime's barrier semaphore of collective id 0. -/
abbrev barS : Sem sig := (SemArray.scalar (sig.barrier 0 rfl) : Sems sig S_).sem

/-- The four families of the kernel's own semaphores: 0 output-send, 1 output-receive, 2 statistics-send, 3 statistics-receive. -/
abbrev famSem : Fin 4 → Fin 4 → DmaSem sig := fun
  | 0 => semAt cc0_scratch7
  | 1 => semAt cc0_scratch8
  | 2 => semAt cc0_scratch9
  | 3 => semAt cc0_scratch10

theorem famSem_val (k b : Fin 4) : (famSem k b).val = 7 + 4 * k.val + b.val := by revert k b; decide

abbrev barCell (c : Dev nD) : GSem nD τ sig := ((c : Thread nD τ), .reg barS)
abbrev famCell (c : Dev nD) (k b : Fin 4) : GSem nD τ sig := ((c : Thread nD τ), .dma (famSem k b))

/-! ## The partner in the printed device chains -/

theorem dev_eq {n : ℕ} (c : Dev nD) (h : n = (8 * (c.val / 8) + (c.val % 4) + 4) - 4 * ((c.val / 4) % 2)) (hn : n < nD) :
    (⟨n, hn⟩ : Dev nD) = nbr c := Fin.ext h

/-! ## Amounts -/

abbrev No : ℕ := (oSl roB 0).view.dmaCredit
abbrev Ns : ℕ := (sSl rsB 0).view.dmaCredit
theorem No_pos : 0 < No := View.dmaCredit_pos _ (by decide)
theorem Ns_pos : 0 < Ns := View.dmaCredit_pos _ (by decide)

/-! ## Contents: what each device's output and statistics buffers hold when handed over

The protocol is stated over two families the value side defines: `OV c`, the contents of device `c`'s output buffer
(all four batch entries' rows) and `SV c`, of its statistics buffer, as they stand after the last hand-over. -/

abbrev OTy (F : FTy → Type) : Type := (⟨S4x32x8x128, .f32⟩ : BufTy).Contents (Elt F)
abbrev STy (F : FTy → Type) : Type := (⟨S4x2x8x32, .f32⟩ : BufTy).Contents (Elt F)

/-- The elements a memref's view addresses on device `c`, held outright at the contents `f`. -/
abbrev slPts {s : Shape} {e : EltTy} (c : Dev nD) (S : Memref sig .tc .vmem s e) (f : Buf (Elt F) (S.view.loc (c : Thread nD τ))) : sProp 𝕄 :=
  S.view.loc (c : Thread nD τ) ↦[S.view.set]{fullShare} f

/-- Batch entry `b`'s rows of device `c`'s output buffer, held outright at the contents `f`. -/
def obPts (c : Dev nD) (b : Fin 4) (f : OTy F) : sProp 𝕄 :=
  match b with
  | 0 => slPts c (oSl oB 0) f | 1 => slPts c (oSl oB 1) f | 2 => slPts c (oSl oB 2) f | 3 => slPts c (oSl oB 3) f
/-- Batch entry `b`'s rows of device `c`'s output receive buffer. -/
def robPts (c : Dev nD) (b : Fin 4) (f : OTy F) : sProp 𝕄 :=
  match b with
  | 0 => slPts c (oSl roB 0) f | 1 => slPts c (oSl roB 1) f | 2 => slPts c (oSl roB 2) f | 3 => slPts c (oSl roB 3) f
/-- Batch entry `b`'s two rows of device `c`'s statistics buffer. -/
def sbPts (c : Dev nD) (b : Fin 4) (f : STy F) : sProp 𝕄 :=
  match b with
  | 0 => slPts c (sSl sB 0) f | 1 => slPts c (sSl sB 1) f | 2 => slPts c (sSl sB 2) f | 3 => slPts c (sSl sB 3) f
/-- Batch entry `b`'s two rows of device `c`'s statistics receive buffer. -/
def rsbPts (c : Dev nD) (b : Fin 4) (f : STy F) : sProp 𝕄 :=
  match b with
  | 0 => slPts c (sSl rsB 0) f | 1 => slPts c (sSl rsB 1) f | 2 => slPts c (sSl rsB 2) f | 3 => slPts c (sSl rsB 3) f

omit [FloatOps F] in
instance obPts_storable (c : Dev nD) (b) (f) : BI.Storable (upEmb : UEmb _ 𝕄) (obPts (F := F) c b f) := by unfold obPts; split <;> infer_instance
omit [FloatOps F] in
instance robPts_storable (c : Dev nD) (b) (f) : BI.Storable (upEmb : UEmb _ 𝕄) (robPts (F := F) c b f) := by unfold robPts; split <;> infer_instance
omit [FloatOps F] in
instance sbPts_storable (c : Dev nD) (b) (f) : BI.Storable (upEmb : UEmb _ 𝕄) (sbPts (F := F) c b f) := by unfold sbPts; split <;> infer_instance
omit [FloatOps F] in
instance rsbPts_storable (c : Dev nD) (b) (f) : BI.Storable (upEmb : UEmb _ 𝕄) (rsbPts (F := F) c b f) := by unfold rsbPts; split <;> infer_instance

/-! ## The schedule -/

/-- Which family (0 output-send, 1 output-receive, 2 statistics-send, 3 statistics-receive) and which batch entry a
    DMA semaphore of the kernel's own is. -/
def famOf (q : DmaSem sig) : Fin 4 := ⟨(q.val - 7) / 4 % 4, Nat.mod_lt _ (by decide)⟩
def entOf (q : DmaSem sig) : Fin 4 := ⟨(q.val - 7) % 4, Nat.mod_lt _ (by decide)⟩
theorem famOf_fam (k b : Fin 4) : famOf (famSem k b) = k := by revert k b; decide
theorem entOf_fam (k b : Fin 4) : entOf (famSem k b) = b := by revert k b; decide

/-- The protocol's cells among all semaphores: the barrier semaphore and the DMA semaphores from 7 on. -/
def isProto : SemLoc sig → Bool
  | .reg s => s = barS
  | .dma q => 7 ≤ q.val

variable (OV : Dev nD → OTy F) (SV : Dev nD → STy F)

/-- What a landing on the cell of family `k`, batch entry `b`, of device `c` hands its owner: a send cell the rows
    sent, back; a receive cell the rows received, holding the partner's. -/
def famPay (c : Dev nD) (k b : Fin 4) : sProp 𝕄 :=
  match k with
  | 0 => obPts c b (OV c)
  | 1 => robPts c b (OV (nbr c))
  | 2 => sbPts c b (SV c)
  | 3 => rsbPts c b (SV (nbr c))

/-- What the partner's barrier signal hands device `c`: the partner's two receive buffers, every batch entry's rows,
    at whatever they hold (the partner is inside the kernel and will not touch them before its final waits). -/
def barPay (c : Dev nD) : sProp 𝕄 :=
  iprop((∃ f, robPts (nbr c) 0 f) ∗ (∃ f, robPts (nbr c) 1 f) ∗ (∃ f, robPts (nbr c) 2 f) ∗ (∃ f, robPts (nbr c) 3 f)
    ∗ (∃ f, rsbPts (nbr c) 0 f) ∗ (∃ f, rsbPts (nbr c) 1 f) ∗ (∃ f, rsbPts (nbr c) 2 f) ∗ (∃ f, rsbPts (nbr c) 3 f))

/-- One round, round 0, one duty on every cell of the protocol. -/
def sched : Rounds.Schedule (GSem nD τ sig) Unit 𝕄 where
  duties g r := if r = 0 ∧ g.1.2 = .tc ∧ isProto g.2 = true then {()} else ∅
  amount g _ _ := match g.2 with
    | .reg _ => 1
    | .dma q => if (famOf q).val < 2 then No else Ns
  payload g _ _ := match g.2 with
    | .reg _ => barPay g.1.1
    | .dma q => famPay OV SV g.1.1 (famOf q) (entOf q)
  amount_pos g _ _ _ := by
    rcases g with ⟨g1, sm⟩
    cases sm with
    | reg s => exact Nat.one_pos
    | dma q => dsimp only; split; exact No_pos; exact Ns_pos

instance sched_payload_storable (g : GSem nD τ sig) (r : ℕ) (d : Unit) :
    BI.Storable (upEmb : UEmb _ 𝕄) ((sched (F := F) OV SV).payload g r d) := by
  rcases g with ⟨g1, sm⟩
  cases sm with
  | reg s => show BI.Storable upEmb (barPay g1.1); unfold barPay; infer_instance
  | dma q =>
    show BI.Storable upEmb (famPay OV SV g1.1 (famOf q) (entOf q))
    unfold famPay; split <;> infer_instance

section Sched
variable (c : Dev nD)

omit [FloatOps F] in
theorem duties_bar : (sched (F := F) OV SV).duties (barCell c) 0 = {()} := by dsimp only [sched]; exact if_pos ⟨rfl, rfl, by simp [isProto]⟩
omit [FloatOps F] in
theorem duties_fam (k b : Fin 4) : (sched (F := F) OV SV).duties (famCell c k b) 0 = {()} := by
  dsimp only [sched]; exact if_pos ⟨rfl, rfl, by simp only [isProto, famSem_val, decide_eq_true_eq]; omega⟩
omit [FloatOps F] in
theorem duties_later (g : GSem nD τ sig) : ∀ r, 1 ≤ r → (sched (F := F) OV SV).duties g r = ∅ :=
  fun r hr => by dsimp only [sched]; rw [if_neg fun h => by omega]

omit [FloatOps F] in
theorem amount_bar (d : Unit) : (sched (F := F) OV SV).amount (barCell c) 0 d = 1 := rfl
omit [FloatOps F] in
theorem amount_fam (k b : Fin 4) (d : Unit) : (sched (F := F) OV SV).amount (famCell c k b) 0 d = if k.val < 2 then No else Ns := by
  show (if (famOf (famSem k b)).val < 2 then No else Ns) = _; rw [famOf_fam]

omit [FloatOps F] in
theorem expect_bar : (sched (F := F) OV SV).expect (barCell c) 0 = 1 := by
  unfold Schedule.expect Schedule.amountOf; rw [duties_bar, Finset.sum_singleton, amount_bar]
omit [FloatOps F] in
theorem expect_fam (k b : Fin 4) : (sched (F := F) OV SV).expect (famCell c k b) 0 = if k.val < 2 then No else Ns := by
  unfold Schedule.expect Schedule.amountOf; rw [duties_fam, Finset.sum_singleton, amount_fam]

omit [FloatOps F] in
theorem payload_bar (d : Unit) : (sched (F := F) OV SV).payload (barCell c) 0 d = barPay c := rfl
omit [FloatOps F] in
theorem payload_fam (k b : Fin 4) (d : Unit) : (sched (F := F) OV SV).payload (famCell c k b) 0 d = famPay OV SV c k b := by
  show famPay OV SV c (famOf (famSem k b)) (entOf (famSem k b)) = _; rw [famOf_fam, entOf_fam]

omit [FloatOps F] in
theorem rest_bar : bigSep ((sched (F := F) OV SV).duties (barCell c) 0 \ ∅) (fun d => (sched (F := F) OV SV).payload (barCell c) 0 d) = barPay c := by
  rw [Finset.sdiff_empty, duties_bar, bigSep_singleton, payload_bar]
omit [FloatOps F] in
theorem rest_fam (k b : Fin 4) : bigSep ((sched (F := F) OV SV).duties (famCell c k b) 0 \ ∅) (fun d => (sched (F := F) OV SV).payload (famCell c k b) 0 d) = famPay OV SV c k b := by
  rw [Finset.sdiff_empty, duties_fam, bigSep_singleton, payload_fam]

end Sched

/-! ## What a device owes; the levels

A device's remote events, in program order: event 0 the barrier signal; events 1 + 2b and 2 + 2b the output copy and
the statistics copy of batch entry `b`. `owedFrom c j` is what it owes before event `j`; each event pays the last
summand. -/

def evTally (c : Dev nD) : ℕ → CellTallies nD τ sig Unit
  | 0 => tallyAt (barCell (nbr c)) () 1
  | 1 => tallyAt (famCell (nbr c) 1 0) () No
  | 2 => tallyAt (famCell (nbr c) 3 0) () Ns
  | 3 => tallyAt (famCell (nbr c) 1 1) () No
  | 4 => tallyAt (famCell (nbr c) 3 1) () Ns
  | 5 => tallyAt (famCell (nbr c) 1 2) () No
  | 6 => tallyAt (famCell (nbr c) 3 2) () Ns
  | 7 => tallyAt (famCell (nbr c) 1 3) () No
  | 8 => tallyAt (famCell (nbr c) 3 3) () Ns
  | _ => 0

/-- What the last `n` events pay, the latest event innermost. -/
def owedLast (c : Dev nD) : ℕ → CellTallies nD τ sig Unit
  | 0 => 0
  | n + 1 => owedLast c n + evTally c (8 - n)

/-- What the device owes before event `j`. -/
def owedFrom (c : Dev nD) (j : ℕ) : CellTallies nD τ sig Unit := owedLast c (9 - j)

theorem owedFrom_succ (c : Dev nD) (j : ℕ) (hj : j ≤ 8) : owedFrom c j = owedFrom c (j + 1) + evTally c j := by
  unfold owedFrom
  obtain ⟨n, hn⟩ : ∃ n, 9 - j = n + 1 := ⟨8 - j, by omega⟩
  rw [hn, show 9 - (j + 1) = n by omega, owedLast, show 8 - n = j by omega]

theorem owedFrom_nine (c : Dev nD) : owedFrom c 9 = 0 := rfl

/-- The events finished before grid point `t` (points 4b+3 hand batch entry `b` over; point 3 also holds the barrier). -/
def evDone (t : ℕ) : ℕ := if t < 4 then 0 else 1 + 2 * (t / 4)

def L (g : GSem nD τ sig) : Finset Unit := if g.1.2 = .tc then {()} else ∅
/-- The barrier cells at level 1, the receive cells at 2, everything else (staging, send cells) at 0. -/
def lv (g : GSem nD τ sig) (_ : Unit) : ℕ :=
  match g.2 with
  | .reg _ => 1
  | .dma q => if 7 ≤ q.val ∧ (famOf q).val % 2 = 1 then 2 else 0

theorem L_of_ne (g : GSem nD τ sig) (h : g.1.2 ≠ .tc) : L g = ∅ := if_neg h
theorem L_tc (c : Dev nD) (sm : SemLoc sig) : L ((c : Thread nD τ), sm) = {()} := if_pos rfl

end Cert.KernelProof

end
-- ==== Proof.KTrace.lean ====
/-
  What one device computes, as pure terms over the kernel's own payloads.

  For a batch entry `b` the device walks its four chunks of keys; `XQ b` is the entry's block of queries and
  `XK b k`, `XV b k` the `k`-th chunk's blocks of keys and values, as the pipeline stages them. The three
  accumulators start at the kernel's initial values and take one `chunk` step per grid point. After the fourth chunk
  the accumulators are handed over: the numerator rows into the device's output buffer (rows of batch entry `b`), the
  running maximum and the normaliser into the two statistics rows of `b`. The device's result is the merge payload of
  its own and its partner's statistics rows and output buffers.
-/
import proofs.«900428_g7700000000000429_dist_flashdec_v7x_xyz2x2x4_y_b4_sq32_skv4096_h8_d128_f32_1_alg».proof.Proof.Gen.Kernel.Skeleton
import Idealize.ShloMosaic.Lib.ValueIdx

noncomputable section

namespace Cert.Kernel.Trace

open Cert.Kernel Cert.Kernel.Gen
open Idealize.ShloMosaic

variable {F : FTy → Type} [FloatOps F]

/-- The three accumulators: numerator rows, running maximum, normaliser. -/
structure Acc (F : FTy → Type) where
  o : Vec F S8x32x128 .f32
  m : Vec F S8x32 .f32
  l : Vec F S8x32 .f32

/-- The accumulators as the first chunk of a batch entry resets them. -/
def acc0 : Acc F := ⟨k0_pay11, k0_pay9, k0_pay10⟩

/-- One grid point's update of the accumulators from the query block and one chunk's key and value blocks. -/
def chunk (xq : Vec F S1x32x8x128 .f32) (xk xv : Vec F S1x1024x8x128 .f32) (a : Acc F) : Acc F :=
  ⟨k0_pay2 (k0_pay12 xv) (k0_pay13 xq xk) (k0_pay14 xq xk a.m) (k0_pay15 xq xk a.m) a.o,
   k0_pay3 (k0_pay14 xq xk a.m),
   k0_pay4 (k0_pay13 xq xk) (k0_pay14 xq xk a.m) (k0_pay15 xq xk a.m) a.l⟩

variable (XQ : Fin 4 → Vec F S1x32x8x128 .f32) (XK XV : Fin 4 → Fin 4 → Vec F S1x1024x8x128 .f32)

/-- The accumulators of batch entry `b` after its first `k` chunks. -/
def accAt (b : Fin 4) : ℕ → Acc F
  | 0 => acc0
  | k + 1 => chunk (XQ b) (XK b ⟨k % 4, Nat.mod_lt _ (by decide)⟩) (XV b ⟨k % 4, Nat.mod_lt _ (by decide)⟩) (accAt b k)

/-- The output buffer once every batch entry is handed over: entry `b`'s rows are its numerator rows, re-laid. -/
def outBuf : (⟨S4x32x8x128, .f32⟩ : BufTy).Contents (Elt F) :=
  fun i => k0_pay5 (accAt XQ XK XV (i 0) 4).o (ValueIdx.ix4 (0 : Fin 1) (i 1) (i 2) (i 3))

/-- The statistics buffer once every batch entry is handed over: row 0 of entry `b` its running maximum, row 1 its
    normaliser. -/
def statBuf : (⟨S4x2x8x32, .f32⟩ : BufTy).Contents (Elt F) :=
  fun i => if (i 1).val = 0 then k0_pay6 (accAt XQ XK XV (i 0) 4).m (ValueIdx.ix4 (0 : Fin 1) (0 : Fin 1) (i 2) (i 3))
    else k0_pay7 (accAt XQ XK XV (i 0) 4).l (ValueIdx.ix4 (0 : Fin 1) (0 : Fin 1) (i 2) (i 3))

/-- Row `r` (0 the maxima, 1 the normalisers) of every batch entry of a statistics buffer. -/
def statRow (S : (⟨S4x2x8x32, .f32⟩ : BufTy).Contents (Elt F)) (r : Fin 2) : Vec F S4x1x8x32 .f32 :=
  fun j => S (ValueIdx.ix4 (j 0) r (j 2) (j 3))

/-- The device's result from its own and its partner's buffers. -/
def merged (So Sp : (⟨S4x2x8x32, .f32⟩ : BufTy).Contents (Elt F)) (Oo Op : (⟨S4x32x8x128, .f32⟩ : BufTy).Contents (Elt F)) :
    FVec F S4x32x8x128 .f32 :=
  k0_pay8 (statRow So 0) (statRow So 1) (statRow Sp 0) (statRow Sp 1) Oo Op

end Cert.Kernel.Trace

end
-- ==== Proof.KData.lean ====
/-
  The proof data of the pipelined region, per device: what each staging buffer holds after each grid point, what the
  device still owes between points, and the invariant between points — the accumulators, the four slices of each
  hand-over buffer (held, or lent to a copy in flight), the receive buffers (the device's own before the barrier,
  its partner's after), the duty tokens of the events to come and the credits of the landings to wait for.
-/
import proofs.«900428_g7700000000000429_dist_flashdec_v7x_xyz2x2x4_y_b4_sq32_skv4096_h8_d128_f32_1_alg».proof.Proof.KProtocol
import proofs.«900428_g7700000000000429_dist_flashdec_v7x_xyz2x2x4_y_b4_sq32_skv4096_h8_d128_f32_1_alg».proof.Proof.KTrace

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The values -/

/-- Grid point `(b, k)`: batch entry `b`, chunk `k`. -/
def pt (b k : Fin 4) : Fin cfg0.N := ⟨4 * b.val + k.val, by rw [show cfg0.N = 16 from N_0]; omega⟩

/-- The query block of batch entry `b` and the key and value blocks of its chunk `k`, on device `c`. -/
def XQ (c : Dev nD) (b : Fin 4) : Vec F S1x32x8x128 .f32 := iblk m c 0 (pt b 0)
def XK (c : Dev nD) (b k : Fin 4) : Vec F S1x1024x8x128 .f32 := iblk m c 1 (pt b k)
def XV (c : Dev nD) (b k : Fin 4) : Vec F S1x1024x8x128 .f32 := iblk m c 2 (pt b k)

/-- Device `c`'s output buffer and statistics buffer once every batch entry is handed over; its result. -/
def OV (c : Dev nD) : OTy F := Trace.outBuf (XQ m c) (XK m c) (XV m c)
def SV (c : Dev nD) : STy F := Trace.statBuf (XQ m c) (XK m c) (XV m c)
def OUT (c : Dev nD) : OTy F := Trace.merged (SV m c) (SV m (nbr c)) (OV m c) (OV m (nbr c))

/-- The schedule at these values. -/
abbrev Rd : Rounds.Schedule (GSem nD τ sig) Unit 𝕄 := sched (OV m) (SV m)

/-! ## The cells as the launch indexes them -/

/-- A device's seventeen semaphores: 0 the barrier, `1 + 4k + b` family `k`, batch entry `b`. -/
abbrev csem : Fin 17 → SemLoc sig := fun j => if h : j.val = 0 then .reg barS else .dma ⟨6 + j.val, by have := j.isLt; show _ < 23; omega⟩
abbrev kcell (ck : Dev nD × Fin 17) : GSem nD τ sig := ((ck.1 : Thread nD τ), csem ck.2)
/-- The sixteen of its own (scoped). -/
abbrev osem : Fin 16 → SemLoc sig := fun j => .dma ⟨7 + j.val, by have := j.isLt; show _ < 23; omega⟩

def fidx (k b : Fin 4) : Fin 17 := ⟨1 + 4 * k.val + b.val, by have := k.isLt; have := b.isLt; omega⟩
theorem csem_fidx (k b : Fin 4) : csem (fidx k b) = .dma (famSem k b) := by revert k b; decide
theorem kcell_fidx (c : Dev nD) (k b : Fin 4) : kcell (c, fidx k b) = famCell c k b := by
  show ((c : Thread nD τ), csem (fidx k b)) = _; rw [csem_fidx]
theorem kcell_zero (c : Dev nD) : kcell (c, 0) = barCell c := rfl

/-- Every cell's invariant, at the names the launch allocated them, and that every cell has reached round 0. -/
def records (K : Dev nD × Fin 17 → ℕ) : sProp 𝕄 :=
  iprop((bigSep Finset.univ fun ck : Dev nD × Fin 17 => cellInv ER (Rd m) (K ck) (kcell ck))
    ∗ bigSep Finset.univ fun ck : Dev nD × Fin 17 => reached ER (kcell ck) 0)

instance records_persistent (K : Dev nD × Fin 17 → ℕ) : BI.Persistent (records m K) := by unfold records; infer_instance

/-! ## The invariant between grid points -/

/-- The whole buffer `b` on device `c` held outright at `f`. -/
abbrev whole (c : Dev nD) (b : Ref sig .tc) (f : Buf (Elt F) ((c : Thread nD τ).loc b)) : sProp 𝕄 :=
  ((c : Thread nD τ).loc b) ↦{fullShare} f

/-- The barrier's part before point `t`: until the barrier is passed (point 3) the token of the unit owed to the partner,
    the credit of the unit the partner owes and the position at round 0; afterwards the position at round 1. -/
def barPart (c : Dev nD) (t : ℕ) : sProp 𝕄 :=
  if t < 4 then iprop(dutyTok ER (barCell (nbr c)) 0 () ∗ cred (tallyAt (barCell c) () 1) ∗ atPos ER (barCell c) 0 ∅ 0)
  else atPos ER (barCell c) 1 ∅ 0

/-- Batch entry `b`'s part before point `t`. The four cells' positions and the two receive credits always. Until `b`
    is handed over (point 4b+3): its rows of the output and statistics buffers, the four duty tokens of its two copies,
    and its rows of the receive buffers the copies will land in — the device's own before the barrier (to give the
    partner), the partner's after. Once handed over: the two send credits. -/
def entPart (c : Dev nD) (t : ℕ) (b : Fin 4) : sProp 𝕄 :=
  iprop(atPos ER (famCell c 0 b) 0 ∅ 0 ∗ atPos ER (famCell c 1 b) 0 ∅ 0 ∗ atPos ER (famCell c 2 b) 0 ∅ 0 ∗ atPos ER (famCell c 3 b) 0 ∅ 0
    ∗ cred (tallyAt (famCell c 1 b) () No) ∗ cred (tallyAt (famCell c 3 b) () Ns)
    ∗ (if b.val < t / 4 then iprop(cred (tallyAt (famCell c 0 b) () No) ∗ cred (tallyAt (famCell c 2 b) () Ns))
       else iprop((∃ f, obPts c b f) ∗ (∃ f, sbPts c b f)
          ∗ dutyTok ER (famCell c 0 b) 0 () ∗ dutyTok ER (famCell (nbr c) 1 b) 0 () ∗ dutyTok ER (famCell c 2 b) 0 () ∗ dutyTok ER (famCell (nbr c) 3 b) 0 ()
          ∗ (if 4 ≤ t then iprop((∃ f, robPts (nbr c) b f) ∗ (∃ f, rsbPts (nbr c) b f))
             else iprop((∃ f, robPts c b f) ∗ (∃ f, rsbPts c b f))))))

/-- The accumulators before point `t = 4b + k`: after `k ≥ 1` chunks of batch entry `b` they hold the trace's; before
    the first chunk, anything (it resets them). -/
def accPart (c : Dev nD) (t : ℕ) : sProp 𝕄 :=
  iprop(∃ (fo : Buf (Elt F) ((c : Thread nD τ).loc cc0_scratch0)) (fm : Buf (Elt F) ((c : Thread nD τ).loc cc0_scratch1))
      (fl : Buf (Elt F) ((c : Thread nD τ).loc cc0_scratch2)),
    ⌜t % 4 ≠ 0 → fo = (Trace.accAt (XQ m c) (XK m c) (XV m c) ⟨t / 4 % 4, Nat.mod_lt _ (by decide)⟩ (t % 4)).o
        ∧ fm = (Trace.accAt (XQ m c) (XK m c) (XV m c) ⟨t / 4 % 4, Nat.mod_lt _ (by decide)⟩ (t % 4)).m
        ∧ fl = (Trace.accAt (XQ m c) (XK m c) (XV m c) ⟨t / 4 % 4, Nat.mod_lt _ (by decide)⟩ (t % 4)).l⌝
    ∗ whole c cc0_scratch0 fo ∗ whole c cc0_scratch1 fm ∗ whole c cc0_scratch2 fl)

/-- Between points. -/
def PhiMid (c : Dev nD) (t : ℕ) : sProp 𝕄 :=
  iprop(∃ K, records m K ∗ levAts L lv ∗ barPart c t ∗ entPart c t 0 ∗ entPart c t 1 ∗ entPart c t 2 ∗ entPart c t 3 ∗ accPart m c t)

/-- After the last point: every scratch buffer whole — the four hand-over buffers at the trace's values, the device's
    own and its partner's — and the sixteen own cells closed, their counters at zero. -/
def PhiEnd (c : Dev nD) : sProp 𝕄 :=
  iprop((∃ f, whole c cc0_scratch0 f) ∗ (∃ f, whole c cc0_scratch1 f) ∗ (∃ f, whole c cc0_scratch2 f)
    ∗ whole c cc0_scratch3 (OV m c) ∗ whole c cc0_scratch4 (SV m c) ∗ whole c cc0_scratch5 (OV m (nbr c)) ∗ whole c cc0_scratch6 (SV m (nbr c))
    ∗ bigSep Finset.univ fun j : Fin 16 => semVal ((c : Thread nD τ), osem j) 0)

/-! ## The proof data -/

def dats (_ : Fin 1) (c : Dev nD) : Dat τ (Elt F) Unit ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => OUT m c
  Φ t := if t.val < 16 then PhiMid m c t.val else PhiEnd m c
  q _ := fullShare
  owed t := owedFrom c (evDone t.val)

abbrev 𝒱₀ : Variants := Variants.none

end Cert.KernelProof

end
-- ==== Proof.KLaunch.lean ====
/-
  The launch of the attention kernel on the mesh of sixteen devices.

  Every device starts from the launch's holdings: its seventeen cells' ghost state (their round state, positions and duty
  tokens), its semaphores at zero, its scratch buffers at arbitrary contents, and the credit of what the other devices owe
  its cells. The duty tokens of a device's barrier cell and of its receive cells go to its partner, who pays them; the
  tokens of its send cells stay. What all devices owe a cell at launch sums to the one unit (barrier) or the one copy's
  credit (receive) the partner owes it. At every boundary a device owes only its partner's barrier and receive cells, all
  above the staging cells' level, so the staging waits are allowed.
-/
import proofs.«900428_g7700000000000429_dist_flashdec_v7x_xyz2x2x4_y_b4_sq32_skv4096_h8_d128_f32_1_alg».proof.Proof.KData

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells, tokens, the launch element -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The protocol's cells: every device's seventeen. -/
def protoCells : Finset (GSem nD τ sig) := Finset.univ.map ⟨kcell, kcell_injective⟩

/-- Each cell's one duty token, as minted. -/
abbrev tokOf (ck : Dev nD × Fin 17) : GSem nD τ sig × ℕ × Unit := (kcell ck, 0, ())
theorem tokOf_injective : Function.Injective (tokOf : Dev nD × Fin 17 → GSem nD τ sig × ℕ × Unit) :=
  fun a b h => kcell_injective (congrArg Prod.fst h)
def protoToks : Finset (GSem nD τ sig × ℕ × Unit) := Finset.univ.map ⟨tokOf, tokOf_injective⟩

def u₀ : UU :=
  (initOf (Pipeline.cells cfgs cellOf_inj) (Pipeline.launchToks cfgs cellOf_inj), initOf protoCells protoToks)

/-! ## What a device owes, where -/

omit [FloatOps F] in
theorem evTally_pos {c : Dev nD} {i : ℕ} {g : GSem nD τ sig} {u : Unit} (h : 0 < evTally c i g u) :
    g = barCell (nbr c) ∨ ∃ b : Fin 4, g = famCell (nbr c) 1 b ∨ g = famCell (nbr c) 3 b := by
  match i, h with
  | 0, h => exact Or.inl (Pipeline.tallyAt_pos h).1
  | 1, h => exact Or.inr ⟨0, Or.inl (Pipeline.tallyAt_pos h).1⟩
  | 2, h => exact Or.inr ⟨0, Or.inr (Pipeline.tallyAt_pos h).1⟩
  | 3, h => exact Or.inr ⟨1, Or.inl (Pipeline.tallyAt_pos h).1⟩
  | 4, h => exact Or.inr ⟨1, Or.inr (Pipeline.tallyAt_pos h).1⟩
  | 5, h => exact Or.inr ⟨2, Or.inl (Pipeline.tallyAt_pos h).1⟩
  | 6, h => exact Or.inr ⟨2, Or.inr (Pipeline.tallyAt_pos h).1⟩
  | 7, h => exact Or.inr ⟨3, Or.inl (Pipeline.tallyAt_pos h).1⟩
  | 8, h => exact Or.inr ⟨3, Or.inr (Pipeline.tallyAt_pos h).1⟩
  | n + 9, h => exact absurd h (Nat.lt_irrefl 0)

omit [FloatOps F] in
theorem owedLast_pos {c : Dev nD} {n : ℕ} {g : GSem nD τ sig} {u : Unit} (h : 0 < owedLast c n g u) :
    g = barCell (nbr c) ∨ ∃ b : Fin 4, g = famCell (nbr c) 1 b ∨ g = famCell (nbr c) 3 b := by
  induction n with
  | zero => exact absurd h (Nat.lt_irrefl 0)
  | succ n ih =>
    rcases Pipeline.add_pos_cases (show 0 < (owedLast c n + evTally c (8 - n)) g u from h) with h' | h'
    · exact ih h'
    · exact evTally_pos h'

omit [FloatOps F] in
/-- Whatever a device owes, it owes its partner's barrier cell or one of its partner's receive cells. -/
theorem owedFrom_pos {c : Dev nD} {j : ℕ} {g : GSem nD τ sig} {u : Unit} (h : 0 < owedFrom c j g u) :
    g = barCell (nbr c) ∨ ∃ b : Fin 4, g = famCell (nbr c) 1 b ∨ g = famCell (nbr c) 3 b := owedLast_pos h

omit [FloatOps F] in
theorem lv_recv (c' : Dev nD) (b : Fin 4) : lv (famCell c' 1 b) () = 2 ∧ lv (famCell c' 3 b) () = 2 := by
  constructor
  · show (if 7 ≤ (famSem 1 b).val ∧ (famOf (famSem 1 b)).val % 2 = 1 then 2 else 0) = 2
    revert b; decide
  · show (if 7 ≤ (famSem 3 b).val ∧ (famOf (famSem 3 b)).val % 2 = 1 then 2 else 0) = 2
    revert b; decide

omit [FloatOps F] in
theorem stage_sem_lt : ∀ (w : Fin cfg0.W) (s : Fin (cfg0.win w).nbuf), ((cfg0.win w).sem s).val < 7 := by decide

omit [FloatOps F] in
/-- A wait on a staging cell is allowed whatever the device still owes. -/
theorem mayWait_stage (c : Dev nD) (q : DmaSem sig) (hq : q.val < 7) (j : ℕ) :
    (levAts L lv : sProp 𝕄) ⊢ MayWait (c : Thread nD τ) (.dma q) () (owedFrom c j) :=
  MayOwe.of_cut (L := L) (lev := lv) 0 (fun p hp => by rw [Finset.mem_singleton.mp hp, L_tc]; exact Finset.mem_singleton_self _)
    (fun g u hg => by
      rcases owedFrom_pos hg with rfl | ⟨b, rfl | rfl⟩ <;> (rw [L_tc]; exact Finset.mem_singleton_self _))
    (fun p hp => by
      rw [Finset.mem_singleton.mp hp]
      show (if 7 ≤ q.val ∧ (famOf q).val % 2 = 1 then 2 else 0) ≤ 0
      rw [if_neg (fun h => by omega)])
    (fun g u hg => by
      rcases owedFrom_pos hg with rfl | ⟨b, rfl | rfl⟩
      · show 0 < 1; decide
      · cases u; rw [(lv_recv (nbr c) b).1]; decide
      · cases u; rw [(lv_recv (nbr c) b).2]; decide)

theorem waits (c : Dev nD) : (levAts L lv : sProp 𝕄) ⊢ Pipeline.cellsWaits cfgs (dats m) () 0 c :=
  Pipeline.cellsWaits_intro cfgs (dats m) () 0 c fun w s t => mayWait_stage c _ (stage_sem_lt w s) _

/-! ## The launch credit -/

/-- The credits of the two copies that land batch entry `b` on device `c`. -/
def credE (c : Dev nD) (b : Fin 4) : sProp 𝕄 :=
  iprop(cred (tallyAt (famCell c 1 b) () No) ∗ cred (tallyAt (famCell c 3 b) () Ns))

omit [FloatOps F] in
/-- What every device owes at launch, event by event, the first event last. -/
theorem owed_zero_eq : (fun d : Dev nD => owedFrom d 0) = fun d =>
    (0 : CellTallies nD τ sig Unit) + tallyAt (famCell (nbr d) 3 3) () Ns + tallyAt (famCell (nbr d) 1 3) () No
      + tallyAt (famCell (nbr d) 3 2) () Ns + tallyAt (famCell (nbr d) 1 2) () No
      + tallyAt (famCell (nbr d) 3 1) () Ns + tallyAt (famCell (nbr d) 1 1) () No
      + tallyAt (famCell (nbr d) 3 0) () Ns + tallyAt (famCell (nbr d) 1 0) () No
      + tallyAt (barCell (nbr d)) () 1 := funext fun d => rfl

omit [FloatOps F] in
/-- What all devices owe a device's cells at launch is what its partner owes them: one unit on its barrier cell, one
    copy's credit on each receive cell. -/
theorem creds (c : Dev nD) :
    (Pipeline.launchCred (fun d => owedFrom d 0) c : sProp 𝕄)
      ⊢ iprop(cred (tallyAt (barCell c) () 1) ∗ credE c 0 ∗ credE c 1 ∗ credE c 2 ∗ credE c 3) := by
  rw [owed_zero_eq]
  simp only [Pipeline.launchCred_add]
  unfold credE
  iintro ⟨⟨⟨⟨⟨⟨⟨⟨⟨-, H33⟩, H13⟩, H32⟩, H12⟩, H31⟩, H11⟩, H30⟩, H10⟩, HB⟩
  ihave GB := (Pipeline.launchCred_tallyAt (.reg barS) nbr nbr nbr_nbr nbr_nbr () 1 c) $$ HB
  ihave G10 := (Pipeline.launchCred_tallyAt (.dma (famSem 1 0)) nbr nbr nbr_nbr nbr_nbr () No c) $$ H10
  ihave G30 := (Pipeline.launchCred_tallyAt (.dma (famSem 3 0)) nbr nbr nbr_nbr nbr_nbr () Ns c) $$ H30
  ihave G11 := (Pipeline.launchCred_tallyAt (.dma (famSem 1 1)) nbr nbr nbr_nbr nbr_nbr () No c) $$ H11
  ihave G31 := (Pipeline.launchCred_tallyAt (.dma (famSem 3 1)) nbr nbr nbr_nbr nbr_nbr () Ns c) $$ H31
  ihave G12 := (Pipeline.launchCred_tallyAt (.dma (famSem 1 2)) nbr nbr nbr_nbr nbr_nbr () No c) $$ H12
  ihave G32 := (Pipeline.launchCred_tallyAt (.dma (famSem 3 2)) nbr nbr nbr_nbr nbr_nbr () Ns c) $$ H32
  ihave G13 := (Pipeline.launchCred_tallyAt (.dma (famSem 1 3)) nbr nbr nbr_nbr nbr_nbr () No c) $$ H13
  ihave G33 := (Pipeline.launchCred_tallyAt (.dma (famSem 3 3)) nbr nbr nbr_nbr nbr_nbr () Ns c) $$ H33
  isplitl [GB]; · iexact GB
  isplitl [G10 G30]
  · isplitl [G10] <;> iassumption
  isplitl [G11 G31]
  · isplitl [G11] <;> iassumption
  isplitl [G12 G32]
  · isplitl [G12] <;> iassumption
  isplitl [G13] <;> iassumption

/-! ## Funding the protocol's ghost state -/

/-- The duty tokens of device `c`'s own seventeen cells. -/
def toks (c : Dev nD) : sProp 𝕄 := bigSep Finset.univ fun k : Fin 17 => dutyTok ER (kcell (c, k)) 0 ()

/-- What the launch element deals device `c`. -/
def G (c : Dev nD) : sProp 𝕄 :=
  iprop((bigSep Finset.univ fun k : Fin 17 => roundState ER (Rd m) (kcell (c, k)) 0)
    ∗ (bigSep Finset.univ fun k : Fin 17 => iprop(atPos ER (kcell (c, k)) 0 ∅ 0 ∗ reached ER (kcell (c, k)) 0)) ∗ toks c)

omit [FloatOps F] in
theorem bigSep_fin17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ
omit [FloatOps F] in
theorem bigSep_fin16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 17 => Φ (kcell (c, k)) := by
    unfold protoCells; rw [bigSep_map, bigSep_univ_prod]; rfl
  have hT : bigSep protoToks (fun x => (dutyTok ER x.1 x.2.1 x.2.2 : sProp 𝕄)) = bigSep Finset.univ fun c : Dev nD => toks c := by
    unfold protoToks; rw [bigSep_map, bigSep_univ_prod]; rfl
  iintro HX
  imod (Rounds.fund ER (Rd m) protoCells protoToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [unscopedSems0_eq, bigSep_fin17]
  unfold Pipeline.ownSems0
  rw [bigSep_fin16]
  exact sep_comm.1

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 17 => iprop(∃ κ : ℕ, cellInv ER (Rd m) κ (kcell (c, k))))
          ∗ (bigSep Finset.univ fun k : Fin 17 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (Rd m) (kcell (c, k)) 0)
      ⊢ (|={Set.univ}=> bigSep Finset.univ fun k : Fin 17 => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem inv_at (K : Dev nD × Fin 17 → ℕ) (ck : Dev nD × Fin 17) :
    (bigSep Finset.univ fun ck : Dev nD × Fin 17 => (cellInv ER (Rd m) (K ck) (kcell ck) : sProp 𝕄)) ⊢ cellInv ER (Rd m) (K ck) (kcell ck) :=
  bigSep_elim (Finset.mem_univ ck)
omit [FloatOps F] in
theorem reached_at (ck : Dev nD × Fin 17) :
    (bigSep Finset.univ fun ck : Dev nD × Fin 17 => (reached ER (kcell ck) 0 : sProp 𝕄)) ⊢ reached ER (kcell ck) 0 :=
  bigSep_elim (Finset.mem_univ ck)

/-! ## Dealing the tokens to their payers -/

/-- Who pays the duty of cell `k` of device `c`: the partner for the barrier cell and the receive cells, the device
    itself for its send cells. -/
def tgt (c : Dev nD) (k : Fin 17) : Dev nD := if k.val = 0 ∨ (k.val - 1) / 4 % 2 = 1 then nbr c else c

omit [FloatOps F] in
theorem tgt_tgt (c : Dev nD) (k : Fin 17) : tgt (tgt c k) k = c := by
  unfold tgt; split
  · exact nbr_nbr c
  · rfl

def dealE : Dev nD × Fin 17 ≃ Dev nD × Fin 17 :=
  ⟨fun ck => (tgt ck.1 ck.2, ck.2), fun ck => (tgt ck.1 ck.2, ck.2), fun ck => Prod.ext (tgt_tgt ck.1 ck.2) rfl, fun ck => Prod.ext (tgt_tgt ck.1 ck.2) rfl⟩

/-- The tokens device `c` pays with. -/
def payToks (c : Dev nD) : sProp 𝕄 := bigSep Finset.univ fun k : Fin 17 => dutyTok ER (kcell (tgt c k, k)) 0 ()

omit [FloatOps F] in
theorem toks_around : (bigSep Finset.univ fun c : Dev nD => (toks c : sProp 𝕄)) ⊢ bigSep Finset.univ fun c : Dev nD => payToks c := by
  unfold toks payToks
  rw [← bigSep_univ_prod (fun ck : Dev nD × Fin 17 => (dutyTok ER (kcell ck) 0 () : sProp 𝕄)),
    ← bigSep_univ_prod (fun ck : Dev nD × Fin 17 => (dutyTok ER (kcell (tgt ck.1 ck.2, ck.2)) 0 () : sProp 𝕄)),
    bigSep_univ_equiv dealE (fun ck : Dev nD × Fin 17 => (dutyTok ER (kcell ck) 0 () : sProp 𝕄))]
  exact Entails.of_eq rfl

/-- Batch entry `b`'s positions and tokens on device `c`. -/
def entGhost (c : Dev nD) (b : Fin 4) : sProp 𝕄 :=
  iprop(atPos ER (famCell c 0 b) 0 ∅ 0 ∗ atPos ER (famCell c 1 b) 0 ∅ 0 ∗ atPos ER (famCell c 2 b) 0 ∅ 0 ∗ atPos ER (famCell c 3 b) 0 ∅ 0
    ∗ dutyTok ER (famCell c 0 b) 0 () ∗ dutyTok ER (famCell (nbr c) 1 b) 0 () ∗ dutyTok ER (famCell c 2 b) 0 () ∗ dutyTok ER (famCell (nbr c) 3 b) 0 ())

/-- What stays with device `c`: its positions and the tokens of the duties it pays. -/
def linear (c : Dev nD) : sProp 𝕄 :=
  iprop(atPos ER (barCell c) 0 ∅ 0 ∗ dutyTok ER (barCell (nbr c)) 0 () ∗ entGhost c 0 ∗ entGhost c 1 ∗ entGhost c 2 ∗ entGhost c 3)

/-- What the global step makes of the launch element. -/
def G' (c : Dev nD) : sProp 𝕄 := iprop(∃ K, records m K ∗ linear c)

omit [FloatOps F] in
theorem linear_intro (c : Dev nD) :
    iprop((bigSep Finset.univ fun k : Fin 17 => (atPos ER (kcell (c, k)) 0 ∅ 0 : sProp 𝕄)) ∗ payToks c) ⊢ linear c := by
  unfold payToks linear entGhost
  rw [bigSep_fin17, bigSep_fin17]
  iintro ⟨⟨A0, A1, A2, A3, A4, A5, A6, A7, A8, A9, A10, A11, A12, A13, A14, A15, A16⟩, T0, T1, T2, T3, T4, T5, T6, T7, T8, T9, T10, T11, T12, T13, T14, T15, T16⟩
  isplitl [A0]; · iexact A0
  isplitl [T0]; · iexact T0
  isplitl [A1 A5 A9 A13 T1 T5 T9 T13]
  ·
    isplitl [A1]; · iexact A1
    isplitl [A5]; · iexact A5
    isplitl [A9]; · iexact A9
    isplitl [A13]; · iexact A13
    isplitl [T1]; · iexact T1
    isplitl [T5]; · iexact T5
    isplitl [T9]; · iexact T9
    iexact T13
  isplitl [A2 A6 A10 A14 T2 T6 T10 T14]
  ·
    isplitl [A2]; · iexact A2
    isplitl [A6]; · iexact A6
    isplitl [A10]; · iexact A10
    isplitl [A14]; · iexact A14
    isplitl [T2]; · iexact T2
    isplitl [T6]; · iexact T6
    isplitl [T10]; · iexact T10
    iexact T14
  isplitl [A3 A7 A11 A15 T3 T7 T11 T15]
  ·
    isplitl [A3]; · iexact A3
    isplitl [A7]; · iexact A7
    isplitl [A11]; · iexact A11
    isplitl [A15]; · iexact A15
    isplitl [T3]; · iexact T3
    isplitl [T7]; · iexact T7
    isplitl [T11]; · iexact T11
    iexact T15
  isplitl [A4]; · iexact A4
  isplitl [A8]; · iexact A8
  isplitl [A12]; · iexact A12
  isplitl [A16]; · iexact A16
  isplitl [T4]; · iexact T4
  isplitl [T8]; · iexact T8
  isplitl [T12]; · iexact T12
  iexact T16

theorem ghost_intro (K : Dev nD × Fin 17 → ℕ) (c : Dev nD) : iprop(records m K ∗ linear c) ⊢ G' m c := by
  unfold G'
  iintro ⟨HR, HL⟩
  iexists K
  isplitl [HR] <;> iassumption

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 17 => iprop(∃ κ : ℕ, cellInv ER (Rd m) κ (kcell (c, k))))
          ∗ (bigSep Finset.univ fun k : Fin 17 => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 17 => iprop(∃ κ : ℕ, cellInv ER (Rd m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun k : Fin 17 => (atPos ER (kcell (c, k)) 0 ∅ 0 : sProp 𝕄)) payToks).symm).trans
      (bigSep_mono fun c _ => linear_intro c))
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

/-- What device `c`'s region starts from, besides its scratch buffers: the ghost state at some names, the level facts
    and the credits of the nine landings it will wait for. -/
def start (c : Dev nD) : sProp 𝕄 :=
  iprop(G' m c ∗ levAts L lv ∗ cred (tallyAt (barCell c) () 1) ∗ credE c 0 ∗ credE c 1 ∗ credE c 2 ∗ credE c 3)

theorem start_intro (c : Dev nD) :
    iprop(Pipeline.unscopedRestP Pipeline.Prefetch.none cfg0.spec c (fun b => m ((c : Thread nD τ).loc b)) ∗ levAts L lv
        ∗ Pipeline.launchCred (fun d => owedFrom d 0) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hlev]; · iexact Hlev
    iexact Hc
  · iempintro

omit [FloatOps F] in
/-- Batch entry `b`'s part of the invariant before the first point. -/
theorem entPart_zero (c : Dev nD) (b : Fin 4) :
    iprop(entGhost c b ∗ credE c b ∗ (∃ f, obPts c b f) ∗ (∃ f, sbPts c b f) ∗ (∃ f, robPts c b f) ∗ (∃ f, rsbPts c b f))
      ⊢ (entPart c 0 b : sProp 𝕄) := by
  unfold entPart entGhost credE
  rw [if_neg (by omega), if_neg (by omega)]
  iintro ⟨⟨A0, A1, A2, A3, T0, T1, T2, T3⟩, ⟨C1, C3⟩, HO, HS, HRO, HRS⟩
  isplitl [A0]; · iexact A0
  isplitl [A1]; · iexact A1
  isplitl [A2]; · iexact A2
  isplitl [A3]; · iexact A3
  isplitl [C1]; · iexact C1
  isplitl [C3]; · iexact C3
  isplitl [HO]; · iexact HO
  isplitl [HS]; · iexact HS
  isplitl [T0]; · iexact T0
  isplitl [T1]; · iexact T1
  isplitl [T2]; · iexact T2
  isplitl [T3]; · iexact T3
  isplitl [HRO]; · iexact HRO
  iexact HRS

theorem Phi_zero (c : Dev nD) : (dats m 0 c).Φ 0 = PhiMid m c 0 := by
  show (if (0 : Fin (cfg0.N + 1)).val < 16 then PhiMid m c (0 : Fin (cfg0.N + 1)).val else PhiEnd m c) = _
  exact if_pos (by decide)

theorem Phi_last (c : Dev nD) : (dats m 0 c).Φ (Fin.last cfg0.N) = PhiEnd m c := by
  show (if (Fin.last cfg0.N).val < 16 then PhiMid m c (Fin.last cfg0.N).val else PhiEnd m c) = _
  exact if_neg (by decide)

omit [FloatOps F] in
theorem evDone_last : evDone (Fin.last cfg0.N).val = 9 := by decide

theorem owed_last (c : Dev nD) : (dats m 0 c).owed (Fin.last cfg0.N) = 0 := by
  show owedFrom c (evDone (Fin.last cfg0.N).val) = 0
  rw [evDone_last]; exact owedFrom_nine c

theorem phi0_intro
    (ob_split : ∀ (c : Dev nD) (f : OTy F), (whole c cc0_scratch3 f : sProp 𝕄) ⊣⊢ iprop(obPts c 0 f ∗ obPts c 1 f ∗ obPts c 2 f ∗ obPts c 3 f))
    (sb_split : ∀ (c : Dev nD) (f : STy F), (whole c cc0_scratch4 f : sProp 𝕄) ⊣⊢ iprop(sbPts c 0 f ∗ sbPts c 1 f ∗ sbPts c 2 f ∗ sbPts c 3 f))
    (rob_split : ∀ (c : Dev nD) (f : OTy F), (whole c cc0_scratch5 f : sProp 𝕄) ⊣⊢ iprop(robPts c 0 f ∗ robPts c 1 f ∗ robPts c 2 f ∗ robPts c 3 f))
    (rsb_split : ∀ (c : Dev nD) (f : STy F), (whole c cc0_scratch6 f : sProp 𝕄) ⊣⊢ iprop(rsbPts c 0 f ∗ rsbPts c 1 f ∗ rsbPts c 2 f ∗ rsbPts c 3 f))
    (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [Phi_zero, scopedRest0_eq]
  unfold start G' linear PhiMid barPart accPart
  rw [if_pos (by decide)]
  iintro ⟨⟨⟨%K, HR, HaB, HtB, HE0, HE1, HE2, HE3⟩, Hlev, HcB, HC0, HC1, HC2, HC3⟩, -, ⟨%f0, H0⟩, ⟨%f1, H1⟩, ⟨%f2, H2⟩, ⟨%f3, H3⟩, ⟨%f4, H4⟩, ⟨%f5, H5⟩, ⟨%f6, H6⟩⟩
  ihave H3' := (ob_split c f3).1 $$ H3
  icases H3' with ⟨O0, O1, O2, O3⟩
  ihave H4' := (sb_split c f4).1 $$ H4
  icases H4' with ⟨S0, S1, S2, S3⟩
  ihave H5' := (rob_split c f5).1 $$ H5
  icases H5' with ⟨R0, R1, R2, R3⟩
  ihave H6' := (rsb_split c f6).1 $$ H6
  icases H6' with ⟨Q0, Q1, Q2, Q3⟩
  iexists K
  isplitl [HR]; · iexact HR
  isplitl [Hlev]; · iexact Hlev
  isplitl [HtB HcB HaB]
  · isplitl [HtB]; · iexact HtB
    isplitl [HcB]; · iexact HcB
    iexact HaB
  isplitl [HE0 HC0 O0 S0 R0 Q0]
  · iapply (entPart_zero c 0)
    isplitl [HE0]; · iexact HE0
    isplitl [HC0]; · iexact HC0
    isplitl [O0]; · iexists f3; iexact O0
    isplitl [S0]; · iexists f4; iexact S0
    isplitl [R0]; · iexists f5; iexact R0
    iexists f6; iexact Q0
  isplitl [HE1 HC1 O1 S1 R1 Q1]
  · iapply (entPart_zero c 1)
    isplitl [HE1]; · iexact HE1
    isplitl [HC1]; · iexact HC1
    isplitl [O1]; · iexists f3; iexact O1
    isplitl [S1]; · iexists f4; iexact S1
    isplitl [R1]; · iexists f5; iexact R1
    iexists f6; iexact Q1
  isplitl [HE2 HC2 O2 S2 R2 Q2]
  · iapply (entPart_zero c 2)
    isplitl [HE2]; · iexact HE2
    isplitl [HC2]; · iexact HC2
    isplitl [O2]; · iexists f3; iexact O2
    isplitl [S2]; · iexists f4; iexact S2
    isplitl [R2]; · iexists f5; iexact R2
    iexists f6; iexact Q2
  isplitl [HE3 HC3 O3 S3 R3 Q3]
  · iapply (entPart_zero c 3)
    isplitl [HE3]; · iexact HE3
    isplitl [HC3]; · iexact HC3
    isplitl [O3]; · iexists f3; iexact O3
    isplitl [S3]; · iexists f4; iexact S3
    isplitl [R3]; · iexists f5; iexact R3
    iexists f6; iexact Q3
  iexists f0, f1, f2
  isplitr
  · ipureintro; intro h; exact absurd (Nat.zero_mod 4) h
  isplitl [H0]; · iexact H0
  isplitl [H1]; · iexact H1
  iexact H2

theorem phi1_exit (c : Dev nD) :
    (dats m 0 c).Φ (Fin.last cfg0.N) ⊢ iprop(emp ∗ Pipeline.ownSems0 osem c ∗ Pipeline.scopedRest cfg0.spec c) := by
  rw [Phi_last, scopedRest0_eq]
  unfold PhiEnd Pipeline.ownSems0
  iintro ⟨H0, H1, H2, H3, H4, H5, H6, HS⟩
  isplitr; · iempintro
  isplitl [HS]; · iexact HS
  isplitl [H0]; · iexact H0
  isplitl [H1]; · iexact H1
  isplitl [H2]; · iexact H2
  isplitl [H3]; · iexists (OV m c); iexact H3
  isplitl [H4]; · iexists (SV m c); iexact H4
  isplitl [H5]; · iexists (OV m (nbr c)); iexact H5
  iexists (SV m (nbr c)); iexact H6

/-! ## The run -/

set_option maxRecDepth 8000 in
/-- At the compiled mesh of sixteen devices, for any float values, from any memory with zero counters: given each device's
    body obligation, every weakly fair execution of the program terminates, and every final state has each device's
    arrays at the contents the proof data computes. -/
theorem run_main
    (ob_split : ∀ (c : Dev nD) (f : OTy F), (whole c cc0_scratch3 f : sProp 𝕄) ⊣⊢ iprop(obPts c 0 f ∗ obPts c 1 f ∗ obPts c 2 f ∗ obPts c 3 f))
    (sb_split : ∀ (c : Dev nD) (f : STy F), (whole c cc0_scratch4 f : sProp 𝕄) ⊣⊢ iprop(sbPts c 0 f ∗ sbPts c 1 f ∗ sbPts c 2 f ∗ sbPts c 3 f))
    (rob_split : ∀ (c : Dev nD) (f : OTy F), (whole c cc0_scratch5 f : sProp 𝕄) ⊣⊢ iprop(robPts c 0 f ∗ robPts c 1 f ∗ robPts c 2 f ∗ robPts c 3 f))
    (rsb_split : ∀ (c : Dev nD) (f : STy F), (whole c cc0_scratch6 f : sProp 𝕄) ⊣⊢ iprop(rsbPts c 0 f ∗ rsbPts c 1 f ∗ rsbPts c 2 f ∗ rsbPts c 3 f))
    (hbody : ∀ c : Dev nD, Pipeline.BodyObligationLoose (dats (F := F) m 0 c) (defs₀ (F := F)) 𝒱₀ () Set.univ) :
    θ_run defs (onTc (τ := τ) (main (F := F))) (s₀ m ρ)
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := fun d => owedFrom d 0) (howed₀ := fun _ => rfl) (howedN := owed_last m)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ob_split sb_split rob_split rsb_split) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

end Cert.KernelProof

end
-- ==== Proof.KSlices.lean ====
/-
  The four scratch buffers of the cross-device exchange, cut into their per-batch-entry slices.

  A buffer of shape [4, …] is held as four pieces, piece b the elements whose leading coordinate is b. This module
  shows: the whole buffer is the four pieces together; a copy of piece b of one buffer over piece b of another
  same-shaped buffer leaves, on that piece, the source's contents; a store of a [1, …] block at leading offset b
  through the whole buffer rewrites exactly piece b.
-/
import proofs.«900428_g7700000000000429_dist_flashdec_v7x_xyz2x2x4_y_b4_sq32_skv4096_h8_d128_f32_1_alg».proof.Proof.KProtocol
import Idealize.ShloMosaic.Lib.Pipeline.Value
import Idealize.ShloMosaic.Lib.ValueIdx

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Unit rectangles of a rank-four shape, by the leading coordinates -/

/-- A block of one leading coordinate and the whole of the other three axes holds the indices whose leading
    coordinate is the block's offset. -/
theorem mem_unit_lead {n0 n1 n2 n3 o : ℕ}
    (inb : ∀ a, (![o, 0, 0, 0] : Fin 4 → ℕ) a + (![1, n1, n2, n3] : Fin 4 → ℕ) a ≤ (⟨4, ![n0, n1, n2, n3]⟩ : Shape).size a)
    (i : (⟨4, ![n0, n1, n2, n3]⟩ : Shape).Idx) :
    i ∈ (Rect.unit (s := ⟨4, ![n0, n1, n2, n3]⟩) ![o, 0, 0, 0] ![1, n1, n2, n3] inb).set ↔ (i 0).val = o := by
  rw [Rect.mem_set_unit]
  constructor
  · intro h
    have h0 : o ≤ (i 0).val ∧ (i 0).val < o + 1 := h 0
    omega
  · intro h a
    match a with
    | ⟨0, _⟩ =>
      show o ≤ (i 0).val ∧ (i 0).val < o + 1
      omega
    | ⟨1, _⟩ =>
      have h1 : (i 1).val < n1 := (i 1).isLt
      show 0 ≤ (i 1).val ∧ (i 1).val < 0 + n1
      omega
    | ⟨2, _⟩ =>
      have h2 : (i 2).val < n2 := (i 2).isLt
      show 0 ≤ (i 2).val ∧ (i 2).val < 0 + n2
      omega
    | ⟨3, _⟩ =>
      have h3 : (i 3).val < n3 := (i 3).isLt
      show 0 ≤ (i 3).val ∧ (i 3).val < 0 + n3
      omega

/-- A block of one leading coordinate, one second coordinate and the whole of the last two axes holds the indices
    with those two coordinates. -/
theorem mem_unit_lead2 {n0 n1 n2 n3 o0 o1 : ℕ}
    (inb : ∀ a, (![o0, o1, 0, 0] : Fin 4 → ℕ) a + (![1, 1, n2, n3] : Fin 4 → ℕ) a ≤ (⟨4, ![n0, n1, n2, n3]⟩ : Shape).size a)
    (i : (⟨4, ![n0, n1, n2, n3]⟩ : Shape).Idx) :
    i ∈ (Rect.unit (s := ⟨4, ![n0, n1, n2, n3]⟩) ![o0, o1, 0, 0] ![1, 1, n2, n3] inb).set
      ↔ (i 0).val = o0 ∧ (i 1).val = o1 := by
  rw [Rect.mem_set_unit]
  constructor
  · intro h
    have h0 : o0 ≤ (i 0).val ∧ (i 0).val < o0 + 1 := h 0
    have h1 : o1 ≤ (i 1).val ∧ (i 1).val < o1 + 1 := h 1
    omega
  · intro h a
    match a with
    | ⟨0, _⟩ =>
      show o0 ≤ (i 0).val ∧ (i 0).val < o0 + 1
      omega
    | ⟨1, _⟩ =>
      show o1 ≤ (i 1).val ∧ (i 1).val < o1 + 1
      omega
    | ⟨2, _⟩ =>
      have h2 : (i 2).val < n2 := (i 2).isLt
      show 0 ≤ (i 2).val ∧ (i 2).val < 0 + n2
      omega
    | ⟨3, _⟩ =>
      have h3 : (i 3).val < n3 := (i 3).isLt
      show 0 ≤ (i 3).val ∧ (i 3).val < 0 + n3
      omega

/-! ## Four pieces by the leading coordinate -/

section Lead
variable {n1 n2 n3 : ℕ}

/-- Four sets that hold the indices of leading coordinate 0, 1, 2, 3 of a `[4, …]` shape hold every index. -/
theorem lead_cover {S0 S1 S2 S3 : Finset (⟨4, ![4, n1, n2, n3]⟩ : Shape).Idx}
    (h0 : ∀ i, Iff (i ∈ S0) ((i 0).val = 0)) (h1 : ∀ i, Iff (i ∈ S1) ((i 0).val = 1))
    (h2 : ∀ i, Iff (i ∈ S2) ((i 0).val = 2)) (h3 : ∀ i, Iff (i ∈ S3) ((i 0).val = 3)) :
    Finset.univ = S0 ∪ (S1 ∪ (S2 ∪ S3)) := by
  ext i
  have h4 : (i 0).val < 4 := (i 0).isLt
  simp only [Finset.mem_univ, Finset.mem_union, h0 i, h1 i, h2 i, h3 i, true_iff]
  omega

/-- Sets that hold the indices of two different leading coordinates share none. -/
theorem lead_disjoint {S T : Finset (⟨4, ![4, n1, n2, n3]⟩ : Shape).Idx} {a b : ℕ}
    (hS : ∀ i, Iff (i ∈ S) ((i 0).val = a)) (hT : ∀ i, Iff (i ∈ T) ((i 0).val = b)) (h : a ≠ b) : Disjoint S T :=
  Finset.disjoint_left.mpr fun i ha hb => h (((hS i).mp ha).symm.trans ((hT i).mp hb))

end Lead

/-- A buffer held whole is held as four pieces that are pairwise disjoint and together everything. -/
theorem pointsTo_split4 (ℓ : Loc nD τ sig) (f : Buf (Elt F) ℓ) {S0 S1 S2 S3 : Finset (Idx ℓ)}
    (hU : Finset.univ = S0 ∪ (S1 ∪ (S2 ∪ S3)))
    (d01 : Disjoint S0 S1) (d02 : Disjoint S0 S2) (d03 : Disjoint S0 S3)
    (d12 : Disjoint S1 S2) (d13 : Disjoint S1 S3) (d23 : Disjoint S2 S3) :
    ((ℓ ↦{fullShare} f : sProp 𝕄))
      ⊣⊢ iprop((ℓ ↦[S0]{fullShare} f) ∗ (ℓ ↦[S1]{fullShare} f) ∗ (ℓ ↦[S2]{fullShare} f) ∗ (ℓ ↦[S3]{fullShare} f)) := by
  have e : ((ℓ ↦{fullShare} f : sProp 𝕄)) = (ℓ ↦[S0 ∪ (S1 ∪ (S2 ∪ S3))]{fullShare} f) :=
    congrArg (fun I => (ℓ ↦[I]{fullShare} f : sProp 𝕄)) hU
  refine (BiEntails.of_eq e).trans ?_
  refine (Region.is_union (Finset.disjoint_union_right.mpr ⟨d01, Finset.disjoint_union_right.mpr ⟨d02, d03⟩⟩)).trans ?_
  refine sep_congr_right ?_
  refine (Region.is_union (Finset.disjoint_union_right.mpr ⟨d12, d13⟩)).trans ?_
  refine sep_congr_right ?_
  exact Region.is_union d23

/-! ## The output buffer as its four slices -/

/-- Slice 0 holds the elements whose leading coordinate is 0. -/
theorem mem_oB0 (i : S4x32x8x128.Idx) : Iff (i ∈ (oSl oB 0).view.set) ((i 0).val = 0) := by
  rw [View.set_reshape, View.set_slice_whole]; exact mem_unit_lead _ i
/-- Slice 1 holds the elements whose leading coordinate is 1. -/
theorem mem_oB1 (i : S4x32x8x128.Idx) : Iff (i ∈ (oSl oB 1).view.set) ((i 0).val = 1) := by
  rw [View.set_reshape, View.set_slice_whole]; exact mem_unit_lead _ i
/-- Slice 2 holds the elements whose leading coordinate is 2. -/
theorem mem_oB2 (i : S4x32x8x128.Idx) : Iff (i ∈ (oSl oB 2).view.set) ((i 0).val = 2) := by
  rw [View.set_reshape, View.set_slice_whole]; exact mem_unit_lead _ i
/-- Slice 3 holds the elements whose leading coordinate is 3. -/
theorem mem_oB3 (i : S4x32x8x128.Idx) : Iff (i ∈ (oSl oB 3).view.set) ((i 0).val = 3) := by
  rw [View.set_reshape, View.set_slice_whole]; exact mem_unit_lead _ i

/-- The four slices' elements are all the elements. -/
theorem oB_cover : (Finset.univ : Finset S4x32x8x128.Idx) = (oSl oB 0).view.set ∪ ((oSl oB 1).view.set ∪ ((oSl oB 2).view.set ∪ (oSl oB 3).view.set)) :=
  lead_cover mem_oB0 mem_oB1 mem_oB2 mem_oB3

theorem oB_disj01 : Disjoint (oSl oB 0).view.set (oSl oB 1).view.set := lead_disjoint mem_oB0 mem_oB1 (by decide)
theorem oB_disj02 : Disjoint (oSl oB 0).view.set (oSl oB 2).view.set := lead_disjoint mem_oB0 mem_oB2 (by decide)
theorem oB_disj03 : Disjoint (oSl oB 0).view.set (oSl oB 3).view.set := lead_disjoint mem_oB0 mem_oB3 (by decide)
theorem oB_disj12 : Disjoint (oSl oB 1).view.set (oSl oB 2).view.set := lead_disjoint mem_oB1 mem_oB2 (by decide)
theorem oB_disj13 : Disjoint (oSl oB 1).view.set (oSl oB 3).view.set := lead_disjoint mem_oB1 mem_oB3 (by decide)
theorem oB_disj23 : Disjoint (oSl oB 2).view.set (oSl oB 3).view.set := lead_disjoint mem_oB2 mem_oB3 (by decide)

/-- The whole output buffer is its four slices. -/
theorem ob_split (c : Dev nD) (f : OTy F) :
    ((((c : Thread nD τ).loc cc0_scratch3) ↦{fullShare} f : sProp 𝕄))
      ⊣⊢ iprop(obPts c 0 f ∗ obPts c 1 f ∗ obPts c 2 f ∗ obPts c 3 f) := by
  show _ ⊣⊢ iprop(slPts c (oSl oB 0) f ∗ slPts c (oSl oB 1) f ∗ slPts c (oSl oB 2) f ∗ slPts c (oSl oB 3) f)
  exact pointsTo_split4 (F := F) ((c : Thread nD τ).loc cc0_scratch3) f
    (S0 := (oSl oB 0).view.set) (S1 := (oSl oB 1).view.set) (S2 := (oSl oB 2).view.set) (S3 := (oSl oB 3).view.set)
    oB_cover oB_disj01 oB_disj02 oB_disj03 oB_disj12 oB_disj13 oB_disj23

/-! ## The output receive buffer as its four slices -/

/-- Slice 0 holds the elements whose leading coordinate is 0. -/
theorem mem_roB0 (i : S4x32x8x128.Idx) : Iff (i ∈ (oSl roB 0).view.set) ((i 0).val = 0) := by
  rw [View.set_reshape, View.set_slice_whole]; exact mem_unit_lead _ i
/-- Slice 1 holds the elements whose leading coordinate is 1. -/
theorem mem_roB1 (i : S4x32x8x128.Idx) : Iff (i ∈ (oSl roB 1).view.set) ((i 0).val = 1) := by
  rw [View.set_reshape, View.set_slice_whole]; exact mem_unit_lead _ i
/-- Slice 2 holds the elements whose leading coordinate is 2. -/
theorem mem_roB2 (i : S4x32x8x128.Idx) : Iff (i ∈ (oSl roB 2).view.set) ((i 0).val = 2) := by
  rw [View.set_reshape, View.set_slice_whole]; exact mem_unit_lead _ i
/-- Slice 3 holds the elements whose leading coordinate is 3. -/
theorem mem_roB3 (i : S4x32x8x128.Idx) : Iff (i ∈ (oSl roB 3).view.set) ((i 0).val = 3) := by
  rw [View.set_reshape, View.set_slice_whole]; exact mem_unit_lead _ i

/-- The four slices' elements are all the elements. -/
theorem roB_cover : (Finset.univ : Finset S4x32x8x128.Idx) = (oSl roB 0).view.set ∪ ((oSl roB 1).view.set ∪ ((oSl roB 2).view.set ∪ (oSl roB 3).view.set)) :=
  lead_cover mem_roB0 mem_roB1 mem_roB2 mem_roB3

theorem roB_disj01 : Disjoint (oSl roB 0).view.set (oSl roB 1).view.set := lead_disjoint mem_roB0 mem_roB1 (by decide)
theorem roB_disj02 : Disjoint (oSl roB 0).view.set (oSl roB 2).view.set := lead_disjoint mem_roB0 mem_roB2 (by decide)
theorem roB_disj03 : Disjoint (oSl roB 0).view.set (oSl roB 3).view.set := lead_disjoint mem_roB0 mem_roB3 (by decide)
theorem roB_disj12 : Disjoint (oSl roB 1).view.set (oSl roB 2).view.set := lead_disjoint mem_roB1 mem_roB2 (by decide)
theorem roB_disj13 : Disjoint (oSl roB 1).view.set (oSl roB 3).view.set := lead_disjoint mem_roB1 mem_roB3 (by decide)
theorem roB_disj23 : Disjoint (oSl roB 2).view.set (oSl roB 3).view.set := lead_disjoint mem_roB2 mem_roB3 (by decide)

/-- The whole output receive buffer is its four slices. -/
theorem rob_split (c : Dev nD) (f : OTy F) :
    ((((c : Thread nD τ).loc cc0_scratch5) ↦{fullShare} f : sProp 𝕄))
      ⊣⊢ iprop(robPts c 0 f ∗ robPts c 1 f ∗ robPts c 2 f ∗ robPts c 3 f) := by
  show _ ⊣⊢ iprop(slPts c (oSl roB 0) f ∗ slPts c (oSl roB 1) f ∗ slPts c (oSl roB 2) f ∗ slPts c (oSl roB 3) f)
  exact pointsTo_split4 (F := F) ((c : Thread nD τ).loc cc0_scratch5) f
    (S0 := (oSl roB 0).view.set) (S1 := (oSl roB 1).view.set) (S2 := (oSl roB 2).view.set) (S3 := (oSl roB 3).view.set)
    roB_cover roB_disj01 roB_disj02 roB_disj03 roB_disj12 roB_disj13 roB_disj23

/-! ## The statistics buffer as its four slices -/

/-- Slice 0 holds the elements whose leading coordinate is 0. -/
theorem mem_sB0 (i : S4x2x8x32.Idx) : Iff (i ∈ (sSl sB 0).view.set) ((i 0).val = 0) := by
  rw [View.set_reshape, View.set_slice_whole]; exact mem_unit_lead _ i
/-- Slice 1 holds the elements whose leading coordinate is 1. -/
theorem mem_sB1 (i : S4x2x8x32.Idx) : Iff (i ∈ (sSl sB 1).view.set) ((i 0).val = 1) := by
  rw [View.set_reshape, View.set_slice_whole]; exact mem_unit_lead _ i
/-- Slice 2 holds the elements whose leading coordinate is 2. -/
theorem mem_sB2 (i : S4x2x8x32.Idx) : Iff (i ∈ (sSl sB 2).view.set) ((i 0).val = 2) := by
  rw [View.set_reshape, View.set_slice_whole]; exact mem_unit_lead _ i
/-- Slice 3 holds the elements whose leading coordinate is 3. -/
theorem mem_sB3 (i : S4x2x8x32.Idx) : Iff (i ∈ (sSl sB 3).view.set) ((i 0).val = 3) := by
  rw [View.set_reshape, View.set_slice_whole]; exact mem_unit_lead _ i

/-- The four slices' elements are all the elements. -/
theorem sB_cover : (Finset.univ : Finset S4x2x8x32.Idx) = (sSl sB 0).view.set ∪ ((sSl sB 1).view.set ∪ ((sSl sB 2).view.set ∪ (sSl sB 3).view.set)) :=
  lead_cover mem_sB0 mem_sB1 mem_sB2 mem_sB3

theorem sB_disj01 : Disjoint (sSl sB 0).view.set (sSl sB 1).view.set := lead_disjoint mem_sB0 mem_sB1 (by decide)
theorem sB_disj02 : Disjoint (sSl sB 0).view.set (sSl sB 2).view.set := lead_disjoint mem_sB0 mem_sB2 (by decide)
theorem sB_disj03 : Disjoint (sSl sB 0).view.set (sSl sB 3).view.set := lead_disjoint mem_sB0 mem_sB3 (by decide)
theorem sB_disj12 : Disjoint (sSl sB 1).view.set (sSl sB 2).view.set := lead_disjoint mem_sB1 mem_sB2 (by decide)
theorem sB_disj13 : Disjoint (sSl sB 1).view.set (sSl sB 3).view.set := lead_disjoint mem_sB1 mem_sB3 (by decide)
theorem sB_disj23 : Disjoint (sSl sB 2).view.set (sSl sB 3).view.set := lead_disjoint mem_sB2 mem_sB3 (by decide)

/-- The whole statistics buffer is its four slices. -/
theorem sb_split (c : Dev nD) (f : STy F) :
    ((((c : Thread nD τ).loc cc0_scratch4) ↦{fullShare} f : sProp 𝕄))
      ⊣⊢ iprop(sbPts c 0 f ∗ sbPts c 1 f ∗ sbPts c 2 f ∗ sbPts c 3 f) := by
  show _ ⊣⊢ iprop(slPts c (sSl sB 0) f ∗ slPts c (sSl sB 1) f ∗ slPts c (sSl sB 2) f ∗ slPts c (sSl sB 3) f)
  exact pointsTo_split4 (F := F) ((c : Thread nD τ).loc cc0_scratch4) f
    (S0 := (sSl sB 0).view.set) (S1 := (sSl sB 1).view.set) (S2 := (sSl sB 2).view.set) (S3 := (sSl sB 3).view.set)
    sB_cover sB_disj01 sB_disj02 sB_disj03 sB_disj12 sB_disj13 sB_disj23

/-! ## The statistics receive buffer as its four slices -/

/-- Slice 0 holds the elements whose leading coordinate is 0. -/
theorem mem_rsB0 (i : S4x2x8x32.Idx) : Iff (i ∈ (sSl rsB 0).view.set) ((i 0).val = 0) := by
  rw [View.set_reshape, View.set_slice_whole]; exact mem_unit_lead _ i
/-- Slice 1 holds the elements whose leading coordinate is 1. -/
theorem mem_rsB1 (i : S4x2x8x32.Idx) : Iff (i ∈ (sSl rsB 1).view.set) ((i 0).val = 1) := by
  rw [View.set_reshape, View.set_slice_whole]; exact mem_unit_lead _ i
/-- Slice 2 holds the elements whose leading coordinate is 2. -/
theorem mem_rsB2 (i : S4x2x8x32.Idx) : Iff (i ∈ (sSl rsB 2).view.set) ((i 0).val = 2) := by
  rw [View.set_reshape, View.set_slice_whole]; exact mem_unit_lead _ i
/-- Slice 3 holds the elements whose leading coordinate is 3. -/
theorem mem_rsB3 (i : S4x2x8x32.Idx) : Iff (i ∈ (sSl rsB 3).view.set) ((i 0).val = 3) := by
  rw [View.set_reshape, View.set_slice_whole]; exact mem_unit_lead _ i

/-- The four slices' elements are all the elements. -/
theorem rsB_cover : (Finset.univ : Finset S4x2x8x32.Idx) = (sSl rsB 0).view.set ∪ ((sSl rsB 1).view.set ∪ ((sSl rsB 2).view.set ∪ (sSl rsB 3).view.set)) :=
  lead_cover mem_rsB0 mem_rsB1 mem_rsB2 mem_rsB3

theorem rsB_disj01 : Disjoint (sSl rsB 0).view.set (sSl rsB 1).view.set := lead_disjoint mem_rsB0 mem_rsB1 (by decide)
theorem rsB_disj02 : Disjoint (sSl rsB 0).view.set (sSl rsB 2).view.set := lead_disjoint mem_rsB0 mem_rsB2 (by decide)
theorem rsB_disj03 : Disjoint (sSl rsB 0).view.set (sSl rsB 3).view.set := lead_disjoint mem_rsB0 mem_rsB3 (by decide)
theorem rsB_disj12 : Disjoint (sSl rsB 1).view.set (sSl rsB 2).view.set := lead_disjoint mem_rsB1 mem_rsB2 (by decide)
theorem rsB_disj13 : Disjoint (sSl rsB 1).view.set (sSl rsB 3).view.set := lead_disjoint mem_rsB1 mem_rsB3 (by decide)
theorem rsB_disj23 : Disjoint (sSl rsB 2).view.set (sSl rsB 3).view.set := lead_disjoint mem_rsB2 mem_rsB3 (by decide)

/-- The whole statistics receive buffer is its four slices. -/
theorem rsb_split (c : Dev nD) (f : STy F) :
    ((((c : Thread nD τ).loc cc0_scratch6) ↦{fullShare} f : sProp 𝕄))
      ⊣⊢ iprop(rsbPts c 0 f ∗ rsbPts c 1 f ∗ rsbPts c 2 f ∗ rsbPts c 3 f) := by
  show _ ⊣⊢ iprop(slPts c (sSl rsB 0) f ∗ slPts c (sSl rsB 1) f ∗ slPts c (sSl rsB 2) f ∗ slPts c (sSl rsB 3) f)
  exact pointsTo_split4 (F := F) ((c : Thread nD τ).loc cc0_scratch6) f
    (S0 := (sSl rsB 0).view.set) (S1 := (sSl rsB 1).view.set) (S2 := (sSl rsB 2).view.set) (S3 := (sSl rsB 3).view.set)
    rsB_cover rsB_disj01 rsB_disj02 rsB_disj03 rsB_disj12 rsB_disj13 rsB_disj23

/-! ## A copy of slice `b` of one buffer over slice `b` of a same-shaped buffer

The two slices place an index of the slice shape at the same index of the two buffers, so on the destination slice the
landed contents are the source's. -/

/-- Output rows landed in the receive buffer are, on that slice, the source buffer's contents. -/
theorem land_o0 (c : Dev nD) (fd fs : OTy F) :
    slPts c (oSl roB 0) ((oSl roB 0).view.write (Elt F) fd ((oSl oB 0).view.read (Elt F) fs) Finset.univ)
      = slPts c (oSl roB 0) fs := by
  refine Region.is_congr fun i hi => ?_
  obtain ⟨x, hx⟩ := View.exists_emb_of_mem_set _ hi
  rw [← hx, View.write_emb_of_mem _ _ (Finset.mem_univ x), View.read_apply, cast_cast, cast_eq]
  rfl

/-- Output rows landed in the receive buffer are, on that slice, the source buffer's contents. -/
theorem land_o1 (c : Dev nD) (fd fs : OTy F) :
    slPts c (oSl roB 1) ((oSl roB 1).view.write (Elt F) fd ((oSl oB 1).view.read (Elt F) fs) Finset.univ)
      = slPts c (oSl roB 1) fs := by
  refine Region.is_congr fun i hi => ?_
  obtain ⟨x, hx⟩ := View.exists_emb_of_mem_set _ hi
  rw [← hx, View.write_emb_of_mem _ _ (Finset.mem_univ x), View.read_apply, cast_cast, cast_eq]
  rfl

/-- Output rows landed in the receive buffer are, on that slice, the source buffer's contents. -/
theorem land_o2 (c : Dev nD) (fd fs : OTy F) :
    slPts c (oSl roB 2) ((oSl roB 2).view.write (Elt F) fd ((oSl oB 2).view.read (Elt F) fs) Finset.univ)
      = slPts c (oSl roB 2) fs := by
  refine Region.is_congr fun i hi => ?_
  obtain ⟨x, hx⟩ := View.exists_emb_of_mem_set _ hi
  rw [← hx, View.write_emb_of_mem _ _ (Finset.mem_univ x), View.read_apply, cast_cast, cast_eq]
  rfl

/-- Output rows landed in the receive buffer are, on that slice, the source buffer's contents. -/
theorem land_o3 (c : Dev nD) (fd fs : OTy F) :
    slPts c (oSl roB 3) ((oSl roB 3).view.write (Elt F) fd ((oSl oB 3).view.read (Elt F) fs) Finset.univ)
      = slPts c (oSl roB 3) fs := by
  refine Region.is_congr fun i hi => ?_
  obtain ⟨x, hx⟩ := View.exists_emb_of_mem_set _ hi
  rw [← hx, View.write_emb_of_mem _ _ (Finset.mem_univ x), View.read_apply, cast_cast, cast_eq]
  rfl

/-- Statistics rows landed in the receive buffer are, on that slice, the source buffer's contents. -/
theorem land_s0 (c : Dev nD) (fd fs : STy F) :
    slPts c (sSl rsB 0) ((sSl rsB 0).view.write (Elt F) fd ((sSl sB 0).view.read (Elt F) fs) Finset.univ)
      = slPts c (sSl rsB 0) fs := by
  refine Region.is_congr fun i hi => ?_
  obtain ⟨x, hx⟩ := View.exists_emb_of_mem_set _ hi
  rw [← hx, View.write_emb_of_mem _ _ (Finset.mem_univ x), View.read_apply, cast_cast, cast_eq]
  rfl

/-- Statistics rows landed in the receive buffer are, on that slice, the source buffer's contents. -/
theorem land_s1 (c : Dev nD) (fd fs : STy F) :
    slPts c (sSl rsB 1) ((sSl rsB 1).view.write (Elt F) fd ((sSl sB 1).view.read (Elt F) fs) Finset.univ)
      = slPts c (sSl rsB 1) fs := by
  refine Region.is_congr fun i hi => ?_
  obtain ⟨x, hx⟩ := View.exists_emb_of_mem_set _ hi
  rw [← hx, View.write_emb_of_mem _ _ (Finset.mem_univ x), View.read_apply, cast_cast, cast_eq]
  rfl

/-- Statistics rows landed in the receive buffer are, on that slice, the source buffer's contents. -/
theorem land_s2 (c : Dev nD) (fd fs : STy F) :
    slPts c (sSl rsB 2) ((sSl rsB 2).view.write (Elt F) fd ((sSl sB 2).view.read (Elt F) fs) Finset.univ)
      = slPts c (sSl rsB 2) fs := by
  refine Region.is_congr fun i hi => ?_
  obtain ⟨x, hx⟩ := View.exists_emb_of_mem_set _ hi
  rw [← hx, View.write_emb_of_mem _ _ (Finset.mem_univ x), View.read_apply, cast_cast, cast_eq]
  rfl

/-- Statistics rows landed in the receive buffer are, on that slice, the source buffer's contents. -/
theorem land_s3 (c : Dev nD) (fd fs : STy F) :
    slPts c (sSl rsB 3) ((sSl rsB 3).view.write (Elt F) fd ((sSl sB 3).view.read (Elt F) fs) Finset.univ)
      = slPts c (sSl rsB 3) fs := by
  refine Region.is_congr fun i hi => ?_
  obtain ⟨x, hx⟩ := View.exists_emb_of_mem_set _ hi
  rw [← hx, View.write_emb_of_mem _ _ (Finset.mem_univ x), View.read_apply, cast_cast, cast_eq]
  rfl

/-! ## A store of one batch entry's block through the whole output buffer -/

/-- After a `[1, 32, 8, 128]` block is stored at leading offset `i 0`, an element of leading coordinate `i 0` holds
    the block's value at its other three coordinates. -/
theorem oB_store_apply (i : grid0.Coords) (h2 : k0_cond2 i = 1#1) (f : OTy F) (w : Vec F S1x32x8x128 .f32)
    (j : S4x32x8x128.Idx) (hj : (j 0).val = (i 0).val) :
    ((oB : Memref sig .tc .vmem S4x32x8x128 .f32).access (Rect.unit (s := S4x32x8x128) (k0_off1 i) S1x32x8x128.size (k0_off1_inb i h2)) : View sig .tc _ _ _).write (Elt F) f w Finset.univ j
      = w (ValueIdx.ix4 (0 : Fin 1) (j 1) (j 2) (j 3)) := by
  have hoff : k0_off1 i = ![(i 0).val, 0, 0, 0] := k0_off1_eq i
  have hx : ((oB : Memref sig .tc .vmem S4x32x8x128 .f32).access (Rect.unit (s := S4x32x8x128) (k0_off1 i) S1x32x8x128.size (k0_off1_inb i h2)) : View sig .tc _ _ _).emb (ValueIdx.ix4 (0 : Fin 1) (j 1) (j 2) (j 3)) = j := by
    funext a
    refine Fin.ext ?_
    match a with
    | ⟨0, _⟩ =>
      show k0_off1 i 0 + 1 * 0 = (j 0).val
      rw [hoff]
      show (i 0).val + 1 * 0 = (j 0).val
      omega
    | ⟨1, _⟩ =>
      show k0_off1 i 1 + 1 * (j 1).val = (j 1).val
      rw [hoff]
      show 0 + 1 * (j 1).val = (j 1).val
      omega
    | ⟨2, _⟩ =>
      show k0_off1 i 2 + 1 * (j 2).val = (j 2).val
      rw [hoff]
      show 0 + 1 * (j 2).val = (j 2).val
      omega
    | ⟨3, _⟩ =>
      show k0_off1 i 3 + 1 * (j 3).val = (j 3).val
      rw [hoff]
      show 0 + 1 * (j 3).val = (j 3).val
      omega
  have hw := View.write_emb_of_mem (v := ((oB : Memref sig .tc .vmem S4x32x8x128 .f32).access (Rect.unit (s := S4x32x8x128) (k0_off1 i) S1x32x8x128.size (k0_off1_inb i h2)) : View sig .tc _ _ _)) (Val := Elt F) f w
    (M := Finset.univ) (x := ValueIdx.ix4 (0 : Fin 1) (j 1) (j 2) (j 3)) (Finset.mem_univ _)
  rw [hx] at hw
  exact hw.trans (cast_eq _ _)

/-- The stored block's elements all have leading coordinate `i 0`. -/
theorem oB_store_mem (i : grid0.Coords) (h2 : k0_cond2 i = 1#1) (j : S4x32x8x128.Idx)
    (hj : j ∈ ((oB : Memref sig .tc .vmem S4x32x8x128 .f32).access (Rect.unit (s := S4x32x8x128) (k0_off1 i) S1x32x8x128.size (k0_off1_inb i h2)) : View sig .tc _ _ _).setOn Finset.univ) : (j 0).val = (i 0).val := by
  have hoff : k0_off1 i = ![(i 0).val, 0, 0, 0] := k0_off1_eq i
  have hj' : j ∈ (Rect.unit (s := S4x32x8x128) (k0_off1 i) S1x32x8x128.size (k0_off1_inb i h2)).set := by
    have h := hj
    rwa [View.setOn_univ, View.set_slice_whole] at h
  have h0 : k0_off1 i 0 ≤ (j 0).val ∧ (j 0).val < k0_off1 i 0 + 1 := (Rect.mem_set_unit.mp hj') 0
  rw [hoff] at h0
  have h0' : (i 0).val ≤ (j 0).val ∧ (j 0).val < (i 0).val + 1 := h0
  omega

/-- On any set of elements of leading coordinate `b = i 0`, the buffer after the store is any contents that agree with
    the block there. -/
theorem oB_store_congr (c : Dev nD) (i : grid0.Coords) (h2 : k0_cond2 i = 1#1) (b : Fin 4) (hb : (i 0).val = b.val)
    (f g : OTy F) (w : Vec F S1x32x8x128 .f32)
    (hg : ∀ x : S1x32x8x128.Idx, g (ValueIdx.ix4 b (x 1) (x 2) (x 3)) = w x)
    (S : Finset S4x32x8x128.Idx) (hS : ∀ j ∈ S, (j 0).val = b.val) :
    ((((c : Thread nD τ).loc cc0_scratch3) ↦[S]{fullShare} (((oB : Memref sig .tc .vmem S4x32x8x128 .f32).access (Rect.unit (s := S4x32x8x128) (k0_off1 i) S1x32x8x128.size (k0_off1_inb i h2)) : View sig .tc _ _ _).write (Elt F) f w Finset.univ) : sProp 𝕄))
      = (((c : Thread nD τ).loc cc0_scratch3) ↦[S]{fullShare} g) := by
  refine Region.is_congr fun j hj => ?_
  have hj0 : (j 0).val = b.val := hS j hj
  refine (oB_store_apply i h2 f w j (hj0.trans hb.symm)).trans ?_
  refine (hg _).symm.trans (congrArg g (funext fun a => Fin.ext ?_))
  match a with
  | ⟨0, _⟩ => exact hj0.symm
  | ⟨1, _⟩ => rfl
  | ⟨2, _⟩ => rfl
  | ⟨3, _⟩ => rfl

/-- The store into batch entry `b = i 0` of the output buffer rewrites slice `b` to any contents that agree with the
    stored block there. -/
theorem store_o (c : Dev nD) (i : grid0.Coords) (h2 : k0_cond2 i = 1#1) :
    (b : Fin 4) → (hb : (i 0).val = b.val) → (f g : OTy F) → (w : Vec F S1x32x8x128 .f32) →
    (hg : ∀ x : S1x32x8x128.Idx, g (ValueIdx.ix4 b (x 1) (x 2) (x 3)) = w x) →
    obPts c b (((oB : Memref sig .tc .vmem S4x32x8x128 .f32).access (Rect.unit (s := S4x32x8x128) (k0_off1 i) S1x32x8x128.size (k0_off1_inb i h2)) : View sig .tc _ _ _).write (Elt F) f w Finset.univ) = obPts c b g
  | 0, hb, f, g, w, hg => oB_store_congr c i h2 0 hb f g w hg _ fun j hj => (mem_oB0 j).mp hj
  | 1, hb, f, g, w, hg => oB_store_congr c i h2 1 hb f g w hg _ fun j hj => (mem_oB1 j).mp hj
  | 2, hb, f, g, w, hg => oB_store_congr c i h2 2 hb f g w hg _ fun j hj => (mem_oB2 j).mp hj
  | 3, hb, f, g, w, hg => oB_store_congr c i h2 3 hb f g w hg _ fun j hj => (mem_oB3 j).mp hj

/-- The store's footprint lies in slice 0 when `i 0 = 0`. -/
theorem store_o_sub0 (i : grid0.Coords) (h2 : k0_cond2 i = 1#1) (hb : (i 0).val = 0) :
    ((oB : Memref sig .tc .vmem S4x32x8x128 .f32).access (Rect.unit (s := S4x32x8x128) (k0_off1 i) S1x32x8x128.size (k0_off1_inb i h2)) : View sig .tc _ _ _).setOn Finset.univ ⊆ (oSl oB 0).view.set :=
  fun j hj => (mem_oB0 j).mpr ((oB_store_mem i h2 j hj).trans hb)
/-- The store's footprint lies in slice 1 when `i 0 = 1`. -/
theorem store_o_sub1 (i : grid0.Coords) (h2 : k0_cond2 i = 1#1) (hb : (i 0).val = 1) :
    ((oB : Memref sig .tc .vmem S4x32x8x128 .f32).access (Rect.unit (s := S4x32x8x128) (k0_off1 i) S1x32x8x128.size (k0_off1_inb i h2)) : View sig .tc _ _ _).setOn Finset.univ ⊆ (oSl oB 1).view.set :=
  fun j hj => (mem_oB1 j).mpr ((oB_store_mem i h2 j hj).trans hb)
/-- The store's footprint lies in slice 2 when `i 0 = 2`. -/
theorem store_o_sub2 (i : grid0.Coords) (h2 : k0_cond2 i = 1#1) (hb : (i 0).val = 2) :
    ((oB : Memref sig .tc .vmem S4x32x8x128 .f32).access (Rect.unit (s := S4x32x8x128) (k0_off1 i) S1x32x8x128.size (k0_off1_inb i h2)) : View sig .tc _ _ _).setOn Finset.univ ⊆ (oSl oB 2).view.set :=
  fun j hj => (mem_oB2 j).mpr ((oB_store_mem i h2 j hj).trans hb)
/-- The store's footprint lies in slice 3 when `i 0 = 3`. -/
theorem store_o_sub3 (i : grid0.Coords) (h2 : k0_cond2 i = 1#1) (hb : (i 0).val = 3) :
    ((oB : Memref sig .tc .vmem S4x32x8x128 .f32).access (Rect.unit (s := S4x32x8x128) (k0_off1 i) S1x32x8x128.size (k0_off1_inb i h2)) : View sig .tc _ _ _).setOn Finset.univ ⊆ (oSl oB 3).view.set :=
  fun j hj => (mem_oB3 j).mpr ((oB_store_mem i h2 j hj).trans hb)

/-! ## The two stores of one batch entry's statistics rows through the whole statistics buffer -/

/-- After a `[1, 1, 8, 32]` block is stored at offsets `(i 0, 0)`, an element of leading coordinates `(i 0, 0)` holds the
    block's value at its last two coordinates. -/
theorem sB_store2_apply (i : grid0.Coords) (h2 : k0_cond2 i = 1#1) (f : STy F) (w : Vec F S1x1x8x32 .f32)
    (j : S4x2x8x32.Idx) (hj0 : (j 0).val = (i 0).val) (hj1 : (j 1).val = 0) :
    ((sB : Memref sig .tc .vmem S4x2x8x32 .f32).access (Rect.unit (s := S4x2x8x32) (k0_off2 i) S1x1x8x32.size (k0_off2_inb i h2)) : View sig .tc _ _ _).write (Elt F) f w Finset.univ j
      = w (ValueIdx.ix4 (0 : Fin 1) (0 : Fin 1) (j 2) (j 3)) := by
  have hoff : k0_off2 i = ![(i 0).val, 0, 0, 0] := k0_off2_eq i
  have hx : ((sB : Memref sig .tc .vmem S4x2x8x32 .f32).access (Rect.unit (s := S4x2x8x32) (k0_off2 i) S1x1x8x32.size (k0_off2_inb i h2)) : View sig .tc _ _ _).emb (ValueIdx.ix4 (0 : Fin 1) (0 : Fin 1) (j 2) (j 3)) = j := by
    funext a
    refine Fin.ext ?_
    match a with
    | ⟨0, _⟩ =>
      show k0_off2 i 0 + 1 * 0 = (j 0).val
      rw [hoff]
      show (i 0).val + 1 * 0 = (j 0).val
      omega
    | ⟨1, _⟩ =>
      show k0_off2 i 1 + 1 * 0 = (j 1).val
      rw [hoff]
      show 0 + 1 * 0 = (j 1).val
      omega
    | ⟨2, _⟩ =>
      show k0_off2 i 2 + 1 * (j 2).val = (j 2).val
      rw [hoff]
      show 0 + 1 * (j 2).val = (j 2).val
      omega
    | ⟨3, _⟩ =>
      show k0_off2 i 3 + 1 * (j 3).val = (j 3).val
      rw [hoff]
      show 0 + 1 * (j 3).val = (j 3).val
      omega
  have hw := View.write_emb_of_mem (v := ((sB : Memref sig .tc .vmem S4x2x8x32 .f32).access (Rect.unit (s := S4x2x8x32) (k0_off2 i) S1x1x8x32.size (k0_off2_inb i h2)) : View sig .tc _ _ _)) (Val := Elt F) f w
    (M := Finset.univ) (x := ValueIdx.ix4 (0 : Fin 1) (0 : Fin 1) (j 2) (j 3)) (Finset.mem_univ _)
  rw [hx] at hw
  exact hw.trans (cast_eq _ _)

/-- The stored block's elements all have leading coordinates `(i 0, 0)`. -/
theorem sB_store2_mem (i : grid0.Coords) (h2 : k0_cond2 i = 1#1) (j : S4x2x8x32.Idx)
    (hj : j ∈ ((sB : Memref sig .tc .vmem S4x2x8x32 .f32).access (Rect.unit (s := S4x2x8x32) (k0_off2 i) S1x1x8x32.size (k0_off2_inb i h2)) : View sig .tc _ _ _).setOn Finset.univ) : (j 0).val = (i 0).val ∧ (j 1).val = 0 := by
  have hoff : k0_off2 i = ![(i 0).val, 0, 0, 0] := k0_off2_eq i
  have hj' : j ∈ (Rect.unit (s := S4x2x8x32) (k0_off2 i) S1x1x8x32.size (k0_off2_inb i h2)).set := by
    have h := hj
    rwa [View.setOn_univ, View.set_slice_whole] at h
  have h0 : k0_off2 i 0 ≤ (j 0).val ∧ (j 0).val < k0_off2 i 0 + 1 := (Rect.mem_set_unit.mp hj') 0
  have h1 : k0_off2 i 1 ≤ (j 1).val ∧ (j 1).val < k0_off2 i 1 + 1 := (Rect.mem_set_unit.mp hj') 1
  rw [hoff] at h0 h1
  have h0' : (i 0).val ≤ (j 0).val ∧ (j 0).val < (i 0).val + 1 := h0
  have h1' : 0 ≤ (j 1).val ∧ (j 1).val < 0 + 1 := h1
  omega

/-- An element off row 0 keeps its contents. -/
theorem sB_store2_off (i : grid0.Coords) (h2 : k0_cond2 i = 1#1) (f : STy F) (w : Vec F S1x1x8x32 .f32)
    (j : S4x2x8x32.Idx) (hj1 : (j 1).val ≠ 0) :
    ((sB : Memref sig .tc .vmem S4x2x8x32 .f32).access (Rect.unit (s := S4x2x8x32) (k0_off2 i) S1x1x8x32.size (k0_off2_inb i h2)) : View sig .tc _ _ _).write (Elt F) f w Finset.univ j = f j :=
  View.write_of_not_mem _ _ _ fun h => hj1 (sB_store2_mem i h2 j h).2

/-- After a `[1, 1, 8, 32]` block is stored at offsets `(i 0, 1)`, an element of leading coordinates `(i 0, 1)` holds the
    block's value at its last two coordinates. -/
theorem sB_store3_apply (i : grid0.Coords) (h2 : k0_cond2 i = 1#1) (f : STy F) (w : Vec F S1x1x8x32 .f32)
    (j : S4x2x8x32.Idx) (hj0 : (j 0).val = (i 0).val) (hj1 : (j 1).val = 1) :
    ((sB : Memref sig .tc .vmem S4x2x8x32 .f32).access (Rect.unit (s := S4x2x8x32) (k0_off3 i) S1x1x8x32.size (k0_off3_inb i h2)) : View sig .tc _ _ _).write (Elt F) f w Finset.univ j
      = w (ValueIdx.ix4 (0 : Fin 1) (0 : Fin 1) (j 2) (j 3)) := by
  have hoff : k0_off3 i = ![(i 0).val, 1, 0, 0] := k0_off3_eq i
  have hx : ((sB : Memref sig .tc .vmem S4x2x8x32 .f32).access (Rect.unit (s := S4x2x8x32) (k0_off3 i) S1x1x8x32.size (k0_off3_inb i h2)) : View sig .tc _ _ _).emb (ValueIdx.ix4 (0 : Fin 1) (0 : Fin 1) (j 2) (j 3)) = j := by
    funext a
    refine Fin.ext ?_
    match a with
    | ⟨0, _⟩ =>
      show k0_off3 i 0 + 1 * 0 = (j 0).val
      rw [hoff]
      show (i 0).val + 1 * 0 = (j 0).val
      omega
    | ⟨1, _⟩ =>
      show k0_off3 i 1 + 1 * 0 = (j 1).val
      rw [hoff]
      show 1 + 1 * 0 = (j 1).val
      omega
    | ⟨2, _⟩ =>
      show k0_off3 i 2 + 1 * (j 2).val = (j 2).val
      rw [hoff]
      show 0 + 1 * (j 2).val = (j 2).val
      omega
    | ⟨3, _⟩ =>
      show k0_off3 i 3 + 1 * (j 3).val = (j 3).val
      rw [hoff]
      show 0 + 1 * (j 3).val = (j 3).val
      omega
  have hw := View.write_emb_of_mem (v := ((sB : Memref sig .tc .vmem S4x2x8x32 .f32).access (Rect.unit (s := S4x2x8x32) (k0_off3 i) S1x1x8x32.size (k0_off3_inb i h2)) : View sig .tc _ _ _)) (Val := Elt F) f w
    (M := Finset.univ) (x := ValueIdx.ix4 (0 : Fin 1) (0 : Fin 1) (j 2) (j 3)) (Finset.mem_univ _)
  rw [hx] at hw
  exact hw.trans (cast_eq _ _)

/-- The stored block's elements all have leading coordinates `(i 0, 1)`. -/
theorem sB_store3_mem (i : grid0.Coords) (h2 : k0_cond2 i = 1#1) (j : S4x2x8x32.Idx)
    (hj : j ∈ ((sB : Memref sig .tc .vmem S4x2x8x32 .f32).access (Rect.unit (s := S4x2x8x32) (k0_off3 i) S1x1x8x32.size (k0_off3_inb i h2)) : View sig .tc _ _ _).setOn Finset.univ) : (j 0).val = (i 0).val ∧ (j 1).val = 1 := by
  have hoff : k0_off3 i = ![(i 0).val, 1, 0, 0] := k0_off3_eq i
  have hj' : j ∈ (Rect.unit (s := S4x2x8x32) (k0_off3 i) S1x1x8x32.size (k0_off3_inb i h2)).set := by
    have h := hj
    rwa [View.setOn_univ, View.set_slice_whole] at h
  have h0 : k0_off3 i 0 ≤ (j 0).val ∧ (j 0).val < k0_off3 i 0 + 1 := (Rect.mem_set_unit.mp hj') 0
  have h1 : k0_off3 i 1 ≤ (j 1).val ∧ (j 1).val < k0_off3 i 1 + 1 := (Rect.mem_set_unit.mp hj') 1
  rw [hoff] at h0 h1
  have h0' : (i 0).val ≤ (j 0).val ∧ (j 0).val < (i 0).val + 1 := h0
  have h1' : 1 ≤ (j 1).val ∧ (j 1).val < 1 + 1 := h1
  omega

/-- An element off row 1 keeps its contents. -/
theorem sB_store3_off (i : grid0.Coords) (h2 : k0_cond2 i = 1#1) (f : STy F) (w : Vec F S1x1x8x32 .f32)
    (j : S4x2x8x32.Idx) (hj1 : (j 1).val ≠ 1) :
    ((sB : Memref sig .tc .vmem S4x2x8x32 .f32).access (Rect.unit (s := S4x2x8x32) (k0_off3 i) S1x1x8x32.size (k0_off3_inb i h2)) : View sig .tc _ _ _).write (Elt F) f w Finset.univ j = f j :=
  View.write_of_not_mem _ _ _ fun h => hj1 (sB_store3_mem i h2 j h).2

/-- On any set of elements of leading coordinate `b = i 0`, the buffer after the store of row 0 is any contents that
    agree with the stored block on row 0 and with the old contents on row 1. -/
theorem sB_store2_congr (c : Dev nD) (i : grid0.Coords) (h2 : k0_cond2 i = 1#1) (b : Fin 4) (hb : (i 0).val = b.val)
    (f g : STy F) (w : Vec F S1x1x8x32 .f32)
    (hg : ∀ x : S1x1x8x32.Idx, g (ValueIdx.ix4 b (0 : Fin 2) (x 2) (x 3)) = w x)
    (hf : ∀ j : S4x2x8x32.Idx, (j 0).val = b.val → (j 1).val = 1 → g j = f j)
    (S : Finset S4x2x8x32.Idx) (hS : ∀ j ∈ S, (j 0).val = b.val) :
    ((((c : Thread nD τ).loc cc0_scratch4) ↦[S]{fullShare} (((sB : Memref sig .tc .vmem S4x2x8x32 .f32).access (Rect.unit (s := S4x2x8x32) (k0_off2 i) S1x1x8x32.size (k0_off2_inb i h2)) : View sig .tc _ _ _).write (Elt F) f w Finset.univ) : sProp 𝕄))
      = (((c : Thread nD τ).loc cc0_scratch4) ↦[S]{fullShare} g) := by
  refine Region.is_congr fun j hj => ?_
  have hj0 : (j 0).val = b.val := hS j hj
  have hlt : (j 1).val < 2 := (j 1).isLt
  by_cases hj1 : (j 1).val = 0
  · refine (sB_store2_apply i h2 f w j (hj0.trans hb.symm) hj1).trans ?_
    refine (hg _).symm.trans (congrArg g (funext fun a => Fin.ext ?_))
    match a with
    | ⟨0, _⟩ => exact hj0.symm
    | ⟨1, _⟩ => exact hj1.symm
    | ⟨2, _⟩ => rfl
    | ⟨3, _⟩ => rfl
  · exact (sB_store2_off i h2 f w j hj1).trans (hf j hj0 (by omega)).symm

/-- On any set of elements of leading coordinate `b = i 0`, the buffer after the store of row 1 is any contents that
    agree with the stored block on row 1 and with the old contents on row 0. -/
theorem sB_store3_congr (c : Dev nD) (i : grid0.Coords) (h2 : k0_cond2 i = 1#1) (b : Fin 4) (hb : (i 0).val = b.val)
    (f g : STy F) (w : Vec F S1x1x8x32 .f32)
    (hg : ∀ x : S1x1x8x32.Idx, g (ValueIdx.ix4 b (1 : Fin 2) (x 2) (x 3)) = w x)
    (hf : ∀ j : S4x2x8x32.Idx, (j 0).val = b.val → (j 1).val = 0 → g j = f j)
    (S : Finset S4x2x8x32.Idx) (hS : ∀ j ∈ S, (j 0).val = b.val) :
    ((((c : Thread nD τ).loc cc0_scratch4) ↦[S]{fullShare} (((sB : Memref sig .tc .vmem S4x2x8x32 .f32).access (Rect.unit (s := S4x2x8x32) (k0_off3 i) S1x1x8x32.size (k0_off3_inb i h2)) : View sig .tc _ _ _).write (Elt F) f w Finset.univ) : sProp 𝕄))
      = (((c : Thread nD τ).loc cc0_scratch4) ↦[S]{fullShare} g) := by
  refine Region.is_congr fun j hj => ?_
  have hj0 : (j 0).val = b.val := hS j hj
  have hlt : (j 1).val < 2 := (j 1).isLt
  by_cases hj1 : (j 1).val = 1
  · refine (sB_store3_apply i h2 f w j (hj0.trans hb.symm) hj1).trans ?_
    refine (hg _).symm.trans (congrArg g (funext fun a => Fin.ext ?_))
    match a with
    | ⟨0, _⟩ => exact hj0.symm
    | ⟨1, _⟩ => exact hj1.symm
    | ⟨2, _⟩ => rfl
    | ⟨3, _⟩ => rfl
  · exact (sB_store3_off i h2 f w j hj1).trans (hf j hj0 (by omega)).symm

/-- The store of row 0 of batch entry `b = i 0` rewrites slice `b` of the statistics buffer to any contents that agree
    with the stored block on row 0 and with the old contents on row 1. -/
theorem store_s0 (c : Dev nD) (i : grid0.Coords) (h2 : k0_cond2 i = 1#1) :
    (b : Fin 4) → (hb : (i 0).val = b.val) → (f g : STy F) → (w : Vec F S1x1x8x32 .f32) →
    (hg : ∀ x : S1x1x8x32.Idx, g (ValueIdx.ix4 b (0 : Fin 2) (x 2) (x 3)) = w x) →
    (hf : ∀ j : S4x2x8x32.Idx, (j 0).val = b.val → (j 1).val = 1 → g j = f j) →
    sbPts c b (((sB : Memref sig .tc .vmem S4x2x8x32 .f32).access (Rect.unit (s := S4x2x8x32) (k0_off2 i) S1x1x8x32.size (k0_off2_inb i h2)) : View sig .tc _ _ _).write (Elt F) f w Finset.univ) = sbPts c b g
  | 0, hb, f, g, w, hg, hf => sB_store2_congr c i h2 0 hb f g w hg hf _ fun j hj => (mem_sB0 j).mp hj
  | 1, hb, f, g, w, hg, hf => sB_store2_congr c i h2 1 hb f g w hg hf _ fun j hj => (mem_sB1 j).mp hj
  | 2, hb, f, g, w, hg, hf => sB_store2_congr c i h2 2 hb f g w hg hf _ fun j hj => (mem_sB2 j).mp hj
  | 3, hb, f, g, w, hg, hf => sB_store2_congr c i h2 3 hb f g w hg hf _ fun j hj => (mem_sB3 j).mp hj

/-- The store of row 1 of batch entry `b = i 0` rewrites slice `b` of the statistics buffer to any contents that agree
    with the stored block on row 1 and with the old contents on row 0. -/
theorem store_s1 (c : Dev nD) (i : grid0.Coords) (h2 : k0_cond2 i = 1#1) :
    (b : Fin 4) → (hb : (i 0).val = b.val) → (f g : STy F) → (w : Vec F S1x1x8x32 .f32) →
    (hg : ∀ x : S1x1x8x32.Idx, g (ValueIdx.ix4 b (1 : Fin 2) (x 2) (x 3)) = w x) →
    (hf : ∀ j : S4x2x8x32.Idx, (j 0).val = b.val → (j 1).val = 0 → g j = f j) →
    sbPts c b (((sB : Memref sig .tc .vmem S4x2x8x32 .f32).access (Rect.unit (s := S4x2x8x32) (k0_off3 i) S1x1x8x32.size (k0_off3_inb i h2)) : View sig .tc _ _ _).write (Elt F) f w Finset.univ) = sbPts c b g
  | 0, hb, f, g, w, hg, hf => sB_store3_congr c i h2 0 hb f g w hg hf _ fun j hj => (mem_sB0 j).mp hj
  | 1, hb, f, g, w, hg, hf => sB_store3_congr c i h2 1 hb f g w hg hf _ fun j hj => (mem_sB1 j).mp hj
  | 2, hb, f, g, w, hg, hf => sB_store3_congr c i h2 2 hb f g w hg hf _ fun j hj => (mem_sB2 j).mp hj
  | 3, hb, f, g, w, hg, hf => sB_store3_congr c i h2 3 hb f g w hg hf _ fun j hj => (mem_sB3 j).mp hj

/-- After both stores, slice `b = i 0` of the statistics buffer is any contents that agree with the first block on row 0
    and with the second on row 1. -/
theorem store_s (c : Dev nD) (i : grid0.Coords) (h2 : k0_cond2 i = 1#1) (b : Fin 4) (hb : (i 0).val = b.val)
    (f g : STy F) (w6 w7 : Vec F S1x1x8x32 .f32)
    (hg6 : ∀ x : S1x1x8x32.Idx, g (ValueIdx.ix4 b (0 : Fin 2) (x 2) (x 3)) = w6 x)
    (hg7 : ∀ x : S1x1x8x32.Idx, g (ValueIdx.ix4 b (1 : Fin 2) (x 2) (x 3)) = w7 x) :
    sbPts c b (((sB : Memref sig .tc .vmem S4x2x8x32 .f32).access (Rect.unit (s := S4x2x8x32) (k0_off3 i) S1x1x8x32.size (k0_off3_inb i h2)) : View sig .tc _ _ _).write (Elt F) (((sB : Memref sig .tc .vmem S4x2x8x32 .f32).access (Rect.unit (s := S4x2x8x32) (k0_off2 i) S1x1x8x32.size (k0_off2_inb i h2)) : View sig .tc _ _ _).write (Elt F) f w6 Finset.univ) w7 Finset.univ) = sbPts c b g := by
  refine store_s1 c i h2 b hb _ g w7 hg7 fun j hj0 hj1 => ?_
  refine ((sB_store2_apply i h2 f w6 j (hj0.trans hb.symm) hj1).trans ?_).symm
  refine (hg6 _).symm.trans (congrArg g (funext fun a => Fin.ext ?_))
  match a with
  | ⟨0, _⟩ => exact hj0.symm
  | ⟨1, _⟩ => exact hj1.symm
  | ⟨2, _⟩ => rfl
  | ⟨3, _⟩ => rfl

/-- The footprint of the store of row 0 lies in slice 0 when `i 0 = 0`. -/
theorem store_s0_sub0 (i : grid0.Coords) (h2 : k0_cond2 i = 1#1) (hb : (i 0).val = 0) :
    ((sB : Memref sig .tc .vmem S4x2x8x32 .f32).access (Rect.unit (s := S4x2x8x32) (k0_off2 i) S1x1x8x32.size (k0_off2_inb i h2)) : View sig .tc _ _ _).setOn Finset.univ ⊆ (sSl sB 0).view.set :=
  fun j hj => (mem_sB0 j).mpr ((sB_store2_mem i h2 j hj).1.trans hb)
/-- The footprint of the store of row 1 lies in slice 0 when `i 0 = 0`. -/
theorem store_s1_sub0 (i : grid0.Coords) (h2 : k0_cond2 i = 1#1) (hb : (i 0).val = 0) :
    ((sB : Memref sig .tc .vmem S4x2x8x32 .f32).access (Rect.unit (s := S4x2x8x32) (k0_off3 i) S1x1x8x32.size (k0_off3_inb i h2)) : View sig .tc _ _ _).setOn Finset.univ ⊆ (sSl sB 0).view.set :=
  fun j hj => (mem_sB0 j).mpr ((sB_store3_mem i h2 j hj).1.trans hb)
/-- The footprint of the store of row 0 lies in slice 1 when `i 0 = 1`. -/
theorem store_s0_sub1 (i : grid0.Coords) (h2 : k0_cond2 i = 1#1) (hb : (i 0).val = 1) :
    ((sB : Memref sig .tc .vmem S4x2x8x32 .f32).access (Rect.unit (s := S4x2x8x32) (k0_off2 i) S1x1x8x32.size (k0_off2_inb i h2)) : View sig .tc _ _ _).setOn Finset.univ ⊆ (sSl sB 1).view.set :=
  fun j hj => (mem_sB1 j).mpr ((sB_store2_mem i h2 j hj).1.trans hb)
/-- The footprint of the store of row 1 lies in slice 1 when `i 0 = 1`. -/
theorem store_s1_sub1 (i : grid0.Coords) (h2 : k0_cond2 i = 1#1) (hb : (i 0).val = 1) :
    ((sB : Memref sig .tc .vmem S4x2x8x32 .f32).access (Rect.unit (s := S4x2x8x32) (k0_off3 i) S1x1x8x32.size (k0_off3_inb i h2)) : View sig .tc _ _ _).setOn Finset.univ ⊆ (sSl sB 1).view.set :=
  fun j hj => (mem_sB1 j).mpr ((sB_store3_mem i h2 j hj).1.trans hb)
/-- The footprint of the store of row 0 lies in slice 2 when `i 0 = 2`. -/
theorem store_s0_sub2 (i : grid0.Coords) (h2 : k0_cond2 i = 1#1) (hb : (i 0).val = 2) :
    ((sB : Memref sig .tc .vmem S4x2x8x32 .f32).access (Rect.unit (s := S4x2x8x32) (k0_off2 i) S1x1x8x32.size (k0_off2_inb i h2)) : View sig .tc _ _ _).setOn Finset.univ ⊆ (sSl sB 2).view.set :=
  fun j hj => (mem_sB2 j).mpr ((sB_store2_mem i h2 j hj).1.trans hb)
/-- The footprint of the store of row 1 lies in slice 2 when `i 0 = 2`. -/
theorem store_s1_sub2 (i : grid0.Coords) (h2 : k0_cond2 i = 1#1) (hb : (i 0).val = 2) :
    ((sB : Memref sig .tc .vmem S4x2x8x32 .f32).access (Rect.unit (s := S4x2x8x32) (k0_off3 i) S1x1x8x32.size (k0_off3_inb i h2)) : View sig .tc _ _ _).setOn Finset.univ ⊆ (sSl sB 2).view.set :=
  fun j hj => (mem_sB2 j).mpr ((sB_store3_mem i h2 j hj).1.trans hb)
/-- The footprint of the store of row 0 lies in slice 3 when `i 0 = 3`. -/
theorem store_s0_sub3 (i : grid0.Coords) (h2 : k0_cond2 i = 1#1) (hb : (i 0).val = 3) :
    ((sB : Memref sig .tc .vmem S4x2x8x32 .f32).access (Rect.unit (s := S4x2x8x32) (k0_off2 i) S1x1x8x32.size (k0_off2_inb i h2)) : View sig .tc _ _ _).setOn Finset.univ ⊆ (sSl sB 3).view.set :=
  fun j hj => (mem_sB3 j).mpr ((sB_store2_mem i h2 j hj).1.trans hb)
/-- The footprint of the store of row 1 lies in slice 3 when `i 0 = 3`. -/
theorem store_s1_sub3 (i : grid0.Coords) (h2 : k0_cond2 i = 1#1) (hb : (i 0).val = 3) :
    ((sB : Memref sig .tc .vmem S4x2x8x32 .f32).access (Rect.unit (s := S4x2x8x32) (k0_off3 i) S1x1x8x32.size (k0_off3_inb i h2)) : View sig .tc _ _ _).setOn Finset.univ ⊆ (sSl sB 3).view.set :=
  fun j hj => (mem_sB3 j).mpr ((sB_store3_mem i h2 j hj).1.trans hb)

/-! ## Axioms -/

/-- info: 'Cert.KernelProof.ob_split' depends on axioms: [propext, Classical.choice, Quot.sound] -/
#guard_msgs in #print axioms ob_split
/-- info: 'Cert.KernelProof.rob_split' depends on axioms: [propext, Classical.choice, Quot.sound] -/
#guard_msgs in #print axioms rob_split
/-- info: 'Cert.KernelProof.sb_split' depends on axioms: [propext, Classical.choice, Quot.sound] -/
#guard_msgs in #print axioms sb_split
/-- info: 'Cert.KernelProof.rsb_split' depends on axioms: [propext, Classical.choice, Quot.sound] -/
#guard_msgs in #print axioms rsb_split
/-- info: 'Cert.KernelProof.land_o0' depends on axioms: [propext, Classical.choice, Quot.sound] -/
#guard_msgs in #print axioms land_o0
/-- info: 'Cert.KernelProof.land_o1' depends on axioms: [propext, Classical.choice, Quot.sound] -/
#guard_msgs in #print axioms land_o1
/-- info: 'Cert.KernelProof.land_o2' depends on axioms: [propext, Classical.choice, Quot.sound] -/
#guard_msgs in #print axioms land_o2
/-- info: 'Cert.KernelProof.land_o3' depends on axioms: [propext, Classical.choice, Quot.sound] -/
#guard_msgs in #print axioms land_o3
/-- info: 'Cert.KernelProof.land_s0' depends on axioms: [propext, Classical.choice, Quot.sound] -/
#guard_msgs in #print axioms land_s0
/-- info: 'Cert.KernelProof.land_s1' depends on axioms: [propext, Classical.choice, Quot.sound] -/
#guard_msgs in #print axioms land_s1
/-- info: 'Cert.KernelProof.land_s2' depends on axioms: [propext, Classical.choice, Quot.sound] -/
#guard_msgs in #print axioms land_s2
/-- info: 'Cert.KernelProof.land_s3' depends on axioms: [propext, Classical.choice, Quot.sound] -/
#guard_msgs in #print axioms land_s3
/-- info: 'Cert.KernelProof.store_o' depends on axioms: [propext, Classical.choice, Quot.sound] -/
#guard_msgs in #print axioms store_o
/-- info: 'Cert.KernelProof.store_o_sub0' depends on axioms: [propext, Classical.choice, Quot.sound] -/
#guard_msgs in #print axioms store_o_sub0
/-- info: 'Cert.KernelProof.store_o_sub1' depends on axioms: [propext, Classical.choice, Quot.sound] -/
#guard_msgs in #print axioms store_o_sub1
/-- info: 'Cert.KernelProof.store_o_sub2' depends on axioms: [propext, Classical.choice, Quot.sound] -/
#guard_msgs in #print axioms store_o_sub2
/-- info: 'Cert.KernelProof.store_o_sub3' depends on axioms: [propext, Classical.choice, Quot.sound] -/
#guard_msgs in #print axioms store_o_sub3
/-- info: 'Cert.KernelProof.store_s0' depends on axioms: [propext, Classical.choice, Quot.sound] -/
#guard_msgs in #print axioms store_s0
/-- info: 'Cert.KernelProof.store_s1' depends on axioms: [propext, Classical.choice, Quot.sound] -/
#guard_msgs in #print axioms store_s1
/-- info: 'Cert.KernelProof.store_s' depends on axioms: [propext, Classical.choice, Quot.sound] -/
#guard_msgs in #print axioms store_s
/-- info: 'Cert.KernelProof.store_s0_sub0' depends on axioms: [propext, Classical.choice, Quot.sound] -/
#guard_msgs in #print axioms store_s0_sub0
/-- info: 'Cert.KernelProof.store_s0_sub1' depends on axioms: [propext, Classical.choice, Quot.sound] -/
#guard_msgs in #print axioms store_s0_sub1
/-- info: 'Cert.KernelProof.store_s0_sub2' depends on axioms: [propext, Classical.choice, Quot.sound] -/
#guard_msgs in #print axioms store_s0_sub2
/-- info: 'Cert.KernelProof.store_s0_sub3' depends on axioms: [propext, Classical.choice, Quot.sound] -/
#guard_msgs in #print axioms store_s0_sub3
/-- info: 'Cert.KernelProof.store_s1_sub0' depends on axioms: [propext, Classical.choice, Quot.sound] -/
#guard_msgs in #print axioms store_s1_sub0
/-- info: 'Cert.KernelProof.store_s1_sub1' depends on axioms: [propext, Classical.choice, Quot.sound] -/
#guard_msgs in #print axioms store_s1_sub1
/-- info: 'Cert.KernelProof.store_s1_sub2' depends on axioms: [propext, Classical.choice, Quot.sound] -/
#guard_msgs in #print axioms store_s1_sub2
/-- info: 'Cert.KernelProof.store_s1_sub3' depends on axioms: [propext, Classical.choice, Quot.sound] -/
#guard_msgs in #print axioms store_s1_sub3

end Cert.KernelProof

end
-- ==== Proof.KFinalArrays.lean ====
/-
  The arrays after the run, read: an input array is never written back, so it ends as it started; the output array's
  one block is the whole array at block index zero, written back at the last grid point only, so it ends holding
  what that point leaves — the merged result. From these, the run's post at the windows' arrays gives the posts stated
  at the argument and result arrays.
-/
import proofs.«900428_g7700000000000429_dist_flashdec_v7x_xyz2x2x4_y_b4_sq32_skv4096_h8_d128_f32_1_alg».proof.Proof.KData
import Idealize.ShloMosaic.Lib.Pipeline.Value
import Idealize.ShloMosaic.Lib.Pipeline.Cells
import Idealize.ShloMosaic.Lib.Pipeline.Frame

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-! ## The input arrays -/

/-- Input array 0 after the run holds what it held. -/
theorem final_arg0 (c : Dev nD) : (dats m 0 c).arrAt (0 : Fin 4) cfg0.N = m ((c : Thread nD τ).loc main_arg0) :=
  (dats (F := F) m 0 c).arrAt_in (0 : Fin 4) rfl _

/-- Input array 1 after the run holds what it held. -/
theorem final_arg1 (c : Dev nD) : (dats m 0 c).arrAt (1 : Fin 4) cfg0.N = m ((c : Thread nD τ).loc main_arg1) :=
  (dats (F := F) m 0 c).arrAt_in (1 : Fin 4) rfl _

/-- Input array 2 after the run holds what it held. -/
theorem final_arg2 (c : Dev nD) : (dats m 0 c).arrAt (2 : Fin 4) cfg0.N = m ((c : Thread nD τ).loc main_arg2) :=
  (dats (F := F) m 0 c).arrAt_in (2 : Fin 4) rfl _

/-! ## The output array -/

/-- The output window's block index is zero on every axis at every grid point: its block is the whole array. -/
theorem idx_facts3 : ∀ t : Fin cfg0.N, ∀ a : Fin 4, win0_3.index t a = 0 :=
  (by decide +kernel : ∀ t : Fin grid0.N, ∀ a : Fin 4, win0_3.index t a = 0)

/-- What a point that writes the output back writes is the merged result, read through the whole-array block. -/
theorem flushed3_eq (c : Dev nD) (t : Fin cfg0.N) (hf : (cfg0.win 3).flush t = true) :
    (dats m 0 c).flushed 3 t = ((cfg0.win 3).blk t).view.read (Elt F) (OUT m c) := by
  show (cfg0.win 3).cut (grid0.coords t) (OUT m c) = _
  have hz' : (fun a => win0_3.index t a * main_v1.ty.shape.size a) = fun _ => 0 :=
    funext fun a => by rw [idx_facts3 t a, Nat.zero_mul]
  exact (Memref.read_access_unit_zero (Elt F) main_v1 hz' (fun a => by rw [congrFun hz' a]; simp) (OUT m c)).symm

/-- The output array after the run holds the merged result: the last grid point writes the whole array. -/
theorem final_out (c : Dev nD) : (dats m 0 c).arrAt (3 : Fin 4) cfg0.N = OUT m c :=
  (dats m 0 c).arrAt_eq_of_cover 3 (OUT m c) (flushed3_eq m c) fun i =>
    ⟨t0_15, (flush0_3 t0_15).mpr rfl, by
      show i ∈ ((View.whole main_v1).slice (win0_3.rect t0_15)).set
      rw [View.set_slice_whole, Rect.mem_set_unit]
      intro a
      match a with
      | ⟨0, _⟩ =>
        show win0_3.index t0_15 0 * 4 ≤ (i 0 : Nat) ∧ (i 0 : Nat) < win0_3.index t0_15 0 * 4 + 4
        rw [idx_facts3 t0_15 0]; have : (i 0 : Nat) < 4 := (i 0).isLt; omega
      | ⟨1, _⟩ =>
        show win0_3.index t0_15 1 * 32 ≤ (i 1 : Nat) ∧ (i 1 : Nat) < win0_3.index t0_15 1 * 32 + 32
        rw [idx_facts3 t0_15 1]; have : (i 1 : Nat) < 32 := (i 1).isLt; omega
      | ⟨2, _⟩ =>
        show win0_3.index t0_15 2 * 8 ≤ (i 2 : Nat) ∧ (i 2 : Nat) < win0_3.index t0_15 2 * 8 + 8
        rw [idx_facts3 t0_15 2]; have : (i 2 : Nat) < 8 := (i 2).isLt; omega
      | ⟨3, _⟩ =>
        show win0_3.index t0_15 3 * 128 ≤ (i 3 : Nat) ∧ (i 3 : Nat) < win0_3.index t0_15 3 * 128 + 128
        rw [idx_facts3 t0_15 3]; have : (i 3 : Nat) < 128 := (i 3).isLt; omega⟩

/-! ## The posts at the argument and result arrays -/

/-- From the windows' arrays at their final contents: the three argument arrays unchanged. -/
theorem post_frame (r : PUnit × MemSt nD τ sig (Elt F))
    (h : ∀ c : Dev nD, ∀ w : Fin cfg0.W, r.2.mem ((cfg0.win w).arr.view.loc (c : Thread nD τ)) = (dats m 0 c).arrAt w cfg0.N)
    (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨(h c 0).trans (final_arg0 m c), (h c 1).trans (final_arg1 m c), (h c 2).trans (final_arg2 m c)⟩

/-- From the windows' arrays at their final contents: the result array at the merged result, the arguments unchanged. -/
theorem post_value (r : PUnit × MemSt nD τ sig (Elt F))
    (h : ∀ c : Dev nD, ∀ w : Fin cfg0.W, r.2.mem ((cfg0.win w).arr.view.loc (c : Thread nD τ)) = (dats m 0 c).arrAt w cfg0.N)
    (c : Dev nD) :
    r.2.mem ((c : Thread nD τ).loc main_v1) = OUT m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨(h c 3).trans (final_out m c), post_frame m r h c⟩

end Cert.KernelProof

end

/-- info: 'Cert.KernelProof.final_arg0' depends on axioms: [propext, Classical.choice, Quot.sound] -/
#guard_msgs in #print axioms Cert.KernelProof.final_arg0

/-- info: 'Cert.KernelProof.final_arg1' depends on axioms: [propext, Classical.choice, Quot.sound] -/
#guard_msgs in #print axioms Cert.KernelProof.final_arg1

/-- info: 'Cert.KernelProof.final_arg2' depends on axioms: [propext, Classical.choice, Quot.sound] -/
#guard_msgs in #print axioms Cert.KernelProof.final_arg2

/-- info: 'Cert.KernelProof.final_out' depends on axioms: [propext, Classical.choice, Quot.sound] -/
#guard_msgs in #print axioms Cert.KernelProof.final_out

/-- info: 'Cert.KernelProof.post_frame' depends on axioms: [propext, Classical.choice, Quot.sound] -/
#guard_msgs in #print axioms Cert.KernelProof.post_frame

/-- info: 'Cert.KernelProof.post_value' depends on axioms: [propext, Classical.choice, Quot.sound] -/
#guard_msgs in #print axioms Cert.KernelProof.post_value
-- ==== Proof.KClaims.lean ====
/-
  The certificate's claim about the word-level program: it runs and leaves its arguments unchanged, assembled from
  its run and the reading of its final arrays. The program's body obligation at every device is taken as a hypothesis.
-/
import proofs.«900428_g7700000000000429_dist_flashdec_v7x_xyz2x2x4_y_b4_sq32_skv4096_h8_d128_f32_1_alg».proof.Defs
import proofs.«900428_g7700000000000429_dist_flashdec_v7x_xyz2x2x4_y_b4_sq32_skv4096_h8_d128_f32_1_alg».proof.Proof.KLaunch
import proofs.«900428_g7700000000000429_dist_flashdec_v7x_xyz2x2x4_y_b4_sq32_skv4096_h8_d128_f32_1_alg».proof.Proof.KSlices
import proofs.«900428_g7700000000000429_dist_flashdec_v7x_xyz2x2x4_y_b4_sq32_skv4096_h8_d128_f32_1_alg».proof.Proof.KFinalArrays
import proofs.«900428_g7700000000000429_dist_flashdec_v7x_xyz2x2x4_y_b4_sq32_skv4096_h8_d128_f32_1_alg».proof.Proof.Gen.Kernel
import proofs.«900428_g7700000000000429_dist_flashdec_v7x_xyz2x2x4_y_b4_sq32_skv4096_h8_d128_f32_1_alg».proof.Proof.Gen.Pre_finite_inputs_Kernel

noncomputable section

open Idealize.ShloMosaic Idealize.ShloMosaic.TcCoe Idealize.SL.Sem

namespace Cert.Proof.KClaims

/-- The word-level kernel runs and leaves its arguments unchanged, given every device's body obligation. -/
theorem frame_p
    (hbodyK : ∀ (m : (ℓ : Loc Cert.Kernel.nD Cert.Kernel.τ Cert.Kernel.sig) → Buf (Elt Bits) ℓ) (c : Dev Cert.Kernel.nD),
      Pipeline.BodyObligationLoose (Cert.KernelProof.dats (F := Bits) m 0 c) (Cert.Kernel.defs₀ (F := Bits)) Cert.KernelProof.𝒱₀ () Set.univ) :
    Cert.frame_Kernel (hKernel := Cert.Kernel.Gen.facts)
      (hPre_finite_inputs_Kernel := Cert.Pre_finite_inputs_Kernel.Gen.facts) := fun m ρ _ =>
  (θ_run Cert.Kernel.defs _ _).mono (fun r h c => Cert.KernelProof.post_frame m r h c)
    (Cert.KernelProof.run_main m ρ Cert.KernelProof.ob_split Cert.KernelProof.sb_split
      Cert.KernelProof.rob_split Cert.KernelProof.rsb_split (hbodyK m))

end Cert.Proof.KClaims

end

/-- info: 'Cert.Proof.KClaims.frame_p' depends on axioms: [propext, Classical.choice, Quot.sound] -/
#guard_msgs in #print axioms Cert.Proof.KClaims.frame_p
-- ==== Proof.BodyGoal.lean ====
/-
  The body obligation of the pipelined region at one grid point, spelt out: from the invariant before the point, what
  the device owes there and every window's current staging buffer at what it then holds, the kernel's body at that
  point runs to the invariant after it, what the device owes then, and every staging buffer at what the body leaves
  (an idle window that is not written back: what it held).
-/
import proofs.«900428_g7700000000000429_dist_flashdec_v7x_xyz2x2x4_y_b4_sq32_skv4096_h8_d128_f32_1_alg».proof.Proof.Data

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The library's body obligation (its loose form, no window forgotten) at the one point `t`. -/
def BodyGoal (c : Dev nD) (t : Fin cfg0.N) : Prop :=
  iprop((dats m 0 c).Φ t.castSucc ∗ (dats m 0 c).owesAt () t.castSucc
      ∗ bigSep Finset.univ fun w : Fin cfg0.W =>
          iprop(∃ d, owns (c : Thread nD τ) ((cfg0.win w).stage (cfg0.slots t w)) fullShare ((dats m 0 c).before w t d)))
    ⊢ wp frame (wpE (defs₀ (F := F)) 𝒱₀ c none) Set.univ (defs₀ .tc cfg0.body (cfg0.bodyArgs t (cfg0.slots t))) fun _ =>
        iprop((dats m 0 c).Φ t.succ ∗ (dats m 0 c).owesAt () t.succ
          ∗ bigSep Finset.univ fun w : Fin cfg0.W =>
              match cfg0.idle w (cfg0.grid.coords t) with
              | true =>
                match (cfg0.win w).flush t with
                | false => iprop(∃ d, owns (c : Thread nD τ) ((cfg0.win w).stage (cfg0.slots t w)) fullShare ((dats m 0 c).before w t d))
                | true =>
                  match cfg0.loose w with
                  | true => iprop(∃ d, owns (c : Thread nD τ) ((cfg0.win w).stage (cfg0.slots t w)) fullShare ((cfg0.win w).fill (cfg0.grid.coords t) d ((cfg0.win w).cut (cfg0.grid.coords t) ((dats m 0 c).after w t))))
                  | false => owns (c : Thread nD τ) ((cfg0.win w).stage (cfg0.slots t w)) fullShare ((dats m 0 c).after w t)
              | false =>
                match cfg0.loose w with
                | true => iprop(∃ d, owns (c : Thread nD τ) ((cfg0.win w).stage (cfg0.slots t w)) fullShare ((cfg0.win w).fill (cfg0.grid.coords t) d ((cfg0.win w).cut (cfg0.grid.coords t) ((dats m 0 c).after w t))))
                | false => owns (c : Thread nD τ) ((cfg0.win w).stage (cfg0.slots t w)) fullShare ((dats m 0 c).after w t))

/-- The obligation at every point is the library's. -/
theorem bodyObligation_of_goals (c : Dev nD) (h : ∀ t : Fin cfg0.N, BodyGoal m c t) :
    Pipeline.BodyObligationLoose (dats (F := F) m 0 c) (defs₀ (F := F)) 𝒱₀ () Set.univ := fun t => h t

end Cert.KernelIdealProof

end
-- ==== Proof.BodyRuns.lean ====
/-
  The body at the grid points that neither hand a batch entry over nor merge: one chunk step of the accumulators.
  At a first chunk (points 0, 4, 8, 12) the accumulators are reset before the step; at the others they are stepped
  from what they hold. Each point's run leaves the three accumulators at the trace's `chunk` of the point's staged
  blocks and every staging buffer as it was.
-/
import proofs.«900428_g7700000000000429_dist_flashdec_v7x_xyz2x2x4_y_b4_sq32_skv4096_h8_d128_f32_1_alg».proof.Proof.Data
import Idealize.ShloMosaic.Lib.Pipeline.Value

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The contents type of memref `M`'s buffer on device `c`, and the buffer held whole at `f`. -/
abbrev Bf (c : Dev nD) {sp : Space} {S : Shape} {e : EltTy} (M : Memref sig .tc sp S e) : Type := Buf (Elt F) (M.view.loc (c : Thread nD τ))
abbrev pt' (c : Dev nD) {sp : Space} {S : Shape} {e : EltTy} (M : Memref sig .tc sp S e) (f : Bf (F := F) c M) : sProp 𝕄 :=
  M.view.loc (c : Thread nD τ) ↦{fullShare} f

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl
omit [FloatOps F] in
theorem hz4 : (![0, 0, 0, 0] : Fin 4 → Nat) = fun _ => 0 := funext fun a => by fin_cases a <;> rfl

omit [FloatOps F] in
theorem wr_o' (f w : (cc0_scratch0 : Ref sig .tc).ty.Contents (Elt F)) (L : List (View.Piece (Elt F) _ _)) :
    (View.whole cc0_scratch0).writes (Elt F) f (⟨Rect.unit ![0, 0, 0] ![8, 32, 128] inb_S8x32x128_S8x32x128_0_0_0, w⟩ :: L) = w := by
  rw [View.writes_cons]; exact Memref.write_access_unit_zero_univ (Elt F) cc0_scratch0 hz3 inb_S8x32x128_S8x32x128_0_0_0 _ w
omit [FloatOps F] in
theorem wr_o (f w : (cc0_scratch0 : Ref sig .tc).ty.Contents (Elt F)) (L : List (View.Piece (Elt F) _ _)) :
    accO.view.writes (Elt F) f (⟨Rect.unit ![0, 0, 0] S8x32x128.size inb_S8x32x128_S8x32x128_0_0_0, w⟩ :: L) = w := by
  rw [View.writes_cons]; exact Memref.write_access_unit_zero_univ (Elt F) cc0_scratch0 hz3 inb_S8x32x128_S8x32x128_0_0_0 _ w
omit [FloatOps F] in
theorem rd_o' (f : (cc0_scratch0 : Ref sig .tc).ty.Contents (Elt F)) :
    View.readAt (Elt F) (View.whole cc0_scratch0) (Rect.unit ![0, 0, 0] ![8, 32, 128] inb_S8x32x128_S8x32x128_0_0_0).toLoadRect f = f :=
  Memref.readAt_unit_zero (Elt F) cc0_scratch0 hz3 inb_S8x32x128_S8x32x128_0_0_0 f
omit [FloatOps F] in
theorem rd_o (f : (cc0_scratch0 : Ref sig .tc).ty.Contents (Elt F)) :
    View.readAt (Elt F) accO.view (Rect.unit ![0, 0, 0] S8x32x128.size inb_S8x32x128_S8x32x128_0_0_0).toLoadRect f = f :=
  Memref.readAt_unit_zero (Elt F) cc0_scratch0 hz3 inb_S8x32x128_S8x32x128_0_0_0 f

omit [FloatOps F] in
theorem wr_m' (f w : (cc0_scratch1 : Ref sig .tc).ty.Contents (Elt F)) (L : List (View.Piece (Elt F) _ _)) :
    (View.whole cc0_scratch1).writes (Elt F) f (⟨Rect.unit ![0, 0] ![8, 32] inb_S8x32_S8x32_0_0, w⟩ :: L) = w := by
  rw [View.writes_cons]; exact Memref.write_access_unit_zero_univ (Elt F) cc0_scratch1 hz2 inb_S8x32_S8x32_0_0 _ w
omit [FloatOps F] in
theorem wr_m (f w : (cc0_scratch1 : Ref sig .tc).ty.Contents (Elt F)) (L : List (View.Piece (Elt F) _ _)) :
    accM.view.writes (Elt F) f (⟨Rect.unit ![0, 0] S8x32.size inb_S8x32_S8x32_0_0, w⟩ :: L) = w := by
  rw [View.writes_cons]; exact Memref.write_access_unit_zero_univ (Elt F) cc0_scratch1 hz2 inb_S8x32_S8x32_0_0 _ w
omit [FloatOps F] in
theorem rd_m' (f : (cc0_scratch1 : Ref sig .tc).ty.Contents (Elt F)) :
    View.readAt (Elt F) (View.whole cc0_scratch1) (Rect.unit ![0, 0] ![8, 32] inb_S8x32_S8x32_0_0).toLoadRect f = f :=
  Memref.readAt_unit_zero (Elt F) cc0_scratch1 hz2 inb_S8x32_S8x32_0_0 f
omit [FloatOps F] in
theorem rd_m (f : (cc0_scratch1 : Ref sig .tc).ty.Contents (Elt F)) :
    View.readAt (Elt F) accM.view (Rect.unit ![0, 0] S8x32.size inb_S8x32_S8x32_0_0).toLoadRect f = f :=
  Memref.readAt_unit_zero (Elt F) cc0_scratch1 hz2 inb_S8x32_S8x32_0_0 f

omit [FloatOps F] in
theorem wr_l' (f w : (cc0_scratch2 : Ref sig .tc).ty.Contents (Elt F)) (L : List (View.Piece (Elt F) _ _)) :
    (View.whole cc0_scratch2).writes (Elt F) f (⟨Rect.unit ![0, 0] ![8, 32] inb_S8x32_S8x32_0_0, w⟩ :: L) = w := by
  rw [View.writes_cons]; exact Memref.write_access_unit_zero_univ (Elt F) cc0_scratch2 hz2 inb_S8x32_S8x32_0_0 _ w
omit [FloatOps F] in
theorem wr_l (f w : (cc0_scratch2 : Ref sig .tc).ty.Contents (Elt F)) (L : List (View.Piece (Elt F) _ _)) :
    accL.view.writes (Elt F) f (⟨Rect.unit ![0, 0] S8x32.size inb_S8x32_S8x32_0_0, w⟩ :: L) = w := by
  rw [View.writes_cons]; exact Memref.write_access_unit_zero_univ (Elt F) cc0_scratch2 hz2 inb_S8x32_S8x32_0_0 _ w
omit [FloatOps F] in
theorem rd_l' (f : (cc0_scratch2 : Ref sig .tc).ty.Contents (Elt F)) :
    View.readAt (Elt F) (View.whole cc0_scratch2) (Rect.unit ![0, 0] ![8, 32] inb_S8x32_S8x32_0_0).toLoadRect f = f :=
  Memref.readAt_unit_zero (Elt F) cc0_scratch2 hz2 inb_S8x32_S8x32_0_0 f
omit [FloatOps F] in
theorem rd_l (f : (cc0_scratch2 : Ref sig .tc).ty.Contents (Elt F)) :
    View.readAt (Elt F) accL.view (Rect.unit ![0, 0] S8x32.size inb_S8x32_S8x32_0_0).toLoadRect f = f :=
  Memref.readAt_unit_zero (Elt F) cc0_scratch2 hz2 inb_S8x32_S8x32_0_0 f

theorem run_pt0 (c : Dev nD) (fo : Bf (F := F) c accO) (fm : Bf (F := F) c accM) (fl : Bf (F := F) c accL)
    (x3 : Bf (F := F) c (stage0_3 (cfg0.slots t0_0 3))) (Q : PUnit → sProp 𝕄) :
    iprop(pt' c accO fo ∗ pt' c accM fm ∗ pt' c accL fl ∗ pt' c (stage0_0 (cfg0.slots t0_0 0)) (iblk m c 0 t0_0) ∗ pt' c (stage0_1 (cfg0.slots t0_0 1)) (iblk m c 1 t0_0)
        ∗ pt' c (stage0_2 (cfg0.slots t0_0 2)) (iblk m c 2 t0_0) ∗ pt' c (stage0_3 (cfg0.slots t0_0 3)) x3
        ∗ (iprop(pt' c accO (Trace.chunk (iblk m c 0 t0_0) (iblk m c 1 t0_0) (iblk m c 2 t0_0) Trace.acc0).o
            ∗ pt' c accM (Trace.chunk (iblk m c 0 t0_0) (iblk m c 1 t0_0) (iblk m c 2 t0_0) Trace.acc0).m
            ∗ pt' c accL (Trace.chunk (iblk m c 0 t0_0) (iblk m c 1 t0_0) (iblk m c 2 t0_0) Trace.acc0).l
            ∗ pt' c (stage0_0 (cfg0.slots t0_0 0)) (iblk m c 0 t0_0) ∗ pt' c (stage0_1 (cfg0.slots t0_0 1)) (iblk m c 1 t0_0)
            ∗ pt' c (stage0_2 (cfg0.slots t0_0 2)) (iblk m c 2 t0_0) ∗ pt' c (stage0_3 (cfg0.slots t0_0 3)) x3) -∗ Q ⟨⟩))
      ⊢ wp frame (wpE (defs₀ (F := F)) 𝒱₀ c none) Set.univ (bodyAt0 (F := F) t0_0) Q := by
  iintro ⟨Ho, Hm, Hl, H0, H1, H2, H3, Hk⟩
  unfold bodyAt0
  sl_exec
  sl_step
  iapply Hk

  have e13 : run_pt0.sl.v13 m c = iblk m c 0 t0_0 := by unfold run_pt0.sl.v13; exact Memref.readAt_unit_zero (Elt F) _ hz4 _ _
  have e18 : run_pt0.sl.v18 m c = iblk m c 1 t0_0 := by unfold run_pt0.sl.v18; exact Memref.readAt_unit_zero (Elt F) _ hz4 _ _
  have e21 : run_pt0.sl.v21 m c = iblk m c 2 t0_0 := by unfold run_pt0.sl.v21; exact Memref.readAt_unit_zero (Elt F) _ hz4 _ _
  have ev25 : run_pt0.sl.v25 (F := F) = k0_pay9 := by unfold run_pt0.sl.v25 run_pt0.sl.Hm_1; exact View.readCov_unit_zero _ hz2 _ _
  have ev34 : run_pt0.sl.v34 (F := F) = k0_pay10 := by unfold run_pt0.sl.v34 run_pt0.sl.Hl_1; exact View.readCov_unit_zero _ hz2 _ _
  have ev40 : run_pt0.sl.v40 (F := F) = k0_pay11 := by unfold run_pt0.sl.v40 run_pt0.sl.Ho_1; exact View.readCov_unit_zero _ hz3 _ _
  have er : run_pt0.sl.r m c = k0_pay12 (iblk m c 2 t0_0) := by
    show k0_pay12 (run_pt0.sl.v21 m c) = _; rw [e21]
  have er1 : run_pt0.sl.r_1 m c = k0_pay13 (iblk m c 0 t0_0) (iblk m c 1 t0_0) := by
    show k0_pay13 (run_pt0.sl.v13 m c) (run_pt0.sl.v18 m c) = _; rw [e13, e18]
  have er2 : run_pt0.sl.r_2 m c = k0_pay14 (iblk m c 0 t0_0) (iblk m c 1 t0_0) k0_pay9 := by
    show k0_pay14 (run_pt0.sl.v13 m c) (run_pt0.sl.v18 m c) run_pt0.sl.v25 = _; rw [e13, e18, ev25]
  have er3 : run_pt0.sl.r_3 m c = k0_pay15 (iblk m c 0 t0_0) (iblk m c 1 t0_0) k0_pay9 := by
    show k0_pay15 (run_pt0.sl.v13 m c) (run_pt0.sl.v18 m c) run_pt0.sl.v25 = _; rw [e13, e18, ev25]
  rw [er, er1, er2, er3, ev34, ev40, wr_o, wr_m, wr_l]
  unfold Trace.chunk Trace.acc0
  isplitl [Ho]; · iexact Ho
  isplitl [Hm]; · iexact Hm
  isplitl [Hl]; · iexact Hl
  isplitl [H0]; · iexact H0
  isplitl [H1]; · iexact H1
  isplitl [H2]; · iexact H2
  iexact H3

theorem run_pt1 (c : Dev nD) (fo : Bf (F := F) c accO) (fm : Bf (F := F) c accM) (fl : Bf (F := F) c accL)
    (x3 : Bf (F := F) c (stage0_3 (cfg0.slots t0_1 3))) (Q : PUnit → sProp 𝕄) :
    iprop(pt' c accO fo ∗ pt' c accM fm ∗ pt' c accL fl ∗ pt' c (stage0_0 (cfg0.slots t0_1 0)) (iblk m c 0 t0_1) ∗ pt' c (stage0_1 (cfg0.slots t0_1 1)) (iblk m c 1 t0_1)
        ∗ pt' c (stage0_2 (cfg0.slots t0_1 2)) (iblk m c 2 t0_1) ∗ pt' c (stage0_3 (cfg0.slots t0_1 3)) x3
        ∗ (iprop(pt' c accO (Trace.chunk (iblk m c 0 t0_1) (iblk m c 1 t0_1) (iblk m c 2 t0_1) ⟨fo, fm, fl⟩).o
            ∗ pt' c accM (Trace.chunk (iblk m c 0 t0_1) (iblk m c 1 t0_1) (iblk m c 2 t0_1) ⟨fo, fm, fl⟩).m
            ∗ pt' c accL (Trace.chunk (iblk m c 0 t0_1) (iblk m c 1 t0_1) (iblk m c 2 t0_1) ⟨fo, fm, fl⟩).l
            ∗ pt' c (stage0_0 (cfg0.slots t0_1 0)) (iblk m c 0 t0_1) ∗ pt' c (stage0_1 (cfg0.slots t0_1 1)) (iblk m c 1 t0_1)
            ∗ pt' c (stage0_2 (cfg0.slots t0_1 2)) (iblk m c 2 t0_1) ∗ pt' c (stage0_3 (cfg0.slots t0_1 3)) x3) -∗ Q ⟨⟩))
      ⊢ wp frame (wpE (defs₀ (F := F)) 𝒱₀ c none) Set.univ (bodyAt0 (F := F) t0_1) Q := by
  iintro ⟨Ho, Hm, Hl, H0, H1, H2, H3, Hk⟩
  unfold bodyAt0
  sl_exec
  sl_step
  iapply Hk

  have e13 : run_pt1.sl.v13 m c = iblk m c 0 t0_1 := by unfold run_pt1.sl.v13; exact Memref.readAt_unit_zero (Elt F) _ hz4 _ _
  have e18 : run_pt1.sl.v18 m c = iblk m c 1 t0_1 := by unfold run_pt1.sl.v18; exact Memref.readAt_unit_zero (Elt F) _ hz4 _ _
  have e21 : run_pt1.sl.v21 m c = iblk m c 2 t0_1 := by unfold run_pt1.sl.v21; exact Memref.readAt_unit_zero (Elt F) _ hz4 _ _
  have er : run_pt1.sl.r m c = k0_pay12 (iblk m c 2 t0_1) := by
    show k0_pay12 (run_pt1.sl.v21 m c) = _; rw [e21]
  have er1 : run_pt1.sl.r_1 m c = k0_pay13 (iblk m c 0 t0_1) (iblk m c 1 t0_1) := by
    show k0_pay13 (run_pt1.sl.v13 m c) (run_pt1.sl.v18 m c) = _; rw [e13, e18]
  have er2 : run_pt1.sl.r_2 m c fm = k0_pay14 (iblk m c 0 t0_1) (iblk m c 1 t0_1) fm := by
    show k0_pay14 (run_pt1.sl.v13 m c) (run_pt1.sl.v18 m c) (View.readAt (Elt F) accM.view (Rect.unit ![0, 0] S8x32.size inb_S8x32_S8x32_0_0).toLoadRect fm) = _
    rw [e13, e18, rd_m]
  have er3 : run_pt1.sl.r_3 m c fm = k0_pay15 (iblk m c 0 t0_1) (iblk m c 1 t0_1) fm := by
    show k0_pay15 (run_pt1.sl.v13 m c) (run_pt1.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

theorem run_pt2 (c : Dev nD) (fo : Bf (F := F) c accO) (fm : Bf (F := F) c accM) (fl : Bf (F := F) c accL)
    (x3 : Bf (F := F) c (stage0_3 (cfg0.slots t0_2 3))) (Q : PUnit → sProp 𝕄) :
    iprop(pt' c accO fo ∗ pt' c accM fm ∗ pt' c accL fl ∗ pt' c (stage0_0 (cfg0.slots t0_2 0)) (iblk m c 0 t0_2) ∗ pt' c (stage0_1 (cfg0.slots t0_2 1)) (iblk m c 1 t0_2)
        ∗ pt' c (stage0_2 (cfg0.slots t0_2 2)) (iblk m c 2 t0_2) ∗ pt' c (stage0_3 (cfg0.slots t0_2 3)) x3
        ∗ (iprop(pt' c accO (Trace.chunk (iblk m c 0 t0_2) (iblk m c 1 t0_2) (iblk m c 2 t0_2) ⟨fo, fm, fl⟩).o
            ∗ pt' c accM (Trace.chunk (iblk m c 0 t0_2) (iblk m c 1 t0_2) (iblk m c 2 t0_2) ⟨fo, fm, fl⟩).m
            ∗ pt' c accL (Trace.chunk (iblk m c 0 t0_2) (iblk m c 1 t0_2) (iblk m c 2 t0_2) ⟨fo, fm, fl⟩).l
            ∗ pt' c (stage0_0 (cfg0.slots t0_2 0)) (iblk m c 0 t0_2) ∗ pt' c (stage0_1 (cfg0.slots t0_2 1)) (iblk m c 1 t0_2)
            ∗ pt' c (stage0_2 (cfg0.slots t0_2 2)) (iblk m c 2 t0_2) ∗ pt' c (stage0_3 (cfg0.slots t0_2 3)) x3) -∗ Q ⟨⟩))
      ⊢ wp frame (wpE (defs₀ (F := F)) 𝒱₀ c none) Set.univ (bodyAt0 (F := F) t0_2) Q := by
  iintro ⟨Ho, Hm, Hl, H0, H1, H2, H3, Hk⟩
  unfold bodyAt0
  sl_exec
  sl_step
  iapply Hk

  have e13 : run_pt2.sl.v13 m c = iblk m c 0 t0_2 := by unfold run_pt2.sl.v13; exact Memref.readAt_unit_zero (Elt F) _ hz4 _ _
  have e18 : run_pt2.sl.v18 m c = iblk m c 1 t0_2 := by unfold run_pt2.sl.v18; exact Memref.readAt_unit_zero (Elt F) _ hz4 _ _
  have e21 : run_pt2.sl.v21 m c = iblk m c 2 t0_2 := by unfold run_pt2.sl.v21; exact Memref.readAt_unit_zero (Elt F) _ hz4 _ _
  have er : run_pt2.sl.r m c = k0_pay12 (iblk m c 2 t0_2) := by
    show k0_pay12 (run_pt2.sl.v21 m c) = _; rw [e21]
  have er1 : run_pt2.sl.r_1 m c = k0_pay13 (iblk m c 0 t0_2) (iblk m c 1 t0_2) := by
    show k0_pay13 (run_pt2.sl.v13 m c) (run_pt2.sl.v18 m c) = _; rw [e13, e18]
  have er2 : run_pt2.sl.r_2 m c fm = k0_pay14 (iblk m c 0 t0_2) (iblk m c 1 t0_2) fm := by
    show k0_pay14 (run_pt2.sl.v13 m c) (run_pt2.sl.v18 m c) (View.readAt (Elt F) accM.view (Rect.unit ![0, 0] S8x32.size inb_S8x32_S8x32_0_0).toLoadRect fm) = _
    rw [e13, e18, rd_m]
  have er3 : run_pt2.sl.r_3 m c fm = k0_pay15 (iblk m c 0 t0_2) (iblk m c 1 t0_2) fm := by
    show k0_pay15 (run_pt2.sl.v13 m c) (run_pt2.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

theorem run_pt4 (c : Dev nD) (fo : Bf (F := F) c accO) (fm : Bf (F := F) c accM) (fl : Bf (F := F) c accL)
    (x3 : Bf (F := F) c (stage0_3 (cfg0.slots t0_4 3))) (Q : PUnit → sProp 𝕄) :
    iprop(pt' c accO fo ∗ pt' c accM fm ∗ pt' c accL fl ∗ pt' c (stage0_0 (cfg0.slots t0_4 0)) (iblk m c 0 t0_4) ∗ pt' c (stage0_1 (cfg0.slots t0_4 1)) (iblk m c 1 t0_4)
        ∗ pt' c (stage0_2 (cfg0.slots t0_4 2)) (iblk m c 2 t0_4) ∗ pt' c (stage0_3 (cfg0.slots t0_4 3)) x3
        ∗ (iprop(pt' c accO (Trace.chunk (iblk m c 0 t0_4) (iblk m c 1 t0_4) (iblk m c 2 t0_4) Trace.acc0).o
            ∗ pt' c accM (Trace.chunk (iblk m c 0 t0_4) (iblk m c 1 t0_4) (iblk m c 2 t0_4) Trace.acc0).m
            ∗ pt' c accL (Trace.chunk (iblk m c 0 t0_4) (iblk m c 1 t0_4) (iblk m c 2 t0_4) Trace.acc0).l
            ∗ pt' c (stage0_0 (cfg0.slots t0_4 0)) (iblk m c 0 t0_4) ∗ pt' c (stage0_1 (cfg0.slots t0_4 1)) (iblk m c 1 t0_4)
            ∗ pt' c (stage0_2 (cfg0.slots t0_4 2)) (iblk m c 2 t0_4) ∗ pt' c (stage0_3 (cfg0.slots t0_4 3)) x3) -∗ Q ⟨⟩))
      ⊢ wp frame (wpE (defs₀ (F := F)) 𝒱₀ c none) Set.univ (bodyAt0 (F := F) t0_4) Q := by
  iintro ⟨Ho, Hm, Hl, H0, H1, H2, H3, Hk⟩
  unfold bodyAt0
  sl_exec
  sl_step
  iapply Hk

  have e13 : run_pt4.sl.v13 m c = iblk m c 0 t0_4 := by unfold run_pt4.sl.v13; exact Memref.readAt_unit_zero (Elt F) _ hz4 _ _
  have e18 : run_pt4.sl.v18 m c = iblk m c 1 t0_4 := by unfold run_pt4.sl.v18; exact Memref.readAt_unit_zero (Elt F) _ hz4 _ _
  have e21 : run_pt4.sl.v21 m c = iblk m c 2 t0_4 := by unfold run_pt4.sl.v21; exact Memref.readAt_unit_zero (Elt F) _ hz4 _ _
  have ev25 : run_pt4.sl.v25 (F := F) = k0_pay9 := by unfold run_pt4.sl.v25 run_pt4.sl.Hm_1; exact View.readCov_unit_zero _ hz2 _ _
  have ev34 : run_pt4.sl.v34 (F := F) = k0_pay10 := by unfold run_pt4.sl.v34 run_pt4.sl.Hl_1; exact View.readCov_unit_zero _ hz2 _ _
  have ev40 : run_pt4.sl.v40 (F := F) = k0_pay11 := by unfold run_pt4.sl.v40 run_pt4.sl.Ho_1; exact View.readCov_unit_zero _ hz3 _ _
  have er : run_pt4.sl.r m c = k0_pay12 (iblk m c 2 t0_4) := by
    show k0_pay12 (run_pt4.sl.v21 m c) = _; rw [e21]
  have er1 : run_pt4.sl.r_1 m c = k0_pay13 (iblk m c 0 t0_4) (iblk m c 1 t0_4) := by
    show k0_pay13 (run_pt4.sl.v13 m c) (run_pt4.sl.v18 m c) = _; rw [e13, e18]
  have er2 : run_pt4.sl.r_2 m c = k0_pay14 (iblk m c 0 t0_4) (iblk m c 1 t0_4) k0_pay9 := by
    show k0_pay14 (run_pt4.sl.v13 m c) (run_pt4.sl.v18 m c) run_pt4.sl.v25 = _; rw [e13, e18, ev25]
  have er3 : run_pt4.sl.r_3 m c = k0_pay15 (iblk m c 0 t0_4) (iblk m c 1 t0_4) k0_pay9 := by
    show k0_pay15 (run_pt4.sl.v13 m c) (run_pt4.sl.v18 m c) run_pt4.sl.v25 = _; rw [e13, e18, ev25]
  rw [er, er1, er2, er3, ev34, ev40, wr_o, wr_m, wr_l]
  unfold Trace.chunk Trace.acc0
  isplitl [Ho]; · iexact Ho
  isplitl [Hm]; · iexact Hm
  isplitl [Hl]; · iexact Hl
  isplitl [H0]; · iexact H0
  isplitl [H1]; · iexact H1
  isplitl [H2]; · iexact H2
  iexact H3

theorem run_pt5 (c : Dev nD) (fo : Bf (F := F) c accO) (fm : Bf (F := F) c accM) (fl : Bf (F := F) c accL)
    (x3 : Bf (F := F) c (stage0_3 (cfg0.slots t0_5 3))) (Q : PUnit → sProp 𝕄) :
    iprop(pt' c accO fo ∗ pt' c accM fm ∗ pt' c accL fl ∗ pt' c (stage0_0 (cfg0.slots t0_5 0)) (iblk m c 0 t0_5) ∗ pt' c (stage0_1 (cfg0.slots t0_5 1)) (iblk m c 1 t0_5)
        ∗ pt' c (stage0_2 (cfg0.slots t0_5 2)) (iblk m c 2 t0_5) ∗ pt' c (stage0_3 (cfg0.slots t0_5 3)) x3
        ∗ (iprop(pt' c accO (Trace.chunk (iblk m c 0 t0_5) (iblk m c 1 t0_5) (iblk m c 2 t0_5) ⟨fo, fm, fl⟩).o
            ∗ pt' c accM (Trace.chunk (iblk m c 0 t0_5) (iblk m c 1 t0_5) (iblk m c 2 t0_5) ⟨fo, fm, fl⟩).m
            ∗ pt' c accL (Trace.chunk (iblk m c 0 t0_5) (iblk m c 1 t0_5) (iblk m c 2 t0_5) ⟨fo, fm, fl⟩).l
            ∗ pt' c (stage0_0 (cfg0.slots t0_5 0)) (iblk m c 0 t0_5) ∗ pt' c (stage0_1 (cfg0.slots t0_5 1)) (iblk m c 1 t0_5)
            ∗ pt' c (stage0_2 (cfg0.slots t0_5 2)) (iblk m c 2 t0_5) ∗ pt' c (stage0_3 (cfg0.slots t0_5 3)) x3) -∗ Q ⟨⟩))
      ⊢ wp frame (wpE (defs₀ (F := F)) 𝒱₀ c none) Set.univ (bodyAt0 (F := F) t0_5) Q := by
  iintro ⟨Ho, Hm, Hl, H0, H1, H2, H3, Hk⟩
  unfold bodyAt0
  sl_exec
  sl_step
  iapply Hk

  have e13 : run_pt5.sl.v13 m c = iblk m c 0 t0_5 := by unfold run_pt5.sl.v13; exact Memref.readAt_unit_zero (Elt F) _ hz4 _ _
  have e18 : run_pt5.sl.v18 m c = iblk m c 1 t0_5 := by unfold run_pt5.sl.v18; exact Memref.readAt_unit_zero (Elt F) _ hz4 _ _
  have e21 : run_pt5.sl.v21 m c = iblk m c 2 t0_5 := by unfold run_pt5.sl.v21; exact Memref.readAt_unit_zero (Elt F) _ hz4 _ _
  have er : run_pt5.sl.r m c = k0_pay12 (iblk m c 2 t0_5) := by
    show k0_pay12 (run_pt5.sl.v21 m c) = _; rw [e21]
  have er1 : run_pt5.sl.r_1 m c = k0_pay13 (iblk m c 0 t0_5) (iblk m c 1 t0_5) := by
    show k0_pay13 (run_pt5.sl.v13 m c) (run_pt5.sl.v18 m c) = _; rw [e13, e18]
  have er2 : run_pt5.sl.r_2 m c fm = k0_pay14 (iblk m c 0 t0_5) (iblk m c 1 t0_5) fm := by
    show k0_pay14 (run_pt5.sl.v13 m c) (run_pt5.sl.v18 m c) (View.readAt (Elt F) accM.view (Rect.unit ![0, 0] S8x32.size inb_S8x32_S8x32_0_0).toLoadRect fm) = _
    rw [e13, e18, rd_m]
  have er3 : run_pt5.sl.r_3 m c fm = k0_pay15 (iblk m c 0 t0_5) (iblk m c 1 t0_5) fm := by
    show k0_pay15 (run_pt5.sl.v13 m c) (run_pt5.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

theorem run_pt6 (c : Dev nD) (fo : Bf (F := F) c accO) (fm : Bf (F := F) c accM) (fl : Bf (F := F) c accL)
    (x3 : Bf (F := F) c (stage0_3 (cfg0.slots t0_6 3))) (Q : PUnit → sProp 𝕄) :
    iprop(pt' c accO fo ∗ pt' c accM fm ∗ pt' c accL fl ∗ pt' c (stage0_0 (cfg0.slots t0_6 0)) (iblk m c 0 t0_6) ∗ pt' c (stage0_1 (cfg0.slots t0_6 1)) (iblk m c 1 t0_6)
        ∗ pt' c (stage0_2 (cfg0.slots t0_6 2)) (iblk m c 2 t0_6) ∗ pt' c (stage0_3 (cfg0.slots t0_6 3)) x3
        ∗ (iprop(pt' c accO (Trace.chunk (iblk m c 0 t0_6) (iblk m c 1 t0_6) (iblk m c 2 t0_6) ⟨fo, fm, fl⟩).o
            ∗ pt' c accM (Trace.chunk (iblk m c 0 t0_6) (iblk m c 1 t0_6) (iblk m c 2 t0_6) ⟨fo, fm, fl⟩).m
            ∗ pt' c accL (Trace.chunk (iblk m c 0 t0_6) (iblk m c 1 t0_6) (iblk m c 2 t0_6) ⟨fo, fm, fl⟩).l
            ∗ pt' c (stage0_0 (cfg0.slots t0_6 0)) (iblk m c 0 t0_6) ∗ pt' c (stage0_1 (cfg0.slots t0_6 1)) (iblk m c 1 t0_6)
            ∗ pt' c (stage0_2 (cfg0.slots t0_6 2)) (iblk m c 2 t0_6) ∗ pt' c (stage0_3 (cfg0.slots t0_6 3)) x3) -∗ Q ⟨⟩))
      ⊢ wp frame (wpE (defs₀ (F := F)) 𝒱₀ c none) Set.univ (bodyAt0 (F := F) t0_6) Q := by
  iintro ⟨Ho, Hm, Hl, H0, H1, H2, H3, Hk⟩
  unfold bodyAt0
  sl_exec
  sl_step
  iapply Hk

  have e13 : run_pt6.sl.v13 m c = iblk m c 0 t0_6 := by unfold run_pt6.sl.v13; exact Memref.readAt_unit_zero (Elt F) _ hz4 _ _
  have e18 : run_pt6.sl.v18 m c = iblk m c 1 t0_6 := by unfold run_pt6.sl.v18; exact Memref.readAt_unit_zero (Elt F) _ hz4 _ _
  have e21 : run_pt6.sl.v21 m c = iblk m c 2 t0_6 := by unfold run_pt6.sl.v21; exact Memref.readAt_unit_zero (Elt F) _ hz4 _ _
  have er : run_pt6.sl.r m c = k0_pay12 (iblk m c 2 t0_6) := by
    show k0_pay12 (run_pt6.sl.v21 m c) = _; rw [e21]
  have er1 : run_pt6.sl.r_1 m c = k0_pay13 (iblk m c 0 t0_6) (iblk m c 1 t0_6) := by
    show k0_pay13 (run_pt6.sl.v13 m c) (run_pt6.sl.v18 m c) = _; rw [e13, e18]
  have er2 : run_pt6.sl.r_2 m c fm = k0_pay14 (iblk m c 0 t0_6) (iblk m c 1 t0_6) fm := by
    show k0_pay14 (run_pt6.sl.v13 m c) (run_pt6.sl.v18 m c) (View.readAt (Elt F) accM.view (Rect.unit ![0, 0] S8x32.size inb_S8x32_S8x32_0_0).toLoadRect fm) = _
    rw [e13, e18, rd_m]
  have er3 : run_pt6.sl.r_3 m c fm = k0_pay15 (iblk m c 0 t0_6) (iblk m c 1 t0_6) fm := by
    show k0_pay15 (run_pt6.sl.v13 m c) (run_pt6.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

theorem run_pt8 (c : Dev nD) (fo : Bf (F := F) c accO) (fm : Bf (F := F) c accM) (fl : Bf (F := F) c accL)
    (x3 : Bf (F := F) c (stage0_3 (cfg0.slots t0_8 3))) (Q : PUnit → sProp 𝕄) :
    iprop(pt' c accO fo ∗ pt' c accM fm ∗ pt' c accL fl ∗ pt' c (stage0_0 (cfg0.slots t0_8 0)) (iblk m c 0 t0_8) ∗ pt' c (stage0_1 (cfg0.slots t0_8 1)) (iblk m c 1 t0_8)
        ∗ pt' c (stage0_2 (cfg0.slots t0_8 2)) (iblk m c 2 t0_8) ∗ pt' c (stage0_3 (cfg0.slots t0_8 3)) x3
        ∗ (iprop(pt' c accO (Trace.chunk (iblk m c 0 t0_8) (iblk m c 1 t0_8) (iblk m c 2 t0_8) Trace.acc0).o
            ∗ pt' c accM (Trace.chunk (iblk m c 0 t0_8) (iblk m c 1 t0_8) (iblk m c 2 t0_8) Trace.acc0).m
            ∗ pt' c accL (Trace.chunk (iblk m c 0 t0_8) (iblk m c 1 t0_8) (iblk m c 2 t0_8) Trace.acc0).l
            ∗ pt' c (stage0_0 (cfg0.slots t0_8 0)) (iblk m c 0 t0_8) ∗ pt' c (stage0_1 (cfg0.slots t0_8 1)) (iblk m c 1 t0_8)
            ∗ pt' c (stage0_2 (cfg0.slots t0_8 2)) (iblk m c 2 t0_8) ∗ pt' c (stage0_3 (cfg0.slots t0_8 3)) x3) -∗ Q ⟨⟩))
      ⊢ wp frame (wpE (defs₀ (F := F)) 𝒱₀ c none) Set.univ (bodyAt0 (F := F) t0_8) Q := by
  iintro ⟨Ho, Hm, Hl, H0, H1, H2, H3, Hk⟩
  unfold bodyAt0
  sl_exec
  sl_step
  iapply Hk

  have e13 : run_pt8.sl.v13 m c = iblk m c 0 t0_8 := by unfold run_pt8.sl.v13; exact Memref.readAt_unit_zero (Elt F) _ hz4 _ _
  have e18 : run_pt8.sl.v18 m c = iblk m c 1 t0_8 := by unfold run_pt8.sl.v18; exact Memref.readAt_unit_zero (Elt F) _ hz4 _ _
  have e21 : run_pt8.sl.v21 m c = iblk m c 2 t0_8 := by unfold run_pt8.sl.v21; exact Memref.readAt_unit_zero (Elt F) _ hz4 _ _
  have ev25 : run_pt8.sl.v25 (F := F) = k0_pay9 := by unfold run_pt8.sl.v25 run_pt8.sl.Hm_1; exact View.readCov_unit_zero _ hz2 _ _
  have ev34 : run_pt8.sl.v34 (F := F) = k0_pay10 := by unfold run_pt8.sl.v34 run_pt8.sl.Hl_1; exact View.readCov_unit_zero _ hz2 _ _
  have ev40 : run_pt8.sl.v40 (F := F) = k0_pay11 := by unfold run_pt8.sl.v40 run_pt8.sl.Ho_1; exact View.readCov_unit_zero _ hz3 _ _
  have er : run_pt8.sl.r m c = k0_pay12 (iblk m c 2 t0_8) := by
    show k0_pay12 (run_pt8.sl.v21 m c) = _; rw [e21]
  have er1 : run_pt8.sl.r_1 m c = k0_pay13 (iblk m c 0 t0_8) (iblk m c 1 t0_8) := by
    show k0_pay13 (run_pt8.sl.v13 m c) (run_pt8.sl.v18 m c) = _; rw [e13, e18]
  have er2 : run_pt8.sl.r_2 m c = k0_pay14 (iblk m c 0 t0_8) (iblk m c 1 t0_8) k0_pay9 := by
    show k0_pay14 (run_pt8.sl.v13 m c) (run_pt8.sl.v18 m c) run_pt8.sl.v25 = _; rw [e13, e18, ev25]
  have er3 : run_pt8.sl.r_3 m c = k0_pay15 (iblk m c 0 t0_8) (iblk m c 1 t0_8) k0_pay9 := by
    show k0_pay15 (run_pt8.sl.v13 m c) (run_pt8.sl.v18 m c) run_pt8.sl.v25 = _; rw [e13, e18, ev25]
  rw [er, er1, er2, er3, ev34, ev40, wr_o, wr_m, wr_l]
  unfold Trace.chunk Trace.acc0
  isplitl [Ho]; · iexact Ho
  isplitl [Hm]; · iexact Hm
  isplitl [Hl]; · iexact Hl
  isplitl [H0]; · iexact H0
  isplitl [H1]; · iexact H1
  isplitl [H2]; · iexact H2
  iexact H3

theorem run_pt9 (c : Dev nD) (fo : Bf (F := F) c accO) (fm : Bf (F := F) c accM) (fl : Bf (F := F) c accL)
    (x3 : Bf (F := F) c (stage0_3 (cfg0.slots t0_9 3))) (Q : PUnit → sProp 𝕄) :
    iprop(pt' c accO fo ∗ pt' c accM fm ∗ pt' c accL fl ∗ pt' c (stage0_0 (cfg0.slots t0_9 0)) (iblk m c 0 t0_9) ∗ pt' c (stage0_1 (cfg0.slots t0_9 1)) (iblk m c 1 t0_9)
        ∗ pt' c (stage0_2 (cfg0.slots t0_9 2)) (iblk m c 2 t0_9) ∗ pt' c (stage0_3 (cfg0.slots t0_9 3)) x3
        ∗ (iprop(pt' c accO (Trace.chunk (iblk m c 0 t0_9) (iblk m c 1 t0_9) (iblk m c 2 t0_9) ⟨fo, fm, fl⟩).o
            ∗ pt' c accM (Trace.chunk (iblk m c 0 t0_9) (iblk m c 1 t0_9) (iblk m c 2 t0_9) ⟨fo, fm, fl⟩).m
            ∗ pt' c accL (Trace.chunk (iblk m c 0 t0_9) (iblk m c 1 t0_9) (iblk m c 2 t0_9) ⟨fo, fm, fl⟩).l
            ∗ pt' c (stage0_0 (cfg0.slots t0_9 0)) (iblk m c 0 t0_9) ∗ pt' c (stage0_1 (cfg0.slots t0_9 1)) (iblk m c 1 t0_9)
            ∗ pt' c (stage0_2 (cfg0.slots t0_9 2)) (iblk m c 2 t0_9) ∗ pt' c (stage0_3 (cfg0.slots t0_9 3)) x3) -∗ Q ⟨⟩))
      ⊢ wp frame (wpE (defs₀ (F := F)) 𝒱₀ c none) Set.univ (bodyAt0 (F := F) t0_9) Q := by
  iintro ⟨Ho, Hm, Hl, H0, H1, H2, H3, Hk⟩
  unfold bodyAt0
  sl_exec
  sl_step
  iapply Hk

  have e13 : run_pt9.sl.v13 m c = iblk m c 0 t0_9 := by unfold run_pt9.sl.v13; exact Memref.readAt_unit_zero (Elt F) _ hz4 _ _
  have e18 : run_pt9.sl.v18 m c = iblk m c 1 t0_9 := by unfold run_pt9.sl.v18; exact Memref.readAt_unit_zero (Elt F) _ hz4 _ _
  have e21 : run_pt9.sl.v21 m c = iblk m c 2 t0_9 := by unfold run_pt9.sl.v21; exact Memref.readAt_unit_zero (Elt F) _ hz4 _ _
  have er : run_pt9.sl.r m c = k0_pay12 (iblk m c 2 t0_9) := by
    show k0_pay12 (run_pt9.sl.v21 m c) = _; rw [e21]
  have er1 : run_pt9.sl.r_1 m c = k0_pay13 (iblk m c 0 t0_9) (iblk m c 1 t0_9) := by
    show k0_pay13 (run_pt9.sl.v13 m c) (run_pt9.sl.v18 m c) = _; rw [e13, e18]
  have er2 : run_pt9.sl.r_2 m c fm = k0_pay14 (iblk m c 0 t0_9) (iblk m c 1 t0_9) fm := by
    show k0_pay14 (run_pt9.sl.v13 m c) (run_pt9.sl.v18 m c) (View.readAt (Elt F) accM.view (Rect.unit ![0, 0] S8x32.size inb_S8x32_S8x32_0_0).toLoadRect fm) = _
    rw [e13, e18, rd_m]
  have er3 : run_pt9.sl.r_3 m c fm = k0_pay15 (iblk m c 0 t0_9) (iblk m c 1 t0_9) fm := by
    show k0_pay15 (run_pt9.sl.v13 m c) (run_pt9.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

theorem run_pt10 (c : Dev nD) (fo : Bf (F := F) c accO) (fm : Bf (F := F) c accM) (fl : Bf (F := F) c accL)
    (x3 : Bf (F := F) c (stage0_3 (cfg0.slots t0_10 3))) (Q : PUnit → sProp 𝕄) :
    iprop(pt' c accO fo ∗ pt' c accM fm ∗ pt' c accL fl ∗ pt' c (stage0_0 (cfg0.slots t0_10 0)) (iblk m c 0 t0_10) ∗ pt' c (stage0_1 (cfg0.slots t0_10 1)) (iblk m c 1 t0_10)
        ∗ pt' c (stage0_2 (cfg0.slots t0_10 2)) (iblk m c 2 t0_10) ∗ pt' c (stage0_3 (cfg0.slots t0_10 3)) x3
        ∗ (iprop(pt' c accO (Trace.chunk (iblk m c 0 t0_10) (iblk m c 1 t0_10) (iblk m c 2 t0_10) ⟨fo, fm, fl⟩).o
            ∗ pt' c accM (Trace.chunk (iblk m c 0 t0_10) (iblk m c 1 t0_10) (iblk m c 2 t0_10) ⟨fo, fm, fl⟩).m
            ∗ pt' c accL (Trace.chunk (iblk m c 0 t0_10) (iblk m c 1 t0_10) (iblk m c 2 t0_10) ⟨fo, fm, fl⟩).l
            ∗ pt' c (stage0_0 (cfg0.slots t0_10 0)) (iblk m c 0 t0_10) ∗ pt' c (stage0_1 (cfg0.slots t0_10 1)) (iblk m c 1 t0_10)
            ∗ pt' c (stage0_2 (cfg0.slots t0_10 2)) (iblk m c 2 t0_10) ∗ pt' c (stage0_3 (cfg0.slots t0_10 3)) x3) -∗ Q ⟨⟩))
      ⊢ wp frame (wpE (defs₀ (F := F)) 𝒱₀ c none) Set.univ (bodyAt0 (F := F) t0_10) Q := by
  iintro ⟨Ho, Hm, Hl, H0, H1, H2, H3, Hk⟩
  unfold bodyAt0
  sl_exec
  sl_step
  iapply Hk

  have e13 : run_pt10.sl.v13 m c = iblk m c 0 t0_10 := by unfold run_pt10.sl.v13; exact Memref.readAt_unit_zero (Elt F) _ hz4 _ _
  have e18 : run_pt10.sl.v18 m c = iblk m c 1 t0_10 := by unfold run_pt10.sl.v18; exact Memref.readAt_unit_zero (Elt F) _ hz4 _ _
  have e21 : run_pt10.sl.v21 m c = iblk m c 2 t0_10 := by unfold run_pt10.sl.v21; exact Memref.readAt_unit_zero (Elt F) _ hz4 _ _
  have er : run_pt10.sl.r m c = k0_pay12 (iblk m c 2 t0_10) := by
    show k0_pay12 (run_pt10.sl.v21 m c) = _; rw [e21]
  have er1 : run_pt10.sl.r_1 m c = k0_pay13 (iblk m c 0 t0_10) (iblk m c 1 t0_10) := by
    show k0_pay13 (run_pt10.sl.v13 m c) (run_pt10.sl.v18 m c) = _; rw [e13, e18]
  have er2 : run_pt10.sl.r_2 m c fm = k0_pay14 (iblk m c 0 t0_10) (iblk m c 1 t0_10) fm := by
    show k0_pay14 (run_pt10.sl.v13 m c) (run_pt10.sl.v18 m c) (View.readAt (Elt F) accM.view (Rect.unit ![0, 0] S8x32.size inb_S8x32_S8x32_0_0).toLoadRect fm) = _
    rw [e13, e18, rd_m]
  have er3 : run_pt10.sl.r_3 m c fm = k0_pay15 (iblk m c 0 t0_10) (iblk m c 1 t0_10) fm := by
    show k0_pay15 (run_pt10.sl.v13 m c) (run_pt10.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

theorem run_pt12 (c : Dev nD) (fo : Bf (F := F) c accO) (fm : Bf (F := F) c accM) (fl : Bf (F := F) c accL)
    (x3 : Bf (F := F) c (stage0_3 (cfg0.slots t0_12 3))) (Q : PUnit → sProp 𝕄) :
    iprop(pt' c accO fo ∗ pt' c accM fm ∗ pt' c accL fl ∗ pt' c (stage0_0 (cfg0.slots t0_12 0)) (iblk m c 0 t0_12) ∗ pt' c (stage0_1 (cfg0.slots t0_12 1)) (iblk m c 1 t0_12)
        ∗ pt' c (stage0_2 (cfg0.slots t0_12 2)) (iblk m c 2 t0_12) ∗ pt' c (stage0_3 (cfg0.slots t0_12 3)) x3
        ∗ (iprop(pt' c accO (Trace.chunk (iblk m c 0 t0_12) (iblk m c 1 t0_12) (iblk m c 2 t0_12) Trace.acc0).o
            ∗ pt' c accM (Trace.chunk (iblk m c 0 t0_12) (iblk m c 1 t0_12) (iblk m c 2 t0_12) Trace.acc0).m
            ∗ pt' c accL (Trace.chunk (iblk m c 0 t0_12) (iblk m c 1 t0_12) (iblk m c 2 t0_12) Trace.acc0).l
            ∗ pt' c (stage0_0 (cfg0.slots t0_12 0)) (iblk m c 0 t0_12) ∗ pt' c (stage0_1 (cfg0.slots t0_12 1)) (iblk m c 1 t0_12)
            ∗ pt' c (stage0_2 (cfg0.slots t0_12 2)) (iblk m c 2 t0_12) ∗ pt' c (stage0_3 (cfg0.slots t0_12 3)) x3) -∗ Q ⟨⟩))
      ⊢ wp frame (wpE (defs₀ (F := F)) 𝒱₀ c none) Set.univ (bodyAt0 (F := F) t0_12) Q := by
  iintro ⟨Ho, Hm, Hl, H0, H1, H2, H3, Hk⟩
  unfold bodyAt0
  sl_exec
  sl_step
  iapply Hk

  have e13 : run_pt12.sl.v13 m c = iblk m c 0 t0_12 := by unfold run_pt12.sl.v13; exact Memref.readAt_unit_zero (Elt F) _ hz4 _ _
  have e18 : run_pt12.sl.v18 m c = iblk m c 1 t0_12 := by unfold run_pt12.sl.v18; exact Memref.readAt_unit_zero (Elt F) _ hz4 _ _
  have e21 : run_pt12.sl.v21 m c = iblk m c 2 t0_12 := by unfold run_pt12.sl.v21; exact Memref.readAt_unit_zero (Elt F) _ hz4 _ _
  have ev25 : run_pt12.sl.v25 (F := F) = k0_pay9 := by unfold run_pt12.sl.v25 run_pt12.sl.Hm_1; exact View.readCov_unit_zero _ hz2 _ _
  have ev34 : run_pt12.sl.v34 (F := F) = k0_pay10 := by unfold run_pt12.sl.v34 run_pt12.sl.Hl_1; exact View.readCov_unit_zero _ hz2 _ _
  have ev40 : run_pt12.sl.v40 (F := F) = k0_pay11 := by unfold run_pt12.sl.v40 run_pt12.sl.Ho_1; exact View.readCov_unit_zero _ hz3 _ _
  have er : run_pt12.sl.r m c = k0_pay12 (iblk m c 2 t0_12) := by
    show k0_pay12 (run_pt12.sl.v21 m c) = _; rw [e21]
  have er1 : run_pt12.sl.r_1 m c = k0_pay13 (iblk m c 0 t0_12) (iblk m c 1 t0_12) := by
    show k0_pay13 (run_pt12.sl.v13 m c) (run_pt12.sl.v18 m c) = _; rw [e13, e18]
  have er2 : run_pt12.sl.r_2 m c = k0_pay14 (iblk m c 0 t0_12) (iblk m c 1 t0_12) k0_pay9 := by
    show k0_pay14 (run_pt12.sl.v13 m c) (run_pt12.sl.v18 m c) run_pt12.sl.v25 = _; rw [e13, e18, ev25]
  have er3 : run_pt12.sl.r_3 m c = k0_pay15 (iblk m c 0 t0_12) (iblk m c 1 t0_12) k0_pay9 := by
    show k0_pay15 (run_pt12.sl.v13 m c) (run_pt12.sl.v18 m c) run_pt12.sl.v25 = _; rw [e13, e18, ev25]
  rw [er, er1, er2, er3, ev34, ev40, wr_o, wr_m, wr_l]
  unfold Trace.chunk Trace.acc0
  isplitl [Ho]; · iexact Ho
  isplitl [Hm]; · iexact Hm
  isplitl [Hl]; · iexact Hl
  isplitl [H0]; · iexact H0
  isplitl [H1]; · iexact H1
  isplitl [H2]; · iexact H2
  iexact H3

theorem run_pt13 (c : Dev nD) (fo : Bf (F := F) c accO) (fm : Bf (F := F) c accM) (fl : Bf (F := F) c accL)
    (x3 : Bf (F := F) c (stage0_3 (cfg0.slots t0_13 3))) (Q : PUnit → sProp 𝕄) :
    iprop(pt' c accO fo ∗ pt' c accM fm ∗ pt' c accL fl ∗ pt' c (stage0_0 (cfg0.slots t0_13 0)) (iblk m c 0 t0_13) ∗ pt' c (stage0_1 (cfg0.slots t0_13 1)) (iblk m c 1 t0_13)
        ∗ pt' c (stage0_2 (cfg0.slots t0_13 2)) (iblk m c 2 t0_13) ∗ pt' c (stage0_3 (cfg0.slots t0_13 3)) x3
        ∗ (iprop(pt' c accO (Trace.chunk (iblk m c 0 t0_13) (iblk m c 1 t0_13) (iblk m c 2 t0_13) ⟨fo, fm, fl⟩).o
            ∗ pt' c accM (Trace.chunk (iblk m c 0 t0_13) (iblk m c 1 t0_13) (iblk m c 2 t0_13) ⟨fo, fm, fl⟩).m
            ∗ pt' c accL (Trace.chunk (iblk m c 0 t0_13) (iblk m c 1 t0_13) (iblk m c 2 t0_13) ⟨fo, fm, fl⟩).l
            ∗ pt' c (stage0_0 (cfg0.slots t0_13 0)) (iblk m c 0 t0_13) ∗ pt' c (stage0_1 (cfg0.slots t0_13 1)) (iblk m c 1 t0_13)
            ∗ pt' c (stage0_2 (cfg0.slots t0_13 2)) (iblk m c 2 t0_13) ∗ pt' c (stage0_3 (cfg0.slots t0_13 3)) x3) -∗ Q ⟨⟩))
      ⊢ wp frame (wpE (defs₀ (F := F)) 𝒱₀ c none) Set.univ (bodyAt0 (F := F) t0_13) Q := by
  iintro ⟨Ho, Hm, Hl, H0, H1, H2, H3, Hk⟩
  unfold bodyAt0
  sl_exec
  sl_step
  iapply Hk

  have e13 : run_pt13.sl.v13 m c = iblk m c 0 t0_13 := by unfold run_pt13.sl.v13; exact Memref.readAt_unit_zero (Elt F) _ hz4 _ _
  have e18 : run_pt13.sl.v18 m c = iblk m c 1 t0_13 := by unfold run_pt13.sl.v18; exact Memref.readAt_unit_zero (Elt F) _ hz4 _ _
  have e21 : run_pt13.sl.v21 m c = iblk m c 2 t0_13 := by unfold run_pt13.sl.v21; exact Memref.readAt_unit_zero (Elt F) _ hz4 _ _
  have er : run_pt13.sl.r m c = k0_pay12 (iblk m c 2 t0_13) := by
    show k0_pay12 (run_pt13.sl.v21 m c) = _; rw [e21]
  have er1 : run_pt13.sl.r_1 m c = k0_pay13 (iblk m c 0 t0_13) (iblk m c 1 t0_13) := by
    show k0_pay13 (run_pt13.sl.v13 m c) (run_pt13.sl.v18 m c) = _; rw [e13, e18]
  have er2 : run_pt13.sl.r_2 m c fm = k0_pay14 (iblk m c 0 t0_13) (iblk m c 1 t0_13) fm := by
    show k0_pay14 (run_pt13.sl.v13 m c) (run_pt13.sl.v18 m c) (View.readAt (Elt F) accM.view (Rect.unit ![0, 0] S8x32.size inb_S8x32_S8x32_0_0).toLoadRect fm) = _
    rw [e13, e18, rd_m]
  have er3 : run_pt13.sl.r_3 m c fm = k0_pay15 (iblk m c 0 t0_13) (iblk m c 1 t0_13) fm := by
    show k0_pay15 (run_pt13.sl.v13 m c) (run_pt13.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

theorem run_pt14 (c : Dev nD) (fo : Bf (F := F) c accO) (fm : Bf (F := F) c accM) (fl : Bf (F := F) c accL)
    (x3 : Bf (F := F) c (stage0_3 (cfg0.slots t0_14 3))) (Q : PUnit → sProp 𝕄) :
    iprop(pt' c accO fo ∗ pt' c accM fm ∗ pt' c accL fl ∗ pt' c (stage0_0 (cfg0.slots t0_14 0)) (iblk m c 0 t0_14) ∗ pt' c (stage0_1 (cfg0.slots t0_14 1)) (iblk m c 1 t0_14)
        ∗ pt' c (stage0_2 (cfg0.slots t0_14 2)) (iblk m c 2 t0_14) ∗ pt' c (stage0_3 (cfg0.slots t0_14 3)) x3
        ∗ (iprop(pt' c accO (Trace.chunk (iblk m c 0 t0_14) (iblk m c 1 t0_14) (iblk m c 2 t0_14) ⟨fo, fm, fl⟩).o
            ∗ pt' c accM (Trace.chunk (iblk m c 0 t0_14) (iblk m c 1 t0_14) (iblk m c 2 t0_14) ⟨fo, fm, fl⟩).m
            ∗ pt' c accL (Trace.chunk (iblk m c 0 t0_14) (iblk m c 1 t0_14) (iblk m c 2 t0_14) ⟨fo, fm, fl⟩).l
            ∗ pt' c (stage0_0 (cfg0.slots t0_14 0)) (iblk m c 0 t0_14) ∗ pt' c (stage0_1 (cfg0.slots t0_14 1)) (iblk m c 1 t0_14)
            ∗ pt' c (stage0_2 (cfg0.slots t0_14 2)) (iblk m c 2 t0_14) ∗ pt' c (stage0_3 (cfg0.slots t0_14 3)) x3) -∗ Q ⟨⟩))
      ⊢ wp frame (wpE (defs₀ (F := F)) 𝒱₀ c none) Set.univ (bodyAt0 (F := F) t0_14) Q := by
  iintro ⟨Ho, Hm, Hl, H0, H1, H2, H3, Hk⟩
  unfold bodyAt0
  sl_exec
  sl_step
  iapply Hk

  have e13 : run_pt14.sl.v13 m c = iblk m c 0 t0_14 := by unfold run_pt14.sl.v13; exact Memref.readAt_unit_zero (Elt F) _ hz4 _ _
  have e18 : run_pt14.sl.v18 m c = iblk m c 1 t0_14 := by unfold run_pt14.sl.v18; exact Memref.readAt_unit_zero (Elt F) _ hz4 _ _
  have e21 : run_pt14.sl.v21 m c = iblk m c 2 t0_14 := by unfold run_pt14.sl.v21; exact Memref.readAt_unit_zero (Elt F) _ hz4 _ _
  have er : run_pt14.sl.r m c = k0_pay12 (iblk m c 2 t0_14) := by
    show k0_pay12 (run_pt14.sl.v21 m c) = _; rw [e21]
  have er1 : run_pt14.sl.r_1 m c = k0_pay13 (iblk m c 0 t0_14) (iblk m c 1 t0_14) := by
    show k0_pay13 (run_pt14.sl.v13 m c) (run_pt14.sl.v18 m c) = _; rw [e13, e18]
  have er2 : run_pt14.sl.r_2 m c fm = k0_pay14 (iblk m c 0 t0_14) (iblk m c 1 t0_14) fm := by
    show k0_pay14 (run_pt14.sl.v13 m c) (run_pt14.sl.v18 m c) (View.readAt (Elt F) accM.view (Rect.unit ![0, 0] S8x32.size inb_S8x32_S8x32_0_0).toLoadRect fm) = _
    rw [e13, e18, rd_m]
  have er3 : run_pt14.sl.r_3 m c fm = k0_pay15 (iblk m c 0 t0_14) (iblk m c 1 t0_14) fm := by
    show k0_pay15 (run_pt14.sl.v13 m c) (run_pt14.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

end Cert.KernelIdealProof

end
-- ==== Proof.TraceFacts.lean ====
/-
  The rows of a device's hand-over buffers, read off the trace: rows `b` of the output buffer are the re-laid
  numerator rows of batch entry `b`'s final accumulators, and the two statistics rows of `b` its final running
  maximum and normaliser.
-/
import proofs.«900428_g7700000000000429_dist_flashdec_v7x_xyz2x2x4_y_b4_sq32_skv4096_h8_d128_f32_1_alg».proof.Proof.Data
import Idealize.ShloMosaic.Lib.ValueIdx

noncomputable section

namespace Cert.KernelIdealProof

open Cert.KernelIdeal Cert.KernelIdeal.Gen
open Idealize.ShloMosaic Idealize.ShloMosaic.ValueIdx

variable {F : FTy → Type} [FloatOps F]

variable (m : (ℓ : Loc nD τ sig) → Buf (Elt F) ℓ)

/-- An index of a block with one leading row is that row's index. -/
theorem ix4_unit_o (x : S1x32x8x128.Idx) : ix4 (0 : Fin 1) (x 1) (x 2) (x 3) = x := by
  funext a
  match a with
  | ⟨0, _⟩ => exact Fin.ext (by show (0 : ℕ) = (x 0).val; have h : (x 0).val < 1 := (x 0).isLt; omega)
  | ⟨1, _⟩ => rfl
  | ⟨2, _⟩ => rfl
  | ⟨3, _⟩ => rfl

theorem ix4_unit_s (x : S1x1x8x32.Idx) : ix4 (0 : Fin 1) (0 : Fin 1) (x 2) (x 3) = x := by
  funext a
  match a with
  | ⟨0, _⟩ => exact Fin.ext (by show (0 : ℕ) = (x 0).val; have h : (x 0).val < 1 := (x 0).isLt; omega)
  | ⟨1, _⟩ => exact Fin.ext (by show (0 : ℕ) = (x 1).val; have h : (x 1).val < 1 := (x 1).isLt; omega)
  | ⟨2, _⟩ => rfl
  | ⟨3, _⟩ => rfl

theorem OV_rows (c : Dev nD) (b : Fin 4) (x : S1x32x8x128.Idx) :
    OV m c (ix4 b (x 1) (x 2) (x 3)) = k0_pay5 (Trace.accAt (XQ m c) (XK m c) (XV m c) b 4).o x := by
  show k0_pay5 (Trace.accAt (XQ m c) (XK m c) (XV m c) b 4).o (ix4 (0 : Fin 1) (x 1) (x 2) (x 3)) = _
  exact congrArg _ (ix4_unit_o x)

theorem SV_row0 (c : Dev nD) (b : Fin 4) (x : S1x1x8x32.Idx) :
    SV m c (ix4 b (0 : Fin 2) (x 2) (x 3)) = k0_pay6 (Trace.accAt (XQ m c) (XK m c) (XV m c) b 4).m x := by
  show (if ((0 : Fin 2) : Fin 2).val = 0 then k0_pay6 (Trace.accAt (XQ m c) (XK m c) (XV m c) b 4).m (ix4 (0 : Fin 1) (0 : Fin 1) (x 2) (x 3))
    else k0_pay7 (Trace.accAt (XQ m c) (XK m c) (XV m c) b 4).l (ix4 (0 : Fin 1) (0 : Fin 1) (x 2) (x 3))) = _
  exact (if_pos rfl).trans (congrArg _ (ix4_unit_s x))

theorem SV_row1 (c : Dev nD) (b : Fin 4) (x : S1x1x8x32.Idx) :
    SV m c (ix4 b (1 : Fin 2) (x 2) (x 3)) = k0_pay7 (Trace.accAt (XQ m c) (XK m c) (XV m c) b 4).l x := by
  show (if ((1 : Fin 2) : Fin 2).val = 0 then k0_pay6 (Trace.accAt (XQ m c) (XK m c) (XV m c) b 4).m (ix4 (0 : Fin 1) (0 : Fin 1) (x 2) (x 3))
    else k0_pay7 (Trace.accAt (XQ m c) (XK m c) (XV m c) b 4).l (ix4 (0 : Fin 1) (0 : Fin 1) (x 2) (x 3))) = _
  exact (if_neg (by decide)).trans (congrArg _ (ix4_unit_s x))

end Cert.KernelIdealProof

end
-- ==== Proof.AccStep.lean ====
/-
  One grid point's step of the trace: the accumulators of batch entry `b` after `k + 1` chunks are the `chunk` of the
  blocks staged at point `(b, k)` over the accumulators after `k` chunks. The query block staged at any chunk of a
  batch entry is the entry's one query block (the index map of that window ignores the chunk).
-/
import proofs.«900428_g7700000000000429_dist_flashdec_v7x_xyz2x2x4_y_b4_sq32_skv4096_h8_d128_f32_1_alg».proof.Proof.TraceFacts
import proofs.«900428_g7700000000000429_dist_flashdec_v7x_xyz2x2x4_y_b4_sq32_skv4096_h8_d128_f32_1_alg».proof.Proof.InputFacts

noncomputable section

namespace Cert.KernelIdealProof

open Cert.KernelIdeal Cert.KernelIdeal.Gen
open Idealize.ShloMosaic Idealize.ShloMosaic.ValueIdx

variable {F : FTy → Type} [FloatOps F]

variable (m : (ℓ : Loc nD τ sig) → Buf (Elt F) ℓ)

theorem pt_div4 (b k : Fin 4) : (⟨(pt b k).val / 4, Cert.KernelIdeal.InputFacts.div4_lt (pt b k)⟩ : Fin 4) = b :=
  Fin.ext (by show (4 * b.val + k.val) / 4 = b.val; have := k.isLt; omega)

theorem iblk0_pt (c : Dev nD) (b k : Fin 4) : iblk m c 0 (pt b k) = XQ m c b := by
  funext y
  have h1 := Cert.KernelIdeal.InputFacts.iblk0_apply m c (pt b k) (y 1) (y 2) (y 3)
  have h2 := Cert.KernelIdeal.InputFacts.iblk0_apply m c (pt b 0) (y 1) (y 2) (y 3)
  rw [pt_div4] at h1 h2
  have e := ix4_unit_o y
  exact (congrArg (iblk m c 0 (pt b k)) e.symm).trans (h1.trans (h2.symm.trans (congrArg (iblk m c 0 (pt b 0)) e)))

theorem acc_step (c : Dev nD) (b : Fin 4) (k : ℕ) (hk : k < 4) :
    Trace.accAt (XQ m c) (XK m c) (XV m c) b (k + 1)
      = Trace.chunk (iblk m c 0 (pt b ⟨k, hk⟩)) (iblk m c 1 (pt b ⟨k, hk⟩)) (iblk m c 2 (pt b ⟨k, hk⟩)) (Trace.accAt (XQ m c) (XK m c) (XV m c) b k) := by
  have hk4 : (⟨k % 4, Nat.mod_lt _ (by decide)⟩ : Fin 4) = ⟨k, hk⟩ := Fin.ext (Nat.mod_eq_of_lt hk)
  show Trace.chunk (XQ m c b) (XK m c b ⟨k % 4, Nat.mod_lt _ (by decide)⟩) (XV m c b ⟨k % 4, Nat.mod_lt _ (by decide)⟩) (Trace.accAt (XQ m c) (XK m c) (XV m c) b k) = _
  rw [hk4, iblk0_pt m c b ⟨k, hk⟩]
  rfl

end Cert.KernelIdealProof

end
-- ==== Proof.BodyPlain.lean ====
/-
  The body obligation at the twelve grid points that are one chunk step of the accumulators and nothing else: batch
  entry `b`, chunk `k ≠ 3`. Before such a point the invariant holds the accumulators at the trace's value after `k`
  chunks (anything, at a first chunk); the body leaves them at the value after `k + 1` chunks, every staging buffer as
  it was, and every other part of the invariant and what the device owes are the same before and after.
-/
import proofs.«900428_g7700000000000429_dist_flashdec_v7x_xyz2x2x4_y_b4_sq32_skv4096_h8_d128_f32_1_alg».proof.Proof.BodyGoal
import proofs.«900428_g7700000000000429_dist_flashdec_v7x_xyz2x2x4_y_b4_sq32_skv4096_h8_d128_f32_1_alg».proof.Proof.BodyRuns
import proofs.«900428_g7700000000000429_dist_flashdec_v7x_xyz2x2x4_y_b4_sq32_skv4096_h8_d128_f32_1_alg».proof.Proof.InputFacts
import proofs.«900428_g7700000000000429_dist_flashdec_v7x_xyz2x2x4_y_b4_sq32_skv4096_h8_d128_f32_1_alg».proof.Proof.AccStep
import Idealize.ShloMosaic.Lib.Pipeline.FrameBody

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Input window 0's current staging buffer holds its block at every grid point, fetched there or not. -/
theorem before_in0 (c : Dev nD) (t : Fin cfg0.N) (d : (cfg0.win 0).block.Idx → Elt F (cfg0.win 0).elt) :
    (dats m 0 c).before 0 t d = iblk m c 0 t :=
  ((dats m 0 c).before_in_eq_fetched 0 rfl (fun _ => rfl) (fun _ _ _ => rfl)
      (fun t => by
        show (cfg0.win 0).cut (cfg0.grid.coords t) (iblk m c 0 t) = _
        unfold Dat.blockOf iblk; rfl) t d).trans
    (by unfold Dat.fetched Dat.blockOf iblk; rfl)

/-- Input window 1's current staging buffer holds its block at every grid point, fetched there or not. -/
theorem before_in1 (c : Dev nD) (t : Fin cfg0.N) (d : (cfg0.win 1).block.Idx → Elt F (cfg0.win 1).elt) :
    (dats m 0 c).before 1 t d = iblk m c 1 t :=
  ((dats m 0 c).before_in_eq_fetched 1 rfl (fun _ => rfl) (fun _ _ _ => rfl)
      (fun t => by
        show (cfg0.win 1).cut (cfg0.grid.coords t) (iblk m c 1 t) = _
        unfold Dat.blockOf iblk; rfl) t d).trans
    (by unfold Dat.fetched Dat.blockOf iblk; rfl)

/-- Input window 2's current staging buffer holds its block at every grid point, fetched there or not. -/
theorem before_in2 (c : Dev nD) (t : Fin cfg0.N) (d : (cfg0.win 2).block.Idx → Elt F (cfg0.win 2).elt) :
    (dats m 0 c).before 2 t d = iblk m c 2 t :=
  ((dats m 0 c).before_in_eq_fetched 2 rfl (fun _ => rfl) (fun _ _ _ => rfl)
      (fun t => by
        show (cfg0.win 2).cut (cfg0.grid.coords t) (iblk m c 2 t) = _
        unfold Dat.blockOf iblk; rfl) t d).trans
    (by unfold Dat.fetched Dat.blockOf iblk; rfl)

/-- The body obligation at grid point 0: batch entry 0, chunk 0. -/
theorem body_pt0 (c : Dev nD) : BodyGoal m c t0_0 := by
  unfold BodyGoal
  rw [bigSep_W0, bigSep_W0]
  have hi0 : cfg0.idle 0 (cfg0.grid.coords t0_0) = false := rfl
  have hi1 : cfg0.idle 1 (cfg0.grid.coords t0_0) = false := rfl
  have hi2 : cfg0.idle 2 (cfg0.grid.coords t0_0) = false := rfl
  have hi3 : idle0 3 (grid0.coords t0_0) = true := by decide +kernel
  have hf3 : (cfg0.win 3).flush t0_0 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_0 d = iblk m c 0 t0_0 := fun d => before_in0 m c t0_0 d
  have hb1 : ∀ d, (dats m 0 c).before 1 t0_0 d = iblk m c 1 t0_0 := fun d => before_in1 m c t0_0 d
  have hb2 : ∀ d, (dats m 0 c).before 2 t0_0 d = iblk m c 2 t0_0 := fun d => before_in2 m c t0_0 d
  have ha0 : (dats m 0 c).after 0 t0_0 = iblk m c 0 t0_0 := rfl
  have ha1 : (dats m 0 c).after 1 t0_0 = iblk m c 1 t0_0 := rfl
  have ha2 : (dats m 0 c).after 2 t0_0 = iblk m c 2 t0_0 := rfl
  have hs0 : ∀ X, (owns (Ix := Unit) (Name := ℕ) (U := UU) (Lvl := ℕ) (c : Thread nD τ) (stage0_0 (cfg0.slots t0_0 0)) fullShare X : sProp 𝕄)
      = pt' c (stage0_0 (cfg0.slots t0_0 0)) X := fun X => owns_whole (c : Thread nD τ) cc0_stg0_0 fullShare X
  have hs1 : ∀ X, (owns (Ix := Unit) (Name := ℕ) (U := UU) (Lvl := ℕ) (c : Thread nD τ) (stage0_1 (cfg0.slots t0_0 1)) fullShare X : sProp 𝕄)
      = pt' c (stage0_1 (cfg0.slots t0_0 1)) X := fun X => owns_whole (c : Thread nD τ) cc0_stg1_0 fullShare X
  have hs2 : ∀ X, (owns (Ix := Unit) (Name := ℕ) (U := UU) (Lvl := ℕ) (c : Thread nD τ) (stage0_2 (cfg0.slots t0_0 2)) fullShare X : sProp 𝕄)
      = pt' c (stage0_2 (cfg0.slots t0_0 2)) X := fun X => owns_whole (c : Thread nD τ) cc0_stg2_0 fullShare X
  have hs3 : ∀ X, (owns (Ix := Unit) (Name := ℕ) (U := UU) (Lvl := ℕ) (c : Thread nD τ) (stage0_3 (cfg0.slots t0_0 3)) fullShare X : sProp 𝕄)
      = pt' c (stage0_3 (cfg0.slots t0_0 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_0.castSucc = PhiMid m c 0 := rfl
  have hΦ1 : (dats m 0 c).Φ t0_0.succ = PhiMid m c 1 := rfl
  have ho : (dats m 0 c).owesAt () t0_0.succ = (dats m 0 c).owesAt () t0_0.castSucc := rfl
  rw [hΦ0, hΦ1, ho]
  show _ ⊢ wp frame (wpE (defs₀ (F := F)) 𝒱₀ c none) Set.univ (bodyAt0 (F := F) t0_0) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt0 m c fo fm fl ((dats m 0 c).before 3 t0_0 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_0) (iblk m c 1 t0_0) (iblk m c 2 t0_0) Trace.acc0).o, (Trace.chunk (iblk m c 0 t0_0) (iblk m c 1 t0_0) (iblk m c 2 t0_0) Trace.acc0).m, (Trace.chunk (iblk m c 0 t0_0) (iblk m c 1 t0_0) (iblk m c 2 t0_0) Trace.acc0).l
    isplitr [Ho Hm Hl]
    · ipureintro
      intro _
      have e : t0_0 = pt (⟨0, by decide⟩ : Fin 4) (⟨0, by decide⟩ : Fin 4) := Fin.ext rfl
      have h := acc_step m c (⟨0, by decide⟩ : Fin 4) 0 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 1: batch entry 0, chunk 1. -/
theorem body_pt1 (c : Dev nD) : BodyGoal m c t0_1 := by
  unfold BodyGoal
  rw [bigSep_W0, bigSep_W0]
  have hi0 : cfg0.idle 0 (cfg0.grid.coords t0_1) = false := rfl
  have hi1 : cfg0.idle 1 (cfg0.grid.coords t0_1) = false := rfl
  have hi2 : cfg0.idle 2 (cfg0.grid.coords t0_1) = false := rfl
  have hi3 : idle0 3 (grid0.coords t0_1) = true := by decide +kernel
  have hf3 : (cfg0.win 3).flush t0_1 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_1 d = iblk m c 0 t0_1 := fun d => before_in0 m c t0_1 d
  have hb1 : ∀ d, (dats m 0 c).before 1 t0_1 d = iblk m c 1 t0_1 := fun d => before_in1 m c t0_1 d
  have hb2 : ∀ d, (dats m 0 c).before 2 t0_1 d = iblk m c 2 t0_1 := fun d => before_in2 m c t0_1 d
  have ha0 : (dats m 0 c).after 0 t0_1 = iblk m c 0 t0_1 := rfl
  have ha1 : (dats m 0 c).after 1 t0_1 = iblk m c 1 t0_1 := rfl
  have ha2 : (dats m 0 c).after 2 t0_1 = iblk m c 2 t0_1 := rfl
  have hs0 : ∀ X, (owns (Ix := Unit) (Name := ℕ) (U := UU) (Lvl := ℕ) (c : Thread nD τ) (stage0_0 (cfg0.slots t0_1 0)) fullShare X : sProp 𝕄)
      = pt' c (stage0_0 (cfg0.slots t0_1 0)) X := fun X => owns_whole (c : Thread nD τ) cc0_stg0_0 fullShare X
  have hs1 : ∀ X, (owns (Ix := Unit) (Name := ℕ) (U := UU) (Lvl := ℕ) (c : Thread nD τ) (stage0_1 (cfg0.slots t0_1 1)) fullShare X : sProp 𝕄)
      = pt' c (stage0_1 (cfg0.slots t0_1 1)) X := fun X => owns_whole (c : Thread nD τ) cc0_stg1_1 fullShare X
  have hs2 : ∀ X, (owns (Ix := Unit) (Name := ℕ) (U := UU) (Lvl := ℕ) (c : Thread nD τ) (stage0_2 (cfg0.slots t0_1 2)) fullShare X : sProp 𝕄)
      = pt' c (stage0_2 (cfg0.slots t0_1 2)) X := fun X => owns_whole (c : Thread nD τ) cc0_stg2_1 fullShare X
  have hs3 : ∀ X, (owns (Ix := Unit) (Name := ℕ) (U := UU) (Lvl := ℕ) (c : Thread nD τ) (stage0_3 (cfg0.slots t0_1 3)) fullShare X : sProp 𝕄)
      = pt' c (stage0_3 (cfg0.slots t0_1 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_1.castSucc = PhiMid m c 1 := rfl
  have hΦ1 : (dats m 0 c).Φ t0_1.succ = PhiMid m c 2 := rfl
  have ho : (dats m 0 c).owesAt () t0_1.succ = (dats m 0 c).owesAt () t0_1.castSucc := rfl
  rw [hΦ0, hΦ1, ho]
  show _ ⊢ wp frame (wpE (defs₀ (F := F)) 𝒱₀ c none) Set.univ (bodyAt0 (F := F) t0_1) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt1 m c fo fm fl ((dats m 0 c).before 3 t0_1 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_1) (iblk m c 1 t0_1) (iblk m c 2 t0_1) ⟨fo, fm, fl⟩).o, (Trace.chunk (iblk m c 0 t0_1) (iblk m c 1 t0_1) (iblk m c 2 t0_1) ⟨fo, fm, fl⟩).m, (Trace.chunk (iblk m c 0 t0_1) (iblk m c 1 t0_1) (iblk m c 2 t0_1) ⟨fo, fm, fl⟩).l
    isplitr [Ho Hm Hl]
    · ipureintro
      intro _
      obtain ⟨rfl, rfl, rfl⟩ := hacc (by decide)
      have e : t0_1 = pt (⟨0, by decide⟩ : Fin 4) (⟨1, by decide⟩ : Fin 4) := Fin.ext rfl
      have h := acc_step m c (⟨0, by decide⟩ : Fin 4) 1 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 2: batch entry 0, chunk 2. -/
theorem body_pt2 (c : Dev nD) : BodyGoal m c t0_2 := by
  unfold BodyGoal
  rw [bigSep_W0, bigSep_W0]
  have hi0 : cfg0.idle 0 (cfg0.grid.coords t0_2) = false := rfl
  have hi1 : cfg0.idle 1 (cfg0.grid.coords t0_2) = false := rfl
  have hi2 : cfg0.idle 2 (cfg0.grid.coords t0_2) = false := rfl
  have hi3 : idle0 3 (grid0.coords t0_2) = true := by decide +kernel
  have hf3 : (cfg0.win 3).flush t0_2 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_2 d = iblk m c 0 t0_2 := fun d => before_in0 m c t0_2 d
  have hb1 : ∀ d, (dats m 0 c).before 1 t0_2 d = iblk m c 1 t0_2 := fun d => before_in1 m c t0_2 d
  have hb2 : ∀ d, (dats m 0 c).before 2 t0_2 d = iblk m c 2 t0_2 := fun d => before_in2 m c t0_2 d
  have ha0 : (dats m 0 c).after 0 t0_2 = iblk m c 0 t0_2 := rfl
  have ha1 : (dats m 0 c).after 1 t0_2 = iblk m c 1 t0_2 := rfl
  have ha2 : (dats m 0 c).after 2 t0_2 = iblk m c 2 t0_2 := rfl
  have hs0 : ∀ X, (owns (Ix := Unit) (Name := ℕ) (U := UU) (Lvl := ℕ) (c : Thread nD τ) (stage0_0 (cfg0.slots t0_2 0)) fullShare X : sProp 𝕄)
      = pt' c (stage0_0 (cfg0.slots t0_2 0)) X := fun X => owns_whole (c : Thread nD τ) cc0_stg0_0 fullShare X
  have hs1 : ∀ X, (owns (Ix := Unit) (Name := ℕ) (U := UU) (Lvl := ℕ) (c : Thread nD τ) (stage0_1 (cfg0.slots t0_2 1)) fullShare X : sProp 𝕄)
      = pt' c (stage0_1 (cfg0.slots t0_2 1)) X := fun X => owns_whole (c : Thread nD τ) cc0_stg1_0 fullShare X
  have hs2 : ∀ X, (owns (Ix := Unit) (Name := ℕ) (U := UU) (Lvl := ℕ) (c : Thread nD τ) (stage0_2 (cfg0.slots t0_2 2)) fullShare X : sProp 𝕄)
      = pt' c (stage0_2 (cfg0.slots t0_2 2)) X := fun X => owns_whole (c : Thread nD τ) cc0_stg2_0 fullShare X
  have hs3 : ∀ X, (owns (Ix := Unit) (Name := ℕ) (U := UU) (Lvl := ℕ) (c : Thread nD τ) (stage0_3 (cfg0.slots t0_2 3)) fullShare X : sProp 𝕄)
      = pt' c (stage0_3 (cfg0.slots t0_2 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_2.castSucc = PhiMid m c 2 := rfl
  have hΦ1 : (dats m 0 c).Φ t0_2.succ = PhiMid m c 3 := rfl
  have ho : (dats m 0 c).owesAt () t0_2.succ = (dats m 0 c).owesAt () t0_2.castSucc := rfl
  rw [hΦ0, hΦ1, ho]
  show _ ⊢ wp frame (wpE (defs₀ (F := F)) 𝒱₀ c none) Set.univ (bodyAt0 (F := F) t0_2) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt2 m c fo fm fl ((dats m 0 c).before 3 t0_2 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_2) (iblk m c 1 t0_2) (iblk m c 2 t0_2) ⟨fo, fm, fl⟩).o, (Trace.chunk (iblk m c 0 t0_2) (iblk m c 1 t0_2) (iblk m c 2 t0_2) ⟨fo, fm, fl⟩).m, (Trace.chunk (iblk m c 0 t0_2) (iblk m c 1 t0_2) (iblk m c 2 t0_2) ⟨fo, fm, fl⟩).l
    isplitr [Ho Hm Hl]
    · ipureintro
      intro _
      obtain ⟨rfl, rfl, rfl⟩ := hacc (by decide)
      have e : t0_2 = pt (⟨0, by decide⟩ : Fin 4) (⟨2, by decide⟩ : Fin 4) := Fin.ext rfl
      have h := acc_step m c (⟨0, by decide⟩ : Fin 4) 2 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 4: batch entry 1, chunk 0. -/
theorem body_pt4 (c : Dev nD) : BodyGoal m c t0_4 := by
  unfold BodyGoal
  rw [bigSep_W0, bigSep_W0]
  have hi0 : cfg0.idle 0 (cfg0.grid.coords t0_4) = false := rfl
  have hi1 : cfg0.idle 1 (cfg0.grid.coords t0_4) = false := rfl
  have hi2 : cfg0.idle 2 (cfg0.grid.coords t0_4) = false := rfl
  have hi3 : idle0 3 (grid0.coords t0_4) = true := by decide +kernel
  have hf3 : (cfg0.win 3).flush t0_4 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_4 d = iblk m c 0 t0_4 := fun d => before_in0 m c t0_4 d
  have hb1 : ∀ d, (dats m 0 c).before 1 t0_4 d = iblk m c 1 t0_4 := fun d => before_in1 m c t0_4 d
  have hb2 : ∀ d, (dats m 0 c).before 2 t0_4 d = iblk m c 2 t0_4 := fun d => before_in2 m c t0_4 d
  have ha0 : (dats m 0 c).after 0 t0_4 = iblk m c 0 t0_4 := rfl
  have ha1 : (dats m 0 c).after 1 t0_4 = iblk m c 1 t0_4 := rfl
  have ha2 : (dats m 0 c).after 2 t0_4 = iblk m c 2 t0_4 := rfl
  have hs0 : ∀ X, (owns (Ix := Unit) (Name := ℕ) (U := UU) (Lvl := ℕ) (c : Thread nD τ) (stage0_0 (cfg0.slots t0_4 0)) fullShare X : sProp 𝕄)
      = pt' c (stage0_0 (cfg0.slots t0_4 0)) X := fun X => owns_whole (c : Thread nD τ) cc0_stg0_1 fullShare X
  have hs1 : ∀ X, (owns (Ix := Unit) (Name := ℕ) (U := UU) (Lvl := ℕ) (c : Thread nD τ) (stage0_1 (cfg0.slots t0_4 1)) fullShare X : sProp 𝕄)
      = pt' c (stage0_1 (cfg0.slots t0_4 1)) X := fun X => owns_whole (c : Thread nD τ) cc0_stg1_0 fullShare X
  have hs2 : ∀ X, (owns (Ix := Unit) (Name := ℕ) (U := UU) (Lvl := ℕ) (c : Thread nD τ) (stage0_2 (cfg0.slots t0_4 2)) fullShare X : sProp 𝕄)
      = pt' c (stage0_2 (cfg0.slots t0_4 2)) X := fun X => owns_whole (c : Thread nD τ) cc0_stg2_0 fullShare X
  have hs3 : ∀ X, (owns (Ix := Unit) (Name := ℕ) (U := UU) (Lvl := ℕ) (c : Thread nD τ) (stage0_3 (cfg0.slots t0_4 3)) fullShare X : sProp 𝕄)
      = pt' c (stage0_3 (cfg0.slots t0_4 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_4.castSucc = PhiMid m c 4 := rfl
  have hΦ1 : (dats m 0 c).Φ t0_4.succ = PhiMid m c 5 := rfl
  have ho : (dats m 0 c).owesAt () t0_4.succ = (dats m 0 c).owesAt () t0_4.castSucc := rfl
  rw [hΦ0, hΦ1, ho]
  show _ ⊢ wp frame (wpE (defs₀ (F := F)) 𝒱₀ c none) Set.univ (bodyAt0 (F := F) t0_4) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt4 m c fo fm fl ((dats m 0 c).before 3 t0_4 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_4) (iblk m c 1 t0_4) (iblk m c 2 t0_4) Trace.acc0).o, (Trace.chunk (iblk m c 0 t0_4) (iblk m c 1 t0_4) (iblk m c 2 t0_4) Trace.acc0).m, (Trace.chunk (iblk m c 0 t0_4) (iblk m c 1 t0_4) (iblk m c 2 t0_4) Trace.acc0).l
    isplitr [Ho Hm Hl]
    · ipureintro
      intro _
      have e : t0_4 = pt (⟨1, by decide⟩ : Fin 4) (⟨0, by decide⟩ : Fin 4) := Fin.ext rfl
      have h := acc_step m c (⟨1, by decide⟩ : Fin 4) 0 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 5: batch entry 1, chunk 1. -/
theorem body_pt5 (c : Dev nD) : BodyGoal m c t0_5 := by
  unfold BodyGoal
  rw [bigSep_W0, bigSep_W0]
  have hi0 : cfg0.idle 0 (cfg0.grid.coords t0_5) = false := rfl
  have hi1 : cfg0.idle 1 (cfg0.grid.coords t0_5) = false := rfl
  have hi2 : cfg0.idle 2 (cfg0.grid.coords t0_5) = false := rfl
  have hi3 : idle0 3 (grid0.coords t0_5) = true := by decide +kernel
  have hf3 : (cfg0.win 3).flush t0_5 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_5 d = iblk m c 0 t0_5 := fun d => before_in0 m c t0_5 d
  have hb1 : ∀ d, (dats m 0 c).before 1 t0_5 d = iblk m c 1 t0_5 := fun d => before_in1 m c t0_5 d
  have hb2 : ∀ d, (dats m 0 c).before 2 t0_5 d = iblk m c 2 t0_5 := fun d => before_in2 m c t0_5 d
  have ha0 : (dats m 0 c).after 0 t0_5 = iblk m c 0 t0_5 := rfl
  have ha1 : (dats m 0 c).after 1 t0_5 = iblk m c 1 t0_5 := rfl
  have ha2 : (dats m 0 c).after 2 t0_5 = iblk m c 2 t0_5 := rfl
  have hs0 : ∀ X, (owns (Ix := Unit) (Name := ℕ) (U := UU) (Lvl := ℕ) (c : Thread nD τ) (stage0_0 (cfg0.slots t0_5 0)) fullShare X : sProp 𝕄)
      = pt' c (stage0_0 (cfg0.slots t0_5 0)) X := fun X => owns_whole (c : Thread nD τ) cc0_stg0_1 fullShare X
  have hs1 : ∀ X, (owns (Ix := Unit) (Name := ℕ) (U := UU) (Lvl := ℕ) (c : Thread nD τ) (stage0_1 (cfg0.slots t0_5 1)) fullShare X : sProp 𝕄)
      = pt' c (stage0_1 (cfg0.slots t0_5 1)) X := fun X => owns_whole (c : Thread nD τ) cc0_stg1_1 fullShare X
  have hs2 : ∀ X, (owns (Ix := Unit) (Name := ℕ) (U := UU) (Lvl := ℕ) (c : Thread nD τ) (stage0_2 (cfg0.slots t0_5 2)) fullShare X : sProp 𝕄)
      = pt' c (stage0_2 (cfg0.slots t0_5 2)) X := fun X => owns_whole (c : Thread nD τ) cc0_stg2_1 fullShare X
  have hs3 : ∀ X, (owns (Ix := Unit) (Name := ℕ) (U := UU) (Lvl := ℕ) (c : Thread nD τ) (stage0_3 (cfg0.slots t0_5 3)) fullShare X : sProp 𝕄)
      = pt' c (stage0_3 (cfg0.slots t0_5 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_5.castSucc = PhiMid m c 5 := rfl
  have hΦ1 : (dats m 0 c).Φ t0_5.succ = PhiMid m c 6 := rfl
  have ho : (dats m 0 c).owesAt () t0_5.succ = (dats m 0 c).owesAt () t0_5.castSucc := rfl
  rw [hΦ0, hΦ1, ho]
  show _ ⊢ wp frame (wpE (defs₀ (F := F)) 𝒱₀ c none) Set.univ (bodyAt0 (F := F) t0_5) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt5 m c fo fm fl ((dats m 0 c).before 3 t0_5 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_5) (iblk m c 1 t0_5) (iblk m c 2 t0_5) ⟨fo, fm, fl⟩).o, (Trace.chunk (iblk m c 0 t0_5) (iblk m c 1 t0_5) (iblk m c 2 t0_5) ⟨fo, fm, fl⟩).m, (Trace.chunk (iblk m c 0 t0_5) (iblk m c 1 t0_5) (iblk m c 2 t0_5) ⟨fo, fm, fl⟩).l
    isplitr [Ho Hm Hl]
    · ipureintro
      intro _
      obtain ⟨rfl, rfl, rfl⟩ := hacc (by decide)
      have e : t0_5 = pt (⟨1, by decide⟩ : Fin 4) (⟨1, by decide⟩ : Fin 4) := Fin.ext rfl
      have h := acc_step m c (⟨1, by decide⟩ : Fin 4) 1 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 6: batch entry 1, chunk 2. -/
theorem body_pt6 (c : Dev nD) : BodyGoal m c t0_6 := by
  unfold BodyGoal
  rw [bigSep_W0, bigSep_W0]
  have hi0 : cfg0.idle 0 (cfg0.grid.coords t0_6) = false := rfl
  have hi1 : cfg0.idle 1 (cfg0.grid.coords t0_6) = false := rfl
  have hi2 : cfg0.idle 2 (cfg0.grid.coords t0_6) = false := rfl
  have hi3 : idle0 3 (grid0.coords t0_6) = true := by decide +kernel
  have hf3 : (cfg0.win 3).flush t0_6 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_6 d = iblk m c 0 t0_6 := fun d => before_in0 m c t0_6 d
  have hb1 : ∀ d, (dats m 0 c).before 1 t0_6 d = iblk m c 1 t0_6 := fun d => before_in1 m c t0_6 d
  have hb2 : ∀ d, (dats m 0 c).before 2 t0_6 d = iblk m c 2 t0_6 := fun d => before_in2 m c t0_6 d
  have ha0 : (dats m 0 c).after 0 t0_6 = iblk m c 0 t0_6 := rfl
  have ha1 : (dats m 0 c).after 1 t0_6 = iblk m c 1 t0_6 := rfl
  have ha2 : (dats m 0 c).after 2 t0_6 = iblk m c 2 t0_6 := rfl
  have hs0 : ∀ X, (owns (Ix := Unit) (Name := ℕ) (U := UU) (Lvl := ℕ) (c : Thread nD τ) (stage0_0 (cfg0.slots t0_6 0)) fullShare X : sProp 𝕄)
      = pt' c (stage0_0 (cfg0.slots t0_6 0)) X := fun X => owns_whole (c : Thread nD τ) cc0_stg0_1 fullShare X
  have hs1 : ∀ X, (owns (Ix := Unit) (Name := ℕ) (U := UU) (Lvl := ℕ) (c : Thread nD τ) (stage0_1 (cfg0.slots t0_6 1)) fullShare X : sProp 𝕄)
      = pt' c (stage0_1 (cfg0.slots t0_6 1)) X := fun X => owns_whole (c : Thread nD τ) cc0_stg1_0 fullShare X
  have hs2 : ∀ X, (owns (Ix := Unit) (Name := ℕ) (U := UU) (Lvl := ℕ) (c : Thread nD τ) (stage0_2 (cfg0.slots t0_6 2)) fullShare X : sProp 𝕄)
      = pt' c (stage0_2 (cfg0.slots t0_6 2)) X := fun X => owns_whole (c : Thread nD τ) cc0_stg2_0 fullShare X
  have hs3 : ∀ X, (owns (Ix := Unit) (Name := ℕ) (U := UU) (Lvl := ℕ) (c : Thread nD τ) (stage0_3 (cfg0.slots t0_6 3)) fullShare X : sProp 𝕄)
      = pt' c (stage0_3 (cfg0.slots t0_6 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_6.castSucc = PhiMid m c 6 := rfl
  have hΦ1 : (dats m 0 c).Φ t0_6.succ = PhiMid m c 7 := rfl
  have ho : (dats m 0 c).owesAt () t0_6.succ = (dats m 0 c).owesAt () t0_6.castSucc := rfl
  rw [hΦ0, hΦ1, ho]
  show _ ⊢ wp frame (wpE (defs₀ (F := F)) 𝒱₀ c none) Set.univ (bodyAt0 (F := F) t0_6) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt6 m c fo fm fl ((dats m 0 c).before 3 t0_6 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_6) (iblk m c 1 t0_6) (iblk m c 2 t0_6) ⟨fo, fm, fl⟩).o, (Trace.chunk (iblk m c 0 t0_6) (iblk m c 1 t0_6) (iblk m c 2 t0_6) ⟨fo, fm, fl⟩).m, (Trace.chunk (iblk m c 0 t0_6) (iblk m c 1 t0_6) (iblk m c 2 t0_6) ⟨fo, fm, fl⟩).l
    isplitr [Ho Hm Hl]
    · ipureintro
      intro _
      obtain ⟨rfl, rfl, rfl⟩ := hacc (by decide)
      have e : t0_6 = pt (⟨1, by decide⟩ : Fin 4) (⟨2, by decide⟩ : Fin 4) := Fin.ext rfl
      have h := acc_step m c (⟨1, by decide⟩ : Fin 4) 2 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 8: batch entry 2, chunk 0. -/
theorem body_pt8 (c : Dev nD) : BodyGoal m c t0_8 := by
  unfold BodyGoal
  rw [bigSep_W0, bigSep_W0]
  have hi0 : cfg0.idle 0 (cfg0.grid.coords t0_8) = false := rfl
  have hi1 : cfg0.idle 1 (cfg0.grid.coords t0_8) = false := rfl
  have hi2 : cfg0.idle 2 (cfg0.grid.coords t0_8) = false := rfl
  have hi3 : idle0 3 (grid0.coords t0_8) = true := by decide +kernel
  have hf3 : (cfg0.win 3).flush t0_8 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_8 d = iblk m c 0 t0_8 := fun d => before_in0 m c t0_8 d
  have hb1 : ∀ d, (dats m 0 c).before 1 t0_8 d = iblk m c 1 t0_8 := fun d => before_in1 m c t0_8 d
  have hb2 : ∀ d, (dats m 0 c).before 2 t0_8 d = iblk m c 2 t0_8 := fun d => before_in2 m c t0_8 d
  have ha0 : (dats m 0 c).after 0 t0_8 = iblk m c 0 t0_8 := rfl
  have ha1 : (dats m 0 c).after 1 t0_8 = iblk m c 1 t0_8 := rfl
  have ha2 : (dats m 0 c).after 2 t0_8 = iblk m c 2 t0_8 := rfl
  have hs0 : ∀ X, (owns (Ix := Unit) (Name := ℕ) (U := UU) (Lvl := ℕ) (c : Thread nD τ) (stage0_0 (cfg0.slots t0_8 0)) fullShare X : sProp 𝕄)
      = pt' c (stage0_0 (cfg0.slots t0_8 0)) X := fun X => owns_whole (c : Thread nD τ) cc0_stg0_0 fullShare X
  have hs1 : ∀ X, (owns (Ix := Unit) (Name := ℕ) (U := UU) (Lvl := ℕ) (c : Thread nD τ) (stage0_1 (cfg0.slots t0_8 1)) fullShare X : sProp 𝕄)
      = pt' c (stage0_1 (cfg0.slots t0_8 1)) X := fun X => owns_whole (c : Thread nD τ) cc0_stg1_0 fullShare X
  have hs2 : ∀ X, (owns (Ix := Unit) (Name := ℕ) (U := UU) (Lvl := ℕ) (c : Thread nD τ) (stage0_2 (cfg0.slots t0_8 2)) fullShare X : sProp 𝕄)
      = pt' c (stage0_2 (cfg0.slots t0_8 2)) X := fun X => owns_whole (c : Thread nD τ) cc0_stg2_0 fullShare X
  have hs3 : ∀ X, (owns (Ix := Unit) (Name := ℕ) (U := UU) (Lvl := ℕ) (c : Thread nD τ) (stage0_3 (cfg0.slots t0_8 3)) fullShare X : sProp 𝕄)
      = pt' c (stage0_3 (cfg0.slots t0_8 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_8.castSucc = PhiMid m c 8 := rfl
  have hΦ1 : (dats m 0 c).Φ t0_8.succ = PhiMid m c 9 := rfl
  have ho : (dats m 0 c).owesAt () t0_8.succ = (dats m 0 c).owesAt () t0_8.castSucc := rfl
  rw [hΦ0, hΦ1, ho]
  show _ ⊢ wp frame (wpE (defs₀ (F := F)) 𝒱₀ c none) Set.univ (bodyAt0 (F := F) t0_8) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt8 m c fo fm fl ((dats m 0 c).before 3 t0_8 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_8) (iblk m c 1 t0_8) (iblk m c 2 t0_8) Trace.acc0).o, (Trace.chunk (iblk m c 0 t0_8) (iblk m c 1 t0_8) (iblk m c 2 t0_8) Trace.acc0).m, (Trace.chunk (iblk m c 0 t0_8) (iblk m c 1 t0_8) (iblk m c 2 t0_8) Trace.acc0).l
    isplitr [Ho Hm Hl]
    · ipureintro
      intro _
      have e : t0_8 = pt (⟨2, by decide⟩ : Fin 4) (⟨0, by decide⟩ : Fin 4) := Fin.ext rfl
      have h := acc_step m c (⟨2, by decide⟩ : Fin 4) 0 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 9: batch entry 2, chunk 1. -/
theorem body_pt9 (c : Dev nD) : BodyGoal m c t0_9 := by
  unfold BodyGoal
  rw [bigSep_W0, bigSep_W0]
  have hi0 : cfg0.idle 0 (cfg0.grid.coords t0_9) = false := rfl
  have hi1 : cfg0.idle 1 (cfg0.grid.coords t0_9) = false := rfl
  have hi2 : cfg0.idle 2 (cfg0.grid.coords t0_9) = false := rfl
  have hi3 : idle0 3 (grid0.coords t0_9) = true := by decide +kernel
  have hf3 : (cfg0.win 3).flush t0_9 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_9 d = iblk m c 0 t0_9 := fun d => before_in0 m c t0_9 d
  have hb1 : ∀ d, (dats m 0 c).before 1 t0_9 d = iblk m c 1 t0_9 := fun d => before_in1 m c t0_9 d
  have hb2 : ∀ d, (dats m 0 c).before 2 t0_9 d = iblk m c 2 t0_9 := fun d => before_in2 m c t0_9 d
  have ha0 : (dats m 0 c).after 0 t0_9 = iblk m c 0 t0_9 := rfl
  have ha1 : (dats m 0 c).after 1 t0_9 = iblk m c 1 t0_9 := rfl
  have ha2 : (dats m 0 c).after 2 t0_9 = iblk m c 2 t0_9 := rfl
  have hs0 : ∀ X, (owns (Ix := Unit) (Name := ℕ) (U := UU) (Lvl := ℕ) (c : Thread nD τ) (stage0_0 (cfg0.slots t0_9 0)) fullShare X : sProp 𝕄)
      = pt' c (stage0_0 (cfg0.slots t0_9 0)) X := fun X => owns_whole (c : Thread nD τ) cc0_stg0_0 fullShare X
  have hs1 : ∀ X, (owns (Ix := Unit) (Name := ℕ) (U := UU) (Lvl := ℕ) (c : Thread nD τ) (stage0_1 (cfg0.slots t0_9 1)) fullShare X : sProp 𝕄)
      = pt' c (stage0_1 (cfg0.slots t0_9 1)) X := fun X => owns_whole (c : Thread nD τ) cc0_stg1_1 fullShare X
  have hs2 : ∀ X, (owns (Ix := Unit) (Name := ℕ) (U := UU) (Lvl := ℕ) (c : Thread nD τ) (stage0_2 (cfg0.slots t0_9 2)) fullShare X : sProp 𝕄)
      = pt' c (stage0_2 (cfg0.slots t0_9 2)) X := fun X => owns_whole (c : Thread nD τ) cc0_stg2_1 fullShare X
  have hs3 : ∀ X, (owns (Ix := Unit) (Name := ℕ) (U := UU) (Lvl := ℕ) (c : Thread nD τ) (stage0_3 (cfg0.slots t0_9 3)) fullShare X : sProp 𝕄)
      = pt' c (stage0_3 (cfg0.slots t0_9 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_9.castSucc = PhiMid m c 9 := rfl
  have hΦ1 : (dats m 0 c).Φ t0_9.succ = PhiMid m c 10 := rfl
  have ho : (dats m 0 c).owesAt () t0_9.succ = (dats m 0 c).owesAt () t0_9.castSucc := rfl
  rw [hΦ0, hΦ1, ho]
  show _ ⊢ wp frame (wpE (defs₀ (F := F)) 𝒱₀ c none) Set.univ (bodyAt0 (F := F) t0_9) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt9 m c fo fm fl ((dats m 0 c).before 3 t0_9 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_9) (iblk m c 1 t0_9) (iblk m c 2 t0_9) ⟨fo, fm, fl⟩).o, (Trace.chunk (iblk m c 0 t0_9) (iblk m c 1 t0_9) (iblk m c 2 t0_9) ⟨fo, fm, fl⟩).m, (Trace.chunk (iblk m c 0 t0_9) (iblk m c 1 t0_9) (iblk m c 2 t0_9) ⟨fo, fm, fl⟩).l
    isplitr [Ho Hm Hl]
    · ipureintro
      intro _
      obtain ⟨rfl, rfl, rfl⟩ := hacc (by decide)
      have e : t0_9 = pt (⟨2, by decide⟩ : Fin 4) (⟨1, by decide⟩ : Fin 4) := Fin.ext rfl
      have h := acc_step m c (⟨2, by decide⟩ : Fin 4) 1 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 10: batch entry 2, chunk 2. -/
theorem body_pt10 (c : Dev nD) : BodyGoal m c t0_10 := by
  unfold BodyGoal
  rw [bigSep_W0, bigSep_W0]
  have hi0 : cfg0.idle 0 (cfg0.grid.coords t0_10) = false := rfl
  have hi1 : cfg0.idle 1 (cfg0.grid.coords t0_10) = false := rfl
  have hi2 : cfg0.idle 2 (cfg0.grid.coords t0_10) = false := rfl
  have hi3 : idle0 3 (grid0.coords t0_10) = true := by decide +kernel
  have hf3 : (cfg0.win 3).flush t0_10 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_10 d = iblk m c 0 t0_10 := fun d => before_in0 m c t0_10 d
  have hb1 : ∀ d, (dats m 0 c).before 1 t0_10 d = iblk m c 1 t0_10 := fun d => before_in1 m c t0_10 d
  have hb2 : ∀ d, (dats m 0 c).before 2 t0_10 d = iblk m c 2 t0_10 := fun d => before_in2 m c t0_10 d
  have ha0 : (dats m 0 c).after 0 t0_10 = iblk m c 0 t0_10 := rfl
  have ha1 : (dats m 0 c).after 1 t0_10 = iblk m c 1 t0_10 := rfl
  have ha2 : (dats m 0 c).after 2 t0_10 = iblk m c 2 t0_10 := rfl
  have hs0 : ∀ X, (owns (Ix := Unit) (Name := ℕ) (U := UU) (Lvl := ℕ) (c : Thread nD τ) (stage0_0 (cfg0.slots t0_10 0)) fullShare X : sProp 𝕄)
      = pt' c (stage0_0 (cfg0.slots t0_10 0)) X := fun X => owns_whole (c : Thread nD τ) cc0_stg0_0 fullShare X
  have hs1 : ∀ X, (owns (Ix := Unit) (Name := ℕ) (U := UU) (Lvl := ℕ) (c : Thread nD τ) (stage0_1 (cfg0.slots t0_10 1)) fullShare X : sProp 𝕄)
      = pt' c (stage0_1 (cfg0.slots t0_10 1)) X := fun X => owns_whole (c : Thread nD τ) cc0_stg1_0 fullShare X
  have hs2 : ∀ X, (owns (Ix := Unit) (Name := ℕ) (U := UU) (Lvl := ℕ) (c : Thread nD τ) (stage0_2 (cfg0.slots t0_10 2)) fullShare X : sProp 𝕄)
      = pt' c (stage0_2 (cfg0.slots t0_10 2)) X := fun X => owns_whole (c : Thread nD τ) cc0_stg2_0 fullShare X
  have hs3 : ∀ X, (owns (Ix := Unit) (Name := ℕ) (U := UU) (Lvl := ℕ) (c : Thread nD τ) (stage0_3 (cfg0.slots t0_10 3)) fullShare X : sProp 𝕄)
      = pt' c (stage0_3 (cfg0.slots t0_10 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_10.castSucc = PhiMid m c 10 := rfl
  have hΦ1 : (dats m 0 c).Φ t0_10.succ = PhiMid m c 11 := rfl
  have ho : (dats m 0 c).owesAt () t0_10.succ = (dats m 0 c).owesAt () t0_10.castSucc := rfl
  rw [hΦ0, hΦ1, ho]
  show _ ⊢ wp frame (wpE (defs₀ (F := F)) 𝒱₀ c none) Set.univ (bodyAt0 (F := F) t0_10) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt10 m c fo fm fl ((dats m 0 c).before 3 t0_10 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_10) (iblk m c 1 t0_10) (iblk m c 2 t0_10) ⟨fo, fm, fl⟩).o, (Trace.chunk (iblk m c 0 t0_10) (iblk m c 1 t0_10) (iblk m c 2 t0_10) ⟨fo, fm, fl⟩).m, (Trace.chunk (iblk m c 0 t0_10) (iblk m c 1 t0_10) (iblk m c 2 t0_10) ⟨fo, fm, fl⟩).l
    isplitr [Ho Hm Hl]
    · ipureintro
      intro _
      obtain ⟨rfl, rfl, rfl⟩ := hacc (by decide)
      have e : t0_10 = pt (⟨2, by decide⟩ : Fin 4) (⟨2, by decide⟩ : Fin 4) := Fin.ext rfl
      have h := acc_step m c (⟨2, by decide⟩ : Fin 4) 2 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 12: batch entry 3, chunk 0. -/
theorem body_pt12 (c : Dev nD) : BodyGoal m c t0_12 := by
  unfold BodyGoal
  rw [bigSep_W0, bigSep_W0]
  have hi0 : cfg0.idle 0 (cfg0.grid.coords t0_12) = false := rfl
  have hi1 : cfg0.idle 1 (cfg0.grid.coords t0_12) = false := rfl
  have hi2 : cfg0.idle 2 (cfg0.grid.coords t0_12) = false := rfl
  have hi3 : idle0 3 (grid0.coords t0_12) = true := by decide +kernel
  have hf3 : (cfg0.win 3).flush t0_12 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_12 d = iblk m c 0 t0_12 := fun d => before_in0 m c t0_12 d
  have hb1 : ∀ d, (dats m 0 c).before 1 t0_12 d = iblk m c 1 t0_12 := fun d => before_in1 m c t0_12 d
  have hb2 : ∀ d, (dats m 0 c).before 2 t0_12 d = iblk m c 2 t0_12 := fun d => before_in2 m c t0_12 d
  have ha0 : (dats m 0 c).after 0 t0_12 = iblk m c 0 t0_12 := rfl
  have ha1 : (dats m 0 c).after 1 t0_12 = iblk m c 1 t0_12 := rfl
  have ha2 : (dats m 0 c).after 2 t0_12 = iblk m c 2 t0_12 := rfl
  have hs0 : ∀ X, (owns (Ix := Unit) (Name := ℕ) (U := UU) (Lvl := ℕ) (c : Thread nD τ) (stage0_0 (cfg0.slots t0_12 0)) fullShare X : sProp 𝕄)
      = pt' c (stage0_0 (cfg0.slots t0_12 0)) X := fun X => owns_whole (c : Thread nD τ) cc0_stg0_1 fullShare X
  have hs1 : ∀ X, (owns (Ix := Unit) (Name := ℕ) (U := UU) (Lvl := ℕ) (c : Thread nD τ) (stage0_1 (cfg0.slots t0_12 1)) fullShare X : sProp 𝕄)
      = pt' c (stage0_1 (cfg0.slots t0_12 1)) X := fun X => owns_whole (c : Thread nD τ) cc0_stg1_0 fullShare X
  have hs2 : ∀ X, (owns (Ix := Unit) (Name := ℕ) (U := UU) (Lvl := ℕ) (c : Thread nD τ) (stage0_2 (cfg0.slots t0_12 2)) fullShare X : sProp 𝕄)
      = pt' c (stage0_2 (cfg0.slots t0_12 2)) X := fun X => owns_whole (c : Thread nD τ) cc0_stg2_0 fullShare X
  have hs3 : ∀ X, (owns (Ix := Unit) (Name := ℕ) (U := UU) (Lvl := ℕ) (c : Thread nD τ) (stage0_3 (cfg0.slots t0_12 3)) fullShare X : sProp 𝕄)
      = pt' c (stage0_3 (cfg0.slots t0_12 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_12.castSucc = PhiMid m c 12 := rfl
  have hΦ1 : (dats m 0 c).Φ t0_12.succ = PhiMid m c 13 := rfl
  have ho : (dats m 0 c).owesAt () t0_12.succ = (dats m 0 c).owesAt () t0_12.castSucc := rfl
  rw [hΦ0, hΦ1, ho]
  show _ ⊢ wp frame (wpE (defs₀ (F := F)) 𝒱₀ c none) Set.univ (bodyAt0 (F := F) t0_12) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt12 m c fo fm fl ((dats m 0 c).before 3 t0_12 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_12) (iblk m c 1 t0_12) (iblk m c 2 t0_12) Trace.acc0).o, (Trace.chunk (iblk m c 0 t0_12) (iblk m c 1 t0_12) (iblk m c 2 t0_12) Trace.acc0).m, (Trace.chunk (iblk m c 0 t0_12) (iblk m c 1 t0_12) (iblk m c 2 t0_12) Trace.acc0).l
    isplitr [Ho Hm Hl]
    · ipureintro
      intro _
      have e : t0_12 = pt (⟨3, by decide⟩ : Fin 4) (⟨0, by decide⟩ : Fin 4) := Fin.ext rfl
      have h := acc_step m c (⟨3, by decide⟩ : Fin 4) 0 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 13: batch entry 3, chunk 1. -/
theorem body_pt13 (c : Dev nD) : BodyGoal m c t0_13 := by
  unfold BodyGoal
  rw [bigSep_W0, bigSep_W0]
  have hi0 : cfg0.idle 0 (cfg0.grid.coords t0_13) = false := rfl
  have hi1 : cfg0.idle 1 (cfg0.grid.coords t0_13) = false := rfl
  have hi2 : cfg0.idle 2 (cfg0.grid.coords t0_13) = false := rfl
  have hi3 : idle0 3 (grid0.coords t0_13) = true := by decide +kernel
  have hf3 : (cfg0.win 3).flush t0_13 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_13 d = iblk m c 0 t0_13 := fun d => before_in0 m c t0_13 d
  have hb1 : ∀ d, (dats m 0 c).before 1 t0_13 d = iblk m c 1 t0_13 := fun d => before_in1 m c t0_13 d
  have hb2 : ∀ d, (dats m 0 c).before 2 t0_13 d = iblk m c 2 t0_13 := fun d => before_in2 m c t0_13 d
  have ha0 : (dats m 0 c).after 0 t0_13 = iblk m c 0 t0_13 := rfl
  have ha1 : (dats m 0 c).after 1 t0_13 = iblk m c 1 t0_13 := rfl
  have ha2 : (dats m 0 c).after 2 t0_13 = iblk m c 2 t0_13 := rfl
  have hs0 : ∀ X, (owns (Ix := Unit) (Name := ℕ) (U := UU) (Lvl := ℕ) (c : Thread nD τ) (stage0_0 (cfg0.slots t0_13 0)) fullShare X : sProp 𝕄)
      = pt' c (stage0_0 (cfg0.slots t0_13 0)) X := fun X => owns_whole (c : Thread nD τ) cc0_stg0_1 fullShare X
  have hs1 : ∀ X, (owns (Ix := Unit) (Name := ℕ) (U := UU) (Lvl := ℕ) (c : Thread nD τ) (stage0_1 (cfg0.slots t0_13 1)) fullShare X : sProp 𝕄)
      = pt' c (stage0_1 (cfg0.slots t0_13 1)) X := fun X => owns_whole (c : Thread nD τ) cc0_stg1_1 fullShare X
  have hs2 : ∀ X, (owns (Ix := Unit) (Name := ℕ) (U := UU) (Lvl := ℕ) (c : Thread nD τ) (stage0_2 (cfg0.slots t0_13 2)) fullShare X : sProp 𝕄)
      = pt' c (stage0_2 (cfg0.slots t0_13 2)) X := fun X => owns_whole (c : Thread nD τ) cc0_stg2_1 fullShare X
  have hs3 : ∀ X, (owns (Ix := Unit) (Name := ℕ) (U := UU) (Lvl := ℕ) (c : Thread nD τ) (stage0_3 (cfg0.slots t0_13 3)) fullShare X : sProp 𝕄)
      = pt' c (stage0_3 (cfg0.slots t0_13 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_13.castSucc = PhiMid m c 13 := rfl
  have hΦ1 : (dats m 0 c).Φ t0_13.succ = PhiMid m c 14 := rfl
  have ho : (dats m 0 c).owesAt () t0_13.succ = (dats m 0 c).owesAt () t0_13.castSucc := rfl
  rw [hΦ0, hΦ1, ho]
  show _ ⊢ wp frame (wpE (defs₀ (F := F)) 𝒱₀ c none) Set.univ (bodyAt0 (F := F) t0_13) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt13 m c fo fm fl ((dats m 0 c).before 3 t0_13 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_13) (iblk m c 1 t0_13) (iblk m c 2 t0_13) ⟨fo, fm, fl⟩).o, (Trace.chunk (iblk m c 0 t0_13) (iblk m c 1 t0_13) (iblk m c 2 t0_13) ⟨fo, fm, fl⟩).m, (Trace.chunk (iblk m c 0 t0_13) (iblk m c 1 t0_13) (iblk m c 2 t0_13) ⟨fo, fm, fl⟩).l
    isplitr [Ho Hm Hl]
    · ipureintro
      intro _
      obtain ⟨rfl, rfl, rfl⟩ := hacc (by decide)
      have e : t0_13 = pt (⟨3, by decide⟩ : Fin 4) (⟨1, by decide⟩ : Fin 4) := Fin.ext rfl
      have h := acc_step m c (⟨3, by decide⟩ : Fin 4) 1 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 14: batch entry 3, chunk 2. -/
theorem body_pt14 (c : Dev nD) : BodyGoal m c t0_14 := by
  unfold BodyGoal
  rw [bigSep_W0, bigSep_W0]
  have hi0 : cfg0.idle 0 (cfg0.grid.coords t0_14) = false := rfl
  have hi1 : cfg0.idle 1 (cfg0.grid.coords t0_14) = false := rfl
  have hi2 : cfg0.idle 2 (cfg0.grid.coords t0_14) = false := rfl
  have hi3 : idle0 3 (grid0.coords t0_14) = true := by decide +kernel
  have hf3 : (cfg0.win 3).flush t0_14 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_14 d = iblk m c 0 t0_14 := fun d => before_in0 m c t0_14 d
  have hb1 : ∀ d, (dats m 0 c).before 1 t0_14 d = iblk m c 1 t0_14 := fun d => before_in1 m c t0_14 d
  have hb2 : ∀ d, (dats m 0 c).before 2 t0_14 d = iblk m c 2 t0_14 := fun d => before_in2 m c t0_14 d
  have ha0 : (dats m 0 c).after 0 t0_14 = iblk m c 0 t0_14 := rfl
  have ha1 : (dats m 0 c).after 1 t0_14 = iblk m c 1 t0_14 := rfl
  have ha2 : (dats m 0 c).after 2 t0_14 = iblk m c 2 t0_14 := rfl
  have hs0 : ∀ X, (owns (Ix := Unit) (Name := ℕ) (U := UU) (Lvl := ℕ) (c : Thread nD τ) (stage0_0 (cfg0.slots t0_14 0)) fullShare X : sProp 𝕄)
      = pt' c (stage0_0 (cfg0.slots t0_14 0)) X := fun X => owns_whole (c : Thread nD τ) cc0_stg0_1 fullShare X
  have hs1 : ∀ X, (owns (Ix := Unit) (Name := ℕ) (U := UU) (Lvl := ℕ) (c : Thread nD τ) (stage0_1 (cfg0.slots t0_14 1)) fullShare X : sProp 𝕄)
      = pt' c (stage0_1 (cfg0.slots t0_14 1)) X := fun X => owns_whole (c : Thread nD τ) cc0_stg1_0 fullShare X
  have hs2 : ∀ X, (owns (Ix := Unit) (Name := ℕ) (U := UU) (Lvl := ℕ) (c : Thread nD τ) (stage0_2 (cfg0.slots t0_14 2)) fullShare X : sProp 𝕄)
      = pt' c (stage0_2 (cfg0.slots t0_14 2)) X := fun X => owns_whole (c : Thread nD τ) cc0_stg2_0 fullShare X
  have hs3 : ∀ X, (owns (Ix := Unit) (Name := ℕ) (U := UU) (Lvl := ℕ) (c : Thread nD τ) (stage0_3 (cfg0.slots t0_14 3)) fullShare X : sProp 𝕄)
      = pt' c (stage0_3 (cfg0.slots t0_14 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_14.castSucc = PhiMid m c 14 := rfl
  have hΦ1 : (dats m 0 c).Φ t0_14.succ = PhiMid m c 15 := rfl
  have ho : (dats m 0 c).owesAt () t0_14.succ = (dats m 0 c).owesAt () t0_14.castSucc := rfl
  rw [hΦ0, hΦ1, ho]
  show _ ⊢ wp frame (wpE (defs₀ (F := F)) 𝒱₀ c none) Set.univ (bodyAt0 (F := F) t0_14) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt14 m c fo fm fl ((dats m 0 c).before 3 t0_14 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_14) (iblk m c 1 t0_14) (iblk m c 2 t0_14) ⟨fo, fm, fl⟩).o, (Trace.chunk (iblk m c 0 t0_14) (iblk m c 1 t0_14) (iblk m c 2 t0_14) ⟨fo, fm, fl⟩).m, (Trace.chunk (iblk m c 0 t0_14) (iblk m c 1 t0_14) (iblk m c 2 t0_14) ⟨fo, fm, fl⟩).l
    isplitr [Ho Hm Hl]
    · ipureintro
      intro _
      obtain ⟨rfl, rfl, rfl⟩ := hacc (by decide)
      have e : t0_14 = pt (⟨3, by decide⟩ : Fin 4) (⟨2, by decide⟩ : Fin 4) := Fin.ext rfl
      have h := acc_step m c (⟨3, by decide⟩ : Fin 4) 2 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

end Cert.KernelIdealProof
end

/-- info: 'Cert.KernelIdealProof.body_pt0' depends on axioms: [propext, Classical.choice, Quot.sound] -/
#guard_msgs in #print axioms Cert.KernelIdealProof.body_pt0

/-- info: 'Cert.KernelIdealProof.body_pt1' depends on axioms: [propext, Classical.choice, Quot.sound] -/
#guard_msgs in #print axioms Cert.KernelIdealProof.body_pt1

/-- info: 'Cert.KernelIdealProof.body_pt2' depends on axioms: [propext, Classical.choice, Quot.sound] -/
#guard_msgs in #print axioms Cert.KernelIdealProof.body_pt2

/-- info: 'Cert.KernelIdealProof.body_pt4' depends on axioms: [propext, Classical.choice, Quot.sound] -/
#guard_msgs in #print axioms Cert.KernelIdealProof.body_pt4

/-- info: 'Cert.KernelIdealProof.body_pt5' depends on axioms: [propext, Classical.choice, Quot.sound] -/
#guard_msgs in #print axioms Cert.KernelIdealProof.body_pt5

/-- info: 'Cert.KernelIdealProof.body_pt6' depends on axioms: [propext, Classical.choice, Quot.sound] -/
#guard_msgs in #print axioms Cert.KernelIdealProof.body_pt6

/-- info: 'Cert.KernelIdealProof.body_pt8' depends on axioms: [propext, Classical.choice, Quot.sound] -/
#guard_msgs in #print axioms Cert.KernelIdealProof.body_pt8

/-- info: 'Cert.KernelIdealProof.body_pt9' depends on axioms: [propext, Classical.choice, Quot.sound] -/
#guard_msgs in #print axioms Cert.KernelIdealProof.body_pt9

/-- info: 'Cert.KernelIdealProof.body_pt10' depends on axioms: [propext, Classical.choice, Quot.sound] -/
#guard_msgs in #print axioms Cert.KernelIdealProof.body_pt10

/-- info: 'Cert.KernelIdealProof.body_pt12' depends on axioms: [propext, Classical.choice, Quot.sound] -/
#guard_msgs in #print axioms Cert.KernelIdealProof.body_pt12

/-- info: 'Cert.KernelIdealProof.body_pt13' depends on axioms: [propext, Classical.choice, Quot.sound] -/
#guard_msgs in #print axioms Cert.KernelIdealProof.body_pt13

/-- info: 'Cert.KernelIdealProof.body_pt14' depends on axioms: [propext, Classical.choice, Quot.sound] -/
#guard_msgs in #print axioms Cert.KernelIdealProof.body_pt14
-- ==== Proof.RemoteRules.lean ====
/-
  The protocol's four remote steps as rules at the attention kernel's own cells.

  A device copies batch entry b's output rows, and its two statistics rows, into its partner's receive buffers: each copy
  pays the one duty of the sender's send cell (handing the rows sent back to the sender) and the one duty of the partner's
  receive cell (handing the partner the rows received, now holding the sender's). A device signals its partner's barrier
  cell one unit, handing over its own eight receive slices, and waits one unit on its own barrier cell, which hands it
  the partner's eight. After the barrier signal a device owes receive cells only, which sit above the barrier cells.
-/
import proofs.«900428_g7700000000000429_dist_flashdec_v7x_xyz2x2x4_y_b4_sq32_skv4096_h8_d128_f32_1_alg».proof.Proof.Data
import proofs.«900428_g7700000000000429_dist_flashdec_v7x_xyz2x2x4_y_b4_sq32_skv4096_h8_d128_f32_1_alg».proof.Proof.Slices

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The two copies of a batch entry -/

/-- The output copy of batch entry 0, addressed to `n = nbr c`. -/
theorem wp_send_o0 (K : Dev nD × Fin 17 → ℕ) (c n : Dev nD) (hn : n = nbr c)
    {hsc : (oSl roB 0 : Memref sig (Dev.tc n : Thread nD τ).2.kind .vmem S32x8x128 .f32).view.ref.isScScratch = false}
    {hsrc : (oSl oB 0).view.WordExact} {hdst : (oSl roB 0).view.WordExact}
    {hsem : DmaTarget.Typed .vmem (.dma (famSem 1 0)) (.remote (Dev.tc n : Thread nD τ) (oSl roB 0) (.dma (famSem 0 0)) hsc)}
    {α : Type} {Q : α → sProp 𝕄} {k : PUnit → Prog (TpuEff nD τ sig (Elt F) Λ₀ .tc) α}
    (fn : OTy F) (O : CellTallies nD τ sig Unit) (W : Waits sig Unit) :
    iprop(cellInv ER (Rd m) (K (c, fidx 0 0)) (famCell c 0 0) ∗ cellInv ER (Rd m) (K (nbr c, fidx 1 0)) (famCell (nbr c) 1 0)
        ∗ obPts c 0 (OV m c) ∗ robPts (nbr c) 0 fn
        ∗ owes (c : Thread nD τ) (O + tallyAt (famCell (nbr c) 1 0) () No) W
        ∗ dutyTok ER (famCell c 0 0) 0 () ∗ reached ER (famCell c 0 0) 0
        ∗ dutyTok ER (famCell (nbr c) 1 0) 0 () ∗ reached ER (famCell (nbr c) 1 0) 0)
      ⊢ iprop(((cred (tallyAt (famCell c 0 0) () No) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSl oB 0) (.remote (Dev.tc n : Thread nD τ) (oSl roB 0) (.dma (famSem 0 0)) hsc) (.dma (famSem 1 0)) hsrc hdst hsem) k) Q) := by
  subst hn
  have hp2 : (slPts (nbr c) (oSl roB 0) ((oSl roB 0).view.write (Elt F) fn ((oSl oB 0).view.read (Elt F) (OV m c)) Finset.univ) : sProp 𝕄)
      ⊢ (Rd m).payload (famCell (nbr c) 1 0) 0 () := by
    rw [payload_fam, land_o0]
    show _ ⊢ slPts (nbr c) (oSl roB 0) (OV m (nbr (nbr c)))
    rw [nbr_nbr]
  have hp1 : (slPts c (oSl oB 0) (OV m c) : sProp 𝕄) ⊢ (Rd m).payload (famCell c 0 0) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := oSl oB 0) (dst := oSl roB 0) (hsc := hsc) (sS := .dma (famSem 0 0)) (sem := .dma (famSem 1 0))
    (hsrc := hsrc) (hdst := hdst) (hsem := hsem) (k := k) (Q := Q) (q := fullShare) (fs := OV m c) (fd := fn)
    (κ₁ := K (c, fidx 0 0)) (κ₂ := K (nbr c, fidx 1 0)) (r₁ := 0) (r₂ := 0) (d₁ := ()) (d₂ := ())
    (by rw [duties_fam]; exact Finset.mem_singleton_self _) (by rw [duties_fam]; exact Finset.mem_singleton_self _)
    () () No rfl ((amount_fam (OV m) (SV m) c 0 0 ()).trans (if_pos (by decide))) ((amount_fam (OV m) (SV m) (nbr c) 1 0 ()).trans (if_pos (by decide)))
    O rfl (W := W) hp1 hp2 (Es := Set.univ)
  exact h

/-- The output copy of batch entry 1, addressed to `n = nbr c`. -/
theorem wp_send_o1 (K : Dev nD × Fin 17 → ℕ) (c n : Dev nD) (hn : n = nbr c)
    {hsc : (oSl roB 1 : Memref sig (Dev.tc n : Thread nD τ).2.kind .vmem S32x8x128 .f32).view.ref.isScScratch = false}
    {hsrc : (oSl oB 1).view.WordExact} {hdst : (oSl roB 1).view.WordExact}
    {hsem : DmaTarget.Typed .vmem (.dma (famSem 1 1)) (.remote (Dev.tc n : Thread nD τ) (oSl roB 1) (.dma (famSem 0 1)) hsc)}
    {α : Type} {Q : α → sProp 𝕄} {k : PUnit → Prog (TpuEff nD τ sig (Elt F) Λ₀ .tc) α}
    (fn : OTy F) (O : CellTallies nD τ sig Unit) (W : Waits sig Unit) :
    iprop(cellInv ER (Rd m) (K (c, fidx 0 1)) (famCell c 0 1) ∗ cellInv ER (Rd m) (K (nbr c, fidx 1 1)) (famCell (nbr c) 1 1)
        ∗ obPts c 1 (OV m c) ∗ robPts (nbr c) 1 fn
        ∗ owes (c : Thread nD τ) (O + tallyAt (famCell (nbr c) 1 1) () No) W
        ∗ dutyTok ER (famCell c 0 1) 0 () ∗ reached ER (famCell c 0 1) 0
        ∗ dutyTok ER (famCell (nbr c) 1 1) 0 () ∗ reached ER (famCell (nbr c) 1 1) 0)
      ⊢ iprop(((cred (tallyAt (famCell c 0 1) () No) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSl oB 1) (.remote (Dev.tc n : Thread nD τ) (oSl roB 1) (.dma (famSem 0 1)) hsc) (.dma (famSem 1 1)) hsrc hdst hsem) k) Q) := by
  subst hn
  have hp2 : (slPts (nbr c) (oSl roB 1) ((oSl roB 1).view.write (Elt F) fn ((oSl oB 1).view.read (Elt F) (OV m c)) Finset.univ) : sProp 𝕄)
      ⊢ (Rd m).payload (famCell (nbr c) 1 1) 0 () := by
    rw [payload_fam, land_o1]
    show _ ⊢ slPts (nbr c) (oSl roB 1) (OV m (nbr (nbr c)))
    rw [nbr_nbr]
  have hp1 : (slPts c (oSl oB 1) (OV m c) : sProp 𝕄) ⊢ (Rd m).payload (famCell c 0 1) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := oSl oB 1) (dst := oSl roB 1) (hsc := hsc) (sS := .dma (famSem 0 1)) (sem := .dma (famSem 1 1))
    (hsrc := hsrc) (hdst := hdst) (hsem := hsem) (k := k) (Q := Q) (q := fullShare) (fs := OV m c) (fd := fn)
    (κ₁ := K (c, fidx 0 1)) (κ₂ := K (nbr c, fidx 1 1)) (r₁ := 0) (r₂ := 0) (d₁ := ()) (d₂ := ())
    (by rw [duties_fam]; exact Finset.mem_singleton_self _) (by rw [duties_fam]; exact Finset.mem_singleton_self _)
    () () No rfl ((amount_fam (OV m) (SV m) c 0 1 ()).trans (if_pos (by decide))) ((amount_fam (OV m) (SV m) (nbr c) 1 1 ()).trans (if_pos (by decide)))
    O rfl (W := W) hp1 hp2 (Es := Set.univ)
  exact h

/-- The output copy of batch entry 2, addressed to `n = nbr c`. -/
theorem wp_send_o2 (K : Dev nD × Fin 17 → ℕ) (c n : Dev nD) (hn : n = nbr c)
    {hsc : (oSl roB 2 : Memref sig (Dev.tc n : Thread nD τ).2.kind .vmem S32x8x128 .f32).view.ref.isScScratch = false}
    {hsrc : (oSl oB 2).view.WordExact} {hdst : (oSl roB 2).view.WordExact}
    {hsem : DmaTarget.Typed .vmem (.dma (famSem 1 2)) (.remote (Dev.tc n : Thread nD τ) (oSl roB 2) (.dma (famSem 0 2)) hsc)}
    {α : Type} {Q : α → sProp 𝕄} {k : PUnit → Prog (TpuEff nD τ sig (Elt F) Λ₀ .tc) α}
    (fn : OTy F) (O : CellTallies nD τ sig Unit) (W : Waits sig Unit) :
    iprop(cellInv ER (Rd m) (K (c, fidx 0 2)) (famCell c 0 2) ∗ cellInv ER (Rd m) (K (nbr c, fidx 1 2)) (famCell (nbr c) 1 2)
        ∗ obPts c 2 (OV m c) ∗ robPts (nbr c) 2 fn
        ∗ owes (c : Thread nD τ) (O + tallyAt (famCell (nbr c) 1 2) () No) W
        ∗ dutyTok ER (famCell c 0 2) 0 () ∗ reached ER (famCell c 0 2) 0
        ∗ dutyTok ER (famCell (nbr c) 1 2) 0 () ∗ reached ER (famCell (nbr c) 1 2) 0)
      ⊢ iprop(((cred (tallyAt (famCell c 0 2) () No) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSl oB 2) (.remote (Dev.tc n : Thread nD τ) (oSl roB 2) (.dma (famSem 0 2)) hsc) (.dma (famSem 1 2)) hsrc hdst hsem) k) Q) := by
  subst hn
  have hp2 : (slPts (nbr c) (oSl roB 2) ((oSl roB 2).view.write (Elt F) fn ((oSl oB 2).view.read (Elt F) (OV m c)) Finset.univ) : sProp 𝕄)
      ⊢ (Rd m).payload (famCell (nbr c) 1 2) 0 () := by
    rw [payload_fam, land_o2]
    show _ ⊢ slPts (nbr c) (oSl roB 2) (OV m (nbr (nbr c)))
    rw [nbr_nbr]
  have hp1 : (slPts c (oSl oB 2) (OV m c) : sProp 𝕄) ⊢ (Rd m).payload (famCell c 0 2) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := oSl oB 2) (dst := oSl roB 2) (hsc := hsc) (sS := .dma (famSem 0 2)) (sem := .dma (famSem 1 2))
    (hsrc := hsrc) (hdst := hdst) (hsem := hsem) (k := k) (Q := Q) (q := fullShare) (fs := OV m c) (fd := fn)
    (κ₁ := K (c, fidx 0 2)) (κ₂ := K (nbr c, fidx 1 2)) (r₁ := 0) (r₂ := 0) (d₁ := ()) (d₂ := ())
    (by rw [duties_fam]; exact Finset.mem_singleton_self _) (by rw [duties_fam]; exact Finset.mem_singleton_self _)
    () () No rfl ((amount_fam (OV m) (SV m) c 0 2 ()).trans (if_pos (by decide))) ((amount_fam (OV m) (SV m) (nbr c) 1 2 ()).trans (if_pos (by decide)))
    O rfl (W := W) hp1 hp2 (Es := Set.univ)
  exact h

/-- The output copy of batch entry 3, addressed to `n = nbr c`. -/
theorem wp_send_o3 (K : Dev nD × Fin 17 → ℕ) (c n : Dev nD) (hn : n = nbr c)
    {hsc : (oSl roB 3 : Memref sig (Dev.tc n : Thread nD τ).2.kind .vmem S32x8x128 .f32).view.ref.isScScratch = false}
    {hsrc : (oSl oB 3).view.WordExact} {hdst : (oSl roB 3).view.WordExact}
    {hsem : DmaTarget.Typed .vmem (.dma (famSem 1 3)) (.remote (Dev.tc n : Thread nD τ) (oSl roB 3) (.dma (famSem 0 3)) hsc)}
    {α : Type} {Q : α → sProp 𝕄} {k : PUnit → Prog (TpuEff nD τ sig (Elt F) Λ₀ .tc) α}
    (fn : OTy F) (O : CellTallies nD τ sig Unit) (W : Waits sig Unit) :
    iprop(cellInv ER (Rd m) (K (c, fidx 0 3)) (famCell c 0 3) ∗ cellInv ER (Rd m) (K (nbr c, fidx 1 3)) (famCell (nbr c) 1 3)
        ∗ obPts c 3 (OV m c) ∗ robPts (nbr c) 3 fn
        ∗ owes (c : Thread nD τ) (O + tallyAt (famCell (nbr c) 1 3) () No) W
        ∗ dutyTok ER (famCell c 0 3) 0 () ∗ reached ER (famCell c 0 3) 0
        ∗ dutyTok ER (famCell (nbr c) 1 3) 0 () ∗ reached ER (famCell (nbr c) 1 3) 0)
      ⊢ iprop(((cred (tallyAt (famCell c 0 3) () No) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSl oB 3) (.remote (Dev.tc n : Thread nD τ) (oSl roB 3) (.dma (famSem 0 3)) hsc) (.dma (famSem 1 3)) hsrc hdst hsem) k) Q) := by
  subst hn
  have hp2 : (slPts (nbr c) (oSl roB 3) ((oSl roB 3).view.write (Elt F) fn ((oSl oB 3).view.read (Elt F) (OV m c)) Finset.univ) : sProp 𝕄)
      ⊢ (Rd m).payload (famCell (nbr c) 1 3) 0 () := by
    rw [payload_fam, land_o3]
    show _ ⊢ slPts (nbr c) (oSl roB 3) (OV m (nbr (nbr c)))
    rw [nbr_nbr]
  have hp1 : (slPts c (oSl oB 3) (OV m c) : sProp 𝕄) ⊢ (Rd m).payload (famCell c 0 3) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := oSl oB 3) (dst := oSl roB 3) (hsc := hsc) (sS := .dma (famSem 0 3)) (sem := .dma (famSem 1 3))
    (hsrc := hsrc) (hdst := hdst) (hsem := hsem) (k := k) (Q := Q) (q := fullShare) (fs := OV m c) (fd := fn)
    (κ₁ := K (c, fidx 0 3)) (κ₂ := K (nbr c, fidx 1 3)) (r₁ := 0) (r₂ := 0) (d₁ := ()) (d₂ := ())
    (by rw [duties_fam]; exact Finset.mem_singleton_self _) (by rw [duties_fam]; exact Finset.mem_singleton_self _)
    () () No rfl ((amount_fam (OV m) (SV m) c 0 3 ()).trans (if_pos (by decide))) ((amount_fam (OV m) (SV m) (nbr c) 1 3 ()).trans (if_pos (by decide)))
    O rfl (W := W) hp1 hp2 (Es := Set.univ)
  exact h

/-- The statistics copy of batch entry 0, addressed to `n = nbr c`. -/
theorem wp_send_s0 (K : Dev nD × Fin 17 → ℕ) (c n : Dev nD) (hn : n = nbr c)
    {hsc : (sSl rsB 0 : Memref sig (Dev.tc n : Thread nD τ).2.kind .vmem S2x8x32 .f32).view.ref.isScScratch = false}
    {hsrc : (sSl sB 0).view.WordExact} {hdst : (sSl rsB 0).view.WordExact}
    {hsem : DmaTarget.Typed .vmem (.dma (famSem 3 0)) (.remote (Dev.tc n : Thread nD τ) (sSl rsB 0) (.dma (famSem 2 0)) hsc)}
    {α : Type} {Q : α → sProp 𝕄} {k : PUnit → Prog (TpuEff nD τ sig (Elt F) Λ₀ .tc) α}
    (fn : STy F) (O : CellTallies nD τ sig Unit) (W : Waits sig Unit) :
    iprop(cellInv ER (Rd m) (K (c, fidx 2 0)) (famCell c 2 0) ∗ cellInv ER (Rd m) (K (nbr c, fidx 3 0)) (famCell (nbr c) 3 0)
        ∗ sbPts c 0 (SV m c) ∗ rsbPts (nbr c) 0 fn
        ∗ owes (c : Thread nD τ) (O + tallyAt (famCell (nbr c) 3 0) () Ns) W
        ∗ dutyTok ER (famCell c 2 0) 0 () ∗ reached ER (famCell c 2 0) 0
        ∗ dutyTok ER (famCell (nbr c) 3 0) 0 () ∗ reached ER (famCell (nbr c) 3 0) 0)
      ⊢ iprop(((cred (tallyAt (famCell c 2 0) () Ns) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSl sB 0) (.remote (Dev.tc n : Thread nD τ) (sSl rsB 0) (.dma (famSem 2 0)) hsc) (.dma (famSem 3 0)) hsrc hdst hsem) k) Q) := by
  subst hn
  have hp2 : (slPts (nbr c) (sSl rsB 0) ((sSl rsB 0).view.write (Elt F) fn ((sSl sB 0).view.read (Elt F) (SV m c)) Finset.univ) : sProp 𝕄)
      ⊢ (Rd m).payload (famCell (nbr c) 3 0) 0 () := by
    rw [payload_fam, land_s0]
    show _ ⊢ slPts (nbr c) (sSl rsB 0) (SV m (nbr (nbr c)))
    rw [nbr_nbr]
  have hp1 : (slPts c (sSl sB 0) (SV m c) : sProp 𝕄) ⊢ (Rd m).payload (famCell c 2 0) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := sSl sB 0) (dst := sSl rsB 0) (hsc := hsc) (sS := .dma (famSem 2 0)) (sem := .dma (famSem 3 0))
    (hsrc := hsrc) (hdst := hdst) (hsem := hsem) (k := k) (Q := Q) (q := fullShare) (fs := SV m c) (fd := fn)
    (κ₁ := K (c, fidx 2 0)) (κ₂ := K (nbr c, fidx 3 0)) (r₁ := 0) (r₂ := 0) (d₁ := ()) (d₂ := ())
    (by rw [duties_fam]; exact Finset.mem_singleton_self _) (by rw [duties_fam]; exact Finset.mem_singleton_self _)
    () () Ns rfl ((amount_fam (OV m) (SV m) c 2 0 ()).trans (if_neg (by decide))) ((amount_fam (OV m) (SV m) (nbr c) 3 0 ()).trans (if_neg (by decide)))
    O rfl (W := W) hp1 hp2 (Es := Set.univ)
  exact h

/-- The statistics copy of batch entry 1, addressed to `n = nbr c`. -/
theorem wp_send_s1 (K : Dev nD × Fin 17 → ℕ) (c n : Dev nD) (hn : n = nbr c)
    {hsc : (sSl rsB 1 : Memref sig (Dev.tc n : Thread nD τ).2.kind .vmem S2x8x32 .f32).view.ref.isScScratch = false}
    {hsrc : (sSl sB 1).view.WordExact} {hdst : (sSl rsB 1).view.WordExact}
    {hsem : DmaTarget.Typed .vmem (.dma (famSem 3 1)) (.remote (Dev.tc n : Thread nD τ) (sSl rsB 1) (.dma (famSem 2 1)) hsc)}
    {α : Type} {Q : α → sProp 𝕄} {k : PUnit → Prog (TpuEff nD τ sig (Elt F) Λ₀ .tc) α}
    (fn : STy F) (O : CellTallies nD τ sig Unit) (W : Waits sig Unit) :
    iprop(cellInv ER (Rd m) (K (c, fidx 2 1)) (famCell c 2 1) ∗ cellInv ER (Rd m) (K (nbr c, fidx 3 1)) (famCell (nbr c) 3 1)
        ∗ sbPts c 1 (SV m c) ∗ rsbPts (nbr c) 1 fn
        ∗ owes (c : Thread nD τ) (O + tallyAt (famCell (nbr c) 3 1) () Ns) W
        ∗ dutyTok ER (famCell c 2 1) 0 () ∗ reached ER (famCell c 2 1) 0
        ∗ dutyTok ER (famCell (nbr c) 3 1) 0 () ∗ reached ER (famCell (nbr c) 3 1) 0)
      ⊢ iprop(((cred (tallyAt (famCell c 2 1) () Ns) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSl sB 1) (.remote (Dev.tc n : Thread nD τ) (sSl rsB 1) (.dma (famSem 2 1)) hsc) (.dma (famSem 3 1)) hsrc hdst hsem) k) Q) := by
  subst hn
  have hp2 : (slPts (nbr c) (sSl rsB 1) ((sSl rsB 1).view.write (Elt F) fn ((sSl sB 1).view.read (Elt F) (SV m c)) Finset.univ) : sProp 𝕄)
      ⊢ (Rd m).payload (famCell (nbr c) 3 1) 0 () := by
    rw [payload_fam, land_s1]
    show _ ⊢ slPts (nbr c) (sSl rsB 1) (SV m (nbr (nbr c)))
    rw [nbr_nbr]
  have hp1 : (slPts c (sSl sB 1) (SV m c) : sProp 𝕄) ⊢ (Rd m).payload (famCell c 2 1) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := sSl sB 1) (dst := sSl rsB 1) (hsc := hsc) (sS := .dma (famSem 2 1)) (sem := .dma (famSem 3 1))
    (hsrc := hsrc) (hdst := hdst) (hsem := hsem) (k := k) (Q := Q) (q := fullShare) (fs := SV m c) (fd := fn)
    (κ₁ := K (c, fidx 2 1)) (κ₂ := K (nbr c, fidx 3 1)) (r₁ := 0) (r₂ := 0) (d₁ := ()) (d₂ := ())
    (by rw [duties_fam]; exact Finset.mem_singleton_self _) (by rw [duties_fam]; exact Finset.mem_singleton_self _)
    () () Ns rfl ((amount_fam (OV m) (SV m) c 2 1 ()).trans (if_neg (by decide))) ((amount_fam (OV m) (SV m) (nbr c) 3 1 ()).trans (if_neg (by decide)))
    O rfl (W := W) hp1 hp2 (Es := Set.univ)
  exact h

/-- The statistics copy of batch entry 2, addressed to `n = nbr c`. -/
theorem wp_send_s2 (K : Dev nD × Fin 17 → ℕ) (c n : Dev nD) (hn : n = nbr c)
    {hsc : (sSl rsB 2 : Memref sig (Dev.tc n : Thread nD τ).2.kind .vmem S2x8x32 .f32).view.ref.isScScratch = false}
    {hsrc : (sSl sB 2).view.WordExact} {hdst : (sSl rsB 2).view.WordExact}
    {hsem : DmaTarget.Typed .vmem (.dma (famSem 3 2)) (.remote (Dev.tc n : Thread nD τ) (sSl rsB 2) (.dma (famSem 2 2)) hsc)}
    {α : Type} {Q : α → sProp 𝕄} {k : PUnit → Prog (TpuEff nD τ sig (Elt F) Λ₀ .tc) α}
    (fn : STy F) (O : CellTallies nD τ sig Unit) (W : Waits sig Unit) :
    iprop(cellInv ER (Rd m) (K (c, fidx 2 2)) (famCell c 2 2) ∗ cellInv ER (Rd m) (K (nbr c, fidx 3 2)) (famCell (nbr c) 3 2)
        ∗ sbPts c 2 (SV m c) ∗ rsbPts (nbr c) 2 fn
        ∗ owes (c : Thread nD τ) (O + tallyAt (famCell (nbr c) 3 2) () Ns) W
        ∗ dutyTok ER (famCell c 2 2) 0 () ∗ reached ER (famCell c 2 2) 0
        ∗ dutyTok ER (famCell (nbr c) 3 2) 0 () ∗ reached ER (famCell (nbr c) 3 2) 0)
      ⊢ iprop(((cred (tallyAt (famCell c 2 2) () Ns) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSl sB 2) (.remote (Dev.tc n : Thread nD τ) (sSl rsB 2) (.dma (famSem 2 2)) hsc) (.dma (famSem 3 2)) hsrc hdst hsem) k) Q) := by
  subst hn
  have hp2 : (slPts (nbr c) (sSl rsB 2) ((sSl rsB 2).view.write (Elt F) fn ((sSl sB 2).view.read (Elt F) (SV m c)) Finset.univ) : sProp 𝕄)
      ⊢ (Rd m).payload (famCell (nbr c) 3 2) 0 () := by
    rw [payload_fam, land_s2]
    show _ ⊢ slPts (nbr c) (sSl rsB 2) (SV m (nbr (nbr c)))
    rw [nbr_nbr]
  have hp1 : (slPts c (sSl sB 2) (SV m c) : sProp 𝕄) ⊢ (Rd m).payload (famCell c 2 2) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := sSl sB 2) (dst := sSl rsB 2) (hsc := hsc) (sS := .dma (famSem 2 2)) (sem := .dma (famSem 3 2))
    (hsrc := hsrc) (hdst := hdst) (hsem := hsem) (k := k) (Q := Q) (q := fullShare) (fs := SV m c) (fd := fn)
    (κ₁ := K (c, fidx 2 2)) (κ₂ := K (nbr c, fidx 3 2)) (r₁ := 0) (r₂ := 0) (d₁ := ()) (d₂ := ())
    (by rw [duties_fam]; exact Finset.mem_singleton_self _) (by rw [duties_fam]; exact Finset.mem_singleton_self _)
    () () Ns rfl ((amount_fam (OV m) (SV m) c 2 2 ()).trans (if_neg (by decide))) ((amount_fam (OV m) (SV m) (nbr c) 3 2 ()).trans (if_neg (by decide)))
    O rfl (W := W) hp1 hp2 (Es := Set.univ)
  exact h

/-- The statistics copy of batch entry 3, addressed to `n = nbr c`. -/
theorem wp_send_s3 (K : Dev nD × Fin 17 → ℕ) (c n : Dev nD) (hn : n = nbr c)
    {hsc : (sSl rsB 3 : Memref sig (Dev.tc n : Thread nD τ).2.kind .vmem S2x8x32 .f32).view.ref.isScScratch = false}
    {hsrc : (sSl sB 3).view.WordExact} {hdst : (sSl rsB 3).view.WordExact}
    {hsem : DmaTarget.Typed .vmem (.dma (famSem 3 3)) (.remote (Dev.tc n : Thread nD τ) (sSl rsB 3) (.dma (famSem 2 3)) hsc)}
    {α : Type} {Q : α → sProp 𝕄} {k : PUnit → Prog (TpuEff nD τ sig (Elt F) Λ₀ .tc) α}
    (fn : STy F) (O : CellTallies nD τ sig Unit) (W : Waits sig Unit) :
    iprop(cellInv ER (Rd m) (K (c, fidx 2 3)) (famCell c 2 3) ∗ cellInv ER (Rd m) (K (nbr c, fidx 3 3)) (famCell (nbr c) 3 3)
        ∗ sbPts c 3 (SV m c) ∗ rsbPts (nbr c) 3 fn
        ∗ owes (c : Thread nD τ) (O + tallyAt (famCell (nbr c) 3 3) () Ns) W
        ∗ dutyTok ER (famCell c 2 3) 0 () ∗ reached ER (famCell c 2 3) 0
        ∗ dutyTok ER (famCell (nbr c) 3 3) 0 () ∗ reached ER (famCell (nbr c) 3 3) 0)
      ⊢ iprop(((cred (tallyAt (famCell c 2 3) () Ns) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSl sB 3) (.remote (Dev.tc n : Thread nD τ) (sSl rsB 3) (.dma (famSem 2 3)) hsc) (.dma (famSem 3 3)) hsrc hdst hsem) k) Q) := by
  subst hn
  have hp2 : (slPts (nbr c) (sSl rsB 3) ((sSl rsB 3).view.write (Elt F) fn ((sSl sB 3).view.read (Elt F) (SV m c)) Finset.univ) : sProp 𝕄)
      ⊢ (Rd m).payload (famCell (nbr c) 3 3) 0 () := by
    rw [payload_fam, land_s3]
    show _ ⊢ slPts (nbr c) (sSl rsB 3) (SV m (nbr (nbr c)))
    rw [nbr_nbr]
  have hp1 : (slPts c (sSl sB 3) (SV m c) : sProp 𝕄) ⊢ (Rd m).payload (famCell c 2 3) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := sSl sB 3) (dst := sSl rsB 3) (hsc := hsc) (sS := .dma (famSem 2 3)) (sem := .dma (famSem 3 3))
    (hsrc := hsrc) (hdst := hdst) (hsem := hsem) (k := k) (Q := Q) (q := fullShare) (fs := SV m c) (fd := fn)
    (κ₁ := K (c, fidx 2 3)) (κ₂ := K (nbr c, fidx 3 3)) (r₁ := 0) (r₂ := 0) (d₁ := ()) (d₂ := ())
    (by rw [duties_fam]; exact Finset.mem_singleton_self _) (by rw [duties_fam]; exact Finset.mem_singleton_self _)
    () () Ns rfl ((amount_fam (OV m) (SV m) c 2 3 ()).trans (if_neg (by decide))) ((amount_fam (OV m) (SV m) (nbr c) 3 3 ()).trans (if_neg (by decide)))
    O rfl (W := W) hp1 hp2 (Es := Set.univ)
  exact h

/-! ## The barrier -/

/-- A device's own eight receive slices, at whatever they hold: what its barrier signal hands its partner. -/
def ownRecv (c : Dev nD) : sProp 𝕄 :=
  iprop((∃ f, robPts c 0 f) ∗ (∃ f, robPts c 1 f) ∗ (∃ f, robPts c 2 f) ∗ (∃ f, robPts c 3 f)
    ∗ (∃ f, rsbPts c 0 f) ∗ (∃ f, rsbPts c 1 f) ∗ (∃ f, rsbPts c 2 f) ∗ (∃ f, rsbPts c 3 f))

omit [FloatOps F] in
theorem barPay_nbr (c : Dev nD) : (barPay (nbr c) : sProp 𝕄) = ownRecv c := by unfold barPay ownRecv; rw [nbr_nbr]
omit [FloatOps F] in
theorem barPay_eq (c : Dev nD) : (barPay c : sProp 𝕄) = ownRecv (nbr c) := rfl

/-- The barrier signal to the partner `n = nbr c`, one unit, paying its barrier cell's duty with the device's own
    receive slices. -/
theorem wp_bar_signal (K : Dev nD × Fin 17 → ℕ) (c n : Dev nD) (hn : n = nbr c)
    {α : Type} {Q : α → sProp 𝕄} {k : PUnit → Prog (TpuEff nD τ sig (Elt F) Λ₀ .tc) α}
    (O : CellTallies nD τ sig Unit) (W : Waits sig Unit) :
    iprop(cellInv ER (Rd m) (K (nbr c, 0)) (barCell (nbr c)) ∗ owes (c : Thread nD τ) (O + tallyAt (barCell (nbr c)) () 1) W
        ∗ dutyTok ER (barCell (nbr c)) 0 () ∗ ownRecv c ∗ reached ER (barCell (nbr c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32 : BitVec 32).toNat) k) Q) := by
  subst hn
  rw [← barPay_nbr c, ← payload_bar (OV m) (SV m) (nbr c) ()]
  exact Rounds.wp_signal 𝒱₀ ER (Rd m) (c : Thread nD τ) none (defs := defs₀ (F := F)) (Γ := PendingWaitsCtx.empty)
    (dst := (nbr c : Thread nD τ)) (sem := barS) (κ := K (nbr c, 0)) (r := 0) (d := ()) (k := k) (Q := Q)
    (by rw [duties_bar]; exact Finset.mem_singleton_self _) ((amount_bar (OV m) (SV m) (nbr c) ()).trans (by decide)) () O rfl (W := W) (Es := Set.univ)

/-- The wait of one unit on the device's own barrier cell: the partner's eight receive slices come with it. -/
theorem wp_bar_wait (K : Dev nD × Fin 17 → ℕ) (c : Dev nD)
    {α : Type} {Q : α → sProp 𝕄} {k : PUnit → Prog (TpuEff nD τ sig (Elt F) Λ₀ .tc) α}
    (O : CellTallies nD τ sig Unit) (W : Waits sig Unit) :
    iprop(cellInv ER (Rd m) (K (c, 0)) (barCell c) ∗ cred (tallyAt (barCell c) () 1) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ reached ER (barCell c) 1 ∗ barPay c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (1#32 : BitVec 32).toNat) k) Q) := by
  have h := Rounds.wp_wait_rest_token 𝒱₀ ER (Rd m) (c : Thread nD τ) none (defs := defs₀ (F := F)) (Γ := PendingWaitsCtx.empty) (κ := K (c, 0)) (sm := .reg barS) (k' := (1#32 : BitVec 32).toNat)
    (wpE_semWait_eq 𝒱₀ (c : Thread nD τ) none Set.univ) (Set.mem_univ _) (k := k) (Q := Q) () (O := O) (W := W) (R := 0) (m := 0) (T := ∅)
    (by rw [expect_bar]; decide)
  rw [rest_bar] at h
  exact h

/-! ## The level of the barrier wait -/

omit [FloatOps F] in
theorem evTally_pos_recv {c : Dev nD} {i : ℕ} (hi : 1 ≤ i) {g : GSem nD τ sig} {u : Unit} (h : 0 < evTally c i g u) :
    ∃ b : Fin 4, g = famCell (nbr c) 1 b ∨ g = famCell (nbr c) 3 b := by
  match i, hi, h with
  | 1, _, h => exact ⟨0, Or.inl (Pipeline.tallyAt_pos h).1⟩
  | 2, _, h => exact ⟨0, Or.inr (Pipeline.tallyAt_pos h).1⟩
  | 3, _, h => exact ⟨1, Or.inl (Pipeline.tallyAt_pos h).1⟩
  | 4, _, h => exact ⟨1, Or.inr (Pipeline.tallyAt_pos h).1⟩
  | 5, _, h => exact ⟨2, Or.inl (Pipeline.tallyAt_pos h).1⟩
  | 6, _, h => exact ⟨2, Or.inr (Pipeline.tallyAt_pos h).1⟩
  | 7, _, h => exact ⟨3, Or.inl (Pipeline.tallyAt_pos h).1⟩
  | 8, _, h => exact ⟨3, Or.inr (Pipeline.tallyAt_pos h).1⟩
  | n + 9, _, h => exact absurd h (Nat.lt_irrefl 0)

omit [FloatOps F] in
theorem owedLast_pos_recv {c : Dev nD} {n : ℕ} (hn : n ≤ 8) {g : GSem nD τ sig} {u : Unit} (h : 0 < owedLast c n g u) :
    ∃ b : Fin 4, g = famCell (nbr c) 1 b ∨ g = famCell (nbr c) 3 b := by
  induction n with
  | zero => exact absurd h (Nat.lt_irrefl 0)
  | succ n ih =>
    rcases Pipeline.add_pos_cases (show 0 < (owedLast c n + evTally c (8 - n)) g u from h) with h' | h'
    · exact ih (by omega) h'
    · exact evTally_pos_recv (by omega) h'

omit [FloatOps F] in
/-- From the barrier signal on, a device owes only its partner's receive cells. -/
theorem owedFrom_pos_recv {c : Dev nD} {j : ℕ} (hj : 1 ≤ j) {g : GSem nD τ sig} {u : Unit} (h : 0 < owedFrom c j g u) :
    ∃ b : Fin 4, g = famCell (nbr c) 1 b ∨ g = famCell (nbr c) 3 b := owedLast_pos_recv (by omega) h

omit [FloatOps F] in
theorem lv_fam_recv (c' : Dev nD) (b : Fin 4) : lv (famCell c' 1 b) () = 2 ∧ lv (famCell c' 3 b) () = 2 := by
  constructor
  · show (if 7 ≤ (famSem 1 b).val ∧ (famOf (famSem 1 b)).val % 2 = 1 then 2 else 0) = 2
    revert b; decide
  · show (if 7 ≤ (famSem 3 b).val ∧ (famOf (famSem 3 b)).val % 2 = 1 then 2 else 0) = 2
    revert b; decide

omit [FloatOps F] in
/-- The barrier wait is allowed: what is still owed after the barrier signal sits above the barrier cells. -/
theorem mayWait_bar (c : Dev nD) (j : ℕ) (hj : 1 ≤ j) :
    (levAts L lv : sProp 𝕄) ⊢ MayWait (c : Thread nD τ) (.reg barS) () (owedFrom c j) :=
  MayOwe.of_cut (L := L) (lev := lv) 1 (fun p hp => by rw [Finset.mem_singleton.mp hp, L_tc]; exact Finset.mem_singleton_self _)
    (fun g u hg => by
      rcases owedFrom_pos_recv hj hg with ⟨b, rfl | rfl⟩ <;> (rw [L_tc]; exact Finset.mem_singleton_self _))
    (fun p hp => by rw [Finset.mem_singleton.mp hp]; exact Nat.le_refl 1)
    (fun g u hg => by
      rcases owedFrom_pos_recv hj hg with ⟨b, rfl | rfl⟩
      · cases u; rw [(lv_fam_recv (nbr c) b).1]; decide
      · cases u; rw [(lv_fam_recv (nbr c) b).2]; decide)

/-- info: 'Cert.KernelIdealProof.wp_send_o0' depends on axioms: [propext, Classical.choice, Quot.sound] -/
#guard_msgs in #print axioms wp_send_o0
/-- info: 'Cert.KernelIdealProof.wp_send_s0' depends on axioms: [propext, Classical.choice, Quot.sound] -/
#guard_msgs in #print axioms wp_send_s0
/-- info: 'Cert.KernelIdealProof.wp_bar_signal' depends on axioms: [propext, Classical.choice, Quot.sound] -/
#guard_msgs in #print axioms wp_bar_signal
/-- info: 'Cert.KernelIdealProof.wp_bar_wait' depends on axioms: [propext, Classical.choice, Quot.sound] -/
#guard_msgs in #print axioms wp_bar_wait
/-- info: 'Cert.KernelIdealProof.mayWait_bar' depends on axioms: [propext, Classical.choice, Quot.sound] -/
#guard_msgs in #print axioms mayWait_bar

end Cert.KernelIdealProof

end
-- ==== Proof.BodyHand.lean ====
/-
  The body at the hand-over points: the last chunk of a batch entry, then the hand-over of its accumulators.

  At such a point the body first takes the chunk step on the three accumulators, then stores the re-laid numerator rows
  into the entry's rows of the output buffer and the running maxima and normalisers into the entry's two statistics rows,
  and then copies those rows into the partner's receive buffers (for the first entry after the barrier handshake). The
  run is stated from the accumulators, the staging buffers, the entry's part of the invariant between points and what
  the device still owes, to the same after the point; that the rows stored are the rows the hand-over buffers hold at
  the end is taken as three pointwise hypotheses.
-/
import proofs.«900428_g7700000000000429_dist_flashdec_v7x_xyz2x2x4_y_b4_sq32_skv4096_h8_d128_f32_1_alg».proof.Proof.Data
import proofs.«900428_g7700000000000429_dist_flashdec_v7x_xyz2x2x4_y_b4_sq32_skv4096_h8_d128_f32_1_alg».proof.Proof.Slices
import proofs.«900428_g7700000000000429_dist_flashdec_v7x_xyz2x2x4_y_b4_sq32_skv4096_h8_d128_f32_1_alg».proof.Proof.Launch
import proofs.«900428_g7700000000000429_dist_flashdec_v7x_xyz2x2x4_y_b4_sq32_skv4096_h8_d128_f32_1_alg».proof.Proof.BodyRuns
import proofs.«900428_g7700000000000429_dist_flashdec_v7x_xyz2x2x4_y_b4_sq32_skv4096_h8_d128_f32_1_alg».proof.Proof.RemoteRules
import Idealize.ShloMosaic.Lib.Pipeline.Value
noncomputable section
namespace Cert.KernelIdealProof
open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ)

omit [FloatOps F] in
/-- A returned value bound to a continuation is the continuation at the value. -/
theorem prog_ret_bind {E : Type → Type} {α β : Type} (a : α) (k : α → Prog E β) : (Prog.ret a).bind k = k a := rfl

set_option maxHeartbeats 2000000 in
theorem run_pt7 (c : Dev nD) (fo : Bf (F := F) c accO) (fm : Bf (F := F) c accM) (fl : Bf (F := F) c accL)
    (x3 : Bf (F := F) c (stage0_3 (cfg0.slots t0_7 3))) (K' : Dev nD × Fin 17 → ℕ) (W : Waits sig Unit) (Q : PUnit → sProp 𝕄)
    (hO : ∀ x : S1x32x8x128.Idx, OV m c (ValueIdx.ix4 (1 : Fin 4) (x 1) (x 2) (x 3)) = k0_pay5 (Trace.chunk (iblk m c 0 t0_7) (iblk m c 1 t0_7) (iblk m c 2 t0_7) ⟨fo, fm, fl⟩).o x)
    (hS0 : ∀ x : S1x1x8x32.Idx, SV m c (ValueIdx.ix4 (1 : Fin 4) (0 : Fin 2) (x 2) (x 3)) = k0_pay6 (Trace.chunk (iblk m c 0 t0_7) (iblk m c 1 t0_7) (iblk m c 2 t0_7) ⟨fo, fm, fl⟩).m x)
    (hS1 : ∀ x : S1x1x8x32.Idx, SV m c (ValueIdx.ix4 (1 : Fin 4) (1 : Fin 2) (x 2) (x 3)) = k0_pay7 (Trace.chunk (iblk m c 0 t0_7) (iblk m c 1 t0_7) (iblk m c 2 t0_7) ⟨fo, fm, fl⟩).l x) :
    iprop(pt' c accO fo ∗ pt' c accM fm ∗ pt' c accL fl ∗ pt' c (stage0_0 (cfg0.slots t0_7 0)) (iblk m c 0 t0_7) ∗ pt' c (stage0_1 (cfg0.slots t0_7 1)) (iblk m c 1 t0_7)
        ∗ pt' c (stage0_2 (cfg0.slots t0_7 2)) (iblk m c 2 t0_7) ∗ pt' c (stage0_3 (cfg0.slots t0_7 3)) x3
        ∗ records m K' ∗ levAts L lv ∗ owes (c : Thread nD τ) (owedFrom c (evDone 7)) W ∗ entPart c 7 1
        ∗ (iprop(pt' c accO (Trace.chunk (iblk m c 0 t0_7) (iblk m c 1 t0_7) (iblk m c 2 t0_7) ⟨fo, fm, fl⟩).o ∗ pt' c accM (Trace.chunk (iblk m c 0 t0_7) (iblk m c 1 t0_7) (iblk m c 2 t0_7) ⟨fo, fm, fl⟩).m ∗ pt' c accL (Trace.chunk (iblk m c 0 t0_7) (iblk m c 1 t0_7) (iblk m c 2 t0_7) ⟨fo, fm, fl⟩).l
            ∗ pt' c (stage0_0 (cfg0.slots t0_7 0)) (iblk m c 0 t0_7) ∗ pt' c (stage0_1 (cfg0.slots t0_7 1)) (iblk m c 1 t0_7)
            ∗ pt' c (stage0_2 (cfg0.slots t0_7 2)) (iblk m c 2 t0_7) ∗ pt' c (stage0_3 (cfg0.slots t0_7 3)) x3
            ∗ entPart c 8 1 ∗ ∃ W', owes (c : Thread nD τ) (owedFrom c (evDone 8)) W') -∗ Q ⟨⟩))
      ⊢ wp frame (wpE (defs₀ (F := F)) 𝒱₀ c none) Set.univ (bodyAt0 (F := F) t0_7) Q := by
  iintro ⟨Ho, Hm, Hl, H0, H1, H2, H3, #HR, #Hlev, HO, HE, Hk⟩
  unfold records
  icases HR with ⟨#HI, #HRr⟩
  unfold entPart
  rw [if_neg (by decide), if_pos (by decide)]
  icases HE with ⟨A0, A1, A2, A3, C1, C3, ⟨%fob, Hob⟩, ⟨%fsb, Hsb⟩, T0, T1, T2, T3, ⟨%frob, Hrob⟩, ⟨%frsb, Hrsb⟩⟩
  unfold bodyAt0
  sl_exec
  have hb : ((grid0.coords t0_7) 0).val = 1 := by decide
  have h2 : k0_cond2 (grid0.coords t0_7) = 1#1 := by decide
  ihave Hob' := (Entails.of_eq (show (obPts c 1 fob : sProp 𝕄) = slPts c (oSl oB 1) fob from rfl)) $$ Hob
  iapply (wp_load_rect 𝒱₀ (c : Thread nD τ) none Set.univ (m := oB) (r := (Rect.unit (s := S4x32x8x128) (k0_off1 (grid0.coords t0_7)) S1x32x8x128.size (k0_off1_inb (grid0.coords t0_7) h2))) (S := (oSl oB 1).view.set) (f := fob) (store_o_sub1 (grid0.coords t0_7) h2 hb)) $$ Hob'
  iintro Hob'
  iapply (wp_store 𝒱₀ (c : Thread nD τ) none Set.univ (m := oB) (r := (Rect.unit (s := S4x32x8x128) (k0_off1 (grid0.coords t0_7)) S1x32x8x128.size (k0_off1_inb (grid0.coords t0_7) h2))) (Mk := Finset.univ) (S := (oSl oB 1).view.set) (f := fob) (store_o_sub1 (grid0.coords t0_7) h2 hb)) $$ Hob'
  iintro Hob'
  rw [prog_ret_bind]
  sl_exec
  ihave Hsb' := (Entails.of_eq (show (sbPts c 1 fsb : sProp 𝕄) = slPts c (sSl sB 1) fsb from rfl)) $$ Hsb
  iapply (wp_load_rect 𝒱₀ (c : Thread nD τ) none Set.univ (m := sB) (r := (Rect.unit (s := S4x2x8x32) (k0_off2 (grid0.coords t0_7)) S1x1x8x32.size (k0_off2_inb (grid0.coords t0_7) h2))) (S := (sSl sB 1).view.set) (f := fsb) (store_s0_sub1 (grid0.coords t0_7) h2 hb)) $$ Hsb'
  iintro Hsb'
  iapply (wp_store 𝒱₀ (c : Thread nD τ) none Set.univ (m := sB) (r := (Rect.unit (s := S4x2x8x32) (k0_off2 (grid0.coords t0_7)) S1x1x8x32.size (k0_off2_inb (grid0.coords t0_7) h2))) (Mk := Finset.univ) (S := (sSl sB 1).view.set) (f := fsb) (store_s0_sub1 (grid0.coords t0_7) h2 hb)) $$ Hsb'
  iintro Hsb'
  rw [prog_ret_bind]
  sl_exec
  iapply (wp_load_rect 𝒱₀ (c : Thread nD τ) none Set.univ (m := sB) (r := (Rect.unit (s := S4x2x8x32) (k0_off3 (grid0.coords t0_7)) S1x1x8x32.size (k0_off3_inb (grid0.coords t0_7) h2))) (S := (sSl sB 1).view.set) (store_s1_sub1 (grid0.coords t0_7) h2 hb)) $$ Hsb'
  iintro Hsb'
  iapply (wp_store 𝒱₀ (c : Thread nD τ) none Set.univ (m := sB) (r := (Rect.unit (s := S4x2x8x32) (k0_off3 (grid0.coords t0_7)) S1x1x8x32.size (k0_off3_inb (grid0.coords t0_7) h2))) (Mk := Finset.univ) (S := (sSl sB 1).view.set) (store_s1_sub1 (grid0.coords t0_7) h2 hb)) $$ Hsb'
  iintro Hsb'
  rw [prog_ret_bind]
  sl_exec
  -- the accumulators as the trace's
  have e13 : run_pt7.sl.v13 m c = (iblk m c 0 t0_7) := by unfold run_pt7.sl.v13; exact Memref.readAt_unit_zero (Elt F) _ hz4 _ _
  have e18 : run_pt7.sl.v18 m c = (iblk m c 1 t0_7) := by unfold run_pt7.sl.v18; exact Memref.readAt_unit_zero (Elt F) _ hz4 _ _
  have e21 : run_pt7.sl.v21 m c = (iblk m c 2 t0_7) := by unfold run_pt7.sl.v21; exact Memref.readAt_unit_zero (Elt F) _ hz4 _ _
  have er : run_pt7.sl.r m c = k0_pay12 (iblk m c 2 t0_7) := by
    show k0_pay12 (run_pt7.sl.v21 m c) = _; rw [e21]
  have er1 : run_pt7.sl.r_1 m c = k0_pay13 (iblk m c 0 t0_7) (iblk m c 1 t0_7) := by
    show k0_pay13 (run_pt7.sl.v13 m c) (run_pt7.sl.v18 m c) = _; rw [e13, e18]
  have er2 : run_pt7.sl.r_2 m c fm = k0_pay14 (iblk m c 0 t0_7) (iblk m c 1 t0_7) fm := by
    show k0_pay14 (run_pt7.sl.v13 m c) (run_pt7.sl.v18 m c) (View.readAt (Elt F) accM.view (Rect.unit ![0, 0] S8x32.size inb_S8x32_S8x32_0_0).toLoadRect fm) = _
    rw [e13, e18, rd_m]
  have er3 : run_pt7.sl.r_3 m c fm = k0_pay15 (iblk m c 0 t0_7) (iblk m c 1 t0_7) fm := by
    show k0_pay15 (run_pt7.sl.v13 m c) (run_pt7.sl.v18 m c) (View.readAt (Elt F) accM.view (Rect.unit ![0, 0] S8x32.size inb_S8x32_S8x32_0_0).toLoadRect fm) = _
    rw [e13, e18, rd_m]
  have e62 : run_pt7.sl.v62 m c fo fm = (Trace.chunk (iblk m c 0 t0_7) (iblk m c 1 t0_7) (iblk m c 2 t0_7) ⟨fo, fm, fl⟩).o := by
    unfold run_pt7.sl.v62 run_pt7.sl.Ho_1
    rw [View.readCov_cons_toLoadRect, er, er1, er2, er3, rd_o]; rfl
  have e68 : run_pt7.sl.v68 m c fm = (Trace.chunk (iblk m c 0 t0_7) (iblk m c 1 t0_7) (iblk m c 2 t0_7) ⟨fo, fm, fl⟩).m := by
    unfold run_pt7.sl.v68
    rw [View.readCov_cons_toLoadRect, er2]; rfl
  have e73 : run_pt7.sl.v73 m c fm fl = (Trace.chunk (iblk m c 0 t0_7) (iblk m c 1 t0_7) (iblk m c 2 t0_7) ⟨fo, fm, fl⟩).l := by
    unfold run_pt7.sl.v73
    rw [View.readCov_cons_toLoadRect, er1, er2, er3, rd_l]; rfl
  have hg5 : ∀ x : S1x32x8x128.Idx, OV m c (ValueIdx.ix4 (1 : Fin 4) (x 1) (x 2) (x 3)) = k0_pay5 (run_pt7.sl.v62 m c fo fm) x := fun x => by rw [e62]; exact hO x
  have hg6 : ∀ x : S1x1x8x32.Idx, SV m c (ValueIdx.ix4 (1 : Fin 4) (0 : Fin 2) (x 2) (x 3)) = k0_pay6 (run_pt7.sl.v68 m c fm) x := fun x => by rw [e68]; exact hS0 x
  have hg7 : ∀ x : S1x1x8x32.Idx, SV m c (ValueIdx.ix4 (1 : Fin 4) (1 : Fin 2) (x 2) (x 3)) = k0_pay7 (run_pt7.sl.v73 m c fm fl) x := fun x => by rw [e73]; exact hS1 x
  have hconvO : (View.loc (c : Thread nD τ) (oB.access (Rect.unit (s := S4x32x8x128) (k0_off1 (grid0.coords t0_7)) S1x32x8x128.size (k0_off1_inb (grid0.coords t0_7) h2))) ↦[(oSl oB 1).view.set]{fullShare} View.write (Elt F) (oB.access (Rect.unit (s := S4x32x8x128) (k0_off1 (grid0.coords t0_7)) S1x32x8x128.size (k0_off1_inb (grid0.coords t0_7) h2))) fob (k0_pay5 (run_pt7.sl.v62 m c fo fm)) Finset.univ : sProp 𝕄) ⊢ obPts c 1 (OV m c) :=
    Entails.of_eq (store_o c (grid0.coords t0_7) h2 1 hb fob (OV m c) (k0_pay5 (run_pt7.sl.v62 m c fo fm)) hg5)
  have hconvS : (View.loc (c : Thread nD τ) (sB.access (Rect.unit (s := S4x2x8x32) (k0_off3 (grid0.coords t0_7)) S1x1x8x32.size (k0_off3_inb (grid0.coords t0_7) h2))) ↦[(sSl sB 1).view.set]{fullShare} View.write (Elt F) (sB.access (Rect.unit (s := S4x2x8x32) (k0_off3 (grid0.coords t0_7)) S1x1x8x32.size (k0_off3_inb (grid0.coords t0_7) h2))) (View.write (Elt F) (sB.access (Rect.unit (s := S4x2x8x32) (k0_off2 (grid0.coords t0_7)) S1x1x8x32.size (k0_off2_inb (grid0.coords t0_7) h2))) fsb (k0_pay6 (run_pt7.sl.v68 m c fm)) Finset.univ) (k0_pay7 (run_pt7.sl.v73 m c fm fl)) Finset.univ : sProp 𝕄) ⊢ sbPts c 1 (SV m c) :=
    Entails.of_eq (store_s c (grid0.coords t0_7) h2 1 hb fsb (SV m c) (k0_pay6 (run_pt7.sl.v68 m c fm)) (k0_pay7 (run_pt7.sl.v73 m c fm fl)) hg6 hg7)
  -- the output copy of entry 1
  rw [show owedFrom c (evDone 7) = owedFrom c 4 + tallyAt (famCell (nbr c) 1 1) () No from owedFrom_succ c 3 (by decide)]
  iapply (wp_send_o1 m K' c _ (dev_eq c (k0_dev4_eq c) _) frob (owedFrom c 4) W) $$ [Hob' Hrob HO T0 T1]
  · isplitr; · iapply (inv_at m K' (c, fidx 0 1)); iexact HI
    isplitr; · iapply (inv_at m K' (nbr c, fidx 1 1)); iexact HI
    isplitl [Hob']; · iapply hconvO; iexact Hob'
    isplitl [Hrob]; · iexact Hrob
    isplitl [HO]; · iexact HO
    isplitl [T0]; · iexact T0
    isplitr; · iapply (reached_at (F := F) (c, fidx 0 1)); iexact HRr
    isplitl [T1]; · iexact T1
    iapply (reached_at (F := F) (nbr c, fidx 1 1)); iexact HRr
  iintro ⟨Hc0, HO⟩
  -- the statistics copy of entry 1
  rw [show owedFrom c 4 = owedFrom c 5 + tallyAt (famCell (nbr c) 3 1) () Ns from owedFrom_succ c 4 (by decide)]
  iapply (wp_send_s1 m K' c _ (dev_eq c (k0_dev5_eq c) _) frsb (owedFrom c 5) W) $$ [Hsb' Hrsb HO T2 T3]
  · isplitr; · iapply (inv_at m K' (c, fidx 2 1)); iexact HI
    isplitr; · iapply (inv_at m K' (nbr c, fidx 3 1)); iexact HI
    isplitl [Hsb']; · iapply hconvS; iexact Hsb'
    isplitl [Hrsb]; · iexact Hrsb
    isplitl [HO]; · iexact HO
    isplitl [T2]; · iexact T2
    isplitr; · iapply (reached_at (F := F) (c, fidx 2 1)); iexact HRr
    isplitl [T3]; · iexact T3
    iapply (reached_at (F := F) (nbr c, fidx 3 1)); iexact HRr
  iintro ⟨Hc2, HO⟩
  rw [prog_ret_bind]
  sl_exec
  sl_step
  iapply Hk
  unfold run_pt7.sl.Ho_1
  rw [er, er1, er2, er3, wr_o, wr_m, wr_l, rd_o, rd_l]
  unfold Trace.chunk
  rw [if_pos (by decide)]
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  isplitl [A0 A1 A2 A3 C1 C3 Hc0 Hc2]
  · isplitl [A0]; · iexact A0
    isplitl [A1]; · iexact A1
    isplitl [A2]; · iexact A2
    isplitl [A3]; · iexact A3
    isplitl [C1]; · iexact C1
    isplitl [C3]; · iexact C3
    isplitl [Hc0]; · iexact Hc0
    iexact Hc2
  iexists W
  iexact HO

set_option maxHeartbeats 2000000 in
theorem run_pt11 (c : Dev nD) (fo : Bf (F := F) c accO) (fm : Bf (F := F) c accM) (fl : Bf (F := F) c accL)
    (x3 : Bf (F := F) c (stage0_3 (cfg0.slots t0_11 3))) (K' : Dev nD × Fin 17 → ℕ) (W : Waits sig Unit) (Q : PUnit → sProp 𝕄)
    (hO : ∀ x : S1x32x8x128.Idx, OV m c (ValueIdx.ix4 (2 : Fin 4) (x 1) (x 2) (x 3)) = k0_pay5 (Trace.chunk (iblk m c 0 t0_11) (iblk m c 1 t0_11) (iblk m c 2 t0_11) ⟨fo, fm, fl⟩).o x)
    (hS0 : ∀ x : S1x1x8x32.Idx, SV m c (ValueIdx.ix4 (2 : Fin 4) (0 : Fin 2) (x 2) (x 3)) = k0_pay6 (Trace.chunk (iblk m c 0 t0_11) (iblk m c 1 t0_11) (iblk m c 2 t0_11) ⟨fo, fm, fl⟩).m x)
    (hS1 : ∀ x : S1x1x8x32.Idx, SV m c (ValueIdx.ix4 (2 : Fin 4) (1 : Fin 2) (x 2) (x 3)) = k0_pay7 (Trace.chunk (iblk m c 0 t0_11) (iblk m c 1 t0_11) (iblk m c 2 t0_11) ⟨fo, fm, fl⟩).l x) :
    iprop(pt' c accO fo ∗ pt' c accM fm ∗ pt' c accL fl ∗ pt' c (stage0_0 (cfg0.slots t0_11 0)) (iblk m c 0 t0_11) ∗ pt' c (stage0_1 (cfg0.slots t0_11 1)) (iblk m c 1 t0_11)
        ∗ pt' c (stage0_2 (cfg0.slots t0_11 2)) (iblk m c 2 t0_11) ∗ pt' c (stage0_3 (cfg0.slots t0_11 3)) x3
        ∗ records m K' ∗ levAts L lv ∗ owes (c : Thread nD τ) (owedFrom c (evDone 11)) W ∗ entPart c 11 2
        ∗ (iprop(pt' c accO (Trace.chunk (iblk m c 0 t0_11) (iblk m c 1 t0_11) (iblk m c 2 t0_11) ⟨fo, fm, fl⟩).o ∗ pt' c accM (Trace.chunk (iblk m c 0 t0_11) (iblk m c 1 t0_11) (iblk m c 2 t0_11) ⟨fo, fm, fl⟩).m ∗ pt' c accL (Trace.chunk (iblk m c 0 t0_11) (iblk m c 1 t0_11) (iblk m c 2 t0_11) ⟨fo, fm, fl⟩).l
            ∗ pt' c (stage0_0 (cfg0.slots t0_11 0)) (iblk m c 0 t0_11) ∗ pt' c (stage0_1 (cfg0.slots t0_11 1)) (iblk m c 1 t0_11)
            ∗ pt' c (stage0_2 (cfg0.slots t0_11 2)) (iblk m c 2 t0_11) ∗ pt' c (stage0_3 (cfg0.slots t0_11 3)) x3
            ∗ entPart c 12 2 ∗ ∃ W', owes (c : Thread nD τ) (owedFrom c (evDone 12)) W') -∗ Q ⟨⟩))
      ⊢ wp frame (wpE (defs₀ (F := F)) 𝒱₀ c none) Set.univ (bodyAt0 (F := F) t0_11) Q := by
  iintro ⟨Ho, Hm, Hl, H0, H1, H2, H3, #HR, #Hlev, HO, HE, Hk⟩
  unfold records
  icases HR with ⟨#HI, #HRr⟩
  unfold entPart
  rw [if_neg (by decide), if_pos (by decide)]
  icases HE with ⟨A0, A1, A2, A3, C1, C3, ⟨%fob, Hob⟩, ⟨%fsb, Hsb⟩, T0, T1, T2, T3, ⟨%frob, Hrob⟩, ⟨%frsb, Hrsb⟩⟩
  unfold bodyAt0
  sl_exec
  have hb : ((grid0.coords t0_11) 0).val = 2 := by decide
  have h2 : k0_cond2 (grid0.coords t0_11) = 1#1 := by decide
  ihave Hob' := (Entails.of_eq (show (obPts c 2 fob : sProp 𝕄) = slPts c (oSl oB 2) fob from rfl)) $$ Hob
  iapply (wp_load_rect 𝒱₀ (c : Thread nD τ) none Set.univ (m := oB) (r := (Rect.unit (s := S4x32x8x128) (k0_off1 (grid0.coords t0_11)) S1x32x8x128.size (k0_off1_inb (grid0.coords t0_11) h2))) (S := (oSl oB 2).view.set) (f := fob) (store_o_sub2 (grid0.coords t0_11) h2 hb)) $$ Hob'
  iintro Hob'
  iapply (wp_store 𝒱₀ (c : Thread nD τ) none Set.univ (m := oB) (r := (Rect.unit (s := S4x32x8x128) (k0_off1 (grid0.coords t0_11)) S1x32x8x128.size (k0_off1_inb (grid0.coords t0_11) h2))) (Mk := Finset.univ) (S := (oSl oB 2).view.set) (f := fob) (store_o_sub2 (grid0.coords t0_11) h2 hb)) $$ Hob'
  iintro Hob'
  rw [prog_ret_bind]
  sl_exec
  ihave Hsb' := (Entails.of_eq (show (sbPts c 2 fsb : sProp 𝕄) = slPts c (sSl sB 2) fsb from rfl)) $$ Hsb
  iapply (wp_load_rect 𝒱₀ (c : Thread nD τ) none Set.univ (m := sB) (r := (Rect.unit (s := S4x2x8x32) (k0_off2 (grid0.coords t0_11)) S1x1x8x32.size (k0_off2_inb (grid0.coords t0_11) h2))) (S := (sSl sB 2).view.set) (f := fsb) (store_s0_sub2 (grid0.coords t0_11) h2 hb)) $$ Hsb'
  iintro Hsb'
  iapply (wp_store 𝒱₀ (c : Thread nD τ) none Set.univ (m := sB) (r := (Rect.unit (s := S4x2x8x32) (k0_off2 (grid0.coords t0_11)) S1x1x8x32.size (k0_off2_inb (grid0.coords t0_11) h2))) (Mk := Finset.univ) (S := (sSl sB 2).view.set) (f := fsb) (store_s0_sub2 (grid0.coords t0_11) h2 hb)) $$ Hsb'
  iintro Hsb'
  rw [prog_ret_bind]
  sl_exec
  iapply (wp_load_rect 𝒱₀ (c : Thread nD τ) none Set.univ (m := sB) (r := (Rect.unit (s := S4x2x8x32) (k0_off3 (grid0.coords t0_11)) S1x1x8x32.size (k0_off3_inb (grid0.coords t0_11) h2))) (S := (sSl sB 2).view.set) (store_s1_sub2 (grid0.coords t0_11) h2 hb)) $$ Hsb'
  iintro Hsb'
  iapply (wp_store 𝒱₀ (c : Thread nD τ) none Set.univ (m := sB) (r := (Rect.unit (s := S4x2x8x32) (k0_off3 (grid0.coords t0_11)) S1x1x8x32.size (k0_off3_inb (grid0.coords t0_11) h2))) (Mk := Finset.univ) (S := (sSl sB 2).view.set) (store_s1_sub2 (grid0.coords t0_11) h2 hb)) $$ Hsb'
  iintro Hsb'
  rw [prog_ret_bind]
  sl_exec
  -- the accumulators as the trace's
  have e13 : run_pt11.sl.v13 m c = (iblk m c 0 t0_11) := by unfold run_pt11.sl.v13; exact Memref.readAt_unit_zero (Elt F) _ hz4 _ _
  have e18 : run_pt11.sl.v18 m c = (iblk m c 1 t0_11) := by unfold run_pt11.sl.v18; exact Memref.readAt_unit_zero (Elt F) _ hz4 _ _
  have e21 : run_pt11.sl.v21 m c = (iblk m c 2 t0_11) := by unfold run_pt11.sl.v21; exact Memref.readAt_unit_zero (Elt F) _ hz4 _ _
  have er : run_pt11.sl.r m c = k0_pay12 (iblk m c 2 t0_11) := by
    show k0_pay12 (run_pt11.sl.v21 m c) = _; rw [e21]
  have er1 : run_pt11.sl.r_1 m c = k0_pay13 (iblk m c 0 t0_11) (iblk m c 1 t0_11) := by
    show k0_pay13 (run_pt11.sl.v13 m c) (run_pt11.sl.v18 m c) = _; rw [e13, e18]
  have er2 : run_pt11.sl.r_2 m c fm = k0_pay14 (iblk m c 0 t0_11) (iblk m c 1 t0_11) fm := by
    show k0_pay14 (run_pt11.sl.v13 m c) (run_pt11.sl.v18 m c) (View.readAt (Elt F) accM.view (Rect.unit ![0, 0] S8x32.size inb_S8x32_S8x32_0_0).toLoadRect fm) = _
    rw [e13, e18, rd_m]
  have er3 : run_pt11.sl.r_3 m c fm = k0_pay15 (iblk m c 0 t0_11) (iblk m c 1 t0_11) fm := by
    show k0_pay15 (run_pt11.sl.v13 m c) (run_pt11.sl.v18 m c) (View.readAt (Elt F) accM.view (Rect.unit ![0, 0] S8x32.size inb_S8x32_S8x32_0_0).toLoadRect fm) = _
    rw [e13, e18, rd_m]
  have e62 : run_pt11.sl.v62 m c fo fm = (Trace.chunk (iblk m c 0 t0_11) (iblk m c 1 t0_11) (iblk m c 2 t0_11) ⟨fo, fm, fl⟩).o := by
    unfold run_pt11.sl.v62 run_pt11.sl.Ho_1
    rw [View.readCov_cons_toLoadRect, er, er1, er2, er3, rd_o]; rfl
  have e68 : run_pt11.sl.v68 m c fm = (Trace.chunk (iblk m c 0 t0_11) (iblk m c 1 t0_11) (iblk m c 2 t0_11) ⟨fo, fm, fl⟩).m := by
    unfold run_pt11.sl.v68
    rw [View.readCov_cons_toLoadRect, er2]; rfl
  have e73 : run_pt11.sl.v73 m c fm fl = (Trace.chunk (iblk m c 0 t0_11) (iblk m c 1 t0_11) (iblk m c 2 t0_11) ⟨fo, fm, fl⟩).l := by
    unfold run_pt11.sl.v73
    rw [View.readCov_cons_toLoadRect, er1, er2, er3, rd_l]; rfl
  have hg5 : ∀ x : S1x32x8x128.Idx, OV m c (ValueIdx.ix4 (2 : Fin 4) (x 1) (x 2) (x 3)) = k0_pay5 (run_pt11.sl.v62 m c fo fm) x := fun x => by rw [e62]; exact hO x
  have hg6 : ∀ x : S1x1x8x32.Idx, SV m c (ValueIdx.ix4 (2 : Fin 4) (0 : Fin 2) (x 2) (x 3)) = k0_pay6 (run_pt11.sl.v68 m c fm) x := fun x => by rw [e68]; exact hS0 x
  have hg7 : ∀ x : S1x1x8x32.Idx, SV m c (ValueIdx.ix4 (2 : Fin 4) (1 : Fin 2) (x 2) (x 3)) = k0_pay7 (run_pt11.sl.v73 m c fm fl) x := fun x => by rw [e73]; exact hS1 x
  have hconvO : (View.loc (c : Thread nD τ) (oB.access (Rect.unit (s := S4x32x8x128) (k0_off1 (grid0.coords t0_11)) S1x32x8x128.size (k0_off1_inb (grid0.coords t0_11) h2))) ↦[(oSl oB 2).view.set]{fullShare} View.write (Elt F) (oB.access (Rect.unit (s := S4x32x8x128) (k0_off1 (grid0.coords t0_11)) S1x32x8x128.size (k0_off1_inb (grid0.coords t0_11) h2))) fob (k0_pay5 (run_pt11.sl.v62 m c fo fm)) Finset.univ : sProp 𝕄) ⊢ obPts c 2 (OV m c) :=
    Entails.of_eq (store_o c (grid0.coords t0_11) h2 2 hb fob (OV m c) (k0_pay5 (run_pt11.sl.v62 m c fo fm)) hg5)
  have hconvS : (View.loc (c : Thread nD τ) (sB.access (Rect.unit (s := S4x2x8x32) (k0_off3 (grid0.coords t0_11)) S1x1x8x32.size (k0_off3_inb (grid0.coords t0_11) h2))) ↦[(sSl sB 2).view.set]{fullShare} View.write (Elt F) (sB.access (Rect.unit (s := S4x2x8x32) (k0_off3 (grid0.coords t0_11)) S1x1x8x32.size (k0_off3_inb (grid0.coords t0_11) h2))) (View.write (Elt F) (sB.access (Rect.unit (s := S4x2x8x32) (k0_off2 (grid0.coords t0_11)) S1x1x8x32.size (k0_off2_inb (grid0.coords t0_11) h2))) fsb (k0_pay6 (run_pt11.sl.v68 m c fm)) Finset.univ) (k0_pay7 (run_pt11.sl.v73 m c fm fl)) Finset.univ : sProp 𝕄) ⊢ sbPts c 2 (SV m c) :=
    Entails.of_eq (store_s c (grid0.coords t0_11) h2 2 hb fsb (SV m c) (k0_pay6 (run_pt11.sl.v68 m c fm)) (k0_pay7 (run_pt11.sl.v73 m c fm fl)) hg6 hg7)
  -- the output copy of entry 1
  rw [show owedFrom c (evDone 11) = owedFrom c 6 + tallyAt (famCell (nbr c) 1 2) () No from owedFrom_succ c 5 (by decide)]
  iapply (wp_send_o2 m K' c _ (dev_eq c (k0_dev6_eq c) _) frob (owedFrom c 6) W) $$ [Hob' Hrob HO T0 T1]
  · isplitr; · iapply (inv_at m K' (c, fidx 0 2)); iexact HI
    isplitr; · iapply (inv_at m K' (nbr c, fidx 1 2)); iexact HI
    isplitl [Hob']; · iapply hconvO; iexact Hob'
    isplitl [Hrob]; · iexact Hrob
    isplitl [HO]; · iexact HO
    isplitl [T0]; · iexact T0
    isplitr; · iapply (reached_at (F := F) (c, fidx 0 2)); iexact HRr
    isplitl [T1]; · iexact T1
    iapply (reached_at (F := F) (nbr c, fidx 1 2)); iexact HRr
  iintro ⟨Hc0, HO⟩
  -- the statistics copy of entry 1
  rw [show owedFrom c 6 = owedFrom c 7 + tallyAt (famCell (nbr c) 3 2) () Ns from owedFrom_succ c 6 (by decide)]
  iapply (wp_send_s2 m K' c _ (dev_eq c (k0_dev7_eq c) _) frsb (owedFrom c 7) W) $$ [Hsb' Hrsb HO T2 T3]
  · isplitr; · iapply (inv_at m K' (c, fidx 2 2)); iexact HI
    isplitr; · iapply (inv_at m K' (nbr c, fidx 3 2)); iexact HI
    isplitl [Hsb']; · iapply hconvS; iexact Hsb'
    isplitl [Hrsb]; · iexact Hrsb
    isplitl [HO]; · iexact HO
    isplitl [T2]; · iexact T2
    isplitr; · iapply (reached_at (F := F) (c, fidx 2 2)); iexact HRr
    isplitl [T3]; · iexact T3
    iapply (reached_at (F := F) (nbr c, fidx 3 2)); iexact HRr
  iintro ⟨Hc2, HO⟩
  rw [prog_ret_bind]
  sl_exec
  sl_step
  iapply Hk
  unfold run_pt11.sl.Ho_1
  rw [er, er1, er2, er3, wr_o, wr_m, wr_l, rd_o, rd_l]
  unfold Trace.chunk
  rw [if_pos (by decide)]
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  isplitl [A0 A1 A2 A3 C1 C3 Hc0 Hc2]
  · isplitl [A0]; · iexact A0
    isplitl [A1]; · iexact A1
    isplitl [A2]; · iexact A2
    isplitl [A3]; · iexact A3
    isplitl [C1]; · iexact C1
    isplitl [C3]; · iexact C3
    isplitl [Hc0]; · iexact Hc0
    iexact Hc2
  iexists W
  iexact HO

omit [FloatOps F] in
/-- A batch entry's part of the invariant before the barrier, not yet handed over. -/
theorem entPart_pre (c : Dev nD) (t : ℕ) (b : Fin 4) (h1 : ¬ b.val < t / 4) (h2 : ¬ 4 ≤ t) :
    (entPart c t b : sProp 𝕄) = iprop(atPos ER (famCell c 0 b) 0 ∅ 0 ∗ atPos ER (famCell c 1 b) 0 ∅ 0 ∗ atPos ER (famCell c 2 b) 0 ∅ 0 ∗ atPos ER (famCell c 3 b) 0 ∅ 0
      ∗ cred (tallyAt (famCell c 1 b) () No) ∗ cred (tallyAt (famCell c 3 b) () Ns)
      ∗ (∃ f, obPts c b f) ∗ (∃ f, sbPts c b f)
      ∗ dutyTok ER (famCell c 0 b) 0 () ∗ dutyTok ER (famCell (nbr c) 1 b) 0 () ∗ dutyTok ER (famCell c 2 b) 0 () ∗ dutyTok ER (famCell (nbr c) 3 b) 0 ()
      ∗ (∃ f, robPts c b f) ∗ (∃ f, rsbPts c b f)) := by
  unfold entPart; rw [if_neg h1, if_neg h2]

omit [FloatOps F] in
/-- A batch entry's part of the invariant after the barrier, not yet handed over. -/
theorem entPart_mid (c : Dev nD) (t : ℕ) (b : Fin 4) (h1 : ¬ b.val < t / 4) (h2 : 4 ≤ t) :
    (entPart c t b : sProp 𝕄) = iprop(atPos ER (famCell c 0 b) 0 ∅ 0 ∗ atPos ER (famCell c 1 b) 0 ∅ 0 ∗ atPos ER (famCell c 2 b) 0 ∅ 0 ∗ atPos ER (famCell c 3 b) 0 ∅ 0
      ∗ cred (tallyAt (famCell c 1 b) () No) ∗ cred (tallyAt (famCell c 3 b) () Ns)
      ∗ (∃ f, obPts c b f) ∗ (∃ f, sbPts c b f)
      ∗ dutyTok ER (famCell c 0 b) 0 () ∗ dutyTok ER (famCell (nbr c) 1 b) 0 () ∗ dutyTok ER (famCell c 2 b) 0 () ∗ dutyTok ER (famCell (nbr c) 3 b) 0 ()
      ∗ (∃ f, robPts (nbr c) b f) ∗ (∃ f, rsbPts (nbr c) b f)) := by
  unfold entPart; rw [if_neg h1, if_pos h2]

omit [FloatOps F] in
/-- A batch entry's part of the invariant once handed over. -/
theorem entPart_done (c : Dev nD) (t : ℕ) (b : Fin 4) (h1 : b.val < t / 4) :
    (entPart c t b : sProp 𝕄) = iprop(atPos ER (famCell c 0 b) 0 ∅ 0 ∗ atPos ER (famCell c 1 b) 0 ∅ 0 ∗ atPos ER (famCell c 2 b) 0 ∅ 0 ∗ atPos ER (famCell c 3 b) 0 ∅ 0
      ∗ cred (tallyAt (famCell c 1 b) () No) ∗ cred (tallyAt (famCell c 3 b) () Ns)
      ∗ cred (tallyAt (famCell c 0 b) () No) ∗ cred (tallyAt (famCell c 2 b) () Ns)) := by
  unfold entPart; rw [if_pos h1]

omit [FloatOps F] in
theorem barPart_pre (c : Dev nD) (t : ℕ) (h : t < 4) :
    (barPart c t : sProp 𝕄) = iprop(dutyTok ER (barCell (nbr c)) 0 () ∗ cred (tallyAt (barCell c) () 1) ∗ atPos ER (barCell c) 0 ∅ 0) := by
  unfold barPart; rw [if_pos h]
omit [FloatOps F] in
theorem barPart_post (c : Dev nD) (t : ℕ) (h : ¬ t < 4) : (barPart c t : sProp 𝕄) = atPos ER (barCell c) 1 ∅ 0 := by
  unfold barPart; rw [if_neg h]

omit [FloatOps F] in
/-- What the barrier wait hands over, spelt out: the partner's eight receive slices. -/
theorem barPay_open (c : Dev nD) : (barPay c : sProp 𝕄)
    = iprop((∃ f, robPts (nbr c) 0 f) ∗ (∃ f, robPts (nbr c) 1 f) ∗ (∃ f, robPts (nbr c) 2 f) ∗ (∃ f, robPts (nbr c) 3 f)
      ∗ (∃ f, rsbPts (nbr c) 0 f) ∗ (∃ f, rsbPts (nbr c) 1 f) ∗ (∃ f, rsbPts (nbr c) 2 f) ∗ (∃ f, rsbPts (nbr c) 3 f)) := rfl

set_option maxHeartbeats 4000000 in
theorem run_pt3 (c : Dev nD) (fo : Bf (F := F) c accO) (fm : Bf (F := F) c accM) (fl : Bf (F := F) c accL)
    (x3 : Bf (F := F) c (stage0_3 (cfg0.slots t0_3 3))) (K' : Dev nD × Fin 17 → ℕ) (W : Waits sig Unit) (Q : PUnit → sProp 𝕄)
    (hO : ∀ x : S1x32x8x128.Idx, OV m c (ValueIdx.ix4 (0 : Fin 4) (x 1) (x 2) (x 3)) = k0_pay5 (Trace.chunk (iblk m c 0 t0_3) (iblk m c 1 t0_3) (iblk m c 2 t0_3) ⟨fo, fm, fl⟩).o x)
    (hS0 : ∀ x : S1x1x8x32.Idx, SV m c (ValueIdx.ix4 (0 : Fin 4) (0 : Fin 2) (x 2) (x 3)) = k0_pay6 (Trace.chunk (iblk m c 0 t0_3) (iblk m c 1 t0_3) (iblk m c 2 t0_3) ⟨fo, fm, fl⟩).m x)
    (hS1 : ∀ x : S1x1x8x32.Idx, SV m c (ValueIdx.ix4 (0 : Fin 4) (1 : Fin 2) (x 2) (x 3)) = k0_pay7 (Trace.chunk (iblk m c 0 t0_3) (iblk m c 1 t0_3) (iblk m c 2 t0_3) ⟨fo, fm, fl⟩).l x) :
    iprop(pt' c accO fo ∗ pt' c accM fm ∗ pt' c accL fl ∗ pt' c (stage0_0 (cfg0.slots t0_3 0)) (iblk m c 0 t0_3) ∗ pt' c (stage0_1 (cfg0.slots t0_3 1)) (iblk m c 1 t0_3)
        ∗ pt' c (stage0_2 (cfg0.slots t0_3 2)) (iblk m c 2 t0_3) ∗ pt' c (stage0_3 (cfg0.slots t0_3 3)) x3
        ∗ records m K' ∗ levAts L lv ∗ owes (c : Thread nD τ) (owedFrom c (evDone 3)) W
        ∗ barPart c 3 ∗ entPart c 3 0 ∗ entPart c 3 1 ∗ entPart c 3 2 ∗ entPart c 3 3
        ∗ (iprop(pt' c accO (Trace.chunk (iblk m c 0 t0_3) (iblk m c 1 t0_3) (iblk m c 2 t0_3) ⟨fo, fm, fl⟩).o ∗ pt' c accM (Trace.chunk (iblk m c 0 t0_3) (iblk m c 1 t0_3) (iblk m c 2 t0_3) ⟨fo, fm, fl⟩).m ∗ pt' c accL (Trace.chunk (iblk m c 0 t0_3) (iblk m c 1 t0_3) (iblk m c 2 t0_3) ⟨fo, fm, fl⟩).l
            ∗ pt' c (stage0_0 (cfg0.slots t0_3 0)) (iblk m c 0 t0_3) ∗ pt' c (stage0_1 (cfg0.slots t0_3 1)) (iblk m c 1 t0_3)
            ∗ pt' c (stage0_2 (cfg0.slots t0_3 2)) (iblk m c 2 t0_3) ∗ pt' c (stage0_3 (cfg0.slots t0_3 3)) x3
            ∗ barPart c 4 ∗ entPart c 4 0 ∗ entPart c 4 1 ∗ entPart c 4 2 ∗ entPart c 4 3
            ∗ ∃ W', owes (c : Thread nD τ) (owedFrom c (evDone 4)) W') -∗ Q ⟨⟩))
      ⊢ wp frame (wpE (defs₀ (F := F)) 𝒱₀ c none) Set.univ (bodyAt0 (F := F) t0_3) Q := by
  rw [entPart_pre c 3 0 (by decide) (by decide), entPart_pre c 3 1 (by decide) (by decide), entPart_pre c 3 2 (by decide) (by decide), entPart_pre c 3 3 (by decide) (by decide),
    entPart_done c 4 0 (by decide), entPart_mid c 4 1 (by decide) (by decide), entPart_mid c 4 2 (by decide) (by decide), entPart_mid c 4 3 (by decide) (by decide),
    barPart_pre c 3 (by decide), barPart_post c 4 (by decide)]
  iintro ⟨Ho, Hm, Hl, H0, H1, H2, H3, #HR, #Hlev, HO, HB, HE0, HE1, HE2, HE3, Hk⟩
  unfold records
  icases HR with ⟨#HI, #HRr⟩
  icases HB with ⟨TB, CB, AB⟩
  icases HE0 with ⟨A0, A1, A2, A3, C1, C3, ⟨%fob, Hob⟩, ⟨%fsb, Hsb⟩, T0, T1, T2, T3, ⟨%fr0, Hr0⟩, ⟨%fq0, Hq0⟩⟩
  icases HE1 with ⟨A10, A11, A12, A13, C11, C13, Ho1, Hs1, T10, T11, T12, T13, ⟨%fr1, Hr1⟩, ⟨%fq1, Hq1⟩⟩
  icases HE2 with ⟨A20, A21, A22, A23, C21, C23, Ho2, Hs2, T20, T21, T22, T23, ⟨%fr2, Hr2⟩, ⟨%fq2, Hq2⟩⟩
  icases HE3 with ⟨A30, A31, A32, A33, C31, C33, Ho3, Hs3, T30, T31, T32, T33, ⟨%fr3, Hr3⟩, ⟨%fq3, Hq3⟩⟩
  unfold bodyAt0
  sl_exec
  have hb : ((grid0.coords t0_3) 0).val = 0 := by decide
  have h2 : k0_cond2 (grid0.coords t0_3) = 1#1 := by decide
  ihave Hob' := (Entails.of_eq (show (obPts c 0 fob : sProp 𝕄) = slPts c (oSl oB 0) fob from rfl)) $$ Hob
  iapply (wp_load_rect 𝒱₀ (c : Thread nD τ) none Set.univ (m := oB) (r := (Rect.unit (s := S4x32x8x128) (k0_off1 (grid0.coords t0_3)) S1x32x8x128.size (k0_off1_inb (grid0.coords t0_3) h2))) (S := (oSl oB 0).view.set) (f := fob) (store_o_sub0 (grid0.coords t0_3) h2 hb)) $$ Hob'
  iintro Hob'
  iapply (wp_store 𝒱₀ (c : Thread nD τ) none Set.univ (m := oB) (r := (Rect.unit (s := S4x32x8x128) (k0_off1 (grid0.coords t0_3)) S1x32x8x128.size (k0_off1_inb (grid0.coords t0_3) h2))) (Mk := Finset.univ) (S := (oSl oB 0).view.set) (f := fob) (store_o_sub0 (grid0.coords t0_3) h2 hb)) $$ Hob'
  iintro Hob'
  rw [prog_ret_bind]
  sl_exec
  ihave Hsb' := (Entails.of_eq (show (sbPts c 0 fsb : sProp 𝕄) = slPts c (sSl sB 0) fsb from rfl)) $$ Hsb
  iapply (wp_load_rect 𝒱₀ (c : Thread nD τ) none Set.univ (m := sB) (r := (Rect.unit (s := S4x2x8x32) (k0_off2 (grid0.coords t0_3)) S1x1x8x32.size (k0_off2_inb (grid0.coords t0_3) h2))) (S := (sSl sB 0).view.set) (f := fsb) (store_s0_sub0 (grid0.coords t0_3) h2 hb)) $$ Hsb'
  iintro Hsb'
  iapply (wp_store 𝒱₀ (c : Thread nD τ) none Set.univ (m := sB) (r := (Rect.unit (s := S4x2x8x32) (k0_off2 (grid0.coords t0_3)) S1x1x8x32.size (k0_off2_inb (grid0.coords t0_3) h2))) (Mk := Finset.univ) (S := (sSl sB 0).view.set) (f := fsb) (store_s0_sub0 (grid0.coords t0_3) h2 hb)) $$ Hsb'
  iintro Hsb'
  rw [prog_ret_bind]
  sl_exec
  iapply (wp_load_rect 𝒱₀ (c : Thread nD τ) none Set.univ (m := sB) (r := (Rect.unit (s := S4x2x8x32) (k0_off3 (grid0.coords t0_3)) S1x1x8x32.size (k0_off3_inb (grid0.coords t0_3) h2))) (S := (sSl sB 0).view.set) (store_s1_sub0 (grid0.coords t0_3) h2 hb)) $$ Hsb'
  iintro Hsb'
  iapply (wp_store 𝒱₀ (c : Thread nD τ) none Set.univ (m := sB) (r := (Rect.unit (s := S4x2x8x32) (k0_off3 (grid0.coords t0_3)) S1x1x8x32.size (k0_off3_inb (grid0.coords t0_3) h2))) (Mk := Finset.univ) (S := (sSl sB 0).view.set) (store_s1_sub0 (grid0.coords t0_3) h2 hb)) $$ Hsb'
  iintro Hsb'
  rw [prog_ret_bind]
  sl_exec
  -- the barrier signal to the partner: the device's own eight receive slices go with it
  rw [show owedFrom c (evDone 3) = owedFrom c 1 + tallyAt (barCell (nbr c)) () 1 from owedFrom_succ c 0 (by decide)]
  iapply (wp_bar_signal m K' c _ (dev_eq c (k0_dev1_eq c) _) (owedFrom c 1) W) $$ [HO TB Hr0 Hr1 Hr2 Hr3 Hq0 Hq1 Hq2 Hq3]
  · isplitr; · iapply (inv_at m K' (nbr c, 0)); iexact HI
    isplitl [HO]; · iexact HO
    isplitl [TB]; · iexact TB
    isplitl [Hr0 Hr1 Hr2 Hr3 Hq0 Hq1 Hq2 Hq3]
    · unfold ownRecv
      isplitl [Hr0]; · iexists fr0; iexact Hr0
      isplitl [Hr1]; · iexists fr1; iexact Hr1
      isplitl [Hr2]; · iexists fr2; iexact Hr2
      isplitl [Hr3]; · iexists fr3; iexact Hr3
      isplitl [Hq0]; · iexists fq0; iexact Hq0
      isplitl [Hq1]; · iexists fq1; iexact Hq1
      isplitl [Hq2]; · iexists fq2; iexact Hq2
      iexists fq3; iexact Hq3
    iapply (reached_at (F := F) (nbr c, 0)); iexact HRr
  iintro HO
  sl_step
  sl_exec
  -- the wait on the device's own barrier cell: the partner's eight receive slices come with it
  iapply (wp_bar_wait m K' c (owedFrom c 1) W) $$ [CB HO AB]
  · isplitr; · iapply (inv_at m K' (c, 0)); iexact HI
    isplitl [CB]; · iexact CB
    isplitl [HO]; · iexact HO
    isplitr; · iapply (mayWait_bar c 1 (Nat.le_refl 1)); iexact Hlev
    iexact AB
  iintro ⟨HO, AB, -, Hpay⟩
  ihave Hp := (Entails.of_eq (barPay_open (F := F) c)) $$ Hpay
  icases Hp with ⟨⟨%gr0, Gr0⟩, ⟨%gr1, Gr1⟩, ⟨%gr2, Gr2⟩, ⟨%gr3, Gr3⟩, ⟨%gq0, Gq0⟩, ⟨%gq1, Gq1⟩, ⟨%gq2, Gq2⟩, ⟨%gq3, Gq3⟩⟩
  sl_step
  sl_exec
  -- the accumulators as the trace's
  have e13 : run_pt3.sl.v13 m c = (iblk m c 0 t0_3) := by unfold run_pt3.sl.v13; exact Memref.readAt_unit_zero (Elt F) _ hz4 _ _
  have e18 : run_pt3.sl.v18 m c = (iblk m c 1 t0_3) := by unfold run_pt3.sl.v18; exact Memref.readAt_unit_zero (Elt F) _ hz4 _ _
  have e21 : run_pt3.sl.v21 m c = (iblk m c 2 t0_3) := by unfold run_pt3.sl.v21; exact Memref.readAt_unit_zero (Elt F) _ hz4 _ _
  have er : run_pt3.sl.r m c = k0_pay12 (iblk m c 2 t0_3) := by
    show k0_pay12 (run_pt3.sl.v21 m c) = _; rw [e21]
  have er1 : run_pt3.sl.r_1 m c = k0_pay13 (iblk m c 0 t0_3) (iblk m c 1 t0_3) := by
    show k0_pay13 (run_pt3.sl.v13 m c) (run_pt3.sl.v18 m c) = _; rw [e13, e18]
  have er2 : run_pt3.sl.r_2 m c fm = k0_pay14 (iblk m c 0 t0_3) (iblk m c 1 t0_3) fm := by
    show k0_pay14 (run_pt3.sl.v13 m c) (run_pt3.sl.v18 m c) (View.readAt (Elt F) accM.view (Rect.unit ![0, 0] S8x32.size inb_S8x32_S8x32_0_0).toLoadRect fm) = _
    rw [e13, e18, rd_m]
  have er3 : run_pt3.sl.r_3 m c fm = k0_pay15 (iblk m c 0 t0_3) (iblk m c 1 t0_3) fm := by
    show k0_pay15 (run_pt3.sl.v13 m c) (run_pt3.sl.v18 m c) (View.readAt (Elt F) accM.view (Rect.unit ![0, 0] S8x32.size inb_S8x32_S8x32_0_0).toLoadRect fm) = _
    rw [e13, e18, rd_m]
  have e62 : run_pt3.sl.v62 m c fo fm = (Trace.chunk (iblk m c 0 t0_3) (iblk m c 1 t0_3) (iblk m c 2 t0_3) ⟨fo, fm, fl⟩).o := by
    unfold run_pt3.sl.v62 run_pt3.sl.Ho_1
    rw [View.readCov_cons_toLoadRect, er, er1, er2, er3, rd_o]; rfl
  have e68 : run_pt3.sl.v68 m c fm = (Trace.chunk (iblk m c 0 t0_3) (iblk m c 1 t0_3) (iblk m c 2 t0_3) ⟨fo, fm, fl⟩).m := by
    unfold run_pt3.sl.v68
    rw [View.readCov_cons_toLoadRect, er2]; rfl
  have e73 : run_pt3.sl.v73 m c fm fl = (Trace.chunk (iblk m c 0 t0_3) (iblk m c 1 t0_3) (iblk m c 2 t0_3) ⟨fo, fm, fl⟩).l := by
    unfold run_pt3.sl.v73
    rw [View.readCov_cons_toLoadRect, er1, er2, er3, rd_l]; rfl
  have hg5 : ∀ x : S1x32x8x128.Idx, OV m c (ValueIdx.ix4 (0 : Fin 4) (x 1) (x 2) (x 3)) = k0_pay5 (run_pt3.sl.v62 m c fo fm) x := fun x => by rw [e62]; exact hO x
  have hg6 : ∀ x : S1x1x8x32.Idx, SV m c (ValueIdx.ix4 (0 : Fin 4) (0 : Fin 2) (x 2) (x 3)) = k0_pay6 (run_pt3.sl.v68 m c fm) x := fun x => by rw [e68]; exact hS0 x
  have hg7 : ∀ x : S1x1x8x32.Idx, SV m c (ValueIdx.ix4 (0 : Fin 4) (1 : Fin 2) (x 2) (x 3)) = k0_pay7 (run_pt3.sl.v73 m c fm fl) x := fun x => by rw [e73]; exact hS1 x
  have hconvO : (View.loc (c : Thread nD τ) (oB.access (Rect.unit (s := S4x32x8x128) (k0_off1 (grid0.coords t0_3)) S1x32x8x128.size (k0_off1_inb (grid0.coords t0_3) h2))) ↦[(oSl oB 0).view.set]{fullShare} View.write (Elt F) (oB.access (Rect.unit (s := S4x32x8x128) (k0_off1 (grid0.coords t0_3)) S1x32x8x128.size (k0_off1_inb (grid0.coords t0_3) h2))) fob (k0_pay5 (run_pt3.sl.v62 m c fo fm)) Finset.univ : sProp 𝕄) ⊢ obPts c 0 (OV m c) :=
    Entails.of_eq (store_o c (grid0.coords t0_3) h2 0 hb fob (OV m c) (k0_pay5 (run_pt3.sl.v62 m c fo fm)) hg5)
  have hconvS : (View.loc (c : Thread nD τ) (sB.access (Rect.unit (s := S4x2x8x32) (k0_off3 (grid0.coords t0_3)) S1x1x8x32.size (k0_off3_inb (grid0.coords t0_3) h2))) ↦[(sSl sB 0).view.set]{fullShare} View.write (Elt F) (sB.access (Rect.unit (s := S4x2x8x32) (k0_off3 (grid0.coords t0_3)) S1x1x8x32.size (k0_off3_inb (grid0.coords t0_3) h2))) (View.write (Elt F) (sB.access (Rect.unit (s := S4x2x8x32) (k0_off2 (grid0.coords t0_3)) S1x1x8x32.size (k0_off2_inb (grid0.coords t0_3) h2))) fsb (k0_pay6 (run_pt3.sl.v68 m c fm)) Finset.univ) (k0_pay7 (run_pt3.sl.v73 m c fm fl)) Finset.univ : sProp 𝕄) ⊢ sbPts c 0 (SV m c) :=
    Entails.of_eq (store_s c (grid0.coords t0_3) h2 0 hb fsb (SV m c) (k0_pay6 (run_pt3.sl.v68 m c fm)) (k0_pay7 (run_pt3.sl.v73 m c fm fl)) hg6 hg7)
  -- the output copy of entry 0
  rw [show owedFrom c 1 = owedFrom c 2 + tallyAt (famCell (nbr c) 1 0) () No from owedFrom_succ c 1 (by decide)]
  iapply (wp_send_o0 m K' c _ (dev_eq c (k0_dev2_eq c) _) gr0 (owedFrom c 2) (insert (SemLoc.reg barS, ()) W)) $$ [Hob' Gr0 HO T0 T1]
  · isplitr; · iapply (inv_at m K' (c, fidx 0 0)); iexact HI
    isplitr; · iapply (inv_at m K' (nbr c, fidx 1 0)); iexact HI
    isplitl [Hob']; · iapply hconvO; iexact Hob'
    isplitl [Gr0]; · iexact Gr0
    isplitl [HO]; · iexact HO
    isplitl [T0]; · iexact T0
    isplitr; · iapply (reached_at (F := F) (c, fidx 0 0)); iexact HRr
    isplitl [T1]; · iexact T1
    iapply (reached_at (F := F) (nbr c, fidx 1 0)); iexact HRr
  iintro ⟨Hc0, HO⟩
  -- the statistics copy of entry 0
  rw [show owedFrom c 2 = owedFrom c 3 + tallyAt (famCell (nbr c) 3 0) () Ns from owedFrom_succ c 2 (by decide)]
  iapply (wp_send_s0 m K' c _ (dev_eq c (k0_dev3_eq c) _) gq0 (owedFrom c 3) (insert (SemLoc.reg barS, ()) W)) $$ [Hsb' Gq0 HO T2 T3]
  · isplitr; · iapply (inv_at m K' (c, fidx 2 0)); iexact HI
    isplitr; · iapply (inv_at m K' (nbr c, fidx 3 0)); iexact HI
    isplitl [Hsb']; · iapply hconvS; iexact Hsb'
    isplitl [Gq0]; · iexact Gq0
    isplitl [HO]; · iexact HO
    isplitl [T2]; · iexact T2
    isplitr; · iapply (reached_at (F := F) (c, fidx 2 0)); iexact HRr
    isplitl [T3]; · iexact T3
    iapply (reached_at (F := F) (nbr c, fidx 3 0)); iexact HRr
  iintro ⟨Hc2, HO⟩
  rw [prog_ret_bind]
  sl_exec
  sl_step
  iapply Hk
  unfold run_pt3.sl.Ho_1
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  isplitl [AB]; · iexact AB
  isplitl [A0 A1 A2 A3 C1 C3 Hc0 Hc2]
  · isplitl [A0]; · iexact A0
    isplitl [A1]; · iexact A1
    isplitl [A2]; · iexact A2
    isplitl [A3]; · iexact A3
    isplitl [C1]; · iexact C1
    isplitl [C3]; · iexact C3
    isplitl [Hc0]; · iexact Hc0
    iexact Hc2
  isplitl [A10 A11 A12 A13 C11 C13 Ho1 Hs1 T10 T11 T12 T13 Gr1 Gq1]
  · isplitl [A10]; · iexact A10
    isplitl [A11]; · iexact A11
    isplitl [A12]; · iexact A12
    isplitl [A13]; · iexact A13
    isplitl [C11]; · iexact C11
    isplitl [C13]; · iexact C13
    isplitl [Ho1]; · iexact Ho1
    isplitl [Hs1]; · iexact Hs1
    isplitl [T10]; · iexact T10
    isplitl [T11]; · iexact T11
    isplitl [T12]; · iexact T12
    isplitl [T13]; · iexact T13
    isplitl [Gr1]; · iexists gr1; iexact Gr1
    iexists gq1; iexact Gq1
  isplitl [A20 A21 A22 A23 C21 C23 Ho2 Hs2 T20 T21 T22 T23 Gr2 Gq2]
  · isplitl [A20]; · iexact A20
    isplitl [A21]; · iexact A21
    isplitl [A22]; · iexact A22
    isplitl [A23]; · iexact A23
    isplitl [C21]; · iexact C21
    isplitl [C23]; · iexact C23
    isplitl [Ho2]; · iexact Ho2
    isplitl [Hs2]; · iexact Hs2
    isplitl [T20]; · iexact T20
    isplitl [T21]; · iexact T21
    isplitl [T22]; · iexact T22
    isplitl [T23]; · iexact T23
    isplitl [Gr2]; · iexists gr2; iexact Gr2
    iexists gq2; iexact Gq2
  isplitl [A30 A31 A32 A33 C31 C33 Ho3 Hs3 T30 T31 T32 T33 Gr3 Gq3]
  · isplitl [A30]; · iexact A30
    isplitl [A31]; · iexact A31
    isplitl [A32]; · iexact A32
    isplitl [A33]; · iexact A33
    isplitl [C31]; · iexact C31
    isplitl [C33]; · iexact C33
    isplitl [Ho3]; · iexact Ho3
    isplitl [Hs3]; · iexact Hs3
    isplitl [T30]; · iexact T30
    isplitl [T31]; · iexact T31
    isplitl [T32]; · iexact T32
    isplitl [T33]; · iexact T33
    isplitl [Gr3]; · iexists gr3; iexact Gr3
    iexists gq3; iexact Gq3
  iexists (insert (SemLoc.reg barS, ()) W)
  iexact HO

/-- info: 'Cert.KernelIdealProof.run_pt7' depends on axioms: [propext, Classical.choice, Quot.sound] -/
#guard_msgs in #print axioms run_pt7
/-- info: 'Cert.KernelIdealProof.run_pt11' depends on axioms: [propext, Classical.choice, Quot.sound] -/
#guard_msgs in #print axioms run_pt11
/-- info: 'Cert.KernelIdealProof.run_pt3' depends on axioms: [propext, Classical.choice, Quot.sound] -/
#guard_msgs in #print axioms run_pt3

end Cert.KernelIdealProof
end
-- ==== Proof.BodyHandGoal.lean ====
/-
  The body obligation at the hand-over points that are not the last: the last chunk of a batch entry, then the
  hand-over of its accumulators. Before such a point the invariant holds the accumulators at the trace's value after
  three chunks of the entry; the body leaves them at the value after four, which is what the entry's rows of the
  hand-over buffers hold at the end; the entry's part of the invariant passes to its handed-over form and what the
  device owes to what it owes after the entry's two copies; every other part is the same before and after.
-/
import proofs.«900428_g7700000000000429_dist_flashdec_v7x_xyz2x2x4_y_b4_sq32_skv4096_h8_d128_f32_1_alg».proof.Proof.BodyPlain
import proofs.«900428_g7700000000000429_dist_flashdec_v7x_xyz2x2x4_y_b4_sq32_skv4096_h8_d128_f32_1_alg».proof.Proof.BodyHand
import proofs.«900428_g7700000000000429_dist_flashdec_v7x_xyz2x2x4_y_b4_sq32_skv4096_h8_d128_f32_1_alg».proof.Proof.TraceFacts
import proofs.«900428_g7700000000000429_dist_flashdec_v7x_xyz2x2x4_y_b4_sq32_skv4096_h8_d128_f32_1_alg».proof.Proof.AccStep

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The body obligation at grid point 7: batch entry 1, its last chunk, then the hand-over of its accumulators. -/
theorem body_pt7 (c : Dev nD) : BodyGoal m c t0_7 := by
  unfold BodyGoal
  rw [bigSep_W0, bigSep_W0]
  have hi0 : cfg0.idle 0 (cfg0.grid.coords t0_7) = false := rfl
  have hi1 : cfg0.idle 1 (cfg0.grid.coords t0_7) = false := rfl
  have hi2 : cfg0.idle 2 (cfg0.grid.coords t0_7) = false := rfl
  have hi3 : idle0 3 (grid0.coords t0_7) = true := by decide +kernel
  have hf3 : (cfg0.win 3).flush t0_7 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_7 d = iblk m c 0 t0_7 := fun d => before_in0 m c t0_7 d
  have hb1 : ∀ d, (dats m 0 c).before 1 t0_7 d = iblk m c 1 t0_7 := fun d => before_in1 m c t0_7 d
  have hb2 : ∀ d, (dats m 0 c).before 2 t0_7 d = iblk m c 2 t0_7 := fun d => before_in2 m c t0_7 d
  have ha0 : (dats m 0 c).after 0 t0_7 = iblk m c 0 t0_7 := rfl
  have ha1 : (dats m 0 c).after 1 t0_7 = iblk m c 1 t0_7 := rfl
  have ha2 : (dats m 0 c).after 2 t0_7 = iblk m c 2 t0_7 := rfl
  have hs0 : ∀ X, (owns (Ix := Unit) (Name := ℕ) (U := UU) (Lvl := ℕ) (c : Thread nD τ) (stage0_0 (cfg0.slots t0_7 0)) fullShare X : sProp 𝕄)
      = pt' c (stage0_0 (cfg0.slots t0_7 0)) X := fun X => owns_whole (c : Thread nD τ) cc0_stg0_1 fullShare X
  have hs1 : ∀ X, (owns (Ix := Unit) (Name := ℕ) (U := UU) (Lvl := ℕ) (c : Thread nD τ) (stage0_1 (cfg0.slots t0_7 1)) fullShare X : sProp 𝕄)
      = pt' c (stage0_1 (cfg0.slots t0_7 1)) X := fun X => owns_whole (c : Thread nD τ) cc0_stg1_1 fullShare X
  have hs2 : ∀ X, (owns (Ix := Unit) (Name := ℕ) (U := UU) (Lvl := ℕ) (c : Thread nD τ) (stage0_2 (cfg0.slots t0_7 2)) fullShare X : sProp 𝕄)
      = pt' c (stage0_2 (cfg0.slots t0_7 2)) X := fun X => owns_whole (c : Thread nD τ) cc0_stg2_1 fullShare X
  have hs3 : ∀ X, (owns (Ix := Unit) (Name := ℕ) (U := UU) (Lvl := ℕ) (c : Thread nD τ) (stage0_3 (cfg0.slots t0_7 3)) fullShare X : sProp 𝕄)
      = pt' c (stage0_3 (cfg0.slots t0_7 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_7.castSucc = PhiMid m c 7 := rfl
  have hΦ1 : (dats m 0 c).Φ t0_7.succ = PhiMid m c 8 := rfl
  rw [hΦ0, hΦ1]
  show _ ⊢ wp frame (wpE (defs₀ (F := F)) 𝒱₀ c none) Set.univ (bodyAt0 (F := F) t0_7) _
  unfold PhiMid accPart
  iintro ⟨⟨%K', #Hrec, #Hlev, Hbar, He0, He1, He2, He3, %fo, %fm, %fl, %hacc, Ho, Hm, Hl⟩, ⟨%W, %hW, HO⟩, ⟨%d0, H0⟩, ⟨%d1, H1⟩, ⟨%d2, H2⟩, %d3, H3⟩
  have hch : Trace.chunk (iblk m c 0 t0_7) (iblk m c 1 t0_7) (iblk m c 2 t0_7) ⟨fo, fm, fl⟩ = Trace.accAt (XQ m c) (XK m c) (XV m c) (1 : Fin 4) 4 := by
    obtain ⟨h1, h2, h3⟩ := hacc (by decide)
    have e : t0_7 = pt (1 : Fin 4) (⟨3, by decide⟩ : Fin 4) := Fin.ext rfl
    have h := acc_step m c (1 : Fin 4) 3 (by decide)
    rw [← e] at h
    rw [h1, h2, h3]
    exact h.symm
  have hO : ∀ x : S1x32x8x128.Idx, OV m c (ValueIdx.ix4 (1 : Fin 4) (x 1) (x 2) (x 3)) = k0_pay5 (Trace.chunk (iblk m c 0 t0_7) (iblk m c 1 t0_7) (iblk m c 2 t0_7) ⟨fo, fm, fl⟩).o x :=
    fun x => by rw [hch]; exact OV_rows m c 1 x
  have hS0 : ∀ x : S1x1x8x32.Idx, SV m c (ValueIdx.ix4 (1 : Fin 4) (0 : Fin 2) (x 2) (x 3)) = k0_pay6 (Trace.chunk (iblk m c 0 t0_7) (iblk m c 1 t0_7) (iblk m c 2 t0_7) ⟨fo, fm, fl⟩).m x :=
    fun x => by rw [hch]; exact SV_row0 m c 1 x
  have hS1 : ∀ x : S1x1x8x32.Idx, SV m c (ValueIdx.ix4 (1 : Fin 4) (1 : Fin 2) (x 2) (x 3)) = k0_pay7 (Trace.chunk (iblk m c 0 t0_7) (iblk m c 1 t0_7) (iblk m c 2 t0_7) ⟨fo, fm, fl⟩).l x :=
    fun x => by rw [hch]; exact SV_row1 m c 1 x
  iapply (run_pt7 m c fo fm fl ((dats m 0 c).before 3 t0_7 d3) K' W _ hO hS0 hS1)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  isplitr; · iexact Hrec
  isplitr; · iexact Hlev
  isplitl [HO]; · iexact HO
  isplitl [He1]; · iexact He1
  iintro ⟨Ho, Hm, Hl, H0, H1, H2, H3, He1, %W', HO⟩
  isplitl [Hbar He0 He1 He2 He3 Ho Hm Hl]
  · iexists K'
    isplitr; · iexact Hrec
    isplitr; · iexact Hlev
    isplitl [Hbar]; · iexact Hbar
    isplitl [He0]; · iexact He0
    isplitl [He1]; · iexact He1
    isplitl [He2]; · iexact He2
    isplitl [He3]; · iexact He3
    iexists (Trace.chunk (iblk m c 0 t0_7) (iblk m c 1 t0_7) (iblk m c 2 t0_7) ⟨fo, fm, fl⟩).o, (Trace.chunk (iblk m c 0 t0_7) (iblk m c 1 t0_7) (iblk m c 2 t0_7) ⟨fo, fm, fl⟩).m, (Trace.chunk (iblk m c 0 t0_7) (iblk m c 1 t0_7) (iblk m c 2 t0_7) ⟨fo, fm, fl⟩).l
    isplitr [Ho Hm Hl]
    · ipureintro
      intro h
      exact absurd rfl h
    isplitl [Ho]; · iexact Ho
    isplitl [Hm]; · iexact Hm
    iexact Hl
  isplitl [HO]
  · iexists W'
    isplitr
    · ipureintro
      exact fun _ _ => Or.inl trivial
    iexact HO
  isplitl [H0]; · iexact H0
  isplitl [H1]; · iexact H1
  isplitl [H2]; · iexact H2
  iexists d3
  iexact H3

/-- The body obligation at grid point 11: batch entry 2, its last chunk, then the hand-over of its accumulators. -/
theorem body_pt11 (c : Dev nD) : BodyGoal m c t0_11 := by
  unfold BodyGoal
  rw [bigSep_W0, bigSep_W0]
  have hi0 : cfg0.idle 0 (cfg0.grid.coords t0_11) = false := rfl
  have hi1 : cfg0.idle 1 (cfg0.grid.coords t0_11) = false := rfl
  have hi2 : cfg0.idle 2 (cfg0.grid.coords t0_11) = false := rfl
  have hi3 : idle0 3 (grid0.coords t0_11) = true := by decide +kernel
  have hf3 : (cfg0.win 3).flush t0_11 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_11 d = iblk m c 0 t0_11 := fun d => before_in0 m c t0_11 d
  have hb1 : ∀ d, (dats m 0 c).before 1 t0_11 d = iblk m c 1 t0_11 := fun d => before_in1 m c t0_11 d
  have hb2 : ∀ d, (dats m 0 c).before 2 t0_11 d = iblk m c 2 t0_11 := fun d => before_in2 m c t0_11 d
  have ha0 : (dats m 0 c).after 0 t0_11 = iblk m c 0 t0_11 := rfl
  have ha1 : (dats m 0 c).after 1 t0_11 = iblk m c 1 t0_11 := rfl
  have ha2 : (dats m 0 c).after 2 t0_11 = iblk m c 2 t0_11 := rfl
  have hs0 : ∀ X, (owns (Ix := Unit) (Name := ℕ) (U := UU) (Lvl := ℕ) (c : Thread nD τ) (stage0_0 (cfg0.slots t0_11 0)) fullShare X : sProp 𝕄)
      = pt' c (stage0_0 (cfg0.slots t0_11 0)) X := fun X => owns_whole (c : Thread nD τ) cc0_stg0_0 fullShare X
  have hs1 : ∀ X, (owns (Ix := Unit) (Name := ℕ) (U := UU) (Lvl := ℕ) (c : Thread nD τ) (stage0_1 (cfg0.slots t0_11 1)) fullShare X : sProp 𝕄)
      = pt' c (stage0_1 (cfg0.slots t0_11 1)) X := fun X => owns_whole (c : Thread nD τ) cc0_stg1_1 fullShare X
  have hs2 : ∀ X, (owns (Ix := Unit) (Name := ℕ) (U := UU) (Lvl := ℕ) (c : Thread nD τ) (stage0_2 (cfg0.slots t0_11 2)) fullShare X : sProp 𝕄)
      = pt' c (stage0_2 (cfg0.slots t0_11 2)) X := fun X => owns_whole (c : Thread nD τ) cc0_stg2_1 fullShare X
  have hs3 : ∀ X, (owns (Ix := Unit) (Name := ℕ) (U := UU) (Lvl := ℕ) (c : Thread nD τ) (stage0_3 (cfg0.slots t0_11 3)) fullShare X : sProp 𝕄)
      = pt' c (stage0_3 (cfg0.slots t0_11 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_11.castSucc = PhiMid m c 11 := rfl
  have hΦ1 : (dats m 0 c).Φ t0_11.succ = PhiMid m c 12 := rfl
  rw [hΦ0, hΦ1]
  show _ ⊢ wp frame (wpE (defs₀ (F := F)) 𝒱₀ c none) Set.univ (bodyAt0 (F := F) t0_11) _
  unfold PhiMid accPart
  iintro ⟨⟨%K', #Hrec, #Hlev, Hbar, He0, He1, He2, He3, %fo, %fm, %fl, %hacc, Ho, Hm, Hl⟩, ⟨%W, %hW, HO⟩, ⟨%d0, H0⟩, ⟨%d1, H1⟩, ⟨%d2, H2⟩, %d3, H3⟩
  have hch : Trace.chunk (iblk m c 0 t0_11) (iblk m c 1 t0_11) (iblk m c 2 t0_11) ⟨fo, fm, fl⟩ = Trace.accAt (XQ m c) (XK m c) (XV m c) (2 : Fin 4) 4 := by
    obtain ⟨h1, h2, h3⟩ := hacc (by decide)
    have e : t0_11 = pt (2 : Fin 4) (⟨3, by decide⟩ : Fin 4) := Fin.ext rfl
    have h := acc_step m c (2 : Fin 4) 3 (by decide)
    rw [← e] at h
    rw [h1, h2, h3]
    exact h.symm
  have hO : ∀ x : S1x32x8x128.Idx, OV m c (ValueIdx.ix4 (2 : Fin 4) (x 1) (x 2) (x 3)) = k0_pay5 (Trace.chunk (iblk m c 0 t0_11) (iblk m c 1 t0_11) (iblk m c 2 t0_11) ⟨fo, fm, fl⟩).o x :=
    fun x => by rw [hch]; exact OV_rows m c 2 x
  have hS0 : ∀ x : S1x1x8x32.Idx, SV m c (ValueIdx.ix4 (2 : Fin 4) (0 : Fin 2) (x 2) (x 3)) = k0_pay6 (Trace.chunk (iblk m c 0 t0_11) (iblk m c 1 t0_11) (iblk m c 2 t0_11) ⟨fo, fm, fl⟩).m x :=
    fun x => by rw [hch]; exact SV_row0 m c 2 x
  have hS1 : ∀ x : S1x1x8x32.Idx, SV m c (ValueIdx.ix4 (2 : Fin 4) (1 : Fin 2) (x 2) (x 3)) = k0_pay7 (Trace.chunk (iblk m c 0 t0_11) (iblk m c 1 t0_11) (iblk m c 2 t0_11) ⟨fo, fm, fl⟩).l x :=
    fun x => by rw [hch]; exact SV_row1 m c 2 x
  iapply (run_pt11 m c fo fm fl ((dats m 0 c).before 3 t0_11 d3) K' W _ hO hS0 hS1)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  isplitr; · iexact Hrec
  isplitr; · iexact Hlev
  isplitl [HO]; · iexact HO
  isplitl [He2]; · iexact He2
  iintro ⟨Ho, Hm, Hl, H0, H1, H2, H3, He2, %W', HO⟩
  isplitl [Hbar He0 He1 He2 He3 Ho Hm Hl]
  · iexists K'
    isplitr; · iexact Hrec
    isplitr; · iexact Hlev
    isplitl [Hbar]; · iexact Hbar
    isplitl [He0]; · iexact He0
    isplitl [He1]; · iexact He1
    isplitl [He2]; · iexact He2
    isplitl [He3]; · iexact He3
    iexists (Trace.chunk (iblk m c 0 t0_11) (iblk m c 1 t0_11) (iblk m c 2 t0_11) ⟨fo, fm, fl⟩).o, (Trace.chunk (iblk m c 0 t0_11) (iblk m c 1 t0_11) (iblk m c 2 t0_11) ⟨fo, fm, fl⟩).m, (Trace.chunk (iblk m c 0 t0_11) (iblk m c 1 t0_11) (iblk m c 2 t0_11) ⟨fo, fm, fl⟩).l
    isplitr [Ho Hm Hl]
    · ipureintro
      intro h
      exact absurd rfl h
    isplitl [Ho]; · iexact Ho
    isplitl [Hm]; · iexact Hm
    iexact Hl
  isplitl [HO]
  · iexists W'
    isplitr
    · ipureintro
      exact fun _ _ => Or.inl trivial
    iexact HO
  isplitl [H0]; · iexact H0
  isplitl [H1]; · iexact H1
  isplitl [H2]; · iexact H2
  iexists d3
  iexact H3

/-- The body obligation at grid point 3: batch entry 0, its last chunk, then the barrier handshake and the hand-over
    of its accumulators. -/
theorem body_pt3 (c : Dev nD) : BodyGoal m c t0_3 := by
  unfold BodyGoal
  rw [bigSep_W0, bigSep_W0]
  have hi0 : cfg0.idle 0 (cfg0.grid.coords t0_3) = false := rfl
  have hi1 : cfg0.idle 1 (cfg0.grid.coords t0_3) = false := rfl
  have hi2 : cfg0.idle 2 (cfg0.grid.coords t0_3) = false := rfl
  have hi3 : idle0 3 (grid0.coords t0_3) = true := by decide +kernel
  have hf3 : (cfg0.win 3).flush t0_3 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_3 d = iblk m c 0 t0_3 := fun d => before_in0 m c t0_3 d
  have hb1 : ∀ d, (dats m 0 c).before 1 t0_3 d = iblk m c 1 t0_3 := fun d => before_in1 m c t0_3 d
  have hb2 : ∀ d, (dats m 0 c).before 2 t0_3 d = iblk m c 2 t0_3 := fun d => before_in2 m c t0_3 d
  have ha0 : (dats m 0 c).after 0 t0_3 = iblk m c 0 t0_3 := rfl
  have ha1 : (dats m 0 c).after 1 t0_3 = iblk m c 1 t0_3 := rfl
  have ha2 : (dats m 0 c).after 2 t0_3 = iblk m c 2 t0_3 := rfl
  have hs0 : ∀ X, (owns (Ix := Unit) (Name := ℕ) (U := UU) (Lvl := ℕ) (c : Thread nD τ) (stage0_0 (cfg0.slots t0_3 0)) fullShare X : sProp 𝕄)
      = pt' c (stage0_0 (cfg0.slots t0_3 0)) X := fun X => owns_whole (c : Thread nD τ) cc0_stg0_0 fullShare X
  have hs1 : ∀ X, (owns (Ix := Unit) (Name := ℕ) (U := UU) (Lvl := ℕ) (c : Thread nD τ) (stage0_1 (cfg0.slots t0_3 1)) fullShare X : sProp 𝕄)
      = pt' c (stage0_1 (cfg0.slots t0_3 1)) X := fun X => owns_whole (c : Thread nD τ) cc0_stg1_1 fullShare X
  have hs2 : ∀ X, (owns (Ix := Unit) (Name := ℕ) (U := UU) (Lvl := ℕ) (c : Thread nD τ) (stage0_2 (cfg0.slots t0_3 2)) fullShare X : sProp 𝕄)
      = pt' c (stage0_2 (cfg0.slots t0_3 2)) X := fun X => owns_whole (c : Thread nD τ) cc0_stg2_1 fullShare X
  have hs3 : ∀ X, (owns (Ix := Unit) (Name := ℕ) (U := UU) (Lvl := ℕ) (c : Thread nD τ) (stage0_3 (cfg0.slots t0_3 3)) fullShare X : sProp 𝕄)
      = pt' c (stage0_3 (cfg0.slots t0_3 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_3.castSucc = PhiMid m c 3 := rfl
  have hΦ1 : (dats m 0 c).Φ t0_3.succ = PhiMid m c 4 := rfl
  rw [hΦ0, hΦ1]
  show _ ⊢ wp frame (wpE (defs₀ (F := F)) 𝒱₀ c none) Set.univ (bodyAt0 (F := F) t0_3) _
  unfold PhiMid accPart
  iintro ⟨⟨%K', #Hrec, #Hlev, Hbar, He0, He1, He2, He3, %fo, %fm, %fl, %hacc, Ho, Hm, Hl⟩, ⟨%W, %hW, HO⟩, ⟨%d0, H0⟩, ⟨%d1, H1⟩, ⟨%d2, H2⟩, %d3, H3⟩
  have hch : Trace.chunk (iblk m c 0 t0_3) (iblk m c 1 t0_3) (iblk m c 2 t0_3) ⟨fo, fm, fl⟩ = Trace.accAt (XQ m c) (XK m c) (XV m c) (0 : Fin 4) 4 := by
    obtain ⟨h1, h2, h3⟩ := hacc (by decide)
    have e : t0_3 = pt (0 : Fin 4) (⟨3, by decide⟩ : Fin 4) := Fin.ext rfl
    have h := acc_step m c (0 : Fin 4) 3 (by decide)
    rw [← e] at h
    rw [h1, h2, h3]
    exact h.symm
  have hO : ∀ x : S1x32x8x128.Idx, OV m c (ValueIdx.ix4 (0 : Fin 4) (x 1) (x 2) (x 3)) = k0_pay5 (Trace.chunk (iblk m c 0 t0_3) (iblk m c 1 t0_3) (iblk m c 2 t0_3) ⟨fo, fm, fl⟩).o x :=
    fun x => by rw [hch]; exact OV_rows m c 0 x
  have hS0 : ∀ x : S1x1x8x32.Idx, SV m c (ValueIdx.ix4 (0 : Fin 4) (0 : Fin 2) (x 2) (x 3)) = k0_pay6 (Trace.chunk (iblk m c 0 t0_3) (iblk m c 1 t0_3) (iblk m c 2 t0_3) ⟨fo, fm, fl⟩).m x :=
    fun x => by rw [hch]; exact SV_row0 m c 0 x
  have hS1 : ∀ x : S1x1x8x32.Idx, SV m c (ValueIdx.ix4 (0 : Fin 4) (1 : Fin 2) (x 2) (x 3)) = k0_pay7 (Trace.chunk (iblk m c 0 t0_3) (iblk m c 1 t0_3) (iblk m c 2 t0_3) ⟨fo, fm, fl⟩).l x :=
    fun x => by rw [hch]; exact SV_row1 m c 0 x
  iapply (run_pt3 m c fo fm fl ((dats m 0 c).before 3 t0_3 d3) K' W _ hO hS0 hS1)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  isplitr; · iexact Hrec
  isplitr; · iexact Hlev
  isplitl [HO]; · iexact HO
  isplitl [Hbar]; · iexact Hbar
  isplitl [He0]; · iexact He0
  isplitl [He1]; · iexact He1
  isplitl [He2]; · iexact He2
  isplitl [He3]; · iexact He3
  iintro ⟨Ho, Hm, Hl, H0, H1, H2, H3, Hbar, He0, He1, He2, He3, %W', HO⟩
  isplitl [Hbar He0 He1 He2 He3 Ho Hm Hl]
  · iexists K'
    isplitr; · iexact Hrec
    isplitr; · iexact Hlev
    isplitl [Hbar]; · iexact Hbar
    isplitl [He0]; · iexact He0
    isplitl [He1]; · iexact He1
    isplitl [He2]; · iexact He2
    isplitl [He3]; · iexact He3
    iexists (Trace.chunk (iblk m c 0 t0_3) (iblk m c 1 t0_3) (iblk m c 2 t0_3) ⟨fo, fm, fl⟩).o, (Trace.chunk (iblk m c 0 t0_3) (iblk m c 1 t0_3) (iblk m c 2 t0_3) ⟨fo, fm, fl⟩).m, (Trace.chunk (iblk m c 0 t0_3) (iblk m c 1 t0_3) (iblk m c 2 t0_3) ⟨fo, fm, fl⟩).l
    isplitr [Ho Hm Hl]
    · ipureintro
      intro h
      exact absurd rfl h
    isplitl [Ho]; · iexact Ho
    isplitl [Hm]; · iexact Hm
    iexact Hl
  isplitl [HO]
  · iexists W'
    isplitr
    · ipureintro
      exact fun _ _ => Or.inl trivial
    iexact HO
  isplitl [H0]; · iexact H0
  isplitl [H1]; · iexact H1
  isplitl [H2]; · iexact H2
  iexists d3
  iexact H3

end Cert.KernelIdealProof
end

/-- info: 'Cert.KernelIdealProof.body_pt7' depends on axioms: [propext, Classical.choice, Quot.sound] -/
#guard_msgs in #print axioms Cert.KernelIdealProof.body_pt7

/-- info: 'Cert.KernelIdealProof.body_pt11' depends on axioms: [propext, Classical.choice, Quot.sound] -/
#guard_msgs in #print axioms Cert.KernelIdealProof.body_pt11

/-- info: 'Cert.KernelIdealProof.body_pt3' depends on axioms: [propext, Classical.choice, Quot.sound] -/
#guard_msgs in #print axioms Cert.KernelIdealProof.body_pt3
-- ==== Proof.FinalPart.lean ====
/-
  The last grid point's final part: a device that has handed over all four batch entries waits, for each batch
  entry in turn, on its output-send, output-receive, statistics-send and statistics-receive cells, which hand back
  its own rows and bring its partner's; with the four buffers whole again it loads both statistics rows of each
  statistics buffer and both output buffers, and returns their merge.
-/
import proofs.«900428_g7700000000000429_dist_flashdec_v7x_xyz2x2x4_y_b4_sq32_skv4096_h8_d128_f32_1_alg».proof.Proof.Data
import proofs.«900428_g7700000000000429_dist_flashdec_v7x_xyz2x2x4_y_b4_sq32_skv4096_h8_d128_f32_1_alg».proof.Proof.Slices

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ### One wait on a cell of the device's own, and the cell's closing -/

omit [FloatOps F] in
/-- Two views of one kind, space, shape and element type carry the same credit. -/
theorem dmaCredit_eq {sp : Space} {s : Shape} {e : EltTy} (v w : View sig .tc sp s e) : v.dmaCredit = w.dmaCredit := rfl

theorem expect_o (c : Dev nD) (k b : Fin 4) (hk : k.val < 2) : (Rd m).expect (famCell c k b) 0 = No := by
  rw [expect_fam, if_pos hk]

theorem expect_s (c : Dev nD) (k b : Fin 4) (hk : ¬ k.val < 2) : (Rd m).expect (famCell c k b) 0 = Ns := by
  rw [expect_fam, if_neg hk]

omit [FloatOps F] in
theorem owes_ex (c : Dev nD) (W : Waits sig Unit) :
    owes (c : Thread nD τ) 0 W ⊢ (iprop(∃ W', owes (c : Thread nD τ) 0 W') : sProp 𝕄) := by
  iintro H; iexists W; iexact H

/-- A wait on the cell of family k, batch entry b, for the amount N the cell expects: the credit, the position at
    round 0 and the cell's invariant go in; the cell's counter at zero and the rows P the landing hands over come
    out, the wait recorded among those the device has made. -/
theorem wait_fam (c : Dev nD) (κ : ℕ) (k b : Fin 4) (N : ℕ) (P : sProp 𝕄) {s : Shape} {α : Type}
    (src dst : Memref sig .tc .vmem s .f32) (hsrc : src.view.WordExact) (hdst : dst.view.WordExact)
    (hcred : dst.view.dmaCredit = N) (hexp : (Rd m).expect (famCell c k b) 0 = N)
    (hP : famPay (OV m) (SV m) c k b = P)
    (kont : PUnit → Prog (TpuEff nD τ sig (Elt F) Λ₀ .tc) α) (Q : α → sProp 𝕄) :
    iprop(cellInv ER (Rd m) κ (famCell c k b) ∗ cred (tallyAt (famCell c k b) () N)
        ∗ (∃ W, owes (c : Thread nD τ) 0 W) ∗ atPos ER (famCell c k b) 0 ∅ 0)
      ⊢ iprop((((∃ W, owes (c : Thread nD τ) 0 W) ∗ semVal (famCell c k b) 0 ∗ P)
            -∗ wp frame (wpE (defs₀ (F := F)) 𝒱₀ c none) Set.univ (kont ⟨⟩) Q)
          -∗ wp frame (wpE (defs₀ (F := F)) 𝒱₀ c none) Set.univ (.op (.waitDma2 (famSem k b) src dst hsrc hdst) kont) Q) := by
  subst hP
  iintro ⟨#HI, Hc, ⟨%W, HO⟩, Hat⟩ Hk
  iapply (Rounds.wp_wait_rest_token 𝒱₀ ER (Rd m) (c : Thread nD τ) none (κ := κ)
      (wpE_waitDma2_eq 𝒱₀ (c : Thread nD τ) none Set.univ) (Set.mem_univ _) () (O := 0) (W := W) (R := 0) (m := 0) (T := ∅)
      (by rw [Nat.zero_add, hcred, hexp])) $$ [Hc HO Hat]
  · isplitr; · iexact HI
    isplitl [Hc]; · rw [hcred]; iexact Hc
    isplitl [HO]; · iexact HO
    isplitr; · rw [MayWait_zero]; iempintro
    iexact Hat
  iintro ⟨HO, Hat, -, Hpay⟩
  ihave Hp := (Entails.of_eq (rest_fam (OV m) (SV m) c k b)) $$ Hpay
  imod (Rounds.cell_close ER (Rd m) (Set.mem_univ κ) (fun h => h) (R := 0 + 1) (duties_later (OV m) (SV m) (famCell c k b))) $$ [Hat] with Hz
  · isplitr; · iexact HI
    iexact Hat
  iapply Hk
  isplitl [HO]; · iexists _; iexact HO
  isplitl [Hz]; · iexact Hz
  iexact Hp

/-! ### The pieces the final part starts from -/

/-- After the last hand-over a batch entry's part is its four positions, two receive credits and two send credits. -/
theorem entPart_end (c : Dev nD) (b : Fin 4) :
    entPart (F := F) c 16 b
      = iprop(atPos ER (famCell c 0 b) 0 ∅ 0 ∗ atPos ER (famCell c 1 b) 0 ∅ 0 ∗ atPos ER (famCell c 2 b) 0 ∅ 0
          ∗ atPos ER (famCell c 3 b) 0 ∅ 0
          ∗ cred (tallyAt (famCell c 1 b) () No) ∗ cred (tallyAt (famCell c 3 b) () Ns)
          ∗ cred (tallyAt (famCell c 0 b) () No) ∗ cred (tallyAt (famCell c 2 b) () Ns)) := by
  unfold entPart
  rw [if_pos (by have := b.isLt; omega)]

/-- The invariant of the cell of family k, batch entry b, out of the records. -/
theorem records_cell (c : Dev nD) (K : Dev nD × Fin 17 → ℕ) (k b : Fin 4) :
    records m K ⊢ cellInv ER (Rd m) (K (c, fidx k b)) (famCell c k b) := by
  unfold records
  refine (BI.sep_and.trans BI.and_elimL).trans ?_
  have h := bigSep_elim (Finset.mem_univ (c, fidx k b))
    (Φ := fun ck : Dev nD × Fin 17 => cellInv ER (Rd m) (K ck) (kcell ck))
  rw [← kcell_fidx c k b]
  exact h

/-! ### The sixteen counters as one family; the loads' values -/

omit [FloatOps F] in
/-- A conjunction over sixteen indices, one by one. -/
theorem bigSep_16 {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
/-- The sixteen cells' counters, family by family and entry by entry, are the counters of the device's sixteen own
    semaphores. -/
theorem sems_join (c : Dev nD) :
    (iprop(semVal (famCell c 0 0) 0 ∗ semVal (famCell c 0 1) 0 ∗ semVal (famCell c 0 2) 0 ∗ semVal (famCell c 0 3) 0 ∗ semVal (famCell c 1 0) 0 ∗ semVal (famCell c 1 1) 0 ∗ semVal (famCell c 1 2) 0 ∗ semVal (famCell c 1 3) 0 ∗ semVal (famCell c 2 0) 0 ∗ semVal (famCell c 2 1) 0 ∗ semVal (famCell c 2 2) 0 ∗ semVal (famCell c 2 3) 0 ∗ semVal (famCell c 3 0) 0 ∗ semVal (famCell c 3 1) 0 ∗ semVal (famCell c 3 2) 0 ∗ semVal (famCell c 3 3) 0) : sProp 𝕄)
      ⊢ bigSep Finset.univ fun j : Fin 16 => semVal ((c : Thread nD τ), osem j) 0 := by
  rw [bigSep_16]
  have e0 : (osem (0 : Fin 16) : SemLoc sig) = SemLoc.dma (famSem 0 0) := by decide
  have e1 : (osem (1 : Fin 16) : SemLoc sig) = SemLoc.dma (famSem 0 1) := by decide
  have e2 : (osem (2 : Fin 16) : SemLoc sig) = SemLoc.dma (famSem 0 2) := by decide
  have e3 : (osem (3 : Fin 16) : SemLoc sig) = SemLoc.dma (famSem 0 3) := by decide
  have e4 : (osem (4 : Fin 16) : SemLoc sig) = SemLoc.dma (famSem 1 0) := by decide
  have e5 : (osem (5 : Fin 16) : SemLoc sig) = SemLoc.dma (famSem 1 1) := by decide
  have e6 : (osem (6 : Fin 16) : SemLoc sig) = SemLoc.dma (famSem 1 2) := by decide
  have e7 : (osem (7 : Fin 16) : SemLoc sig) = SemLoc.dma (famSem 1 3) := by decide
  have e8 : (osem (8 : Fin 16) : SemLoc sig) = SemLoc.dma (famSem 2 0) := by decide
  have e9 : (osem (9 : Fin 16) : SemLoc sig) = SemLoc.dma (famSem 2 1) := by decide
  have e10 : (osem (10 : Fin 16) : SemLoc sig) = SemLoc.dma (famSem 2 2) := by decide
  have e11 : (osem (11 : Fin 16) : SemLoc sig) = SemLoc.dma (famSem 2 3) := by decide
  have e12 : (osem (12 : Fin 16) : SemLoc sig) = SemLoc.dma (famSem 3 0) := by decide
  have e13 : (osem (13 : Fin 16) : SemLoc sig) = SemLoc.dma (famSem 3 1) := by decide
  have e14 : (osem (14 : Fin 16) : SemLoc sig) = SemLoc.dma (famSem 3 2) := by decide
  have e15 : (osem (15 : Fin 16) : SemLoc sig) = SemLoc.dma (famSem 3 3) := by decide
  simp only [e0, e1, e2, e3, e4, e5, e6, e7, e8, e9, e10, e11, e12, e13, e14, e15]
  iintro H; iexact H

omit [FloatOps F] in
/-- A unit-stride rectangle of sizes (4, 1, 8, 32) at offsets (0, r, 0, 0) places (j0, 0, j2, j3) at (j0, r, j2, j3). -/
theorem row_emb (r : ℕ) (hr : r < 2) (inb : ∀ a, (![0, r, 0, 0] : Fin 4 → ℕ) a + S4x1x8x32.size a ≤ S4x2x8x32.size a)
    (j : S4x1x8x32.Idx) :
    (Rect.unit (s := S4x2x8x32) ![0, r, 0, 0] S4x1x8x32.size inb).emb j = ValueIdx.ix4 (j 0) (⟨r, hr⟩ : Fin 2) (j 2) (j 3) :=
  funext fun a => Fin.ext (by
    have h1 : ((j 1 : Fin 1)).val = 0 := Nat.lt_one_iff.mp (j 1).isLt
    match a with
    | ⟨0, _⟩ => show 0 + 1 * (j 0).val = (j 0).val; omega
    | ⟨1, _⟩ => show r + 1 * ((j 1 : Fin 1)).val = r; omega
    | ⟨2, _⟩ => show 0 + 1 * (j 2).val = (j 2).val; omega
    | ⟨3, _⟩ => show 0 + 1 * (j 3).val = (j 3).val; omega)

omit [FloatOps F] in
theorem read_sB0 (S : STy F) : View.readAt (Elt F) sB.view (Rect.unit (s := S4x2x8x32) ![0, 0, 0, 0] S4x1x8x32.size inb_S4x2x8x32_S4x1x8x32_0_0_0_0).toLoadRect S = Trace.statRow S 0 :=
  funext fun j => congrArg S (row_emb 0 (by decide) _ j)
omit [FloatOps F] in
theorem read_sB1 (S : STy F) : View.readAt (Elt F) sB.view (Rect.unit (s := S4x2x8x32) ![0, 1, 0, 0] S4x1x8x32.size inb_S4x2x8x32_S4x1x8x32_0_1_0_0).toLoadRect S = Trace.statRow S 1 :=
  funext fun j => congrArg S (row_emb 1 (by decide) _ j)
omit [FloatOps F] in
theorem read_rsB0 (S : STy F) : View.readAt (Elt F) rsB.view (Rect.unit (s := S4x2x8x32) ![0, 0, 0, 0] S4x1x8x32.size inb_S4x2x8x32_S4x1x8x32_0_0_0_0).toLoadRect S = Trace.statRow S 0 :=
  funext fun j => congrArg S (row_emb 0 (by decide) _ j)
omit [FloatOps F] in
theorem read_rsB1 (S : STy F) : View.readAt (Elt F) rsB.view (Rect.unit (s := S4x2x8x32) ![0, 1, 0, 0] S4x1x8x32.size inb_S4x2x8x32_S4x1x8x32_0_1_0_0).toLoadRect S = Trace.statRow S 1 :=
  funext fun j => congrArg S (row_emb 1 (by decide) _ j)

omit [FloatOps F] in
theorem hz4_fin : (![0, 0, 0, 0] : Fin 4 → Nat) = fun _ => 0 := funext fun a => by fin_cases a <;> rfl
omit [FloatOps F] in
theorem read_oB (O : OTy F) : View.readAt (Elt F) oB.view (Rect.unit (s := S4x32x8x128) ![0, 0, 0, 0] S4x32x8x128.size inb_S4x32x8x128_S4x32x8x128_0_0_0_0).toLoadRect O = O :=
  Memref.readAt_unit_zero (Elt F) cc0_scratch3 hz4_fin _ O
omit [FloatOps F] in
theorem read_roB (O : OTy F) : View.readAt (Elt F) roB.view (Rect.unit (s := S4x32x8x128) ![0, 0, 0, 0] S4x32x8x128.size inb_S4x32x8x128_S4x32x8x128_0_0_0_0).toLoadRect O = O :=
  Memref.readAt_unit_zero (Elt F) cc0_scratch5 hz4_fin _ O

/-! ### The final part -/

theorem finalPart (c : Dev nD) (K : Dev nD × Fin 17 → ℕ) (W : Waits sig Unit) (i : grid0.Coords)
    (arg2 : Memref sig .tc .vmem S1x32x8x128 .f32) (harg2 : arg2.IsWhole)
    (arg3 : Memref sig .tc .vmem S1x1024x8x128 .f32) (harg3 : arg3.IsWhole)
    (arg4 : Memref sig .tc .vmem S1x1024x8x128 .f32) (harg4 : arg4.IsWhole)
    (arg5 : Memref sig .tc .vmem S4x32x8x128 .f32) (harg5 : arg5.IsWhole)
    (v2 v8 v9 : BitVec 32) (Kt : FVec F S4x32x8x128 .f32 → sProp 𝕄) :
    iprop(records m K ∗ owes (c : Thread nD τ) 0 W ∗ entPart c 16 0 ∗ entPart c 16 1 ∗ entPart c 16 2 ∗ entPart c 16 3
        ∗ (∀ v, iprop(⌜v = OUT m c⌝ ∗ whole c cc0_scratch3 (OV m c) ∗ whole c cc0_scratch4 (SV m c)
              ∗ whole c cc0_scratch5 (OV m (nbr c)) ∗ whole c cc0_scratch6 (SV m (nbr c))
              ∗ (bigSep Finset.univ fun j : Fin 16 => semVal ((c : Thread nD τ), osem j) 0)
              ∗ ∃ W', owes (c : Thread nD τ) 0 W') -∗ Kt v))
      ⊢ wp frame (wpE (defs₀ (F := F)) 𝒱₀ c none) Set.univ
          (k0_part8 i arg2 harg2 arg3 harg3 arg4 harg4 arg5 harg5 accO (Memref.isWhole_whole _) accM (Memref.isWhole_whole _)
            accL (Memref.isWhole_whole _) oB (Memref.isWhole_whole _) sB (Memref.isWhole_whole _) roB (Memref.isWhole_whole _)
            rsB (Memref.isWhole_whole _) cc0_scratch7 cc0_scratch8 cc0_scratch9 cc0_scratch10 v2 v8 v9) Kt := by
  simp only [entPart_end]
  rewrite [k0_part8_eq_skeleton]
  unfold k0_part8_skel
  rewrite [k0_part2_eq_skeleton, k0_part3_eq_skeleton, k0_part4_eq_skeleton, k0_part5_eq_skeleton, k0_part6_eq_skeleton,
    k0_part7_eq_skeleton]
  unfold k0_part2_skel k0_part3_skel k0_part4_skel k0_part5_skel k0_part6_skel k0_part7_skel
  simp only [Prog.lift, Prog.bind_op, Prog.bind_ret, Prog.pure_eq_ret]
  iintro ⟨#HR, HO, E0, E1, E2, E3, Hk⟩
  icases E0 with ⟨A00, A10, A20, A30, C10, C30, C00, C20⟩
  icases E1 with ⟨A01, A11, A21, A31, C11, C31, C01, C21⟩
  icases E2 with ⟨A02, A12, A22, A32, C12, C32, C02, C22⟩
  icases E3 with ⟨A03, A13, A23, A33, C13, C33, C03, C23⟩
  ihave HO := (owes_ex c W) $$ HO
  -- family 0, batch entry 0
  ihave #I00 := (records_cell m c K 0 0) $$ HR
  have hc00 : (oSl oB 0).view.dmaCredit = No := dmaCredit_eq _ _
  have he00 := expect_o m c 0 0 (by decide)
  have hw00 := wait_fam m c (K (c, fidx 0 0)) 0 0 No (obPts c 0 (OV m c)) (α := FVec F S4x32x8x128 .f32) (oSl roB 0) (oSl oB 0)
    ((View.wordExact_bits rfl).reshape _ _) ((View.wordExact_bits rfl).reshape _ _) hc00 he00 rfl
  iapply (hw00 _ Kt) $$ [C00 HO A00]
  · isplitr; · iexact I00
    isplitl [C00]; · iexact C00
    isplitl [HO]; · iexact HO
    iexact A00
  iintro ⟨HO, Z00, P00⟩
  -- family 1, batch entry 0
  ihave #I10 := (records_cell m c K 1 0) $$ HR
  have hc10 : (oSl roB 0).view.dmaCredit = No := dmaCredit_eq _ _
  have he10 := expect_o m c 1 0 (by decide)
  have hw10 := wait_fam m c (K (c, fidx 1 0)) 1 0 No (robPts c 0 (OV m (nbr c))) (α := FVec F S4x32x8x128 .f32) (oSl oB 0) (oSl roB 0)
    ((View.wordExact_bits rfl).reshape _ _) ((View.wordExact_bits rfl).reshape _ _) hc10 he10 rfl
  iapply (hw10 _ Kt) $$ [C10 HO A10]
  · isplitr; · iexact I10
    isplitl [C10]; · iexact C10
    isplitl [HO]; · iexact HO
    iexact A10
  iintro ⟨HO, Z10, P10⟩
  -- family 2, batch entry 0
  ihave #I20 := (records_cell m c K 2 0) $$ HR
  have hc20 : (sSl sB 0).view.dmaCredit = Ns := dmaCredit_eq _ _
  have he20 := expect_s m c 2 0 (by decide)
  have hw20 := wait_fam m c (K (c, fidx 2 0)) 2 0 Ns (sbPts c 0 (SV m c)) (α := FVec F S4x32x8x128 .f32) (sSl rsB 0) (sSl sB 0)
    ((View.wordExact_bits rfl).reshape _ _) ((View.wordExact_bits rfl).reshape _ _) hc20 he20 rfl
  iapply (hw20 _ Kt) $$ [C20 HO A20]
  · isplitr; · iexact I20
    isplitl [C20]; · iexact C20
    isplitl [HO]; · iexact HO
    iexact A20
  iintro ⟨HO, Z20, P20⟩
  -- family 3, batch entry 0
  ihave #I30 := (records_cell m c K 3 0) $$ HR
  have hc30 : (sSl rsB 0).view.dmaCredit = Ns := dmaCredit_eq _ _
  have he30 := expect_s m c 3 0 (by decide)
  have hw30 := wait_fam m c (K (c, fidx 3 0)) 3 0 Ns (rsbPts c 0 (SV m (nbr c))) (α := FVec F S4x32x8x128 .f32) (sSl sB 0) (sSl rsB 0)
    ((View.wordExact_bits rfl).reshape _ _) ((View.wordExact_bits rfl).reshape _ _) hc30 he30 rfl
  iapply (hw30 _ Kt) $$ [C30 HO A30]
  · isplitr; · iexact I30
    isplitl [C30]; · iexact C30
    isplitl [HO]; · iexact HO
    iexact A30
  iintro ⟨HO, Z30, P30⟩
  -- family 0, batch entry 1
  ihave #I01 := (records_cell m c K 0 1) $$ HR
  have hc01 : (oSl oB 1).view.dmaCredit = No := dmaCredit_eq _ _
  have he01 := expect_o m c 0 1 (by decide)
  have hw01 := wait_fam m c (K (c, fidx 0 1)) 0 1 No (obPts c 1 (OV m c)) (α := FVec F S4x32x8x128 .f32) (oSl roB 1) (oSl oB 1)
    ((View.wordExact_bits rfl).reshape _ _) ((View.wordExact_bits rfl).reshape _ _) hc01 he01 rfl
  iapply (hw01 _ Kt) $$ [C01 HO A01]
  · isplitr; · iexact I01
    isplitl [C01]; · iexact C01
    isplitl [HO]; · iexact HO
    iexact A01
  iintro ⟨HO, Z01, P01⟩
  -- family 1, batch entry 1
  ihave #I11 := (records_cell m c K 1 1) $$ HR
  have hc11 : (oSl roB 1).view.dmaCredit = No := dmaCredit_eq _ _
  have he11 := expect_o m c 1 1 (by decide)
  have hw11 := wait_fam m c (K (c, fidx 1 1)) 1 1 No (robPts c 1 (OV m (nbr c))) (α := FVec F S4x32x8x128 .f32) (oSl oB 1) (oSl roB 1)
    ((View.wordExact_bits rfl).reshape _ _) ((View.wordExact_bits rfl).reshape _ _) hc11 he11 rfl
  iapply (hw11 _ Kt) $$ [C11 HO A11]
  · isplitr; · iexact I11
    isplitl [C11]; · iexact C11
    isplitl [HO]; · iexact HO
    iexact A11
  iintro ⟨HO, Z11, P11⟩
  -- family 2, batch entry 1
  ihave #I21 := (records_cell m c K 2 1) $$ HR
  have hc21 : (sSl sB 1).view.dmaCredit = Ns := dmaCredit_eq _ _
  have he21 := expect_s m c 2 1 (by decide)
  have hw21 := wait_fam m c (K (c, fidx 2 1)) 2 1 Ns (sbPts c 1 (SV m c)) (α := FVec F S4x32x8x128 .f32) (sSl rsB 1) (sSl sB 1)
    ((View.wordExact_bits rfl).reshape _ _) ((View.wordExact_bits rfl).reshape _ _) hc21 he21 rfl
  iapply (hw21 _ Kt) $$ [C21 HO A21]
  · isplitr; · iexact I21
    isplitl [C21]; · iexact C21
    isplitl [HO]; · iexact HO
    iexact A21
  iintro ⟨HO, Z21, P21⟩
  -- family 3, batch entry 1
  ihave #I31 := (records_cell m c K 3 1) $$ HR
  have hc31 : (sSl rsB 1).view.dmaCredit = Ns := dmaCredit_eq _ _
  have he31 := expect_s m c 3 1 (by decide)
  have hw31 := wait_fam m c (K (c, fidx 3 1)) 3 1 Ns (rsbPts c 1 (SV m (nbr c))) (α := FVec F S4x32x8x128 .f32) (sSl sB 1) (sSl rsB 1)
    ((View.wordExact_bits rfl).reshape _ _) ((View.wordExact_bits rfl).reshape _ _) hc31 he31 rfl
  iapply (hw31 _ Kt) $$ [C31 HO A31]
  · isplitr; · iexact I31
    isplitl [C31]; · iexact C31
    isplitl [HO]; · iexact HO
    iexact A31
  iintro ⟨HO, Z31, P31⟩
  -- family 0, batch entry 2
  ihave #I02 := (records_cell m c K 0 2) $$ HR
  have hc02 : (oSl oB 2).view.dmaCredit = No := dmaCredit_eq _ _
  have he02 := expect_o m c 0 2 (by decide)
  have hw02 := wait_fam m c (K (c, fidx 0 2)) 0 2 No (obPts c 2 (OV m c)) (α := FVec F S4x32x8x128 .f32) (oSl roB 2) (oSl oB 2)
    ((View.wordExact_bits rfl).reshape _ _) ((View.wordExact_bits rfl).reshape _ _) hc02 he02 rfl
  iapply (hw02 _ Kt) $$ [C02 HO A02]
  · isplitr; · iexact I02
    isplitl [C02]; · iexact C02
    isplitl [HO]; · iexact HO
    iexact A02
  iintro ⟨HO, Z02, P02⟩
  -- family 1, batch entry 2
  ihave #I12 := (records_cell m c K 1 2) $$ HR
  have hc12 : (oSl roB 2).view.dmaCredit = No := dmaCredit_eq _ _
  have he12 := expect_o m c 1 2 (by decide)
  have hw12 := wait_fam m c (K (c, fidx 1 2)) 1 2 No (robPts c 2 (OV m (nbr c))) (α := FVec F S4x32x8x128 .f32) (oSl oB 2) (oSl roB 2)
    ((View.wordExact_bits rfl).reshape _ _) ((View.wordExact_bits rfl).reshape _ _) hc12 he12 rfl
  iapply (hw12 _ Kt) $$ [C12 HO A12]
  · isplitr; · iexact I12
    isplitl [C12]; · iexact C12
    isplitl [HO]; · iexact HO
    iexact A12
  iintro ⟨HO, Z12, P12⟩
  -- family 2, batch entry 2
  ihave #I22 := (records_cell m c K 2 2) $$ HR
  have hc22 : (sSl sB 2).view.dmaCredit = Ns := dmaCredit_eq _ _
  have he22 := expect_s m c 2 2 (by decide)
  have hw22 := wait_fam m c (K (c, fidx 2 2)) 2 2 Ns (sbPts c 2 (SV m c)) (α := FVec F S4x32x8x128 .f32) (sSl rsB 2) (sSl sB 2)
    ((View.wordExact_bits rfl).reshape _ _) ((View.wordExact_bits rfl).reshape _ _) hc22 he22 rfl
  iapply (hw22 _ Kt) $$ [C22 HO A22]
  · isplitr; · iexact I22
    isplitl [C22]; · iexact C22
    isplitl [HO]; · iexact HO
    iexact A22
  iintro ⟨HO, Z22, P22⟩
  -- family 3, batch entry 2
  ihave #I32 := (records_cell m c K 3 2) $$ HR
  have hc32 : (sSl rsB 2).view.dmaCredit = Ns := dmaCredit_eq _ _
  have he32 := expect_s m c 3 2 (by decide)
  have hw32 := wait_fam m c (K (c, fidx 3 2)) 3 2 Ns (rsbPts c 2 (SV m (nbr c))) (α := FVec F S4x32x8x128 .f32) (sSl sB 2) (sSl rsB 2)
    ((View.wordExact_bits rfl).reshape _ _) ((View.wordExact_bits rfl).reshape _ _) hc32 he32 rfl
  iapply (hw32 _ Kt) $$ [C32 HO A32]
  · isplitr; · iexact I32
    isplitl [C32]; · iexact C32
    isplitl [HO]; · iexact HO
    iexact A32
  iintro ⟨HO, Z32, P32⟩
  -- family 0, batch entry 3
  ihave #I03 := (records_cell m c K 0 3) $$ HR
  have hc03 : (oSl oB 3).view.dmaCredit = No := dmaCredit_eq _ _
  have he03 := expect_o m c 0 3 (by decide)
  have hw03 := wait_fam m c (K (c, fidx 0 3)) 0 3 No (obPts c 3 (OV m c)) (α := FVec F S4x32x8x128 .f32) (oSl roB 3) (oSl oB 3)
    ((View.wordExact_bits rfl).reshape _ _) ((View.wordExact_bits rfl).reshape _ _) hc03 he03 rfl
  iapply (hw03 _ Kt) $$ [C03 HO A03]
  · isplitr; · iexact I03
    isplitl [C03]; · iexact C03
    isplitl [HO]; · iexact HO
    iexact A03
  iintro ⟨HO, Z03, P03⟩
  -- family 1, batch entry 3
  ihave #I13 := (records_cell m c K 1 3) $$ HR
  have hc13 : (oSl roB 3).view.dmaCredit = No := dmaCredit_eq _ _
  have he13 := expect_o m c 1 3 (by decide)
  have hw13 := wait_fam m c (K (c, fidx 1 3)) 1 3 No (robPts c 3 (OV m (nbr c))) (α := FVec F S4x32x8x128 .f32) (oSl oB 3) (oSl roB 3)
    ((View.wordExact_bits rfl).reshape _ _) ((View.wordExact_bits rfl).reshape _ _) hc13 he13 rfl
  iapply (hw13 _ Kt) $$ [C13 HO A13]
  · isplitr; · iexact I13
    isplitl [C13]; · iexact C13
    isplitl [HO]; · iexact HO
    iexact A13
  iintro ⟨HO, Z13, P13⟩
  -- family 2, batch entry 3
  ihave #I23 := (records_cell m c K 2 3) $$ HR
  have hc23 : (sSl sB 3).view.dmaCredit = Ns := dmaCredit_eq _ _
  have he23 := expect_s m c 2 3 (by decide)
  have hw23 := wait_fam m c (K (c, fidx 2 3)) 2 3 Ns (sbPts c 3 (SV m c)) (α := FVec F S4x32x8x128 .f32) (sSl rsB 3) (sSl sB 3)
    ((View.wordExact_bits rfl).reshape _ _) ((View.wordExact_bits rfl).reshape _ _) hc23 he23 rfl
  iapply (hw23 _ Kt) $$ [C23 HO A23]
  · isplitr; · iexact I23
    isplitl [C23]; · iexact C23
    isplitl [HO]; · iexact HO
    iexact A23
  iintro ⟨HO, Z23, P23⟩
  -- family 3, batch entry 3
  ihave #I33 := (records_cell m c K 3 3) $$ HR
  have hc33 : (sSl rsB 3).view.dmaCredit = Ns := dmaCredit_eq _ _
  have he33 := expect_s m c 3 3 (by decide)
  have hw33 := wait_fam m c (K (c, fidx 3 3)) 3 3 Ns (rsbPts c 3 (SV m (nbr c))) (α := FVec F S4x32x8x128 .f32) (sSl sB 3) (sSl rsB 3)
    ((View.wordExact_bits rfl).reshape _ _) ((View.wordExact_bits rfl).reshape _ _) hc33 he33 rfl
  iapply (hw33 _ Kt) $$ [C33 HO A33]
  · isplitr; · iexact I33
    isplitl [C33]; · iexact C33
    isplitl [HO]; · iexact HO
    iexact A33
  iintro ⟨HO, Z33, P33⟩
  -- the four buffers whole again
  ihave HOB := ((ob_split c (OV m c)).2) $$ [P00 P01 P02 P03]
  · isplitl [P00]; · iexact P00
    isplitl [P01]; · iexact P01
    isplitl [P02]; · iexact P02
    iexact P03
  ihave HROB := ((rob_split c (OV m (nbr c))).2) $$ [P10 P11 P12 P13]
  · isplitl [P10]; · iexact P10
    isplitl [P11]; · iexact P11
    isplitl [P12]; · iexact P12
    iexact P13
  ihave HSB := ((sb_split c (SV m c)).2) $$ [P20 P21 P22 P23]
  · isplitl [P20]; · iexact P20
    isplitl [P21]; · iexact P21
    isplitl [P22]; · iexact P22
    iexact P23
  ihave HRSB := ((rsb_split c (SV m (nbr c))).2) $$ [P30 P31 P32 P33]
  · isplitl [P30]; · iexact P30
    isplitl [P31]; · iexact P31
    isplitl [P32]; · iexact P32
    iexact P33
  -- the six loads
  iapply (wp_load 𝒱₀ (c : Thread nD τ) none Set.univ (m := sB) (S := Finset.univ) (q := fullShare) (f := SV m c) (Finset.subset_univ _)) $$ [HSB]
  · iexact HSB
  iintro HSB
  iapply (wp_load 𝒱₀ (c : Thread nD τ) none Set.univ (m := sB) (S := Finset.univ) (q := fullShare) (f := SV m c) (Finset.subset_univ _)) $$ [HSB]
  · iexact HSB
  iintro HSB
  iapply (wp_load 𝒱₀ (c : Thread nD τ) none Set.univ (m := rsB) (S := Finset.univ) (q := fullShare) (f := SV m (nbr c)) (Finset.subset_univ _)) $$ [HRSB]
  · iexact HRSB
  iintro HRSB
  iapply (wp_load 𝒱₀ (c : Thread nD τ) none Set.univ (m := rsB) (S := Finset.univ) (q := fullShare) (f := SV m (nbr c)) (Finset.subset_univ _)) $$ [HRSB]
  · iexact HRSB
  iintro HRSB
  iapply (wp_load 𝒱₀ (c : Thread nD τ) none Set.univ (m := oB) (S := Finset.univ) (q := fullShare) (f := OV m c) (Finset.subset_univ _)) $$ [HOB]
  · iexact HOB
  iintro HOB
  iapply (wp_load 𝒱₀ (c : Thread nD τ) none Set.univ (m := roB) (S := Finset.univ) (q := fullShare) (f := OV m (nbr c)) (Finset.subset_univ _)) $$ [HROB]
  · iexact HROB
  iintro HROB
  rewrite [wp_ret]
  imodintro
  iapply Hk
  isplitr
  · ipureintro
    unfold OUT Trace.merged
    rw [read_sB0, read_sB1, read_rsB0, read_rsB1, read_oB, read_roB]
  isplitl [HOB]; · iexact HOB
  isplitl [HSB]; · iexact HSB
  isplitl [HROB]; · iexact HROB
  isplitl [HRSB]; · iexact HRSB
  isplitr [HO]
  · iapply (sems_join c)
    isplitl [Z00]; · iexact Z00
    isplitl [Z01]; · iexact Z01
    isplitl [Z02]; · iexact Z02
    isplitl [Z03]; · iexact Z03
    isplitl [Z10]; · iexact Z10
    isplitl [Z11]; · iexact Z11
    isplitl [Z12]; · iexact Z12
    isplitl [Z13]; · iexact Z13
    isplitl [Z20]; · iexact Z20
    isplitl [Z21]; · iexact Z21
    isplitl [Z22]; · iexact Z22
    isplitl [Z23]; · iexact Z23
    isplitl [Z30]; · iexact Z30
    isplitl [Z31]; · iexact Z31
    isplitl [Z32]; · iexact Z32
    iexact Z33
  iexact HO

/-- info: 'Cert.KernelIdealProof.finalPart' depends on axioms: [propext, Classical.choice, Quot.sound] -/
#guard_msgs in #print axioms finalPart

end Cert.KernelIdealProof

end
-- ==== Proof.BodyLast.lean ====
/-
  The last grid point: batch entry 3, chunk 3.

  The body takes the chunk step of the accumulators, which then hold the fourth chunk's values of batch entry 3;
  stores that entry's numerator rows into the output buffer and its two statistics rows into the statistics buffer,
  which thereby hold the device's final contents on that entry's rows; copies those rows to its partner's receive
  buffers, paying the last two units it owes; then waits on all sixteen cells of its own, merges its own and its
  partner's buffers and stores the merge into the output window's staging buffer. What is left is the invariant
  after the last point: the four hand-over buffers whole at their final contents, the sixteen counters at zero,
  nothing owed.
-/
import proofs.«900428_g7700000000000429_dist_flashdec_v7x_xyz2x2x4_y_b4_sq32_skv4096_h8_d128_f32_1_alg».proof.Proof.BodyGoal
import proofs.«900428_g7700000000000429_dist_flashdec_v7x_xyz2x2x4_y_b4_sq32_skv4096_h8_d128_f32_1_alg».proof.Proof.BodyRuns
import proofs.«900428_g7700000000000429_dist_flashdec_v7x_xyz2x2x4_y_b4_sq32_skv4096_h8_d128_f32_1_alg».proof.Proof.RemoteRules
import proofs.«900428_g7700000000000429_dist_flashdec_v7x_xyz2x2x4_y_b4_sq32_skv4096_h8_d128_f32_1_alg».proof.Proof.FinalPart
import proofs.«900428_g7700000000000429_dist_flashdec_v7x_xyz2x2x4_y_b4_sq32_skv4096_h8_d128_f32_1_alg».proof.Proof.AccStep
import proofs.«900428_g7700000000000429_dist_flashdec_v7x_xyz2x2x4_y_b4_sq32_skv4096_h8_d128_f32_1_alg».proof.Proof.Slices
import proofs.«900428_g7700000000000429_dist_flashdec_v7x_xyz2x2x4_y_b4_sq32_skv4096_h8_d128_f32_1_alg».proof.Proof.Launch
import proofs.«900428_g7700000000000429_dist_flashdec_v7x_xyz2x2x4_y_b4_sq32_skv4096_h8_d128_f32_1_alg».proof.Proof.TraceFacts
import proofs.«900428_g7700000000000429_dist_flashdec_v7x_xyz2x2x4_y_b4_sq32_skv4096_h8_d128_f32_1_alg».proof.Proof.BodyPlain
import Idealize.ShloMosaic.Lib.Pipeline.Value
import Idealize.ShloMosaic.Lib.Pipeline.FrameBody

noncomputable section

namespace Cert.KernelIdealProof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A returned value bound to a continuation is the continuation at the value. -/
theorem ret_bind_last {E : Type → Type} {α β : Type} (a : α) (k : α → Prog E β) : (Prog.ret a).bind k = k a := rfl

/-- Before the last grid point batch entry 3 is not handed over yet: its part holds its rows of the two hand-over
    buffers, the four duty tokens of its two copies and its rows of the partner's receive buffers. -/
theorem entPart_15_3 (c : Dev nD) :
    entPart (F := F) c 15 3
      = iprop(atPos ER (famCell c 0 3) 0 ∅ 0 ∗ atPos ER (famCell c 1 3) 0 ∅ 0 ∗ atPos ER (famCell c 2 3) 0 ∅ 0
          ∗ atPos ER (famCell c 3 3) 0 ∅ 0
          ∗ cred (tallyAt (famCell c 1 3) () No) ∗ cred (tallyAt (famCell c 3 3) () Ns)
          ∗ (∃ f, obPts c 3 f) ∗ (∃ f, sbPts c 3 f)
          ∗ dutyTok ER (famCell c 0 3) 0 () ∗ dutyTok ER (famCell (nbr c) 1 3) 0 () ∗ dutyTok ER (famCell c 2 3) 0 ()
          ∗ dutyTok ER (famCell (nbr c) 3 3) 0 ()
          ∗ (∃ f, robPts (nbr c) 3 f) ∗ (∃ f, rsbPts (nbr c) 3 f)) := by
  unfold entPart
  rw [if_neg (by decide), if_pos (by decide)]

/-- A batch entry handed over before the last grid point has the same part before and after it. -/
theorem entPart_15_16 (c : Dev nD) (b : Fin 4) (hb : b.val < 3) : entPart (F := F) c 15 b = entPart c 16 b := by
  unfold entPart
  rw [if_pos (by omega), if_pos (by omega)]

set_option maxHeartbeats 4000000 in
theorem run_pt15 (c : Dev nD) (fo : Bf (F := F) c accO) (fm : Bf (F := F) c accM) (fl : Bf (F := F) c accL)
    (x3 : Bf (F := F) c (stage0_3 (cfg0.slots t0_15 3))) (K' : Dev nD × Fin 17 → ℕ) (W : Waits sig Unit) (Q : PUnit → sProp 𝕄)
    (hO : ∀ x : S1x32x8x128.Idx, OV m c (ValueIdx.ix4 (3 : Fin 4) (x 1) (x 2) (x 3)) = k0_pay5 (Trace.chunk (iblk m c 0 t0_15) (iblk m c 1 t0_15) (iblk m c 2 t0_15) ⟨fo, fm, fl⟩).o x)
    (hS0 : ∀ x : S1x1x8x32.Idx, SV m c (ValueIdx.ix4 (3 : Fin 4) (0 : Fin 2) (x 2) (x 3)) = k0_pay6 (Trace.chunk (iblk m c 0 t0_15) (iblk m c 1 t0_15) (iblk m c 2 t0_15) ⟨fo, fm, fl⟩).m x)
    (hS1 : ∀ x : S1x1x8x32.Idx, SV m c (ValueIdx.ix4 (3 : Fin 4) (1 : Fin 2) (x 2) (x 3)) = k0_pay7 (Trace.chunk (iblk m c 0 t0_15) (iblk m c 1 t0_15) (iblk m c 2 t0_15) ⟨fo, fm, fl⟩).l x) :
    iprop(pt' c accO fo ∗ pt' c accM fm ∗ pt' c accL fl ∗ pt' c (stage0_0 (cfg0.slots t0_15 0)) (iblk m c 0 t0_15) ∗ pt' c (stage0_1 (cfg0.slots t0_15 1)) (iblk m c 1 t0_15)
        ∗ pt' c (stage0_2 (cfg0.slots t0_15 2)) (iblk m c 2 t0_15) ∗ pt' c (stage0_3 (cfg0.slots t0_15 3)) x3
        ∗ records m K' ∗ owes (c : Thread nD τ) (owedFrom c (evDone 15)) W
        ∗ entPart c 15 0 ∗ entPart c 15 1 ∗ entPart c 15 2 ∗ entPart c 15 3
        ∗ (iprop((∃ f, pt' c accO f) ∗ (∃ f, pt' c accM f) ∗ (∃ f, pt' c accL f)
            ∗ pt' c (stage0_0 (cfg0.slots t0_15 0)) (iblk m c 0 t0_15) ∗ pt' c (stage0_1 (cfg0.slots t0_15 1)) (iblk m c 1 t0_15)
            ∗ pt' c (stage0_2 (cfg0.slots t0_15 2)) (iblk m c 2 t0_15) ∗ pt' c (stage0_3 (cfg0.slots t0_15 3)) (OUT m c)
            ∗ whole c cc0_scratch3 (OV m c) ∗ whole c cc0_scratch4 (SV m c) ∗ whole c cc0_scratch5 (OV m (nbr c)) ∗ whole c cc0_scratch6 (SV m (nbr c))
            ∗ (bigSep Finset.univ fun j : Fin 16 => semVal ((c : Thread nD τ), osem j) 0)
            ∗ ∃ W', owes (c : Thread nD τ) 0 W') -∗ Q ⟨⟩))
      ⊢ wp frame (wpE (defs₀ (F := F)) 𝒱₀ c none) Set.univ (bodyAt0 (F := F) t0_15) Q := by
  iintro ⟨Ho, Hm, Hl, H0, H1, H2, H3, #HR, HO, HE0, HE1, HE2, HE, Hk⟩
  ihave HE := (Entails.of_eq (entPart_15_3 (F := F) c)) $$ HE
  icases HE with ⟨A0, A1, A2, A3, C1, C3, ⟨%fob, Hob⟩, ⟨%fsb, Hsb⟩, T0, T1, T2, T3, ⟨%frob, Hrob⟩, ⟨%frsb, Hrsb⟩⟩
  unfold bodyAt0
  sl_exec
  have hb : ((grid0.coords t0_15) 0).val = 3 := by decide
  have h2 : k0_cond2 (grid0.coords t0_15) = 1#1 := by decide
  ihave Hob' := (Entails.of_eq (show (obPts c 3 fob : sProp 𝕄) = slPts c (oSl oB 3) fob from rfl)) $$ Hob
  iapply (wp_load_rect 𝒱₀ (c : Thread nD τ) none Set.univ (m := oB) (r := (Rect.unit (s := S4x32x8x128) (k0_off1 (grid0.coords t0_15)) S1x32x8x128.size (k0_off1_inb (grid0.coords t0_15) h2))) (S := (oSl oB 3).view.set) (f := fob) (store_o_sub3 (grid0.coords t0_15) h2 hb)) $$ Hob'
  iintro Hob'
  iapply (wp_store 𝒱₀ (c : Thread nD τ) none Set.univ (m := oB) (r := (Rect.unit (s := S4x32x8x128) (k0_off1 (grid0.coords t0_15)) S1x32x8x128.size (k0_off1_inb (grid0.coords t0_15) h2))) (Mk := Finset.univ) (S := (oSl oB 3).view.set) (f := fob) (store_o_sub3 (grid0.coords t0_15) h2 hb)) $$ Hob'
  iintro Hob'
  rw [ret_bind_last]
  sl_exec
  ihave Hsb' := (Entails.of_eq (show (sbPts c 3 fsb : sProp 𝕄) = slPts c (sSl sB 3) fsb from rfl)) $$ Hsb
  iapply (wp_load_rect 𝒱₀ (c : Thread nD τ) none Set.univ (m := sB) (r := (Rect.unit (s := S4x2x8x32) (k0_off2 (grid0.coords t0_15)) S1x1x8x32.size (k0_off2_inb (grid0.coords t0_15) h2))) (S := (sSl sB 3).view.set) (f := fsb) (store_s0_sub3 (grid0.coords t0_15) h2 hb)) $$ Hsb'
  iintro Hsb'
  iapply (wp_store 𝒱₀ (c : Thread nD τ) none Set.univ (m := sB) (r := (Rect.unit (s := S4x2x8x32) (k0_off2 (grid0.coords t0_15)) S1x1x8x32.size (k0_off2_inb (grid0.coords t0_15) h2))) (Mk := Finset.univ) (S := (sSl sB 3).view.set) (f := fsb) (store_s0_sub3 (grid0.coords t0_15) h2 hb)) $$ Hsb'
  iintro Hsb'
  rw [ret_bind_last]
  sl_exec
  iapply (wp_load_rect 𝒱₀ (c : Thread nD τ) none Set.univ (m := sB) (r := (Rect.unit (s := S4x2x8x32) (k0_off3 (grid0.coords t0_15)) S1x1x8x32.size (k0_off3_inb (grid0.coords t0_15) h2))) (S := (sSl sB 3).view.set) (store_s1_sub3 (grid0.coords t0_15) h2 hb)) $$ Hsb'
  iintro Hsb'
  iapply (wp_store 𝒱₀ (c : Thread nD τ) none Set.univ (m := sB) (r := (Rect.unit (s := S4x2x8x32) (k0_off3 (grid0.coords t0_15)) S1x1x8x32.size (k0_off3_inb (grid0.coords t0_15) h2))) (Mk := Finset.univ) (S := (sSl sB 3).view.set) (store_s1_sub3 (grid0.coords t0_15) h2 hb)) $$ Hsb'
  iintro Hsb'
  rw [ret_bind_last]
  sl_exec
  -- the accumulators as the trace's
  have e13 : run_pt15.sl.v13 m c = (iblk m c 0 t0_15) := by unfold run_pt15.sl.v13; exact Memref.readAt_unit_zero (Elt F) _ hz4 _ _
  have e18 : run_pt15.sl.v18 m c = (iblk m c 1 t0_15) := by unfold run_pt15.sl.v18; exact Memref.readAt_unit_zero (Elt F) _ hz4 _ _
  have e21 : run_pt15.sl.v21 m c = (iblk m c 2 t0_15) := by unfold run_pt15.sl.v21; exact Memref.readAt_unit_zero (Elt F) _ hz4 _ _
  have er : run_pt15.sl.r m c = k0_pay12 (iblk m c 2 t0_15) := by
    show k0_pay12 (run_pt15.sl.v21 m c) = _; rw [e21]
  have er1 : run_pt15.sl.r_1 m c = k0_pay13 (iblk m c 0 t0_15) (iblk m c 1 t0_15) := by
    show k0_pay13 (run_pt15.sl.v13 m c) (run_pt15.sl.v18 m c) = _; rw [e13, e18]
  have er2 : run_pt15.sl.r_2 m c fm = k0_pay14 (iblk m c 0 t0_15) (iblk m c 1 t0_15) fm := by
    show k0_pay14 (run_pt15.sl.v13 m c) (run_pt15.sl.v18 m c) (View.readAt (Elt F) accM.view (Rect.unit ![0, 0] S8x32.size inb_S8x32_S8x32_0_0).toLoadRect fm) = _
    rw [e13, e18, rd_m]
  have er3 : run_pt15.sl.r_3 m c fm = k0_pay15 (iblk m c 0 t0_15) (iblk m c 1 t0_15) fm := by
    show k0_pay15 (run_pt15.sl.v13 m c) (run_pt15.sl.v18 m c) (View.readAt (Elt F) accM.view (Rect.unit ![0, 0] S8x32.size inb_S8x32_S8x32_0_0).toLoadRect fm) = _
    rw [e13, e18, rd_m]
  have e62 : run_pt15.sl.v62 m c fo fm = (Trace.chunk (iblk m c 0 t0_15) (iblk m c 1 t0_15) (iblk m c 2 t0_15) ⟨fo, fm, fl⟩).o := by
    unfold run_pt15.sl.v62 run_pt15.sl.Ho_1
    rw [View.readCov_cons_toLoadRect, er, er1, er2, er3, rd_o]; rfl
  have e68 : run_pt15.sl.v68 m c fm = (Trace.chunk (iblk m c 0 t0_15) (iblk m c 1 t0_15) (iblk m c 2 t0_15) ⟨fo, fm, fl⟩).m := by
    unfold run_pt15.sl.v68
    rw [View.readCov_cons_toLoadRect, er2]; rfl
  have e73 : run_pt15.sl.v73 m c fm fl = (Trace.chunk (iblk m c 0 t0_15) (iblk m c 1 t0_15) (iblk m c 2 t0_15) ⟨fo, fm, fl⟩).l := by
    unfold run_pt15.sl.v73
    rw [View.readCov_cons_toLoadRect, er1, er2, er3, rd_l]; rfl
  have hg5 : ∀ x : S1x32x8x128.Idx, OV m c (ValueIdx.ix4 (3 : Fin 4) (x 1) (x 2) (x 3)) = k0_pay5 (run_pt15.sl.v62 m c fo fm) x := fun x => by rw [e62]; exact hO x
  have hg6 : ∀ x : S1x1x8x32.Idx, SV m c (ValueIdx.ix4 (3 : Fin 4) (0 : Fin 2) (x 2) (x 3)) = k0_pay6 (run_pt15.sl.v68 m c fm) x := fun x => by rw [e68]; exact hS0 x
  have hg7 : ∀ x : S1x1x8x32.Idx, SV m c (ValueIdx.ix4 (3 : Fin 4) (1 : Fin 2) (x 2) (x 3)) = k0_pay7 (run_pt15.sl.v73 m c fm fl) x := fun x => by rw [e73]; exact hS1 x
  have hconvO : (View.loc (c : Thread nD τ) (oB.access (Rect.unit (s := S4x32x8x128) (k0_off1 (grid0.coords t0_15)) S1x32x8x128.size (k0_off1_inb (grid0.coords t0_15) h2))) ↦[(oSl oB 3).view.set]{fullShare} View.write (Elt F) (oB.access (Rect.unit (s := S4x32x8x128) (k0_off1 (grid0.coords t0_15)) S1x32x8x128.size (k0_off1_inb (grid0.coords t0_15) h2))) fob (k0_pay5 (run_pt15.sl.v62 m c fo fm)) Finset.univ : sProp 𝕄) ⊢ obPts c 3 (OV m c) :=
    Entails.of_eq (store_o c (grid0.coords t0_15) h2 3 hb fob (OV m c) (k0_pay5 (run_pt15.sl.v62 m c fo fm)) hg5)
  have hconvS : (View.loc (c : Thread nD τ) (sB.access (Rect.unit (s := S4x2x8x32) (k0_off3 (grid0.coords t0_15)) S1x1x8x32.size (k0_off3_inb (grid0.coords t0_15) h2))) ↦[(sSl sB 3).view.set]{fullShare} View.write (Elt F) (sB.access (Rect.unit (s := S4x2x8x32) (k0_off3 (grid0.coords t0_15)) S1x1x8x32.size (k0_off3_inb (grid0.coords t0_15) h2))) (View.write (Elt F) (sB.access (Rect.unit (s := S4x2x8x32) (k0_off2 (grid0.coords t0_15)) S1x1x8x32.size (k0_off2_inb (grid0.coords t0_15) h2))) fsb (k0_pay6 (run_pt15.sl.v68 m c fm)) Finset.univ) (k0_pay7 (run_pt15.sl.v73 m c fm fl)) Finset.univ : sProp 𝕄) ⊢ sbPts c 3 (SV m c) :=
    Entails.of_eq (store_s c (grid0.coords t0_15) h2 3 hb fsb (SV m c) (k0_pay6 (run_pt15.sl.v68 m c fm)) (k0_pay7 (run_pt15.sl.v73 m c fm fl)) hg6 hg7)
  ihave #HRu := (Entails.of_eq (show (records m K' : sProp 𝕄) = iprop((bigSep Finset.univ fun ck : Dev nD × Fin 17 => cellInv ER (Rd m) (K' ck) (kcell ck)) ∗ bigSep Finset.univ fun ck : Dev nD × Fin 17 => reached ER (kcell ck) 0) from rfl)) $$ HR
  icases HRu with ⟨#HI, #HRr⟩
  -- the output copy of entry 3
  rw [show owedFrom c (evDone 15) = owedFrom c 8 + tallyAt (famCell (nbr c) 1 3) () No from owedFrom_succ c 7 (by decide)]
  iapply (wp_send_o3 m K' c _ (dev_eq c (k0_dev8_eq c) _) frob (owedFrom c 8) W) $$ [Hob' Hrob HO T0 T1]
  · isplitr; · iapply (inv_at m K' (c, fidx 0 3)); iexact HI
    isplitr; · iapply (inv_at m K' (nbr c, fidx 1 3)); iexact HI
    isplitl [Hob']; · iapply hconvO; iexact Hob'
    isplitl [Hrob]; · iexact Hrob
    isplitl [HO]; · iexact HO
    isplitl [T0]; · iexact T0
    isplitr; · iapply (reached_at (F := F) (c, fidx 0 3)); iexact HRr
    isplitl [T1]; · iexact T1
    iapply (reached_at (F := F) (nbr c, fidx 1 3)); iexact HRr
  iintro ⟨Hc0, HO⟩
  -- the statistics copy of entry 3
  rw [show owedFrom c 8 = owedFrom c 9 + tallyAt (famCell (nbr c) 3 3) () Ns from owedFrom_succ c 8 (by decide)]
  iapply (wp_send_s3 m K' c _ (dev_eq c (k0_dev9_eq c) _) frsb (owedFrom c 9) W) $$ [Hsb' Hrsb HO T2 T3]
  · isplitr; · iapply (inv_at m K' (c, fidx 2 3)); iexact HI
    isplitr; · iapply (inv_at m K' (nbr c, fidx 3 3)); iexact HI
    isplitl [Hsb']; · iapply hconvS; iexact Hsb'
    isplitl [Hrsb]; · iexact Hrsb
    isplitl [HO]; · iexact HO
    isplitl [T2]; · iexact T2
    isplitr; · iapply (reached_at (F := F) (c, fidx 2 3)); iexact HRr
    isplitl [T3]; · iexact T3
    iapply (reached_at (F := F) (nbr c, fidx 3 3)); iexact HRr
  iintro ⟨Hc2, HO⟩
  -- the final part
  rewrite [ret_bind_last]
  dsimp only
  have h8 : k0_cond8 (grid0.coords t0_15) = 1#1 := by decide
  rewrite [dif_pos h8]
  rewrite [wp_bind]
  ihave HE0 := (Entails.of_eq (entPart_15_16 (F := F) c 0 (by decide))) $$ HE0
  ihave HE1 := (Entails.of_eq (entPart_15_16 (F := F) c 1 (by decide))) $$ HE1
  ihave HE2 := (Entails.of_eq (entPart_15_16 (F := F) c 2 (by decide))) $$ HE2
  ihave HE3 := (Entails.of_eq (entPart_end (F := F) c 3).symm) $$ [A0 A1 A2 A3 C1 C3 Hc0 Hc2]
  · isplitl [A0]; · iexact A0
    isplitl [A1]; · iexact A1
    isplitl [A2]; · iexact A2
    isplitl [A3]; · iexact A3
    isplitl [C1]; · iexact C1
    isplitl [C3]; · iexact C3
    isplitl [Hc0]; · iexact Hc0
    iexact Hc2
  have hfp := finalPart m c K' W (grid0.coords t0_15) (stage0_0 (cfg0.slots t0_15 0)) (hstage0_0 _)
    (stage0_1 (cfg0.slots t0_15 1)) (hstage0_1 _) (stage0_2 (cfg0.slots t0_15 2)) (hstage0_2 _)
    (stage0_3 (cfg0.slots t0_15 3)) (hstage0_3 _) (run_pt15.sl.v2 c) (run_pt15.sl.v8 c) (run_pt15.sl.v9 c)
  iapply (hfp _)
  isplitr; · iexact HR
  isplitl [HO]; · iexact HO
  isplitl [HE0]; · iexact HE0
  isplitl [HE1]; · iexact HE1
  isplitl [HE2]; · iexact HE2
  isplitl [HE3]; · iexact HE3
  iintro %v ⟨%hv, HOB, HSB, HROB, HRSB, HZ, HOw⟩
  subst hv
  sl_exec
  sl_step
  have hw3 : (stage0_3 (cfg0.slots t0_15 3)).view.writes (Elt F) x3 [⟨Rect.unit ![0, 0, 0, 0] ![4, 32, 8, 128] inb_S4x32x8x128_S4x32x8x128_0_0_0_0, OUT m c⟩] = OUT m c := by
    rw [View.writes_cons]; exact Memref.write_access_unit_zero_univ (Elt F) cc0_stg3_0 hz4 inb_S4x32x8x128_S4x32x8x128_0_0_0_0 _ (OUT m c)
  rewrite [hw3]
  iapply Hk
  isplitl [Ho]; · iexists _; iexact Ho
  isplitl [Hm]; · iexists _; iexact Hm
  isplitl [Hl]; · iexists _; iexact Hl
  isplitl [H0]; · iexact H0
  isplitl [H1]; · iexact H1
  isplitl [H2]; · iexact H2
  isplitl [H3]; · iexact H3
  isplitl [HOB]; · iexact HOB
  isplitl [HSB]; · iexact HSB
  isplitl [HROB]; · iexact HROB
  isplitl [HRSB]; · iexact HRSB
  isplitl [HZ]; · iexact HZ
  iexact HOw

/-! ### The body obligation at the last grid point -/

set_option maxHeartbeats 1000000 in
theorem body_pt15 (c : Dev nD) : BodyGoal m c t0_15 := by
  unfold BodyGoal
  rw [bigSep_W0, bigSep_W0]
  have hi0 : cfg0.idle 0 (cfg0.grid.coords t0_15) = false := rfl
  have hi1 : cfg0.idle 1 (cfg0.grid.coords t0_15) = false := rfl
  have hi2 : cfg0.idle 2 (cfg0.grid.coords t0_15) = false := rfl
  have hi3 : idle0 3 (grid0.coords t0_15) = false := by decide +kernel
  have hl0 : cfg0.loose 0 = false := by decide +kernel
  have hl1 : cfg0.loose 1 = false := by decide +kernel
  have hl2 : cfg0.loose 2 = false := by decide +kernel
  have hl3 : cfg0.loose 3 = false := by decide +kernel
  have hb0 : ∀ d, (dats m 0 c).before 0 t0_15 d = iblk m c 0 t0_15 := fun d => before_in0 m c t0_15 d
  have hb1 : ∀ d, (dats m 0 c).before 1 t0_15 d = iblk m c 1 t0_15 := fun d => before_in1 m c t0_15 d
  have hb2 : ∀ d, (dats m 0 c).before 2 t0_15 d = iblk m c 2 t0_15 := fun d => before_in2 m c t0_15 d
  have ha0 : (dats m 0 c).after 0 t0_15 = iblk m c 0 t0_15 := rfl
  have ha1 : (dats m 0 c).after 1 t0_15 = iblk m c 1 t0_15 := rfl
  have ha2 : (dats m 0 c).after 2 t0_15 = iblk m c 2 t0_15 := rfl
  have ha3 : (dats m 0 c).after 3 t0_15 = OUT m c := rfl
  have hs0 : ∀ X, (owns (Ix := Unit) (Name := ℕ) (U := UU) (Lvl := ℕ) (c : Thread nD τ) (stage0_0 (cfg0.slots t0_15 0)) fullShare X : sProp 𝕄)
      = pt' c (stage0_0 (cfg0.slots t0_15 0)) X := fun X => owns_whole (c : Thread nD τ) cc0_stg0_1 fullShare X
  have hs1 : ∀ X, (owns (Ix := Unit) (Name := ℕ) (U := UU) (Lvl := ℕ) (c : Thread nD τ) (stage0_1 (cfg0.slots t0_15 1)) fullShare X : sProp 𝕄)
      = pt' c (stage0_1 (cfg0.slots t0_15 1)) X := fun X => owns_whole (c : Thread nD τ) cc0_stg1_1 fullShare X
  have hs2 : ∀ X, (owns (Ix := Unit) (Name := ℕ) (U := UU) (Lvl := ℕ) (c : Thread nD τ) (stage0_2 (cfg0.slots t0_15 2)) fullShare X : sProp 𝕄)
      = pt' c (stage0_2 (cfg0.slots t0_15 2)) X := fun X => owns_whole (c : Thread nD τ) cc0_stg2_1 fullShare X
  have hs3 : ∀ X, (owns (Ix := Unit) (Name := ℕ) (U := UU) (Lvl := ℕ) (c : Thread nD τ) (stage0_3 (cfg0.slots t0_15 3)) fullShare X : sProp 𝕄)
      = pt' c (stage0_3 (cfg0.slots t0_15 3)) X := fun X => owns_whole (c : Thread nD τ) cc0_stg3_0 fullShare X
  simp only [hi0, hi1, hi2, hi3, hl0, hl1, hl2, hl3, hb0, hb1, hb2, ha0, ha1, ha2, ha3, hs0, hs1, hs2, hs3]
  have hΦ0 : (dats m 0 c).Φ t0_15.castSucc = PhiMid m c 15 := rfl
  have hΦ1 : (dats m 0 c).Φ t0_15.succ = PhiEnd m c := rfl
  rw [hΦ0, hΦ1]
  show _ ⊢ wp frame (wpE (defs₀ (F := F)) 𝒱₀ c none) Set.univ (bodyAt0 (F := F) t0_15) _
  unfold PhiMid accPart
  iintro ⟨⟨%K', #Hrec, Hlev, Hbar, He0, He1, He2, He3, %fo, %fm, %fl, %hacc, Ho, Hm, Hl⟩, ⟨%W, %hW, Howe⟩, ⟨%d0, H0⟩, ⟨%d1, H1⟩, ⟨%d2, H2⟩, %d3, H3⟩
  have hchunk : Trace.chunk (iblk m c 0 t0_15) (iblk m c 1 t0_15) (iblk m c 2 t0_15) ⟨fo, fm, fl⟩
      = Trace.accAt (XQ m c) (XK m c) (XV m c) 3 4 := by
    obtain ⟨h1, h2, h3⟩ := hacc (by decide)
    subst h1 h2 h3
    exact (acc_step m c 3 3 (by decide)).symm
  iapply (run_pt15 m c fo fm fl ((dats m 0 c).before 3 t0_15 d3) K' W _
    (fun x => by rw [hchunk]; exact OV_rows m c 3 x) (fun x => by rw [hchunk]; exact SV_row0 m c 3 x)
    (fun x => by rw [hchunk]; exact SV_row1 m c 3 x))
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  isplitr; · iexact Hrec
  isplitl [Howe]; · iexact Howe
  isplitl [He0]; · iexact He0
  isplitl [He1]; · iexact He1
  isplitl [He2]; · iexact He2
  isplitl [He3]; · iexact He3
  iintro ⟨⟨%go, Ho⟩, ⟨%gm, Hm⟩, ⟨%gl, Hl⟩, H0, H1, H2, H3, HOB, HSB, HROB, HRSB, HZ, ⟨%W', HOw⟩⟩
  isplitl [Ho Hm Hl HOB HSB HROB HRSB HZ]
  · unfold PhiEnd
    isplitl [Ho]; · iexists go; iexact Ho
    isplitl [Hm]; · iexists gm; iexact Hm
    isplitl [Hl]; · iexists gl; iexact Hl
    isplitl [HOB]; · iexact HOB
    isplitl [HSB]; · iexact HSB
    isplitl [HROB]; · iexact HROB
    isplitl [HRSB]; · iexact HRSB
    iexact HZ
  isplitl [HOw]
  · iexists W'
    isplitr; · ipureintro; exact fun x _ => Or.inl (Set.mem_univ x)
    iexact HOw
  isplitl [H0]; · iexact H0
  isplitl [H1]; · iexact H1
  isplitl [H2]; · iexact H2
  iexact H3

/-- info: 'Cert.KernelIdealProof.run_pt15' depends on axioms: [propext, Classical.choice, Quot.sound] -/
#guard_msgs in #print axioms run_pt15

/-- info: 'Cert.KernelIdealProof.body_pt15' depends on axioms: [propext, Classical.choice, Quot.sound] -/
#guard_msgs in #print axioms body_pt15

end Cert.KernelIdealProof

end
-- ==== Proof.Body.lean ====
/-
  The body obligation of the pipelined region on every device: the sixteen grid points, one by one.
-/
import proofs.«900428_g7700000000000429_dist_flashdec_v7x_xyz2x2x4_y_b4_sq32_skv4096_h8_d128_f32_1_alg».proof.Proof.BodyGoal
import proofs.«900428_g7700000000000429_dist_flashdec_v7x_xyz2x2x4_y_b4_sq32_skv4096_h8_d128_f32_1_alg».proof.Proof.BodyPlain
import proofs.«900428_g7700000000000429_dist_flashdec_v7x_xyz2x2x4_y_b4_sq32_skv4096_h8_d128_f32_1_alg».proof.Proof.BodyHandGoal
import proofs.«900428_g7700000000000429_dist_flashdec_v7x_xyz2x2x4_y_b4_sq32_skv4096_h8_d128_f32_1_alg».proof.Proof.BodyLast

noncomputable section

namespace Cert.KernelIdealProof

open Cert.KernelIdeal Cert.KernelIdeal.Gen
open Idealize.ShloMosaic Idealize.ShloMosaic.TcCoe

variable {F : FTy → Type} [FloatOps F]

variable (m : (ℓ : Loc nD τ sig) → Buf (Elt F) ℓ)

theorem hbody (c : Dev nD) : Pipeline.BodyObligationLoose (dats (F := F) m 0 c) (defs₀ (F := F)) 𝒱₀ () Set.univ :=
  bodyObligation_of_goals m c fun t => by
    rcases fin_N0 t with rfl | rfl | rfl | rfl | rfl | rfl | rfl | rfl | rfl | rfl | rfl | rfl | rfl | rfl | rfl | rfl
    · exact body_pt0 m c
    · exact body_pt1 m c
    · exact body_pt2 m c
    · exact body_pt3 m c
    · exact body_pt4 m c
    · exact body_pt5 m c
    · exact body_pt6 m c
    · exact body_pt7 m c
    · exact body_pt8 m c
    · exact body_pt9 m c
    · exact body_pt10 m c
    · exact body_pt11 m c
    · exact body_pt12 m c
    · exact body_pt13 m c
    · exact body_pt14 m c
    · exact body_pt15 m c

end Cert.KernelIdealProof

end
-- ==== Proof.KBodyGoal.lean ====
/-
  The body obligation of the pipelined region at one grid point, spelt out: from the invariant before the point, what
  the device owes there and every window's current staging buffer at what it then holds, the kernel's body at that
  point runs to the invariant after it, what the device owes then, and every staging buffer at what the body leaves
  (an idle window that is not written back: what it held).
-/
import proofs.«900428_g7700000000000429_dist_flashdec_v7x_xyz2x2x4_y_b4_sq32_skv4096_h8_d128_f32_1_alg».proof.Proof.KData

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The library's body obligation (its loose form, no window forgotten) at the one point `t`. -/
def BodyGoal (c : Dev nD) (t : Fin cfg0.N) : Prop :=
  iprop((dats m 0 c).Φ t.castSucc ∗ (dats m 0 c).owesAt () t.castSucc
      ∗ bigSep Finset.univ fun w : Fin cfg0.W =>
          iprop(∃ d, owns (c : Thread nD τ) ((cfg0.win w).stage (cfg0.slots t w)) fullShare ((dats m 0 c).before w t d)))
    ⊢ wp frame (wpE (defs₀ (F := F)) 𝒱₀ c none) Set.univ (defs₀ .tc cfg0.body (cfg0.bodyArgs t (cfg0.slots t))) fun _ =>
        iprop((dats m 0 c).Φ t.succ ∗ (dats m 0 c).owesAt () t.succ
          ∗ bigSep Finset.univ fun w : Fin cfg0.W =>
              match cfg0.idle w (cfg0.grid.coords t) with
              | true =>
                match (cfg0.win w).flush t with
                | false => iprop(∃ d, owns (c : Thread nD τ) ((cfg0.win w).stage (cfg0.slots t w)) fullShare ((dats m 0 c).before w t d))
                | true =>
                  match cfg0.loose w with
                  | true => iprop(∃ d, owns (c : Thread nD τ) ((cfg0.win w).stage (cfg0.slots t w)) fullShare ((cfg0.win w).fill (cfg0.grid.coords t) d ((cfg0.win w).cut (cfg0.grid.coords t) ((dats m 0 c).after w t))))
                  | false => owns (c : Thread nD τ) ((cfg0.win w).stage (cfg0.slots t w)) fullShare ((dats m 0 c).after w t)
              | false =>
                match cfg0.loose w with
                | true => iprop(∃ d, owns (c : Thread nD τ) ((cfg0.win w).stage (cfg0.slots t w)) fullShare ((cfg0.win w).fill (cfg0.grid.coords t) d ((cfg0.win w).cut (cfg0.grid.coords t) ((dats m 0 c).after w t))))
                | false => owns (c : Thread nD τ) ((cfg0.win w).stage (cfg0.slots t w)) fullShare ((dats m 0 c).after w t))

/-- The obligation at every point is the library's. -/
theorem bodyObligation_of_goals (c : Dev nD) (h : ∀ t : Fin cfg0.N, BodyGoal m c t) :
    Pipeline.BodyObligationLoose (dats (F := F) m 0 c) (defs₀ (F := F)) 𝒱₀ () Set.univ := fun t => h t

end Cert.KernelProof

end
-- ==== Proof.KBodyRuns.lean ====
/-
  The body at the grid points that neither hand a batch entry over nor merge: one chunk step of the accumulators.
  At a first chunk (points 0, 4, 8, 12) the accumulators are reset before the step; at the others they are stepped
  from what they hold. Each point's run leaves the three accumulators at the trace's `chunk` of the point's staged
  blocks and every staging buffer as it was.
-/
import proofs.«900428_g7700000000000429_dist_flashdec_v7x_xyz2x2x4_y_b4_sq32_skv4096_h8_d128_f32_1_alg».proof.Proof.KData
import Idealize.ShloMosaic.Lib.Pipeline.Value

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The contents type of memref `M`'s buffer on device `c`, and the buffer held whole at `f`. -/
abbrev Bf (c : Dev nD) {sp : Space} {S : Shape} {e : EltTy} (M : Memref sig .tc sp S e) : Type := Buf (Elt F) (M.view.loc (c : Thread nD τ))
abbrev pt' (c : Dev nD) {sp : Space} {S : Shape} {e : EltTy} (M : Memref sig .tc sp S e) (f : Bf (F := F) c M) : sProp 𝕄 :=
  M.view.loc (c : Thread nD τ) ↦{fullShare} f

omit [FloatOps F] in
theorem hz2 : (![0, 0] : Fin 2 → Nat) = fun _ => 0 := funext fun a => by fin_cases a <;> rfl
omit [FloatOps F] in
theorem hz3 : (![0, 0, 0] : Fin 3 → Nat) = fun _ => 0 := funext fun a => by fin_cases a <;> rfl
omit [FloatOps F] in
theorem hz4 : (![0, 0, 0, 0] : Fin 4 → Nat) = fun _ => 0 := funext fun a => by fin_cases a <;> rfl

omit [FloatOps F] in
theorem wr_o' (f w : (cc0_scratch0 : Ref sig .tc).ty.Contents (Elt F)) (L : List (View.Piece (Elt F) _ _)) :
    (View.whole cc0_scratch0).writes (Elt F) f (⟨Rect.unit ![0, 0, 0] ![8, 32, 128] inb_S8x32x128_S8x32x128_0_0_0, w⟩ :: L) = w := by
  rw [View.writes_cons]; exact Memref.write_access_unit_zero_univ (Elt F) cc0_scratch0 hz3 inb_S8x32x128_S8x32x128_0_0_0 _ w
omit [FloatOps F] in
theorem wr_o (f w : (cc0_scratch0 : Ref sig .tc).ty.Contents (Elt F)) (L : List (View.Piece (Elt F) _ _)) :
    accO.view.writes (Elt F) f (⟨Rect.unit ![0, 0, 0] S8x32x128.size inb_S8x32x128_S8x32x128_0_0_0, w⟩ :: L) = w := by
  rw [View.writes_cons]; exact Memref.write_access_unit_zero_univ (Elt F) cc0_scratch0 hz3 inb_S8x32x128_S8x32x128_0_0_0 _ w
omit [FloatOps F] in
theorem rd_o' (f : (cc0_scratch0 : Ref sig .tc).ty.Contents (Elt F)) :
    View.readAt (Elt F) (View.whole cc0_scratch0) (Rect.unit ![0, 0, 0] ![8, 32, 128] inb_S8x32x128_S8x32x128_0_0_0).toLoadRect f = f :=
  Memref.readAt_unit_zero (Elt F) cc0_scratch0 hz3 inb_S8x32x128_S8x32x128_0_0_0 f
omit [FloatOps F] in
theorem rd_o (f : (cc0_scratch0 : Ref sig .tc).ty.Contents (Elt F)) :
    View.readAt (Elt F) accO.view (Rect.unit ![0, 0, 0] S8x32x128.size inb_S8x32x128_S8x32x128_0_0_0).toLoadRect f = f :=
  Memref.readAt_unit_zero (Elt F) cc0_scratch0 hz3 inb_S8x32x128_S8x32x128_0_0_0 f

omit [FloatOps F] in
theorem wr_m' (f w : (cc0_scratch1 : Ref sig .tc).ty.Contents (Elt F)) (L : List (View.Piece (Elt F) _ _)) :
    (View.whole cc0_scratch1).writes (Elt F) f (⟨Rect.unit ![0, 0] ![8, 32] inb_S8x32_S8x32_0_0, w⟩ :: L) = w := by
  rw [View.writes_cons]; exact Memref.write_access_unit_zero_univ (Elt F) cc0_scratch1 hz2 inb_S8x32_S8x32_0_0 _ w
omit [FloatOps F] in
theorem wr_m (f w : (cc0_scratch1 : Ref sig .tc).ty.Contents (Elt F)) (L : List (View.Piece (Elt F) _ _)) :
    accM.view.writes (Elt F) f (⟨Rect.unit ![0, 0] S8x32.size inb_S8x32_S8x32_0_0, w⟩ :: L) = w := by
  rw [View.writes_cons]; exact Memref.write_access_unit_zero_univ (Elt F) cc0_scratch1 hz2 inb_S8x32_S8x32_0_0 _ w
omit [FloatOps F] in
theorem rd_m' (f : (cc0_scratch1 : Ref sig .tc).ty.Contents (Elt F)) :
    View.readAt (Elt F) (View.whole cc0_scratch1) (Rect.unit ![0, 0] ![8, 32] inb_S8x32_S8x32_0_0).toLoadRect f = f :=
  Memref.readAt_unit_zero (Elt F) cc0_scratch1 hz2 inb_S8x32_S8x32_0_0 f
omit [FloatOps F] in
theorem rd_m (f : (cc0_scratch1 : Ref sig .tc).ty.Contents (Elt F)) :
    View.readAt (Elt F) accM.view (Rect.unit ![0, 0] S8x32.size inb_S8x32_S8x32_0_0).toLoadRect f = f :=
  Memref.readAt_unit_zero (Elt F) cc0_scratch1 hz2 inb_S8x32_S8x32_0_0 f

omit [FloatOps F] in
theorem wr_l' (f w : (cc0_scratch2 : Ref sig .tc).ty.Contents (Elt F)) (L : List (View.Piece (Elt F) _ _)) :
    (View.whole cc0_scratch2).writes (Elt F) f (⟨Rect.unit ![0, 0] ![8, 32] inb_S8x32_S8x32_0_0, w⟩ :: L) = w := by
  rw [View.writes_cons]; exact Memref.write_access_unit_zero_univ (Elt F) cc0_scratch2 hz2 inb_S8x32_S8x32_0_0 _ w
omit [FloatOps F] in
theorem wr_l (f w : (cc0_scratch2 : Ref sig .tc).ty.Contents (Elt F)) (L : List (View.Piece (Elt F) _ _)) :
    accL.view.writes (Elt F) f (⟨Rect.unit ![0, 0] S8x32.size inb_S8x32_S8x32_0_0, w⟩ :: L) = w := by
  rw [View.writes_cons]; exact Memref.write_access_unit_zero_univ (Elt F) cc0_scratch2 hz2 inb_S8x32_S8x32_0_0 _ w
omit [FloatOps F] in
theorem rd_l' (f : (cc0_scratch2 : Ref sig .tc).ty.Contents (Elt F)) :
    View.readAt (Elt F) (View.whole cc0_scratch2) (Rect.unit ![0, 0] ![8, 32] inb_S8x32_S8x32_0_0).toLoadRect f = f :=
  Memref.readAt_unit_zero (Elt F) cc0_scratch2 hz2 inb_S8x32_S8x32_0_0 f
omit [FloatOps F] in
theorem rd_l (f : (cc0_scratch2 : Ref sig .tc).ty.Contents (Elt F)) :
    View.readAt (Elt F) accL.view (Rect.unit ![0, 0] S8x32.size inb_S8x32_S8x32_0_0).toLoadRect f = f :=
  Memref.readAt_unit_zero (Elt F) cc0_scratch2 hz2 inb_S8x32_S8x32_0_0 f

theorem run_pt0 (c : Dev nD) (fo : Bf (F := F) c accO) (fm : Bf (F := F) c accM) (fl : Bf (F := F) c accL)
    (x3 : Bf (F := F) c (stage0_3 (cfg0.slots t0_0 3))) (Q : PUnit → sProp 𝕄) :
    iprop(pt' c accO fo ∗ pt' c accM fm ∗ pt' c accL fl ∗ pt' c (stage0_0 (cfg0.slots t0_0 0)) (iblk m c 0 t0_0) ∗ pt' c (stage0_1 (cfg0.slots t0_0 1)) (iblk m c 1 t0_0)
        ∗ pt' c (stage0_2 (cfg0.slots t0_0 2)) (iblk m c 2 t0_0) ∗ pt' c (stage0_3 (cfg0.slots t0_0 3)) x3
        ∗ (iprop(pt' c accO (Trace.chunk (iblk m c 0 t0_0) (iblk m c 1 t0_0) (iblk m c 2 t0_0) Trace.acc0).o
            ∗ pt' c accM (Trace.chunk (iblk m c 0 t0_0) (iblk m c 1 t0_0) (iblk m c 2 t0_0) Trace.acc0).m
            ∗ pt' c accL (Trace.chunk (iblk m c 0 t0_0) (iblk m c 1 t0_0) (iblk m c 2 t0_0) Trace.acc0).l
            ∗ pt' c (stage0_0 (cfg0.slots t0_0 0)) (iblk m c 0 t0_0) ∗ pt' c (stage0_1 (cfg0.slots t0_0 1)) (iblk m c 1 t0_0)
            ∗ pt' c (stage0_2 (cfg0.slots t0_0 2)) (iblk m c 2 t0_0) ∗ pt' c (stage0_3 (cfg0.slots t0_0 3)) x3) -∗ Q ⟨⟩))
      ⊢ wp frame (wpE (defs₀ (F := F)) 𝒱₀ c none) Set.univ (bodyAt0 (F := F) t0_0) Q := by
  iintro ⟨Ho, Hm, Hl, H0, H1, H2, H3, Hk⟩
  unfold bodyAt0
  sl_exec
  sl_step
  iapply Hk

  have e13 : run_pt0.sl.v13 m c = iblk m c 0 t0_0 := by unfold run_pt0.sl.v13; exact Memref.readAt_unit_zero (Elt F) _ hz4 _ _
  have e18 : run_pt0.sl.v18 m c = iblk m c 1 t0_0 := by unfold run_pt0.sl.v18; exact Memref.readAt_unit_zero (Elt F) _ hz4 _ _
  have e21 : run_pt0.sl.v21 m c = iblk m c 2 t0_0 := by unfold run_pt0.sl.v21; exact Memref.readAt_unit_zero (Elt F) _ hz4 _ _
  have ev25 : run_pt0.sl.v25 (F := F) = k0_pay9 := by unfold run_pt0.sl.v25 run_pt0.sl.Hm_1; exact View.readCov_unit_zero _ hz2 _ _
  have ev34 : run_pt0.sl.v34 (F := F) = k0_pay10 := by unfold run_pt0.sl.v34 run_pt0.sl.Hl_1; exact View.readCov_unit_zero _ hz2 _ _
  have ev40 : run_pt0.sl.v40 (F := F) = k0_pay11 := by unfold run_pt0.sl.v40 run_pt0.sl.Ho_1; exact View.readCov_unit_zero _ hz3 _ _
  have er : run_pt0.sl.r m c = k0_pay12 (iblk m c 2 t0_0) := by
    show k0_pay12 (run_pt0.sl.v21 m c) = _; rw [e21]
  have er1 : run_pt0.sl.r_1 m c = k0_pay13 (iblk m c 0 t0_0) (iblk m c 1 t0_0) := by
    show k0_pay13 (run_pt0.sl.v13 m c) (run_pt0.sl.v18 m c) = _; rw [e13, e18]
  have er2 : run_pt0.sl.r_2 m c = k0_pay14 (iblk m c 0 t0_0) (iblk m c 1 t0_0) k0_pay9 := by
    show k0_pay14 (run_pt0.sl.v13 m c) (run_pt0.sl.v18 m c) run_pt0.sl.v25 = _; rw [e13, e18, ev25]
  have er3 : run_pt0.sl.r_3 m c = k0_pay15 (iblk m c 0 t0_0) (iblk m c 1 t0_0) k0_pay9 := by
    show k0_pay15 (run_pt0.sl.v13 m c) (run_pt0.sl.v18 m c) run_pt0.sl.v25 = _; rw [e13, e18, ev25]
  rw [er, er1, er2, er3, ev34, ev40, wr_o, wr_m, wr_l]
  unfold Trace.chunk Trace.acc0
  isplitl [Ho]; · iexact Ho
  isplitl [Hm]; · iexact Hm
  isplitl [Hl]; · iexact Hl
  isplitl [H0]; · iexact H0
  isplitl [H1]; · iexact H1
  isplitl [H2]; · iexact H2
  iexact H3

theorem run_pt1 (c : Dev nD) (fo : Bf (F := F) c accO) (fm : Bf (F := F) c accM) (fl : Bf (F := F) c accL)
    (x3 : Bf (F := F) c (stage0_3 (cfg0.slots t0_1 3))) (Q : PUnit → sProp 𝕄) :
    iprop(pt' c accO fo ∗ pt' c accM fm ∗ pt' c accL fl ∗ pt' c (stage0_0 (cfg0.slots t0_1 0)) (iblk m c 0 t0_1) ∗ pt' c (stage0_1 (cfg0.slots t0_1 1)) (iblk m c 1 t0_1)
        ∗ pt' c (stage0_2 (cfg0.slots t0_1 2)) (iblk m c 2 t0_1) ∗ pt' c (stage0_3 (cfg0.slots t0_1 3)) x3
        ∗ (iprop(pt' c accO (Trace.chunk (iblk m c 0 t0_1) (iblk m c 1 t0_1) (iblk m c 2 t0_1) ⟨fo, fm, fl⟩).o
            ∗ pt' c accM (Trace.chunk (iblk m c 0 t0_1) (iblk m c 1 t0_1) (iblk m c 2 t0_1) ⟨fo, fm, fl⟩).m
            ∗ pt' c accL (Trace.chunk (iblk m c 0 t0_1) (iblk m c 1 t0_1) (iblk m c 2 t0_1) ⟨fo, fm, fl⟩).l
            ∗ pt' c (stage0_0 (cfg0.slots t0_1 0)) (iblk m c 0 t0_1) ∗ pt' c (stage0_1 (cfg0.slots t0_1 1)) (iblk m c 1 t0_1)
            ∗ pt' c (stage0_2 (cfg0.slots t0_1 2)) (iblk m c 2 t0_1) ∗ pt' c (stage0_3 (cfg0.slots t0_1 3)) x3) -∗ Q ⟨⟩))
      ⊢ wp frame (wpE (defs₀ (F := F)) 𝒱₀ c none) Set.univ (bodyAt0 (F := F) t0_1) Q := by
  iintro ⟨Ho, Hm, Hl, H0, H1, H2, H3, Hk⟩
  unfold bodyAt0
  sl_exec
  sl_step
  iapply Hk

  have e13 : run_pt1.sl.v13 m c = iblk m c 0 t0_1 := by unfold run_pt1.sl.v13; exact Memref.readAt_unit_zero (Elt F) _ hz4 _ _
  have e18 : run_pt1.sl.v18 m c = iblk m c 1 t0_1 := by unfold run_pt1.sl.v18; exact Memref.readAt_unit_zero (Elt F) _ hz4 _ _
  have e21 : run_pt1.sl.v21 m c = iblk m c 2 t0_1 := by unfold run_pt1.sl.v21; exact Memref.readAt_unit_zero (Elt F) _ hz4 _ _
  have er : run_pt1.sl.r m c = k0_pay12 (iblk m c 2 t0_1) := by
    show k0_pay12 (run_pt1.sl.v21 m c) = _; rw [e21]
  have er1 : run_pt1.sl.r_1 m c = k0_pay13 (iblk m c 0 t0_1) (iblk m c 1 t0_1) := by
    show k0_pay13 (run_pt1.sl.v13 m c) (run_pt1.sl.v18 m c) = _; rw [e13, e18]
  have er2 : run_pt1.sl.r_2 m c fm = k0_pay14 (iblk m c 0 t0_1) (iblk m c 1 t0_1) fm := by
    show k0_pay14 (run_pt1.sl.v13 m c) (run_pt1.sl.v18 m c) (View.readAt (Elt F) accM.view (Rect.unit ![0, 0] S8x32.size inb_S8x32_S8x32_0_0).toLoadRect fm) = _
    rw [e13, e18, rd_m]
  have er3 : run_pt1.sl.r_3 m c fm = k0_pay15 (iblk m c 0 t0_1) (iblk m c 1 t0_1) fm := by
    show k0_pay15 (run_pt1.sl.v13 m c) (run_pt1.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

theorem run_pt2 (c : Dev nD) (fo : Bf (F := F) c accO) (fm : Bf (F := F) c accM) (fl : Bf (F := F) c accL)
    (x3 : Bf (F := F) c (stage0_3 (cfg0.slots t0_2 3))) (Q : PUnit → sProp 𝕄) :
    iprop(pt' c accO fo ∗ pt' c accM fm ∗ pt' c accL fl ∗ pt' c (stage0_0 (cfg0.slots t0_2 0)) (iblk m c 0 t0_2) ∗ pt' c (stage0_1 (cfg0.slots t0_2 1)) (iblk m c 1 t0_2)
        ∗ pt' c (stage0_2 (cfg0.slots t0_2 2)) (iblk m c 2 t0_2) ∗ pt' c (stage0_3 (cfg0.slots t0_2 3)) x3
        ∗ (iprop(pt' c accO (Trace.chunk (iblk m c 0 t0_2) (iblk m c 1 t0_2) (iblk m c 2 t0_2) ⟨fo, fm, fl⟩).o
            ∗ pt' c accM (Trace.chunk (iblk m c 0 t0_2) (iblk m c 1 t0_2) (iblk m c 2 t0_2) ⟨fo, fm, fl⟩).m
            ∗ pt' c accL (Trace.chunk (iblk m c 0 t0_2) (iblk m c 1 t0_2) (iblk m c 2 t0_2) ⟨fo, fm, fl⟩).l
            ∗ pt' c (stage0_0 (cfg0.slots t0_2 0)) (iblk m c 0 t0_2) ∗ pt' c (stage0_1 (cfg0.slots t0_2 1)) (iblk m c 1 t0_2)
            ∗ pt' c (stage0_2 (cfg0.slots t0_2 2)) (iblk m c 2 t0_2) ∗ pt' c (stage0_3 (cfg0.slots t0_2 3)) x3) -∗ Q ⟨⟩))
      ⊢ wp frame (wpE (defs₀ (F := F)) 𝒱₀ c none) Set.univ (bodyAt0 (F := F) t0_2) Q := by
  iintro ⟨Ho, Hm, Hl, H0, H1, H2, H3, Hk⟩
  unfold bodyAt0
  sl_exec
  sl_step
  iapply Hk

  have e13 : run_pt2.sl.v13 m c = iblk m c 0 t0_2 := by unfold run_pt2.sl.v13; exact Memref.readAt_unit_zero (Elt F) _ hz4 _ _
  have e18 : run_pt2.sl.v18 m c = iblk m c 1 t0_2 := by unfold run_pt2.sl.v18; exact Memref.readAt_unit_zero (Elt F) _ hz4 _ _
  have e21 : run_pt2.sl.v21 m c = iblk m c 2 t0_2 := by unfold run_pt2.sl.v21; exact Memref.readAt_unit_zero (Elt F) _ hz4 _ _
  have er : run_pt2.sl.r m c = k0_pay12 (iblk m c 2 t0_2) := by
    show k0_pay12 (run_pt2.sl.v21 m c) = _; rw [e21]
  have er1 : run_pt2.sl.r_1 m c = k0_pay13 (iblk m c 0 t0_2) (iblk m c 1 t0_2) := by
    show k0_pay13 (run_pt2.sl.v13 m c) (run_pt2.sl.v18 m c) = _; rw [e13, e18]
  have er2 : run_pt2.sl.r_2 m c fm = k0_pay14 (iblk m c 0 t0_2) (iblk m c 1 t0_2) fm := by
    show k0_pay14 (run_pt2.sl.v13 m c) (run_pt2.sl.v18 m c) (View.readAt (Elt F) accM.view (Rect.unit ![0, 0] S8x32.size inb_S8x32_S8x32_0_0).toLoadRect fm) = _
    rw [e13, e18, rd_m]
  have er3 : run_pt2.sl.r_3 m c fm = k0_pay15 (iblk m c 0 t0_2) (iblk m c 1 t0_2) fm := by
    show k0_pay15 (run_pt2.sl.v13 m c) (run_pt2.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

theorem run_pt4 (c : Dev nD) (fo : Bf (F := F) c accO) (fm : Bf (F := F) c accM) (fl : Bf (F := F) c accL)
    (x3 : Bf (F := F) c (stage0_3 (cfg0.slots t0_4 3))) (Q : PUnit → sProp 𝕄) :
    iprop(pt' c accO fo ∗ pt' c accM fm ∗ pt' c accL fl ∗ pt' c (stage0_0 (cfg0.slots t0_4 0)) (iblk m c 0 t0_4) ∗ pt' c (stage0_1 (cfg0.slots t0_4 1)) (iblk m c 1 t0_4)
        ∗ pt' c (stage0_2 (cfg0.slots t0_4 2)) (iblk m c 2 t0_4) ∗ pt' c (stage0_3 (cfg0.slots t0_4 3)) x3
        ∗ (iprop(pt' c accO (Trace.chunk (iblk m c 0 t0_4) (iblk m c 1 t0_4) (iblk m c 2 t0_4) Trace.acc0).o
            ∗ pt' c accM (Trace.chunk (iblk m c 0 t0_4) (iblk m c 1 t0_4) (iblk m c 2 t0_4) Trace.acc0).m
            ∗ pt' c accL (Trace.chunk (iblk m c 0 t0_4) (iblk m c 1 t0_4) (iblk m c 2 t0_4) Trace.acc0).l
            ∗ pt' c (stage0_0 (cfg0.slots t0_4 0)) (iblk m c 0 t0_4) ∗ pt' c (stage0_1 (cfg0.slots t0_4 1)) (iblk m c 1 t0_4)
            ∗ pt' c (stage0_2 (cfg0.slots t0_4 2)) (iblk m c 2 t0_4) ∗ pt' c (stage0_3 (cfg0.slots t0_4 3)) x3) -∗ Q ⟨⟩))
      ⊢ wp frame (wpE (defs₀ (F := F)) 𝒱₀ c none) Set.univ (bodyAt0 (F := F) t0_4) Q := by
  iintro ⟨Ho, Hm, Hl, H0, H1, H2, H3, Hk⟩
  unfold bodyAt0
  sl_exec
  sl_step
  iapply Hk

  have e13 : run_pt4.sl.v13 m c = iblk m c 0 t0_4 := by unfold run_pt4.sl.v13; exact Memref.readAt_unit_zero (Elt F) _ hz4 _ _
  have e18 : run_pt4.sl.v18 m c = iblk m c 1 t0_4 := by unfold run_pt4.sl.v18; exact Memref.readAt_unit_zero (Elt F) _ hz4 _ _
  have e21 : run_pt4.sl.v21 m c = iblk m c 2 t0_4 := by unfold run_pt4.sl.v21; exact Memref.readAt_unit_zero (Elt F) _ hz4 _ _
  have ev25 : run_pt4.sl.v25 (F := F) = k0_pay9 := by unfold run_pt4.sl.v25 run_pt4.sl.Hm_1; exact View.readCov_unit_zero _ hz2 _ _
  have ev34 : run_pt4.sl.v34 (F := F) = k0_pay10 := by unfold run_pt4.sl.v34 run_pt4.sl.Hl_1; exact View.readCov_unit_zero _ hz2 _ _
  have ev40 : run_pt4.sl.v40 (F := F) = k0_pay11 := by unfold run_pt4.sl.v40 run_pt4.sl.Ho_1; exact View.readCov_unit_zero _ hz3 _ _
  have er : run_pt4.sl.r m c = k0_pay12 (iblk m c 2 t0_4) := by
    show k0_pay12 (run_pt4.sl.v21 m c) = _; rw [e21]
  have er1 : run_pt4.sl.r_1 m c = k0_pay13 (iblk m c 0 t0_4) (iblk m c 1 t0_4) := by
    show k0_pay13 (run_pt4.sl.v13 m c) (run_pt4.sl.v18 m c) = _; rw [e13, e18]
  have er2 : run_pt4.sl.r_2 m c = k0_pay14 (iblk m c 0 t0_4) (iblk m c 1 t0_4) k0_pay9 := by
    show k0_pay14 (run_pt4.sl.v13 m c) (run_pt4.sl.v18 m c) run_pt4.sl.v25 = _; rw [e13, e18, ev25]
  have er3 : run_pt4.sl.r_3 m c = k0_pay15 (iblk m c 0 t0_4) (iblk m c 1 t0_4) k0_pay9 := by
    show k0_pay15 (run_pt4.sl.v13 m c) (run_pt4.sl.v18 m c) run_pt4.sl.v25 = _; rw [e13, e18, ev25]
  rw [er, er1, er2, er3, ev34, ev40, wr_o, wr_m, wr_l]
  unfold Trace.chunk Trace.acc0
  isplitl [Ho]; · iexact Ho
  isplitl [Hm]; · iexact Hm
  isplitl [Hl]; · iexact Hl
  isplitl [H0]; · iexact H0
  isplitl [H1]; · iexact H1
  isplitl [H2]; · iexact H2
  iexact H3

theorem run_pt5 (c : Dev nD) (fo : Bf (F := F) c accO) (fm : Bf (F := F) c accM) (fl : Bf (F := F) c accL)
    (x3 : Bf (F := F) c (stage0_3 (cfg0.slots t0_5 3))) (Q : PUnit → sProp 𝕄) :
    iprop(pt' c accO fo ∗ pt' c accM fm ∗ pt' c accL fl ∗ pt' c (stage0_0 (cfg0.slots t0_5 0)) (iblk m c 0 t0_5) ∗ pt' c (stage0_1 (cfg0.slots t0_5 1)) (iblk m c 1 t0_5)
        ∗ pt' c (stage0_2 (cfg0.slots t0_5 2)) (iblk m c 2 t0_5) ∗ pt' c (stage0_3 (cfg0.slots t0_5 3)) x3
        ∗ (iprop(pt' c accO (Trace.chunk (iblk m c 0 t0_5) (iblk m c 1 t0_5) (iblk m c 2 t0_5) ⟨fo, fm, fl⟩).o
            ∗ pt' c accM (Trace.chunk (iblk m c 0 t0_5) (iblk m c 1 t0_5) (iblk m c 2 t0_5) ⟨fo, fm, fl⟩).m
            ∗ pt' c accL (Trace.chunk (iblk m c 0 t0_5) (iblk m c 1 t0_5) (iblk m c 2 t0_5) ⟨fo, fm, fl⟩).l
            ∗ pt' c (stage0_0 (cfg0.slots t0_5 0)) (iblk m c 0 t0_5) ∗ pt' c (stage0_1 (cfg0.slots t0_5 1)) (iblk m c 1 t0_5)
            ∗ pt' c (stage0_2 (cfg0.slots t0_5 2)) (iblk m c 2 t0_5) ∗ pt' c (stage0_3 (cfg0.slots t0_5 3)) x3) -∗ Q ⟨⟩))
      ⊢ wp frame (wpE (defs₀ (F := F)) 𝒱₀ c none) Set.univ (bodyAt0 (F := F) t0_5) Q := by
  iintro ⟨Ho, Hm, Hl, H0, H1, H2, H3, Hk⟩
  unfold bodyAt0
  sl_exec
  sl_step
  iapply Hk

  have e13 : run_pt5.sl.v13 m c = iblk m c 0 t0_5 := by unfold run_pt5.sl.v13; exact Memref.readAt_unit_zero (Elt F) _ hz4 _ _
  have e18 : run_pt5.sl.v18 m c = iblk m c 1 t0_5 := by unfold run_pt5.sl.v18; exact Memref.readAt_unit_zero (Elt F) _ hz4 _ _
  have e21 : run_pt5.sl.v21 m c = iblk m c 2 t0_5 := by unfold run_pt5.sl.v21; exact Memref.readAt_unit_zero (Elt F) _ hz4 _ _
  have er : run_pt5.sl.r m c = k0_pay12 (iblk m c 2 t0_5) := by
    show k0_pay12 (run_pt5.sl.v21 m c) = _; rw [e21]
  have er1 : run_pt5.sl.r_1 m c = k0_pay13 (iblk m c 0 t0_5) (iblk m c 1 t0_5) := by
    show k0_pay13 (run_pt5.sl.v13 m c) (run_pt5.sl.v18 m c) = _; rw [e13, e18]
  have er2 : run_pt5.sl.r_2 m c fm = k0_pay14 (iblk m c 0 t0_5) (iblk m c 1 t0_5) fm := by
    show k0_pay14 (run_pt5.sl.v13 m c) (run_pt5.sl.v18 m c) (View.readAt (Elt F) accM.view (Rect.unit ![0, 0] S8x32.size inb_S8x32_S8x32_0_0).toLoadRect fm) = _
    rw [e13, e18, rd_m]
  have er3 : run_pt5.sl.r_3 m c fm = k0_pay15 (iblk m c 0 t0_5) (iblk m c 1 t0_5) fm := by
    show k0_pay15 (run_pt5.sl.v13 m c) (run_pt5.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

theorem run_pt6 (c : Dev nD) (fo : Bf (F := F) c accO) (fm : Bf (F := F) c accM) (fl : Bf (F := F) c accL)
    (x3 : Bf (F := F) c (stage0_3 (cfg0.slots t0_6 3))) (Q : PUnit → sProp 𝕄) :
    iprop(pt' c accO fo ∗ pt' c accM fm ∗ pt' c accL fl ∗ pt' c (stage0_0 (cfg0.slots t0_6 0)) (iblk m c 0 t0_6) ∗ pt' c (stage0_1 (cfg0.slots t0_6 1)) (iblk m c 1 t0_6)
        ∗ pt' c (stage0_2 (cfg0.slots t0_6 2)) (iblk m c 2 t0_6) ∗ pt' c (stage0_3 (cfg0.slots t0_6 3)) x3
        ∗ (iprop(pt' c accO (Trace.chunk (iblk m c 0 t0_6) (iblk m c 1 t0_6) (iblk m c 2 t0_6) ⟨fo, fm, fl⟩).o
            ∗ pt' c accM (Trace.chunk (iblk m c 0 t0_6) (iblk m c 1 t0_6) (iblk m c 2 t0_6) ⟨fo, fm, fl⟩).m
            ∗ pt' c accL (Trace.chunk (iblk m c 0 t0_6) (iblk m c 1 t0_6) (iblk m c 2 t0_6) ⟨fo, fm, fl⟩).l
            ∗ pt' c (stage0_0 (cfg0.slots t0_6 0)) (iblk m c 0 t0_6) ∗ pt' c (stage0_1 (cfg0.slots t0_6 1)) (iblk m c 1 t0_6)
            ∗ pt' c (stage0_2 (cfg0.slots t0_6 2)) (iblk m c 2 t0_6) ∗ pt' c (stage0_3 (cfg0.slots t0_6 3)) x3) -∗ Q ⟨⟩))
      ⊢ wp frame (wpE (defs₀ (F := F)) 𝒱₀ c none) Set.univ (bodyAt0 (F := F) t0_6) Q := by
  iintro ⟨Ho, Hm, Hl, H0, H1, H2, H3, Hk⟩
  unfold bodyAt0
  sl_exec
  sl_step
  iapply Hk

  have e13 : run_pt6.sl.v13 m c = iblk m c 0 t0_6 := by unfold run_pt6.sl.v13; exact Memref.readAt_unit_zero (Elt F) _ hz4 _ _
  have e18 : run_pt6.sl.v18 m c = iblk m c 1 t0_6 := by unfold run_pt6.sl.v18; exact Memref.readAt_unit_zero (Elt F) _ hz4 _ _
  have e21 : run_pt6.sl.v21 m c = iblk m c 2 t0_6 := by unfold run_pt6.sl.v21; exact Memref.readAt_unit_zero (Elt F) _ hz4 _ _
  have er : run_pt6.sl.r m c = k0_pay12 (iblk m c 2 t0_6) := by
    show k0_pay12 (run_pt6.sl.v21 m c) = _; rw [e21]
  have er1 : run_pt6.sl.r_1 m c = k0_pay13 (iblk m c 0 t0_6) (iblk m c 1 t0_6) := by
    show k0_pay13 (run_pt6.sl.v13 m c) (run_pt6.sl.v18 m c) = _; rw [e13, e18]
  have er2 : run_pt6.sl.r_2 m c fm = k0_pay14 (iblk m c 0 t0_6) (iblk m c 1 t0_6) fm := by
    show k0_pay14 (run_pt6.sl.v13 m c) (run_pt6.sl.v18 m c) (View.readAt (Elt F) accM.view (Rect.unit ![0, 0] S8x32.size inb_S8x32_S8x32_0_0).toLoadRect fm) = _
    rw [e13, e18, rd_m]
  have er3 : run_pt6.sl.r_3 m c fm = k0_pay15 (iblk m c 0 t0_6) (iblk m c 1 t0_6) fm := by
    show k0_pay15 (run_pt6.sl.v13 m c) (run_pt6.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

theorem run_pt8 (c : Dev nD) (fo : Bf (F := F) c accO) (fm : Bf (F := F) c accM) (fl : Bf (F := F) c accL)
    (x3 : Bf (F := F) c (stage0_3 (cfg0.slots t0_8 3))) (Q : PUnit → sProp 𝕄) :
    iprop(pt' c accO fo ∗ pt' c accM fm ∗ pt' c accL fl ∗ pt' c (stage0_0 (cfg0.slots t0_8 0)) (iblk m c 0 t0_8) ∗ pt' c (stage0_1 (cfg0.slots t0_8 1)) (iblk m c 1 t0_8)
        ∗ pt' c (stage0_2 (cfg0.slots t0_8 2)) (iblk m c 2 t0_8) ∗ pt' c (stage0_3 (cfg0.slots t0_8 3)) x3
        ∗ (iprop(pt' c accO (Trace.chunk (iblk m c 0 t0_8) (iblk m c 1 t0_8) (iblk m c 2 t0_8) Trace.acc0).o
            ∗ pt' c accM (Trace.chunk (iblk m c 0 t0_8) (iblk m c 1 t0_8) (iblk m c 2 t0_8) Trace.acc0).m
            ∗ pt' c accL (Trace.chunk (iblk m c 0 t0_8) (iblk m c 1 t0_8) (iblk m c 2 t0_8) Trace.acc0).l
            ∗ pt' c (stage0_0 (cfg0.slots t0_8 0)) (iblk m c 0 t0_8) ∗ pt' c (stage0_1 (cfg0.slots t0_8 1)) (iblk m c 1 t0_8)
            ∗ pt' c (stage0_2 (cfg0.slots t0_8 2)) (iblk m c 2 t0_8) ∗ pt' c (stage0_3 (cfg0.slots t0_8 3)) x3) -∗ Q ⟨⟩))
      ⊢ wp frame (wpE (defs₀ (F := F)) 𝒱₀ c none) Set.univ (bodyAt0 (F := F) t0_8) Q := by
  iintro ⟨Ho, Hm, Hl, H0, H1, H2, H3, Hk⟩
  unfold bodyAt0
  sl_exec
  sl_step
  iapply Hk

  have e13 : run_pt8.sl.v13 m c = iblk m c 0 t0_8 := by unfold run_pt8.sl.v13; exact Memref.readAt_unit_zero (Elt F) _ hz4 _ _
  have e18 : run_pt8.sl.v18 m c = iblk m c 1 t0_8 := by unfold run_pt8.sl.v18; exact Memref.readAt_unit_zero (Elt F) _ hz4 _ _
  have e21 : run_pt8.sl.v21 m c = iblk m c 2 t0_8 := by unfold run_pt8.sl.v21; exact Memref.readAt_unit_zero (Elt F) _ hz4 _ _
  have ev25 : run_pt8.sl.v25 (F := F) = k0_pay9 := by unfold run_pt8.sl.v25 run_pt8.sl.Hm_1; exact View.readCov_unit_zero _ hz2 _ _
  have ev34 : run_pt8.sl.v34 (F := F) = k0_pay10 := by unfold run_pt8.sl.v34 run_pt8.sl.Hl_1; exact View.readCov_unit_zero _ hz2 _ _
  have ev40 : run_pt8.sl.v40 (F := F) = k0_pay11 := by unfold run_pt8.sl.v40 run_pt8.sl.Ho_1; exact View.readCov_unit_zero _ hz3 _ _
  have er : run_pt8.sl.r m c = k0_pay12 (iblk m c 2 t0_8) := by
    show k0_pay12 (run_pt8.sl.v21 m c) = _; rw [e21]
  have er1 : run_pt8.sl.r_1 m c = k0_pay13 (iblk m c 0 t0_8) (iblk m c 1 t0_8) := by
    show k0_pay13 (run_pt8.sl.v13 m c) (run_pt8.sl.v18 m c) = _; rw [e13, e18]
  have er2 : run_pt8.sl.r_2 m c = k0_pay14 (iblk m c 0 t0_8) (iblk m c 1 t0_8) k0_pay9 := by
    show k0_pay14 (run_pt8.sl.v13 m c) (run_pt8.sl.v18 m c) run_pt8.sl.v25 = _; rw [e13, e18, ev25]
  have er3 : run_pt8.sl.r_3 m c = k0_pay15 (iblk m c 0 t0_8) (iblk m c 1 t0_8) k0_pay9 := by
    show k0_pay15 (run_pt8.sl.v13 m c) (run_pt8.sl.v18 m c) run_pt8.sl.v25 = _; rw [e13, e18, ev25]
  rw [er, er1, er2, er3, ev34, ev40, wr_o, wr_m, wr_l]
  unfold Trace.chunk Trace.acc0
  isplitl [Ho]; · iexact Ho
  isplitl [Hm]; · iexact Hm
  isplitl [Hl]; · iexact Hl
  isplitl [H0]; · iexact H0
  isplitl [H1]; · iexact H1
  isplitl [H2]; · iexact H2
  iexact H3

theorem run_pt9 (c : Dev nD) (fo : Bf (F := F) c accO) (fm : Bf (F := F) c accM) (fl : Bf (F := F) c accL)
    (x3 : Bf (F := F) c (stage0_3 (cfg0.slots t0_9 3))) (Q : PUnit → sProp 𝕄) :
    iprop(pt' c accO fo ∗ pt' c accM fm ∗ pt' c accL fl ∗ pt' c (stage0_0 (cfg0.slots t0_9 0)) (iblk m c 0 t0_9) ∗ pt' c (stage0_1 (cfg0.slots t0_9 1)) (iblk m c 1 t0_9)
        ∗ pt' c (stage0_2 (cfg0.slots t0_9 2)) (iblk m c 2 t0_9) ∗ pt' c (stage0_3 (cfg0.slots t0_9 3)) x3
        ∗ (iprop(pt' c accO (Trace.chunk (iblk m c 0 t0_9) (iblk m c 1 t0_9) (iblk m c 2 t0_9) ⟨fo, fm, fl⟩).o
            ∗ pt' c accM (Trace.chunk (iblk m c 0 t0_9) (iblk m c 1 t0_9) (iblk m c 2 t0_9) ⟨fo, fm, fl⟩).m
            ∗ pt' c accL (Trace.chunk (iblk m c 0 t0_9) (iblk m c 1 t0_9) (iblk m c 2 t0_9) ⟨fo, fm, fl⟩).l
            ∗ pt' c (stage0_0 (cfg0.slots t0_9 0)) (iblk m c 0 t0_9) ∗ pt' c (stage0_1 (cfg0.slots t0_9 1)) (iblk m c 1 t0_9)
            ∗ pt' c (stage0_2 (cfg0.slots t0_9 2)) (iblk m c 2 t0_9) ∗ pt' c (stage0_3 (cfg0.slots t0_9 3)) x3) -∗ Q ⟨⟩))
      ⊢ wp frame (wpE (defs₀ (F := F)) 𝒱₀ c none) Set.univ (bodyAt0 (F := F) t0_9) Q := by
  iintro ⟨Ho, Hm, Hl, H0, H1, H2, H3, Hk⟩
  unfold bodyAt0
  sl_exec
  sl_step
  iapply Hk

  have e13 : run_pt9.sl.v13 m c = iblk m c 0 t0_9 := by unfold run_pt9.sl.v13; exact Memref.readAt_unit_zero (Elt F) _ hz4 _ _
  have e18 : run_pt9.sl.v18 m c = iblk m c 1 t0_9 := by unfold run_pt9.sl.v18; exact Memref.readAt_unit_zero (Elt F) _ hz4 _ _
  have e21 : run_pt9.sl.v21 m c = iblk m c 2 t0_9 := by unfold run_pt9.sl.v21; exact Memref.readAt_unit_zero (Elt F) _ hz4 _ _
  have er : run_pt9.sl.r m c = k0_pay12 (iblk m c 2 t0_9) := by
    show k0_pay12 (run_pt9.sl.v21 m c) = _; rw [e21]
  have er1 : run_pt9.sl.r_1 m c = k0_pay13 (iblk m c 0 t0_9) (iblk m c 1 t0_9) := by
    show k0_pay13 (run_pt9.sl.v13 m c) (run_pt9.sl.v18 m c) = _; rw [e13, e18]
  have er2 : run_pt9.sl.r_2 m c fm = k0_pay14 (iblk m c 0 t0_9) (iblk m c 1 t0_9) fm := by
    show k0_pay14 (run_pt9.sl.v13 m c) (run_pt9.sl.v18 m c) (View.readAt (Elt F) accM.view (Rect.unit ![0, 0] S8x32.size inb_S8x32_S8x32_0_0).toLoadRect fm) = _
    rw [e13, e18, rd_m]
  have er3 : run_pt9.sl.r_3 m c fm = k0_pay15 (iblk m c 0 t0_9) (iblk m c 1 t0_9) fm := by
    show k0_pay15 (run_pt9.sl.v13 m c) (run_pt9.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

theorem run_pt10 (c : Dev nD) (fo : Bf (F := F) c accO) (fm : Bf (F := F) c accM) (fl : Bf (F := F) c accL)
    (x3 : Bf (F := F) c (stage0_3 (cfg0.slots t0_10 3))) (Q : PUnit → sProp 𝕄) :
    iprop(pt' c accO fo ∗ pt' c accM fm ∗ pt' c accL fl ∗ pt' c (stage0_0 (cfg0.slots t0_10 0)) (iblk m c 0 t0_10) ∗ pt' c (stage0_1 (cfg0.slots t0_10 1)) (iblk m c 1 t0_10)
        ∗ pt' c (stage0_2 (cfg0.slots t0_10 2)) (iblk m c 2 t0_10) ∗ pt' c (stage0_3 (cfg0.slots t0_10 3)) x3
        ∗ (iprop(pt' c accO (Trace.chunk (iblk m c 0 t0_10) (iblk m c 1 t0_10) (iblk m c 2 t0_10) ⟨fo, fm, fl⟩).o
            ∗ pt' c accM (Trace.chunk (iblk m c 0 t0_10) (iblk m c 1 t0_10) (iblk m c 2 t0_10) ⟨fo, fm, fl⟩).m
            ∗ pt' c accL (Trace.chunk (iblk m c 0 t0_10) (iblk m c 1 t0_10) (iblk m c 2 t0_10) ⟨fo, fm, fl⟩).l
            ∗ pt' c (stage0_0 (cfg0.slots t0_10 0)) (iblk m c 0 t0_10) ∗ pt' c (stage0_1 (cfg0.slots t0_10 1)) (iblk m c 1 t0_10)
            ∗ pt' c (stage0_2 (cfg0.slots t0_10 2)) (iblk m c 2 t0_10) ∗ pt' c (stage0_3 (cfg0.slots t0_10 3)) x3) -∗ Q ⟨⟩))
      ⊢ wp frame (wpE (defs₀ (F := F)) 𝒱₀ c none) Set.univ (bodyAt0 (F := F) t0_10) Q := by
  iintro ⟨Ho, Hm, Hl, H0, H1, H2, H3, Hk⟩
  unfold bodyAt0
  sl_exec
  sl_step
  iapply Hk

  have e13 : run_pt10.sl.v13 m c = iblk m c 0 t0_10 := by unfold run_pt10.sl.v13; exact Memref.readAt_unit_zero (Elt F) _ hz4 _ _
  have e18 : run_pt10.sl.v18 m c = iblk m c 1 t0_10 := by unfold run_pt10.sl.v18; exact Memref.readAt_unit_zero (Elt F) _ hz4 _ _
  have e21 : run_pt10.sl.v21 m c = iblk m c 2 t0_10 := by unfold run_pt10.sl.v21; exact Memref.readAt_unit_zero (Elt F) _ hz4 _ _
  have er : run_pt10.sl.r m c = k0_pay12 (iblk m c 2 t0_10) := by
    show k0_pay12 (run_pt10.sl.v21 m c) = _; rw [e21]
  have er1 : run_pt10.sl.r_1 m c = k0_pay13 (iblk m c 0 t0_10) (iblk m c 1 t0_10) := by
    show k0_pay13 (run_pt10.sl.v13 m c) (run_pt10.sl.v18 m c) = _; rw [e13, e18]
  have er2 : run_pt10.sl.r_2 m c fm = k0_pay14 (iblk m c 0 t0_10) (iblk m c 1 t0_10) fm := by
    show k0_pay14 (run_pt10.sl.v13 m c) (run_pt10.sl.v18 m c) (View.readAt (Elt F) accM.view (Rect.unit ![0, 0] S8x32.size inb_S8x32_S8x32_0_0).toLoadRect fm) = _
    rw [e13, e18, rd_m]
  have er3 : run_pt10.sl.r_3 m c fm = k0_pay15 (iblk m c 0 t0_10) (iblk m c 1 t0_10) fm := by
    show k0_pay15 (run_pt10.sl.v13 m c) (run_pt10.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

theorem run_pt12 (c : Dev nD) (fo : Bf (F := F) c accO) (fm : Bf (F := F) c accM) (fl : Bf (F := F) c accL)
    (x3 : Bf (F := F) c (stage0_3 (cfg0.slots t0_12 3))) (Q : PUnit → sProp 𝕄) :
    iprop(pt' c accO fo ∗ pt' c accM fm ∗ pt' c accL fl ∗ pt' c (stage0_0 (cfg0.slots t0_12 0)) (iblk m c 0 t0_12) ∗ pt' c (stage0_1 (cfg0.slots t0_12 1)) (iblk m c 1 t0_12)
        ∗ pt' c (stage0_2 (cfg0.slots t0_12 2)) (iblk m c 2 t0_12) ∗ pt' c (stage0_3 (cfg0.slots t0_12 3)) x3
        ∗ (iprop(pt' c accO (Trace.chunk (iblk m c 0 t0_12) (iblk m c 1 t0_12) (iblk m c 2 t0_12) Trace.acc0).o
            ∗ pt' c accM (Trace.chunk (iblk m c 0 t0_12) (iblk m c 1 t0_12) (iblk m c 2 t0_12) Trace.acc0).m
            ∗ pt' c accL (Trace.chunk (iblk m c 0 t0_12) (iblk m c 1 t0_12) (iblk m c 2 t0_12) Trace.acc0).l
            ∗ pt' c (stage0_0 (cfg0.slots t0_12 0)) (iblk m c 0 t0_12) ∗ pt' c (stage0_1 (cfg0.slots t0_12 1)) (iblk m c 1 t0_12)
            ∗ pt' c (stage0_2 (cfg0.slots t0_12 2)) (iblk m c 2 t0_12) ∗ pt' c (stage0_3 (cfg0.slots t0_12 3)) x3) -∗ Q ⟨⟩))
      ⊢ wp frame (wpE (defs₀ (F := F)) 𝒱₀ c none) Set.univ (bodyAt0 (F := F) t0_12) Q := by
  iintro ⟨Ho, Hm, Hl, H0, H1, H2, H3, Hk⟩
  unfold bodyAt0
  sl_exec
  sl_step
  iapply Hk

  have e13 : run_pt12.sl.v13 m c = iblk m c 0 t0_12 := by unfold run_pt12.sl.v13; exact Memref.readAt_unit_zero (Elt F) _ hz4 _ _
  have e18 : run_pt12.sl.v18 m c = iblk m c 1 t0_12 := by unfold run_pt12.sl.v18; exact Memref.readAt_unit_zero (Elt F) _ hz4 _ _
  have e21 : run_pt12.sl.v21 m c = iblk m c 2 t0_12 := by unfold run_pt12.sl.v21; exact Memref.readAt_unit_zero (Elt F) _ hz4 _ _
  have ev25 : run_pt12.sl.v25 (F := F) = k0_pay9 := by unfold run_pt12.sl.v25 run_pt12.sl.Hm_1; exact View.readCov_unit_zero _ hz2 _ _
  have ev34 : run_pt12.sl.v34 (F := F) = k0_pay10 := by unfold run_pt12.sl.v34 run_pt12.sl.Hl_1; exact View.readCov_unit_zero _ hz2 _ _
  have ev40 : run_pt12.sl.v40 (F := F) = k0_pay11 := by unfold run_pt12.sl.v40 run_pt12.sl.Ho_1; exact View.readCov_unit_zero _ hz3 _ _
  have er : run_pt12.sl.r m c = k0_pay12 (iblk m c 2 t0_12) := by
    show k0_pay12 (run_pt12.sl.v21 m c) = _; rw [e21]
  have er1 : run_pt12.sl.r_1 m c = k0_pay13 (iblk m c 0 t0_12) (iblk m c 1 t0_12) := by
    show k0_pay13 (run_pt12.sl.v13 m c) (run_pt12.sl.v18 m c) = _; rw [e13, e18]
  have er2 : run_pt12.sl.r_2 m c = k0_pay14 (iblk m c 0 t0_12) (iblk m c 1 t0_12) k0_pay9 := by
    show k0_pay14 (run_pt12.sl.v13 m c) (run_pt12.sl.v18 m c) run_pt12.sl.v25 = _; rw [e13, e18, ev25]
  have er3 : run_pt12.sl.r_3 m c = k0_pay15 (iblk m c 0 t0_12) (iblk m c 1 t0_12) k0_pay9 := by
    show k0_pay15 (run_pt12.sl.v13 m c) (run_pt12.sl.v18 m c) run_pt12.sl.v25 = _; rw [e13, e18, ev25]
  rw [er, er1, er2, er3, ev34, ev40, wr_o, wr_m, wr_l]
  unfold Trace.chunk Trace.acc0
  isplitl [Ho]; · iexact Ho
  isplitl [Hm]; · iexact Hm
  isplitl [Hl]; · iexact Hl
  isplitl [H0]; · iexact H0
  isplitl [H1]; · iexact H1
  isplitl [H2]; · iexact H2
  iexact H3

theorem run_pt13 (c : Dev nD) (fo : Bf (F := F) c accO) (fm : Bf (F := F) c accM) (fl : Bf (F := F) c accL)
    (x3 : Bf (F := F) c (stage0_3 (cfg0.slots t0_13 3))) (Q : PUnit → sProp 𝕄) :
    iprop(pt' c accO fo ∗ pt' c accM fm ∗ pt' c accL fl ∗ pt' c (stage0_0 (cfg0.slots t0_13 0)) (iblk m c 0 t0_13) ∗ pt' c (stage0_1 (cfg0.slots t0_13 1)) (iblk m c 1 t0_13)
        ∗ pt' c (stage0_2 (cfg0.slots t0_13 2)) (iblk m c 2 t0_13) ∗ pt' c (stage0_3 (cfg0.slots t0_13 3)) x3
        ∗ (iprop(pt' c accO (Trace.chunk (iblk m c 0 t0_13) (iblk m c 1 t0_13) (iblk m c 2 t0_13) ⟨fo, fm, fl⟩).o
            ∗ pt' c accM (Trace.chunk (iblk m c 0 t0_13) (iblk m c 1 t0_13) (iblk m c 2 t0_13) ⟨fo, fm, fl⟩).m
            ∗ pt' c accL (Trace.chunk (iblk m c 0 t0_13) (iblk m c 1 t0_13) (iblk m c 2 t0_13) ⟨fo, fm, fl⟩).l
            ∗ pt' c (stage0_0 (cfg0.slots t0_13 0)) (iblk m c 0 t0_13) ∗ pt' c (stage0_1 (cfg0.slots t0_13 1)) (iblk m c 1 t0_13)
            ∗ pt' c (stage0_2 (cfg0.slots t0_13 2)) (iblk m c 2 t0_13) ∗ pt' c (stage0_3 (cfg0.slots t0_13 3)) x3) -∗ Q ⟨⟩))
      ⊢ wp frame (wpE (defs₀ (F := F)) 𝒱₀ c none) Set.univ (bodyAt0 (F := F) t0_13) Q := by
  iintro ⟨Ho, Hm, Hl, H0, H1, H2, H3, Hk⟩
  unfold bodyAt0
  sl_exec
  sl_step
  iapply Hk

  have e13 : run_pt13.sl.v13 m c = iblk m c 0 t0_13 := by unfold run_pt13.sl.v13; exact Memref.readAt_unit_zero (Elt F) _ hz4 _ _
  have e18 : run_pt13.sl.v18 m c = iblk m c 1 t0_13 := by unfold run_pt13.sl.v18; exact Memref.readAt_unit_zero (Elt F) _ hz4 _ _
  have e21 : run_pt13.sl.v21 m c = iblk m c 2 t0_13 := by unfold run_pt13.sl.v21; exact Memref.readAt_unit_zero (Elt F) _ hz4 _ _
  have er : run_pt13.sl.r m c = k0_pay12 (iblk m c 2 t0_13) := by
    show k0_pay12 (run_pt13.sl.v21 m c) = _; rw [e21]
  have er1 : run_pt13.sl.r_1 m c = k0_pay13 (iblk m c 0 t0_13) (iblk m c 1 t0_13) := by
    show k0_pay13 (run_pt13.sl.v13 m c) (run_pt13.sl.v18 m c) = _; rw [e13, e18]
  have er2 : run_pt13.sl.r_2 m c fm = k0_pay14 (iblk m c 0 t0_13) (iblk m c 1 t0_13) fm := by
    show k0_pay14 (run_pt13.sl.v13 m c) (run_pt13.sl.v18 m c) (View.readAt (Elt F) accM.view (Rect.unit ![0, 0] S8x32.size inb_S8x32_S8x32_0_0).toLoadRect fm) = _
    rw [e13, e18, rd_m]
  have er3 : run_pt13.sl.r_3 m c fm = k0_pay15 (iblk m c 0 t0_13) (iblk m c 1 t0_13) fm := by
    show k0_pay15 (run_pt13.sl.v13 m c) (run_pt13.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

theorem run_pt14 (c : Dev nD) (fo : Bf (F := F) c accO) (fm : Bf (F := F) c accM) (fl : Bf (F := F) c accL)
    (x3 : Bf (F := F) c (stage0_3 (cfg0.slots t0_14 3))) (Q : PUnit → sProp 𝕄) :
    iprop(pt' c accO fo ∗ pt' c accM fm ∗ pt' c accL fl ∗ pt' c (stage0_0 (cfg0.slots t0_14 0)) (iblk m c 0 t0_14) ∗ pt' c (stage0_1 (cfg0.slots t0_14 1)) (iblk m c 1 t0_14)
        ∗ pt' c (stage0_2 (cfg0.slots t0_14 2)) (iblk m c 2 t0_14) ∗ pt' c (stage0_3 (cfg0.slots t0_14 3)) x3
        ∗ (iprop(pt' c accO (Trace.chunk (iblk m c 0 t0_14) (iblk m c 1 t0_14) (iblk m c 2 t0_14) ⟨fo, fm, fl⟩).o
            ∗ pt' c accM (Trace.chunk (iblk m c 0 t0_14) (iblk m c 1 t0_14) (iblk m c 2 t0_14) ⟨fo, fm, fl⟩).m
            ∗ pt' c accL (Trace.chunk (iblk m c 0 t0_14) (iblk m c 1 t0_14) (iblk m c 2 t0_14) ⟨fo, fm, fl⟩).l
            ∗ pt' c (stage0_0 (cfg0.slots t0_14 0)) (iblk m c 0 t0_14) ∗ pt' c (stage0_1 (cfg0.slots t0_14 1)) (iblk m c 1 t0_14)
            ∗ pt' c (stage0_2 (cfg0.slots t0_14 2)) (iblk m c 2 t0_14) ∗ pt' c (stage0_3 (cfg0.slots t0_14 3)) x3) -∗ Q ⟨⟩))
      ⊢ wp frame (wpE (defs₀ (F := F)) 𝒱₀ c none) Set.univ (bodyAt0 (F := F) t0_14) Q := by
  iintro ⟨Ho, Hm, Hl, H0, H1, H2, H3, Hk⟩
  unfold bodyAt0
  sl_exec
  sl_step
  iapply Hk

  have e13 : run_pt14.sl.v13 m c = iblk m c 0 t0_14 := by unfold run_pt14.sl.v13; exact Memref.readAt_unit_zero (Elt F) _ hz4 _ _
  have e18 : run_pt14.sl.v18 m c = iblk m c 1 t0_14 := by unfold run_pt14.sl.v18; exact Memref.readAt_unit_zero (Elt F) _ hz4 _ _
  have e21 : run_pt14.sl.v21 m c = iblk m c 2 t0_14 := by unfold run_pt14.sl.v21; exact Memref.readAt_unit_zero (Elt F) _ hz4 _ _
  have er : run_pt14.sl.r m c = k0_pay12 (iblk m c 2 t0_14) := by
    show k0_pay12 (run_pt14.sl.v21 m c) = _; rw [e21]
  have er1 : run_pt14.sl.r_1 m c = k0_pay13 (iblk m c 0 t0_14) (iblk m c 1 t0_14) := by
    show k0_pay13 (run_pt14.sl.v13 m c) (run_pt14.sl.v18 m c) = _; rw [e13, e18]
  have er2 : run_pt14.sl.r_2 m c fm = k0_pay14 (iblk m c 0 t0_14) (iblk m c 1 t0_14) fm := by
    show k0_pay14 (run_pt14.sl.v13 m c) (run_pt14.sl.v18 m c) (View.readAt (Elt F) accM.view (Rect.unit ![0, 0] S8x32.size inb_S8x32_S8x32_0_0).toLoadRect fm) = _
    rw [e13, e18, rd_m]
  have er3 : run_pt14.sl.r_3 m c fm = k0_pay15 (iblk m c 0 t0_14) (iblk m c 1 t0_14) fm := by
    show k0_pay15 (run_pt14.sl.v13 m c) (run_pt14.sl.v18 m c) (View.readAt (Elt F) accM.view (Rect.unit ![0, 0] S8x32.size inb_S8x32_S8x32_0_0).toLoadRect fm) = _
    rw [e13, e18, rd_m]
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  iexact H3

end Cert.KernelProof

end
-- ==== Proof.KBlockRead.lean ====
/-
  The block of an input array staged at a grid point, read at coordinates inside the block, is the array at block
  index times block extent plus the coordinate inside the block.
-/
import proofs.«900428_g7700000000000429_dist_flashdec_v7x_xyz2x2x4_y_b4_sq32_skv4096_h8_d128_f32_1_alg».proof.Proof.Gen.Kernel.Frame
import Idealize.ShloMosaic.Lib.ValueIdx
import Idealize.ShloMosaic.Lib.Pipeline.Value

noncomputable section

namespace Cert.Kernel.InputFacts

open Idealize.ShloMosaic Idealize.ShloMosaic.ValueIdx Idealize.SL.Sem

/-! ## Blocks -/

section Blocks

open Cert.Kernel Cert.Kernel.Gen

variable {F : FTy → Type} [FloatOps F]
variable (m : (ℓ : Loc nD τ sig) → Buf (Elt F) ℓ)

/-- Window 0's block index at grid point `t`: `(t / 4, 0, 0, 0)`. -/
theorem idx_facts0 : ∀ t : Fin cfg0.N, win0_0.index t (0 : Fin 4) = t.val / 4 ∧ win0_0.index t (1 : Fin 4) = 0
    ∧ win0_0.index t (2 : Fin 4) = 0 ∧ win0_0.index t (3 : Fin 4) = 0 :=
  (by decide +kernel : ∀ t : Fin grid0.N, _)

/-- Window 1's block index at grid point `t`: `(t / 4, t % 4, 0, 0)`. -/
theorem idx_facts1 : ∀ t : Fin cfg0.N, win0_1.index t (0 : Fin 4) = t.val / 4 ∧ win0_1.index t (1 : Fin 4) = t.val % 4
    ∧ win0_1.index t (2 : Fin 4) = 0 ∧ win0_1.index t (3 : Fin 4) = 0 :=
  (by decide +kernel : ∀ t : Fin grid0.N, _)

/-- Window 2's block index at grid point `t`: `(t / 4, t % 4, 0, 0)`. -/
theorem idx_facts2 : ∀ t : Fin cfg0.N, win0_2.index t (0 : Fin 4) = t.val / 4 ∧ win0_2.index t (1 : Fin 4) = t.val % 4
    ∧ win0_2.index t (2 : Fin 4) = 0 ∧ win0_2.index t (3 : Fin 4) = 0 :=
  (by decide +kernel : ∀ t : Fin grid0.N, _)

/-- A grid point `t` of the sixteen (four chunks of keys for each of four batch entries) has batch entry `t / 4` below `4`. -/
theorem div4_lt (t : Fin cfg0.N) : t.val / 4 < 4 := by
  have h : t.val < grid0.N := t.isLt
  rw [N_0] at h
  omega

/-- Key `j` of chunk `t % 4` is key `(t % 4) · 1024 + j` of the device's `4096`. -/
theorem chunk_lt (t : Fin cfg0.N) (j : Fin 1024) : (t.val % 4) * 1024 + j.val < 4096 := by
  have := j.isLt
  omega

/-- The block of input 0 staged at grid point `t`, at `(0, q, h, e)`: the array at `(t / 4, q, h, e)`. -/
theorem iblk0_apply (c : Dev nD) (t : Fin cfg0.N) (q : Fin 32) (h : Fin 8) (e : Fin 128) :
    iblk m c 0 t (ix4 (0 : Fin 1) q h e) = V m c main_arg0 (ix4 (⟨t.val / 4, div4_lt t⟩ : Fin 4) q h e) := by
  obtain ⟨e0, e1, e2, e3⟩ := idx_facts0 t
  show V m c main_arg0 (((cfg0.win 0).blk t).view.emb (ix4 (0 : Fin 1) q h e)) = _
  refine congrArg (V m c main_arg0) (funext fun a => Fin.ext ?_)
  match a with
  | ⟨0, _⟩ =>
    show win0_0.index t (0 : Fin 4) * 1 + 1 * (0 : Fin 1).val = t.val / 4
    rw [e0]; simp
  | ⟨1, _⟩ =>
    show win0_0.index t (1 : Fin 4) * 32 + 1 * q.val = q.val
    rw [e1]; omega
  | ⟨2, _⟩ =>
    show win0_0.index t (2 : Fin 4) * 8 + 1 * h.val = h.val
    rw [e2]; omega
  | ⟨3, _⟩ =>
    show win0_0.index t (3 : Fin 4) * 128 + 1 * e.val = e.val
    rw [e3]; omega

/-- The block of input 1 staged at grid point `t`, at `(0, j, h, e)`: the array at `(t / 4, (t % 4) · 1024 + j, h, e)`. -/
theorem iblk1_apply (c : Dev nD) (t : Fin cfg0.N) (j : Fin 1024) (h : Fin 8) (e : Fin 128) :
    iblk m c 1 t (ix4 (0 : Fin 1) j h e)
      = V m c main_arg1 (ix4 (⟨t.val / 4, div4_lt t⟩ : Fin 4) (⟨(t.val % 4) * 1024 + j.val, chunk_lt t j⟩ : Fin 4096) h e) := by
  obtain ⟨e0, e1, e2, e3⟩ := idx_facts1 t
  show V m c main_arg1 (((cfg0.win 1).blk t).view.emb (ix4 (0 : Fin 1) j h e)) = _
  refine congrArg (V m c main_arg1) (funext fun a => Fin.ext ?_)
  match a with
  | ⟨0, _⟩ =>
    show win0_1.index t (0 : Fin 4) * 1 + 1 * (0 : Fin 1).val = t.val / 4
    rw [e0]; simp
  | ⟨1, _⟩ =>
    show win0_1.index t (1 : Fin 4) * 1024 + 1 * j.val = t.val % 4 * 1024 + j.val
    rw [e1]; omega
  | ⟨2, _⟩ =>
    show win0_1.index t (2 : Fin 4) * 8 + 1 * h.val = h.val
    rw [e2]; omega
  | ⟨3, _⟩ =>
    show win0_1.index t (3 : Fin 4) * 128 + 1 * e.val = e.val
    rw [e3]; omega

/-- The block of input 2 staged at grid point `t`, at `(0, j, h, e)`: the array at `(t / 4, (t % 4) · 1024 + j, h, e)`. -/
theorem iblk2_apply (c : Dev nD) (t : Fin cfg0.N) (j : Fin 1024) (h : Fin 8) (e : Fin 128) :
    iblk m c 2 t (ix4 (0 : Fin 1) j h e)
      = V m c main_arg2 (ix4 (⟨t.val / 4, div4_lt t⟩ : Fin 4) (⟨(t.val % 4) * 1024 + j.val, chunk_lt t j⟩ : Fin 4096) h e) := by
  obtain ⟨e0, e1, e2, e3⟩ := idx_facts2 t
  show V m c main_arg2 (((cfg0.win 2).blk t).view.emb (ix4 (0 : Fin 1) j h e)) = _
  refine congrArg (V m c main_arg2) (funext fun a => Fin.ext ?_)
  match a with
  | ⟨0, _⟩ =>
    show win0_2.index t (0 : Fin 4) * 1 + 1 * (0 : Fin 1).val = t.val / 4
    rw [e0]; simp
  | ⟨1, _⟩ =>
    show win0_2.index t (1 : Fin 4) * 1024 + 1 * j.val = t.val % 4 * 1024 + j.val
    rw [e1]; omega
  | ⟨2, _⟩ =>
    show win0_2.index t (2 : Fin 4) * 8 + 1 * h.val = h.val
    rw [e2]; omega
  | ⟨3, _⟩ =>
    show win0_2.index t (3 : Fin 4) * 128 + 1 * e.val = e.val
    rw [e3]; omega

end Blocks

end Cert.Kernel.InputFacts

end

/-- info: 'Cert.Kernel.InputFacts.iblk0_apply' depends on axioms: [propext, Classical.choice, Quot.sound] -/
#guard_msgs in #print axioms Cert.Kernel.InputFacts.iblk0_apply

/-- info: 'Cert.Kernel.InputFacts.iblk1_apply' depends on axioms: [propext, Classical.choice, Quot.sound] -/
#guard_msgs in #print axioms Cert.Kernel.InputFacts.iblk1_apply

/-- info: 'Cert.Kernel.InputFacts.iblk2_apply' depends on axioms: [propext, Classical.choice, Quot.sound] -/
#guard_msgs in #print axioms Cert.Kernel.InputFacts.iblk2_apply
-- ==== Proof.KTraceFacts.lean ====
/-
  The rows of a device's hand-over buffers, read off the trace: rows `b` of the output buffer are the re-laid
  numerator rows of batch entry `b`'s final accumulators, and the two statistics rows of `b` its final running
  maximum and normaliser.
-/
import proofs.«900428_g7700000000000429_dist_flashdec_v7x_xyz2x2x4_y_b4_sq32_skv4096_h8_d128_f32_1_alg».proof.Proof.KData
import Idealize.ShloMosaic.Lib.ValueIdx

noncomputable section

namespace Cert.KernelProof

open Cert.Kernel Cert.Kernel.Gen
open Idealize.ShloMosaic Idealize.ShloMosaic.ValueIdx

variable {F : FTy → Type} [FloatOps F]

variable (m : (ℓ : Loc nD τ sig) → Buf (Elt F) ℓ)

/-- An index of a block with one leading row is that row's index. -/
theorem ix4_unit_o (x : S1x32x8x128.Idx) : ix4 (0 : Fin 1) (x 1) (x 2) (x 3) = x := by
  funext a
  match a with
  | ⟨0, _⟩ => exact Fin.ext (by show (0 : ℕ) = (x 0).val; have h : (x 0).val < 1 := (x 0).isLt; omega)
  | ⟨1, _⟩ => rfl
  | ⟨2, _⟩ => rfl
  | ⟨3, _⟩ => rfl

theorem ix4_unit_s (x : S1x1x8x32.Idx) : ix4 (0 : Fin 1) (0 : Fin 1) (x 2) (x 3) = x := by
  funext a
  match a with
  | ⟨0, _⟩ => exact Fin.ext (by show (0 : ℕ) = (x 0).val; have h : (x 0).val < 1 := (x 0).isLt; omega)
  | ⟨1, _⟩ => exact Fin.ext (by show (0 : ℕ) = (x 1).val; have h : (x 1).val < 1 := (x 1).isLt; omega)
  | ⟨2, _⟩ => rfl
  | ⟨3, _⟩ => rfl

theorem OV_rows (c : Dev nD) (b : Fin 4) (x : S1x32x8x128.Idx) :
    OV m c (ix4 b (x 1) (x 2) (x 3)) = k0_pay5 (Trace.accAt (XQ m c) (XK m c) (XV m c) b 4).o x := by
  show k0_pay5 (Trace.accAt (XQ m c) (XK m c) (XV m c) b 4).o (ix4 (0 : Fin 1) (x 1) (x 2) (x 3)) = _
  exact congrArg _ (ix4_unit_o x)

theorem SV_row0 (c : Dev nD) (b : Fin 4) (x : S1x1x8x32.Idx) :
    SV m c (ix4 b (0 : Fin 2) (x 2) (x 3)) = k0_pay6 (Trace.accAt (XQ m c) (XK m c) (XV m c) b 4).m x := by
  show (if ((0 : Fin 2) : Fin 2).val = 0 then k0_pay6 (Trace.accAt (XQ m c) (XK m c) (XV m c) b 4).m (ix4 (0 : Fin 1) (0 : Fin 1) (x 2) (x 3))
    else k0_pay7 (Trace.accAt (XQ m c) (XK m c) (XV m c) b 4).l (ix4 (0 : Fin 1) (0 : Fin 1) (x 2) (x 3))) = _
  exact (if_pos rfl).trans (congrArg _ (ix4_unit_s x))

theorem SV_row1 (c : Dev nD) (b : Fin 4) (x : S1x1x8x32.Idx) :
    SV m c (ix4 b (1 : Fin 2) (x 2) (x 3)) = k0_pay7 (Trace.accAt (XQ m c) (XK m c) (XV m c) b 4).l x := by
  show (if ((1 : Fin 2) : Fin 2).val = 0 then k0_pay6 (Trace.accAt (XQ m c) (XK m c) (XV m c) b 4).m (ix4 (0 : Fin 1) (0 : Fin 1) (x 2) (x 3))
    else k0_pay7 (Trace.accAt (XQ m c) (XK m c) (XV m c) b 4).l (ix4 (0 : Fin 1) (0 : Fin 1) (x 2) (x 3))) = _
  exact (if_neg (by decide)).trans (congrArg _ (ix4_unit_s x))

end Cert.KernelProof

end
-- ==== Proof.KAccStep.lean ====
/-
  One grid point's step of the trace: the accumulators of batch entry `b` after `k + 1` chunks are the `chunk` of the
  blocks staged at point `(b, k)` over the accumulators after `k` chunks. The query block staged at any chunk of a
  batch entry is the entry's one query block (the index map of that window ignores the chunk).
-/
import proofs.«900428_g7700000000000429_dist_flashdec_v7x_xyz2x2x4_y_b4_sq32_skv4096_h8_d128_f32_1_alg».proof.Proof.KTraceFacts
import proofs.«900428_g7700000000000429_dist_flashdec_v7x_xyz2x2x4_y_b4_sq32_skv4096_h8_d128_f32_1_alg».proof.Proof.KBlockRead

noncomputable section

namespace Cert.KernelProof

open Cert.Kernel Cert.Kernel.Gen
open Idealize.ShloMosaic Idealize.ShloMosaic.ValueIdx

variable {F : FTy → Type} [FloatOps F]

variable (m : (ℓ : Loc nD τ sig) → Buf (Elt F) ℓ)

theorem pt_div4 (b k : Fin 4) : (⟨(pt b k).val / 4, Cert.Kernel.InputFacts.div4_lt (pt b k)⟩ : Fin 4) = b :=
  Fin.ext (by show (4 * b.val + k.val) / 4 = b.val; have := k.isLt; omega)

theorem iblk0_pt (c : Dev nD) (b k : Fin 4) : iblk m c 0 (pt b k) = XQ m c b := by
  funext y
  have h1 := Cert.Kernel.InputFacts.iblk0_apply m c (pt b k) (y 1) (y 2) (y 3)
  have h2 := Cert.Kernel.InputFacts.iblk0_apply m c (pt b 0) (y 1) (y 2) (y 3)
  rw [pt_div4] at h1 h2
  have e := ix4_unit_o y
  exact (congrArg (iblk m c 0 (pt b k)) e.symm).trans (h1.trans (h2.symm.trans (congrArg (iblk m c 0 (pt b 0)) e)))

theorem acc_step (c : Dev nD) (b : Fin 4) (k : ℕ) (hk : k < 4) :
    Trace.accAt (XQ m c) (XK m c) (XV m c) b (k + 1)
      = Trace.chunk (iblk m c 0 (pt b ⟨k, hk⟩)) (iblk m c 1 (pt b ⟨k, hk⟩)) (iblk m c 2 (pt b ⟨k, hk⟩)) (Trace.accAt (XQ m c) (XK m c) (XV m c) b k) := by
  have hk4 : (⟨k % 4, Nat.mod_lt _ (by decide)⟩ : Fin 4) = ⟨k, hk⟩ := Fin.ext (Nat.mod_eq_of_lt hk)
  show Trace.chunk (XQ m c b) (XK m c b ⟨k % 4, Nat.mod_lt _ (by decide)⟩) (XV m c b ⟨k % 4, Nat.mod_lt _ (by decide)⟩) (Trace.accAt (XQ m c) (XK m c) (XV m c) b k) = _
  rw [hk4, iblk0_pt m c b ⟨k, hk⟩]
  rfl

end Cert.KernelProof

end
-- ==== Proof.KBodyPlain.lean ====
/-
  The body obligation at the twelve grid points that are one chunk step of the accumulators and nothing else: batch
  entry `b`, chunk `k ≠ 3`. Before such a point the invariant holds the accumulators at the trace's value after `k`
  chunks (anything, at a first chunk); the body leaves them at the value after `k + 1` chunks, every staging buffer as
  it was, and every other part of the invariant and what the device owes are the same before and after.
-/
import proofs.«900428_g7700000000000429_dist_flashdec_v7x_xyz2x2x4_y_b4_sq32_skv4096_h8_d128_f32_1_alg».proof.Proof.KBodyGoal
import proofs.«900428_g7700000000000429_dist_flashdec_v7x_xyz2x2x4_y_b4_sq32_skv4096_h8_d128_f32_1_alg».proof.Proof.KBodyRuns
import proofs.«900428_g7700000000000429_dist_flashdec_v7x_xyz2x2x4_y_b4_sq32_skv4096_h8_d128_f32_1_alg».proof.Proof.KBlockRead
import proofs.«900428_g7700000000000429_dist_flashdec_v7x_xyz2x2x4_y_b4_sq32_skv4096_h8_d128_f32_1_alg».proof.Proof.KAccStep
import Idealize.ShloMosaic.Lib.Pipeline.FrameBody

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Input window 0's current staging buffer holds its block at every grid point, fetched there or not. -/
theorem before_in0 (c : Dev nD) (t : Fin cfg0.N) (d : (cfg0.win 0).block.Idx → Elt F (cfg0.win 0).elt) :
    (dats m 0 c).before 0 t d = iblk m c 0 t :=
  ((dats m 0 c).before_in_eq_fetched 0 rfl (fun _ => rfl) (fun _ _ _ => rfl)
      (fun t => by
        show (cfg0.win 0).cut (cfg0.grid.coords t) (iblk m c 0 t) = _
        unfold Dat.blockOf iblk; rfl) t d).trans
    (by unfold Dat.fetched Dat.blockOf iblk; rfl)

/-- Input window 1's current staging buffer holds its block at every grid point, fetched there or not. -/
theorem before_in1 (c : Dev nD) (t : Fin cfg0.N) (d : (cfg0.win 1).block.Idx → Elt F (cfg0.win 1).elt) :
    (dats m 0 c).before 1 t d = iblk m c 1 t :=
  ((dats m 0 c).before_in_eq_fetched 1 rfl (fun _ => rfl) (fun _ _ _ => rfl)
      (fun t => by
        show (cfg0.win 1).cut (cfg0.grid.coords t) (iblk m c 1 t) = _
        unfold Dat.blockOf iblk; rfl) t d).trans
    (by unfold Dat.fetched Dat.blockOf iblk; rfl)

/-- Input window 2's current staging buffer holds its block at every grid point, fetched there or not. -/
theorem before_in2 (c : Dev nD) (t : Fin cfg0.N) (d : (cfg0.win 2).block.Idx → Elt F (cfg0.win 2).elt) :
    (dats m 0 c).before 2 t d = iblk m c 2 t :=
  ((dats m 0 c).before_in_eq_fetched 2 rfl (fun _ => rfl) (fun _ _ _ => rfl)
      (fun t => by
        show (cfg0.win 2).cut (cfg0.grid.coords t) (iblk m c 2 t) = _
        unfold Dat.blockOf iblk; rfl) t d).trans
    (by unfold Dat.fetched Dat.blockOf iblk; rfl)

/-- The body obligation at grid point 0: batch entry 0, chunk 0. -/
theorem body_pt0 (c : Dev nD) : BodyGoal m c t0_0 := by
  unfold BodyGoal
  rw [bigSep_W0, bigSep_W0]
  have hi0 : cfg0.idle 0 (cfg0.grid.coords t0_0) = false := rfl
  have hi1 : cfg0.idle 1 (cfg0.grid.coords t0_0) = false := rfl
  have hi2 : cfg0.idle 2 (cfg0.grid.coords t0_0) = false := rfl
  have hi3 : idle0 3 (grid0.coords t0_0) = true := by decide +kernel
  have hf3 : (cfg0.win 3).flush t0_0 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_0 d = iblk m c 0 t0_0 := fun d => before_in0 m c t0_0 d
  have hb1 : ∀ d, (dats m 0 c).before 1 t0_0 d = iblk m c 1 t0_0 := fun d => before_in1 m c t0_0 d
  have hb2 : ∀ d, (dats m 0 c).before 2 t0_0 d = iblk m c 2 t0_0 := fun d => before_in2 m c t0_0 d
  have ha0 : (dats m 0 c).after 0 t0_0 = iblk m c 0 t0_0 := rfl
  have ha1 : (dats m 0 c).after 1 t0_0 = iblk m c 1 t0_0 := rfl
  have ha2 : (dats m 0 c).after 2 t0_0 = iblk m c 2 t0_0 := rfl
  have hs0 : ∀ X, (owns (Ix := Unit) (Name := ℕ) (U := UU) (Lvl := ℕ) (c : Thread nD τ) (stage0_0 (cfg0.slots t0_0 0)) fullShare X : sProp 𝕄)
      = pt' c (stage0_0 (cfg0.slots t0_0 0)) X := fun X => owns_whole (c : Thread nD τ) cc0_stg0_0 fullShare X
  have hs1 : ∀ X, (owns (Ix := Unit) (Name := ℕ) (U := UU) (Lvl := ℕ) (c : Thread nD τ) (stage0_1 (cfg0.slots t0_0 1)) fullShare X : sProp 𝕄)
      = pt' c (stage0_1 (cfg0.slots t0_0 1)) X := fun X => owns_whole (c : Thread nD τ) cc0_stg1_0 fullShare X
  have hs2 : ∀ X, (owns (Ix := Unit) (Name := ℕ) (U := UU) (Lvl := ℕ) (c : Thread nD τ) (stage0_2 (cfg0.slots t0_0 2)) fullShare X : sProp 𝕄)
      = pt' c (stage0_2 (cfg0.slots t0_0 2)) X := fun X => owns_whole (c : Thread nD τ) cc0_stg2_0 fullShare X
  have hs3 : ∀ X, (owns (Ix := Unit) (Name := ℕ) (U := UU) (Lvl := ℕ) (c : Thread nD τ) (stage0_3 (cfg0.slots t0_0 3)) fullShare X : sProp 𝕄)
      = pt' c (stage0_3 (cfg0.slots t0_0 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_0.castSucc = PhiMid m c 0 := rfl
  have hΦ1 : (dats m 0 c).Φ t0_0.succ = PhiMid m c 1 := rfl
  have ho : (dats m 0 c).owesAt () t0_0.succ = (dats m 0 c).owesAt () t0_0.castSucc := rfl
  rw [hΦ0, hΦ1, ho]
  show _ ⊢ wp frame (wpE (defs₀ (F := F)) 𝒱₀ c none) Set.univ (bodyAt0 (F := F) t0_0) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt0 m c fo fm fl ((dats m 0 c).before 3 t0_0 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_0) (iblk m c 1 t0_0) (iblk m c 2 t0_0) Trace.acc0).o, (Trace.chunk (iblk m c 0 t0_0) (iblk m c 1 t0_0) (iblk m c 2 t0_0) Trace.acc0).m, (Trace.chunk (iblk m c 0 t0_0) (iblk m c 1 t0_0) (iblk m c 2 t0_0) Trace.acc0).l
    isplitr [Ho Hm Hl]
    · ipureintro
      intro _
      have e : t0_0 = pt (⟨0, by decide⟩ : Fin 4) (⟨0, by decide⟩ : Fin 4) := Fin.ext rfl
      have h := acc_step m c (⟨0, by decide⟩ : Fin 4) 0 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 1: batch entry 0, chunk 1. -/
theorem body_pt1 (c : Dev nD) : BodyGoal m c t0_1 := by
  unfold BodyGoal
  rw [bigSep_W0, bigSep_W0]
  have hi0 : cfg0.idle 0 (cfg0.grid.coords t0_1) = false := rfl
  have hi1 : cfg0.idle 1 (cfg0.grid.coords t0_1) = false := rfl
  have hi2 : cfg0.idle 2 (cfg0.grid.coords t0_1) = false := rfl
  have hi3 : idle0 3 (grid0.coords t0_1) = true := by decide +kernel
  have hf3 : (cfg0.win 3).flush t0_1 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_1 d = iblk m c 0 t0_1 := fun d => before_in0 m c t0_1 d
  have hb1 : ∀ d, (dats m 0 c).before 1 t0_1 d = iblk m c 1 t0_1 := fun d => before_in1 m c t0_1 d
  have hb2 : ∀ d, (dats m 0 c).before 2 t0_1 d = iblk m c 2 t0_1 := fun d => before_in2 m c t0_1 d
  have ha0 : (dats m 0 c).after 0 t0_1 = iblk m c 0 t0_1 := rfl
  have ha1 : (dats m 0 c).after 1 t0_1 = iblk m c 1 t0_1 := rfl
  have ha2 : (dats m 0 c).after 2 t0_1 = iblk m c 2 t0_1 := rfl
  have hs0 : ∀ X, (owns (Ix := Unit) (Name := ℕ) (U := UU) (Lvl := ℕ) (c : Thread nD τ) (stage0_0 (cfg0.slots t0_1 0)) fullShare X : sProp 𝕄)
      = pt' c (stage0_0 (cfg0.slots t0_1 0)) X := fun X => owns_whole (c : Thread nD τ) cc0_stg0_0 fullShare X
  have hs1 : ∀ X, (owns (Ix := Unit) (Name := ℕ) (U := UU) (Lvl := ℕ) (c : Thread nD τ) (stage0_1 (cfg0.slots t0_1 1)) fullShare X : sProp 𝕄)
      = pt' c (stage0_1 (cfg0.slots t0_1 1)) X := fun X => owns_whole (c : Thread nD τ) cc0_stg1_1 fullShare X
  have hs2 : ∀ X, (owns (Ix := Unit) (Name := ℕ) (U := UU) (Lvl := ℕ) (c : Thread nD τ) (stage0_2 (cfg0.slots t0_1 2)) fullShare X : sProp 𝕄)
      = pt' c (stage0_2 (cfg0.slots t0_1 2)) X := fun X => owns_whole (c : Thread nD τ) cc0_stg2_1 fullShare X
  have hs3 : ∀ X, (owns (Ix := Unit) (Name := ℕ) (U := UU) (Lvl := ℕ) (c : Thread nD τ) (stage0_3 (cfg0.slots t0_1 3)) fullShare X : sProp 𝕄)
      = pt' c (stage0_3 (cfg0.slots t0_1 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_1.castSucc = PhiMid m c 1 := rfl
  have hΦ1 : (dats m 0 c).Φ t0_1.succ = PhiMid m c 2 := rfl
  have ho : (dats m 0 c).owesAt () t0_1.succ = (dats m 0 c).owesAt () t0_1.castSucc := rfl
  rw [hΦ0, hΦ1, ho]
  show _ ⊢ wp frame (wpE (defs₀ (F := F)) 𝒱₀ c none) Set.univ (bodyAt0 (F := F) t0_1) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt1 m c fo fm fl ((dats m 0 c).before 3 t0_1 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_1) (iblk m c 1 t0_1) (iblk m c 2 t0_1) ⟨fo, fm, fl⟩).o, (Trace.chunk (iblk m c 0 t0_1) (iblk m c 1 t0_1) (iblk m c 2 t0_1) ⟨fo, fm, fl⟩).m, (Trace.chunk (iblk m c 0 t0_1) (iblk m c 1 t0_1) (iblk m c 2 t0_1) ⟨fo, fm, fl⟩).l
    isplitr [Ho Hm Hl]
    · ipureintro
      intro _
      obtain ⟨rfl, rfl, rfl⟩ := hacc (by decide)
      have e : t0_1 = pt (⟨0, by decide⟩ : Fin 4) (⟨1, by decide⟩ : Fin 4) := Fin.ext rfl
      have h := acc_step m c (⟨0, by decide⟩ : Fin 4) 1 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 2: batch entry 0, chunk 2. -/
theorem body_pt2 (c : Dev nD) : BodyGoal m c t0_2 := by
  unfold BodyGoal
  rw [bigSep_W0, bigSep_W0]
  have hi0 : cfg0.idle 0 (cfg0.grid.coords t0_2) = false := rfl
  have hi1 : cfg0.idle 1 (cfg0.grid.coords t0_2) = false := rfl
  have hi2 : cfg0.idle 2 (cfg0.grid.coords t0_2) = false := rfl
  have hi3 : idle0 3 (grid0.coords t0_2) = true := by decide +kernel
  have hf3 : (cfg0.win 3).flush t0_2 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_2 d = iblk m c 0 t0_2 := fun d => before_in0 m c t0_2 d
  have hb1 : ∀ d, (dats m 0 c).before 1 t0_2 d = iblk m c 1 t0_2 := fun d => before_in1 m c t0_2 d
  have hb2 : ∀ d, (dats m 0 c).before 2 t0_2 d = iblk m c 2 t0_2 := fun d => before_in2 m c t0_2 d
  have ha0 : (dats m 0 c).after 0 t0_2 = iblk m c 0 t0_2 := rfl
  have ha1 : (dats m 0 c).after 1 t0_2 = iblk m c 1 t0_2 := rfl
  have ha2 : (dats m 0 c).after 2 t0_2 = iblk m c 2 t0_2 := rfl
  have hs0 : ∀ X, (owns (Ix := Unit) (Name := ℕ) (U := UU) (Lvl := ℕ) (c : Thread nD τ) (stage0_0 (cfg0.slots t0_2 0)) fullShare X : sProp 𝕄)
      = pt' c (stage0_0 (cfg0.slots t0_2 0)) X := fun X => owns_whole (c : Thread nD τ) cc0_stg0_0 fullShare X
  have hs1 : ∀ X, (owns (Ix := Unit) (Name := ℕ) (U := UU) (Lvl := ℕ) (c : Thread nD τ) (stage0_1 (cfg0.slots t0_2 1)) fullShare X : sProp 𝕄)
      = pt' c (stage0_1 (cfg0.slots t0_2 1)) X := fun X => owns_whole (c : Thread nD τ) cc0_stg1_0 fullShare X
  have hs2 : ∀ X, (owns (Ix := Unit) (Name := ℕ) (U := UU) (Lvl := ℕ) (c : Thread nD τ) (stage0_2 (cfg0.slots t0_2 2)) fullShare X : sProp 𝕄)
      = pt' c (stage0_2 (cfg0.slots t0_2 2)) X := fun X => owns_whole (c : Thread nD τ) cc0_stg2_0 fullShare X
  have hs3 : ∀ X, (owns (Ix := Unit) (Name := ℕ) (U := UU) (Lvl := ℕ) (c : Thread nD τ) (stage0_3 (cfg0.slots t0_2 3)) fullShare X : sProp 𝕄)
      = pt' c (stage0_3 (cfg0.slots t0_2 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_2.castSucc = PhiMid m c 2 := rfl
  have hΦ1 : (dats m 0 c).Φ t0_2.succ = PhiMid m c 3 := rfl
  have ho : (dats m 0 c).owesAt () t0_2.succ = (dats m 0 c).owesAt () t0_2.castSucc := rfl
  rw [hΦ0, hΦ1, ho]
  show _ ⊢ wp frame (wpE (defs₀ (F := F)) 𝒱₀ c none) Set.univ (bodyAt0 (F := F) t0_2) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt2 m c fo fm fl ((dats m 0 c).before 3 t0_2 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_2) (iblk m c 1 t0_2) (iblk m c 2 t0_2) ⟨fo, fm, fl⟩).o, (Trace.chunk (iblk m c 0 t0_2) (iblk m c 1 t0_2) (iblk m c 2 t0_2) ⟨fo, fm, fl⟩).m, (Trace.chunk (iblk m c 0 t0_2) (iblk m c 1 t0_2) (iblk m c 2 t0_2) ⟨fo, fm, fl⟩).l
    isplitr [Ho Hm Hl]
    · ipureintro
      intro _
      obtain ⟨rfl, rfl, rfl⟩ := hacc (by decide)
      have e : t0_2 = pt (⟨0, by decide⟩ : Fin 4) (⟨2, by decide⟩ : Fin 4) := Fin.ext rfl
      have h := acc_step m c (⟨0, by decide⟩ : Fin 4) 2 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 4: batch entry 1, chunk 0. -/
theorem body_pt4 (c : Dev nD) : BodyGoal m c t0_4 := by
  unfold BodyGoal
  rw [bigSep_W0, bigSep_W0]
  have hi0 : cfg0.idle 0 (cfg0.grid.coords t0_4) = false := rfl
  have hi1 : cfg0.idle 1 (cfg0.grid.coords t0_4) = false := rfl
  have hi2 : cfg0.idle 2 (cfg0.grid.coords t0_4) = false := rfl
  have hi3 : idle0 3 (grid0.coords t0_4) = true := by decide +kernel
  have hf3 : (cfg0.win 3).flush t0_4 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_4 d = iblk m c 0 t0_4 := fun d => before_in0 m c t0_4 d
  have hb1 : ∀ d, (dats m 0 c).before 1 t0_4 d = iblk m c 1 t0_4 := fun d => before_in1 m c t0_4 d
  have hb2 : ∀ d, (dats m 0 c).before 2 t0_4 d = iblk m c 2 t0_4 := fun d => before_in2 m c t0_4 d
  have ha0 : (dats m 0 c).after 0 t0_4 = iblk m c 0 t0_4 := rfl
  have ha1 : (dats m 0 c).after 1 t0_4 = iblk m c 1 t0_4 := rfl
  have ha2 : (dats m 0 c).after 2 t0_4 = iblk m c 2 t0_4 := rfl
  have hs0 : ∀ X, (owns (Ix := Unit) (Name := ℕ) (U := UU) (Lvl := ℕ) (c : Thread nD τ) (stage0_0 (cfg0.slots t0_4 0)) fullShare X : sProp 𝕄)
      = pt' c (stage0_0 (cfg0.slots t0_4 0)) X := fun X => owns_whole (c : Thread nD τ) cc0_stg0_1 fullShare X
  have hs1 : ∀ X, (owns (Ix := Unit) (Name := ℕ) (U := UU) (Lvl := ℕ) (c : Thread nD τ) (stage0_1 (cfg0.slots t0_4 1)) fullShare X : sProp 𝕄)
      = pt' c (stage0_1 (cfg0.slots t0_4 1)) X := fun X => owns_whole (c : Thread nD τ) cc0_stg1_0 fullShare X
  have hs2 : ∀ X, (owns (Ix := Unit) (Name := ℕ) (U := UU) (Lvl := ℕ) (c : Thread nD τ) (stage0_2 (cfg0.slots t0_4 2)) fullShare X : sProp 𝕄)
      = pt' c (stage0_2 (cfg0.slots t0_4 2)) X := fun X => owns_whole (c : Thread nD τ) cc0_stg2_0 fullShare X
  have hs3 : ∀ X, (owns (Ix := Unit) (Name := ℕ) (U := UU) (Lvl := ℕ) (c : Thread nD τ) (stage0_3 (cfg0.slots t0_4 3)) fullShare X : sProp 𝕄)
      = pt' c (stage0_3 (cfg0.slots t0_4 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_4.castSucc = PhiMid m c 4 := rfl
  have hΦ1 : (dats m 0 c).Φ t0_4.succ = PhiMid m c 5 := rfl
  have ho : (dats m 0 c).owesAt () t0_4.succ = (dats m 0 c).owesAt () t0_4.castSucc := rfl
  rw [hΦ0, hΦ1, ho]
  show _ ⊢ wp frame (wpE (defs₀ (F := F)) 𝒱₀ c none) Set.univ (bodyAt0 (F := F) t0_4) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt4 m c fo fm fl ((dats m 0 c).before 3 t0_4 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_4) (iblk m c 1 t0_4) (iblk m c 2 t0_4) Trace.acc0).o, (Trace.chunk (iblk m c 0 t0_4) (iblk m c 1 t0_4) (iblk m c 2 t0_4) Trace.acc0).m, (Trace.chunk (iblk m c 0 t0_4) (iblk m c 1 t0_4) (iblk m c 2 t0_4) Trace.acc0).l
    isplitr [Ho Hm Hl]
    · ipureintro
      intro _
      have e : t0_4 = pt (⟨1, by decide⟩ : Fin 4) (⟨0, by decide⟩ : Fin 4) := Fin.ext rfl
      have h := acc_step m c (⟨1, by decide⟩ : Fin 4) 0 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 5: batch entry 1, chunk 1. -/
theorem body_pt5 (c : Dev nD) : BodyGoal m c t0_5 := by
  unfold BodyGoal
  rw [bigSep_W0, bigSep_W0]
  have hi0 : cfg0.idle 0 (cfg0.grid.coords t0_5) = false := rfl
  have hi1 : cfg0.idle 1 (cfg0.grid.coords t0_5) = false := rfl
  have hi2 : cfg0.idle 2 (cfg0.grid.coords t0_5) = false := rfl
  have hi3 : idle0 3 (grid0.coords t0_5) = true := by decide +kernel
  have hf3 : (cfg0.win 3).flush t0_5 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_5 d = iblk m c 0 t0_5 := fun d => before_in0 m c t0_5 d
  have hb1 : ∀ d, (dats m 0 c).before 1 t0_5 d = iblk m c 1 t0_5 := fun d => before_in1 m c t0_5 d
  have hb2 : ∀ d, (dats m 0 c).before 2 t0_5 d = iblk m c 2 t0_5 := fun d => before_in2 m c t0_5 d
  have ha0 : (dats m 0 c).after 0 t0_5 = iblk m c 0 t0_5 := rfl
  have ha1 : (dats m 0 c).after 1 t0_5 = iblk m c 1 t0_5 := rfl
  have ha2 : (dats m 0 c).after 2 t0_5 = iblk m c 2 t0_5 := rfl
  have hs0 : ∀ X, (owns (Ix := Unit) (Name := ℕ) (U := UU) (Lvl := ℕ) (c : Thread nD τ) (stage0_0 (cfg0.slots t0_5 0)) fullShare X : sProp 𝕄)
      = pt' c (stage0_0 (cfg0.slots t0_5 0)) X := fun X => owns_whole (c : Thread nD τ) cc0_stg0_1 fullShare X
  have hs1 : ∀ X, (owns (Ix := Unit) (Name := ℕ) (U := UU) (Lvl := ℕ) (c : Thread nD τ) (stage0_1 (cfg0.slots t0_5 1)) fullShare X : sProp 𝕄)
      = pt' c (stage0_1 (cfg0.slots t0_5 1)) X := fun X => owns_whole (c : Thread nD τ) cc0_stg1_1 fullShare X
  have hs2 : ∀ X, (owns (Ix := Unit) (Name := ℕ) (U := UU) (Lvl := ℕ) (c : Thread nD τ) (stage0_2 (cfg0.slots t0_5 2)) fullShare X : sProp 𝕄)
      = pt' c (stage0_2 (cfg0.slots t0_5 2)) X := fun X => owns_whole (c : Thread nD τ) cc0_stg2_1 fullShare X
  have hs3 : ∀ X, (owns (Ix := Unit) (Name := ℕ) (U := UU) (Lvl := ℕ) (c : Thread nD τ) (stage0_3 (cfg0.slots t0_5 3)) fullShare X : sProp 𝕄)
      = pt' c (stage0_3 (cfg0.slots t0_5 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_5.castSucc = PhiMid m c 5 := rfl
  have hΦ1 : (dats m 0 c).Φ t0_5.succ = PhiMid m c 6 := rfl
  have ho : (dats m 0 c).owesAt () t0_5.succ = (dats m 0 c).owesAt () t0_5.castSucc := rfl
  rw [hΦ0, hΦ1, ho]
  show _ ⊢ wp frame (wpE (defs₀ (F := F)) 𝒱₀ c none) Set.univ (bodyAt0 (F := F) t0_5) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt5 m c fo fm fl ((dats m 0 c).before 3 t0_5 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_5) (iblk m c 1 t0_5) (iblk m c 2 t0_5) ⟨fo, fm, fl⟩).o, (Trace.chunk (iblk m c 0 t0_5) (iblk m c 1 t0_5) (iblk m c 2 t0_5) ⟨fo, fm, fl⟩).m, (Trace.chunk (iblk m c 0 t0_5) (iblk m c 1 t0_5) (iblk m c 2 t0_5) ⟨fo, fm, fl⟩).l
    isplitr [Ho Hm Hl]
    · ipureintro
      intro _
      obtain ⟨rfl, rfl, rfl⟩ := hacc (by decide)
      have e : t0_5 = pt (⟨1, by decide⟩ : Fin 4) (⟨1, by decide⟩ : Fin 4) := Fin.ext rfl
      have h := acc_step m c (⟨1, by decide⟩ : Fin 4) 1 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 6: batch entry 1, chunk 2. -/
theorem body_pt6 (c : Dev nD) : BodyGoal m c t0_6 := by
  unfold BodyGoal
  rw [bigSep_W0, bigSep_W0]
  have hi0 : cfg0.idle 0 (cfg0.grid.coords t0_6) = false := rfl
  have hi1 : cfg0.idle 1 (cfg0.grid.coords t0_6) = false := rfl
  have hi2 : cfg0.idle 2 (cfg0.grid.coords t0_6) = false := rfl
  have hi3 : idle0 3 (grid0.coords t0_6) = true := by decide +kernel
  have hf3 : (cfg0.win 3).flush t0_6 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_6 d = iblk m c 0 t0_6 := fun d => before_in0 m c t0_6 d
  have hb1 : ∀ d, (dats m 0 c).before 1 t0_6 d = iblk m c 1 t0_6 := fun d => before_in1 m c t0_6 d
  have hb2 : ∀ d, (dats m 0 c).before 2 t0_6 d = iblk m c 2 t0_6 := fun d => before_in2 m c t0_6 d
  have ha0 : (dats m 0 c).after 0 t0_6 = iblk m c 0 t0_6 := rfl
  have ha1 : (dats m 0 c).after 1 t0_6 = iblk m c 1 t0_6 := rfl
  have ha2 : (dats m 0 c).after 2 t0_6 = iblk m c 2 t0_6 := rfl
  have hs0 : ∀ X, (owns (Ix := Unit) (Name := ℕ) (U := UU) (Lvl := ℕ) (c : Thread nD τ) (stage0_0 (cfg0.slots t0_6 0)) fullShare X : sProp 𝕄)
      = pt' c (stage0_0 (cfg0.slots t0_6 0)) X := fun X => owns_whole (c : Thread nD τ) cc0_stg0_1 fullShare X
  have hs1 : ∀ X, (owns (Ix := Unit) (Name := ℕ) (U := UU) (Lvl := ℕ) (c : Thread nD τ) (stage0_1 (cfg0.slots t0_6 1)) fullShare X : sProp 𝕄)
      = pt' c (stage0_1 (cfg0.slots t0_6 1)) X := fun X => owns_whole (c : Thread nD τ) cc0_stg1_0 fullShare X
  have hs2 : ∀ X, (owns (Ix := Unit) (Name := ℕ) (U := UU) (Lvl := ℕ) (c : Thread nD τ) (stage0_2 (cfg0.slots t0_6 2)) fullShare X : sProp 𝕄)
      = pt' c (stage0_2 (cfg0.slots t0_6 2)) X := fun X => owns_whole (c : Thread nD τ) cc0_stg2_0 fullShare X
  have hs3 : ∀ X, (owns (Ix := Unit) (Name := ℕ) (U := UU) (Lvl := ℕ) (c : Thread nD τ) (stage0_3 (cfg0.slots t0_6 3)) fullShare X : sProp 𝕄)
      = pt' c (stage0_3 (cfg0.slots t0_6 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_6.castSucc = PhiMid m c 6 := rfl
  have hΦ1 : (dats m 0 c).Φ t0_6.succ = PhiMid m c 7 := rfl
  have ho : (dats m 0 c).owesAt () t0_6.succ = (dats m 0 c).owesAt () t0_6.castSucc := rfl
  rw [hΦ0, hΦ1, ho]
  show _ ⊢ wp frame (wpE (defs₀ (F := F)) 𝒱₀ c none) Set.univ (bodyAt0 (F := F) t0_6) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt6 m c fo fm fl ((dats m 0 c).before 3 t0_6 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_6) (iblk m c 1 t0_6) (iblk m c 2 t0_6) ⟨fo, fm, fl⟩).o, (Trace.chunk (iblk m c 0 t0_6) (iblk m c 1 t0_6) (iblk m c 2 t0_6) ⟨fo, fm, fl⟩).m, (Trace.chunk (iblk m c 0 t0_6) (iblk m c 1 t0_6) (iblk m c 2 t0_6) ⟨fo, fm, fl⟩).l
    isplitr [Ho Hm Hl]
    · ipureintro
      intro _
      obtain ⟨rfl, rfl, rfl⟩ := hacc (by decide)
      have e : t0_6 = pt (⟨1, by decide⟩ : Fin 4) (⟨2, by decide⟩ : Fin 4) := Fin.ext rfl
      have h := acc_step m c (⟨1, by decide⟩ : Fin 4) 2 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 8: batch entry 2, chunk 0. -/
theorem body_pt8 (c : Dev nD) : BodyGoal m c t0_8 := by
  unfold BodyGoal
  rw [bigSep_W0, bigSep_W0]
  have hi0 : cfg0.idle 0 (cfg0.grid.coords t0_8) = false := rfl
  have hi1 : cfg0.idle 1 (cfg0.grid.coords t0_8) = false := rfl
  have hi2 : cfg0.idle 2 (cfg0.grid.coords t0_8) = false := rfl
  have hi3 : idle0 3 (grid0.coords t0_8) = true := by decide +kernel
  have hf3 : (cfg0.win 3).flush t0_8 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_8 d = iblk m c 0 t0_8 := fun d => before_in0 m c t0_8 d
  have hb1 : ∀ d, (dats m 0 c).before 1 t0_8 d = iblk m c 1 t0_8 := fun d => before_in1 m c t0_8 d
  have hb2 : ∀ d, (dats m 0 c).before 2 t0_8 d = iblk m c 2 t0_8 := fun d => before_in2 m c t0_8 d
  have ha0 : (dats m 0 c).after 0 t0_8 = iblk m c 0 t0_8 := rfl
  have ha1 : (dats m 0 c).after 1 t0_8 = iblk m c 1 t0_8 := rfl
  have ha2 : (dats m 0 c).after 2 t0_8 = iblk m c 2 t0_8 := rfl
  have hs0 : ∀ X, (owns (Ix := Unit) (Name := ℕ) (U := UU) (Lvl := ℕ) (c : Thread nD τ) (stage0_0 (cfg0.slots t0_8 0)) fullShare X : sProp 𝕄)
      = pt' c (stage0_0 (cfg0.slots t0_8 0)) X := fun X => owns_whole (c : Thread nD τ) cc0_stg0_0 fullShare X
  have hs1 : ∀ X, (owns (Ix := Unit) (Name := ℕ) (U := UU) (Lvl := ℕ) (c : Thread nD τ) (stage0_1 (cfg0.slots t0_8 1)) fullShare X : sProp 𝕄)
      = pt' c (stage0_1 (cfg0.slots t0_8 1)) X := fun X => owns_whole (c : Thread nD τ) cc0_stg1_0 fullShare X
  have hs2 : ∀ X, (owns (Ix := Unit) (Name := ℕ) (U := UU) (Lvl := ℕ) (c : Thread nD τ) (stage0_2 (cfg0.slots t0_8 2)) fullShare X : sProp 𝕄)
      = pt' c (stage0_2 (cfg0.slots t0_8 2)) X := fun X => owns_whole (c : Thread nD τ) cc0_stg2_0 fullShare X
  have hs3 : ∀ X, (owns (Ix := Unit) (Name := ℕ) (U := UU) (Lvl := ℕ) (c : Thread nD τ) (stage0_3 (cfg0.slots t0_8 3)) fullShare X : sProp 𝕄)
      = pt' c (stage0_3 (cfg0.slots t0_8 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_8.castSucc = PhiMid m c 8 := rfl
  have hΦ1 : (dats m 0 c).Φ t0_8.succ = PhiMid m c 9 := rfl
  have ho : (dats m 0 c).owesAt () t0_8.succ = (dats m 0 c).owesAt () t0_8.castSucc := rfl
  rw [hΦ0, hΦ1, ho]
  show _ ⊢ wp frame (wpE (defs₀ (F := F)) 𝒱₀ c none) Set.univ (bodyAt0 (F := F) t0_8) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt8 m c fo fm fl ((dats m 0 c).before 3 t0_8 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_8) (iblk m c 1 t0_8) (iblk m c 2 t0_8) Trace.acc0).o, (Trace.chunk (iblk m c 0 t0_8) (iblk m c 1 t0_8) (iblk m c 2 t0_8) Trace.acc0).m, (Trace.chunk (iblk m c 0 t0_8) (iblk m c 1 t0_8) (iblk m c 2 t0_8) Trace.acc0).l
    isplitr [Ho Hm Hl]
    · ipureintro
      intro _
      have e : t0_8 = pt (⟨2, by decide⟩ : Fin 4) (⟨0, by decide⟩ : Fin 4) := Fin.ext rfl
      have h := acc_step m c (⟨2, by decide⟩ : Fin 4) 0 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 9: batch entry 2, chunk 1. -/
theorem body_pt9 (c : Dev nD) : BodyGoal m c t0_9 := by
  unfold BodyGoal
  rw [bigSep_W0, bigSep_W0]
  have hi0 : cfg0.idle 0 (cfg0.grid.coords t0_9) = false := rfl
  have hi1 : cfg0.idle 1 (cfg0.grid.coords t0_9) = false := rfl
  have hi2 : cfg0.idle 2 (cfg0.grid.coords t0_9) = false := rfl
  have hi3 : idle0 3 (grid0.coords t0_9) = true := by decide +kernel
  have hf3 : (cfg0.win 3).flush t0_9 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_9 d = iblk m c 0 t0_9 := fun d => before_in0 m c t0_9 d
  have hb1 : ∀ d, (dats m 0 c).before 1 t0_9 d = iblk m c 1 t0_9 := fun d => before_in1 m c t0_9 d
  have hb2 : ∀ d, (dats m 0 c).before 2 t0_9 d = iblk m c 2 t0_9 := fun d => before_in2 m c t0_9 d
  have ha0 : (dats m 0 c).after 0 t0_9 = iblk m c 0 t0_9 := rfl
  have ha1 : (dats m 0 c).after 1 t0_9 = iblk m c 1 t0_9 := rfl
  have ha2 : (dats m 0 c).after 2 t0_9 = iblk m c 2 t0_9 := rfl
  have hs0 : ∀ X, (owns (Ix := Unit) (Name := ℕ) (U := UU) (Lvl := ℕ) (c : Thread nD τ) (stage0_0 (cfg0.slots t0_9 0)) fullShare X : sProp 𝕄)
      = pt' c (stage0_0 (cfg0.slots t0_9 0)) X := fun X => owns_whole (c : Thread nD τ) cc0_stg0_0 fullShare X
  have hs1 : ∀ X, (owns (Ix := Unit) (Name := ℕ) (U := UU) (Lvl := ℕ) (c : Thread nD τ) (stage0_1 (cfg0.slots t0_9 1)) fullShare X : sProp 𝕄)
      = pt' c (stage0_1 (cfg0.slots t0_9 1)) X := fun X => owns_whole (c : Thread nD τ) cc0_stg1_1 fullShare X
  have hs2 : ∀ X, (owns (Ix := Unit) (Name := ℕ) (U := UU) (Lvl := ℕ) (c : Thread nD τ) (stage0_2 (cfg0.slots t0_9 2)) fullShare X : sProp 𝕄)
      = pt' c (stage0_2 (cfg0.slots t0_9 2)) X := fun X => owns_whole (c : Thread nD τ) cc0_stg2_1 fullShare X
  have hs3 : ∀ X, (owns (Ix := Unit) (Name := ℕ) (U := UU) (Lvl := ℕ) (c : Thread nD τ) (stage0_3 (cfg0.slots t0_9 3)) fullShare X : sProp 𝕄)
      = pt' c (stage0_3 (cfg0.slots t0_9 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_9.castSucc = PhiMid m c 9 := rfl
  have hΦ1 : (dats m 0 c).Φ t0_9.succ = PhiMid m c 10 := rfl
  have ho : (dats m 0 c).owesAt () t0_9.succ = (dats m 0 c).owesAt () t0_9.castSucc := rfl
  rw [hΦ0, hΦ1, ho]
  show _ ⊢ wp frame (wpE (defs₀ (F := F)) 𝒱₀ c none) Set.univ (bodyAt0 (F := F) t0_9) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt9 m c fo fm fl ((dats m 0 c).before 3 t0_9 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_9) (iblk m c 1 t0_9) (iblk m c 2 t0_9) ⟨fo, fm, fl⟩).o, (Trace.chunk (iblk m c 0 t0_9) (iblk m c 1 t0_9) (iblk m c 2 t0_9) ⟨fo, fm, fl⟩).m, (Trace.chunk (iblk m c 0 t0_9) (iblk m c 1 t0_9) (iblk m c 2 t0_9) ⟨fo, fm, fl⟩).l
    isplitr [Ho Hm Hl]
    · ipureintro
      intro _
      obtain ⟨rfl, rfl, rfl⟩ := hacc (by decide)
      have e : t0_9 = pt (⟨2, by decide⟩ : Fin 4) (⟨1, by decide⟩ : Fin 4) := Fin.ext rfl
      have h := acc_step m c (⟨2, by decide⟩ : Fin 4) 1 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 10: batch entry 2, chunk 2. -/
theorem body_pt10 (c : Dev nD) : BodyGoal m c t0_10 := by
  unfold BodyGoal
  rw [bigSep_W0, bigSep_W0]
  have hi0 : cfg0.idle 0 (cfg0.grid.coords t0_10) = false := rfl
  have hi1 : cfg0.idle 1 (cfg0.grid.coords t0_10) = false := rfl
  have hi2 : cfg0.idle 2 (cfg0.grid.coords t0_10) = false := rfl
  have hi3 : idle0 3 (grid0.coords t0_10) = true := by decide +kernel
  have hf3 : (cfg0.win 3).flush t0_10 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_10 d = iblk m c 0 t0_10 := fun d => before_in0 m c t0_10 d
  have hb1 : ∀ d, (dats m 0 c).before 1 t0_10 d = iblk m c 1 t0_10 := fun d => before_in1 m c t0_10 d
  have hb2 : ∀ d, (dats m 0 c).before 2 t0_10 d = iblk m c 2 t0_10 := fun d => before_in2 m c t0_10 d
  have ha0 : (dats m 0 c).after 0 t0_10 = iblk m c 0 t0_10 := rfl
  have ha1 : (dats m 0 c).after 1 t0_10 = iblk m c 1 t0_10 := rfl
  have ha2 : (dats m 0 c).after 2 t0_10 = iblk m c 2 t0_10 := rfl
  have hs0 : ∀ X, (owns (Ix := Unit) (Name := ℕ) (U := UU) (Lvl := ℕ) (c : Thread nD τ) (stage0_0 (cfg0.slots t0_10 0)) fullShare X : sProp 𝕄)
      = pt' c (stage0_0 (cfg0.slots t0_10 0)) X := fun X => owns_whole (c : Thread nD τ) cc0_stg0_0 fullShare X
  have hs1 : ∀ X, (owns (Ix := Unit) (Name := ℕ) (U := UU) (Lvl := ℕ) (c : Thread nD τ) (stage0_1 (cfg0.slots t0_10 1)) fullShare X : sProp 𝕄)
      = pt' c (stage0_1 (cfg0.slots t0_10 1)) X := fun X => owns_whole (c : Thread nD τ) cc0_stg1_0 fullShare X
  have hs2 : ∀ X, (owns (Ix := Unit) (Name := ℕ) (U := UU) (Lvl := ℕ) (c : Thread nD τ) (stage0_2 (cfg0.slots t0_10 2)) fullShare X : sProp 𝕄)
      = pt' c (stage0_2 (cfg0.slots t0_10 2)) X := fun X => owns_whole (c : Thread nD τ) cc0_stg2_0 fullShare X
  have hs3 : ∀ X, (owns (Ix := Unit) (Name := ℕ) (U := UU) (Lvl := ℕ) (c : Thread nD τ) (stage0_3 (cfg0.slots t0_10 3)) fullShare X : sProp 𝕄)
      = pt' c (stage0_3 (cfg0.slots t0_10 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_10.castSucc = PhiMid m c 10 := rfl
  have hΦ1 : (dats m 0 c).Φ t0_10.succ = PhiMid m c 11 := rfl
  have ho : (dats m 0 c).owesAt () t0_10.succ = (dats m 0 c).owesAt () t0_10.castSucc := rfl
  rw [hΦ0, hΦ1, ho]
  show _ ⊢ wp frame (wpE (defs₀ (F := F)) 𝒱₀ c none) Set.univ (bodyAt0 (F := F) t0_10) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt10 m c fo fm fl ((dats m 0 c).before 3 t0_10 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_10) (iblk m c 1 t0_10) (iblk m c 2 t0_10) ⟨fo, fm, fl⟩).o, (Trace.chunk (iblk m c 0 t0_10) (iblk m c 1 t0_10) (iblk m c 2 t0_10) ⟨fo, fm, fl⟩).m, (Trace.chunk (iblk m c 0 t0_10) (iblk m c 1 t0_10) (iblk m c 2 t0_10) ⟨fo, fm, fl⟩).l
    isplitr [Ho Hm Hl]
    · ipureintro
      intro _
      obtain ⟨rfl, rfl, rfl⟩ := hacc (by decide)
      have e : t0_10 = pt (⟨2, by decide⟩ : Fin 4) (⟨2, by decide⟩ : Fin 4) := Fin.ext rfl
      have h := acc_step m c (⟨2, by decide⟩ : Fin 4) 2 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 12: batch entry 3, chunk 0. -/
theorem body_pt12 (c : Dev nD) : BodyGoal m c t0_12 := by
  unfold BodyGoal
  rw [bigSep_W0, bigSep_W0]
  have hi0 : cfg0.idle 0 (cfg0.grid.coords t0_12) = false := rfl
  have hi1 : cfg0.idle 1 (cfg0.grid.coords t0_12) = false := rfl
  have hi2 : cfg0.idle 2 (cfg0.grid.coords t0_12) = false := rfl
  have hi3 : idle0 3 (grid0.coords t0_12) = true := by decide +kernel
  have hf3 : (cfg0.win 3).flush t0_12 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_12 d = iblk m c 0 t0_12 := fun d => before_in0 m c t0_12 d
  have hb1 : ∀ d, (dats m 0 c).before 1 t0_12 d = iblk m c 1 t0_12 := fun d => before_in1 m c t0_12 d
  have hb2 : ∀ d, (dats m 0 c).before 2 t0_12 d = iblk m c 2 t0_12 := fun d => before_in2 m c t0_12 d
  have ha0 : (dats m 0 c).after 0 t0_12 = iblk m c 0 t0_12 := rfl
  have ha1 : (dats m 0 c).after 1 t0_12 = iblk m c 1 t0_12 := rfl
  have ha2 : (dats m 0 c).after 2 t0_12 = iblk m c 2 t0_12 := rfl
  have hs0 : ∀ X, (owns (Ix := Unit) (Name := ℕ) (U := UU) (Lvl := ℕ) (c : Thread nD τ) (stage0_0 (cfg0.slots t0_12 0)) fullShare X : sProp 𝕄)
      = pt' c (stage0_0 (cfg0.slots t0_12 0)) X := fun X => owns_whole (c : Thread nD τ) cc0_stg0_1 fullShare X
  have hs1 : ∀ X, (owns (Ix := Unit) (Name := ℕ) (U := UU) (Lvl := ℕ) (c : Thread nD τ) (stage0_1 (cfg0.slots t0_12 1)) fullShare X : sProp 𝕄)
      = pt' c (stage0_1 (cfg0.slots t0_12 1)) X := fun X => owns_whole (c : Thread nD τ) cc0_stg1_0 fullShare X
  have hs2 : ∀ X, (owns (Ix := Unit) (Name := ℕ) (U := UU) (Lvl := ℕ) (c : Thread nD τ) (stage0_2 (cfg0.slots t0_12 2)) fullShare X : sProp 𝕄)
      = pt' c (stage0_2 (cfg0.slots t0_12 2)) X := fun X => owns_whole (c : Thread nD τ) cc0_stg2_0 fullShare X
  have hs3 : ∀ X, (owns (Ix := Unit) (Name := ℕ) (U := UU) (Lvl := ℕ) (c : Thread nD τ) (stage0_3 (cfg0.slots t0_12 3)) fullShare X : sProp 𝕄)
      = pt' c (stage0_3 (cfg0.slots t0_12 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_12.castSucc = PhiMid m c 12 := rfl
  have hΦ1 : (dats m 0 c).Φ t0_12.succ = PhiMid m c 13 := rfl
  have ho : (dats m 0 c).owesAt () t0_12.succ = (dats m 0 c).owesAt () t0_12.castSucc := rfl
  rw [hΦ0, hΦ1, ho]
  show _ ⊢ wp frame (wpE (defs₀ (F := F)) 𝒱₀ c none) Set.univ (bodyAt0 (F := F) t0_12) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt12 m c fo fm fl ((dats m 0 c).before 3 t0_12 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_12) (iblk m c 1 t0_12) (iblk m c 2 t0_12) Trace.acc0).o, (Trace.chunk (iblk m c 0 t0_12) (iblk m c 1 t0_12) (iblk m c 2 t0_12) Trace.acc0).m, (Trace.chunk (iblk m c 0 t0_12) (iblk m c 1 t0_12) (iblk m c 2 t0_12) Trace.acc0).l
    isplitr [Ho Hm Hl]
    · ipureintro
      intro _
      have e : t0_12 = pt (⟨3, by decide⟩ : Fin 4) (⟨0, by decide⟩ : Fin 4) := Fin.ext rfl
      have h := acc_step m c (⟨3, by decide⟩ : Fin 4) 0 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 13: batch entry 3, chunk 1. -/
theorem body_pt13 (c : Dev nD) : BodyGoal m c t0_13 := by
  unfold BodyGoal
  rw [bigSep_W0, bigSep_W0]
  have hi0 : cfg0.idle 0 (cfg0.grid.coords t0_13) = false := rfl
  have hi1 : cfg0.idle 1 (cfg0.grid.coords t0_13) = false := rfl
  have hi2 : cfg0.idle 2 (cfg0.grid.coords t0_13) = false := rfl
  have hi3 : idle0 3 (grid0.coords t0_13) = true := by decide +kernel
  have hf3 : (cfg0.win 3).flush t0_13 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_13 d = iblk m c 0 t0_13 := fun d => before_in0 m c t0_13 d
  have hb1 : ∀ d, (dats m 0 c).before 1 t0_13 d = iblk m c 1 t0_13 := fun d => before_in1 m c t0_13 d
  have hb2 : ∀ d, (dats m 0 c).before 2 t0_13 d = iblk m c 2 t0_13 := fun d => before_in2 m c t0_13 d
  have ha0 : (dats m 0 c).after 0 t0_13 = iblk m c 0 t0_13 := rfl
  have ha1 : (dats m 0 c).after 1 t0_13 = iblk m c 1 t0_13 := rfl
  have ha2 : (dats m 0 c).after 2 t0_13 = iblk m c 2 t0_13 := rfl
  have hs0 : ∀ X, (owns (Ix := Unit) (Name := ℕ) (U := UU) (Lvl := ℕ) (c : Thread nD τ) (stage0_0 (cfg0.slots t0_13 0)) fullShare X : sProp 𝕄)
      = pt' c (stage0_0 (cfg0.slots t0_13 0)) X := fun X => owns_whole (c : Thread nD τ) cc0_stg0_1 fullShare X
  have hs1 : ∀ X, (owns (Ix := Unit) (Name := ℕ) (U := UU) (Lvl := ℕ) (c : Thread nD τ) (stage0_1 (cfg0.slots t0_13 1)) fullShare X : sProp 𝕄)
      = pt' c (stage0_1 (cfg0.slots t0_13 1)) X := fun X => owns_whole (c : Thread nD τ) cc0_stg1_1 fullShare X
  have hs2 : ∀ X, (owns (Ix := Unit) (Name := ℕ) (U := UU) (Lvl := ℕ) (c : Thread nD τ) (stage0_2 (cfg0.slots t0_13 2)) fullShare X : sProp 𝕄)
      = pt' c (stage0_2 (cfg0.slots t0_13 2)) X := fun X => owns_whole (c : Thread nD τ) cc0_stg2_1 fullShare X
  have hs3 : ∀ X, (owns (Ix := Unit) (Name := ℕ) (U := UU) (Lvl := ℕ) (c : Thread nD τ) (stage0_3 (cfg0.slots t0_13 3)) fullShare X : sProp 𝕄)
      = pt' c (stage0_3 (cfg0.slots t0_13 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_13.castSucc = PhiMid m c 13 := rfl
  have hΦ1 : (dats m 0 c).Φ t0_13.succ = PhiMid m c 14 := rfl
  have ho : (dats m 0 c).owesAt () t0_13.succ = (dats m 0 c).owesAt () t0_13.castSucc := rfl
  rw [hΦ0, hΦ1, ho]
  show _ ⊢ wp frame (wpE (defs₀ (F := F)) 𝒱₀ c none) Set.univ (bodyAt0 (F := F) t0_13) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt13 m c fo fm fl ((dats m 0 c).before 3 t0_13 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_13) (iblk m c 1 t0_13) (iblk m c 2 t0_13) ⟨fo, fm, fl⟩).o, (Trace.chunk (iblk m c 0 t0_13) (iblk m c 1 t0_13) (iblk m c 2 t0_13) ⟨fo, fm, fl⟩).m, (Trace.chunk (iblk m c 0 t0_13) (iblk m c 1 t0_13) (iblk m c 2 t0_13) ⟨fo, fm, fl⟩).l
    isplitr [Ho Hm Hl]
    · ipureintro
      intro _
      obtain ⟨rfl, rfl, rfl⟩ := hacc (by decide)
      have e : t0_13 = pt (⟨3, by decide⟩ : Fin 4) (⟨1, by decide⟩ : Fin 4) := Fin.ext rfl
      have h := acc_step m c (⟨3, by decide⟩ : Fin 4) 1 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

/-- The body obligation at grid point 14: batch entry 3, chunk 2. -/
theorem body_pt14 (c : Dev nD) : BodyGoal m c t0_14 := by
  unfold BodyGoal
  rw [bigSep_W0, bigSep_W0]
  have hi0 : cfg0.idle 0 (cfg0.grid.coords t0_14) = false := rfl
  have hi1 : cfg0.idle 1 (cfg0.grid.coords t0_14) = false := rfl
  have hi2 : cfg0.idle 2 (cfg0.grid.coords t0_14) = false := rfl
  have hi3 : idle0 3 (grid0.coords t0_14) = true := by decide +kernel
  have hf3 : (cfg0.win 3).flush t0_14 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_14 d = iblk m c 0 t0_14 := fun d => before_in0 m c t0_14 d
  have hb1 : ∀ d, (dats m 0 c).before 1 t0_14 d = iblk m c 1 t0_14 := fun d => before_in1 m c t0_14 d
  have hb2 : ∀ d, (dats m 0 c).before 2 t0_14 d = iblk m c 2 t0_14 := fun d => before_in2 m c t0_14 d
  have ha0 : (dats m 0 c).after 0 t0_14 = iblk m c 0 t0_14 := rfl
  have ha1 : (dats m 0 c).after 1 t0_14 = iblk m c 1 t0_14 := rfl
  have ha2 : (dats m 0 c).after 2 t0_14 = iblk m c 2 t0_14 := rfl
  have hs0 : ∀ X, (owns (Ix := Unit) (Name := ℕ) (U := UU) (Lvl := ℕ) (c : Thread nD τ) (stage0_0 (cfg0.slots t0_14 0)) fullShare X : sProp 𝕄)
      = pt' c (stage0_0 (cfg0.slots t0_14 0)) X := fun X => owns_whole (c : Thread nD τ) cc0_stg0_1 fullShare X
  have hs1 : ∀ X, (owns (Ix := Unit) (Name := ℕ) (U := UU) (Lvl := ℕ) (c : Thread nD τ) (stage0_1 (cfg0.slots t0_14 1)) fullShare X : sProp 𝕄)
      = pt' c (stage0_1 (cfg0.slots t0_14 1)) X := fun X => owns_whole (c : Thread nD τ) cc0_stg1_0 fullShare X
  have hs2 : ∀ X, (owns (Ix := Unit) (Name := ℕ) (U := UU) (Lvl := ℕ) (c : Thread nD τ) (stage0_2 (cfg0.slots t0_14 2)) fullShare X : sProp 𝕄)
      = pt' c (stage0_2 (cfg0.slots t0_14 2)) X := fun X => owns_whole (c : Thread nD τ) cc0_stg2_0 fullShare X
  have hs3 : ∀ X, (owns (Ix := Unit) (Name := ℕ) (U := UU) (Lvl := ℕ) (c : Thread nD τ) (stage0_3 (cfg0.slots t0_14 3)) fullShare X : sProp 𝕄)
      = pt' c (stage0_3 (cfg0.slots t0_14 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_14.castSucc = PhiMid m c 14 := rfl
  have hΦ1 : (dats m 0 c).Φ t0_14.succ = PhiMid m c 15 := rfl
  have ho : (dats m 0 c).owesAt () t0_14.succ = (dats m 0 c).owesAt () t0_14.castSucc := rfl
  rw [hΦ0, hΦ1, ho]
  show _ ⊢ wp frame (wpE (defs₀ (F := F)) 𝒱₀ c none) Set.univ (bodyAt0 (F := F) t0_14) _
  unfold PhiMid accPart
  iintro ⟨⟨%K', Hrec, Hlev, Hbar, He0, He1, He2, He3, %fo, %fm, %fl, %hacc, Ho, Hm, Hl⟩, Howe, ⟨%d0, H0⟩, ⟨%d1, H1⟩, ⟨%d2, H2⟩, %d3, H3⟩
  iapply (run_pt14 m c fo fm fl ((dats m 0 c).before 3 t0_14 d3) _)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  iintro ⟨Ho, Hm, Hl, H0, H1, H2, H3⟩
  isplitl [Hrec Hlev Hbar He0 He1 He2 He3 Ho Hm Hl]
  · iexists K'
    isplitl [Hrec]; · iexact Hrec
    isplitl [Hlev]; · iexact Hlev
    isplitl [Hbar]; · iexact Hbar
    isplitl [He0]; · iexact He0
    isplitl [He1]; · iexact He1
    isplitl [He2]; · iexact He2
    isplitl [He3]; · iexact He3
    iexists (Trace.chunk (iblk m c 0 t0_14) (iblk m c 1 t0_14) (iblk m c 2 t0_14) ⟨fo, fm, fl⟩).o, (Trace.chunk (iblk m c 0 t0_14) (iblk m c 1 t0_14) (iblk m c 2 t0_14) ⟨fo, fm, fl⟩).m, (Trace.chunk (iblk m c 0 t0_14) (iblk m c 1 t0_14) (iblk m c 2 t0_14) ⟨fo, fm, fl⟩).l
    isplitr [Ho Hm Hl]
    · ipureintro
      intro _
      obtain ⟨rfl, rfl, rfl⟩ := hacc (by decide)
      have e : t0_14 = pt (⟨3, by decide⟩ : Fin 4) (⟨2, by decide⟩ : Fin 4) := Fin.ext rfl
      have h := acc_step m c (⟨3, by decide⟩ : Fin 4) 2 (by decide)
      rw [← e] at h
      exact ⟨(congrArg Trace.Acc.o h).symm, (congrArg Trace.Acc.m h).symm, (congrArg Trace.Acc.l h).symm⟩
    isplitl [Ho]; · iexact Ho
    isplitl [Hm]; · iexact Hm
    iexact Hl
  isplitl [Howe]; · iexact Howe
  isplitl [H0]; · iexact H0
  isplitl [H1]; · iexact H1
  isplitl [H2]; · iexact H2
  iexists d3
  iexact H3

end Cert.KernelProof
end

/-- info: 'Cert.KernelProof.body_pt0' depends on axioms: [propext, Classical.choice, Quot.sound] -/
#guard_msgs in #print axioms Cert.KernelProof.body_pt0

/-- info: 'Cert.KernelProof.body_pt1' depends on axioms: [propext, Classical.choice, Quot.sound] -/
#guard_msgs in #print axioms Cert.KernelProof.body_pt1

/-- info: 'Cert.KernelProof.body_pt2' depends on axioms: [propext, Classical.choice, Quot.sound] -/
#guard_msgs in #print axioms Cert.KernelProof.body_pt2

/-- info: 'Cert.KernelProof.body_pt4' depends on axioms: [propext, Classical.choice, Quot.sound] -/
#guard_msgs in #print axioms Cert.KernelProof.body_pt4

/-- info: 'Cert.KernelProof.body_pt5' depends on axioms: [propext, Classical.choice, Quot.sound] -/
#guard_msgs in #print axioms Cert.KernelProof.body_pt5

/-- info: 'Cert.KernelProof.body_pt6' depends on axioms: [propext, Classical.choice, Quot.sound] -/
#guard_msgs in #print axioms Cert.KernelProof.body_pt6

/-- info: 'Cert.KernelProof.body_pt8' depends on axioms: [propext, Classical.choice, Quot.sound] -/
#guard_msgs in #print axioms Cert.KernelProof.body_pt8

/-- info: 'Cert.KernelProof.body_pt9' depends on axioms: [propext, Classical.choice, Quot.sound] -/
#guard_msgs in #print axioms Cert.KernelProof.body_pt9

/-- info: 'Cert.KernelProof.body_pt10' depends on axioms: [propext, Classical.choice, Quot.sound] -/
#guard_msgs in #print axioms Cert.KernelProof.body_pt10

/-- info: 'Cert.KernelProof.body_pt12' depends on axioms: [propext, Classical.choice, Quot.sound] -/
#guard_msgs in #print axioms Cert.KernelProof.body_pt12

/-- info: 'Cert.KernelProof.body_pt13' depends on axioms: [propext, Classical.choice, Quot.sound] -/
#guard_msgs in #print axioms Cert.KernelProof.body_pt13

/-- info: 'Cert.KernelProof.body_pt14' depends on axioms: [propext, Classical.choice, Quot.sound] -/
#guard_msgs in #print axioms Cert.KernelProof.body_pt14
-- ==== Proof.KRemoteRules.lean ====
/-
  The protocol's four remote steps as rules at the attention kernel's own cells.

  A device copies batch entry b's output rows, and its two statistics rows, into its partner's receive buffers: each copy
  pays the one duty of the sender's send cell (handing the rows sent back to the sender) and the one duty of the partner's
  receive cell (handing the partner the rows received, now holding the sender's). A device signals its partner's barrier
  cell one unit, handing over its own eight receive slices, and waits one unit on its own barrier cell, which hands it
  the partner's eight. After the barrier signal a device owes receive cells only, which sit above the barrier cells.
-/
import proofs.«900428_g7700000000000429_dist_flashdec_v7x_xyz2x2x4_y_b4_sq32_skv4096_h8_d128_f32_1_alg».proof.Proof.KData
import proofs.«900428_g7700000000000429_dist_flashdec_v7x_xyz2x2x4_y_b4_sq32_skv4096_h8_d128_f32_1_alg».proof.Proof.KSlices

noncomputable section

namespace Cert.KernelProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The two copies of a batch entry -/

/-- The output copy of batch entry 0, addressed to `n = nbr c`. -/
theorem wp_send_o0 (K : Dev nD × Fin 17 → ℕ) (c n : Dev nD) (hn : n = nbr c)
    {hsc : (oSl roB 0 : Memref sig (Dev.tc n : Thread nD τ).2.kind .vmem S32x8x128 .f32).view.ref.isScScratch = false}
    {hsrc : (oSl oB 0).view.WordExact} {hdst : (oSl roB 0).view.WordExact}
    {hsem : DmaTarget.Typed .vmem (.dma (famSem 1 0)) (.remote (Dev.tc n : Thread nD τ) (oSl roB 0) (.dma (famSem 0 0)) hsc)}
    {α : Type} {Q : α → sProp 𝕄} {k : PUnit → Prog (TpuEff nD τ sig (Elt F) Λ₀ .tc) α}
    (fn : OTy F) (O : CellTallies nD τ sig Unit) (W : Waits sig Unit) :
    iprop(cellInv ER (Rd m) (K (c, fidx 0 0)) (famCell c 0 0) ∗ cellInv ER (Rd m) (K (nbr c, fidx 1 0)) (famCell (nbr c) 1 0)
        ∗ obPts c 0 (OV m c) ∗ robPts (nbr c) 0 fn
        ∗ owes (c : Thread nD τ) (O + tallyAt (famCell (nbr c) 1 0) () No) W
        ∗ dutyTok ER (famCell c 0 0) 0 () ∗ reached ER (famCell c 0 0) 0
        ∗ dutyTok ER (famCell (nbr c) 1 0) 0 () ∗ reached ER (famCell (nbr c) 1 0) 0)
      ⊢ iprop(((cred (tallyAt (famCell c 0 0) () No) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSl oB 0) (.remote (Dev.tc n : Thread nD τ) (oSl roB 0) (.dma (famSem 0 0)) hsc) (.dma (famSem 1 0)) hsrc hdst hsem) k) Q) := by
  subst hn
  have hp2 : (slPts (nbr c) (oSl roB 0) ((oSl roB 0).view.write (Elt F) fn ((oSl oB 0).view.read (Elt F) (OV m c)) Finset.univ) : sProp 𝕄)
      ⊢ (Rd m).payload (famCell (nbr c) 1 0) 0 () := by
    rw [payload_fam, land_o0]
    show _ ⊢ slPts (nbr c) (oSl roB 0) (OV m (nbr (nbr c)))
    rw [nbr_nbr]
  have hp1 : (slPts c (oSl oB 0) (OV m c) : sProp 𝕄) ⊢ (Rd m).payload (famCell c 0 0) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := oSl oB 0) (dst := oSl roB 0) (hsc := hsc) (sS := .dma (famSem 0 0)) (sem := .dma (famSem 1 0))
    (hsrc := hsrc) (hdst := hdst) (hsem := hsem) (k := k) (Q := Q) (q := fullShare) (fs := OV m c) (fd := fn)
    (κ₁ := K (c, fidx 0 0)) (κ₂ := K (nbr c, fidx 1 0)) (r₁ := 0) (r₂ := 0) (d₁ := ()) (d₂ := ())
    (by rw [duties_fam]; exact Finset.mem_singleton_self _) (by rw [duties_fam]; exact Finset.mem_singleton_self _)
    () () No rfl ((amount_fam (OV m) (SV m) c 0 0 ()).trans (if_pos (by decide))) ((amount_fam (OV m) (SV m) (nbr c) 1 0 ()).trans (if_pos (by decide)))
    O rfl (W := W) hp1 hp2 (Es := Set.univ)
  exact h

/-- The output copy of batch entry 1, addressed to `n = nbr c`. -/
theorem wp_send_o1 (K : Dev nD × Fin 17 → ℕ) (c n : Dev nD) (hn : n = nbr c)
    {hsc : (oSl roB 1 : Memref sig (Dev.tc n : Thread nD τ).2.kind .vmem S32x8x128 .f32).view.ref.isScScratch = false}
    {hsrc : (oSl oB 1).view.WordExact} {hdst : (oSl roB 1).view.WordExact}
    {hsem : DmaTarget.Typed .vmem (.dma (famSem 1 1)) (.remote (Dev.tc n : Thread nD τ) (oSl roB 1) (.dma (famSem 0 1)) hsc)}
    {α : Type} {Q : α → sProp 𝕄} {k : PUnit → Prog (TpuEff nD τ sig (Elt F) Λ₀ .tc) α}
    (fn : OTy F) (O : CellTallies nD τ sig Unit) (W : Waits sig Unit) :
    iprop(cellInv ER (Rd m) (K (c, fidx 0 1)) (famCell c 0 1) ∗ cellInv ER (Rd m) (K (nbr c, fidx 1 1)) (famCell (nbr c) 1 1)
        ∗ obPts c 1 (OV m c) ∗ robPts (nbr c) 1 fn
        ∗ owes (c : Thread nD τ) (O + tallyAt (famCell (nbr c) 1 1) () No) W
        ∗ dutyTok ER (famCell c 0 1) 0 () ∗ reached ER (famCell c 0 1) 0
        ∗ dutyTok ER (famCell (nbr c) 1 1) 0 () ∗ reached ER (famCell (nbr c) 1 1) 0)
      ⊢ iprop(((cred (tallyAt (famCell c 0 1) () No) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSl oB 1) (.remote (Dev.tc n : Thread nD τ) (oSl roB 1) (.dma (famSem 0 1)) hsc) (.dma (famSem 1 1)) hsrc hdst hsem) k) Q) := by
  subst hn
  have hp2 : (slPts (nbr c) (oSl roB 1) ((oSl roB 1).view.write (Elt F) fn ((oSl oB 1).view.read (Elt F) (OV m c)) Finset.univ) : sProp 𝕄)
      ⊢ (Rd m).payload (famCell (nbr c) 1 1) 0 () := by
    rw [payload_fam, land_o1]
    show _ ⊢ slPts (nbr c) (oSl roB 1) (OV m (nbr (nbr c)))
    rw [nbr_nbr]
  have hp1 : (slPts c (oSl oB 1) (OV m c) : sProp 𝕄) ⊢ (Rd m).payload (famCell c 0 1) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := oSl oB 1) (dst := oSl roB 1) (hsc := hsc) (sS := .dma (famSem 0 1)) (sem := .dma (famSem 1 1))
    (hsrc := hsrc) (hdst := hdst) (hsem := hsem) (k := k) (Q := Q) (q := fullShare) (fs := OV m c) (fd := fn)
    (κ₁ := K (c, fidx 0 1)) (κ₂ := K (nbr c, fidx 1 1)) (r₁ := 0) (r₂ := 0) (d₁ := ()) (d₂ := ())
    (by rw [duties_fam]; exact Finset.mem_singleton_self _) (by rw [duties_fam]; exact Finset.mem_singleton_self _)
    () () No rfl ((amount_fam (OV m) (SV m) c 0 1 ()).trans (if_pos (by decide))) ((amount_fam (OV m) (SV m) (nbr c) 1 1 ()).trans (if_pos (by decide)))
    O rfl (W := W) hp1 hp2 (Es := Set.univ)
  exact h

/-- The output copy of batch entry 2, addressed to `n = nbr c`. -/
theorem wp_send_o2 (K : Dev nD × Fin 17 → ℕ) (c n : Dev nD) (hn : n = nbr c)
    {hsc : (oSl roB 2 : Memref sig (Dev.tc n : Thread nD τ).2.kind .vmem S32x8x128 .f32).view.ref.isScScratch = false}
    {hsrc : (oSl oB 2).view.WordExact} {hdst : (oSl roB 2).view.WordExact}
    {hsem : DmaTarget.Typed .vmem (.dma (famSem 1 2)) (.remote (Dev.tc n : Thread nD τ) (oSl roB 2) (.dma (famSem 0 2)) hsc)}
    {α : Type} {Q : α → sProp 𝕄} {k : PUnit → Prog (TpuEff nD τ sig (Elt F) Λ₀ .tc) α}
    (fn : OTy F) (O : CellTallies nD τ sig Unit) (W : Waits sig Unit) :
    iprop(cellInv ER (Rd m) (K (c, fidx 0 2)) (famCell c 0 2) ∗ cellInv ER (Rd m) (K (nbr c, fidx 1 2)) (famCell (nbr c) 1 2)
        ∗ obPts c 2 (OV m c) ∗ robPts (nbr c) 2 fn
        ∗ owes (c : Thread nD τ) (O + tallyAt (famCell (nbr c) 1 2) () No) W
        ∗ dutyTok ER (famCell c 0 2) 0 () ∗ reached ER (famCell c 0 2) 0
        ∗ dutyTok ER (famCell (nbr c) 1 2) 0 () ∗ reached ER (famCell (nbr c) 1 2) 0)
      ⊢ iprop(((cred (tallyAt (famCell c 0 2) () No) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSl oB 2) (.remote (Dev.tc n : Thread nD τ) (oSl roB 2) (.dma (famSem 0 2)) hsc) (.dma (famSem 1 2)) hsrc hdst hsem) k) Q) := by
  subst hn
  have hp2 : (slPts (nbr c) (oSl roB 2) ((oSl roB 2).view.write (Elt F) fn ((oSl oB 2).view.read (Elt F) (OV m c)) Finset.univ) : sProp 𝕄)
      ⊢ (Rd m).payload (famCell (nbr c) 1 2) 0 () := by
    rw [payload_fam, land_o2]
    show _ ⊢ slPts (nbr c) (oSl roB 2) (OV m (nbr (nbr c)))
    rw [nbr_nbr]
  have hp1 : (slPts c (oSl oB 2) (OV m c) : sProp 𝕄) ⊢ (Rd m).payload (famCell c 0 2) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := oSl oB 2) (dst := oSl roB 2) (hsc := hsc) (sS := .dma (famSem 0 2)) (sem := .dma (famSem 1 2))
    (hsrc := hsrc) (hdst := hdst) (hsem := hsem) (k := k) (Q := Q) (q := fullShare) (fs := OV m c) (fd := fn)
    (κ₁ := K (c, fidx 0 2)) (κ₂ := K (nbr c, fidx 1 2)) (r₁ := 0) (r₂ := 0) (d₁ := ()) (d₂ := ())
    (by rw [duties_fam]; exact Finset.mem_singleton_self _) (by rw [duties_fam]; exact Finset.mem_singleton_self _)
    () () No rfl ((amount_fam (OV m) (SV m) c 0 2 ()).trans (if_pos (by decide))) ((amount_fam (OV m) (SV m) (nbr c) 1 2 ()).trans (if_pos (by decide)))
    O rfl (W := W) hp1 hp2 (Es := Set.univ)
  exact h

/-- The output copy of batch entry 3, addressed to `n = nbr c`. -/
theorem wp_send_o3 (K : Dev nD × Fin 17 → ℕ) (c n : Dev nD) (hn : n = nbr c)
    {hsc : (oSl roB 3 : Memref sig (Dev.tc n : Thread nD τ).2.kind .vmem S32x8x128 .f32).view.ref.isScScratch = false}
    {hsrc : (oSl oB 3).view.WordExact} {hdst : (oSl roB 3).view.WordExact}
    {hsem : DmaTarget.Typed .vmem (.dma (famSem 1 3)) (.remote (Dev.tc n : Thread nD τ) (oSl roB 3) (.dma (famSem 0 3)) hsc)}
    {α : Type} {Q : α → sProp 𝕄} {k : PUnit → Prog (TpuEff nD τ sig (Elt F) Λ₀ .tc) α}
    (fn : OTy F) (O : CellTallies nD τ sig Unit) (W : Waits sig Unit) :
    iprop(cellInv ER (Rd m) (K (c, fidx 0 3)) (famCell c 0 3) ∗ cellInv ER (Rd m) (K (nbr c, fidx 1 3)) (famCell (nbr c) 1 3)
        ∗ obPts c 3 (OV m c) ∗ robPts (nbr c) 3 fn
        ∗ owes (c : Thread nD τ) (O + tallyAt (famCell (nbr c) 1 3) () No) W
        ∗ dutyTok ER (famCell c 0 3) 0 () ∗ reached ER (famCell c 0 3) 0
        ∗ dutyTok ER (famCell (nbr c) 1 3) 0 () ∗ reached ER (famCell (nbr c) 1 3) 0)
      ⊢ iprop(((cred (tallyAt (famCell c 0 3) () No) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oSl oB 3) (.remote (Dev.tc n : Thread nD τ) (oSl roB 3) (.dma (famSem 0 3)) hsc) (.dma (famSem 1 3)) hsrc hdst hsem) k) Q) := by
  subst hn
  have hp2 : (slPts (nbr c) (oSl roB 3) ((oSl roB 3).view.write (Elt F) fn ((oSl oB 3).view.read (Elt F) (OV m c)) Finset.univ) : sProp 𝕄)
      ⊢ (Rd m).payload (famCell (nbr c) 1 3) 0 () := by
    rw [payload_fam, land_o3]
    show _ ⊢ slPts (nbr c) (oSl roB 3) (OV m (nbr (nbr c)))
    rw [nbr_nbr]
  have hp1 : (slPts c (oSl oB 3) (OV m c) : sProp 𝕄) ⊢ (Rd m).payload (famCell c 0 3) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := oSl oB 3) (dst := oSl roB 3) (hsc := hsc) (sS := .dma (famSem 0 3)) (sem := .dma (famSem 1 3))
    (hsrc := hsrc) (hdst := hdst) (hsem := hsem) (k := k) (Q := Q) (q := fullShare) (fs := OV m c) (fd := fn)
    (κ₁ := K (c, fidx 0 3)) (κ₂ := K (nbr c, fidx 1 3)) (r₁ := 0) (r₂ := 0) (d₁ := ()) (d₂ := ())
    (by rw [duties_fam]; exact Finset.mem_singleton_self _) (by rw [duties_fam]; exact Finset.mem_singleton_self _)
    () () No rfl ((amount_fam (OV m) (SV m) c 0 3 ()).trans (if_pos (by decide))) ((amount_fam (OV m) (SV m) (nbr c) 1 3 ()).trans (if_pos (by decide)))
    O rfl (W := W) hp1 hp2 (Es := Set.univ)
  exact h

/-- The statistics copy of batch entry 0, addressed to `n = nbr c`. -/
theorem wp_send_s0 (K : Dev nD × Fin 17 → ℕ) (c n : Dev nD) (hn : n = nbr c)
    {hsc : (sSl rsB 0 : Memref sig (Dev.tc n : Thread nD τ).2.kind .vmem S2x8x32 .f32).view.ref.isScScratch = false}
    {hsrc : (sSl sB 0).view.WordExact} {hdst : (sSl rsB 0).view.WordExact}
    {hsem : DmaTarget.Typed .vmem (.dma (famSem 3 0)) (.remote (Dev.tc n : Thread nD τ) (sSl rsB 0) (.dma (famSem 2 0)) hsc)}
    {α : Type} {Q : α → sProp 𝕄} {k : PUnit → Prog (TpuEff nD τ sig (Elt F) Λ₀ .tc) α}
    (fn : STy F) (O : CellTallies nD τ sig Unit) (W : Waits sig Unit) :
    iprop(cellInv ER (Rd m) (K (c, fidx 2 0)) (famCell c 2 0) ∗ cellInv ER (Rd m) (K (nbr c, fidx 3 0)) (famCell (nbr c) 3 0)
        ∗ sbPts c 0 (SV m c) ∗ rsbPts (nbr c) 0 fn
        ∗ owes (c : Thread nD τ) (O + tallyAt (famCell (nbr c) 3 0) () Ns) W
        ∗ dutyTok ER (famCell c 2 0) 0 () ∗ reached ER (famCell c 2 0) 0
        ∗ dutyTok ER (famCell (nbr c) 3 0) 0 () ∗ reached ER (famCell (nbr c) 3 0) 0)
      ⊢ iprop(((cred (tallyAt (famCell c 2 0) () Ns) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSl sB 0) (.remote (Dev.tc n : Thread nD τ) (sSl rsB 0) (.dma (famSem 2 0)) hsc) (.dma (famSem 3 0)) hsrc hdst hsem) k) Q) := by
  subst hn
  have hp2 : (slPts (nbr c) (sSl rsB 0) ((sSl rsB 0).view.write (Elt F) fn ((sSl sB 0).view.read (Elt F) (SV m c)) Finset.univ) : sProp 𝕄)
      ⊢ (Rd m).payload (famCell (nbr c) 3 0) 0 () := by
    rw [payload_fam, land_s0]
    show _ ⊢ slPts (nbr c) (sSl rsB 0) (SV m (nbr (nbr c)))
    rw [nbr_nbr]
  have hp1 : (slPts c (sSl sB 0) (SV m c) : sProp 𝕄) ⊢ (Rd m).payload (famCell c 2 0) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := sSl sB 0) (dst := sSl rsB 0) (hsc := hsc) (sS := .dma (famSem 2 0)) (sem := .dma (famSem 3 0))
    (hsrc := hsrc) (hdst := hdst) (hsem := hsem) (k := k) (Q := Q) (q := fullShare) (fs := SV m c) (fd := fn)
    (κ₁ := K (c, fidx 2 0)) (κ₂ := K (nbr c, fidx 3 0)) (r₁ := 0) (r₂ := 0) (d₁ := ()) (d₂ := ())
    (by rw [duties_fam]; exact Finset.mem_singleton_self _) (by rw [duties_fam]; exact Finset.mem_singleton_self _)
    () () Ns rfl ((amount_fam (OV m) (SV m) c 2 0 ()).trans (if_neg (by decide))) ((amount_fam (OV m) (SV m) (nbr c) 3 0 ()).trans (if_neg (by decide)))
    O rfl (W := W) hp1 hp2 (Es := Set.univ)
  exact h

/-- The statistics copy of batch entry 1, addressed to `n = nbr c`. -/
theorem wp_send_s1 (K : Dev nD × Fin 17 → ℕ) (c n : Dev nD) (hn : n = nbr c)
    {hsc : (sSl rsB 1 : Memref sig (Dev.tc n : Thread nD τ).2.kind .vmem S2x8x32 .f32).view.ref.isScScratch = false}
    {hsrc : (sSl sB 1).view.WordExact} {hdst : (sSl rsB 1).view.WordExact}
    {hsem : DmaTarget.Typed .vmem (.dma (famSem 3 1)) (.remote (Dev.tc n : Thread nD τ) (sSl rsB 1) (.dma (famSem 2 1)) hsc)}
    {α : Type} {Q : α → sProp 𝕄} {k : PUnit → Prog (TpuEff nD τ sig (Elt F) Λ₀ .tc) α}
    (fn : STy F) (O : CellTallies nD τ sig Unit) (W : Waits sig Unit) :
    iprop(cellInv ER (Rd m) (K (c, fidx 2 1)) (famCell c 2 1) ∗ cellInv ER (Rd m) (K (nbr c, fidx 3 1)) (famCell (nbr c) 3 1)
        ∗ sbPts c 1 (SV m c) ∗ rsbPts (nbr c) 1 fn
        ∗ owes (c : Thread nD τ) (O + tallyAt (famCell (nbr c) 3 1) () Ns) W
        ∗ dutyTok ER (famCell c 2 1) 0 () ∗ reached ER (famCell c 2 1) 0
        ∗ dutyTok ER (famCell (nbr c) 3 1) 0 () ∗ reached ER (famCell (nbr c) 3 1) 0)
      ⊢ iprop(((cred (tallyAt (famCell c 2 1) () Ns) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSl sB 1) (.remote (Dev.tc n : Thread nD τ) (sSl rsB 1) (.dma (famSem 2 1)) hsc) (.dma (famSem 3 1)) hsrc hdst hsem) k) Q) := by
  subst hn
  have hp2 : (slPts (nbr c) (sSl rsB 1) ((sSl rsB 1).view.write (Elt F) fn ((sSl sB 1).view.read (Elt F) (SV m c)) Finset.univ) : sProp 𝕄)
      ⊢ (Rd m).payload (famCell (nbr c) 3 1) 0 () := by
    rw [payload_fam, land_s1]
    show _ ⊢ slPts (nbr c) (sSl rsB 1) (SV m (nbr (nbr c)))
    rw [nbr_nbr]
  have hp1 : (slPts c (sSl sB 1) (SV m c) : sProp 𝕄) ⊢ (Rd m).payload (famCell c 2 1) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := sSl sB 1) (dst := sSl rsB 1) (hsc := hsc) (sS := .dma (famSem 2 1)) (sem := .dma (famSem 3 1))
    (hsrc := hsrc) (hdst := hdst) (hsem := hsem) (k := k) (Q := Q) (q := fullShare) (fs := SV m c) (fd := fn)
    (κ₁ := K (c, fidx 2 1)) (κ₂ := K (nbr c, fidx 3 1)) (r₁ := 0) (r₂ := 0) (d₁ := ()) (d₂ := ())
    (by rw [duties_fam]; exact Finset.mem_singleton_self _) (by rw [duties_fam]; exact Finset.mem_singleton_self _)
    () () Ns rfl ((amount_fam (OV m) (SV m) c 2 1 ()).trans (if_neg (by decide))) ((amount_fam (OV m) (SV m) (nbr c) 3 1 ()).trans (if_neg (by decide)))
    O rfl (W := W) hp1 hp2 (Es := Set.univ)
  exact h

/-- The statistics copy of batch entry 2, addressed to `n = nbr c`. -/
theorem wp_send_s2 (K : Dev nD × Fin 17 → ℕ) (c n : Dev nD) (hn : n = nbr c)
    {hsc : (sSl rsB 2 : Memref sig (Dev.tc n : Thread nD τ).2.kind .vmem S2x8x32 .f32).view.ref.isScScratch = false}
    {hsrc : (sSl sB 2).view.WordExact} {hdst : (sSl rsB 2).view.WordExact}
    {hsem : DmaTarget.Typed .vmem (.dma (famSem 3 2)) (.remote (Dev.tc n : Thread nD τ) (sSl rsB 2) (.dma (famSem 2 2)) hsc)}
    {α : Type} {Q : α → sProp 𝕄} {k : PUnit → Prog (TpuEff nD τ sig (Elt F) Λ₀ .tc) α}
    (fn : STy F) (O : CellTallies nD τ sig Unit) (W : Waits sig Unit) :
    iprop(cellInv ER (Rd m) (K (c, fidx 2 2)) (famCell c 2 2) ∗ cellInv ER (Rd m) (K (nbr c, fidx 3 2)) (famCell (nbr c) 3 2)
        ∗ sbPts c 2 (SV m c) ∗ rsbPts (nbr c) 2 fn
        ∗ owes (c : Thread nD τ) (O + tallyAt (famCell (nbr c) 3 2) () Ns) W
        ∗ dutyTok ER (famCell c 2 2) 0 () ∗ reached ER (famCell c 2 2) 0
        ∗ dutyTok ER (famCell (nbr c) 3 2) 0 () ∗ reached ER (famCell (nbr c) 3 2) 0)
      ⊢ iprop(((cred (tallyAt (famCell c 2 2) () Ns) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSl sB 2) (.remote (Dev.tc n : Thread nD τ) (sSl rsB 2) (.dma (famSem 2 2)) hsc) (.dma (famSem 3 2)) hsrc hdst hsem) k) Q) := by
  subst hn
  have hp2 : (slPts (nbr c) (sSl rsB 2) ((sSl rsB 2).view.write (Elt F) fn ((sSl sB 2).view.read (Elt F) (SV m c)) Finset.univ) : sProp 𝕄)
      ⊢ (Rd m).payload (famCell (nbr c) 3 2) 0 () := by
    rw [payload_fam, land_s2]
    show _ ⊢ slPts (nbr c) (sSl rsB 2) (SV m (nbr (nbr c)))
    rw [nbr_nbr]
  have hp1 : (slPts c (sSl sB 2) (SV m c) : sProp 𝕄) ⊢ (Rd m).payload (famCell c 2 2) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := sSl sB 2) (dst := sSl rsB 2) (hsc := hsc) (sS := .dma (famSem 2 2)) (sem := .dma (famSem 3 2))
    (hsrc := hsrc) (hdst := hdst) (hsem := hsem) (k := k) (Q := Q) (q := fullShare) (fs := SV m c) (fd := fn)
    (κ₁ := K (c, fidx 2 2)) (κ₂ := K (nbr c, fidx 3 2)) (r₁ := 0) (r₂ := 0) (d₁ := ()) (d₂ := ())
    (by rw [duties_fam]; exact Finset.mem_singleton_self _) (by rw [duties_fam]; exact Finset.mem_singleton_self _)
    () () Ns rfl ((amount_fam (OV m) (SV m) c 2 2 ()).trans (if_neg (by decide))) ((amount_fam (OV m) (SV m) (nbr c) 3 2 ()).trans (if_neg (by decide)))
    O rfl (W := W) hp1 hp2 (Es := Set.univ)
  exact h

/-- The statistics copy of batch entry 3, addressed to `n = nbr c`. -/
theorem wp_send_s3 (K : Dev nD × Fin 17 → ℕ) (c n : Dev nD) (hn : n = nbr c)
    {hsc : (sSl rsB 3 : Memref sig (Dev.tc n : Thread nD τ).2.kind .vmem S2x8x32 .f32).view.ref.isScScratch = false}
    {hsrc : (sSl sB 3).view.WordExact} {hdst : (sSl rsB 3).view.WordExact}
    {hsem : DmaTarget.Typed .vmem (.dma (famSem 3 3)) (.remote (Dev.tc n : Thread nD τ) (sSl rsB 3) (.dma (famSem 2 3)) hsc)}
    {α : Type} {Q : α → sProp 𝕄} {k : PUnit → Prog (TpuEff nD τ sig (Elt F) Λ₀ .tc) α}
    (fn : STy F) (O : CellTallies nD τ sig Unit) (W : Waits sig Unit) :
    iprop(cellInv ER (Rd m) (K (c, fidx 2 3)) (famCell c 2 3) ∗ cellInv ER (Rd m) (K (nbr c, fidx 3 3)) (famCell (nbr c) 3 3)
        ∗ sbPts c 3 (SV m c) ∗ rsbPts (nbr c) 3 fn
        ∗ owes (c : Thread nD τ) (O + tallyAt (famCell (nbr c) 3 3) () Ns) W
        ∗ dutyTok ER (famCell c 2 3) 0 () ∗ reached ER (famCell c 2 3) 0
        ∗ dutyTok ER (famCell (nbr c) 3 3) 0 () ∗ reached ER (famCell (nbr c) 3 3) 0)
      ⊢ iprop(((cred (tallyAt (famCell c 2 3) () Ns) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSl sB 3) (.remote (Dev.tc n : Thread nD τ) (sSl rsB 3) (.dma (famSem 2 3)) hsc) (.dma (famSem 3 3)) hsrc hdst hsem) k) Q) := by
  subst hn
  have hp2 : (slPts (nbr c) (sSl rsB 3) ((sSl rsB 3).view.write (Elt F) fn ((sSl sB 3).view.read (Elt F) (SV m c)) Finset.univ) : sProp 𝕄)
      ⊢ (Rd m).payload (famCell (nbr c) 3 3) 0 () := by
    rw [payload_fam, land_s3]
    show _ ⊢ slPts (nbr c) (sSl rsB 3) (SV m (nbr (nbr c)))
    rw [nbr_nbr]
  have hp1 : (slPts c (sSl sB 3) (SV m c) : sProp 𝕄) ⊢ (Rd m).payload (famCell c 2 3) 0 () := by
    rw [payload_fam]; exact BI.Entails.refl _
  have h := Rounds.wp_send_pointsTo 𝒱₀ ER (Rd m) (c : Thread nD τ) none (defs := defs₀ (F := F)) (Γ := PendingWaitsCtx.empty)
    (c' := (nbr c : Thread nD τ)) (src := sSl sB 3) (dst := sSl rsB 3) (hsc := hsc) (sS := .dma (famSem 2 3)) (sem := .dma (famSem 3 3))
    (hsrc := hsrc) (hdst := hdst) (hsem := hsem) (k := k) (Q := Q) (q := fullShare) (fs := SV m c) (fd := fn)
    (κ₁ := K (c, fidx 2 3)) (κ₂ := K (nbr c, fidx 3 3)) (r₁ := 0) (r₂ := 0) (d₁ := ()) (d₂ := ())
    (by rw [duties_fam]; exact Finset.mem_singleton_self _) (by rw [duties_fam]; exact Finset.mem_singleton_self _)
    () () Ns rfl ((amount_fam (OV m) (SV m) c 2 3 ()).trans (if_neg (by decide))) ((amount_fam (OV m) (SV m) (nbr c) 3 3 ()).trans (if_neg (by decide)))
    O rfl (W := W) hp1 hp2 (Es := Set.univ)
  exact h

/-! ## The barrier -/

/-- A device's own eight receive slices, at whatever they hold: what its barrier signal hands its partner. -/
def ownRecv (c : Dev nD) : sProp 𝕄 :=
  iprop((∃ f, robPts c 0 f) ∗ (∃ f, robPts c 1 f) ∗ (∃ f, robPts c 2 f) ∗ (∃ f, robPts c 3 f)
    ∗ (∃ f, rsbPts c 0 f) ∗ (∃ f, rsbPts c 1 f) ∗ (∃ f, rsbPts c 2 f) ∗ (∃ f, rsbPts c 3 f))

omit [FloatOps F] in
theorem barPay_nbr (c : Dev nD) : (barPay (nbr c) : sProp 𝕄) = ownRecv c := by unfold barPay ownRecv; rw [nbr_nbr]
omit [FloatOps F] in
theorem barPay_eq (c : Dev nD) : (barPay c : sProp 𝕄) = ownRecv (nbr c) := rfl

/-- The barrier signal to the partner `n = nbr c`, one unit, paying its barrier cell's duty with the device's own
    receive slices. -/
theorem wp_bar_signal (K : Dev nD × Fin 17 → ℕ) (c n : Dev nD) (hn : n = nbr c)
    {α : Type} {Q : α → sProp 𝕄} {k : PUnit → Prog (TpuEff nD τ sig (Elt F) Λ₀ .tc) α}
    (O : CellTallies nD τ sig Unit) (W : Waits sig Unit) :
    iprop(cellInv ER (Rd m) (K (nbr c, 0)) (barCell (nbr c)) ∗ owes (c : Thread nD τ) (O + tallyAt (barCell (nbr c)) () 1) W
        ∗ dutyTok ER (barCell (nbr c)) 0 () ∗ ownRecv c ∗ reached ER (barCell (nbr c)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (n : Thread nD τ) barS (1#32 : BitVec 32).toNat) k) Q) := by
  subst hn
  rw [← barPay_nbr c, ← payload_bar (OV m) (SV m) (nbr c) ()]
  exact Rounds.wp_signal 𝒱₀ ER (Rd m) (c : Thread nD τ) none (defs := defs₀ (F := F)) (Γ := PendingWaitsCtx.empty)
    (dst := (nbr c : Thread nD τ)) (sem := barS) (κ := K (nbr c, 0)) (r := 0) (d := ()) (k := k) (Q := Q)
    (by rw [duties_bar]; exact Finset.mem_singleton_self _) ((amount_bar (OV m) (SV m) (nbr c) ()).trans (by decide)) () O rfl (W := W) (Es := Set.univ)

/-- The wait of one unit on the device's own barrier cell: the partner's eight receive slices come with it. -/
theorem wp_bar_wait (K : Dev nD × Fin 17 → ℕ) (c : Dev nD)
    {α : Type} {Q : α → sProp 𝕄} {k : PUnit → Prog (TpuEff nD τ sig (Elt F) Λ₀ .tc) α}
    (O : CellTallies nD τ sig Unit) (W : Waits sig Unit) :
    iprop(cellInv ER (Rd m) (K (c, 0)) (barCell c) ∗ cred (tallyAt (barCell c) () 1) ∗ owes (c : Thread nD τ) O W
        ∗ MayWait (c : Thread nD τ) (.reg barS) () O ∗ atPos ER (barCell c) 0 ∅ 0)
      ⊢ iprop(((owes (c : Thread nD τ) O (insert (SemLoc.reg barS, ()) W) ∗ atPos ER (barCell c) 1 ∅ 0 ∗ reached ER (barCell c) 1 ∗ barPay c)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (1#32 : BitVec 32).toNat) k) Q) := by
  have h := Rounds.wp_wait_rest_token 𝒱₀ ER (Rd m) (c : Thread nD τ) none (defs := defs₀ (F := F)) (Γ := PendingWaitsCtx.empty) (κ := K (c, 0)) (sm := .reg barS) (k' := (1#32 : BitVec 32).toNat)
    (wpE_semWait_eq 𝒱₀ (c : Thread nD τ) none Set.univ) (Set.mem_univ _) (k := k) (Q := Q) () (O := O) (W := W) (R := 0) (m := 0) (T := ∅)
    (by rw [expect_bar]; decide)
  rw [rest_bar] at h
  exact h

/-! ## The level of the barrier wait -/

omit [FloatOps F] in
theorem evTally_pos_recv {c : Dev nD} {i : ℕ} (hi : 1 ≤ i) {g : GSem nD τ sig} {u : Unit} (h : 0 < evTally c i g u) :
    ∃ b : Fin 4, g = famCell (nbr c) 1 b ∨ g = famCell (nbr c) 3 b := by
  match i, hi, h with
  | 1, _, h => exact ⟨0, Or.inl (Pipeline.tallyAt_pos h).1⟩
  | 2, _, h => exact ⟨0, Or.inr (Pipeline.tallyAt_pos h).1⟩
  | 3, _, h => exact ⟨1, Or.inl (Pipeline.tallyAt_pos h).1⟩
  | 4, _, h => exact ⟨1, Or.inr (Pipeline.tallyAt_pos h).1⟩
  | 5, _, h => exact ⟨2, Or.inl (Pipeline.tallyAt_pos h).1⟩
  | 6, _, h => exact ⟨2, Or.inr (Pipeline.tallyAt_pos h).1⟩
  | 7, _, h => exact ⟨3, Or.inl (Pipeline.tallyAt_pos h).1⟩
  | 8, _, h => exact ⟨3, Or.inr (Pipeline.tallyAt_pos h).1⟩
  | n + 9, _, h => exact absurd h (Nat.lt_irrefl 0)

omit [FloatOps F] in
theorem owedLast_pos_recv {c : Dev nD} {n : ℕ} (hn : n ≤ 8) {g : GSem nD τ sig} {u : Unit} (h : 0 < owedLast c n g u) :
    ∃ b : Fin 4, g = famCell (nbr c) 1 b ∨ g = famCell (nbr c) 3 b := by
  induction n with
  | zero => exact absurd h (Nat.lt_irrefl 0)
  | succ n ih =>
    rcases Pipeline.add_pos_cases (show 0 < (owedLast c n + evTally c (8 - n)) g u from h) with h' | h'
    · exact ih (by omega) h'
    · exact evTally_pos_recv (by omega) h'

omit [FloatOps F] in
/-- From the barrier signal on, a device owes only its partner's receive cells. -/
theorem owedFrom_pos_recv {c : Dev nD} {j : ℕ} (hj : 1 ≤ j) {g : GSem nD τ sig} {u : Unit} (h : 0 < owedFrom c j g u) :
    ∃ b : Fin 4, g = famCell (nbr c) 1 b ∨ g = famCell (nbr c) 3 b := owedLast_pos_recv (by omega) h

omit [FloatOps F] in
theorem lv_fam_recv (c' : Dev nD) (b : Fin 4) : lv (famCell c' 1 b) () = 2 ∧ lv (famCell c' 3 b) () = 2 := by
  constructor
  · show (if 7 ≤ (famSem 1 b).val ∧ (famOf (famSem 1 b)).val % 2 = 1 then 2 else 0) = 2
    revert b; decide
  · show (if 7 ≤ (famSem 3 b).val ∧ (famOf (famSem 3 b)).val % 2 = 1 then 2 else 0) = 2
    revert b; decide

omit [FloatOps F] in
/-- The barrier wait is allowed: what is still owed after the barrier signal sits above the barrier cells. -/
theorem mayWait_bar (c : Dev nD) (j : ℕ) (hj : 1 ≤ j) :
    (levAts L lv : sProp 𝕄) ⊢ MayWait (c : Thread nD τ) (.reg barS) () (owedFrom c j) :=
  MayOwe.of_cut (L := L) (lev := lv) 1 (fun p hp => by rw [Finset.mem_singleton.mp hp, L_tc]; exact Finset.mem_singleton_self _)
    (fun g u hg => by
      rcases owedFrom_pos_recv hj hg with ⟨b, rfl | rfl⟩ <;> (rw [L_tc]; exact Finset.mem_singleton_self _))
    (fun p hp => by rw [Finset.mem_singleton.mp hp]; exact Nat.le_refl 1)
    (fun g u hg => by
      rcases owedFrom_pos_recv hj hg with ⟨b, rfl | rfl⟩
      · cases u; rw [(lv_fam_recv (nbr c) b).1]; decide
      · cases u; rw [(lv_fam_recv (nbr c) b).2]; decide)

/-- info: 'Cert.KernelProof.wp_send_o0' depends on axioms: [propext, Classical.choice, Quot.sound] -/
#guard_msgs in #print axioms wp_send_o0
/-- info: 'Cert.KernelProof.wp_send_s0' depends on axioms: [propext, Classical.choice, Quot.sound] -/
#guard_msgs in #print axioms wp_send_s0
/-- info: 'Cert.KernelProof.wp_bar_signal' depends on axioms: [propext, Classical.choice, Quot.sound] -/
#guard_msgs in #print axioms wp_bar_signal
/-- info: 'Cert.KernelProof.wp_bar_wait' depends on axioms: [propext, Classical.choice, Quot.sound] -/
#guard_msgs in #print axioms wp_bar_wait
/-- info: 'Cert.KernelProof.mayWait_bar' depends on axioms: [propext, Classical.choice, Quot.sound] -/
#guard_msgs in #print axioms mayWait_bar

end Cert.KernelProof

end
-- ==== Proof.KBodyHand.lean ====
/-
  The body at the hand-over points: the last chunk of a batch entry, then the hand-over of its accumulators.

  At such a point the body first takes the chunk step on the three accumulators, then stores the re-laid numerator rows
  into the entry's rows of the output buffer and the running maxima and normalisers into the entry's two statistics rows,
  and then copies those rows into the partner's receive buffers (for the first entry after the barrier handshake). The
  run is stated from the accumulators, the staging buffers, the entry's part of the invariant between points and what
  the device still owes, to the same after the point; that the rows stored are the rows the hand-over buffers hold at
  the end is taken as three pointwise hypotheses.
-/
import proofs.«900428_g7700000000000429_dist_flashdec_v7x_xyz2x2x4_y_b4_sq32_skv4096_h8_d128_f32_1_alg».proof.Proof.KData
import proofs.«900428_g7700000000000429_dist_flashdec_v7x_xyz2x2x4_y_b4_sq32_skv4096_h8_d128_f32_1_alg».proof.Proof.KSlices
import proofs.«900428_g7700000000000429_dist_flashdec_v7x_xyz2x2x4_y_b4_sq32_skv4096_h8_d128_f32_1_alg».proof.Proof.KLaunch
import proofs.«900428_g7700000000000429_dist_flashdec_v7x_xyz2x2x4_y_b4_sq32_skv4096_h8_d128_f32_1_alg».proof.Proof.KBodyRuns
import proofs.«900428_g7700000000000429_dist_flashdec_v7x_xyz2x2x4_y_b4_sq32_skv4096_h8_d128_f32_1_alg».proof.Proof.KRemoteRules
import Idealize.ShloMosaic.Lib.Pipeline.Value
noncomputable section
namespace Cert.KernelProof
open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ UU ℕ
variable (m : (ℓ : Loc nD τ sig) → Buf (Elt F) ℓ)

omit [FloatOps F] in
/-- A returned value bound to a continuation is the continuation at the value. -/
theorem prog_ret_bind {E : Type → Type} {α β : Type} (a : α) (k : α → Prog E β) : (Prog.ret a).bind k = k a := rfl

set_option maxHeartbeats 2000000 in
theorem run_pt7 (c : Dev nD) (fo : Bf (F := F) c accO) (fm : Bf (F := F) c accM) (fl : Bf (F := F) c accL)
    (x3 : Bf (F := F) c (stage0_3 (cfg0.slots t0_7 3))) (K' : Dev nD × Fin 17 → ℕ) (W : Waits sig Unit) (Q : PUnit → sProp 𝕄)
    (hO : ∀ x : S1x32x8x128.Idx, OV m c (ValueIdx.ix4 (1 : Fin 4) (x 1) (x 2) (x 3)) = k0_pay5 (Trace.chunk (iblk m c 0 t0_7) (iblk m c 1 t0_7) (iblk m c 2 t0_7) ⟨fo, fm, fl⟩).o x)
    (hS0 : ∀ x : S1x1x8x32.Idx, SV m c (ValueIdx.ix4 (1 : Fin 4) (0 : Fin 2) (x 2) (x 3)) = k0_pay6 (Trace.chunk (iblk m c 0 t0_7) (iblk m c 1 t0_7) (iblk m c 2 t0_7) ⟨fo, fm, fl⟩).m x)
    (hS1 : ∀ x : S1x1x8x32.Idx, SV m c (ValueIdx.ix4 (1 : Fin 4) (1 : Fin 2) (x 2) (x 3)) = k0_pay7 (Trace.chunk (iblk m c 0 t0_7) (iblk m c 1 t0_7) (iblk m c 2 t0_7) ⟨fo, fm, fl⟩).l x) :
    iprop(pt' c accO fo ∗ pt' c accM fm ∗ pt' c accL fl ∗ pt' c (stage0_0 (cfg0.slots t0_7 0)) (iblk m c 0 t0_7) ∗ pt' c (stage0_1 (cfg0.slots t0_7 1)) (iblk m c 1 t0_7)
        ∗ pt' c (stage0_2 (cfg0.slots t0_7 2)) (iblk m c 2 t0_7) ∗ pt' c (stage0_3 (cfg0.slots t0_7 3)) x3
        ∗ records m K' ∗ levAts L lv ∗ owes (c : Thread nD τ) (owedFrom c (evDone 7)) W ∗ entPart c 7 1
        ∗ (iprop(pt' c accO (Trace.chunk (iblk m c 0 t0_7) (iblk m c 1 t0_7) (iblk m c 2 t0_7) ⟨fo, fm, fl⟩).o ∗ pt' c accM (Trace.chunk (iblk m c 0 t0_7) (iblk m c 1 t0_7) (iblk m c 2 t0_7) ⟨fo, fm, fl⟩).m ∗ pt' c accL (Trace.chunk (iblk m c 0 t0_7) (iblk m c 1 t0_7) (iblk m c 2 t0_7) ⟨fo, fm, fl⟩).l
            ∗ pt' c (stage0_0 (cfg0.slots t0_7 0)) (iblk m c 0 t0_7) ∗ pt' c (stage0_1 (cfg0.slots t0_7 1)) (iblk m c 1 t0_7)
            ∗ pt' c (stage0_2 (cfg0.slots t0_7 2)) (iblk m c 2 t0_7) ∗ pt' c (stage0_3 (cfg0.slots t0_7 3)) x3
            ∗ entPart c 8 1 ∗ ∃ W', owes (c : Thread nD τ) (owedFrom c (evDone 8)) W') -∗ Q ⟨⟩))
      ⊢ wp frame (wpE (defs₀ (F := F)) 𝒱₀ c none) Set.univ (bodyAt0 (F := F) t0_7) Q := by
  iintro ⟨Ho, Hm, Hl, H0, H1, H2, H3, #HR, #Hlev, HO, HE, Hk⟩
  unfold records
  icases HR with ⟨#HI, #HRr⟩
  unfold entPart
  rw [if_neg (by decide), if_pos (by decide)]
  icases HE with ⟨A0, A1, A2, A3, C1, C3, ⟨%fob, Hob⟩, ⟨%fsb, Hsb⟩, T0, T1, T2, T3, ⟨%frob, Hrob⟩, ⟨%frsb, Hrsb⟩⟩
  unfold bodyAt0
  sl_exec
  have hb : ((grid0.coords t0_7) 0).val = 1 := by decide
  have h2 : k0_cond2 (grid0.coords t0_7) = 1#1 := by decide
  ihave Hob' := (Entails.of_eq (show (obPts c 1 fob : sProp 𝕄) = slPts c (oSl oB 1) fob from rfl)) $$ Hob
  iapply (wp_load_rect 𝒱₀ (c : Thread nD τ) none Set.univ (m := oB) (r := (Rect.unit (s := S4x32x8x128) (k0_off1 (grid0.coords t0_7)) S1x32x8x128.size (k0_off1_inb (grid0.coords t0_7) h2))) (S := (oSl oB 1).view.set) (f := fob) (store_o_sub1 (grid0.coords t0_7) h2 hb)) $$ Hob'
  iintro Hob'
  iapply (wp_store 𝒱₀ (c : Thread nD τ) none Set.univ (m := oB) (r := (Rect.unit (s := S4x32x8x128) (k0_off1 (grid0.coords t0_7)) S1x32x8x128.size (k0_off1_inb (grid0.coords t0_7) h2))) (Mk := Finset.univ) (S := (oSl oB 1).view.set) (f := fob) (store_o_sub1 (grid0.coords t0_7) h2 hb)) $$ Hob'
  iintro Hob'
  rw [prog_ret_bind]
  sl_exec
  ihave Hsb' := (Entails.of_eq (show (sbPts c 1 fsb : sProp 𝕄) = slPts c (sSl sB 1) fsb from rfl)) $$ Hsb
  iapply (wp_load_rect 𝒱₀ (c : Thread nD τ) none Set.univ (m := sB) (r := (Rect.unit (s := S4x2x8x32) (k0_off2 (grid0.coords t0_7)) S1x1x8x32.size (k0_off2_inb (grid0.coords t0_7) h2))) (S := (sSl sB 1).view.set) (f := fsb) (store_s0_sub1 (grid0.coords t0_7) h2 hb)) $$ Hsb'
  iintro Hsb'
  iapply (wp_store 𝒱₀ (c : Thread nD τ) none Set.univ (m := sB) (r := (Rect.unit (s := S4x2x8x32) (k0_off2 (grid0.coords t0_7)) S1x1x8x32.size (k0_off2_inb (grid0.coords t0_7) h2))) (Mk := Finset.univ) (S := (sSl sB 1).view.set) (f := fsb) (store_s0_sub1 (grid0.coords t0_7) h2 hb)) $$ Hsb'
  iintro Hsb'
  rw [prog_ret_bind]
  sl_exec
  iapply (wp_load_rect 𝒱₀ (c : Thread nD τ) none Set.univ (m := sB) (r := (Rect.unit (s := S4x2x8x32) (k0_off3 (grid0.coords t0_7)) S1x1x8x32.size (k0_off3_inb (grid0.coords t0_7) h2))) (S := (sSl sB 1).view.set) (store_s1_sub1 (grid0.coords t0_7) h2 hb)) $$ Hsb'
  iintro Hsb'
  iapply (wp_store 𝒱₀ (c : Thread nD τ) none Set.univ (m := sB) (r := (Rect.unit (s := S4x2x8x32) (k0_off3 (grid0.coords t0_7)) S1x1x8x32.size (k0_off3_inb (grid0.coords t0_7) h2))) (Mk := Finset.univ) (S := (sSl sB 1).view.set) (store_s1_sub1 (grid0.coords t0_7) h2 hb)) $$ Hsb'
  iintro Hsb'
  rw [prog_ret_bind]
  sl_exec
  -- the accumulators as the trace's
  have e13 : run_pt7.sl.v13 m c = (iblk m c 0 t0_7) := by unfold run_pt7.sl.v13; exact Memref.readAt_unit_zero (Elt F) _ hz4 _ _
  have e18 : run_pt7.sl.v18 m c = (iblk m c 1 t0_7) := by unfold run_pt7.sl.v18; exact Memref.readAt_unit_zero (Elt F) _ hz4 _ _
  have e21 : run_pt7.sl.v21 m c = (iblk m c 2 t0_7) := by unfold run_pt7.sl.v21; exact Memref.readAt_unit_zero (Elt F) _ hz4 _ _
  have er : run_pt7.sl.r m c = k0_pay12 (iblk m c 2 t0_7) := by
    show k0_pay12 (run_pt7.sl.v21 m c) = _; rw [e21]
  have er1 : run_pt7.sl.r_1 m c = k0_pay13 (iblk m c 0 t0_7) (iblk m c 1 t0_7) := by
    show k0_pay13 (run_pt7.sl.v13 m c) (run_pt7.sl.v18 m c) = _; rw [e13, e18]
  have er2 : run_pt7.sl.r_2 m c fm = k0_pay14 (iblk m c 0 t0_7) (iblk m c 1 t0_7) fm := by
    show k0_pay14 (run_pt7.sl.v13 m c) (run_pt7.sl.v18 m c) (View.readAt (Elt F) accM.view (Rect.unit ![0, 0] S8x32.size inb_S8x32_S8x32_0_0).toLoadRect fm) = _
    rw [e13, e18, rd_m]
  have er3 : run_pt7.sl.r_3 m c fm = k0_pay15 (iblk m c 0 t0_7) (iblk m c 1 t0_7) fm := by
    show k0_pay15 (run_pt7.sl.v13 m c) (run_pt7.sl.v18 m c) (View.readAt (Elt F) accM.view (Rect.unit ![0, 0] S8x32.size inb_S8x32_S8x32_0_0).toLoadRect fm) = _
    rw [e13, e18, rd_m]
  have e62 : run_pt7.sl.v62 m c fo fm = (Trace.chunk (iblk m c 0 t0_7) (iblk m c 1 t0_7) (iblk m c 2 t0_7) ⟨fo, fm, fl⟩).o := by
    unfold run_pt7.sl.v62 run_pt7.sl.Ho_1
    rw [View.readCov_cons_toLoadRect, er, er1, er2, er3, rd_o]; rfl
  have e68 : run_pt7.sl.v68 m c fm = (Trace.chunk (iblk m c 0 t0_7) (iblk m c 1 t0_7) (iblk m c 2 t0_7) ⟨fo, fm, fl⟩).m := by
    unfold run_pt7.sl.v68
    rw [View.readCov_cons_toLoadRect, er2]; rfl
  have e73 : run_pt7.sl.v73 m c fm fl = (Trace.chunk (iblk m c 0 t0_7) (iblk m c 1 t0_7) (iblk m c 2 t0_7) ⟨fo, fm, fl⟩).l := by
    unfold run_pt7.sl.v73
    rw [View.readCov_cons_toLoadRect, er1, er2, er3, rd_l]; rfl
  have hg5 : ∀ x : S1x32x8x128.Idx, OV m c (ValueIdx.ix4 (1 : Fin 4) (x 1) (x 2) (x 3)) = k0_pay5 (run_pt7.sl.v62 m c fo fm) x := fun x => by rw [e62]; exact hO x
  have hg6 : ∀ x : S1x1x8x32.Idx, SV m c (ValueIdx.ix4 (1 : Fin 4) (0 : Fin 2) (x 2) (x 3)) = k0_pay6 (run_pt7.sl.v68 m c fm) x := fun x => by rw [e68]; exact hS0 x
  have hg7 : ∀ x : S1x1x8x32.Idx, SV m c (ValueIdx.ix4 (1 : Fin 4) (1 : Fin 2) (x 2) (x 3)) = k0_pay7 (run_pt7.sl.v73 m c fm fl) x := fun x => by rw [e73]; exact hS1 x
  have hconvO : (View.loc (c : Thread nD τ) (oB.access (Rect.unit (s := S4x32x8x128) (k0_off1 (grid0.coords t0_7)) S1x32x8x128.size (k0_off1_inb (grid0.coords t0_7) h2))) ↦[(oSl oB 1).view.set]{fullShare} View.write (Elt F) (oB.access (Rect.unit (s := S4x32x8x128) (k0_off1 (grid0.coords t0_7)) S1x32x8x128.size (k0_off1_inb (grid0.coords t0_7) h2))) fob (k0_pay5 (run_pt7.sl.v62 m c fo fm)) Finset.univ : sProp 𝕄) ⊢ obPts c 1 (OV m c) :=
    Entails.of_eq (store_o c (grid0.coords t0_7) h2 1 hb fob (OV m c) (k0_pay5 (run_pt7.sl.v62 m c fo fm)) hg5)
  have hconvS : (View.loc (c : Thread nD τ) (sB.access (Rect.unit (s := S4x2x8x32) (k0_off3 (grid0.coords t0_7)) S1x1x8x32.size (k0_off3_inb (grid0.coords t0_7) h2))) ↦[(sSl sB 1).view.set]{fullShare} View.write (Elt F) (sB.access (Rect.unit (s := S4x2x8x32) (k0_off3 (grid0.coords t0_7)) S1x1x8x32.size (k0_off3_inb (grid0.coords t0_7) h2))) (View.write (Elt F) (sB.access (Rect.unit (s := S4x2x8x32) (k0_off2 (grid0.coords t0_7)) S1x1x8x32.size (k0_off2_inb (grid0.coords t0_7) h2))) fsb (k0_pay6 (run_pt7.sl.v68 m c fm)) Finset.univ) (k0_pay7 (run_pt7.sl.v73 m c fm fl)) Finset.univ : sProp 𝕄) ⊢ sbPts c 1 (SV m c) :=
    Entails.of_eq (store_s c (grid0.coords t0_7) h2 1 hb fsb (SV m c) (k0_pay6 (run_pt7.sl.v68 m c fm)) (k0_pay7 (run_pt7.sl.v73 m c fm fl)) hg6 hg7)
  -- the output copy of entry 1
  rw [show owedFrom c (evDone 7) = owedFrom c 4 + tallyAt (famCell (nbr c) 1 1) () No from owedFrom_succ c 3 (by decide)]
  iapply (wp_send_o1 m K' c _ (dev_eq c (k0_dev4_eq c) _) frob (owedFrom c 4) W) $$ [Hob' Hrob HO T0 T1]
  · isplitr; · iapply (inv_at m K' (c, fidx 0 1)); iexact HI
    isplitr; · iapply (inv_at m K' (nbr c, fidx 1 1)); iexact HI
    isplitl [Hob']; · iapply hconvO; iexact Hob'
    isplitl [Hrob]; · iexact Hrob
    isplitl [HO]; · iexact HO
    isplitl [T0]; · iexact T0
    isplitr; · iapply (reached_at (F := F) (c, fidx 0 1)); iexact HRr
    isplitl [T1]; · iexact T1
    iapply (reached_at (F := F) (nbr c, fidx 1 1)); iexact HRr
  iintro ⟨Hc0, HO⟩
  -- the statistics copy of entry 1
  rw [show owedFrom c 4 = owedFrom c 5 + tallyAt (famCell (nbr c) 3 1) () Ns from owedFrom_succ c 4 (by decide)]
  iapply (wp_send_s1 m K' c _ (dev_eq c (k0_dev5_eq c) _) frsb (owedFrom c 5) W) $$ [Hsb' Hrsb HO T2 T3]
  · isplitr; · iapply (inv_at m K' (c, fidx 2 1)); iexact HI
    isplitr; · iapply (inv_at m K' (nbr c, fidx 3 1)); iexact HI
    isplitl [Hsb']; · iapply hconvS; iexact Hsb'
    isplitl [Hrsb]; · iexact Hrsb
    isplitl [HO]; · iexact HO
    isplitl [T2]; · iexact T2
    isplitr; · iapply (reached_at (F := F) (c, fidx 2 1)); iexact HRr
    isplitl [T3]; · iexact T3
    iapply (reached_at (F := F) (nbr c, fidx 3 1)); iexact HRr
  iintro ⟨Hc2, HO⟩
  rw [prog_ret_bind]
  sl_exec
  sl_step
  iapply Hk
  unfold run_pt7.sl.Ho_1
  rw [er, er1, er2, er3, wr_o, wr_m, wr_l, rd_o, rd_l]
  unfold Trace.chunk
  rw [if_pos (by decide)]
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  isplitl [A0 A1 A2 A3 C1 C3 Hc0 Hc2]
  · isplitl [A0]; · iexact A0
    isplitl [A1]; · iexact A1
    isplitl [A2]; · iexact A2
    isplitl [A3]; · iexact A3
    isplitl [C1]; · iexact C1
    isplitl [C3]; · iexact C3
    isplitl [Hc0]; · iexact Hc0
    iexact Hc2
  iexists W
  iexact HO

set_option maxHeartbeats 2000000 in
theorem run_pt11 (c : Dev nD) (fo : Bf (F := F) c accO) (fm : Bf (F := F) c accM) (fl : Bf (F := F) c accL)
    (x3 : Bf (F := F) c (stage0_3 (cfg0.slots t0_11 3))) (K' : Dev nD × Fin 17 → ℕ) (W : Waits sig Unit) (Q : PUnit → sProp 𝕄)
    (hO : ∀ x : S1x32x8x128.Idx, OV m c (ValueIdx.ix4 (2 : Fin 4) (x 1) (x 2) (x 3)) = k0_pay5 (Trace.chunk (iblk m c 0 t0_11) (iblk m c 1 t0_11) (iblk m c 2 t0_11) ⟨fo, fm, fl⟩).o x)
    (hS0 : ∀ x : S1x1x8x32.Idx, SV m c (ValueIdx.ix4 (2 : Fin 4) (0 : Fin 2) (x 2) (x 3)) = k0_pay6 (Trace.chunk (iblk m c 0 t0_11) (iblk m c 1 t0_11) (iblk m c 2 t0_11) ⟨fo, fm, fl⟩).m x)
    (hS1 : ∀ x : S1x1x8x32.Idx, SV m c (ValueIdx.ix4 (2 : Fin 4) (1 : Fin 2) (x 2) (x 3)) = k0_pay7 (Trace.chunk (iblk m c 0 t0_11) (iblk m c 1 t0_11) (iblk m c 2 t0_11) ⟨fo, fm, fl⟩).l x) :
    iprop(pt' c accO fo ∗ pt' c accM fm ∗ pt' c accL fl ∗ pt' c (stage0_0 (cfg0.slots t0_11 0)) (iblk m c 0 t0_11) ∗ pt' c (stage0_1 (cfg0.slots t0_11 1)) (iblk m c 1 t0_11)
        ∗ pt' c (stage0_2 (cfg0.slots t0_11 2)) (iblk m c 2 t0_11) ∗ pt' c (stage0_3 (cfg0.slots t0_11 3)) x3
        ∗ records m K' ∗ levAts L lv ∗ owes (c : Thread nD τ) (owedFrom c (evDone 11)) W ∗ entPart c 11 2
        ∗ (iprop(pt' c accO (Trace.chunk (iblk m c 0 t0_11) (iblk m c 1 t0_11) (iblk m c 2 t0_11) ⟨fo, fm, fl⟩).o ∗ pt' c accM (Trace.chunk (iblk m c 0 t0_11) (iblk m c 1 t0_11) (iblk m c 2 t0_11) ⟨fo, fm, fl⟩).m ∗ pt' c accL (Trace.chunk (iblk m c 0 t0_11) (iblk m c 1 t0_11) (iblk m c 2 t0_11) ⟨fo, fm, fl⟩).l
            ∗ pt' c (stage0_0 (cfg0.slots t0_11 0)) (iblk m c 0 t0_11) ∗ pt' c (stage0_1 (cfg0.slots t0_11 1)) (iblk m c 1 t0_11)
            ∗ pt' c (stage0_2 (cfg0.slots t0_11 2)) (iblk m c 2 t0_11) ∗ pt' c (stage0_3 (cfg0.slots t0_11 3)) x3
            ∗ entPart c 12 2 ∗ ∃ W', owes (c : Thread nD τ) (owedFrom c (evDone 12)) W') -∗ Q ⟨⟩))
      ⊢ wp frame (wpE (defs₀ (F := F)) 𝒱₀ c none) Set.univ (bodyAt0 (F := F) t0_11) Q := by
  iintro ⟨Ho, Hm, Hl, H0, H1, H2, H3, #HR, #Hlev, HO, HE, Hk⟩
  unfold records
  icases HR with ⟨#HI, #HRr⟩
  unfold entPart
  rw [if_neg (by decide), if_pos (by decide)]
  icases HE with ⟨A0, A1, A2, A3, C1, C3, ⟨%fob, Hob⟩, ⟨%fsb, Hsb⟩, T0, T1, T2, T3, ⟨%frob, Hrob⟩, ⟨%frsb, Hrsb⟩⟩
  unfold bodyAt0
  sl_exec
  have hb : ((grid0.coords t0_11) 0).val = 2 := by decide
  have h2 : k0_cond2 (grid0.coords t0_11) = 1#1 := by decide
  ihave Hob' := (Entails.of_eq (show (obPts c 2 fob : sProp 𝕄) = slPts c (oSl oB 2) fob from rfl)) $$ Hob
  iapply (wp_load_rect 𝒱₀ (c : Thread nD τ) none Set.univ (m := oB) (r := (Rect.unit (s := S4x32x8x128) (k0_off1 (grid0.coords t0_11)) S1x32x8x128.size (k0_off1_inb (grid0.coords t0_11) h2))) (S := (oSl oB 2).view.set) (f := fob) (store_o_sub2 (grid0.coords t0_11) h2 hb)) $$ Hob'
  iintro Hob'
  iapply (wp_store 𝒱₀ (c : Thread nD τ) none Set.univ (m := oB) (r := (Rect.unit (s := S4x32x8x128) (k0_off1 (grid0.coords t0_11)) S1x32x8x128.size (k0_off1_inb (grid0.coords t0_11) h2))) (Mk := Finset.univ) (S := (oSl oB 2).view.set) (f := fob) (store_o_sub2 (grid0.coords t0_11) h2 hb)) $$ Hob'
  iintro Hob'
  rw [prog_ret_bind]
  sl_exec
  ihave Hsb' := (Entails.of_eq (show (sbPts c 2 fsb : sProp 𝕄) = slPts c (sSl sB 2) fsb from rfl)) $$ Hsb
  iapply (wp_load_rect 𝒱₀ (c : Thread nD τ) none Set.univ (m := sB) (r := (Rect.unit (s := S4x2x8x32) (k0_off2 (grid0.coords t0_11)) S1x1x8x32.size (k0_off2_inb (grid0.coords t0_11) h2))) (S := (sSl sB 2).view.set) (f := fsb) (store_s0_sub2 (grid0.coords t0_11) h2 hb)) $$ Hsb'
  iintro Hsb'
  iapply (wp_store 𝒱₀ (c : Thread nD τ) none Set.univ (m := sB) (r := (Rect.unit (s := S4x2x8x32) (k0_off2 (grid0.coords t0_11)) S1x1x8x32.size (k0_off2_inb (grid0.coords t0_11) h2))) (Mk := Finset.univ) (S := (sSl sB 2).view.set) (f := fsb) (store_s0_sub2 (grid0.coords t0_11) h2 hb)) $$ Hsb'
  iintro Hsb'
  rw [prog_ret_bind]
  sl_exec
  iapply (wp_load_rect 𝒱₀ (c : Thread nD τ) none Set.univ (m := sB) (r := (Rect.unit (s := S4x2x8x32) (k0_off3 (grid0.coords t0_11)) S1x1x8x32.size (k0_off3_inb (grid0.coords t0_11) h2))) (S := (sSl sB 2).view.set) (store_s1_sub2 (grid0.coords t0_11) h2 hb)) $$ Hsb'
  iintro Hsb'
  iapply (wp_store 𝒱₀ (c : Thread nD τ) none Set.univ (m := sB) (r := (Rect.unit (s := S4x2x8x32) (k0_off3 (grid0.coords t0_11)) S1x1x8x32.size (k0_off3_inb (grid0.coords t0_11) h2))) (Mk := Finset.univ) (S := (sSl sB 2).view.set) (store_s1_sub2 (grid0.coords t0_11) h2 hb)) $$ Hsb'
  iintro Hsb'
  rw [prog_ret_bind]
  sl_exec
  -- the accumulators as the trace's
  have e13 : run_pt11.sl.v13 m c = (iblk m c 0 t0_11) := by unfold run_pt11.sl.v13; exact Memref.readAt_unit_zero (Elt F) _ hz4 _ _
  have e18 : run_pt11.sl.v18 m c = (iblk m c 1 t0_11) := by unfold run_pt11.sl.v18; exact Memref.readAt_unit_zero (Elt F) _ hz4 _ _
  have e21 : run_pt11.sl.v21 m c = (iblk m c 2 t0_11) := by unfold run_pt11.sl.v21; exact Memref.readAt_unit_zero (Elt F) _ hz4 _ _
  have er : run_pt11.sl.r m c = k0_pay12 (iblk m c 2 t0_11) := by
    show k0_pay12 (run_pt11.sl.v21 m c) = _; rw [e21]
  have er1 : run_pt11.sl.r_1 m c = k0_pay13 (iblk m c 0 t0_11) (iblk m c 1 t0_11) := by
    show k0_pay13 (run_pt11.sl.v13 m c) (run_pt11.sl.v18 m c) = _; rw [e13, e18]
  have er2 : run_pt11.sl.r_2 m c fm = k0_pay14 (iblk m c 0 t0_11) (iblk m c 1 t0_11) fm := by
    show k0_pay14 (run_pt11.sl.v13 m c) (run_pt11.sl.v18 m c) (View.readAt (Elt F) accM.view (Rect.unit ![0, 0] S8x32.size inb_S8x32_S8x32_0_0).toLoadRect fm) = _
    rw [e13, e18, rd_m]
  have er3 : run_pt11.sl.r_3 m c fm = k0_pay15 (iblk m c 0 t0_11) (iblk m c 1 t0_11) fm := by
    show k0_pay15 (run_pt11.sl.v13 m c) (run_pt11.sl.v18 m c) (View.readAt (Elt F) accM.view (Rect.unit ![0, 0] S8x32.size inb_S8x32_S8x32_0_0).toLoadRect fm) = _
    rw [e13, e18, rd_m]
  have e62 : run_pt11.sl.v62 m c fo fm = (Trace.chunk (iblk m c 0 t0_11) (iblk m c 1 t0_11) (iblk m c 2 t0_11) ⟨fo, fm, fl⟩).o := by
    unfold run_pt11.sl.v62 run_pt11.sl.Ho_1
    rw [View.readCov_cons_toLoadRect, er, er1, er2, er3, rd_o]; rfl
  have e68 : run_pt11.sl.v68 m c fm = (Trace.chunk (iblk m c 0 t0_11) (iblk m c 1 t0_11) (iblk m c 2 t0_11) ⟨fo, fm, fl⟩).m := by
    unfold run_pt11.sl.v68
    rw [View.readCov_cons_toLoadRect, er2]; rfl
  have e73 : run_pt11.sl.v73 m c fm fl = (Trace.chunk (iblk m c 0 t0_11) (iblk m c 1 t0_11) (iblk m c 2 t0_11) ⟨fo, fm, fl⟩).l := by
    unfold run_pt11.sl.v73
    rw [View.readCov_cons_toLoadRect, er1, er2, er3, rd_l]; rfl
  have hg5 : ∀ x : S1x32x8x128.Idx, OV m c (ValueIdx.ix4 (2 : Fin 4) (x 1) (x 2) (x 3)) = k0_pay5 (run_pt11.sl.v62 m c fo fm) x := fun x => by rw [e62]; exact hO x
  have hg6 : ∀ x : S1x1x8x32.Idx, SV m c (ValueIdx.ix4 (2 : Fin 4) (0 : Fin 2) (x 2) (x 3)) = k0_pay6 (run_pt11.sl.v68 m c fm) x := fun x => by rw [e68]; exact hS0 x
  have hg7 : ∀ x : S1x1x8x32.Idx, SV m c (ValueIdx.ix4 (2 : Fin 4) (1 : Fin 2) (x 2) (x 3)) = k0_pay7 (run_pt11.sl.v73 m c fm fl) x := fun x => by rw [e73]; exact hS1 x
  have hconvO : (View.loc (c : Thread nD τ) (oB.access (Rect.unit (s := S4x32x8x128) (k0_off1 (grid0.coords t0_11)) S1x32x8x128.size (k0_off1_inb (grid0.coords t0_11) h2))) ↦[(oSl oB 2).view.set]{fullShare} View.write (Elt F) (oB.access (Rect.unit (s := S4x32x8x128) (k0_off1 (grid0.coords t0_11)) S1x32x8x128.size (k0_off1_inb (grid0.coords t0_11) h2))) fob (k0_pay5 (run_pt11.sl.v62 m c fo fm)) Finset.univ : sProp 𝕄) ⊢ obPts c 2 (OV m c) :=
    Entails.of_eq (store_o c (grid0.coords t0_11) h2 2 hb fob (OV m c) (k0_pay5 (run_pt11.sl.v62 m c fo fm)) hg5)
  have hconvS : (View.loc (c : Thread nD τ) (sB.access (Rect.unit (s := S4x2x8x32) (k0_off3 (grid0.coords t0_11)) S1x1x8x32.size (k0_off3_inb (grid0.coords t0_11) h2))) ↦[(sSl sB 2).view.set]{fullShare} View.write (Elt F) (sB.access (Rect.unit (s := S4x2x8x32) (k0_off3 (grid0.coords t0_11)) S1x1x8x32.size (k0_off3_inb (grid0.coords t0_11) h2))) (View.write (Elt F) (sB.access (Rect.unit (s := S4x2x8x32) (k0_off2 (grid0.coords t0_11)) S1x1x8x32.size (k0_off2_inb (grid0.coords t0_11) h2))) fsb (k0_pay6 (run_pt11.sl.v68 m c fm)) Finset.univ) (k0_pay7 (run_pt11.sl.v73 m c fm fl)) Finset.univ : sProp 𝕄) ⊢ sbPts c 2 (SV m c) :=
    Entails.of_eq (store_s c (grid0.coords t0_11) h2 2 hb fsb (SV m c) (k0_pay6 (run_pt11.sl.v68 m c fm)) (k0_pay7 (run_pt11.sl.v73 m c fm fl)) hg6 hg7)
  -- the output copy of entry 1
  rw [show owedFrom c (evDone 11) = owedFrom c 6 + tallyAt (famCell (nbr c) 1 2) () No from owedFrom_succ c 5 (by decide)]
  iapply (wp_send_o2 m K' c _ (dev_eq c (k0_dev6_eq c) _) frob (owedFrom c 6) W) $$ [Hob' Hrob HO T0 T1]
  · isplitr; · iapply (inv_at m K' (c, fidx 0 2)); iexact HI
    isplitr; · iapply (inv_at m K' (nbr c, fidx 1 2)); iexact HI
    isplitl [Hob']; · iapply hconvO; iexact Hob'
    isplitl [Hrob]; · iexact Hrob
    isplitl [HO]; · iexact HO
    isplitl [T0]; · iexact T0
    isplitr; · iapply (reached_at (F := F) (c, fidx 0 2)); iexact HRr
    isplitl [T1]; · iexact T1
    iapply (reached_at (F := F) (nbr c, fidx 1 2)); iexact HRr
  iintro ⟨Hc0, HO⟩
  -- the statistics copy of entry 1
  rw [show owedFrom c 6 = owedFrom c 7 + tallyAt (famCell (nbr c) 3 2) () Ns from owedFrom_succ c 6 (by decide)]
  iapply (wp_send_s2 m K' c _ (dev_eq c (k0_dev7_eq c) _) frsb (owedFrom c 7) W) $$ [Hsb' Hrsb HO T2 T3]
  · isplitr; · iapply (inv_at m K' (c, fidx 2 2)); iexact HI
    isplitr; · iapply (inv_at m K' (nbr c, fidx 3 2)); iexact HI
    isplitl [Hsb']; · iapply hconvS; iexact Hsb'
    isplitl [Hrsb]; · iexact Hrsb
    isplitl [HO]; · iexact HO
    isplitl [T2]; · iexact T2
    isplitr; · iapply (reached_at (F := F) (c, fidx 2 2)); iexact HRr
    isplitl [T3]; · iexact T3
    iapply (reached_at (F := F) (nbr c, fidx 3 2)); iexact HRr
  iintro ⟨Hc2, HO⟩
  rw [prog_ret_bind]
  sl_exec
  sl_step
  iapply Hk
  unfold run_pt11.sl.Ho_1
  rw [er, er1, er2, er3, wr_o, wr_m, wr_l, rd_o, rd_l]
  unfold Trace.chunk
  rw [if_pos (by decide)]
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  isplitl [A0 A1 A2 A3 C1 C3 Hc0 Hc2]
  · isplitl [A0]; · iexact A0
    isplitl [A1]; · iexact A1
    isplitl [A2]; · iexact A2
    isplitl [A3]; · iexact A3
    isplitl [C1]; · iexact C1
    isplitl [C3]; · iexact C3
    isplitl [Hc0]; · iexact Hc0
    iexact Hc2
  iexists W
  iexact HO

omit [FloatOps F] in
/-- A batch entry's part of the invariant before the barrier, not yet handed over. -/
theorem entPart_pre (c : Dev nD) (t : ℕ) (b : Fin 4) (h1 : ¬ b.val < t / 4) (h2 : ¬ 4 ≤ t) :
    (entPart c t b : sProp 𝕄) = iprop(atPos ER (famCell c 0 b) 0 ∅ 0 ∗ atPos ER (famCell c 1 b) 0 ∅ 0 ∗ atPos ER (famCell c 2 b) 0 ∅ 0 ∗ atPos ER (famCell c 3 b) 0 ∅ 0
      ∗ cred (tallyAt (famCell c 1 b) () No) ∗ cred (tallyAt (famCell c 3 b) () Ns)
      ∗ (∃ f, obPts c b f) ∗ (∃ f, sbPts c b f)
      ∗ dutyTok ER (famCell c 0 b) 0 () ∗ dutyTok ER (famCell (nbr c) 1 b) 0 () ∗ dutyTok ER (famCell c 2 b) 0 () ∗ dutyTok ER (famCell (nbr c) 3 b) 0 ()
      ∗ (∃ f, robPts c b f) ∗ (∃ f, rsbPts c b f)) := by
  unfold entPart; rw [if_neg h1, if_neg h2]

omit [FloatOps F] in
/-- A batch entry's part of the invariant after the barrier, not yet handed over. -/
theorem entPart_mid (c : Dev nD) (t : ℕ) (b : Fin 4) (h1 : ¬ b.val < t / 4) (h2 : 4 ≤ t) :
    (entPart c t b : sProp 𝕄) = iprop(atPos ER (famCell c 0 b) 0 ∅ 0 ∗ atPos ER (famCell c 1 b) 0 ∅ 0 ∗ atPos ER (famCell c 2 b) 0 ∅ 0 ∗ atPos ER (famCell c 3 b) 0 ∅ 0
      ∗ cred (tallyAt (famCell c 1 b) () No) ∗ cred (tallyAt (famCell c 3 b) () Ns)
      ∗ (∃ f, obPts c b f) ∗ (∃ f, sbPts c b f)
      ∗ dutyTok ER (famCell c 0 b) 0 () ∗ dutyTok ER (famCell (nbr c) 1 b) 0 () ∗ dutyTok ER (famCell c 2 b) 0 () ∗ dutyTok ER (famCell (nbr c) 3 b) 0 ()
      ∗ (∃ f, robPts (nbr c) b f) ∗ (∃ f, rsbPts (nbr c) b f)) := by
  unfold entPart; rw [if_neg h1, if_pos h2]

omit [FloatOps F] in
/-- A batch entry's part of the invariant once handed over. -/
theorem entPart_done (c : Dev nD) (t : ℕ) (b : Fin 4) (h1 : b.val < t / 4) :
    (entPart c t b : sProp 𝕄) = iprop(atPos ER (famCell c 0 b) 0 ∅ 0 ∗ atPos ER (famCell c 1 b) 0 ∅ 0 ∗ atPos ER (famCell c 2 b) 0 ∅ 0 ∗ atPos ER (famCell c 3 b) 0 ∅ 0
      ∗ cred (tallyAt (famCell c 1 b) () No) ∗ cred (tallyAt (famCell c 3 b) () Ns)
      ∗ cred (tallyAt (famCell c 0 b) () No) ∗ cred (tallyAt (famCell c 2 b) () Ns)) := by
  unfold entPart; rw [if_pos h1]

omit [FloatOps F] in
theorem barPart_pre (c : Dev nD) (t : ℕ) (h : t < 4) :
    (barPart c t : sProp 𝕄) = iprop(dutyTok ER (barCell (nbr c)) 0 () ∗ cred (tallyAt (barCell c) () 1) ∗ atPos ER (barCell c) 0 ∅ 0) := by
  unfold barPart; rw [if_pos h]
omit [FloatOps F] in
theorem barPart_post (c : Dev nD) (t : ℕ) (h : ¬ t < 4) : (barPart c t : sProp 𝕄) = atPos ER (barCell c) 1 ∅ 0 := by
  unfold barPart; rw [if_neg h]

omit [FloatOps F] in
/-- What the barrier wait hands over, spelt out: the partner's eight receive slices. -/
theorem barPay_open (c : Dev nD) : (barPay c : sProp 𝕄)
    = iprop((∃ f, robPts (nbr c) 0 f) ∗ (∃ f, robPts (nbr c) 1 f) ∗ (∃ f, robPts (nbr c) 2 f) ∗ (∃ f, robPts (nbr c) 3 f)
      ∗ (∃ f, rsbPts (nbr c) 0 f) ∗ (∃ f, rsbPts (nbr c) 1 f) ∗ (∃ f, rsbPts (nbr c) 2 f) ∗ (∃ f, rsbPts (nbr c) 3 f)) := rfl

set_option maxHeartbeats 4000000 in
theorem run_pt3 (c : Dev nD) (fo : Bf (F := F) c accO) (fm : Bf (F := F) c accM) (fl : Bf (F := F) c accL)
    (x3 : Bf (F := F) c (stage0_3 (cfg0.slots t0_3 3))) (K' : Dev nD × Fin 17 → ℕ) (W : Waits sig Unit) (Q : PUnit → sProp 𝕄)
    (hO : ∀ x : S1x32x8x128.Idx, OV m c (ValueIdx.ix4 (0 : Fin 4) (x 1) (x 2) (x 3)) = k0_pay5 (Trace.chunk (iblk m c 0 t0_3) (iblk m c 1 t0_3) (iblk m c 2 t0_3) ⟨fo, fm, fl⟩).o x)
    (hS0 : ∀ x : S1x1x8x32.Idx, SV m c (ValueIdx.ix4 (0 : Fin 4) (0 : Fin 2) (x 2) (x 3)) = k0_pay6 (Trace.chunk (iblk m c 0 t0_3) (iblk m c 1 t0_3) (iblk m c 2 t0_3) ⟨fo, fm, fl⟩).m x)
    (hS1 : ∀ x : S1x1x8x32.Idx, SV m c (ValueIdx.ix4 (0 : Fin 4) (1 : Fin 2) (x 2) (x 3)) = k0_pay7 (Trace.chunk (iblk m c 0 t0_3) (iblk m c 1 t0_3) (iblk m c 2 t0_3) ⟨fo, fm, fl⟩).l x) :
    iprop(pt' c accO fo ∗ pt' c accM fm ∗ pt' c accL fl ∗ pt' c (stage0_0 (cfg0.slots t0_3 0)) (iblk m c 0 t0_3) ∗ pt' c (stage0_1 (cfg0.slots t0_3 1)) (iblk m c 1 t0_3)
        ∗ pt' c (stage0_2 (cfg0.slots t0_3 2)) (iblk m c 2 t0_3) ∗ pt' c (stage0_3 (cfg0.slots t0_3 3)) x3
        ∗ records m K' ∗ levAts L lv ∗ owes (c : Thread nD τ) (owedFrom c (evDone 3)) W
        ∗ barPart c 3 ∗ entPart c 3 0 ∗ entPart c 3 1 ∗ entPart c 3 2 ∗ entPart c 3 3
        ∗ (iprop(pt' c accO (Trace.chunk (iblk m c 0 t0_3) (iblk m c 1 t0_3) (iblk m c 2 t0_3) ⟨fo, fm, fl⟩).o ∗ pt' c accM (Trace.chunk (iblk m c 0 t0_3) (iblk m c 1 t0_3) (iblk m c 2 t0_3) ⟨fo, fm, fl⟩).m ∗ pt' c accL (Trace.chunk (iblk m c 0 t0_3) (iblk m c 1 t0_3) (iblk m c 2 t0_3) ⟨fo, fm, fl⟩).l
            ∗ pt' c (stage0_0 (cfg0.slots t0_3 0)) (iblk m c 0 t0_3) ∗ pt' c (stage0_1 (cfg0.slots t0_3 1)) (iblk m c 1 t0_3)
            ∗ pt' c (stage0_2 (cfg0.slots t0_3 2)) (iblk m c 2 t0_3) ∗ pt' c (stage0_3 (cfg0.slots t0_3 3)) x3
            ∗ barPart c 4 ∗ entPart c 4 0 ∗ entPart c 4 1 ∗ entPart c 4 2 ∗ entPart c 4 3
            ∗ ∃ W', owes (c : Thread nD τ) (owedFrom c (evDone 4)) W') -∗ Q ⟨⟩))
      ⊢ wp frame (wpE (defs₀ (F := F)) 𝒱₀ c none) Set.univ (bodyAt0 (F := F) t0_3) Q := by
  rw [entPart_pre c 3 0 (by decide) (by decide), entPart_pre c 3 1 (by decide) (by decide), entPart_pre c 3 2 (by decide) (by decide), entPart_pre c 3 3 (by decide) (by decide),
    entPart_done c 4 0 (by decide), entPart_mid c 4 1 (by decide) (by decide), entPart_mid c 4 2 (by decide) (by decide), entPart_mid c 4 3 (by decide) (by decide),
    barPart_pre c 3 (by decide), barPart_post c 4 (by decide)]
  iintro ⟨Ho, Hm, Hl, H0, H1, H2, H3, #HR, #Hlev, HO, HB, HE0, HE1, HE2, HE3, Hk⟩
  unfold records
  icases HR with ⟨#HI, #HRr⟩
  icases HB with ⟨TB, CB, AB⟩
  icases HE0 with ⟨A0, A1, A2, A3, C1, C3, ⟨%fob, Hob⟩, ⟨%fsb, Hsb⟩, T0, T1, T2, T3, ⟨%fr0, Hr0⟩, ⟨%fq0, Hq0⟩⟩
  icases HE1 with ⟨A10, A11, A12, A13, C11, C13, Ho1, Hs1, T10, T11, T12, T13, ⟨%fr1, Hr1⟩, ⟨%fq1, Hq1⟩⟩
  icases HE2 with ⟨A20, A21, A22, A23, C21, C23, Ho2, Hs2, T20, T21, T22, T23, ⟨%fr2, Hr2⟩, ⟨%fq2, Hq2⟩⟩
  icases HE3 with ⟨A30, A31, A32, A33, C31, C33, Ho3, Hs3, T30, T31, T32, T33, ⟨%fr3, Hr3⟩, ⟨%fq3, Hq3⟩⟩
  unfold bodyAt0
  sl_exec
  have hb : ((grid0.coords t0_3) 0).val = 0 := by decide
  have h2 : k0_cond2 (grid0.coords t0_3) = 1#1 := by decide
  ihave Hob' := (Entails.of_eq (show (obPts c 0 fob : sProp 𝕄) = slPts c (oSl oB 0) fob from rfl)) $$ Hob
  iapply (wp_load_rect 𝒱₀ (c : Thread nD τ) none Set.univ (m := oB) (r := (Rect.unit (s := S4x32x8x128) (k0_off1 (grid0.coords t0_3)) S1x32x8x128.size (k0_off1_inb (grid0.coords t0_3) h2))) (S := (oSl oB 0).view.set) (f := fob) (store_o_sub0 (grid0.coords t0_3) h2 hb)) $$ Hob'
  iintro Hob'
  iapply (wp_store 𝒱₀ (c : Thread nD τ) none Set.univ (m := oB) (r := (Rect.unit (s := S4x32x8x128) (k0_off1 (grid0.coords t0_3)) S1x32x8x128.size (k0_off1_inb (grid0.coords t0_3) h2))) (Mk := Finset.univ) (S := (oSl oB 0).view.set) (f := fob) (store_o_sub0 (grid0.coords t0_3) h2 hb)) $$ Hob'
  iintro Hob'
  rw [prog_ret_bind]
  sl_exec
  ihave Hsb' := (Entails.of_eq (show (sbPts c 0 fsb : sProp 𝕄) = slPts c (sSl sB 0) fsb from rfl)) $$ Hsb
  iapply (wp_load_rect 𝒱₀ (c : Thread nD τ) none Set.univ (m := sB) (r := (Rect.unit (s := S4x2x8x32) (k0_off2 (grid0.coords t0_3)) S1x1x8x32.size (k0_off2_inb (grid0.coords t0_3) h2))) (S := (sSl sB 0).view.set) (f := fsb) (store_s0_sub0 (grid0.coords t0_3) h2 hb)) $$ Hsb'
  iintro Hsb'
  iapply (wp_store 𝒱₀ (c : Thread nD τ) none Set.univ (m := sB) (r := (Rect.unit (s := S4x2x8x32) (k0_off2 (grid0.coords t0_3)) S1x1x8x32.size (k0_off2_inb (grid0.coords t0_3) h2))) (Mk := Finset.univ) (S := (sSl sB 0).view.set) (f := fsb) (store_s0_sub0 (grid0.coords t0_3) h2 hb)) $$ Hsb'
  iintro Hsb'
  rw [prog_ret_bind]
  sl_exec
  iapply (wp_load_rect 𝒱₀ (c : Thread nD τ) none Set.univ (m := sB) (r := (Rect.unit (s := S4x2x8x32) (k0_off3 (grid0.coords t0_3)) S1x1x8x32.size (k0_off3_inb (grid0.coords t0_3) h2))) (S := (sSl sB 0).view.set) (store_s1_sub0 (grid0.coords t0_3) h2 hb)) $$ Hsb'
  iintro Hsb'
  iapply (wp_store 𝒱₀ (c : Thread nD τ) none Set.univ (m := sB) (r := (Rect.unit (s := S4x2x8x32) (k0_off3 (grid0.coords t0_3)) S1x1x8x32.size (k0_off3_inb (grid0.coords t0_3) h2))) (Mk := Finset.univ) (S := (sSl sB 0).view.set) (store_s1_sub0 (grid0.coords t0_3) h2 hb)) $$ Hsb'
  iintro Hsb'
  rw [prog_ret_bind]
  sl_exec
  -- the barrier signal to the partner: the device's own eight receive slices go with it
  rw [show owedFrom c (evDone 3) = owedFrom c 1 + tallyAt (barCell (nbr c)) () 1 from owedFrom_succ c 0 (by decide)]
  iapply (wp_bar_signal m K' c _ (dev_eq c (k0_dev1_eq c) _) (owedFrom c 1) W) $$ [HO TB Hr0 Hr1 Hr2 Hr3 Hq0 Hq1 Hq2 Hq3]
  · isplitr; · iapply (inv_at m K' (nbr c, 0)); iexact HI
    isplitl [HO]; · iexact HO
    isplitl [TB]; · iexact TB
    isplitl [Hr0 Hr1 Hr2 Hr3 Hq0 Hq1 Hq2 Hq3]
    · unfold ownRecv
      isplitl [Hr0]; · iexists fr0; iexact Hr0
      isplitl [Hr1]; · iexists fr1; iexact Hr1
      isplitl [Hr2]; · iexists fr2; iexact Hr2
      isplitl [Hr3]; · iexists fr3; iexact Hr3
      isplitl [Hq0]; · iexists fq0; iexact Hq0
      isplitl [Hq1]; · iexists fq1; iexact Hq1
      isplitl [Hq2]; · iexists fq2; iexact Hq2
      iexists fq3; iexact Hq3
    iapply (reached_at (F := F) (nbr c, 0)); iexact HRr
  iintro HO
  sl_step
  sl_exec
  -- the wait on the device's own barrier cell: the partner's eight receive slices come with it
  iapply (wp_bar_wait m K' c (owedFrom c 1) W) $$ [CB HO AB]
  · isplitr; · iapply (inv_at m K' (c, 0)); iexact HI
    isplitl [CB]; · iexact CB
    isplitl [HO]; · iexact HO
    isplitr; · iapply (mayWait_bar c 1 (Nat.le_refl 1)); iexact Hlev
    iexact AB
  iintro ⟨HO, AB, -, Hpay⟩
  ihave Hp := (Entails.of_eq (barPay_open (F := F) c)) $$ Hpay
  icases Hp with ⟨⟨%gr0, Gr0⟩, ⟨%gr1, Gr1⟩, ⟨%gr2, Gr2⟩, ⟨%gr3, Gr3⟩, ⟨%gq0, Gq0⟩, ⟨%gq1, Gq1⟩, ⟨%gq2, Gq2⟩, ⟨%gq3, Gq3⟩⟩
  sl_step
  sl_exec
  -- the accumulators as the trace's
  have e13 : run_pt3.sl.v13 m c = (iblk m c 0 t0_3) := by unfold run_pt3.sl.v13; exact Memref.readAt_unit_zero (Elt F) _ hz4 _ _
  have e18 : run_pt3.sl.v18 m c = (iblk m c 1 t0_3) := by unfold run_pt3.sl.v18; exact Memref.readAt_unit_zero (Elt F) _ hz4 _ _
  have e21 : run_pt3.sl.v21 m c = (iblk m c 2 t0_3) := by unfold run_pt3.sl.v21; exact Memref.readAt_unit_zero (Elt F) _ hz4 _ _
  have er : run_pt3.sl.r m c = k0_pay12 (iblk m c 2 t0_3) := by
    show k0_pay12 (run_pt3.sl.v21 m c) = _; rw [e21]
  have er1 : run_pt3.sl.r_1 m c = k0_pay13 (iblk m c 0 t0_3) (iblk m c 1 t0_3) := by
    show k0_pay13 (run_pt3.sl.v13 m c) (run_pt3.sl.v18 m c) = _; rw [e13, e18]
  have er2 : run_pt3.sl.r_2 m c fm = k0_pay14 (iblk m c 0 t0_3) (iblk m c 1 t0_3) fm := by
    show k0_pay14 (run_pt3.sl.v13 m c) (run_pt3.sl.v18 m c) (View.readAt (Elt F) accM.view (Rect.unit ![0, 0] S8x32.size inb_S8x32_S8x32_0_0).toLoadRect fm) = _
    rw [e13, e18, rd_m]
  have er3 : run_pt3.sl.r_3 m c fm = k0_pay15 (iblk m c 0 t0_3) (iblk m c 1 t0_3) fm := by
    show k0_pay15 (run_pt3.sl.v13 m c) (run_pt3.sl.v18 m c) (View.readAt (Elt F) accM.view (Rect.unit ![0, 0] S8x32.size inb_S8x32_S8x32_0_0).toLoadRect fm) = _
    rw [e13, e18, rd_m]
  have e62 : run_pt3.sl.v62 m c fo fm = (Trace.chunk (iblk m c 0 t0_3) (iblk m c 1 t0_3) (iblk m c 2 t0_3) ⟨fo, fm, fl⟩).o := by
    unfold run_pt3.sl.v62 run_pt3.sl.Ho_1
    rw [View.readCov_cons_toLoadRect, er, er1, er2, er3, rd_o]; rfl
  have e68 : run_pt3.sl.v68 m c fm = (Trace.chunk (iblk m c 0 t0_3) (iblk m c 1 t0_3) (iblk m c 2 t0_3) ⟨fo, fm, fl⟩).m := by
    unfold run_pt3.sl.v68
    rw [View.readCov_cons_toLoadRect, er2]; rfl
  have e73 : run_pt3.sl.v73 m c fm fl = (Trace.chunk (iblk m c 0 t0_3) (iblk m c 1 t0_3) (iblk m c 2 t0_3) ⟨fo, fm, fl⟩).l := by
    unfold run_pt3.sl.v73
    rw [View.readCov_cons_toLoadRect, er1, er2, er3, rd_l]; rfl
  have hg5 : ∀ x : S1x32x8x128.Idx, OV m c (ValueIdx.ix4 (0 : Fin 4) (x 1) (x 2) (x 3)) = k0_pay5 (run_pt3.sl.v62 m c fo fm) x := fun x => by rw [e62]; exact hO x
  have hg6 : ∀ x : S1x1x8x32.Idx, SV m c (ValueIdx.ix4 (0 : Fin 4) (0 : Fin 2) (x 2) (x 3)) = k0_pay6 (run_pt3.sl.v68 m c fm) x := fun x => by rw [e68]; exact hS0 x
  have hg7 : ∀ x : S1x1x8x32.Idx, SV m c (ValueIdx.ix4 (0 : Fin 4) (1 : Fin 2) (x 2) (x 3)) = k0_pay7 (run_pt3.sl.v73 m c fm fl) x := fun x => by rw [e73]; exact hS1 x
  have hconvO : (View.loc (c : Thread nD τ) (oB.access (Rect.unit (s := S4x32x8x128) (k0_off1 (grid0.coords t0_3)) S1x32x8x128.size (k0_off1_inb (grid0.coords t0_3) h2))) ↦[(oSl oB 0).view.set]{fullShare} View.write (Elt F) (oB.access (Rect.unit (s := S4x32x8x128) (k0_off1 (grid0.coords t0_3)) S1x32x8x128.size (k0_off1_inb (grid0.coords t0_3) h2))) fob (k0_pay5 (run_pt3.sl.v62 m c fo fm)) Finset.univ : sProp 𝕄) ⊢ obPts c 0 (OV m c) :=
    Entails.of_eq (store_o c (grid0.coords t0_3) h2 0 hb fob (OV m c) (k0_pay5 (run_pt3.sl.v62 m c fo fm)) hg5)
  have hconvS : (View.loc (c : Thread nD τ) (sB.access (Rect.unit (s := S4x2x8x32) (k0_off3 (grid0.coords t0_3)) S1x1x8x32.size (k0_off3_inb (grid0.coords t0_3) h2))) ↦[(sSl sB 0).view.set]{fullShare} View.write (Elt F) (sB.access (Rect.unit (s := S4x2x8x32) (k0_off3 (grid0.coords t0_3)) S1x1x8x32.size (k0_off3_inb (grid0.coords t0_3) h2))) (View.write (Elt F) (sB.access (Rect.unit (s := S4x2x8x32) (k0_off2 (grid0.coords t0_3)) S1x1x8x32.size (k0_off2_inb (grid0.coords t0_3) h2))) fsb (k0_pay6 (run_pt3.sl.v68 m c fm)) Finset.univ) (k0_pay7 (run_pt3.sl.v73 m c fm fl)) Finset.univ : sProp 𝕄) ⊢ sbPts c 0 (SV m c) :=
    Entails.of_eq (store_s c (grid0.coords t0_3) h2 0 hb fsb (SV m c) (k0_pay6 (run_pt3.sl.v68 m c fm)) (k0_pay7 (run_pt3.sl.v73 m c fm fl)) hg6 hg7)
  -- the output copy of entry 0
  rw [show owedFrom c 1 = owedFrom c 2 + tallyAt (famCell (nbr c) 1 0) () No from owedFrom_succ c 1 (by decide)]
  iapply (wp_send_o0 m K' c _ (dev_eq c (k0_dev2_eq c) _) gr0 (owedFrom c 2) (insert (SemLoc.reg barS, ()) W)) $$ [Hob' Gr0 HO T0 T1]
  · isplitr; · iapply (inv_at m K' (c, fidx 0 0)); iexact HI
    isplitr; · iapply (inv_at m K' (nbr c, fidx 1 0)); iexact HI
    isplitl [Hob']; · iapply hconvO; iexact Hob'
    isplitl [Gr0]; · iexact Gr0
    isplitl [HO]; · iexact HO
    isplitl [T0]; · iexact T0
    isplitr; · iapply (reached_at (F := F) (c, fidx 0 0)); iexact HRr
    isplitl [T1]; · iexact T1
    iapply (reached_at (F := F) (nbr c, fidx 1 0)); iexact HRr
  iintro ⟨Hc0, HO⟩
  -- the statistics copy of entry 0
  rw [show owedFrom c 2 = owedFrom c 3 + tallyAt (famCell (nbr c) 3 0) () Ns from owedFrom_succ c 2 (by decide)]
  iapply (wp_send_s0 m K' c _ (dev_eq c (k0_dev3_eq c) _) gq0 (owedFrom c 3) (insert (SemLoc.reg barS, ()) W)) $$ [Hsb' Gq0 HO T2 T3]
  · isplitr; · iapply (inv_at m K' (c, fidx 2 0)); iexact HI
    isplitr; · iapply (inv_at m K' (nbr c, fidx 3 0)); iexact HI
    isplitl [Hsb']; · iapply hconvS; iexact Hsb'
    isplitl [Gq0]; · iexact Gq0
    isplitl [HO]; · iexact HO
    isplitl [T2]; · iexact T2
    isplitr; · iapply (reached_at (F := F) (c, fidx 2 0)); iexact HRr
    isplitl [T3]; · iexact T3
    iapply (reached_at (F := F) (nbr c, fidx 3 0)); iexact HRr
  iintro ⟨Hc2, HO⟩
  rw [prog_ret_bind]
  sl_exec
  sl_step
  iapply Hk
  unfold run_pt3.sl.Ho_1
  rw [er, er1, er2, er3, wr_o, wr_m, wr_l, rd_o, rd_l]
  unfold Trace.chunk
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  isplitl [AB]; · iexact AB
  isplitl [A0 A1 A2 A3 C1 C3 Hc0 Hc2]
  · isplitl [A0]; · iexact A0
    isplitl [A1]; · iexact A1
    isplitl [A2]; · iexact A2
    isplitl [A3]; · iexact A3
    isplitl [C1]; · iexact C1
    isplitl [C3]; · iexact C3
    isplitl [Hc0]; · iexact Hc0
    iexact Hc2
  isplitl [A10 A11 A12 A13 C11 C13 Ho1 Hs1 T10 T11 T12 T13 Gr1 Gq1]
  · isplitl [A10]; · iexact A10
    isplitl [A11]; · iexact A11
    isplitl [A12]; · iexact A12
    isplitl [A13]; · iexact A13
    isplitl [C11]; · iexact C11
    isplitl [C13]; · iexact C13
    isplitl [Ho1]; · iexact Ho1
    isplitl [Hs1]; · iexact Hs1
    isplitl [T10]; · iexact T10
    isplitl [T11]; · iexact T11
    isplitl [T12]; · iexact T12
    isplitl [T13]; · iexact T13
    isplitl [Gr1]; · iexists gr1; iexact Gr1
    iexists gq1; iexact Gq1
  isplitl [A20 A21 A22 A23 C21 C23 Ho2 Hs2 T20 T21 T22 T23 Gr2 Gq2]
  · isplitl [A20]; · iexact A20
    isplitl [A21]; · iexact A21
    isplitl [A22]; · iexact A22
    isplitl [A23]; · iexact A23
    isplitl [C21]; · iexact C21
    isplitl [C23]; · iexact C23
    isplitl [Ho2]; · iexact Ho2
    isplitl [Hs2]; · iexact Hs2
    isplitl [T20]; · iexact T20
    isplitl [T21]; · iexact T21
    isplitl [T22]; · iexact T22
    isplitl [T23]; · iexact T23
    isplitl [Gr2]; · iexists gr2; iexact Gr2
    iexists gq2; iexact Gq2
  isplitl [A30 A31 A32 A33 C31 C33 Ho3 Hs3 T30 T31 T32 T33 Gr3 Gq3]
  · isplitl [A30]; · iexact A30
    isplitl [A31]; · iexact A31
    isplitl [A32]; · iexact A32
    isplitl [A33]; · iexact A33
    isplitl [C31]; · iexact C31
    isplitl [C33]; · iexact C33
    isplitl [Ho3]; · iexact Ho3
    isplitl [Hs3]; · iexact Hs3
    isplitl [T30]; · iexact T30
    isplitl [T31]; · iexact T31
    isplitl [T32]; · iexact T32
    isplitl [T33]; · iexact T33
    isplitl [Gr3]; · iexists gr3; iexact Gr3
    iexists gq3; iexact Gq3
  iexists (insert (SemLoc.reg barS, ()) W)
  iexact HO

/-- info: 'Cert.KernelProof.run_pt7' depends on axioms: [propext, Classical.choice, Quot.sound] -/
#guard_msgs in #print axioms run_pt7
/-- info: 'Cert.KernelProof.run_pt11' depends on axioms: [propext, Classical.choice, Quot.sound] -/
#guard_msgs in #print axioms run_pt11
/-- info: 'Cert.KernelProof.run_pt3' depends on axioms: [propext, Classical.choice, Quot.sound] -/
#guard_msgs in #print axioms run_pt3

end Cert.KernelProof
end
-- ==== Proof.KBodyHandGoal.lean ====
/-
  The body obligation at the hand-over points that are not the last: the last chunk of a batch entry, then the
  hand-over of its accumulators. Before such a point the invariant holds the accumulators at the trace's value after
  three chunks of the entry; the body leaves them at the value after four, which is what the entry's rows of the
  hand-over buffers hold at the end; the entry's part of the invariant passes to its handed-over form and what the
  device owes to what it owes after the entry's two copies; every other part is the same before and after.
-/
import proofs.«900428_g7700000000000429_dist_flashdec_v7x_xyz2x2x4_y_b4_sq32_skv4096_h8_d128_f32_1_alg».proof.Proof.KBodyPlain
import proofs.«900428_g7700000000000429_dist_flashdec_v7x_xyz2x2x4_y_b4_sq32_skv4096_h8_d128_f32_1_alg».proof.Proof.KBodyHand
import proofs.«900428_g7700000000000429_dist_flashdec_v7x_xyz2x2x4_y_b4_sq32_skv4096_h8_d128_f32_1_alg».proof.Proof.KTraceFacts
import proofs.«900428_g7700000000000429_dist_flashdec_v7x_xyz2x2x4_y_b4_sq32_skv4096_h8_d128_f32_1_alg».proof.Proof.KAccStep

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The body obligation at grid point 7: batch entry 1, its last chunk, then the hand-over of its accumulators. -/
theorem body_pt7 (c : Dev nD) : BodyGoal m c t0_7 := by
  unfold BodyGoal
  rw [bigSep_W0, bigSep_W0]
  have hi0 : cfg0.idle 0 (cfg0.grid.coords t0_7) = false := rfl
  have hi1 : cfg0.idle 1 (cfg0.grid.coords t0_7) = false := rfl
  have hi2 : cfg0.idle 2 (cfg0.grid.coords t0_7) = false := rfl
  have hi3 : idle0 3 (grid0.coords t0_7) = true := by decide +kernel
  have hf3 : (cfg0.win 3).flush t0_7 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_7 d = iblk m c 0 t0_7 := fun d => before_in0 m c t0_7 d
  have hb1 : ∀ d, (dats m 0 c).before 1 t0_7 d = iblk m c 1 t0_7 := fun d => before_in1 m c t0_7 d
  have hb2 : ∀ d, (dats m 0 c).before 2 t0_7 d = iblk m c 2 t0_7 := fun d => before_in2 m c t0_7 d
  have ha0 : (dats m 0 c).after 0 t0_7 = iblk m c 0 t0_7 := rfl
  have ha1 : (dats m 0 c).after 1 t0_7 = iblk m c 1 t0_7 := rfl
  have ha2 : (dats m 0 c).after 2 t0_7 = iblk m c 2 t0_7 := rfl
  have hs0 : ∀ X, (owns (Ix := Unit) (Name := ℕ) (U := UU) (Lvl := ℕ) (c : Thread nD τ) (stage0_0 (cfg0.slots t0_7 0)) fullShare X : sProp 𝕄)
      = pt' c (stage0_0 (cfg0.slots t0_7 0)) X := fun X => owns_whole (c : Thread nD τ) cc0_stg0_1 fullShare X
  have hs1 : ∀ X, (owns (Ix := Unit) (Name := ℕ) (U := UU) (Lvl := ℕ) (c : Thread nD τ) (stage0_1 (cfg0.slots t0_7 1)) fullShare X : sProp 𝕄)
      = pt' c (stage0_1 (cfg0.slots t0_7 1)) X := fun X => owns_whole (c : Thread nD τ) cc0_stg1_1 fullShare X
  have hs2 : ∀ X, (owns (Ix := Unit) (Name := ℕ) (U := UU) (Lvl := ℕ) (c : Thread nD τ) (stage0_2 (cfg0.slots t0_7 2)) fullShare X : sProp 𝕄)
      = pt' c (stage0_2 (cfg0.slots t0_7 2)) X := fun X => owns_whole (c : Thread nD τ) cc0_stg2_1 fullShare X
  have hs3 : ∀ X, (owns (Ix := Unit) (Name := ℕ) (U := UU) (Lvl := ℕ) (c : Thread nD τ) (stage0_3 (cfg0.slots t0_7 3)) fullShare X : sProp 𝕄)
      = pt' c (stage0_3 (cfg0.slots t0_7 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_7.castSucc = PhiMid m c 7 := rfl
  have hΦ1 : (dats m 0 c).Φ t0_7.succ = PhiMid m c 8 := rfl
  rw [hΦ0, hΦ1]
  show _ ⊢ wp frame (wpE (defs₀ (F := F)) 𝒱₀ c none) Set.univ (bodyAt0 (F := F) t0_7) _
  unfold PhiMid accPart
  iintro ⟨⟨%K', #Hrec, #Hlev, Hbar, He0, He1, He2, He3, %fo, %fm, %fl, %hacc, Ho, Hm, Hl⟩, ⟨%W, %hW, HO⟩, ⟨%d0, H0⟩, ⟨%d1, H1⟩, ⟨%d2, H2⟩, %d3, H3⟩
  have hch : Trace.chunk (iblk m c 0 t0_7) (iblk m c 1 t0_7) (iblk m c 2 t0_7) ⟨fo, fm, fl⟩ = Trace.accAt (XQ m c) (XK m c) (XV m c) (1 : Fin 4) 4 := by
    obtain ⟨h1, h2, h3⟩ := hacc (by decide)
    have e : t0_7 = pt (1 : Fin 4) (⟨3, by decide⟩ : Fin 4) := Fin.ext rfl
    have h := acc_step m c (1 : Fin 4) 3 (by decide)
    rw [← e] at h
    rw [h1, h2, h3]
    exact h.symm
  have hO : ∀ x : S1x32x8x128.Idx, OV m c (ValueIdx.ix4 (1 : Fin 4) (x 1) (x 2) (x 3)) = k0_pay5 (Trace.chunk (iblk m c 0 t0_7) (iblk m c 1 t0_7) (iblk m c 2 t0_7) ⟨fo, fm, fl⟩).o x :=
    fun x => by rw [hch]; exact OV_rows m c 1 x
  have hS0 : ∀ x : S1x1x8x32.Idx, SV m c (ValueIdx.ix4 (1 : Fin 4) (0 : Fin 2) (x 2) (x 3)) = k0_pay6 (Trace.chunk (iblk m c 0 t0_7) (iblk m c 1 t0_7) (iblk m c 2 t0_7) ⟨fo, fm, fl⟩).m x :=
    fun x => by rw [hch]; exact SV_row0 m c 1 x
  have hS1 : ∀ x : S1x1x8x32.Idx, SV m c (ValueIdx.ix4 (1 : Fin 4) (1 : Fin 2) (x 2) (x 3)) = k0_pay7 (Trace.chunk (iblk m c 0 t0_7) (iblk m c 1 t0_7) (iblk m c 2 t0_7) ⟨fo, fm, fl⟩).l x :=
    fun x => by rw [hch]; exact SV_row1 m c 1 x
  iapply (run_pt7 m c fo fm fl ((dats m 0 c).before 3 t0_7 d3) K' W _ hO hS0 hS1)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  isplitr; · iexact Hrec
  isplitr; · iexact Hlev
  isplitl [HO]; · iexact HO
  isplitl [He1]; · iexact He1
  iintro ⟨Ho, Hm, Hl, H0, H1, H2, H3, He1, %W', HO⟩
  isplitl [Hbar He0 He1 He2 He3 Ho Hm Hl]
  · iexists K'
    isplitr; · iexact Hrec
    isplitr; · iexact Hlev
    isplitl [Hbar]; · iexact Hbar
    isplitl [He0]; · iexact He0
    isplitl [He1]; · iexact He1
    isplitl [He2]; · iexact He2
    isplitl [He3]; · iexact He3
    iexists (Trace.chunk (iblk m c 0 t0_7) (iblk m c 1 t0_7) (iblk m c 2 t0_7) ⟨fo, fm, fl⟩).o, (Trace.chunk (iblk m c 0 t0_7) (iblk m c 1 t0_7) (iblk m c 2 t0_7) ⟨fo, fm, fl⟩).m, (Trace.chunk (iblk m c 0 t0_7) (iblk m c 1 t0_7) (iblk m c 2 t0_7) ⟨fo, fm, fl⟩).l
    isplitr [Ho Hm Hl]
    · ipureintro
      intro h
      exact absurd rfl h
    isplitl [Ho]; · iexact Ho
    isplitl [Hm]; · iexact Hm
    iexact Hl
  isplitl [HO]
  · iexists W'
    isplitr
    · ipureintro
      exact fun _ _ => Or.inl trivial
    iexact HO
  isplitl [H0]; · iexact H0
  isplitl [H1]; · iexact H1
  isplitl [H2]; · iexact H2
  iexists d3
  iexact H3

/-- The body obligation at grid point 11: batch entry 2, its last chunk, then the hand-over of its accumulators. -/
theorem body_pt11 (c : Dev nD) : BodyGoal m c t0_11 := by
  unfold BodyGoal
  rw [bigSep_W0, bigSep_W0]
  have hi0 : cfg0.idle 0 (cfg0.grid.coords t0_11) = false := rfl
  have hi1 : cfg0.idle 1 (cfg0.grid.coords t0_11) = false := rfl
  have hi2 : cfg0.idle 2 (cfg0.grid.coords t0_11) = false := rfl
  have hi3 : idle0 3 (grid0.coords t0_11) = true := by decide +kernel
  have hf3 : (cfg0.win 3).flush t0_11 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_11 d = iblk m c 0 t0_11 := fun d => before_in0 m c t0_11 d
  have hb1 : ∀ d, (dats m 0 c).before 1 t0_11 d = iblk m c 1 t0_11 := fun d => before_in1 m c t0_11 d
  have hb2 : ∀ d, (dats m 0 c).before 2 t0_11 d = iblk m c 2 t0_11 := fun d => before_in2 m c t0_11 d
  have ha0 : (dats m 0 c).after 0 t0_11 = iblk m c 0 t0_11 := rfl
  have ha1 : (dats m 0 c).after 1 t0_11 = iblk m c 1 t0_11 := rfl
  have ha2 : (dats m 0 c).after 2 t0_11 = iblk m c 2 t0_11 := rfl
  have hs0 : ∀ X, (owns (Ix := Unit) (Name := ℕ) (U := UU) (Lvl := ℕ) (c : Thread nD τ) (stage0_0 (cfg0.slots t0_11 0)) fullShare X : sProp 𝕄)
      = pt' c (stage0_0 (cfg0.slots t0_11 0)) X := fun X => owns_whole (c : Thread nD τ) cc0_stg0_0 fullShare X
  have hs1 : ∀ X, (owns (Ix := Unit) (Name := ℕ) (U := UU) (Lvl := ℕ) (c : Thread nD τ) (stage0_1 (cfg0.slots t0_11 1)) fullShare X : sProp 𝕄)
      = pt' c (stage0_1 (cfg0.slots t0_11 1)) X := fun X => owns_whole (c : Thread nD τ) cc0_stg1_1 fullShare X
  have hs2 : ∀ X, (owns (Ix := Unit) (Name := ℕ) (U := UU) (Lvl := ℕ) (c : Thread nD τ) (stage0_2 (cfg0.slots t0_11 2)) fullShare X : sProp 𝕄)
      = pt' c (stage0_2 (cfg0.slots t0_11 2)) X := fun X => owns_whole (c : Thread nD τ) cc0_stg2_1 fullShare X
  have hs3 : ∀ X, (owns (Ix := Unit) (Name := ℕ) (U := UU) (Lvl := ℕ) (c : Thread nD τ) (stage0_3 (cfg0.slots t0_11 3)) fullShare X : sProp 𝕄)
      = pt' c (stage0_3 (cfg0.slots t0_11 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_11.castSucc = PhiMid m c 11 := rfl
  have hΦ1 : (dats m 0 c).Φ t0_11.succ = PhiMid m c 12 := rfl
  rw [hΦ0, hΦ1]
  show _ ⊢ wp frame (wpE (defs₀ (F := F)) 𝒱₀ c none) Set.univ (bodyAt0 (F := F) t0_11) _
  unfold PhiMid accPart
  iintro ⟨⟨%K', #Hrec, #Hlev, Hbar, He0, He1, He2, He3, %fo, %fm, %fl, %hacc, Ho, Hm, Hl⟩, ⟨%W, %hW, HO⟩, ⟨%d0, H0⟩, ⟨%d1, H1⟩, ⟨%d2, H2⟩, %d3, H3⟩
  have hch : Trace.chunk (iblk m c 0 t0_11) (iblk m c 1 t0_11) (iblk m c 2 t0_11) ⟨fo, fm, fl⟩ = Trace.accAt (XQ m c) (XK m c) (XV m c) (2 : Fin 4) 4 := by
    obtain ⟨h1, h2, h3⟩ := hacc (by decide)
    have e : t0_11 = pt (2 : Fin 4) (⟨3, by decide⟩ : Fin 4) := Fin.ext rfl
    have h := acc_step m c (2 : Fin 4) 3 (by decide)
    rw [← e] at h
    rw [h1, h2, h3]
    exact h.symm
  have hO : ∀ x : S1x32x8x128.Idx, OV m c (ValueIdx.ix4 (2 : Fin 4) (x 1) (x 2) (x 3)) = k0_pay5 (Trace.chunk (iblk m c 0 t0_11) (iblk m c 1 t0_11) (iblk m c 2 t0_11) ⟨fo, fm, fl⟩).o x :=
    fun x => by rw [hch]; exact OV_rows m c 2 x
  have hS0 : ∀ x : S1x1x8x32.Idx, SV m c (ValueIdx.ix4 (2 : Fin 4) (0 : Fin 2) (x 2) (x 3)) = k0_pay6 (Trace.chunk (iblk m c 0 t0_11) (iblk m c 1 t0_11) (iblk m c 2 t0_11) ⟨fo, fm, fl⟩).m x :=
    fun x => by rw [hch]; exact SV_row0 m c 2 x
  have hS1 : ∀ x : S1x1x8x32.Idx, SV m c (ValueIdx.ix4 (2 : Fin 4) (1 : Fin 2) (x 2) (x 3)) = k0_pay7 (Trace.chunk (iblk m c 0 t0_11) (iblk m c 1 t0_11) (iblk m c 2 t0_11) ⟨fo, fm, fl⟩).l x :=
    fun x => by rw [hch]; exact SV_row1 m c 2 x
  iapply (run_pt11 m c fo fm fl ((dats m 0 c).before 3 t0_11 d3) K' W _ hO hS0 hS1)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  isplitr; · iexact Hrec
  isplitr; · iexact Hlev
  isplitl [HO]; · iexact HO
  isplitl [He2]; · iexact He2
  iintro ⟨Ho, Hm, Hl, H0, H1, H2, H3, He2, %W', HO⟩
  isplitl [Hbar He0 He1 He2 He3 Ho Hm Hl]
  · iexists K'
    isplitr; · iexact Hrec
    isplitr; · iexact Hlev
    isplitl [Hbar]; · iexact Hbar
    isplitl [He0]; · iexact He0
    isplitl [He1]; · iexact He1
    isplitl [He2]; · iexact He2
    isplitl [He3]; · iexact He3
    iexists (Trace.chunk (iblk m c 0 t0_11) (iblk m c 1 t0_11) (iblk m c 2 t0_11) ⟨fo, fm, fl⟩).o, (Trace.chunk (iblk m c 0 t0_11) (iblk m c 1 t0_11) (iblk m c 2 t0_11) ⟨fo, fm, fl⟩).m, (Trace.chunk (iblk m c 0 t0_11) (iblk m c 1 t0_11) (iblk m c 2 t0_11) ⟨fo, fm, fl⟩).l
    isplitr [Ho Hm Hl]
    · ipureintro
      intro h
      exact absurd rfl h
    isplitl [Ho]; · iexact Ho
    isplitl [Hm]; · iexact Hm
    iexact Hl
  isplitl [HO]
  · iexists W'
    isplitr
    · ipureintro
      exact fun _ _ => Or.inl trivial
    iexact HO
  isplitl [H0]; · iexact H0
  isplitl [H1]; · iexact H1
  isplitl [H2]; · iexact H2
  iexists d3
  iexact H3

/-- The body obligation at grid point 3: batch entry 0, its last chunk, then the barrier handshake and the hand-over
    of its accumulators. -/
theorem body_pt3 (c : Dev nD) : BodyGoal m c t0_3 := by
  unfold BodyGoal
  rw [bigSep_W0, bigSep_W0]
  have hi0 : cfg0.idle 0 (cfg0.grid.coords t0_3) = false := rfl
  have hi1 : cfg0.idle 1 (cfg0.grid.coords t0_3) = false := rfl
  have hi2 : cfg0.idle 2 (cfg0.grid.coords t0_3) = false := rfl
  have hi3 : idle0 3 (grid0.coords t0_3) = true := by decide +kernel
  have hf3 : (cfg0.win 3).flush t0_3 = false := by decide +kernel
  have hl0 : cfg0.loose 0 = false := by decide +kernel
  have hl1 : cfg0.loose 1 = false := by decide +kernel
  have hl2 : cfg0.loose 2 = false := by decide +kernel
  have hb0 : ∀ d, (dats m 0 c).before 0 t0_3 d = iblk m c 0 t0_3 := fun d => before_in0 m c t0_3 d
  have hb1 : ∀ d, (dats m 0 c).before 1 t0_3 d = iblk m c 1 t0_3 := fun d => before_in1 m c t0_3 d
  have hb2 : ∀ d, (dats m 0 c).before 2 t0_3 d = iblk m c 2 t0_3 := fun d => before_in2 m c t0_3 d
  have ha0 : (dats m 0 c).after 0 t0_3 = iblk m c 0 t0_3 := rfl
  have ha1 : (dats m 0 c).after 1 t0_3 = iblk m c 1 t0_3 := rfl
  have ha2 : (dats m 0 c).after 2 t0_3 = iblk m c 2 t0_3 := rfl
  have hs0 : ∀ X, (owns (Ix := Unit) (Name := ℕ) (U := UU) (Lvl := ℕ) (c : Thread nD τ) (stage0_0 (cfg0.slots t0_3 0)) fullShare X : sProp 𝕄)
      = pt' c (stage0_0 (cfg0.slots t0_3 0)) X := fun X => owns_whole (c : Thread nD τ) cc0_stg0_0 fullShare X
  have hs1 : ∀ X, (owns (Ix := Unit) (Name := ℕ) (U := UU) (Lvl := ℕ) (c : Thread nD τ) (stage0_1 (cfg0.slots t0_3 1)) fullShare X : sProp 𝕄)
      = pt' c (stage0_1 (cfg0.slots t0_3 1)) X := fun X => owns_whole (c : Thread nD τ) cc0_stg1_1 fullShare X
  have hs2 : ∀ X, (owns (Ix := Unit) (Name := ℕ) (U := UU) (Lvl := ℕ) (c : Thread nD τ) (stage0_2 (cfg0.slots t0_3 2)) fullShare X : sProp 𝕄)
      = pt' c (stage0_2 (cfg0.slots t0_3 2)) X := fun X => owns_whole (c : Thread nD τ) cc0_stg2_1 fullShare X
  have hs3 : ∀ X, (owns (Ix := Unit) (Name := ℕ) (U := UU) (Lvl := ℕ) (c : Thread nD τ) (stage0_3 (cfg0.slots t0_3 3)) fullShare X : sProp 𝕄)
      = pt' c (stage0_3 (cfg0.slots t0_3 3)) X := fun X => owns_whole (c : Thread nD τ) cc0_stg3_0 fullShare X
  simp only [hi0, hi1, hi2, hi3, hf3, hl0, hl1, hl2, hb0, hb1, hb2, ha0, ha1, ha2, hs0, hs1, hs2, hs3]
  have hΦ0 : (dats m 0 c).Φ t0_3.castSucc = PhiMid m c 3 := rfl
  have hΦ1 : (dats m 0 c).Φ t0_3.succ = PhiMid m c 4 := rfl
  rw [hΦ0, hΦ1]
  show _ ⊢ wp frame (wpE (defs₀ (F := F)) 𝒱₀ c none) Set.univ (bodyAt0 (F := F) t0_3) _
  unfold PhiMid accPart
  iintro ⟨⟨%K', #Hrec, #Hlev, Hbar, He0, He1, He2, He3, %fo, %fm, %fl, %hacc, Ho, Hm, Hl⟩, ⟨%W, %hW, HO⟩, ⟨%d0, H0⟩, ⟨%d1, H1⟩, ⟨%d2, H2⟩, %d3, H3⟩
  have hch : Trace.chunk (iblk m c 0 t0_3) (iblk m c 1 t0_3) (iblk m c 2 t0_3) ⟨fo, fm, fl⟩ = Trace.accAt (XQ m c) (XK m c) (XV m c) (0 : Fin 4) 4 := by
    obtain ⟨h1, h2, h3⟩ := hacc (by decide)
    have e : t0_3 = pt (0 : Fin 4) (⟨3, by decide⟩ : Fin 4) := Fin.ext rfl
    have h := acc_step m c (0 : Fin 4) 3 (by decide)
    rw [← e] at h
    rw [h1, h2, h3]
    exact h.symm
  have hO : ∀ x : S1x32x8x128.Idx, OV m c (ValueIdx.ix4 (0 : Fin 4) (x 1) (x 2) (x 3)) = k0_pay5 (Trace.chunk (iblk m c 0 t0_3) (iblk m c 1 t0_3) (iblk m c 2 t0_3) ⟨fo, fm, fl⟩).o x :=
    fun x => by rw [hch]; exact OV_rows m c 0 x
  have hS0 : ∀ x : S1x1x8x32.Idx, SV m c (ValueIdx.ix4 (0 : Fin 4) (0 : Fin 2) (x 2) (x 3)) = k0_pay6 (Trace.chunk (iblk m c 0 t0_3) (iblk m c 1 t0_3) (iblk m c 2 t0_3) ⟨fo, fm, fl⟩).m x :=
    fun x => by rw [hch]; exact SV_row0 m c 0 x
  have hS1 : ∀ x : S1x1x8x32.Idx, SV m c (ValueIdx.ix4 (0 : Fin 4) (1 : Fin 2) (x 2) (x 3)) = k0_pay7 (Trace.chunk (iblk m c 0 t0_3) (iblk m c 1 t0_3) (iblk m c 2 t0_3) ⟨fo, fm, fl⟩).l x :=
    fun x => by rw [hch]; exact SV_row1 m c 0 x
  iapply (run_pt3 m c fo fm fl ((dats m 0 c).before 3 t0_3 d3) K' W _ hO hS0 hS1)
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  isplitr; · iexact Hrec
  isplitr; · iexact Hlev
  isplitl [HO]; · iexact HO
  isplitl [Hbar]; · iexact Hbar
  isplitl [He0]; · iexact He0
  isplitl [He1]; · iexact He1
  isplitl [He2]; · iexact He2
  isplitl [He3]; · iexact He3
  iintro ⟨Ho, Hm, Hl, H0, H1, H2, H3, Hbar, He0, He1, He2, He3, %W', HO⟩
  isplitl [Hbar He0 He1 He2 He3 Ho Hm Hl]
  · iexists K'
    isplitr; · iexact Hrec
    isplitr; · iexact Hlev
    isplitl [Hbar]; · iexact Hbar
    isplitl [He0]; · iexact He0
    isplitl [He1]; · iexact He1
    isplitl [He2]; · iexact He2
    isplitl [He3]; · iexact He3
    iexists (Trace.chunk (iblk m c 0 t0_3) (iblk m c 1 t0_3) (iblk m c 2 t0_3) ⟨fo, fm, fl⟩).o, (Trace.chunk (iblk m c 0 t0_3) (iblk m c 1 t0_3) (iblk m c 2 t0_3) ⟨fo, fm, fl⟩).m, (Trace.chunk (iblk m c 0 t0_3) (iblk m c 1 t0_3) (iblk m c 2 t0_3) ⟨fo, fm, fl⟩).l
    isplitr [Ho Hm Hl]
    · ipureintro
      intro h
      exact absurd rfl h
    isplitl [Ho]; · iexact Ho
    isplitl [Hm]; · iexact Hm
    iexact Hl
  isplitl [HO]
  · iexists W'
    isplitr
    · ipureintro
      exact fun _ _ => Or.inl trivial
    iexact HO
  isplitl [H0]; · iexact H0
  isplitl [H1]; · iexact H1
  isplitl [H2]; · iexact H2
  iexists d3
  iexact H3

end Cert.KernelProof
end

/-- info: 'Cert.KernelProof.body_pt7' depends on axioms: [propext, Classical.choice, Quot.sound] -/
#guard_msgs in #print axioms Cert.KernelProof.body_pt7

/-- info: 'Cert.KernelProof.body_pt11' depends on axioms: [propext, Classical.choice, Quot.sound] -/
#guard_msgs in #print axioms Cert.KernelProof.body_pt11

/-- info: 'Cert.KernelProof.body_pt3' depends on axioms: [propext, Classical.choice, Quot.sound] -/
#guard_msgs in #print axioms Cert.KernelProof.body_pt3
-- ==== Proof.KFinalPart.lean ====
/-
  The last grid point's final part: a device that has handed over all four batch entries waits, for each batch
  entry in turn, on its output-send, output-receive, statistics-send and statistics-receive cells, which hand back
  its own rows and bring its partner's; with the four buffers whole again it loads both statistics rows of each
  statistics buffer and both output buffers, and returns their merge.
-/
import proofs.«900428_g7700000000000429_dist_flashdec_v7x_xyz2x2x4_y_b4_sq32_skv4096_h8_d128_f32_1_alg».proof.Proof.KData
import proofs.«900428_g7700000000000429_dist_flashdec_v7x_xyz2x2x4_y_b4_sq32_skv4096_h8_d128_f32_1_alg».proof.Proof.KSlices

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ### One wait on a cell of the device's own, and the cell's closing -/

omit [FloatOps F] in
/-- Two views of one kind, space, shape and element type carry the same credit. -/
theorem dmaCredit_eq {sp : Space} {s : Shape} {e : EltTy} (v w : View sig .tc sp s e) : v.dmaCredit = w.dmaCredit := rfl

theorem expect_o (c : Dev nD) (k b : Fin 4) (hk : k.val < 2) : (Rd m).expect (famCell c k b) 0 = No := by
  rw [expect_fam, if_pos hk]

theorem expect_s (c : Dev nD) (k b : Fin 4) (hk : ¬ k.val < 2) : (Rd m).expect (famCell c k b) 0 = Ns := by
  rw [expect_fam, if_neg hk]

omit [FloatOps F] in
theorem owes_ex (c : Dev nD) (W : Waits sig Unit) :
    owes (c : Thread nD τ) 0 W ⊢ (iprop(∃ W', owes (c : Thread nD τ) 0 W') : sProp 𝕄) := by
  iintro H; iexists W; iexact H

/-- A wait on the cell of family k, batch entry b, for the amount N the cell expects: the credit, the position at
    round 0 and the cell's invariant go in; the cell's counter at zero and the rows P the landing hands over come
    out, the wait recorded among those the device has made. -/
theorem wait_fam (c : Dev nD) (κ : ℕ) (k b : Fin 4) (N : ℕ) (P : sProp 𝕄) {s : Shape} {α : Type}
    (src dst : Memref sig .tc .vmem s .f32) (hsrc : src.view.WordExact) (hdst : dst.view.WordExact)
    (hcred : dst.view.dmaCredit = N) (hexp : (Rd m).expect (famCell c k b) 0 = N)
    (hP : famPay (OV m) (SV m) c k b = P)
    (kont : PUnit → Prog (TpuEff nD τ sig (Elt F) Λ₀ .tc) α) (Q : α → sProp 𝕄) :
    iprop(cellInv ER (Rd m) κ (famCell c k b) ∗ cred (tallyAt (famCell c k b) () N)
        ∗ (∃ W, owes (c : Thread nD τ) 0 W) ∗ atPos ER (famCell c k b) 0 ∅ 0)
      ⊢ iprop((((∃ W, owes (c : Thread nD τ) 0 W) ∗ semVal (famCell c k b) 0 ∗ P)
            -∗ wp frame (wpE (defs₀ (F := F)) 𝒱₀ c none) Set.univ (kont ⟨⟩) Q)
          -∗ wp frame (wpE (defs₀ (F := F)) 𝒱₀ c none) Set.univ (.op (.waitDma2 (famSem k b) src dst hsrc hdst) kont) Q) := by
  subst hP
  iintro ⟨#HI, Hc, ⟨%W, HO⟩, Hat⟩ Hk
  iapply (Rounds.wp_wait_rest_token 𝒱₀ ER (Rd m) (c : Thread nD τ) none (κ := κ)
      (wpE_waitDma2_eq 𝒱₀ (c : Thread nD τ) none Set.univ) (Set.mem_univ _) () (O := 0) (W := W) (R := 0) (m := 0) (T := ∅)
      (by rw [Nat.zero_add, hcred, hexp])) $$ [Hc HO Hat]
  · isplitr; · iexact HI
    isplitl [Hc]; · rw [hcred]; iexact Hc
    isplitl [HO]; · iexact HO
    isplitr; · rw [MayWait_zero]; iempintro
    iexact Hat
  iintro ⟨HO, Hat, -, Hpay⟩
  ihave Hp := (Entails.of_eq (rest_fam (OV m) (SV m) c k b)) $$ Hpay
  imod (Rounds.cell_close ER (Rd m) (Set.mem_univ κ) (fun h => h) (R := 0 + 1) (duties_later (OV m) (SV m) (famCell c k b))) $$ [Hat] with Hz
  · isplitr; · iexact HI
    iexact Hat
  iapply Hk
  isplitl [HO]; · iexists _; iexact HO
  isplitl [Hz]; · iexact Hz
  iexact Hp

/-! ### The pieces the final part starts from -/

/-- After the last hand-over a batch entry's part is its four positions, two receive credits and two send credits. -/
theorem entPart_end (c : Dev nD) (b : Fin 4) :
    entPart (F := F) c 16 b
      = iprop(atPos ER (famCell c 0 b) 0 ∅ 0 ∗ atPos ER (famCell c 1 b) 0 ∅ 0 ∗ atPos ER (famCell c 2 b) 0 ∅ 0
          ∗ atPos ER (famCell c 3 b) 0 ∅ 0
          ∗ cred (tallyAt (famCell c 1 b) () No) ∗ cred (tallyAt (famCell c 3 b) () Ns)
          ∗ cred (tallyAt (famCell c 0 b) () No) ∗ cred (tallyAt (famCell c 2 b) () Ns)) := by
  unfold entPart
  rw [if_pos (by have := b.isLt; omega)]

/-- The invariant of the cell of family k, batch entry b, out of the records. -/
theorem records_cell (c : Dev nD) (K : Dev nD × Fin 17 → ℕ) (k b : Fin 4) :
    records m K ⊢ cellInv ER (Rd m) (K (c, fidx k b)) (famCell c k b) := by
  unfold records
  refine (BI.sep_and.trans BI.and_elimL).trans ?_
  have h := bigSep_elim (Finset.mem_univ (c, fidx k b))
    (Φ := fun ck : Dev nD × Fin 17 => cellInv ER (Rd m) (K ck) (kcell ck))
  rw [← kcell_fidx c k b]
  exact h

/-! ### The sixteen counters as one family; the loads' values -/

omit [FloatOps F] in
/-- A conjunction over sixteen indices, one by one. -/
theorem bigSep_16 {M : Type} [URA M] (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
/-- The sixteen cells' counters, family by family and entry by entry, are the counters of the device's sixteen own
    semaphores. -/
theorem sems_join (c : Dev nD) :
    (iprop(semVal (famCell c 0 0) 0 ∗ semVal (famCell c 0 1) 0 ∗ semVal (famCell c 0 2) 0 ∗ semVal (famCell c 0 3) 0 ∗ semVal (famCell c 1 0) 0 ∗ semVal (famCell c 1 1) 0 ∗ semVal (famCell c 1 2) 0 ∗ semVal (famCell c 1 3) 0 ∗ semVal (famCell c 2 0) 0 ∗ semVal (famCell c 2 1) 0 ∗ semVal (famCell c 2 2) 0 ∗ semVal (famCell c 2 3) 0 ∗ semVal (famCell c 3 0) 0 ∗ semVal (famCell c 3 1) 0 ∗ semVal (famCell c 3 2) 0 ∗ semVal (famCell c 3 3) 0) : sProp 𝕄)
      ⊢ bigSep Finset.univ fun j : Fin 16 => semVal ((c : Thread nD τ), osem j) 0 := by
  rw [bigSep_16]
  have e0 : (osem (0 : Fin 16) : SemLoc sig) = SemLoc.dma (famSem 0 0) := by decide
  have e1 : (osem (1 : Fin 16) : SemLoc sig) = SemLoc.dma (famSem 0 1) := by decide
  have e2 : (osem (2 : Fin 16) : SemLoc sig) = SemLoc.dma (famSem 0 2) := by decide
  have e3 : (osem (3 : Fin 16) : SemLoc sig) = SemLoc.dma (famSem 0 3) := by decide
  have e4 : (osem (4 : Fin 16) : SemLoc sig) = SemLoc.dma (famSem 1 0) := by decide
  have e5 : (osem (5 : Fin 16) : SemLoc sig) = SemLoc.dma (famSem 1 1) := by decide
  have e6 : (osem (6 : Fin 16) : SemLoc sig) = SemLoc.dma (famSem 1 2) := by decide
  have e7 : (osem (7 : Fin 16) : SemLoc sig) = SemLoc.dma (famSem 1 3) := by decide
  have e8 : (osem (8 : Fin 16) : SemLoc sig) = SemLoc.dma (famSem 2 0) := by decide
  have e9 : (osem (9 : Fin 16) : SemLoc sig) = SemLoc.dma (famSem 2 1) := by decide
  have e10 : (osem (10 : Fin 16) : SemLoc sig) = SemLoc.dma (famSem 2 2) := by decide
  have e11 : (osem (11 : Fin 16) : SemLoc sig) = SemLoc.dma (famSem 2 3) := by decide
  have e12 : (osem (12 : Fin 16) : SemLoc sig) = SemLoc.dma (famSem 3 0) := by decide
  have e13 : (osem (13 : Fin 16) : SemLoc sig) = SemLoc.dma (famSem 3 1) := by decide
  have e14 : (osem (14 : Fin 16) : SemLoc sig) = SemLoc.dma (famSem 3 2) := by decide
  have e15 : (osem (15 : Fin 16) : SemLoc sig) = SemLoc.dma (famSem 3 3) := by decide
  simp only [e0, e1, e2, e3, e4, e5, e6, e7, e8, e9, e10, e11, e12, e13, e14, e15]
  iintro H; iexact H

omit [FloatOps F] in
/-- A unit-stride rectangle of sizes (4, 1, 8, 32) at offsets (0, r, 0, 0) places (j0, 0, j2, j3) at (j0, r, j2, j3). -/
theorem row_emb (r : ℕ) (hr : r < 2) (inb : ∀ a, (![0, r, 0, 0] : Fin 4 → ℕ) a + S4x1x8x32.size a ≤ S4x2x8x32.size a)
    (j : S4x1x8x32.Idx) :
    (Rect.unit (s := S4x2x8x32) ![0, r, 0, 0] S4x1x8x32.size inb).emb j = ValueIdx.ix4 (j 0) (⟨r, hr⟩ : Fin 2) (j 2) (j 3) :=
  funext fun a => Fin.ext (by
    have h1 : ((j 1 : Fin 1)).val = 0 := Nat.lt_one_iff.mp (j 1).isLt
    match a with
    | ⟨0, _⟩ => show 0 + 1 * (j 0).val = (j 0).val; omega
    | ⟨1, _⟩ => show r + 1 * ((j 1 : Fin 1)).val = r; omega
    | ⟨2, _⟩ => show 0 + 1 * (j 2).val = (j 2).val; omega
    | ⟨3, _⟩ => show 0 + 1 * (j 3).val = (j 3).val; omega)

omit [FloatOps F] in
theorem read_sB0 (S : STy F) : View.readAt (Elt F) sB.view (Rect.unit (s := S4x2x8x32) ![0, 0, 0, 0] S4x1x8x32.size inb_S4x2x8x32_S4x1x8x32_0_0_0_0).toLoadRect S = Trace.statRow S 0 :=
  funext fun j => congrArg S (row_emb 0 (by decide) _ j)
omit [FloatOps F] in
theorem read_sB1 (S : STy F) : View.readAt (Elt F) sB.view (Rect.unit (s := S4x2x8x32) ![0, 1, 0, 0] S4x1x8x32.size inb_S4x2x8x32_S4x1x8x32_0_1_0_0).toLoadRect S = Trace.statRow S 1 :=
  funext fun j => congrArg S (row_emb 1 (by decide) _ j)
omit [FloatOps F] in
theorem read_rsB0 (S : STy F) : View.readAt (Elt F) rsB.view (Rect.unit (s := S4x2x8x32) ![0, 0, 0, 0] S4x1x8x32.size inb_S4x2x8x32_S4x1x8x32_0_0_0_0).toLoadRect S = Trace.statRow S 0 :=
  funext fun j => congrArg S (row_emb 0 (by decide) _ j)
omit [FloatOps F] in
theorem read_rsB1 (S : STy F) : View.readAt (Elt F) rsB.view (Rect.unit (s := S4x2x8x32) ![0, 1, 0, 0] S4x1x8x32.size inb_S4x2x8x32_S4x1x8x32_0_1_0_0).toLoadRect S = Trace.statRow S 1 :=
  funext fun j => congrArg S (row_emb 1 (by decide) _ j)

omit [FloatOps F] in
theorem hz4_fin : (![0, 0, 0, 0] : Fin 4 → Nat) = fun _ => 0 := funext fun a => by fin_cases a <;> rfl
omit [FloatOps F] in
theorem read_oB (O : OTy F) : View.readAt (Elt F) oB.view (Rect.unit (s := S4x32x8x128) ![0, 0, 0, 0] S4x32x8x128.size inb_S4x32x8x128_S4x32x8x128_0_0_0_0).toLoadRect O = O :=
  Memref.readAt_unit_zero (Elt F) cc0_scratch3 hz4_fin _ O
omit [FloatOps F] in
theorem read_roB (O : OTy F) : View.readAt (Elt F) roB.view (Rect.unit (s := S4x32x8x128) ![0, 0, 0, 0] S4x32x8x128.size inb_S4x32x8x128_S4x32x8x128_0_0_0_0).toLoadRect O = O :=
  Memref.readAt_unit_zero (Elt F) cc0_scratch5 hz4_fin _ O

/-! ### The final part -/

theorem finalPart (c : Dev nD) (K : Dev nD × Fin 17 → ℕ) (W : Waits sig Unit) (i : grid0.Coords)
    (arg2 : Memref sig .tc .vmem S1x32x8x128 .f32) (harg2 : arg2.IsWhole)
    (arg3 : Memref sig .tc .vmem S1x1024x8x128 .f32) (harg3 : arg3.IsWhole)
    (arg4 : Memref sig .tc .vmem S1x1024x8x128 .f32) (harg4 : arg4.IsWhole)
    (arg5 : Memref sig .tc .vmem S4x32x8x128 .f32) (harg5 : arg5.IsWhole)
    (v2 v8 v9 : BitVec 32) (Kt : FVec F S4x32x8x128 .f32 → sProp 𝕄) :
    iprop(records m K ∗ owes (c : Thread nD τ) 0 W ∗ entPart c 16 0 ∗ entPart c 16 1 ∗ entPart c 16 2 ∗ entPart c 16 3
        ∗ (∀ v, iprop(⌜v = OUT m c⌝ ∗ whole c cc0_scratch3 (OV m c) ∗ whole c cc0_scratch4 (SV m c)
              ∗ whole c cc0_scratch5 (OV m (nbr c)) ∗ whole c cc0_scratch6 (SV m (nbr c))
              ∗ (bigSep Finset.univ fun j : Fin 16 => semVal ((c : Thread nD τ), osem j) 0)
              ∗ ∃ W', owes (c : Thread nD τ) 0 W') -∗ Kt v))
      ⊢ wp frame (wpE (defs₀ (F := F)) 𝒱₀ c none) Set.univ
          (k0_part8 i arg2 harg2 arg3 harg3 arg4 harg4 arg5 harg5 accO (Memref.isWhole_whole _) accM (Memref.isWhole_whole _)
            accL (Memref.isWhole_whole _) oB (Memref.isWhole_whole _) sB (Memref.isWhole_whole _) roB (Memref.isWhole_whole _)
            rsB (Memref.isWhole_whole _) cc0_scratch7 cc0_scratch8 cc0_scratch9 cc0_scratch10 v2 v8 v9) Kt := by
  simp only [entPart_end]
  rewrite [k0_part8_eq_skeleton]
  unfold k0_part8_skel
  rewrite [k0_part2_eq_skeleton, k0_part3_eq_skeleton, k0_part4_eq_skeleton, k0_part5_eq_skeleton, k0_part6_eq_skeleton,
    k0_part7_eq_skeleton]
  unfold k0_part2_skel k0_part3_skel k0_part4_skel k0_part5_skel k0_part6_skel k0_part7_skel
  simp only [Prog.lift, Prog.bind_op, Prog.bind_ret, Prog.pure_eq_ret]
  iintro ⟨#HR, HO, E0, E1, E2, E3, Hk⟩
  icases E0 with ⟨A00, A10, A20, A30, C10, C30, C00, C20⟩
  icases E1 with ⟨A01, A11, A21, A31, C11, C31, C01, C21⟩
  icases E2 with ⟨A02, A12, A22, A32, C12, C32, C02, C22⟩
  icases E3 with ⟨A03, A13, A23, A33, C13, C33, C03, C23⟩
  ihave HO := (owes_ex c W) $$ HO
  -- family 0, batch entry 0
  ihave #I00 := (records_cell m c K 0 0) $$ HR
  have hc00 : (oSl oB 0).view.dmaCredit = No := dmaCredit_eq _ _
  have he00 := expect_o m c 0 0 (by decide)
  have hw00 := wait_fam m c (K (c, fidx 0 0)) 0 0 No (obPts c 0 (OV m c)) (α := FVec F S4x32x8x128 .f32) (oSl roB 0) (oSl oB 0)
    ((View.wordExact_bits rfl).reshape _ _) ((View.wordExact_bits rfl).reshape _ _) hc00 he00 rfl
  iapply (hw00 _ Kt) $$ [C00 HO A00]
  · isplitr; · iexact I00
    isplitl [C00]; · iexact C00
    isplitl [HO]; · iexact HO
    iexact A00
  iintro ⟨HO, Z00, P00⟩
  -- family 1, batch entry 0
  ihave #I10 := (records_cell m c K 1 0) $$ HR
  have hc10 : (oSl roB 0).view.dmaCredit = No := dmaCredit_eq _ _
  have he10 := expect_o m c 1 0 (by decide)
  have hw10 := wait_fam m c (K (c, fidx 1 0)) 1 0 No (robPts c 0 (OV m (nbr c))) (α := FVec F S4x32x8x128 .f32) (oSl oB 0) (oSl roB 0)
    ((View.wordExact_bits rfl).reshape _ _) ((View.wordExact_bits rfl).reshape _ _) hc10 he10 rfl
  iapply (hw10 _ Kt) $$ [C10 HO A10]
  · isplitr; · iexact I10
    isplitl [C10]; · iexact C10
    isplitl [HO]; · iexact HO
    iexact A10
  iintro ⟨HO, Z10, P10⟩
  -- family 2, batch entry 0
  ihave #I20 := (records_cell m c K 2 0) $$ HR
  have hc20 : (sSl sB 0).view.dmaCredit = Ns := dmaCredit_eq _ _
  have he20 := expect_s m c 2 0 (by decide)
  have hw20 := wait_fam m c (K (c, fidx 2 0)) 2 0 Ns (sbPts c 0 (SV m c)) (α := FVec F S4x32x8x128 .f32) (sSl rsB 0) (sSl sB 0)
    ((View.wordExact_bits rfl).reshape _ _) ((View.wordExact_bits rfl).reshape _ _) hc20 he20 rfl
  iapply (hw20 _ Kt) $$ [C20 HO A20]
  · isplitr; · iexact I20
    isplitl [C20]; · iexact C20
    isplitl [HO]; · iexact HO
    iexact A20
  iintro ⟨HO, Z20, P20⟩
  -- family 3, batch entry 0
  ihave #I30 := (records_cell m c K 3 0) $$ HR
  have hc30 : (sSl rsB 0).view.dmaCredit = Ns := dmaCredit_eq _ _
  have he30 := expect_s m c 3 0 (by decide)
  have hw30 := wait_fam m c (K (c, fidx 3 0)) 3 0 Ns (rsbPts c 0 (SV m (nbr c))) (α := FVec F S4x32x8x128 .f32) (sSl sB 0) (sSl rsB 0)
    ((View.wordExact_bits rfl).reshape _ _) ((View.wordExact_bits rfl).reshape _ _) hc30 he30 rfl
  iapply (hw30 _ Kt) $$ [C30 HO A30]
  · isplitr; · iexact I30
    isplitl [C30]; · iexact C30
    isplitl [HO]; · iexact HO
    iexact A30
  iintro ⟨HO, Z30, P30⟩
  -- family 0, batch entry 1
  ihave #I01 := (records_cell m c K 0 1) $$ HR
  have hc01 : (oSl oB 1).view.dmaCredit = No := dmaCredit_eq _ _
  have he01 := expect_o m c 0 1 (by decide)
  have hw01 := wait_fam m c (K (c, fidx 0 1)) 0 1 No (obPts c 1 (OV m c)) (α := FVec F S4x32x8x128 .f32) (oSl roB 1) (oSl oB 1)
    ((View.wordExact_bits rfl).reshape _ _) ((View.wordExact_bits rfl).reshape _ _) hc01 he01 rfl
  iapply (hw01 _ Kt) $$ [C01 HO A01]
  · isplitr; · iexact I01
    isplitl [C01]; · iexact C01
    isplitl [HO]; · iexact HO
    iexact A01
  iintro ⟨HO, Z01, P01⟩
  -- family 1, batch entry 1
  ihave #I11 := (records_cell m c K 1 1) $$ HR
  have hc11 : (oSl roB 1).view.dmaCredit = No := dmaCredit_eq _ _
  have he11 := expect_o m c 1 1 (by decide)
  have hw11 := wait_fam m c (K (c, fidx 1 1)) 1 1 No (robPts c 1 (OV m (nbr c))) (α := FVec F S4x32x8x128 .f32) (oSl oB 1) (oSl roB 1)
    ((View.wordExact_bits rfl).reshape _ _) ((View.wordExact_bits rfl).reshape _ _) hc11 he11 rfl
  iapply (hw11 _ Kt) $$ [C11 HO A11]
  · isplitr; · iexact I11
    isplitl [C11]; · iexact C11
    isplitl [HO]; · iexact HO
    iexact A11
  iintro ⟨HO, Z11, P11⟩
  -- family 2, batch entry 1
  ihave #I21 := (records_cell m c K 2 1) $$ HR
  have hc21 : (sSl sB 1).view.dmaCredit = Ns := dmaCredit_eq _ _
  have he21 := expect_s m c 2 1 (by decide)
  have hw21 := wait_fam m c (K (c, fidx 2 1)) 2 1 Ns (sbPts c 1 (SV m c)) (α := FVec F S4x32x8x128 .f32) (sSl rsB 1) (sSl sB 1)
    ((View.wordExact_bits rfl).reshape _ _) ((View.wordExact_bits rfl).reshape _ _) hc21 he21 rfl
  iapply (hw21 _ Kt) $$ [C21 HO A21]
  · isplitr; · iexact I21
    isplitl [C21]; · iexact C21
    isplitl [HO]; · iexact HO
    iexact A21
  iintro ⟨HO, Z21, P21⟩
  -- family 3, batch entry 1
  ihave #I31 := (records_cell m c K 3 1) $$ HR
  have hc31 : (sSl rsB 1).view.dmaCredit = Ns := dmaCredit_eq _ _
  have he31 := expect_s m c 3 1 (by decide)
  have hw31 := wait_fam m c (K (c, fidx 3 1)) 3 1 Ns (rsbPts c 1 (SV m (nbr c))) (α := FVec F S4x32x8x128 .f32) (sSl sB 1) (sSl rsB 1)
    ((View.wordExact_bits rfl).reshape _ _) ((View.wordExact_bits rfl).reshape _ _) hc31 he31 rfl
  iapply (hw31 _ Kt) $$ [C31 HO A31]
  · isplitr; · iexact I31
    isplitl [C31]; · iexact C31
    isplitl [HO]; · iexact HO
    iexact A31
  iintro ⟨HO, Z31, P31⟩
  -- family 0, batch entry 2
  ihave #I02 := (records_cell m c K 0 2) $$ HR
  have hc02 : (oSl oB 2).view.dmaCredit = No := dmaCredit_eq _ _
  have he02 := expect_o m c 0 2 (by decide)
  have hw02 := wait_fam m c (K (c, fidx 0 2)) 0 2 No (obPts c 2 (OV m c)) (α := FVec F S4x32x8x128 .f32) (oSl roB 2) (oSl oB 2)
    ((View.wordExact_bits rfl).reshape _ _) ((View.wordExact_bits rfl).reshape _ _) hc02 he02 rfl
  iapply (hw02 _ Kt) $$ [C02 HO A02]
  · isplitr; · iexact I02
    isplitl [C02]; · iexact C02
    isplitl [HO]; · iexact HO
    iexact A02
  iintro ⟨HO, Z02, P02⟩
  -- family 1, batch entry 2
  ihave #I12 := (records_cell m c K 1 2) $$ HR
  have hc12 : (oSl roB 2).view.dmaCredit = No := dmaCredit_eq _ _
  have he12 := expect_o m c 1 2 (by decide)
  have hw12 := wait_fam m c (K (c, fidx 1 2)) 1 2 No (robPts c 2 (OV m (nbr c))) (α := FVec F S4x32x8x128 .f32) (oSl oB 2) (oSl roB 2)
    ((View.wordExact_bits rfl).reshape _ _) ((View.wordExact_bits rfl).reshape _ _) hc12 he12 rfl
  iapply (hw12 _ Kt) $$ [C12 HO A12]
  · isplitr; · iexact I12
    isplitl [C12]; · iexact C12
    isplitl [HO]; · iexact HO
    iexact A12
  iintro ⟨HO, Z12, P12⟩
  -- family 2, batch entry 2
  ihave #I22 := (records_cell m c K 2 2) $$ HR
  have hc22 : (sSl sB 2).view.dmaCredit = Ns := dmaCredit_eq _ _
  have he22 := expect_s m c 2 2 (by decide)
  have hw22 := wait_fam m c (K (c, fidx 2 2)) 2 2 Ns (sbPts c 2 (SV m c)) (α := FVec F S4x32x8x128 .f32) (sSl rsB 2) (sSl sB 2)
    ((View.wordExact_bits rfl).reshape _ _) ((View.wordExact_bits rfl).reshape _ _) hc22 he22 rfl
  iapply (hw22 _ Kt) $$ [C22 HO A22]
  · isplitr; · iexact I22
    isplitl [C22]; · iexact C22
    isplitl [HO]; · iexact HO
    iexact A22
  iintro ⟨HO, Z22, P22⟩
  -- family 3, batch entry 2
  ihave #I32 := (records_cell m c K 3 2) $$ HR
  have hc32 : (sSl rsB 2).view.dmaCredit = Ns := dmaCredit_eq _ _
  have he32 := expect_s m c 3 2 (by decide)
  have hw32 := wait_fam m c (K (c, fidx 3 2)) 3 2 Ns (rsbPts c 2 (SV m (nbr c))) (α := FVec F S4x32x8x128 .f32) (sSl sB 2) (sSl rsB 2)
    ((View.wordExact_bits rfl).reshape _ _) ((View.wordExact_bits rfl).reshape _ _) hc32 he32 rfl
  iapply (hw32 _ Kt) $$ [C32 HO A32]
  · isplitr; · iexact I32
    isplitl [C32]; · iexact C32
    isplitl [HO]; · iexact HO
    iexact A32
  iintro ⟨HO, Z32, P32⟩
  -- family 0, batch entry 3
  ihave #I03 := (records_cell m c K 0 3) $$ HR
  have hc03 : (oSl oB 3).view.dmaCredit = No := dmaCredit_eq _ _
  have he03 := expect_o m c 0 3 (by decide)
  have hw03 := wait_fam m c (K (c, fidx 0 3)) 0 3 No (obPts c 3 (OV m c)) (α := FVec F S4x32x8x128 .f32) (oSl roB 3) (oSl oB 3)
    ((View.wordExact_bits rfl).reshape _ _) ((View.wordExact_bits rfl).reshape _ _) hc03 he03 rfl
  iapply (hw03 _ Kt) $$ [C03 HO A03]
  · isplitr; · iexact I03
    isplitl [C03]; · iexact C03
    isplitl [HO]; · iexact HO
    iexact A03
  iintro ⟨HO, Z03, P03⟩
  -- family 1, batch entry 3
  ihave #I13 := (records_cell m c K 1 3) $$ HR
  have hc13 : (oSl roB 3).view.dmaCredit = No := dmaCredit_eq _ _
  have he13 := expect_o m c 1 3 (by decide)
  have hw13 := wait_fam m c (K (c, fidx 1 3)) 1 3 No (robPts c 3 (OV m (nbr c))) (α := FVec F S4x32x8x128 .f32) (oSl oB 3) (oSl roB 3)
    ((View.wordExact_bits rfl).reshape _ _) ((View.wordExact_bits rfl).reshape _ _) hc13 he13 rfl
  iapply (hw13 _ Kt) $$ [C13 HO A13]
  · isplitr; · iexact I13
    isplitl [C13]; · iexact C13
    isplitl [HO]; · iexact HO
    iexact A13
  iintro ⟨HO, Z13, P13⟩
  -- family 2, batch entry 3
  ihave #I23 := (records_cell m c K 2 3) $$ HR
  have hc23 : (sSl sB 3).view.dmaCredit = Ns := dmaCredit_eq _ _
  have he23 := expect_s m c 2 3 (by decide)
  have hw23 := wait_fam m c (K (c, fidx 2 3)) 2 3 Ns (sbPts c 3 (SV m c)) (α := FVec F S4x32x8x128 .f32) (sSl rsB 3) (sSl sB 3)
    ((View.wordExact_bits rfl).reshape _ _) ((View.wordExact_bits rfl).reshape _ _) hc23 he23 rfl
  iapply (hw23 _ Kt) $$ [C23 HO A23]
  · isplitr; · iexact I23
    isplitl [C23]; · iexact C23
    isplitl [HO]; · iexact HO
    iexact A23
  iintro ⟨HO, Z23, P23⟩
  -- family 3, batch entry 3
  ihave #I33 := (records_cell m c K 3 3) $$ HR
  have hc33 : (sSl rsB 3).view.dmaCredit = Ns := dmaCredit_eq _ _
  have he33 := expect_s m c 3 3 (by decide)
  have hw33 := wait_fam m c (K (c, fidx 3 3)) 3 3 Ns (rsbPts c 3 (SV m (nbr c))) (α := FVec F S4x32x8x128 .f32) (sSl sB 3) (sSl rsB 3)
    ((View.wordExact_bits rfl).reshape _ _) ((View.wordExact_bits rfl).reshape _ _) hc33 he33 rfl
  iapply (hw33 _ Kt) $$ [C33 HO A33]
  · isplitr; · iexact I33
    isplitl [C33]; · iexact C33
    isplitl [HO]; · iexact HO
    iexact A33
  iintro ⟨HO, Z33, P33⟩
  -- the four buffers whole again
  ihave HOB := ((ob_split c (OV m c)).2) $$ [P00 P01 P02 P03]
  · isplitl [P00]; · iexact P00
    isplitl [P01]; · iexact P01
    isplitl [P02]; · iexact P02
    iexact P03
  ihave HROB := ((rob_split c (OV m (nbr c))).2) $$ [P10 P11 P12 P13]
  · isplitl [P10]; · iexact P10
    isplitl [P11]; · iexact P11
    isplitl [P12]; · iexact P12
    iexact P13
  ihave HSB := ((sb_split c (SV m c)).2) $$ [P20 P21 P22 P23]
  · isplitl [P20]; · iexact P20
    isplitl [P21]; · iexact P21
    isplitl [P22]; · iexact P22
    iexact P23
  ihave HRSB := ((rsb_split c (SV m (nbr c))).2) $$ [P30 P31 P32 P33]
  · isplitl [P30]; · iexact P30
    isplitl [P31]; · iexact P31
    isplitl [P32]; · iexact P32
    iexact P33
  -- the six loads
  iapply (wp_load 𝒱₀ (c : Thread nD τ) none Set.univ (m := sB) (S := Finset.univ) (q := fullShare) (f := SV m c) (Finset.subset_univ _)) $$ [HSB]
  · iexact HSB
  iintro HSB
  iapply (wp_load 𝒱₀ (c : Thread nD τ) none Set.univ (m := sB) (S := Finset.univ) (q := fullShare) (f := SV m c) (Finset.subset_univ _)) $$ [HSB]
  · iexact HSB
  iintro HSB
  iapply (wp_load 𝒱₀ (c : Thread nD τ) none Set.univ (m := rsB) (S := Finset.univ) (q := fullShare) (f := SV m (nbr c)) (Finset.subset_univ _)) $$ [HRSB]
  · iexact HRSB
  iintro HRSB
  iapply (wp_load 𝒱₀ (c : Thread nD τ) none Set.univ (m := rsB) (S := Finset.univ) (q := fullShare) (f := SV m (nbr c)) (Finset.subset_univ _)) $$ [HRSB]
  · iexact HRSB
  iintro HRSB
  iapply (wp_load 𝒱₀ (c : Thread nD τ) none Set.univ (m := oB) (S := Finset.univ) (q := fullShare) (f := OV m c) (Finset.subset_univ _)) $$ [HOB]
  · iexact HOB
  iintro HOB
  iapply (wp_load 𝒱₀ (c : Thread nD τ) none Set.univ (m := roB) (S := Finset.univ) (q := fullShare) (f := OV m (nbr c)) (Finset.subset_univ _)) $$ [HROB]
  · iexact HROB
  iintro HROB
  rewrite [wp_ret]
  imodintro
  iapply Hk
  isplitr
  · ipureintro
    unfold OUT Trace.merged
    rw [read_sB0, read_sB1, read_rsB0, read_rsB1, read_oB, read_roB]
  isplitl [HOB]; · iexact HOB
  isplitl [HSB]; · iexact HSB
  isplitl [HROB]; · iexact HROB
  isplitl [HRSB]; · iexact HRSB
  isplitr [HO]
  · iapply (sems_join c)
    isplitl [Z00]; · iexact Z00
    isplitl [Z01]; · iexact Z01
    isplitl [Z02]; · iexact Z02
    isplitl [Z03]; · iexact Z03
    isplitl [Z10]; · iexact Z10
    isplitl [Z11]; · iexact Z11
    isplitl [Z12]; · iexact Z12
    isplitl [Z13]; · iexact Z13
    isplitl [Z20]; · iexact Z20
    isplitl [Z21]; · iexact Z21
    isplitl [Z22]; · iexact Z22
    isplitl [Z23]; · iexact Z23
    isplitl [Z30]; · iexact Z30
    isplitl [Z31]; · iexact Z31
    isplitl [Z32]; · iexact Z32
    iexact Z33
  iexact HO

/-- info: 'Cert.KernelProof.finalPart' depends on axioms: [propext, Classical.choice, Quot.sound] -/
#guard_msgs in #print axioms finalPart

end Cert.KernelProof

end
-- ==== Proof.KBodyLast.lean ====
/-
  The last grid point: batch entry 3, chunk 3.

  The body takes the chunk step of the accumulators, which then hold the fourth chunk's values of batch entry 3;
  stores that entry's numerator rows into the output buffer and its two statistics rows into the statistics buffer,
  which thereby hold the device's final contents on that entry's rows; copies those rows to its partner's receive
  buffers, paying the last two units it owes; then waits on all sixteen cells of its own, merges its own and its
  partner's buffers and stores the merge into the output window's staging buffer. What is left is the invariant
  after the last point: the four hand-over buffers whole at their final contents, the sixteen counters at zero,
  nothing owed.
-/
import proofs.«900428_g7700000000000429_dist_flashdec_v7x_xyz2x2x4_y_b4_sq32_skv4096_h8_d128_f32_1_alg».proof.Proof.KBodyGoal
import proofs.«900428_g7700000000000429_dist_flashdec_v7x_xyz2x2x4_y_b4_sq32_skv4096_h8_d128_f32_1_alg».proof.Proof.KBodyRuns
import proofs.«900428_g7700000000000429_dist_flashdec_v7x_xyz2x2x4_y_b4_sq32_skv4096_h8_d128_f32_1_alg».proof.Proof.KRemoteRules
import proofs.«900428_g7700000000000429_dist_flashdec_v7x_xyz2x2x4_y_b4_sq32_skv4096_h8_d128_f32_1_alg».proof.Proof.KFinalPart
import proofs.«900428_g7700000000000429_dist_flashdec_v7x_xyz2x2x4_y_b4_sq32_skv4096_h8_d128_f32_1_alg».proof.Proof.KAccStep
import proofs.«900428_g7700000000000429_dist_flashdec_v7x_xyz2x2x4_y_b4_sq32_skv4096_h8_d128_f32_1_alg».proof.Proof.KSlices
import proofs.«900428_g7700000000000429_dist_flashdec_v7x_xyz2x2x4_y_b4_sq32_skv4096_h8_d128_f32_1_alg».proof.Proof.KLaunch
import proofs.«900428_g7700000000000429_dist_flashdec_v7x_xyz2x2x4_y_b4_sq32_skv4096_h8_d128_f32_1_alg».proof.Proof.KTraceFacts
import proofs.«900428_g7700000000000429_dist_flashdec_v7x_xyz2x2x4_y_b4_sq32_skv4096_h8_d128_f32_1_alg».proof.Proof.KBodyPlain
import Idealize.ShloMosaic.Lib.Pipeline.Value
import Idealize.ShloMosaic.Lib.Pipeline.FrameBody

noncomputable section

namespace Cert.KernelProof

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A returned value bound to a continuation is the continuation at the value. -/
theorem ret_bind_last {E : Type → Type} {α β : Type} (a : α) (k : α → Prog E β) : (Prog.ret a).bind k = k a := rfl

/-- Before the last grid point batch entry 3 is not handed over yet: its part holds its rows of the two hand-over
    buffers, the four duty tokens of its two copies and its rows of the partner's receive buffers. -/
theorem entPart_15_3 (c : Dev nD) :
    entPart (F := F) c 15 3
      = iprop(atPos ER (famCell c 0 3) 0 ∅ 0 ∗ atPos ER (famCell c 1 3) 0 ∅ 0 ∗ atPos ER (famCell c 2 3) 0 ∅ 0
          ∗ atPos ER (famCell c 3 3) 0 ∅ 0
          ∗ cred (tallyAt (famCell c 1 3) () No) ∗ cred (tallyAt (famCell c 3 3) () Ns)
          ∗ (∃ f, obPts c 3 f) ∗ (∃ f, sbPts c 3 f)
          ∗ dutyTok ER (famCell c 0 3) 0 () ∗ dutyTok ER (famCell (nbr c) 1 3) 0 () ∗ dutyTok ER (famCell c 2 3) 0 ()
          ∗ dutyTok ER (famCell (nbr c) 3 3) 0 ()
          ∗ (∃ f, robPts (nbr c) 3 f) ∗ (∃ f, rsbPts (nbr c) 3 f)) := by
  unfold entPart
  rw [if_neg (by decide), if_pos (by decide)]

/-- A batch entry handed over before the last grid point has the same part before and after it. -/
theorem entPart_15_16 (c : Dev nD) (b : Fin 4) (hb : b.val < 3) : entPart (F := F) c 15 b = entPart c 16 b := by
  unfold entPart
  rw [if_pos (by omega), if_pos (by omega)]

set_option maxHeartbeats 4000000 in
theorem run_pt15 (c : Dev nD) (fo : Bf (F := F) c accO) (fm : Bf (F := F) c accM) (fl : Bf (F := F) c accL)
    (x3 : Bf (F := F) c (stage0_3 (cfg0.slots t0_15 3))) (K' : Dev nD × Fin 17 → ℕ) (W : Waits sig Unit) (Q : PUnit → sProp 𝕄)
    (hO : ∀ x : S1x32x8x128.Idx, OV m c (ValueIdx.ix4 (3 : Fin 4) (x 1) (x 2) (x 3)) = k0_pay5 (Trace.chunk (iblk m c 0 t0_15) (iblk m c 1 t0_15) (iblk m c 2 t0_15) ⟨fo, fm, fl⟩).o x)
    (hS0 : ∀ x : S1x1x8x32.Idx, SV m c (ValueIdx.ix4 (3 : Fin 4) (0 : Fin 2) (x 2) (x 3)) = k0_pay6 (Trace.chunk (iblk m c 0 t0_15) (iblk m c 1 t0_15) (iblk m c 2 t0_15) ⟨fo, fm, fl⟩).m x)
    (hS1 : ∀ x : S1x1x8x32.Idx, SV m c (ValueIdx.ix4 (3 : Fin 4) (1 : Fin 2) (x 2) (x 3)) = k0_pay7 (Trace.chunk (iblk m c 0 t0_15) (iblk m c 1 t0_15) (iblk m c 2 t0_15) ⟨fo, fm, fl⟩).l x) :
    iprop(pt' c accO fo ∗ pt' c accM fm ∗ pt' c accL fl ∗ pt' c (stage0_0 (cfg0.slots t0_15 0)) (iblk m c 0 t0_15) ∗ pt' c (stage0_1 (cfg0.slots t0_15 1)) (iblk m c 1 t0_15)
        ∗ pt' c (stage0_2 (cfg0.slots t0_15 2)) (iblk m c 2 t0_15) ∗ pt' c (stage0_3 (cfg0.slots t0_15 3)) x3
        ∗ records m K' ∗ owes (c : Thread nD τ) (owedFrom c (evDone 15)) W
        ∗ entPart c 15 0 ∗ entPart c 15 1 ∗ entPart c 15 2 ∗ entPart c 15 3
        ∗ (iprop((∃ f, pt' c accO f) ∗ (∃ f, pt' c accM f) ∗ (∃ f, pt' c accL f)
            ∗ pt' c (stage0_0 (cfg0.slots t0_15 0)) (iblk m c 0 t0_15) ∗ pt' c (stage0_1 (cfg0.slots t0_15 1)) (iblk m c 1 t0_15)
            ∗ pt' c (stage0_2 (cfg0.slots t0_15 2)) (iblk m c 2 t0_15) ∗ pt' c (stage0_3 (cfg0.slots t0_15 3)) (OUT m c)
            ∗ whole c cc0_scratch3 (OV m c) ∗ whole c cc0_scratch4 (SV m c) ∗ whole c cc0_scratch5 (OV m (nbr c)) ∗ whole c cc0_scratch6 (SV m (nbr c))
            ∗ (bigSep Finset.univ fun j : Fin 16 => semVal ((c : Thread nD τ), osem j) 0)
            ∗ ∃ W', owes (c : Thread nD τ) 0 W') -∗ Q ⟨⟩))
      ⊢ wp frame (wpE (defs₀ (F := F)) 𝒱₀ c none) Set.univ (bodyAt0 (F := F) t0_15) Q := by
  iintro ⟨Ho, Hm, Hl, H0, H1, H2, H3, #HR, HO, HE0, HE1, HE2, HE, Hk⟩
  ihave HE := (Entails.of_eq (entPart_15_3 (F := F) c)) $$ HE
  icases HE with ⟨A0, A1, A2, A3, C1, C3, ⟨%fob, Hob⟩, ⟨%fsb, Hsb⟩, T0, T1, T2, T3, ⟨%frob, Hrob⟩, ⟨%frsb, Hrsb⟩⟩
  unfold bodyAt0
  sl_exec
  have hb : ((grid0.coords t0_15) 0).val = 3 := by decide
  have h2 : k0_cond2 (grid0.coords t0_15) = 1#1 := by decide
  ihave Hob' := (Entails.of_eq (show (obPts c 3 fob : sProp 𝕄) = slPts c (oSl oB 3) fob from rfl)) $$ Hob
  iapply (wp_load_rect 𝒱₀ (c : Thread nD τ) none Set.univ (m := oB) (r := (Rect.unit (s := S4x32x8x128) (k0_off1 (grid0.coords t0_15)) S1x32x8x128.size (k0_off1_inb (grid0.coords t0_15) h2))) (S := (oSl oB 3).view.set) (f := fob) (store_o_sub3 (grid0.coords t0_15) h2 hb)) $$ Hob'
  iintro Hob'
  iapply (wp_store 𝒱₀ (c : Thread nD τ) none Set.univ (m := oB) (r := (Rect.unit (s := S4x32x8x128) (k0_off1 (grid0.coords t0_15)) S1x32x8x128.size (k0_off1_inb (grid0.coords t0_15) h2))) (Mk := Finset.univ) (S := (oSl oB 3).view.set) (f := fob) (store_o_sub3 (grid0.coords t0_15) h2 hb)) $$ Hob'
  iintro Hob'
  rw [ret_bind_last]
  sl_exec
  ihave Hsb' := (Entails.of_eq (show (sbPts c 3 fsb : sProp 𝕄) = slPts c (sSl sB 3) fsb from rfl)) $$ Hsb
  iapply (wp_load_rect 𝒱₀ (c : Thread nD τ) none Set.univ (m := sB) (r := (Rect.unit (s := S4x2x8x32) (k0_off2 (grid0.coords t0_15)) S1x1x8x32.size (k0_off2_inb (grid0.coords t0_15) h2))) (S := (sSl sB 3).view.set) (f := fsb) (store_s0_sub3 (grid0.coords t0_15) h2 hb)) $$ Hsb'
  iintro Hsb'
  iapply (wp_store 𝒱₀ (c : Thread nD τ) none Set.univ (m := sB) (r := (Rect.unit (s := S4x2x8x32) (k0_off2 (grid0.coords t0_15)) S1x1x8x32.size (k0_off2_inb (grid0.coords t0_15) h2))) (Mk := Finset.univ) (S := (sSl sB 3).view.set) (f := fsb) (store_s0_sub3 (grid0.coords t0_15) h2 hb)) $$ Hsb'
  iintro Hsb'
  rw [ret_bind_last]
  sl_exec
  iapply (wp_load_rect 𝒱₀ (c : Thread nD τ) none Set.univ (m := sB) (r := (Rect.unit (s := S4x2x8x32) (k0_off3 (grid0.coords t0_15)) S1x1x8x32.size (k0_off3_inb (grid0.coords t0_15) h2))) (S := (sSl sB 3).view.set) (store_s1_sub3 (grid0.coords t0_15) h2 hb)) $$ Hsb'
  iintro Hsb'
  iapply (wp_store 𝒱₀ (c : Thread nD τ) none Set.univ (m := sB) (r := (Rect.unit (s := S4x2x8x32) (k0_off3 (grid0.coords t0_15)) S1x1x8x32.size (k0_off3_inb (grid0.coords t0_15) h2))) (Mk := Finset.univ) (S := (sSl sB 3).view.set) (store_s1_sub3 (grid0.coords t0_15) h2 hb)) $$ Hsb'
  iintro Hsb'
  rw [ret_bind_last]
  sl_exec
  -- the accumulators as the trace's
  have e13 : run_pt15.sl.v13 m c = (iblk m c 0 t0_15) := by unfold run_pt15.sl.v13; exact Memref.readAt_unit_zero (Elt F) _ hz4 _ _
  have e18 : run_pt15.sl.v18 m c = (iblk m c 1 t0_15) := by unfold run_pt15.sl.v18; exact Memref.readAt_unit_zero (Elt F) _ hz4 _ _
  have e21 : run_pt15.sl.v21 m c = (iblk m c 2 t0_15) := by unfold run_pt15.sl.v21; exact Memref.readAt_unit_zero (Elt F) _ hz4 _ _
  have er : run_pt15.sl.r m c = k0_pay12 (iblk m c 2 t0_15) := by
    show k0_pay12 (run_pt15.sl.v21 m c) = _; rw [e21]
  have er1 : run_pt15.sl.r_1 m c = k0_pay13 (iblk m c 0 t0_15) (iblk m c 1 t0_15) := by
    show k0_pay13 (run_pt15.sl.v13 m c) (run_pt15.sl.v18 m c) = _; rw [e13, e18]
  have er2 : run_pt15.sl.r_2 m c fm = k0_pay14 (iblk m c 0 t0_15) (iblk m c 1 t0_15) fm := by
    show k0_pay14 (run_pt15.sl.v13 m c) (run_pt15.sl.v18 m c) (View.readAt (Elt F) accM.view (Rect.unit ![0, 0] S8x32.size inb_S8x32_S8x32_0_0).toLoadRect fm) = _
    rw [e13, e18, rd_m]
  have er3 : run_pt15.sl.r_3 m c fm = k0_pay15 (iblk m c 0 t0_15) (iblk m c 1 t0_15) fm := by
    show k0_pay15 (run_pt15.sl.v13 m c) (run_pt15.sl.v18 m c) (View.readAt (Elt F) accM.view (Rect.unit ![0, 0] S8x32.size inb_S8x32_S8x32_0_0).toLoadRect fm) = _
    rw [e13, e18, rd_m]
  have e62 : run_pt15.sl.v62 m c fo fm = (Trace.chunk (iblk m c 0 t0_15) (iblk m c 1 t0_15) (iblk m c 2 t0_15) ⟨fo, fm, fl⟩).o := by
    unfold run_pt15.sl.v62 run_pt15.sl.Ho_1
    rw [View.readCov_cons_toLoadRect, er, er1, er2, er3, rd_o]; rfl
  have e68 : run_pt15.sl.v68 m c fm = (Trace.chunk (iblk m c 0 t0_15) (iblk m c 1 t0_15) (iblk m c 2 t0_15) ⟨fo, fm, fl⟩).m := by
    unfold run_pt15.sl.v68
    rw [View.readCov_cons_toLoadRect, er2]; rfl
  have e73 : run_pt15.sl.v73 m c fm fl = (Trace.chunk (iblk m c 0 t0_15) (iblk m c 1 t0_15) (iblk m c 2 t0_15) ⟨fo, fm, fl⟩).l := by
    unfold run_pt15.sl.v73
    rw [View.readCov_cons_toLoadRect, er1, er2, er3, rd_l]; rfl
  have hg5 : ∀ x : S1x32x8x128.Idx, OV m c (ValueIdx.ix4 (3 : Fin 4) (x 1) (x 2) (x 3)) = k0_pay5 (run_pt15.sl.v62 m c fo fm) x := fun x => by rw [e62]; exact hO x
  have hg6 : ∀ x : S1x1x8x32.Idx, SV m c (ValueIdx.ix4 (3 : Fin 4) (0 : Fin 2) (x 2) (x 3)) = k0_pay6 (run_pt15.sl.v68 m c fm) x := fun x => by rw [e68]; exact hS0 x
  have hg7 : ∀ x : S1x1x8x32.Idx, SV m c (ValueIdx.ix4 (3 : Fin 4) (1 : Fin 2) (x 2) (x 3)) = k0_pay7 (run_pt15.sl.v73 m c fm fl) x := fun x => by rw [e73]; exact hS1 x
  have hconvO : (View.loc (c : Thread nD τ) (oB.access (Rect.unit (s := S4x32x8x128) (k0_off1 (grid0.coords t0_15)) S1x32x8x128.size (k0_off1_inb (grid0.coords t0_15) h2))) ↦[(oSl oB 3).view.set]{fullShare} View.write (Elt F) (oB.access (Rect.unit (s := S4x32x8x128) (k0_off1 (grid0.coords t0_15)) S1x32x8x128.size (k0_off1_inb (grid0.coords t0_15) h2))) fob (k0_pay5 (run_pt15.sl.v62 m c fo fm)) Finset.univ : sProp 𝕄) ⊢ obPts c 3 (OV m c) :=
    Entails.of_eq (store_o c (grid0.coords t0_15) h2 3 hb fob (OV m c) (k0_pay5 (run_pt15.sl.v62 m c fo fm)) hg5)
  have hconvS : (View.loc (c : Thread nD τ) (sB.access (Rect.unit (s := S4x2x8x32) (k0_off3 (grid0.coords t0_15)) S1x1x8x32.size (k0_off3_inb (grid0.coords t0_15) h2))) ↦[(sSl sB 3).view.set]{fullShare} View.write (Elt F) (sB.access (Rect.unit (s := S4x2x8x32) (k0_off3 (grid0.coords t0_15)) S1x1x8x32.size (k0_off3_inb (grid0.coords t0_15) h2))) (View.write (Elt F) (sB.access (Rect.unit (s := S4x2x8x32) (k0_off2 (grid0.coords t0_15)) S1x1x8x32.size (k0_off2_inb (grid0.coords t0_15) h2))) fsb (k0_pay6 (run_pt15.sl.v68 m c fm)) Finset.univ) (k0_pay7 (run_pt15.sl.v73 m c fm fl)) Finset.univ : sProp 𝕄) ⊢ sbPts c 3 (SV m c) :=
    Entails.of_eq (store_s c (grid0.coords t0_15) h2 3 hb fsb (SV m c) (k0_pay6 (run_pt15.sl.v68 m c fm)) (k0_pay7 (run_pt15.sl.v73 m c fm fl)) hg6 hg7)
  ihave #HRu := (Entails.of_eq (show (records m K' : sProp 𝕄) = iprop((bigSep Finset.univ fun ck : Dev nD × Fin 17 => cellInv ER (Rd m) (K' ck) (kcell ck)) ∗ bigSep Finset.univ fun ck : Dev nD × Fin 17 => reached ER (kcell ck) 0) from rfl)) $$ HR
  icases HRu with ⟨#HI, #HRr⟩
  -- the output copy of entry 3
  rw [show owedFrom c (evDone 15) = owedFrom c 8 + tallyAt (famCell (nbr c) 1 3) () No from owedFrom_succ c 7 (by decide)]
  iapply (wp_send_o3 m K' c _ (dev_eq c (k0_dev8_eq c) _) frob (owedFrom c 8) W) $$ [Hob' Hrob HO T0 T1]
  · isplitr; · iapply (inv_at m K' (c, fidx 0 3)); iexact HI
    isplitr; · iapply (inv_at m K' (nbr c, fidx 1 3)); iexact HI
    isplitl [Hob']; · iapply hconvO; iexact Hob'
    isplitl [Hrob]; · iexact Hrob
    isplitl [HO]; · iexact HO
    isplitl [T0]; · iexact T0
    isplitr; · iapply (reached_at (F := F) (c, fidx 0 3)); iexact HRr
    isplitl [T1]; · iexact T1
    iapply (reached_at (F := F) (nbr c, fidx 1 3)); iexact HRr
  iintro ⟨Hc0, HO⟩
  -- the statistics copy of entry 3
  rw [show owedFrom c 8 = owedFrom c 9 + tallyAt (famCell (nbr c) 3 3) () Ns from owedFrom_succ c 8 (by decide)]
  iapply (wp_send_s3 m K' c _ (dev_eq c (k0_dev9_eq c) _) frsb (owedFrom c 9) W) $$ [Hsb' Hrsb HO T2 T3]
  · isplitr; · iapply (inv_at m K' (c, fidx 2 3)); iexact HI
    isplitr; · iapply (inv_at m K' (nbr c, fidx 3 3)); iexact HI
    isplitl [Hsb']; · iapply hconvS; iexact Hsb'
    isplitl [Hrsb]; · iexact Hrsb
    isplitl [HO]; · iexact HO
    isplitl [T2]; · iexact T2
    isplitr; · iapply (reached_at (F := F) (c, fidx 2 3)); iexact HRr
    isplitl [T3]; · iexact T3
    iapply (reached_at (F := F) (nbr c, fidx 3 3)); iexact HRr
  iintro ⟨Hc2, HO⟩
  -- the final part
  rewrite [ret_bind_last]
  dsimp only
  have h8 : k0_cond8 (grid0.coords t0_15) = 1#1 := by decide
  rewrite [dif_pos h8]
  rewrite [wp_bind]
  ihave HE0 := (Entails.of_eq (entPart_15_16 (F := F) c 0 (by decide))) $$ HE0
  ihave HE1 := (Entails.of_eq (entPart_15_16 (F := F) c 1 (by decide))) $$ HE1
  ihave HE2 := (Entails.of_eq (entPart_15_16 (F := F) c 2 (by decide))) $$ HE2
  ihave HE3 := (Entails.of_eq (entPart_end (F := F) c 3).symm) $$ [A0 A1 A2 A3 C1 C3 Hc0 Hc2]
  · isplitl [A0]; · iexact A0
    isplitl [A1]; · iexact A1
    isplitl [A2]; · iexact A2
    isplitl [A3]; · iexact A3
    isplitl [C1]; · iexact C1
    isplitl [C3]; · iexact C3
    isplitl [Hc0]; · iexact Hc0
    iexact Hc2
  have hfp := finalPart m c K' W (grid0.coords t0_15) (stage0_0 (cfg0.slots t0_15 0)) (hstage0_0 _)
    (stage0_1 (cfg0.slots t0_15 1)) (hstage0_1 _) (stage0_2 (cfg0.slots t0_15 2)) (hstage0_2 _)
    (stage0_3 (cfg0.slots t0_15 3)) (hstage0_3 _) (run_pt15.sl.v2 c) (run_pt15.sl.v8 c) (run_pt15.sl.v9 c)
  iapply (hfp _)
  isplitr; · iexact HR
  isplitl [HO]; · iexact HO
  isplitl [HE0]; · iexact HE0
  isplitl [HE1]; · iexact HE1
  isplitl [HE2]; · iexact HE2
  isplitl [HE3]; · iexact HE3
  iintro %v ⟨%hv, HOB, HSB, HROB, HRSB, HZ, HOw⟩
  subst hv
  sl_exec
  sl_step
  have hw3 : (stage0_3 (cfg0.slots t0_15 3)).view.writes (Elt F) x3 [⟨Rect.unit ![0, 0, 0, 0] ![4, 32, 8, 128] inb_S4x32x8x128_S4x32x8x128_0_0_0_0, OUT m c⟩] = OUT m c := by
    rw [View.writes_cons]; exact Memref.write_access_unit_zero_univ (Elt F) cc0_stg3_0 hz4 inb_S4x32x8x128_S4x32x8x128_0_0_0_0 _ (OUT m c)
  rewrite [hw3]
  iapply Hk
  isplitl [Ho]; · iexists _; iexact Ho
  isplitl [Hm]; · iexists _; iexact Hm
  isplitl [Hl]; · iexists _; iexact Hl
  isplitl [H0]; · iexact H0
  isplitl [H1]; · iexact H1
  isplitl [H2]; · iexact H2
  isplitl [H3]; · iexact H3
  isplitl [HOB]; · iexact HOB
  isplitl [HSB]; · iexact HSB
  isplitl [HROB]; · iexact HROB
  isplitl [HRSB]; · iexact HRSB
  isplitl [HZ]; · iexact HZ
  iexact HOw

/-! ### The body obligation at the last grid point -/

set_option maxHeartbeats 1000000 in
theorem body_pt15 (c : Dev nD) : BodyGoal m c t0_15 := by
  unfold BodyGoal
  rw [bigSep_W0, bigSep_W0]
  have hi0 : cfg0.idle 0 (cfg0.grid.coords t0_15) = false := rfl
  have hi1 : cfg0.idle 1 (cfg0.grid.coords t0_15) = false := rfl
  have hi2 : cfg0.idle 2 (cfg0.grid.coords t0_15) = false := rfl
  have hi3 : idle0 3 (grid0.coords t0_15) = false := by decide +kernel
  have hl0 : cfg0.loose 0 = false := by decide +kernel
  have hl1 : cfg0.loose 1 = false := by decide +kernel
  have hl2 : cfg0.loose 2 = false := by decide +kernel
  have hl3 : cfg0.loose 3 = false := by decide +kernel
  have hb0 : ∀ d, (dats m 0 c).before 0 t0_15 d = iblk m c 0 t0_15 := fun d => before_in0 m c t0_15 d
  have hb1 : ∀ d, (dats m 0 c).before 1 t0_15 d = iblk m c 1 t0_15 := fun d => before_in1 m c t0_15 d
  have hb2 : ∀ d, (dats m 0 c).before 2 t0_15 d = iblk m c 2 t0_15 := fun d => before_in2 m c t0_15 d
  have ha0 : (dats m 0 c).after 0 t0_15 = iblk m c 0 t0_15 := rfl
  have ha1 : (dats m 0 c).after 1 t0_15 = iblk m c 1 t0_15 := rfl
  have ha2 : (dats m 0 c).after 2 t0_15 = iblk m c 2 t0_15 := rfl
  have ha3 : (dats m 0 c).after 3 t0_15 = OUT m c := rfl
  have hs0 : ∀ X, (owns (Ix := Unit) (Name := ℕ) (U := UU) (Lvl := ℕ) (c : Thread nD τ) (stage0_0 (cfg0.slots t0_15 0)) fullShare X : sProp 𝕄)
      = pt' c (stage0_0 (cfg0.slots t0_15 0)) X := fun X => owns_whole (c : Thread nD τ) cc0_stg0_1 fullShare X
  have hs1 : ∀ X, (owns (Ix := Unit) (Name := ℕ) (U := UU) (Lvl := ℕ) (c : Thread nD τ) (stage0_1 (cfg0.slots t0_15 1)) fullShare X : sProp 𝕄)
      = pt' c (stage0_1 (cfg0.slots t0_15 1)) X := fun X => owns_whole (c : Thread nD τ) cc0_stg1_1 fullShare X
  have hs2 : ∀ X, (owns (Ix := Unit) (Name := ℕ) (U := UU) (Lvl := ℕ) (c : Thread nD τ) (stage0_2 (cfg0.slots t0_15 2)) fullShare X : sProp 𝕄)
      = pt' c (stage0_2 (cfg0.slots t0_15 2)) X := fun X => owns_whole (c : Thread nD τ) cc0_stg2_1 fullShare X
  have hs3 : ∀ X, (owns (Ix := Unit) (Name := ℕ) (U := UU) (Lvl := ℕ) (c : Thread nD τ) (stage0_3 (cfg0.slots t0_15 3)) fullShare X : sProp 𝕄)
      = pt' c (stage0_3 (cfg0.slots t0_15 3)) X := fun X => owns_whole (c : Thread nD τ) cc0_stg3_0 fullShare X
  simp only [hi0, hi1, hi2, hi3, hl0, hl1, hl2, hl3, hb0, hb1, hb2, ha0, ha1, ha2, ha3, hs0, hs1, hs2, hs3]
  have hΦ0 : (dats m 0 c).Φ t0_15.castSucc = PhiMid m c 15 := rfl
  have hΦ1 : (dats m 0 c).Φ t0_15.succ = PhiEnd m c := rfl
  rw [hΦ0, hΦ1]
  show _ ⊢ wp frame (wpE (defs₀ (F := F)) 𝒱₀ c none) Set.univ (bodyAt0 (F := F) t0_15) _
  unfold PhiMid accPart
  iintro ⟨⟨%K', #Hrec, Hlev, Hbar, He0, He1, He2, He3, %fo, %fm, %fl, %hacc, Ho, Hm, Hl⟩, ⟨%W, %hW, Howe⟩, ⟨%d0, H0⟩, ⟨%d1, H1⟩, ⟨%d2, H2⟩, %d3, H3⟩
  have hchunk : Trace.chunk (iblk m c 0 t0_15) (iblk m c 1 t0_15) (iblk m c 2 t0_15) ⟨fo, fm, fl⟩
      = Trace.accAt (XQ m c) (XK m c) (XV m c) 3 4 := by
    obtain ⟨h1, h2, h3⟩ := hacc (by decide)
    subst h1 h2 h3
    exact (acc_step m c 3 3 (by decide)).symm
  iapply (run_pt15 m c fo fm fl ((dats m 0 c).before 3 t0_15 d3) K' W _
    (fun x => by rw [hchunk]; exact OV_rows m c 3 x) (fun x => by rw [hchunk]; exact SV_row0 m c 3 x)
    (fun x => by rw [hchunk]; exact SV_row1 m c 3 x))
  isplitl [Ho]; · iexact Ho
  isplitl [Hm]; · iexact Hm
  isplitl [Hl]; · iexact Hl
  isplitl [H0]; · iexact H0
  isplitl [H1]; · iexact H1
  isplitl [H2]; · iexact H2
  isplitl [H3]; · iexact H3
  isplitr; · iexact Hrec
  isplitl [Howe]; · iexact Howe
  isplitl [He0]; · iexact He0
  isplitl [He1]; · iexact He1
  isplitl [He2]; · iexact He2
  isplitl [He3]; · iexact He3
  iintro ⟨⟨%go, Ho⟩, ⟨%gm, Hm⟩, ⟨%gl, Hl⟩, H0, H1, H2, H3, HOB, HSB, HROB, HRSB, HZ, ⟨%W', HOw⟩⟩
  isplitl [Ho Hm Hl HOB HSB HROB HRSB HZ]
  · unfold PhiEnd
    isplitl [Ho]; · iexists go; iexact Ho
    isplitl [Hm]; · iexists gm; iexact Hm
    isplitl [Hl]; · iexists gl; iexact Hl
    isplitl [HOB]; · iexact HOB
    isplitl [HSB]; · iexact HSB
    isplitl [HROB]; · iexact HROB
    isplitl [HRSB]; · iexact HRSB
    iexact HZ
  isplitl [HOw]
  · iexists W'
    isplitr; · ipureintro; exact fun x _ => Or.inl (Set.mem_univ x)
    iexact HOw
  isplitl [H0]; · iexact H0
  isplitl [H1]; · iexact H1
  isplitl [H2]; · iexact H2
  iexact H3

/-- info: 'Cert.KernelProof.run_pt15' depends on axioms: [propext, Classical.choice, Quot.sound] -/
#guard_msgs in #print axioms run_pt15

/-- info: 'Cert.KernelProof.body_pt15' depends on axioms: [propext, Classical.choice, Quot.sound] -/
#guard_msgs in #print axioms body_pt15

end Cert.KernelProof

end
-- ==== Proof.KBody.lean ====
/-
  The body obligation of the pipelined region on every device: the sixteen grid points, one by one.
-/
import proofs.«900428_g7700000000000429_dist_flashdec_v7x_xyz2x2x4_y_b4_sq32_skv4096_h8_d128_f32_1_alg».proof.Proof.KBodyGoal
import proofs.«900428_g7700000000000429_dist_flashdec_v7x_xyz2x2x4_y_b4_sq32_skv4096_h8_d128_f32_1_alg».proof.Proof.KBodyPlain
import proofs.«900428_g7700000000000429_dist_flashdec_v7x_xyz2x2x4_y_b4_sq32_skv4096_h8_d128_f32_1_alg».proof.Proof.KBodyHandGoal
import proofs.«900428_g7700000000000429_dist_flashdec_v7x_xyz2x2x4_y_b4_sq32_skv4096_h8_d128_f32_1_alg».proof.Proof.KBodyLast

noncomputable section

namespace Cert.KernelProof

open Cert.Kernel Cert.Kernel.Gen
open Idealize.ShloMosaic Idealize.ShloMosaic.TcCoe

variable {F : FTy → Type} [FloatOps F]

variable (m : (ℓ : Loc nD τ sig) → Buf (Elt F) ℓ)

theorem hbody (c : Dev nD) : Pipeline.BodyObligationLoose (dats (F := F) m 0 c) (defs₀ (F := F)) 𝒱₀ () Set.univ :=
  bodyObligation_of_goals m c fun t => by
    rcases fin_N0 t with rfl | rfl | rfl | rfl | rfl | rfl | rfl | rfl | rfl | rfl | rfl | rfl | rfl | rfl | rfl | rfl
    · exact body_pt0 m c
    · exact body_pt1 m c
    · exact body_pt2 m c
    · exact body_pt3 m c
    · exact body_pt4 m c
    · exact body_pt5 m c
    · exact body_pt6 m c
    · exact body_pt7 m c
    · exact body_pt8 m c
    · exact body_pt9 m c
    · exact body_pt10 m c
    · exact body_pt11 m c
    · exact body_pt12 m c
    · exact body_pt13 m c
    · exact body_pt14 m c
    · exact body_pt15 m c

end Cert.KernelProof

end
-- ==== Proof.lean ====
/- The proof of `Cert.Claim`: the attention kernel on its mesh of sixteen devices against the one-device softmax
   attention, over the extended reals.

   Each device walks its shard of the keys in four chunks per batch entry with the online-softmax recurrence (running
   maximum, normaliser, numerator rows), hands the three over to its partner on the second mesh axis by two remote
   copies per batch entry behind one barrier handshake, and merges its own and its partner's triples. The two shards'
   merged triples are the one-pass softmax-weighted sum over all keys (FlashAlgebra), which is what the reference
   computes (RefValue); the staged blocks are the arrays' blocks (InputFacts), so every device's result is the
   reference's (ValueGlue, ResultValue). The frames and the run with its result named come from the library's launch
   theorem for cores that owe at launch (Launch) applied to the body obligation at the sixteen grid points (Body), the
   cross-device protocol stated over the rounds discipline (Protocol, Data, RemoteRules). The word-level program's
   frame is the same development read at the word-level instance (the K… modules). -/
import proofs.«900428_g7700000000000429_dist_flashdec_v7x_xyz2x2x4_y_b4_sq32_skv4096_h8_d128_f32_1_alg».proof.Defs
import proofs.«900428_g7700000000000429_dist_flashdec_v7x_xyz2x2x4_y_b4_sq32_skv4096_h8_d128_f32_1_alg».proof.Proof.Claims
import proofs.«900428_g7700000000000429_dist_flashdec_v7x_xyz2x2x4_y_b4_sq32_skv4096_h8_d128_f32_1_alg».proof.Proof.KClaims
import proofs.«900428_g7700000000000429_dist_flashdec_v7x_xyz2x2x4_y_b4_sq32_skv4096_h8_d128_f32_1_alg».proof.Proof.Body
import proofs.«900428_g7700000000000429_dist_flashdec_v7x_xyz2x2x4_y_b4_sq32_skv4096_h8_d128_f32_1_alg».proof.Proof.KBody
import proofs.«900428_g7700000000000429_dist_flashdec_v7x_xyz2x2x4_y_b4_sq32_skv4096_h8_d128_f32_1_alg».proof.Proof.Gen.Kernel
import proofs.«900428_g7700000000000429_dist_flashdec_v7x_xyz2x2x4_y_b4_sq32_skv4096_h8_d128_f32_1_alg».proof.Proof.Gen.KernelIdeal
import proofs.«900428_g7700000000000429_dist_flashdec_v7x_xyz2x2x4_y_b4_sq32_skv4096_h8_d128_f32_1_alg».proof.Proof.Gen.ReferenceIdeal
import proofs.«900428_g7700000000000429_dist_flashdec_v7x_xyz2x2x4_y_b4_sq32_skv4096_h8_d128_f32_1_alg».proof.Proof.Gen.Pre_finite_inputs_Kernel
import proofs.«900428_g7700000000000429_dist_flashdec_v7x_xyz2x2x4_y_b4_sq32_skv4096_h8_d128_f32_1_alg».proof.Proof.Gen.Pre_finite_inputs_ReferenceIdeal
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    Cert.Proof.KClaims.frame_p (fun m c => Cert.KernelProof.hbody m c),
    Cert.Proof.Claims.frame_pi (fun m c => Cert.KernelIdealProof.hbody m c),
    Cert.Proof.Claims.frame_ri,
    Cert.Proof.Claims.preserves,
    Cert.Proof.Claims.algebraic (fun m c => Cert.KernelIdealProof.hbody m c)⟩

end Cert.Proof

end
